-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12))

def preserves_Kernel_KernelIdeal : Prop :=
  IdealRules.truncf_extf.Statement Cert.KernelIdeal.S256x128 .f32 .bf16
  ∧ IdealRules.truncf_extf.Statement Cert.KernelIdeal.S8x128 .f32 .bf16
  ∧ IdealRules.truncf_extf.Statement Cert.KernelIdeal.S256x512 .f32 .bf16
  ∧ IdealRules.truncf_extf.Statement Cert.KernelIdeal.S256x128 .f32 .bf16
  ∧ IdealRules.truncf_extf.Statement Cert.KernelIdeal.S256x512 .f32 .bf16
  ∧ IdealRules.truncf_extf.Statement Cert.KernelIdeal.S256x128 .f32 .bf16
  ∧ IdealRules.truncf_extf.Statement Cert.KernelIdeal.S2048x512 .f32 .bf16
  ∧ IdealRules.truncf_extf.Statement Cert.KernelIdeal.S2048x128 .f32 .bf16
  ∧ IdealRules.truncf_extf.Statement Cert.KernelIdeal.S2048x512 .f32 .bf16
  ∧ IdealRules.truncf_extf.Statement Cert.KernelIdeal.S2048x128 .f32 .bf16

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v309) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S512x2x128 : Shape := ⟨3, ![512, 2, 128]⟩
abbrev S512x512 : Shape := ⟨2, ![512, 512]⟩
abbrev S512x512x128 : Shape := ⟨3, ![512, 512, 128]⟩
abbrev S128x128 : Shape := ⟨2, ![128, 128]⟩
abbrev S4x32 : Shape := ⟨2, ![4, 32]⟩
abbrev S4 : Shape := ⟨1, ![4]⟩
abbrev S_ : Shape := ⟨0, ![]⟩

class Facts : Prop where
  bcast_S_S512x2x128 : S_.BroadcastsInDim S512x2x128 (![] : Fin 0 → Fin S512x2x128.rank)
  reducesTo_S512x2x128_S_d0_1_2 : S512x2x128.ReducesTo [0, 1, 2] S_
  h_S_ : 0 < S_.numel
  bcast_S_S512x512x128 : S_.BroadcastsInDim S512x512x128 (![] : Fin 0 → Fin S512x512x128.rank)
  reducesTo_S512x512x128_S_d0_1_2 : S512x512x128.ReducesTo [0, 1, 2] S_
  bcast_S_S128x128 : S_.BroadcastsInDim S128x128 (![] : Fin 0 → Fin S128x128.rank)
  reducesTo_S128x128_S_d0_1 : S128x128.ReducesTo [0, 1] S_
  bcast_S_S4x32 : S_.BroadcastsInDim S4x32 (![] : Fin 0 → Fin S4x32.rank)
  reducesTo_S4x32_S_d0_1 : S4x32.ReducesTo [0, 1] S_
  bcast_S_S4 : S_.BroadcastsInDim S4 (![] : Fin 0 → Fin S4.rank)
  reducesTo_S4_S_d0 : S4.ReducesTo [0] S_

variable [Facts]

def fn_part3 {F : FTy → Type} [FloatOps F] (main_arg12 : FVec F S4 .f32) (main_v48 : IVec S_ 1) (main_v49 : FVec F S4x32 .f32) (main_v50 : FVec F S4x32 .f32) : IVec S_ 1 :=
  let main_v51 : IVec S4x32 1 := cmpf .olt main_v49 main_v50
  let main_c_19 : IVec S_ 1 := constantI S_ 1 1#1
  let main_v52 : IVec S_ 1 := (fun x v => Host.reduce IntOp.andi x v reducesTo_S4x32_S_d0_1 h_S_) main_v51 main_c_19
  let main_v53 : IVec S_ 1 := andi main_v48 main_v52
  let main_v54 : FVec F S4 .f32 := Host.absf main_arg12
  let main_cst_20 : FVec F S_ .f32 := constant S_ .f32 0x7F800000#32
  let main_v55 : FVec F S4 .f32 := broadcastInDim S4 ![] bcast_S_S4 main_cst_20
  let main_v56 : IVec S4 1 := cmpf .olt main_v54 main_v55
  let main_c_21 : IVec S_ 1 := constantI S_ 1 1#1
  let main_v57 : IVec S_ 1 := (fun x v => Host.reduce IntOp.andi x v reducesTo_S4_S_d0 h_S_) main_v56 main_c_21
  let main_v58 : IVec S_ 1 := andi main_v53 main_v57
  main_v58

def fn_part2 {F : FTy → Type} [FloatOps F] (main_arg8 : FVec F S128x128 .f32) (main_arg9 : FVec F S128x128 .f32) (main_arg10 : FVec F S4x32 .f32) (main_arg11 : FVec F S4x32 .f32) (main_arg12 : FVec F S4 .f32) (main_v33 : IVec S_ 1) : IVec S_ 1 :=
  let main_v34 : FVec F S128x128 .f32 := Host.absf main_arg8
  let main_cst_12 : FVec F S_ .f32 := constant S_ .f32 0x7F800000#32
  let main_v35 : FVec F S128x128 .f32 := broadcastInDim S128x128 ![] bcast_S_S128x128 main_cst_12
  let main_v36 : IVec S128x128 1 := cmpf .olt main_v34 main_v35
  let main_c_13 : IVec S_ 1 := constantI S_ 1 1#1
  let main_v37 : IVec S_ 1 := (fun x v => Host.reduce IntOp.andi x v reducesTo_S128x128_S_d0_1 h_S_) main_v36 main_c_13
  let main_v38 : IVec S_ 1 := andi main_v33 main_v37
  let main_v39 : FVec F S128x128 .f32 := Host.absf main_arg9
  let main_cst_14 : FVec F S_ .f32 := constant S_ .f32 0x7F800000#32
  let main_v40 : FVec F S128x128 .f32 := broadcastInDim S128x128 ![] bcast_S_S128x128 main_cst_14
  let main_v41 : IVec S128x128 1 := cmpf .olt main_v39 main_v40
  let main_c_15 : IVec S_ 1 := constantI S_ 1 1#1
  let main_v42 : IVec S_ 1 := (fun x v => Host.reduce IntOp.andi x v reducesTo_S128x128_S_d0_1 h_S_) main_v41 main_c_15
  let main_v43 : IVec S_ 1 := andi main_v38 main_v42
  let main_v44 : FVec F S4x32 .f32 := Host.absf main_arg10
  let main_cst_16 : FVec F S_ .f32 := constant S_ .f32 0x7F800000#32
  let main_v45 : FVec F S4x32 .f32 := broadcastInDim S4x32 ![] bcast_S_S4x32 main_cst_16
  let main_v46 : IVec S4x32 1 := cmpf .olt main_v44 main_v45
  let main_c_17 : IVec S_ 1 := constantI S_ 1 1#1
  let main_v47 : IVec S_ 1 := (fun x v => Host.reduce IntOp.andi x v reducesTo_S4x32_S_d0_1 h_S_) main_v46 main_c_17
  let main_v48 : IVec S_ 1 := andi main_v43 main_v47
  let main_v49 : FVec F S4x32 .f32 := Host.absf main_arg11
  let main_cst_18 : FVec F S_ .f32 := constant S_ .f32 0x7F800000#32
  let main_v50 : FVec F S4x32 .f32 := broadcastInDim S4x32 ![] bcast_S_S4x32 main_cst_18
  fn_part3 (F := F) main_arg12 main_v48 main_v49 main_v50

def fn_part1 {F : FTy → Type} [FloatOps F] (main_arg5 : FVec F S4x32 .f32) (main_arg6 : FVec F S4x32 .f32) (main_arg7 : FVec F S4 .f32) (main_arg8 : FVec F S128x128 .f32) (main_arg9 : FVec F S128x128 .f32) (main_arg10 : FVec F S4x32 .f32) (main_arg11 : FVec F S4x32 .f32) (main_arg12 : FVec F S4 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S4x32 .f32 := Host.absf main_arg5
  let main_cst_6 : FVec F S_ .f32 := constant S_ .f32 0x7F800000#32
  let main_v20 : FVec F S4x32 .f32 := broadcastInDim S4x32 ![] bcast_S_S4x32 main_cst_6
  let main_v21 : IVec S4x32 1 := cmpf .olt main_v19 main_v20
  let main_c_7 : IVec S_ 1 := constantI S_ 1 1#1
  let main_v22 : IVec S_ 1 := (fun x v => Host.reduce IntOp.andi x v reducesTo_S4x32_S_d0_1 h_S_) main_v21 main_c_7
  let main_v23 : IVec S_ 1 := andi main_v18 main_v22
  let main_v24 : FVec F S4x32 .f32 := Host.absf main_arg6
  let main_cst_8 : FVec F S_ .f32 := constant S_ .f32 0x7F800000#32
  let main_v25 : FVec F S4x32 .f32 := broadcastInDim S4x32 ![] bcast_S_S4x32 main_cst_8
  let main_v26 : IVec S4x32 1 := cmpf .olt main_v24 main_v25
  let main_c_9 : IVec S_ 1 := constantI S_ 1 1#1
  let main_v27 : IVec S_ 1 := (fun x v => Host.reduce IntOp.andi x v reducesTo_S4x32_S_d0_1 h_S_) main_v26 main_c_9
  let main_v28 : IVec S_ 1 := andi main_v23 main_v27
  let main_v29 : FVec F S4 .f32 := Host.absf main_arg7
  let main_cst_10 : FVec F S_ .f32 := constant S_ .f32 0x7F800000#32
  let main_v30 : FVec F S4 .f32 := broadcastInDim S4 ![] bcast_S_S4 main_cst_10
  let main_v31 : IVec S4 1 := cmpf .olt main_v29 main_v30
  let main_c_11 : IVec S_ 1 := constantI S_ 1 1#1
  let main_v32 : IVec S_ 1 := (fun x v => Host.reduce IntOp.andi x v reducesTo_S4_S_d0 h_S_) main_v31 main_c_11
  let main_v33 : IVec S_ 1 := andi main_v28 main_v32
  fn_part2 (F := F) main_arg8 main_arg9 main_arg10 main_arg11 main_arg12 main_v33

def fn {F : FTy → Type} [FloatOps F] (main_arg0 : FVec F S512x2x128 .f32) (main_arg1 : IVec S512x512 32) (main_arg2 : FVec F S512x512x128 .f32) (main_arg3 : FVec F S128x128 .f32) (main_arg4 : FVec F S128x128 .f32) (main_arg5 : FVec F S4x32 .f32) (main_arg6 : FVec F S4x32 .f32) (main_arg7 : FVec F S4 .f32) (main_arg8 : FVec F S128x128 .f32) (main_arg9 : FVec F S128x128 .f32) (main_arg10 : FVec F S4x32 .f32) (main_arg11 : FVec F S4x32 .f32) (main_arg12 : FVec F S4 .f32) : IVec S_ 1 :=
  let main_v0 : FVec F S512x2x128 .f32 := Host.absf main_arg0
  let main_cst : FVec F S_ .f32 := constant S_ .f32 0x7F800000#32
  let main_v1 : FVec F S512x2x128 .f32 := broadcastInDim S512x2x128 ![] bcast_S_S512x2x128 main_cst
  let main_v2 : IVec S512x2x128 1 := cmpf .olt main_v0 main_v1
  let main_c : IVec S_ 1 := constantI S_ 1 1#1
  let main_v3 : IVec S_ 1 := (fun x v => Host.reduce IntOp.andi x v reducesTo_S512x2x128_S_d0_1_2 h_S_) main_v2 main_c
  let main_v4 : FVec F S512x512x128 .f32 := Host.absf main_arg2
  let main_cst_0 : FVec F S_ .f32 := constant S_ .f32 0x7F800000#32
  let main_v5 : FVec F S512x512x128 .f32 := broadcastInDim S512x512x128 ![] bcast_S_S512x512x128 main_cst_0
  let main_v6 : IVec S512x512x128 1 := cmpf .olt main_v4 main_v5
  let main_c_1 : IVec S_ 1 := constantI S_ 1 1#1
  let main_v7 : IVec S_ 1 := (fun x v => Host.reduce IntOp.andi x v reducesTo_S512x512x128_S_d0_1_2 h_S_) main_v6 main_c_1
  let main_v8 : IVec S_ 1 := andi main_v3 main_v7
  let main_v9 : FVec F S128x128 .f32 := Host.absf main_arg3
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128x128 .f32 := Host.absf main_arg4
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg5 main_arg6 main_arg7 main_arg8 main_arg9 main_arg10 main_arg11 main_arg12 main_v13 main_v16
-- ==== Kernel.lean ====
abbrev S512x2x128 : Shape := ⟨3, ![512, 2, 128]⟩
abbrev S512x512 : Shape := ⟨2, ![512, 512]⟩
abbrev S512x512x128 : Shape := ⟨3, ![512, 512, 128]⟩
abbrev S128x128 : Shape := ⟨2, ![128, 128]⟩
abbrev S4x32 : Shape := ⟨2, ![4, 32]⟩
abbrev S4 : Shape := ⟨1, ![4]⟩
abbrev S4x1 : Shape := ⟨2, ![4, 1]⟩
abbrev S64x512x128 : Shape := ⟨3, ![64, 512, 128]⟩
abbrev S4x512x512 : Shape := ⟨3, ![4, 512, 512]⟩
abbrev S2x512x128 : Shape := ⟨3, ![2, 512, 128]⟩
abbrev S512x8 : Shape := ⟨2, ![512, 8]⟩
abbrev S8x512 : Shape := ⟨2, ![8, 512]⟩
abbrev S512x1x128 : Shape := ⟨3, ![512, 1, 128]⟩
abbrev S512x128 : Shape := ⟨2, ![512, 128]⟩
abbrev S1x512x128 : Shape := ⟨3, ![1, 512, 128]⟩
abbrev S4x128 : Shape := ⟨2, ![4, 128]⟩
abbrev S512x4 : Shape := ⟨2, ![512, 4]⟩
abbrev S4x512 : Shape := ⟨2, ![4, 512]⟩
abbrev S256x128 : Shape := ⟨2, ![256, 128]⟩
abbrev S8x1 : Shape := ⟨2, ![8, 1]⟩
abbrev S8x32x128 : Shape := ⟨3, ![8, 32, 128]⟩
abbrev S8x128 : Shape := ⟨2, ![8, 128]⟩
abbrev S16x128 : Shape := ⟨2, ![16, 128]⟩
abbrev S32768x128 : Shape := ⟨2, ![32768, 128]⟩
abbrev S16x32768 : Shape := ⟨2, ![16, 32768]⟩
abbrev S8x32768 : Shape := ⟨2, ![8, 32768]⟩
abbrev S4x32768 : Shape := ⟨2, ![4, 32768]⟩
abbrev S4x64x512 : Shape := ⟨3, ![4, 64, 512]⟩
abbrev S64x512 : Shape := ⟨2, ![64, 512]⟩
abbrev S1x64x128 : Shape := ⟨3, ![1, 64, 128]⟩
abbrev S64x128 : Shape := ⟨2, ![64, 128]⟩
abbrev S64x1 : Shape := ⟨2, ![64, 1]⟩
abbrev S1x512 : Shape := ⟨2, ![1, 512]⟩
abbrev S1x64x512 : Shape := ⟨3, ![1, 64, 512]⟩
abbrev S256x512 : Shape := ⟨2, ![256, 512]⟩
abbrev S1x512x32 : Shape := ⟨3, ![1, 512, 32]⟩
abbrev S512x32 : Shape := ⟨2, ![512, 32]⟩
abbrev S512x1 : Shape := ⟨2, ![512, 1]⟩
abbrev S1x512x512 : Shape := ⟨3, ![1, 512, 512]⟩
abbrev S2048x512 : Shape := ⟨2, ![2048, 512]⟩
abbrev S4x1x512 : Shape := ⟨3, ![4, 1, 512]⟩
abbrev S2048x128 : Shape := ⟨2, ![2048, 128]⟩

abbrev nBuf : Space → Nat
  | .hbm => 16
  | .vmem => 21
  | .smem => 0
  | _ => 0

abbrev bufTy : (tb : Table) → Fin (tcTables nBuf tb) → BufTy
  | .hbm, ⟨0, _⟩ => ⟨S512x2x128, .f32⟩
  | .hbm, ⟨1, _⟩ => ⟨S512x512, .i32⟩
  | .hbm, ⟨2, _⟩ => ⟨S512x512x128, .f32⟩
  | .hbm, ⟨3, _⟩ => ⟨S128x128, .f32⟩
  | .hbm, ⟨4, _⟩ => ⟨S128x128, .f32⟩
  | .hbm, ⟨5, _⟩ => ⟨S4x32, .f32⟩
  | .hbm, ⟨6, _⟩ => ⟨S4x32, .f32⟩
  | .hbm, ⟨7, _⟩ => ⟨S4, .f32⟩
  | .hbm, ⟨8, _⟩ => ⟨S128x128, .f32⟩
  | .hbm, ⟨9, _⟩ => ⟨S128x128, .f32⟩
  | .hbm, ⟨10, _⟩ => ⟨S4x32, .f32⟩
  | .hbm, ⟨11, _⟩ => ⟨S4x32, .f32⟩
  | .hbm, ⟨12, _⟩ => ⟨S4, .f32⟩
  | .hbm, ⟨13, _⟩ => ⟨S4x1, .f32⟩
  | .hbm, ⟨14, _⟩ => ⟨S4x1, .f32⟩
  | .hbm, ⟨15, _⟩ => ⟨S512x2x128, .f32⟩
  | .local _ .vmem, ⟨0, _⟩ => ⟨S64x512x128, .f32⟩
  | .local _ .vmem, ⟨1, _⟩ => ⟨S64x512x128, .f32⟩
  | .local _ .vmem, ⟨2, _⟩ => ⟨S512x512, .i32⟩
  | .local _ .vmem, ⟨3, _⟩ => ⟨S512x2x128, .f32⟩
  | .local _ .vmem, ⟨4, _⟩ => ⟨S128x128, .f32⟩
  | .local _ .vmem, ⟨5, _⟩ => ⟨S128x128, .f32⟩
  | .local _ .vmem, ⟨6, _⟩ => ⟨S4x1, .f32⟩
  | .local _ .vmem, ⟨7, _⟩ => ⟨S4x1, .f32⟩
  | .local _ .vmem, ⟨8, _⟩ => ⟨S128x128, .f32⟩
  | .local _ .vmem, ⟨9, _⟩ => ⟨S4x32, .f32⟩
  | .local _ .vmem, ⟨10, _⟩ => ⟨S4x32, .f32⟩
  | .local _ .vmem, ⟨11, _⟩ => ⟨S128x128, .f32⟩
  | .local _ .vmem, ⟨12, _⟩ => ⟨S4x32, .f32⟩
  | .local _ .vmem, ⟨13, _⟩ => ⟨S4x32, .f32⟩
  | .local _ .vmem, ⟨14, _⟩ => ⟨S512x2x128, .f32⟩
  | .local _ .vmem, ⟨15, _⟩ => ⟨S4x512x512, .f32⟩
  | .local _ .vmem, ⟨16, _⟩ => ⟨S2x512x128, .f32⟩
  | .local _ .vmem, ⟨17, _⟩ => ⟨S512x8, .f32⟩
  | .local _ .vmem, ⟨18, _⟩ => ⟨S8x512, .f32⟩
  | .local _ .vmem, ⟨19, _⟩ => ⟨S2x512x128, .f32⟩
  | .local _ .vmem, ⟨20, _⟩ => ⟨S8x512, .f32⟩
  | _, _ => ⟨S512x2x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_call0_v0 : Ref sig .tc := ⟨.hbm, 13, rfl⟩
abbrev main_call0_v1 : Ref sig .tc := ⟨.hbm, 14, rfl⟩
abbrev main_v0 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg10_0 : Ref sig .tc := ⟨.vmem, 11, rfl⟩
abbrev cc0_stg11_0 : Ref sig .tc := ⟨.vmem, 12, rfl⟩
abbrev cc0_stg12_0 : Ref sig .tc := ⟨.vmem, 13, rfl⟩
abbrev cc0_stg13_0 : Ref sig .tc := ⟨.vmem, 14, rfl⟩
abbrev cc0_scratch0 : Ref sig .tc := ⟨.vmem, 15, rfl⟩
abbrev cc0_scratch1 : Ref sig .tc := ⟨.vmem, 16, rfl⟩
abbrev cc0_scratch2 : Ref sig .tc := ⟨.vmem, 17, rfl⟩
abbrev cc0_scratch3 : Ref sig .tc := ⟨.vmem, 18, rfl⟩
abbrev cc0_scratch4 : Ref sig .tc := ⟨.vmem, 19, rfl⟩
abbrev cc0_scratch5 : Ref sig .tc := ⟨.vmem, 20, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem10_0 : DmaSem sig := 11
abbrev cc0_sem11_0 : DmaSem sig := 12
abbrev cc0_sem12_0 : DmaSem sig := 13
abbrev cc0_sem13_0 : DmaSem sig := 14

abbrev nD : Nat := 1
abbrev τ : Topo := Topo.v7x

variable {F : FTy → Type} [FloatOps F]

abbrev grid0 : Pipeline.Grid := ⟨1, ![8], ![false]⟩

def k0_off1 (i : grid0.Coords) : Fin 3 → Nat :=
  let c0_12 : Index := 0#32
  let arg0 : BitVec 32 := BitVec.ofNat 32 (i 0).val
  let c64_i32 : BitVec 32 := 64#32
  let v33 : BitVec 32 := Scalar.muli arg0 c64_i32
  let v34 : Index := Scalar.indexCast v33
  let c0_13 : Index := 0#32
  ![0, v34.toNat, 0]
def k0_off2 (i : grid0.Coords) : Fin 2 → Nat :=
  let arg0 : BitVec 32 := BitVec.ofNat 32 (i 0).val
  let c64_i32_14 : BitVec 32 := 64#32
  let v38 : BitVec 32 := Scalar.muli arg0 c64_i32_14
  let v39 : Index := Scalar.indexCast v38
  let c0_15 : Index := 0#32
  ![v39.toNat, 0]
def k0_off3 (i : grid0.Coords) : Fin 3 → Nat :=
  let c0_18 : Index := 0#32
  let arg0 : BitVec 32 := BitVec.ofNat 32 (i 0).val
  let c64_i32_17 : BitVec 32 := 64#32
  let v45 : BitVec 32 := Scalar.muli arg0 c64_i32_17
  let v46 : Index := Scalar.indexCast v45
  let c0_19 : Index := 0#32
  ![0, v46.toNat, 0]
def k0_off4 (i : grid0.Coords) : Fin 2 → Nat :=
  let arg0 : BitVec 32 := BitVec.ofNat 32 (i 0).val
  let c64_i32_20 : BitVec 32 := 64#32
  let v49 : BitVec 32 := Scalar.muli arg0 c64_i32_20
  let v50 : Index := Scalar.indexCast v49
  let c0_21 : Index := 0#32
  ![v50.toNat, 0]
def k0_off5 (i : grid0.Coords) : Fin 2 → Nat :=
  let arg0 : BitVec 32 := BitVec.ofNat 32 (i 0).val
  let c64_i32_26 : BitVec 32 := 64#32
  let v66 : BitVec 32 := Scalar.muli arg0 c64_i32_26
  let v67 : Index := Scalar.indexCast v66
  let c1 : Index := 1#32
  ![v67.toNat, 1]
def k0_off6 (i : grid0.Coords) : Fin 2 → Nat :=
  let arg0 : BitVec 32 := BitVec.ofNat 32 (i 0).val
  let c64_i32_31 : BitVec 32 := 64#32
  let v83 : BitVec 32 := Scalar.muli arg0 c64_i32_31
  let v84 : Index := Scalar.indexCast v83
  let c2 : Index := 2#32
  ![v84.toNat, 2]
def k0_off7 (i : grid0.Coords) : Fin 2 → Nat :=
  let arg0 : BitVec 32 := BitVec.ofNat 32 (i 0).val
  let c64_i32_36 : BitVec 32 := 64#32
  let v100 : BitVec 32 := Scalar.muli arg0 c64_i32_36
  let v101 : Index := Scalar.indexCast v100
  let c3 : Index := 3#32
  ![v101.toNat, 3]
def k0_off8 (i : grid0.Coords) : Fin 3 → Nat :=
  let c1_69 : Index := 1#32
  let arg0 : BitVec 32 := BitVec.ofNat 32 (i 0).val
  let c64_i32_68 : BitVec 32 := 64#32
  let v198 : BitVec 32 := Scalar.muli arg0 c64_i32_68
  let v199 : Index := Scalar.indexCast v198
  let c0_70 : Index := 0#32
  ![1, v199.toNat, 0]
def k0_off9 (i : grid0.Coords) : Fin 2 → Nat :=
  let arg0 : BitVec 32 := BitVec.ofNat 32 (i 0).val
  let c64_i32_71 : BitVec 32 := 64#32
  let v202 : BitVec 32 := Scalar.muli arg0 c64_i32_71
  let v203 : Index := Scalar.indexCast v202
  let c4 : Index := 4#32
  ![v203.toNat, 4]
def k0_off10 (i : grid0.Coords) : Fin 2 → Nat :=
  let arg0 : BitVec 32 := BitVec.ofNat 32 (i 0).val
  let c64_i32_76 : BitVec 32 := 64#32
  let v219 : BitVec 32 := Scalar.muli arg0 c64_i32_76
  let v220 : Index := Scalar.indexCast v219
  let c5 : Index := 5#32
  ![v220.toNat, 5]
def k0_off11 (i : grid0.Coords) : Fin 2 → Nat :=
  let arg0 : BitVec 32 := BitVec.ofNat 32 (i 0).val
  let c64_i32_81 : BitVec 32 := 64#32
  let v236 : BitVec 32 := Scalar.muli arg0 c64_i32_81
  let v237 : Index := Scalar.indexCast v236
  let c6 : Index := 6#32
  ![v237.toNat, 6]
def k0_off12 (i : grid0.Coords) : Fin 2 → Nat :=
  let arg0 : BitVec 32 := BitVec.ofNat 32 (i 0).val
  let c64_i32_86 : BitVec 32 := 64#32
  let v253 : BitVec 32 := Scalar.muli arg0 c64_i32_86
  let v254 : Index := Scalar.indexCast v253
  let c7 : Index := 7#32
  ![v254.toNat, 7]
def k0_cond2 (i : grid0.Coords) : BitVec 1 :=
  let arg0 : BitVec 32 := BitVec.ofNat 32 (i 0).val
  let c7_i32 : BitVec 32 := 7#32
  let v351 : BitVec 1 := Scalar.cmpi .eq arg0 c7_i32
  let v352 : BitVec 32 := Scalar.extui v351
  let c0_i32_120 : BitVec 32 := 0#32
  let v353 : BitVec 1 := Scalar.cmpi .ne v352 c0_i32_120
  v353

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

abbrev stage0_0 : Fin 2 → Memref sig .tc .vmem S64x512x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x512 .i32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S512x2x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S4x1 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S4x1 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S128x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S4x32 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S4x32 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S128x128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S4x32 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S4x32 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S512x2x128 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

class Facts₀ : Prop where
  shapeCasts_S4_S4x1 : S4.ShapeCasts S4x1
  inb_S512x2x128_S512x1x128_0_0_0 : ∀ a, (![0, 0, 0] : Fin 3 → Nat) a + S512x1x128.size a ≤ S512x2x128.size a
  h_S512x1x128 : 0 < S512x1x128.numel
  shapeCasts_S512x1x128_S512x128 : S512x1x128.ShapeCasts S512x128
  inb_S128x128_S128x128_0_0 : ∀ a, (![0, 0] : Fin 2 → Nat) a + S128x128.size a ≤ S128x128.size a
  h_S128x128 : 0 < S128x128.numel
  inb_S2x512x128_S1x512x128_0_0_0 : ∀ a, (![0, 0, 0] : Fin 3 → Nat) a + S1x512x128.size a ≤ S2x512x128.size a
  h_S1x512x128 : 0 < S1x512x128.numel
  shapeCasts_S1x512x128_S512x128 : S1x512x128.ShapeCasts S512x128
  shapeCasts_S512x128_S1x512x128 : S512x128.ShapeCasts S1x512x128
  inb_S4x32_S4x32_0_0 : ∀ a, (![0, 0] : Fin 2 → Nat) a + S4x32.size a ≤ S4x32.size a
  h_S4x32 : 0 < S4x32.numel
  concatenates_S4x32_S4x32_S4x32_S4x32_S4x128_d1 : Shape.Concatenates [S4x32, S4x32, S4x32, S4x32] S4x128 1
  iota_S4x128_d0_w32 : S4x128.Iotas .tc 32 [0]
  iota_S4x128_d1_w32 : S4x128.Iotas .tc 32 [1]
  natLt_1_32 : 1 < 32
  inb_S512x8_S512x4_0_0 : ∀ a, (![0, 0] : Fin 2 → Nat) a + S512x4.size a ≤ S512x8.size a
  h_S512x4 : 0 < S512x4.numel
  shapeCasts_S512x4_S512x4 : S512x4.ShapeCasts S512x4
  transposes_S512x4_p1_0_S4x512 : S512x4.Transposes [1, 0] S4x512
  inb_S8x512_S4x512_0_0 : ∀ a, (![0, 0] : Fin 2 → Nat) a + S4x512.size a ≤ S8x512.size a
  h_S4x512 : 0 < S4x512.numel
  shapeCasts_S4x512_S4x512 : S4x512.ShapeCasts S4x512
  inb_S512x2x128_S512x1x128_0_1_0 : ∀ a, (![0, 1, 0] : Fin 3 → Nat) a + S512x1x128.size a ≤ S512x2x128.size a
  inb_S2x512x128_S1x512x128_1_0_0 : ∀ a, (![1, 0, 0] : Fin 3 → Nat) a + S1x512x128.size a ≤ S2x512x128.size a
  inb_S512x8_S512x4_0_4 : ∀ a, (![0, 4] : Fin 2 → Nat) a + S512x4.size a ≤ S512x8.size a
  inb_S8x512_S4x512_4_0 : ∀ a, (![4, 0] : Fin 2 → Nat) a + S4x512.size a ≤ S8x512.size a
  inb_S8x512_S8x512_0_0 : ∀ a, (![0, 0] : Fin 2 → Nat) a + S8x512.size a ≤ S8x512.size a
  h_S8x512 : 0 < S8x512.numel
  shapeCasts_S8x512_S8x512 : S8x512.ShapeCasts S8x512
  concatenates_S128x128_S128x128_S256x128_d0 : Shape.Concatenates [S128x128, S128x128] S256x128 0
  inb_S4x1_S4x1_0_0 : ∀ a, (![0, 0] : Fin 2 → Nat) a + S4x1.size a ≤ S4x1.size a
  h_S4x1 : 0 < S4x1.numel
  shapeCasts_S4x1_S4x1 : S4x1.ShapeCasts S4x1
  concatenates_S4x1_S4x1_S8x1_d0 : Shape.Concatenates [S4x1, S4x1] S8x1 0
  bitsLt_bf16_f32 : FTy.bits .bf16 < FTy.bits .f32
  shapeCasts_S256x128_S8x32x128 : S256x128.ShapeCasts S8x32x128
  reduces_S8x32x128_S8x128 : S8x32x128.Reduces [1] S8x128
  concatenates_S8x128_S8x128_S16x128_d0 : Shape.Concatenates [S8x128, S8x128] S16x128 0
  inb_S64x512x128_S64x512x128_0_0_0 : ∀ a, (![0, 0, 0] : Fin 3 → Nat) a + S64x512x128.size a ≤ S64x512x128.size a
  h_S64x512x128 : 0 < S64x512x128.numel
  shapeCasts_S64x512x128_S32768x128 : S64x512x128.ShapeCasts S32768x128
  slices_S16x32768_o0_0_S8x32768 : S16x32768.Slices ![0, 0] S8x32768
  slices_S16x32768_o8_0_S8x32768 : S16x32768.Slices ![8, 0] S8x32768
  broadcasts_S8x1_S8x32768 : S8x1.Broadcasts S8x32768
  slices_S8x32768_o0_0_S4x32768 : S8x32768.Slices ![0, 0] S4x32768
  shapeCasts_S4x32768_S4x64x512 : S4x32768.ShapeCasts S4x64x512
  slices_S8x32768_o4_0_S4x32768 : S8x32768.Slices ![4, 0] S4x32768
  h_S4x64x512 : 0 < S4x64x512.numel
  shapeCasts_S4x64x512_S4x64x512 : S4x64x512.ShapeCasts S4x64x512
  h_S64x512 : 0 < S64x512.numel
  h_S1x64x128 : 0 < S1x64x128.numel
  shapeCasts_S1x64x128_S64x128 : S1x64x128.ShapeCasts S64x128
  h_S64x1 : 0 < S64x1.numel
  inb_S8x512_S1x512_0_0 : ∀ a, (![0, 0] : Fin 2 → Nat) a + S1x512.size a ≤ S8x512.size a
  h_S1x512 : 0 < S1x512.numel
  broadcasts_S64x1_S64x512 : S64x1.Broadcasts S64x512
  broadcasts_S1x512_S64x512 : S1x512.Broadcasts S64x512
  slices_S4x64x512_o0_0_0_S1x64x512 : S4x64x512.Slices ![0, 0, 0] S1x64x512
  shapeCasts_S1x64x512_S64x512 : S1x64x512.ShapeCasts S64x512
  inb_S8x512_S1x512_1_0 : ∀ a, (![1, 0] : Fin 2 → Nat) a + S1x512.size a ≤ S8x512.size a
  slices_S4x64x512_o1_0_0_S1x64x512 : S4x64x512.Slices ![1, 0, 0] S1x64x512
  inb_S8x512_S1x512_2_0 : ∀ a, (![2, 0] : Fin 2 → Nat) a + S1x512.size a ≤ S8x512.size a
  slices_S4x64x512_o2_0_0_S1x64x512 : S4x64x512.Slices ![2, 0, 0] S1x64x512
  inb_S8x512_S1x512_3_0 : ∀ a, (![3, 0] : Fin 2 → Nat) a + S1x512.size a ≤ S8x512.size a
  slices_S4x64x512_o3_0_0_S1x64x512 : S4x64x512.Slices ![3, 0, 0] S1x64x512
  concatenates_S64x512_S64x512_S64x512_S64x512_S256x512_d0 : Shape.Concatenates [S64x512, S64x512, S64x512, S64x512] S256x512 0
  shapeCasts_S256x512_S4x64x512 : S256x512.ShapeCasts S4x64x512
  reduces_S4x64x512_S4x512 : S4x64x512.Reduces [1] S4x512
  concatenates_S64x128_S64x128_S64x128_S64x128_S256x128_d0 : Shape.Concatenates [S64x128, S64x128, S64x128, S64x128] S256x128 0
  iota_S256x128_d0_w32 : S256x128.Iotas .tc 32 [0]
  iota_S256x128_d1_w32 : S256x128.Iotas .tc 32 [1]
  inb_S8x512_S1x512_4_0 : ∀ a, (![4, 0] : Fin 2 → Nat) a + S1x512.size a ≤ S8x512.size a
  inb_S8x512_S1x512_5_0 : ∀ a, (![5, 0] : Fin 2 → Nat) a + S1x512.size a ≤ S8x512.size a
  inb_S8x512_S1x512_6_0 : ∀ a, (![6, 0] : Fin 2 → Nat) a + S1x512.size a ≤ S8x512.size a
  inb_S8x512_S1x512_7_0 : ∀ a, (![7, 0] : Fin 2 → Nat) a + S1x512.size a ≤ S8x512.size a
  transposes_S8x512_p1_0_S512x8 : S8x512.Transposes [1, 0] S512x8
  inb_S512x512_S512x512_0_0 : ∀ a, (![0, 0] : Fin 2 → Nat) a + S512x512.size a ≤ S512x512.size a
  h_S512x512 : 0 < S512x512.numel
  inb_S2x512x128_S1x512x32_0_0_0 : ∀ a, (![0, 0, 0] : Fin 3 → Nat) a + S1x512x32.size a ≤ S2x512x128.size a
  h_S1x512x32 : 0 < S1x512x32.numel
  shapeCasts_S1x512x32_S512x32 : S1x512x32.ShapeCasts S512x32
  slices_S512x8_o0_0_S512x1 : S512x8.Slices ![0, 0] S512x1
  broadcasts_S512x1_S512x32 : S512x1.Broadcasts S512x32
  inb_S2x512x128_S1x512x32_0_0_32 : ∀ a, (![0, 0, 32] : Fin 3 → Nat) a + S1x512x32.size a ≤ S2x512x128.size a
  slices_S512x8_o0_1_S512x1 : S512x8.Slices ![0, 1] S512x1
  inb_S2x512x128_S1x512x32_0_0_64 : ∀ a, (![0, 0, 64] : Fin 3 → Nat) a + S1x512x32.size a ≤ S2x512x128.size a
  slices_S512x8_o0_2_S512x1 : S512x8.Slices ![0, 2] S512x1
  inb_S2x512x128_S1x512x32_0_0_96 : ∀ a, (![0, 0, 96] : Fin 3 → Nat) a + S1x512x32.size a ≤ S2x512x128.size a
  slices_S512x8_o0_3_S512x1 : S512x8.Slices ![0, 3] S512x1
  concatenates_S512x32_S512x32_S512x32_S512x32_S512x128_d1 : Shape.Concatenates [S512x32, S512x32, S512x32, S512x32] S512x128 1
  slices_S512x4_o0_0_S512x1 : S512x4.Slices ![0, 0] S512x1
  slices_S4x512_o0_0_S1x512 : S4x512.Slices ![0, 0] S1x512
  broadcasts_S512x1_S512x512 : S512x1.Broadcasts S512x512
  broadcasts_S1x512_S512x512 : S1x512.Broadcasts S512x512
  inb_S4x512x512_S1x512x512_0_0_0 : ∀ a, (![0, 0, 0] : Fin 3 → Nat) a + S1x512x512.size a ≤ S4x512x512.size a
  h_S1x512x512 : 0 < S1x512x512.numel
  shapeCasts_S1x512x512_S512x512 : S1x512x512.ShapeCasts S512x512
  slices_S512x4_o0_1_S512x1 : S512x4.Slices ![0, 1] S512x1
  slices_S4x512_o1_0_S1x512 : S4x512.Slices ![1, 0] S1x512
  inb_S4x512x512_S1x512x512_1_0_0 : ∀ a, (![1, 0, 0] : Fin 3 → Nat) a + S1x512x512.size a ≤ S4x512x512.size a
  slices_S512x4_o0_2_S512x1 : S512x4.Slices ![0, 2] S512x1
  slices_S4x512_o2_0_S1x512 : S4x512.Slices ![2, 0] S1x512
  inb_S4x512x512_S1x512x512_2_0_0 : ∀ a, (![2, 0, 0] : Fin 3 → Nat) a + S1x512x512.size a ≤ S4x512x512.size a
  slices_S512x4_o0_3_S512x1 : S512x4.Slices ![0, 3] S512x1
  slices_S4x512_o3_0_S1x512 : S4x512.Slices ![3, 0] S1x512
  inb_S4x512x512_S1x512x512_3_0_0 : ∀ a, (![3, 0, 0] : Fin 3 → Nat) a + S1x512x512.size a ≤ S4x512x512.size a
  concatenates_S512x512_S512x512_S512x512_S512x512_S2048x512_d0 : Shape.Concatenates [S512x512, S512x512, S512x512, S512x512] S2048x512 0
  shapeCasts_S2048x512_S4x512x512 : S2048x512.ShapeCasts S4x512x512
  reduces_S4x512x512_S4x512 : S4x512x512.Reduces [1] S4x512
  shapeCasts_S4x512_S4x1x512 : S4x512.ShapeCasts S4x1x512
  shapeCasts_S4x1x512_S4x1x512 : S4x1x512.ShapeCasts S4x1x512
  broadcasts_S4x1x512_S4x512x512 : S4x1x512.Broadcasts S4x512x512
  shapeCasts_S4x512x512_S2048x512 : S4x512x512.ShapeCasts S2048x512
  concatenates_S512x128_S512x128_S512x128_S512x128_S2048x128_d0 : Shape.Concatenates [S512x128, S512x128, S512x128, S512x128] S2048x128 0
  iota_S2048x128_d0_w32 : S2048x128.Iotas .tc 32 [0]
  iota_S2048x128_d1_w32 : S2048x128.Iotas .tc 32 [1]
  shapeCasts_S512x128_S512x1x128 : S512x128.ShapeCasts S512x1x128
  inb_S2x512x128_S1x512x32_1_0_0 : ∀ a, (![1, 0, 0] : Fin 3 → Nat) a + S1x512x32.size a ≤ S2x512x128.size a
  slices_S512x8_o0_4_S512x1 : S512x8.Slices ![0, 4] S512x1
  inb_S2x512x128_S1x512x32_1_0_32 : ∀ a, (![1, 0, 32] : Fin 3 → Nat) a + S1x512x32.size a ≤ S2x512x128.size a
  slices_S512x8_o0_5_S512x1 : S512x8.Slices ![0, 5] S512x1
  inb_S2x512x128_S1x512x32_1_0_64 : ∀ a, (![1, 0, 64] : Fin 3 → Nat) a + S1x512x32.size a ≤ S2x512x128.size a
  slices_S512x8_o0_6_S512x1 : S512x8.Slices ![0, 6] S512x1
  inb_S2x512x128_S1x512x32_1_0_96 : ∀ a, (![1, 0, 96] : Fin 3 → Nat) a + S1x512x32.size a ≤ S2x512x128.size a
  slices_S512x8_o0_7_S512x1 : S512x8.Slices ![0, 7] S512x1
  dot_S512x128_S128x128_S512x128_1_1_0_0_n_n_wf : DotDims.WF S512x128 S128x128 S512x128 [1] [1] [0] [0] [] []
  dot_S512x128_S4x128_S512x4_1_1_0_0_n_n_wf : DotDims.WF S512x128 S4x128 S512x4 [1] [1] [0] [0] [] []
  dot_S16x128_S32768x128_S16x32768_1_1_0_0_n_n_wf : DotDims.WF S16x128 S32768x128 S16x32768 [1] [1] [0] [0] [] []
  dot_S256x512_S256x128_S512x128_0_0_1_1_n_n_wf : DotDims.WF S256x512 S256x128 S512x128 [0] [0] [1] [1] [] []
  dot_S2048x512_S2048x128_S512x128_0_0_1_1_n_n_wf : DotDims.WF S2048x512 S2048x128 S512x128 [0] [0] [1] [1] [] []
  hrank0 : 0 < grid0.rank
  k0_off1_inb : ∀ i : grid0.Coords, ∀ a, (k0_off1 i) a + S4x64x512.size a ≤ S4x512x512.size a
  k0_off2_inb : ∀ i : grid0.Coords, ∀ a, (k0_off2 i) a + S64x512.size a ≤ S512x512.size a
  k0_off3_inb : ∀ i : grid0.Coords, ∀ a, (k0_off3 i) a + S1x64x128.size a ≤ S2x512x128.size a
  k0_off4_inb : ∀ i : grid0.Coords, ∀ a, (k0_off4 i) a + S64x1.size a ≤ S512x8.size a
  k0_off5_inb : ∀ i : grid0.Coords, ∀ a, (k0_off5 i) a + S64x1.size a ≤ S512x8.size a
  k0_off6_inb : ∀ i : grid0.Coords, ∀ a, (k0_off6 i) a + S64x1.size a ≤ S512x8.size a
  k0_off7_inb : ∀ i : grid0.Coords, ∀ a, (k0_off7 i) a + S64x1.size a ≤ S512x8.size a
  k0_off8_inb : ∀ i : grid0.Coords, ∀ a, (k0_off8 i) a + S1x64x128.size a ≤ S2x512x128.size a
  k0_off9_inb : ∀ i : grid0.Coords, ∀ a, (k0_off9 i) a + S64x1.size a ≤ S512x8.size a
  k0_off10_inb : ∀ i : grid0.Coords, ∀ a, (k0_off10 i) a + S64x1.size a ≤ S512x8.size a
  k0_off11_inb : ∀ i : grid0.Coords, ∀ a, (k0_off11 i) a + S64x1.size a ≤ S512x8.size a
  k0_off12_inb : ∀ i : grid0.Coords, ∀ a, (k0_off12 i) a + S64x1.size a ≤ S512x8.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S64x512x128.size a ≤ S512x512x128.size a
  hwx0_0 : ∀ i : grid0.Coords, EltTy.bits .f32 = 32 ∨ (Rect.block (s := S512x512x128) S64x512x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x512.size a ≤ S512x512.size a
  hwx0_1 : ∀ i : grid0.Coords, EltTy.bits .i32 = 32 ∨ (Rect.block (s := S512x512) S512x512.size (cc0_transform_1 i) (hinb0_1 i)).WholeWords (EltTy.packing .i32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S512x2x128.size a ≤ S512x2x128.size a
  hwx0_2 : ∀ i : grid0.Coords, EltTy.bits .f32 = 32 ∨ (Rect.block (s := S512x2x128) S512x2x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .f32 = 32 ∨ (Rect.block (s := S128x128) S128x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x128.size a ≤ S128x128.size a
  hwx0_4 : ∀ i : grid0.Coords, EltTy.bits .f32 = 32 ∨ (Rect.block (s := S128x128) S128x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S4x1.size a ≤ S4x1.size a
  hwx0_5 : ∀ i : grid0.Coords, EltTy.bits .f32 = 32 ∨ (Rect.block (s := S4x1) S4x1.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S4x1.size a ≤ S4x1.size a
  hwx0_6 : ∀ i : grid0.Coords, EltTy.bits .f32 = 32 ∨ (Rect.block (s := S4x1) S4x1.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S128x128.size a ≤ S128x128.size a
  hwx0_7 : ∀ i : grid0.Coords, EltTy.bits .f32 = 32 ∨ (Rect.block (s := S128x128) S128x128.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S4x32.size a ≤ S4x32.size a
  hwx0_8 : ∀ i : grid0.Coords, EltTy.bits .f32 = 32 ∨ (Rect.block (s := S4x32) S4x32.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S4x32.size a ≤ S4x32.size a
  hwx0_9 : ∀ i : grid0.Coords, EltTy.bits .f32 = 32 ∨ (Rect.block (s := S4x32) S4x32.size (cc0_transform_9 i) (hinb0_9 i)).WholeWords (EltTy.packing .f32)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S128x128.size a ≤ S128x128.size a
  hwx0_10 : ∀ i : grid0.Coords, EltTy.bits .f32 = 32 ∨ (Rect.block (s := S128x128) S128x128.size (cc0_transform_10 i) (hinb0_10 i)).WholeWords (EltTy.packing .f32)
  hstage0_11 : ∀ j, (stage0_11 j).IsWhole
  nbuf0_11 : grid0.bufCount reads0_11 true = 1
  hreads0_11 : ∀ i i' : grid0.Coords, (∀ a, reads0_11 a = true → i a = i' a) → cc0_transform_11 i = cc0_transform_11 i'
  hinb0_11 : ∀ (i : grid0.Coords) a, (cc0_transform_11 i a + 1) * S4x32.size a ≤ S4x32.size a
  hwx0_11 : ∀ i : grid0.Coords, EltTy.bits .f32 = 32 ∨ (Rect.block (s := S4x32) S4x32.size (cc0_transform_11 i) (hinb0_11 i)).WholeWords (EltTy.packing .f32)
  hstage0_12 : ∀ j, (stage0_12 j).IsWhole
  nbuf0_12 : grid0.bufCount reads0_12 true = 1
  hreads0_12 : ∀ i i' : grid0.Coords, (∀ a, reads0_12 a = true → i a = i' a) → cc0_transform_12 i = cc0_transform_12 i'
  hinb0_12 : ∀ (i : grid0.Coords) a, (cc0_transform_12 i a + 1) * S4x32.size a ≤ S4x32.size a
  hwx0_12 : ∀ i : grid0.Coords, EltTy.bits .f32 = 32 ∨ (Rect.block (s := S4x32) S4x32.size (cc0_transform_12 i) (hinb0_12 i)).WholeWords (EltTy.packing .f32)
  hstage0_13 : ∀ j, (stage0_13 j).IsWhole
  nbuf0_13 : grid0.bufCount reads0_13 true = 1
  hreads0_13 : ∀ i i' : grid0.Coords, (∀ a, reads0_13 a = true → i a = i' a) → cc0_transform_13 i = cc0_transform_13 i'
  hinb0_13 : ∀ (i : grid0.Coords) a, (cc0_transform_13 i a + 1) * S512x2x128.size a ≤ S512x2x128.size a
  hwx0_13 : ∀ i : grid0.Coords, EltTy.bits .f32 = 32 ∨ (Rect.block (s := S512x2x128) S512x2x128.size (cc0_transform_13 i) (hinb0_13 i)).WholeWords (EltTy.packing .f32)

variable [Facts₀]

def dot_S512x128_S128x128_S512x128_1_1_0_0_n_n : DotDims S512x128 S128x128 S512x128 where
  lhsContracting := [1]
  rhsContracting := [1]
  lhsNonContracting := [0]
  rhsNonContracting := [0]
  lhsBatch := []
  rhsBatch := []
  wf := dot_S512x128_S128x128_S512x128_1_1_0_0_n_n_wf
def dot_S512x128_S4x128_S512x4_1_1_0_0_n_n : DotDims S512x128 S4x128 S512x4 where
  lhsContracting := [1]
  rhsContracting := [1]
  lhsNonContracting := [0]
  rhsNonContracting := [0]
  lhsBatch := []
  rhsBatch := []
  wf := dot_S512x128_S4x128_S512x4_1_1_0_0_n_n_wf
def dot_S16x128_S32768x128_S16x32768_1_1_0_0_n_n : DotDims S16x128 S32768x128 S16x32768 where
  lhsContracting := [1]
  rhsContracting := [1]
  lhsNonContracting := [0]
  rhsNonContracting := [0]
  lhsBatch := []
  rhsBatch := []
  wf := dot_S16x128_S32768x128_S16x32768_1_1_0_0_n_n_wf
def dot_S256x512_S256x128_S512x128_0_0_1_1_n_n : DotDims S256x512 S256x128 S512x128 where
  lhsContracting := [0]
  rhsContracting := [0]
  lhsNonContracting := [1]
  rhsNonContracting := [1]
  lhsBatch := []
  rhsBatch := []
  wf := dot_S256x512_S256x128_S512x128_0_0_1_1_n_n_wf
def dot_S2048x512_S2048x128_S512x128_0_0_1_1_n_n : DotDims S2048x512 S2048x128 S512x128 where
  lhsContracting := [0]
  rhsContracting := [0]
  lhsNonContracting := [1]
  rhsNonContracting := [1]
  lhsBatch := []
  rhsBatch := []
  wf := dot_S2048x512_S2048x128_S512x128_0_0_1_1_n_n_wf

abbrev win0_0 : Pipeline.Window sig grid0 :=
  Pipeline.Window.ofSpec (Memref.whole main_arg2) S64x512x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S512x512.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg0) S512x2x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg4) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg9) S128x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_call0_v0) S4x1.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_call0_v1) S4x1.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg3) S128x128.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_arg5) S4x32.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_arg6) S4x32.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_arg8) S128x128.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_arg10) S4x32.size cc0_transform_11 reads0_11 false true 1 stage0_11 sem0_11
    hrank0 hreads0_11 hinb0_11 nbuf0_11 (Memref.isWhole_whole _) hwx0_11 hstage0_11

abbrev win0_12 : Pipeline.Window sig grid0 :=
  Pipeline.Window.ofSpec (Memref.whole main_arg11) S4x32.size cc0_transform_12 reads0_12 false true 1 stage0_12 sem0_12
    hrank0 hreads0_12 hinb0_12 nbuf0_12 (Memref.isWhole_whole _) hwx0_12 hstage0_12

abbrev win0_13 : Pipeline.Window sig grid0 :=
  Pipeline.Window.ofSpec (Memref.whole main_v0) S512x2x128.size cc0_transform_13 reads0_13 true true 1 stage0_13 sem0_13
    hrank0 hreads0_13 hinb0_13 nbuf0_13 (Memref.isWhole_whole _) hwx0_13 hstage0_13

abbrev win0 : Fin 14 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | 13 => win0_13 | ⟨_ + 14, h⟩ => absurd h (Nat.not_lt.2 (Nat.le_add_left _ _))
abbrev spec0 : Fin 14 → Pipeline.WinSpec sig grid0.rank := fun w => (win0 w).toWinSpec

abbrev idle0 : Fin 14 → grid0.Coords → Bool := fun | 0 => fun _ => false | 1 => fun _ => false | 2 => fun _ => false | 3 => fun _ => false | 4 => fun _ => false | 5 => fun _ => false | 6 => fun _ => false | 7 => fun _ => false | 8 => fun _ => false | 9 => fun _ => false | 10 => fun _ => false | 11 => fun _ => false | 12 => fun _ => false | 13 => fun i => !(k0_cond2 i == 1#1) | ⟨_ + 14, h⟩ => absurd h (Nat.not_lt.2 (Nat.le_add_left _ _))

class Facts : Prop extends Facts₀ where

variable [Facts]
-- ==== ReferenceIdeal.lean ====
abbrev S512x2x128 : Shape := ⟨3, ![512, 2, 128]⟩
abbrev S512x512 : Shape := ⟨2, ![512, 512]⟩
abbrev S512x512x128 : Shape := ⟨3, ![512, 512, 128]⟩
abbrev S128x128 : Shape := ⟨2, ![128, 128]⟩
abbrev S4x32 : Shape := ⟨2, ![4, 32]⟩
abbrev S4 : Shape := ⟨1, ![4]⟩
abbrev S512 : Shape := ⟨1, ![512]⟩
abbrev S262144 : Shape := ⟨1, ![262144]⟩
abbrev S1x512 : Shape := ⟨2, ![1, 512]⟩
abbrev S_ : Shape := ⟨0, ![]⟩
abbrev S262144x1 : Shape := ⟨2, ![262144, 1]⟩
abbrev S262144x2 : Shape := ⟨2, ![262144, 2]⟩
abbrev S262144x128 : Shape := ⟨2, ![262144, 128]⟩
abbrev S262144x4x32 : Shape := ⟨3, ![262144, 4, 32]⟩
abbrev S262144x4 : Shape := ⟨2, ![262144, 4]⟩
abbrev S1x4 : Shape := ⟨2, ![1, 4]⟩
abbrev S512x1x128 : Shape := ⟨3, ![512, 1, 128]⟩
abbrev S512x128 : Shape := ⟨2, ![512, 128]⟩
abbrev S512x4x32 : Shape := ⟨3, ![512, 4, 32]⟩
abbrev S1x4x32 : Shape := ⟨3, ![1, 4, 32]⟩
abbrev S512x4 : Shape := ⟨2, ![512, 4]⟩
abbrev S262144x4x1 : Shape := ⟨3, ![262144, 4, 1]⟩

abbrev nBuf : Space → Nat
  | .hbm => 438
  | .vmem => 0
  | .smem => 0
  | _ => 0

abbrev hbmTy0_0 (i : Nat) : BufTy := match i % 128 with
  | 0 => ⟨S512x2x128, .f32⟩
  | 1 => ⟨S512x512, .i32⟩
  | 2 => ⟨S512x512x128, .f32⟩
  | 3 => ⟨S128x128, .f32⟩
  | 4 => ⟨S128x128, .f32⟩
  | 5 => ⟨S4x32, .f32⟩
  | 6 => ⟨S4x32, .f32⟩
  | 7 => ⟨S4, .f32⟩
  | 8 => ⟨S128x128, .f32⟩
  | 9 => ⟨S128x128, .f32⟩
  | 10 => ⟨S4x32, .f32⟩
  | 11 => ⟨S4x32, .f32⟩
  | 12 => ⟨S4, .f32⟩
  | 13 => ⟨S512, .i32⟩
  | 14 => ⟨S512x512, .i32⟩
  | 15 => ⟨S262144, .i32⟩
  | 16 => ⟨S512, .i32⟩
  | 17 => ⟨S1x512, .i32⟩
  | 18 => ⟨S512x512, .i32⟩
  | 19 => ⟨S262144, .i32⟩
  | 20 => ⟨S262144, .i32⟩
  | 21 => ⟨S_, .i32⟩
  | 22 => ⟨S262144, .i32⟩
  | 23 => ⟨S262144, .i1⟩
  | 24 => ⟨S_, .i32⟩
  | 25 => ⟨S262144, .i32⟩
  | 26 => ⟨S262144, .i1⟩
  | 27 => ⟨S_, .i32⟩
  | 28 => ⟨S262144, .i32⟩
  | 29 => ⟨S262144, .i32⟩
  | 30 => ⟨S262144, .i32⟩
  | 31 => ⟨S_, .i32⟩
  | 32 => ⟨S262144, .i32⟩
  | 33 => ⟨S262144, .i1⟩
  | 34 => ⟨S_, .i32⟩
  | 35 => ⟨S262144, .i32⟩
  | 36 => ⟨S262144, .i32⟩
  | 37 => ⟨S262144, .i32⟩
  | 38 => ⟨S262144x1, .i32⟩
  | 39 => ⟨S262144x1, .i32⟩
  | 40 => ⟨S262144x2, .i32⟩
  | 41 => ⟨S262144x128, .f32⟩
  | 42 => ⟨S128x128, .f32⟩
  | 43 => ⟨S262144x128, .f32⟩
  | 44 => ⟨S262144x4x32, .f32⟩
  | 45 => ⟨S_, .f32⟩
  | 46 => ⟨S262144x4, .f32⟩
  | 47 => ⟨S1x4, .f32⟩
  | 48 => ⟨S262144x4, .f32⟩
  | 49 => ⟨S262144x4, .f32⟩
  | 50 => ⟨S512x1x128, .f32⟩
  | 51 => ⟨S512x128, .f32⟩
  | 52 => ⟨S128x128, .f32⟩
  | 53 => ⟨S512x128, .f32⟩
  | 54 => ⟨S512x4x32, .f32⟩
  | 55 => ⟨S_, .i32⟩
  | 56 => ⟨S262144, .i32⟩
  | 57 => ⟨S262144, .i1⟩
  | 58 => ⟨S_, .i32⟩
  | 59 => ⟨S262144, .i32⟩
  | 60 => ⟨S262144, .i32⟩
  | 61 => ⟨S262144, .i32⟩
  | 62 => ⟨S262144x1, .i32⟩
  | 63 => ⟨S262144x4x32, .f32⟩
  | 64 => ⟨S_, .i32⟩
  | 65 => ⟨S262144, .i32⟩
  | 66 => ⟨S262144, .i1⟩
  | 67 => ⟨S_, .i32⟩
  | 68 => ⟨S262144, .i32⟩
  | 69 => ⟨S262144, .i32⟩
  | 70 => ⟨S262144, .i32⟩
  | 71 => ⟨S262144x1, .i32⟩
  | 72 => ⟨S262144x4x32, .f32⟩
  | 73 => ⟨S1x4x32, .f32⟩
  | 74 => ⟨S262144x4x32, .f32⟩
  | 75 => ⟨S262144x4x32, .f32⟩
  | 76 => ⟨S_, .f32⟩
  | 77 => ⟨S262144x4, .f32⟩
  | 78 => ⟨S1x4x32, .f32⟩
  | 79 => ⟨S262144x4x32, .f32⟩
  | 80 => ⟨S262144x4x32, .f32⟩
  | 81 => ⟨S_, .f32⟩
  | 82 => ⟨S262144x4, .f32⟩
  | 83 => ⟨S262144x4, .f32⟩
  | 84 => ⟨S262144x4, .f32⟩
  | 85 => ⟨S_, .f32⟩
  | 86 => ⟨S_, .f32⟩
  | 87 => ⟨S262144x4, .f32⟩
  | 88 => ⟨S262144x4, .i1⟩
  | 89 => ⟨S_, .f32⟩
  | 90 => ⟨S262144x4, .f32⟩
  | 91 => ⟨S262144x4, .f32⟩
  | 92 => ⟨S262144x4, .f32⟩
  | 93 => ⟨S262144x1, .i1⟩
  | 94 => ⟨S262144x4, .f32⟩
  | 95 => ⟨S_, .f32⟩
  | 96 => ⟨S_, .f32⟩
  | 97 => ⟨S262144x4, .i1⟩
  | 98 => ⟨S262144x4, .f32⟩
  | 99 => ⟨S262144x4, .f32⟩
  | 100 => ⟨S_, .f32⟩
  | 101 => ⟨S512x4, .f32⟩
  | 102 => ⟨S_, .i32⟩
  | 103 => ⟨S262144, .i32⟩
  | 104 => ⟨S262144, .i1⟩
  | 105 => ⟨S_, .i32⟩
  | 106 => ⟨S262144, .i32⟩
  | 107 => ⟨S262144, .i32⟩
  | 108 => ⟨S262144, .i32⟩
  | 109 => ⟨S262144x1, .i32⟩
  | 110 => ⟨S512x4, .f32⟩
  | 111 => ⟨S_, .i32⟩
  | 112 => ⟨S262144, .i32⟩
  | 113 => ⟨S262144, .i1⟩
  | 114 => ⟨S_, .i32⟩
  | 115 => ⟨S262144, .i32⟩
  | 116 => ⟨S262144, .i32⟩
  | 117 => ⟨S262144, .i32⟩
  | 118 => ⟨S262144x1, .i32⟩
  | 119 => ⟨S262144x4, .f32⟩
  | 120 => ⟨S_, .f32⟩
  | 121 => ⟨S262144x4, .f32⟩
  | 122 => ⟨S262144x4, .f32⟩
  | 123 => ⟨S262144x4, .f32⟩
  | 124 => ⟨S262144x4x1, .f32⟩
  | 125 => ⟨S262144x4x32, .f32⟩
  | 126 => ⟨S262144x4x32, .f32⟩
  | 127 => ⟨S_, .f32⟩
  | _ => ⟨S512x2x128, .f32⟩

abbrev hbmTy0_1 (i : Nat) : BufTy := match i % 128 with
  | 0 => ⟨S512x4x32, .f32⟩
  | 1 => ⟨S_, .i32⟩
  | 2 => ⟨S262144, .i32⟩
  | 3 => ⟨S262144, .i1⟩
  | 4 => ⟨S_, .i32⟩
  | 5 => ⟨S262144, .i32⟩
  | 6 => ⟨S262144, .i32⟩
  | 7 => ⟨S262144, .i32⟩
  | 8 => ⟨S262144x1, .i32⟩
  | 9 => ⟨S512x4x32, .f32⟩
  | 10 => ⟨S512x128, .f32⟩
  | 11 => ⟨S512x1x128, .f32⟩
  | 12 => ⟨S512x1x128, .f32⟩
  | 13 => ⟨S512x128, .f32⟩
  | 14 => ⟨S128x128, .f32⟩
  | 15 => ⟨S512x128, .f32⟩
  | 16 => ⟨S512x4x32, .f32⟩
  | 17 => ⟨S_, .i32⟩
  | 18 => ⟨S262144, .i32⟩
  | 19 => ⟨S262144, .i1⟩
  | 20 => ⟨S_, .i32⟩
  | 21 => ⟨S262144, .i32⟩
  | 22 => ⟨S262144, .i32⟩
  | 23 => ⟨S262144, .i32⟩
  | 24 => ⟨S262144x1, .i32⟩
  | 25 => ⟨S262144x4x32, .f32⟩
  | 26 => ⟨S_, .i32⟩
  | 27 => ⟨S262144, .i32⟩
  | 28 => ⟨S262144, .i1⟩
  | 29 => ⟨S_, .i32⟩
  | 30 => ⟨S262144, .i32⟩
  | 31 => ⟨S262144, .i32⟩
  | 32 => ⟨S262144, .i32⟩
  | 33 => ⟨S262144x1, .i32⟩
  | 34 => ⟨S262144x4x32, .f32⟩
  | 35 => ⟨S1x4x32, .f32⟩
  | 36 => ⟨S262144x4x32, .f32⟩
  | 37 => ⟨S262144x4x32, .f32⟩
  | 38 => ⟨S_, .f32⟩
  | 39 => ⟨S262144x4, .f32⟩
  | 40 => ⟨S1x4x32, .f32⟩
  | 41 => ⟨S262144x4x32, .f32⟩
  | 42 => ⟨S262144x4x32, .f32⟩
  | 43 => ⟨S_, .f32⟩
  | 44 => ⟨S262144x4, .f32⟩
  | 45 => ⟨S262144x4, .f32⟩
  | 46 => ⟨S262144x4, .f32⟩
  | 47 => ⟨S_, .f32⟩
  | 48 => ⟨S_, .f32⟩
  | 49 => ⟨S262144x4, .f32⟩
  | 50 => ⟨S262144x4, .i1⟩
  | 51 => ⟨S_, .f32⟩
  | 52 => ⟨S262144x4, .f32⟩
  | 53 => ⟨S262144x4, .f32⟩
  | 54 => ⟨S262144x4, .f32⟩
  | 55 => ⟨S262144x1, .i1⟩
  | 56 => ⟨S262144x4, .f32⟩
  | 57 => ⟨S_, .f32⟩
  | 58 => ⟨S_, .f32⟩
  | 59 => ⟨S262144x4, .i1⟩
  | 60 => ⟨S262144x4, .f32⟩
  | 61 => ⟨S262144x4, .f32⟩
  | 62 => ⟨S_, .f32⟩
  | 63 => ⟨S512x4, .f32⟩
  | 64 => ⟨S_, .i32⟩
  | 65 => ⟨S262144, .i32⟩
  | 66 => ⟨S262144, .i1⟩
  | 67 => ⟨S_, .i32⟩
  | 68 => ⟨S262144, .i32⟩
  | 69 => ⟨S262144, .i32⟩
  | 70 => ⟨S262144, .i32⟩
  | 71 => ⟨S262144x1, .i32⟩
  | 72 => ⟨S512x4, .f32⟩
  | 73 => ⟨S_, .i32⟩
  | 74 => ⟨S262144, .i32⟩
  | 75 => ⟨S262144, .i1⟩
  | 76 => ⟨S_, .i32⟩
  | 77 => ⟨S262144, .i32⟩
  | 78 => ⟨S262144, .i32⟩
  | 79 => ⟨S262144, .i32⟩
  | 80 => ⟨S262144x1, .i32⟩
  | 81 => ⟨S262144x4, .f32⟩
  | 82 => ⟨S_, .f32⟩
  | 83 => ⟨S262144x4, .f32⟩
  | 84 => ⟨S262144x4, .f32⟩
  | 85 => ⟨S262144x4, .f32⟩
  | 86 => ⟨S262144x4x1, .f32⟩
  | 87 => ⟨S262144x4x32, .f32⟩
  | 88 => ⟨S262144x4x32, .f32⟩
  | 89 => ⟨S_, .f32⟩
  | 90 => ⟨S512x4x32, .f32⟩
  | 91 => ⟨S_, .i32⟩
  | 92 => ⟨S262144, .i32⟩
  | 93 => ⟨S262144, .i1⟩
  | 94 => ⟨S_, .i32⟩
  | 95 => ⟨S262144, .i32⟩
  | 96 => ⟨S262144, .i32⟩
  | 97 => ⟨S262144, .i32⟩
  | 98 => ⟨S262144x1, .i32⟩
  | 99 => ⟨S512x4x32, .f32⟩
  | 100 => ⟨S512x128, .f32⟩
  | 101 => ⟨S512x1x128, .f32⟩
  | 102 => ⟨S512x2x128, .f32⟩
  | 103 => ⟨S_, .i32⟩
  | 104 => ⟨S262144, .i32⟩
  | 105 => ⟨S262144, .i1⟩
  | 106 => ⟨S_, .i32⟩
  | 107 => ⟨S262144, .i32⟩
  | 108 => ⟨S262144, .i32⟩
  | 109 => ⟨S262144, .i32⟩
  | 110 => ⟨S_, .i32⟩
  | 111 => ⟨S262144, .i32⟩
  | 112 => ⟨S262144, .i1⟩
  | 113 => ⟨S_, .i32⟩
  | 114 => ⟨S262144, .i32⟩
  | 115 => ⟨S262144, .i32⟩
  | 116 => ⟨S262144, .i32⟩
  | 117 => ⟨S262144x1, .i32⟩
  | 118 => ⟨S262144x1, .i32⟩
  | 119 => ⟨S262144x2, .i32⟩
  | 120 => ⟨S262144x128, .f32⟩
  | 121 => ⟨S128x128, .f32⟩
  | 122 => ⟨S262144x128, .f32⟩
  | 123 => ⟨S262144x4x32, .f32⟩
  | 124 => ⟨S_, .f32⟩
  | 125 => ⟨S262144x4, .f32⟩
  | 126 => ⟨S1x4, .f32⟩
  | 127 => ⟨S262144x4, .f32⟩
  | _ => ⟨S512x2x128, .f32⟩

abbrev hbmTy0_2 (i : Nat) : BufTy := match i % 128 with
  | 0 => ⟨S262144x4, .f32⟩
  | 1 => ⟨S512x1x128, .f32⟩
  | 2 => ⟨S512x128, .f32⟩
  | 3 => ⟨S128x128, .f32⟩
  | 4 => ⟨S512x128, .f32⟩
  | 5 => ⟨S512x4x32, .f32⟩
  | 6 => ⟨S_, .i32⟩
  | 7 => ⟨S262144, .i32⟩
  | 8 => ⟨S262144, .i1⟩
  | 9 => ⟨S_, .i32⟩
  | 10 => ⟨S262144, .i32⟩
  | 11 => ⟨S262144, .i32⟩
  | 12 => ⟨S262144, .i32⟩
  | 13 => ⟨S262144x1, .i32⟩
  | 14 => ⟨S262144x4x32, .f32⟩
  | 15 => ⟨S_, .i32⟩
  | 16 => ⟨S262144, .i32⟩
  | 17 => ⟨S262144, .i1⟩
  | 18 => ⟨S_, .i32⟩
  | 19 => ⟨S262144, .i32⟩
  | 20 => ⟨S262144, .i32⟩
  | 21 => ⟨S262144, .i32⟩
  | 22 => ⟨S262144x1, .i32⟩
  | 23 => ⟨S262144x4x32, .f32⟩
  | 24 => ⟨S1x4x32, .f32⟩
  | 25 => ⟨S262144x4x32, .f32⟩
  | 26 => ⟨S262144x4x32, .f32⟩
  | 27 => ⟨S_, .f32⟩
  | 28 => ⟨S262144x4, .f32⟩
  | 29 => ⟨S1x4x32, .f32⟩
  | 30 => ⟨S262144x4x32, .f32⟩
  | 31 => ⟨S262144x4x32, .f32⟩
  | 32 => ⟨S_, .f32⟩
  | 33 => ⟨S262144x4, .f32⟩
  | 34 => ⟨S262144x4, .f32⟩
  | 35 => ⟨S262144x4, .f32⟩
  | 36 => ⟨S_, .f32⟩
  | 37 => ⟨S_, .f32⟩
  | 38 => ⟨S262144x4, .f32⟩
  | 39 => ⟨S262144x4, .i1⟩
  | 40 => ⟨S_, .f32⟩
  | 41 => ⟨S262144x4, .f32⟩
  | 42 => ⟨S262144x4, .f32⟩
  | 43 => ⟨S262144x4, .f32⟩
  | 44 => ⟨S262144x1, .i1⟩
  | 45 => ⟨S262144x4, .f32⟩
  | 46 => ⟨S_, .f32⟩
  | 47 => ⟨S_, .f32⟩
  | 48 => ⟨S262144x4, .i1⟩
  | 49 => ⟨S262144x4, .f32⟩
  | 50 => ⟨S262144x4, .f32⟩
  | 51 => ⟨S_, .f32⟩
  | 52 => ⟨S512x4, .f32⟩
  | 53 => ⟨S_, .i32⟩
  | 54 => ⟨S262144, .i32⟩
  | 55 => ⟨S262144, .i1⟩
  | 56 => ⟨S_, .i32⟩
  | 57 => ⟨S262144, .i32⟩
  | 58 => ⟨S262144, .i32⟩
  | 59 => ⟨S262144, .i32⟩
  | 60 => ⟨S262144x1, .i32⟩
  | 61 => ⟨S512x4, .f32⟩
  | 62 => ⟨S_, .i32⟩
  | 63 => ⟨S262144, .i32⟩
  | 64 => ⟨S262144, .i1⟩
  | 65 => ⟨S_, .i32⟩
  | 66 => ⟨S262144, .i32⟩
  | 67 => ⟨S262144, .i32⟩
  | 68 => ⟨S262144, .i32⟩
  | 69 => ⟨S262144x1, .i32⟩
  | 70 => ⟨S262144x4, .f32⟩
  | 71 => ⟨S_, .f32⟩
  | 72 => ⟨S262144x4, .f32⟩
  | 73 => ⟨S262144x4, .f32⟩
  | 74 => ⟨S262144x4, .f32⟩
  | 75 => ⟨S262144x4x1, .f32⟩
  | 76 => ⟨S262144x4x32, .f32⟩
  | 77 => ⟨S262144x4x32, .f32⟩
  | 78 => ⟨S_, .f32⟩
  | 79 => ⟨S512x4x32, .f32⟩
  | 80 => ⟨S_, .i32⟩
  | 81 => ⟨S262144, .i32⟩
  | 82 => ⟨S262144, .i1⟩
  | 83 => ⟨S_, .i32⟩
  | 84 => ⟨S262144, .i32⟩
  | 85 => ⟨S262144, .i32⟩
  | 86 => ⟨S262144, .i32⟩
  | 87 => ⟨S262144x1, .i32⟩
  | 88 => ⟨S512x4x32, .f32⟩
  | 89 => ⟨S512x128, .f32⟩
  | 90 => ⟨S512x1x128, .f32⟩
  | 91 => ⟨S512x1x128, .f32⟩
  | 92 => ⟨S512x128, .f32⟩
  | 93 => ⟨S128x128, .f32⟩
  | 94 => ⟨S512x128, .f32⟩
  | 95 => ⟨S512x4x32, .f32⟩
  | 96 => ⟨S_, .i32⟩
  | 97 => ⟨S262144, .i32⟩
  | 98 => ⟨S262144, .i1⟩
  | 99 => ⟨S_, .i32⟩
  | 100 => ⟨S262144, .i32⟩
  | 101 => ⟨S262144, .i32⟩
  | 102 => ⟨S262144, .i32⟩
  | 103 => ⟨S262144x1, .i32⟩
  | 104 => ⟨S262144x4x32, .f32⟩
  | 105 => ⟨S_, .i32⟩
  | 106 => ⟨S262144, .i32⟩
  | 107 => ⟨S262144, .i1⟩
  | 108 => ⟨S_, .i32⟩
  | 109 => ⟨S262144, .i32⟩
  | 110 => ⟨S262144, .i32⟩
  | 111 => ⟨S262144, .i32⟩
  | 112 => ⟨S262144x1, .i32⟩
  | 113 => ⟨S262144x4x32, .f32⟩
  | 114 => ⟨S1x4x32, .f32⟩
  | 115 => ⟨S262144x4x32, .f32⟩
  | 116 => ⟨S262144x4x32, .f32⟩
  | 117 => ⟨S_, .f32⟩
  | 118 => ⟨S262144x4, .f32⟩
  | 119 => ⟨S1x4x32, .f32⟩
  | 120 => ⟨S262144x4x32, .f32⟩
  | 121 => ⟨S262144x4x32, .f32⟩
  | 122 => ⟨S_, .f32⟩
  | 123 => ⟨S262144x4, .f32⟩
  | 124 => ⟨S262144x4, .f32⟩
  | 125 => ⟨S262144x4, .f32⟩
  | 126 => ⟨S_, .f32⟩
  | 127 => ⟨S_, .f32⟩
  | _ => ⟨S512x2x128, .f32⟩

abbrev hbmTy0_3 (i : Nat) : BufTy := match i % 128 with
  | 0 => ⟨S262144x4, .f32⟩
  | 1 => ⟨S262144x4, .i1⟩
  | 2 => ⟨S_, .f32⟩
  | 3 => ⟨S262144x4, .f32⟩
  | 4 => ⟨S262144x4, .f32⟩
  | 5 => ⟨S262144x4, .f32⟩
  | 6 => ⟨S262144x1, .i1⟩
  | 7 => ⟨S262144x4, .f32⟩
  | 8 => ⟨S_, .f32⟩
  | 9 => ⟨S_, .f32⟩
  | 10 => ⟨S262144x4, .i1⟩
  | 11 => ⟨S262144x4, .f32⟩
  | 12 => ⟨S262144x4, .f32⟩
  | 13 => ⟨S_, .f32⟩
  | 14 => ⟨S512x4, .f32⟩
  | 15 => ⟨S_, .i32⟩
  | 16 => ⟨S262144, .i32⟩
  | 17 => ⟨S262144, .i1⟩
  | 18 => ⟨S_, .i32⟩
  | 19 => ⟨S262144, .i32⟩
  | 20 => ⟨S262144, .i32⟩
  | 21 => ⟨S262144, .i32⟩
  | 22 => ⟨S262144x1, .i32⟩
  | 23 => ⟨S512x4, .f32⟩
  | 24 => ⟨S_, .i32⟩
  | 25 => ⟨S262144, .i32⟩
  | 26 => ⟨S262144, .i1⟩
  | 27 => ⟨S_, .i32⟩
  | 28 => ⟨S262144, .i32⟩
  | 29 => ⟨S262144, .i32⟩
  | 30 => ⟨S262144, .i32⟩
  | 31 => ⟨S262144x1, .i32⟩
  | 32 => ⟨S262144x4, .f32⟩
  | 33 => ⟨S_, .f32⟩
  | 34 => ⟨S262144x4, .f32⟩
  | 35 => ⟨S262144x4, .f32⟩
  | 36 => ⟨S262144x4, .f32⟩
  | 37 => ⟨S262144x4x1, .f32⟩
  | 38 => ⟨S262144x4x32, .f32⟩
  | 39 => ⟨S262144x4x32, .f32⟩
  | 40 => ⟨S_, .f32⟩
  | 41 => ⟨S512x4x32, .f32⟩
  | 42 => ⟨S_, .i32⟩
  | 43 => ⟨S262144, .i32⟩
  | 44 => ⟨S262144, .i1⟩
  | 45 => ⟨S_, .i32⟩
  | 46 => ⟨S262144, .i32⟩
  | 47 => ⟨S262144, .i32⟩
  | 48 => ⟨S262144, .i32⟩
  | 49 => ⟨S262144x1, .i32⟩
  | 50 => ⟨S512x4x32, .f32⟩
  | 51 => ⟨S512x128, .f32⟩
  | 52 => ⟨S512x1x128, .f32⟩
  | 53 => ⟨S512x2x128, .f32⟩
  | _ => ⟨S512x2x128, .f32⟩

abbrev hbmTy (i : Nat) : BufTy := match i / 128 with
  | 0 => hbmTy0_0 i
  | 1 => hbmTy0_1 i
  | 2 => hbmTy0_2 i
  | 3 => hbmTy0_3 i
  | _ => ⟨S512x2x128, .f32⟩

abbrev bufTy : (tb : Table) → Fin (tcTables nBuf tb) → BufTy
  | .hbm, ⟨i, _⟩ => hbmTy i
  | _, _ => ⟨S512x2x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_c : Ref sig .tc := ⟨.hbm, 21, rfl⟩
abbrev main_v8 : Ref sig .tc := ⟨.hbm, 22, rfl⟩
abbrev main_v9 : Ref sig .tc := ⟨.hbm, 23, rfl⟩
abbrev main_c_0 : Ref sig .tc := ⟨.hbm, 24, rfl⟩
abbrev main_v10 : Ref sig .tc := ⟨.hbm, 25, rfl⟩
abbrev main_v11 : Ref sig .tc := ⟨.hbm, 26, rfl⟩
abbrev main_c_1 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_c_2 : Ref sig .tc := ⟨.hbm, 31, rfl⟩
abbrev main_v15 : Ref sig .tc := ⟨.hbm, 32, rfl⟩
abbrev main_v16 : Ref sig .tc := ⟨.hbm, 33, rfl⟩
abbrev main_c_3 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_cst : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_c_4 : Ref sig .tc := ⟨.hbm, 55, rfl⟩
abbrev main_v36 : Ref sig .tc := ⟨.hbm, 56, rfl⟩
abbrev main_v37 : Ref sig .tc := ⟨.hbm, 57, rfl⟩
abbrev main_c_5 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_c_6 : Ref sig .tc := ⟨.hbm, 64, rfl⟩
abbrev main_v43 : Ref sig .tc := ⟨.hbm, 65, rfl⟩
abbrev main_v44 : Ref sig .tc := ⟨.hbm, 66, rfl⟩
abbrev main_c_7 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_cst_8 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_cst_9 : Ref sig .tc := ⟨.hbm, 81, rfl⟩
abbrev main_v57 : Ref sig .tc := ⟨.hbm, 82, rfl⟩
abbrev main_v58 : Ref sig .tc := ⟨.hbm, 83, rfl⟩
abbrev main_v59 : Ref sig .tc := ⟨.hbm, 84, rfl⟩
abbrev main_cst_10 : Ref sig .tc := ⟨.hbm, 85, rfl⟩
abbrev main_call0_cst : Ref sig .tc := ⟨.hbm, 86, rfl⟩
abbrev main_call0_v0 : Ref sig .tc := ⟨.hbm, 87, rfl⟩
abbrev main_call0_v1 : Ref sig .tc := ⟨.hbm, 88, rfl⟩
abbrev main_call0_v2 : Ref sig .tc := ⟨.hbm, 89, rfl⟩
abbrev main_call0_v3 : Ref sig .tc := ⟨.hbm, 90, rfl⟩
abbrev main_call0_v4 : Ref sig .tc := ⟨.hbm, 91, rfl⟩
abbrev main_v60 : Ref sig .tc := ⟨.hbm, 92, rfl⟩
abbrev main_v61 : Ref sig .tc := ⟨.hbm, 93, rfl⟩
abbrev main_v62 : Ref sig .tc := ⟨.hbm, 94, rfl⟩
abbrev main_cst_11 : Ref sig .tc := ⟨.hbm, 95, rfl⟩
abbrev main_call1_v0 : Ref sig .tc := ⟨.hbm, 96, rfl⟩
abbrev main_call1_v1 : Ref sig .tc := ⟨.hbm, 97, rfl⟩
abbrev main_call1_v2 : Ref sig .tc := ⟨.hbm, 98, rfl⟩
abbrev main_v63 : Ref sig .tc := ⟨.hbm, 99, rfl⟩
abbrev main_cst_12 : Ref sig .tc := ⟨.hbm, 100, rfl⟩
abbrev main_v64 : Ref sig .tc := ⟨.hbm, 101, rfl⟩
abbrev main_c_13 : Ref sig .tc := ⟨.hbm, 102, rfl⟩
abbrev main_v65 : Ref sig .tc := ⟨.hbm, 103, rfl⟩
abbrev main_v66 : Ref sig .tc := ⟨.hbm, 104, rfl⟩
abbrev main_c_14 : Ref sig .tc := ⟨.hbm, 105, rfl⟩
abbrev main_v67 : Ref sig .tc := ⟨.hbm, 106, rfl⟩
abbrev main_v68 : Ref sig .tc := ⟨.hbm, 107, rfl⟩
abbrev main_v69 : Ref sig .tc := ⟨.hbm, 108, rfl⟩
abbrev main_v70 : Ref sig .tc := ⟨.hbm, 109, rfl⟩
abbrev main_v71 : Ref sig .tc := ⟨.hbm, 110, rfl⟩
abbrev main_c_15 : Ref sig .tc := ⟨.hbm, 111, rfl⟩
abbrev main_v72 : Ref sig .tc := ⟨.hbm, 112, rfl⟩
abbrev main_v73 : Ref sig .tc := ⟨.hbm, 113, rfl⟩
abbrev main_c_16 : Ref sig .tc := ⟨.hbm, 114, rfl⟩
abbrev main_v74 : Ref sig .tc := ⟨.hbm, 115, rfl⟩
abbrev main_v75 : Ref sig .tc := ⟨.hbm, 116, rfl⟩
abbrev main_v76 : Ref sig .tc := ⟨.hbm, 117, rfl⟩
abbrev main_v77 : Ref sig .tc := ⟨.hbm, 118, rfl⟩
abbrev main_v78 : Ref sig .tc := ⟨.hbm, 119, rfl⟩
abbrev main_cst_17 : Ref sig .tc := ⟨.hbm, 120, rfl⟩
abbrev main_v79 : Ref sig .tc := ⟨.hbm, 121, rfl⟩
abbrev main_v80 : Ref sig .tc := ⟨.hbm, 122, rfl⟩
abbrev main_v81 : Ref sig .tc := ⟨.hbm, 123, rfl⟩
abbrev main_v82 : Ref sig .tc := ⟨.hbm, 124, rfl⟩
abbrev main_v83 : Ref sig .tc := ⟨.hbm, 125, rfl⟩
abbrev main_v84 : Ref sig .tc := ⟨.hbm, 126, rfl⟩
abbrev main_cst_18 : Ref sig .tc := ⟨.hbm, 127, rfl⟩
abbrev main_v85 : Ref sig .tc := ⟨.hbm, 128, rfl⟩
abbrev main_c_19 : Ref sig .tc := ⟨.hbm, 129, rfl⟩
abbrev main_v86 : Ref sig .tc := ⟨.hbm, 130, rfl⟩
abbrev main_v87 : Ref sig .tc := ⟨.hbm, 131, rfl⟩
abbrev main_c_20 : Ref sig .tc := ⟨.hbm, 132, rfl⟩
abbrev main_v88 : Ref sig .tc := ⟨.hbm, 133, rfl⟩
abbrev main_v89 : Ref sig .tc := ⟨.hbm, 134, rfl⟩
abbrev main_v90 : Ref sig .tc := ⟨.hbm, 135, rfl⟩
abbrev main_v91 : Ref sig .tc := ⟨.hbm, 136, rfl⟩
abbrev main_v92 : Ref sig .tc := ⟨.hbm, 137, rfl⟩
abbrev main_v93 : Ref sig .tc := ⟨.hbm, 138, rfl⟩
abbrev main_v94 : Ref sig .tc := ⟨.hbm, 139, rfl⟩
abbrev main_v95 : Ref sig .tc := ⟨.hbm, 140, rfl⟩
abbrev main_v96 : Ref sig .tc := ⟨.hbm, 141, rfl⟩
abbrev main_v97 : Ref sig .tc := ⟨.hbm, 142, rfl⟩
abbrev main_v98 : Ref sig .tc := ⟨.hbm, 143, rfl⟩
abbrev main_v99 : Ref sig .tc := ⟨.hbm, 144, rfl⟩
abbrev main_c_21 : Ref sig .tc := ⟨.hbm, 145, rfl⟩
abbrev main_v100 : Ref sig .tc := ⟨.hbm, 146, rfl⟩
abbrev main_v101 : Ref sig .tc := ⟨.hbm, 147, rfl⟩
abbrev main_c_22 : Ref sig .tc := ⟨.hbm, 148, rfl⟩
abbrev main_v102 : Ref sig .tc := ⟨.hbm, 149, rfl⟩
abbrev main_v103 : Ref sig .tc := ⟨.hbm, 150, rfl⟩
abbrev main_v104 : Ref sig .tc := ⟨.hbm, 151, rfl⟩
abbrev main_v105 : Ref sig .tc := ⟨.hbm, 152, rfl⟩
abbrev main_v106 : Ref sig .tc := ⟨.hbm, 153, rfl⟩
abbrev main_c_23 : Ref sig .tc := ⟨.hbm, 154, rfl⟩
abbrev main_v107 : Ref sig .tc := ⟨.hbm, 155, rfl⟩
abbrev main_v108 : Ref sig .tc := ⟨.hbm, 156, rfl⟩
abbrev main_c_24 : Ref sig .tc := ⟨.hbm, 157, rfl⟩
abbrev main_v109 : Ref sig .tc := ⟨.hbm, 158, rfl⟩
abbrev main_v110 : Ref sig .tc := ⟨.hbm, 159, rfl⟩
abbrev main_v111 : Ref sig .tc := ⟨.hbm, 160, rfl⟩
abbrev main_v112 : Ref sig .tc := ⟨.hbm, 161, rfl⟩
abbrev main_v113 : Ref sig .tc := ⟨.hbm, 162, rfl⟩
abbrev main_v114 : Ref sig .tc := ⟨.hbm, 163, rfl⟩
abbrev main_v115 : Ref sig .tc := ⟨.hbm, 164, rfl⟩
abbrev main_v116 : Ref sig .tc := ⟨.hbm, 165, rfl⟩
abbrev main_cst_25 : Ref sig .tc := ⟨.hbm, 166, rfl⟩
abbrev main_v117 : Ref sig .tc := ⟨.hbm, 167, rfl⟩
abbrev main_v118 : Ref sig .tc := ⟨.hbm, 168, rfl⟩
abbrev main_v119 : Ref sig .tc := ⟨.hbm, 169, rfl⟩
abbrev main_v120 : Ref sig .tc := ⟨.hbm, 170, rfl⟩
abbrev main_cst_26 : Ref sig .tc := ⟨.hbm, 171, rfl⟩
abbrev main_v121 : Ref sig .tc := ⟨.hbm, 172, rfl⟩
abbrev main_v122 : Ref sig .tc := ⟨.hbm, 173, rfl⟩
abbrev main_v123 : Ref sig .tc := ⟨.hbm, 174, rfl⟩
abbrev main_cst_27 : Ref sig .tc := ⟨.hbm, 175, rfl⟩
abbrev main_call2_cst : Ref sig .tc := ⟨.hbm, 176, rfl⟩
abbrev main_call2_v0 : Ref sig .tc := ⟨.hbm, 177, rfl⟩
abbrev main_call2_v1 : Ref sig .tc := ⟨.hbm, 178, rfl⟩
abbrev main_call2_v2 : Ref sig .tc := ⟨.hbm, 179, rfl⟩
abbrev main_call2_v3 : Ref sig .tc := ⟨.hbm, 180, rfl⟩
abbrev main_call2_v4 : Ref sig .tc := ⟨.hbm, 181, rfl⟩
abbrev main_v124 : Ref sig .tc := ⟨.hbm, 182, rfl⟩
abbrev main_v125 : Ref sig .tc := ⟨.hbm, 183, rfl⟩
abbrev main_v126 : Ref sig .tc := ⟨.hbm, 184, rfl⟩
abbrev main_cst_28 : Ref sig .tc := ⟨.hbm, 185, rfl⟩
abbrev main_call3_v0 : Ref sig .tc := ⟨.hbm, 186, rfl⟩
abbrev main_call3_v1 : Ref sig .tc := ⟨.hbm, 187, rfl⟩
abbrev main_call3_v2 : Ref sig .tc := ⟨.hbm, 188, rfl⟩
abbrev main_v127 : Ref sig .tc := ⟨.hbm, 189, rfl⟩
abbrev main_cst_29 : Ref sig .tc := ⟨.hbm, 190, rfl⟩
abbrev main_v128 : Ref sig .tc := ⟨.hbm, 191, rfl⟩
abbrev main_c_30 : Ref sig .tc := ⟨.hbm, 192, rfl⟩
abbrev main_v129 : Ref sig .tc := ⟨.hbm, 193, rfl⟩
abbrev main_v130 : Ref sig .tc := ⟨.hbm, 194, rfl⟩
abbrev main_c_31 : Ref sig .tc := ⟨.hbm, 195, rfl⟩
abbrev main_v131 : Ref sig .tc := ⟨.hbm, 196, rfl⟩
abbrev main_v132 : Ref sig .tc := ⟨.hbm, 197, rfl⟩
abbrev main_v133 : Ref sig .tc := ⟨.hbm, 198, rfl⟩
abbrev main_v134 : Ref sig .tc := ⟨.hbm, 199, rfl⟩
abbrev main_v135 : Ref sig .tc := ⟨.hbm, 200, rfl⟩
abbrev main_c_32 : Ref sig .tc := ⟨.hbm, 201, rfl⟩
abbrev main_v136 : Ref sig .tc := ⟨.hbm, 202, rfl⟩
abbrev main_v137 : Ref sig .tc := ⟨.hbm, 203, rfl⟩
abbrev main_c_33 : Ref sig .tc := ⟨.hbm, 204, rfl⟩
abbrev main_v138 : Ref sig .tc := ⟨.hbm, 205, rfl⟩
abbrev main_v139 : Ref sig .tc := ⟨.hbm, 206, rfl⟩
abbrev main_v140 : Ref sig .tc := ⟨.hbm, 207, rfl⟩
abbrev main_v141 : Ref sig .tc := ⟨.hbm, 208, rfl⟩
abbrev main_v142 : Ref sig .tc := ⟨.hbm, 209, rfl⟩
abbrev main_cst_34 : Ref sig .tc := ⟨.hbm, 210, rfl⟩
abbrev main_v143 : Ref sig .tc := ⟨.hbm, 211, rfl⟩
abbrev main_v144 : Ref sig .tc := ⟨.hbm, 212, rfl⟩
abbrev main_v145 : Ref sig .tc := ⟨.hbm, 213, rfl⟩
abbrev main_v146 : Ref sig .tc := ⟨.hbm, 214, rfl⟩
abbrev main_v147 : Ref sig .tc := ⟨.hbm, 215, rfl⟩
abbrev main_v148 : Ref sig .tc := ⟨.hbm, 216, rfl⟩
abbrev main_cst_35 : Ref sig .tc := ⟨.hbm, 217, rfl⟩
abbrev main_v149 : Ref sig .tc := ⟨.hbm, 218, rfl⟩
abbrev main_c_36 : Ref sig .tc := ⟨.hbm, 219, rfl⟩
abbrev main_v150 : Ref sig .tc := ⟨.hbm, 220, rfl⟩
abbrev main_v151 : Ref sig .tc := ⟨.hbm, 221, rfl⟩
abbrev main_c_37 : Ref sig .tc := ⟨.hbm, 222, rfl⟩
abbrev main_v152 : Ref sig .tc := ⟨.hbm, 223, rfl⟩
abbrev main_v153 : Ref sig .tc := ⟨.hbm, 224, rfl⟩
abbrev main_v154 : Ref sig .tc := ⟨.hbm, 225, rfl⟩
abbrev main_v155 : Ref sig .tc := ⟨.hbm, 226, rfl⟩
abbrev main_v156 : Ref sig .tc := ⟨.hbm, 227, rfl⟩
abbrev main_v157 : Ref sig .tc := ⟨.hbm, 228, rfl⟩
abbrev main_v158 : Ref sig .tc := ⟨.hbm, 229, rfl⟩
abbrev main_v159 : Ref sig .tc := ⟨.hbm, 230, rfl⟩
abbrev main_c_38 : Ref sig .tc := ⟨.hbm, 231, rfl⟩
abbrev main_v160 : Ref sig .tc := ⟨.hbm, 232, rfl⟩
abbrev main_v161 : Ref sig .tc := ⟨.hbm, 233, rfl⟩
abbrev main_c_39 : Ref sig .tc := ⟨.hbm, 234, rfl⟩
abbrev main_v162 : Ref sig .tc := ⟨.hbm, 235, rfl⟩
abbrev main_v163 : Ref sig .tc := ⟨.hbm, 236, rfl⟩
abbrev main_v164 : Ref sig .tc := ⟨.hbm, 237, rfl⟩
abbrev main_c_40 : Ref sig .tc := ⟨.hbm, 238, rfl⟩
abbrev main_v165 : Ref sig .tc := ⟨.hbm, 239, rfl⟩
abbrev main_v166 : Ref sig .tc := ⟨.hbm, 240, rfl⟩
abbrev main_c_41 : Ref sig .tc := ⟨.hbm, 241, rfl⟩
abbrev main_v167 : Ref sig .tc := ⟨.hbm, 242, rfl⟩
abbrev main_v168 : Ref sig .tc := ⟨.hbm, 243, rfl⟩
abbrev main_v169 : Ref sig .tc := ⟨.hbm, 244, rfl⟩
abbrev main_v170 : Ref sig .tc := ⟨.hbm, 245, rfl⟩
abbrev main_v171 : Ref sig .tc := ⟨.hbm, 246, rfl⟩
abbrev main_v172 : Ref sig .tc := ⟨.hbm, 247, rfl⟩
abbrev main_v173 : Ref sig .tc := ⟨.hbm, 248, rfl⟩
abbrev main_v174 : Ref sig .tc := ⟨.hbm, 249, rfl⟩
abbrev main_v175 : Ref sig .tc := ⟨.hbm, 250, rfl⟩
abbrev main_v176 : Ref sig .tc := ⟨.hbm, 251, rfl⟩
abbrev main_cst_42 : Ref sig .tc := ⟨.hbm, 252, rfl⟩
abbrev main_v177 : Ref sig .tc := ⟨.hbm, 253, rfl⟩
abbrev main_v178 : Ref sig .tc := ⟨.hbm, 254, rfl⟩
abbrev main_v179 : Ref sig .tc := ⟨.hbm, 255, rfl⟩
abbrev main_v180 : Ref sig .tc := ⟨.hbm, 256, rfl⟩
abbrev main_v181 : Ref sig .tc := ⟨.hbm, 257, rfl⟩
abbrev main_v182 : Ref sig .tc := ⟨.hbm, 258, rfl⟩
abbrev main_v183 : Ref sig .tc := ⟨.hbm, 259, rfl⟩
abbrev main_v184 : Ref sig .tc := ⟨.hbm, 260, rfl⟩
abbrev main_v185 : Ref sig .tc := ⟨.hbm, 261, rfl⟩
abbrev main_c_43 : Ref sig .tc := ⟨.hbm, 262, rfl⟩
abbrev main_v186 : Ref sig .tc := ⟨.hbm, 263, rfl⟩
abbrev main_v187 : Ref sig .tc := ⟨.hbm, 264, rfl⟩
abbrev main_c_44 : Ref sig .tc := ⟨.hbm, 265, rfl⟩
abbrev main_v188 : Ref sig .tc := ⟨.hbm, 266, rfl⟩
abbrev main_v189 : Ref sig .tc := ⟨.hbm, 267, rfl⟩
abbrev main_v190 : Ref sig .tc := ⟨.hbm, 268, rfl⟩
abbrev main_v191 : Ref sig .tc := ⟨.hbm, 269, rfl⟩
abbrev main_v192 : Ref sig .tc := ⟨.hbm, 270, rfl⟩
abbrev main_c_45 : Ref sig .tc := ⟨.hbm, 271, rfl⟩
abbrev main_v193 : Ref sig .tc := ⟨.hbm, 272, rfl⟩
abbrev main_v194 : Ref sig .tc := ⟨.hbm, 273, rfl⟩
abbrev main_c_46 : Ref sig .tc := ⟨.hbm, 274, rfl⟩
abbrev main_v195 : Ref sig .tc := ⟨.hbm, 275, rfl⟩
abbrev main_v196 : Ref sig .tc := ⟨.hbm, 276, rfl⟩
abbrev main_v197 : Ref sig .tc := ⟨.hbm, 277, rfl⟩
abbrev main_v198 : Ref sig .tc := ⟨.hbm, 278, rfl⟩
abbrev main_v199 : Ref sig .tc := ⟨.hbm, 279, rfl⟩
abbrev main_v200 : Ref sig .tc := ⟨.hbm, 280, rfl⟩
abbrev main_v201 : Ref sig .tc := ⟨.hbm, 281, rfl⟩
abbrev main_v202 : Ref sig .tc := ⟨.hbm, 282, rfl⟩
abbrev main_cst_47 : Ref sig .tc := ⟨.hbm, 283, rfl⟩
abbrev main_v203 : Ref sig .tc := ⟨.hbm, 284, rfl⟩
abbrev main_v204 : Ref sig .tc := ⟨.hbm, 285, rfl⟩
abbrev main_v205 : Ref sig .tc := ⟨.hbm, 286, rfl⟩
abbrev main_v206 : Ref sig .tc := ⟨.hbm, 287, rfl⟩
abbrev main_cst_48 : Ref sig .tc := ⟨.hbm, 288, rfl⟩
abbrev main_v207 : Ref sig .tc := ⟨.hbm, 289, rfl⟩
abbrev main_v208 : Ref sig .tc := ⟨.hbm, 290, rfl⟩
abbrev main_v209 : Ref sig .tc := ⟨.hbm, 291, rfl⟩
abbrev main_cst_49 : Ref sig .tc := ⟨.hbm, 292, rfl⟩
abbrev main_call4_cst : Ref sig .tc := ⟨.hbm, 293, rfl⟩
abbrev main_call4_v0 : Ref sig .tc := ⟨.hbm, 294, rfl⟩
abbrev main_call4_v1 : Ref sig .tc := ⟨.hbm, 295, rfl⟩
abbrev main_call4_v2 : Ref sig .tc := ⟨.hbm, 296, rfl⟩
abbrev main_call4_v3 : Ref sig .tc := ⟨.hbm, 297, rfl⟩
abbrev main_call4_v4 : Ref sig .tc := ⟨.hbm, 298, rfl⟩
abbrev main_v210 : Ref sig .tc := ⟨.hbm, 299, rfl⟩
abbrev main_v211 : Ref sig .tc := ⟨.hbm, 300, rfl⟩
abbrev main_v212 : Ref sig .tc := ⟨.hbm, 301, rfl⟩
abbrev main_cst_50 : Ref sig .tc := ⟨.hbm, 302, rfl⟩
abbrev main_call5_v0 : Ref sig .tc := ⟨.hbm, 303, rfl⟩
abbrev main_call5_v1 : Ref sig .tc := ⟨.hbm, 304, rfl⟩
abbrev main_call5_v2 : Ref sig .tc := ⟨.hbm, 305, rfl⟩
abbrev main_v213 : Ref sig .tc := ⟨.hbm, 306, rfl⟩
abbrev main_cst_51 : Ref sig .tc := ⟨.hbm, 307, rfl⟩
abbrev main_v214 : Ref sig .tc := ⟨.hbm, 308, rfl⟩
abbrev main_c_52 : Ref sig .tc := ⟨.hbm, 309, rfl⟩
abbrev main_v215 : Ref sig .tc := ⟨.hbm, 310, rfl⟩
abbrev main_v216 : Ref sig .tc := ⟨.hbm, 311, rfl⟩
abbrev main_c_53 : Ref sig .tc := ⟨.hbm, 312, rfl⟩
abbrev main_v217 : Ref sig .tc := ⟨.hbm, 313, rfl⟩
abbrev main_v218 : Ref sig .tc := ⟨.hbm, 314, rfl⟩
abbrev main_v219 : Ref sig .tc := ⟨.hbm, 315, rfl⟩
abbrev main_v220 : Ref sig .tc := ⟨.hbm, 316, rfl⟩
abbrev main_v221 : Ref sig .tc := ⟨.hbm, 317, rfl⟩
abbrev main_c_54 : Ref sig .tc := ⟨.hbm, 318, rfl⟩
abbrev main_v222 : Ref sig .tc := ⟨.hbm, 319, rfl⟩
abbrev main_v223 : Ref sig .tc := ⟨.hbm, 320, rfl⟩
abbrev main_c_55 : Ref sig .tc := ⟨.hbm, 321, rfl⟩
abbrev main_v224 : Ref sig .tc := ⟨.hbm, 322, rfl⟩
abbrev main_v225 : Ref sig .tc := ⟨.hbm, 323, rfl⟩
abbrev main_v226 : Ref sig .tc := ⟨.hbm, 324, rfl⟩
abbrev main_v227 : Ref sig .tc := ⟨.hbm, 325, rfl⟩
abbrev main_v228 : Ref sig .tc := ⟨.hbm, 326, rfl⟩
abbrev main_cst_56 : Ref sig .tc := ⟨.hbm, 327, rfl⟩
abbrev main_v229 : Ref sig .tc := ⟨.hbm, 328, rfl⟩
abbrev main_v230 : Ref sig .tc := ⟨.hbm, 329, rfl⟩
abbrev main_v231 : Ref sig .tc := ⟨.hbm, 330, rfl⟩
abbrev main_v232 : Ref sig .tc := ⟨.hbm, 331, rfl⟩
abbrev main_v233 : Ref sig .tc := ⟨.hbm, 332, rfl⟩
abbrev main_v234 : Ref sig .tc := ⟨.hbm, 333, rfl⟩
abbrev main_cst_57 : Ref sig .tc := ⟨.hbm, 334, rfl⟩
abbrev main_v235 : Ref sig .tc := ⟨.hbm, 335, rfl⟩
abbrev main_c_58 : Ref sig .tc := ⟨.hbm, 336, rfl⟩
abbrev main_v236 : Ref sig .tc := ⟨.hbm, 337, rfl⟩
abbrev main_v237 : Ref sig .tc := ⟨.hbm, 338, rfl⟩
abbrev main_c_59 : Ref sig .tc := ⟨.hbm, 339, rfl⟩
abbrev main_v238 : Ref sig .tc := ⟨.hbm, 340, rfl⟩
abbrev main_v239 : Ref sig .tc := ⟨.hbm, 341, rfl⟩
abbrev main_v240 : Ref sig .tc := ⟨.hbm, 342, rfl⟩
abbrev main_v241 : Ref sig .tc := ⟨.hbm, 343, rfl⟩
abbrev main_v242 : Ref sig .tc := ⟨.hbm, 344, rfl⟩
abbrev main_v243 : Ref sig .tc := ⟨.hbm, 345, rfl⟩
abbrev main_v244 : Ref sig .tc := ⟨.hbm, 346, rfl⟩
abbrev main_v245 : Ref sig .tc := ⟨.hbm, 347, rfl⟩
abbrev main_v246 : Ref sig .tc := ⟨.hbm, 348, rfl⟩
abbrev main_v247 : Ref sig .tc := ⟨.hbm, 349, rfl⟩
abbrev main_v248 : Ref sig .tc := ⟨.hbm, 350, rfl⟩
abbrev main_v249 : Ref sig .tc := ⟨.hbm, 351, rfl⟩
abbrev main_c_60 : Ref sig .tc := ⟨.hbm, 352, rfl⟩
abbrev main_v250 : Ref sig .tc := ⟨.hbm, 353, rfl⟩
abbrev main_v251 : Ref sig .tc := ⟨.hbm, 354, rfl⟩
abbrev main_c_61 : Ref sig .tc := ⟨.hbm, 355, rfl⟩
abbrev main_v252 : Ref sig .tc := ⟨.hbm, 356, rfl⟩
abbrev main_v253 : Ref sig .tc := ⟨.hbm, 357, rfl⟩
abbrev main_v254 : Ref sig .tc := ⟨.hbm, 358, rfl⟩
abbrev main_v255 : Ref sig .tc := ⟨.hbm, 359, rfl⟩
abbrev main_v256 : Ref sig .tc := ⟨.hbm, 360, rfl⟩
abbrev main_c_62 : Ref sig .tc := ⟨.hbm, 361, rfl⟩
abbrev main_v257 : Ref sig .tc := ⟨.hbm, 362, rfl⟩
abbrev main_v258 : Ref sig .tc := ⟨.hbm, 363, rfl⟩
abbrev main_c_63 : Ref sig .tc := ⟨.hbm, 364, rfl⟩
abbrev main_v259 : Ref sig .tc := ⟨.hbm, 365, rfl⟩
abbrev main_v260 : Ref sig .tc := ⟨.hbm, 366, rfl⟩
abbrev main_v261 : Ref sig .tc := ⟨.hbm, 367, rfl⟩
abbrev main_v262 : Ref sig .tc := ⟨.hbm, 368, rfl⟩
abbrev main_v263 : Ref sig .tc := ⟨.hbm, 369, rfl⟩
abbrev main_v264 : Ref sig .tc := ⟨.hbm, 370, rfl⟩
abbrev main_v265 : Ref sig .tc := ⟨.hbm, 371, rfl⟩
abbrev main_v266 : Ref sig .tc := ⟨.hbm, 372, rfl⟩
abbrev main_cst_64 : Ref sig .tc := ⟨.hbm, 373, rfl⟩
abbrev main_v267 : Ref sig .tc := ⟨.hbm, 374, rfl⟩
abbrev main_v268 : Ref sig .tc := ⟨.hbm, 375, rfl⟩
abbrev main_v269 : Ref sig .tc := ⟨.hbm, 376, rfl⟩
abbrev main_v270 : Ref sig .tc := ⟨.hbm, 377, rfl⟩
abbrev main_cst_65 : Ref sig .tc := ⟨.hbm, 378, rfl⟩
abbrev main_v271 : Ref sig .tc := ⟨.hbm, 379, rfl⟩
abbrev main_v272 : Ref sig .tc := ⟨.hbm, 380, rfl⟩
abbrev main_v273 : Ref sig .tc := ⟨.hbm, 381, rfl⟩
abbrev main_cst_66 : Ref sig .tc := ⟨.hbm, 382, rfl⟩
abbrev main_call6_cst : Ref sig .tc := ⟨.hbm, 383, rfl⟩
abbrev main_call6_v0 : Ref sig .tc := ⟨.hbm, 384, rfl⟩
abbrev main_call6_v1 : Ref sig .tc := ⟨.hbm, 385, rfl⟩
abbrev main_call6_v2 : Ref sig .tc := ⟨.hbm, 386, rfl⟩
abbrev main_call6_v3 : Ref sig .tc := ⟨.hbm, 387, rfl⟩
abbrev main_call6_v4 : Ref sig .tc := ⟨.hbm, 388, rfl⟩
abbrev main_v274 : Ref sig .tc := ⟨.hbm, 389, rfl⟩
abbrev main_v275 : Ref sig .tc := ⟨.hbm, 390, rfl⟩
abbrev main_v276 : Ref sig .tc := ⟨.hbm, 391, rfl⟩
abbrev main_cst_67 : Ref sig .tc := ⟨.hbm, 392, rfl⟩
abbrev main_call7_v0 : Ref sig .tc := ⟨.hbm, 393, rfl⟩
abbrev main_call7_v1 : Ref sig .tc := ⟨.hbm, 394, rfl⟩
abbrev main_call7_v2 : Ref sig .tc := ⟨.hbm, 395, rfl⟩
abbrev main_v277 : Ref sig .tc := ⟨.hbm, 396, rfl⟩
abbrev main_cst_68 : Ref sig .tc := ⟨.hbm, 397, rfl⟩
abbrev main_v278 : Ref sig .tc := ⟨.hbm, 398, rfl⟩
abbrev main_c_69 : Ref sig .tc := ⟨.hbm, 399, rfl⟩
abbrev main_v279 : Ref sig .tc := ⟨.hbm, 400, rfl⟩
abbrev main_v280 : Ref sig .tc := ⟨.hbm, 401, rfl⟩
abbrev main_c_70 : Ref sig .tc := ⟨.hbm, 402, rfl⟩
abbrev main_v281 : Ref sig .tc := ⟨.hbm, 403, rfl⟩
abbrev main_v282 : Ref sig .tc := ⟨.hbm, 404, rfl⟩
abbrev main_v283 : Ref sig .tc := ⟨.hbm, 405, rfl⟩
abbrev main_v284 : Ref sig .tc := ⟨.hbm, 406, rfl⟩
abbrev main_v285 : Ref sig .tc := ⟨.hbm, 407, rfl⟩
abbrev main_c_71 : Ref sig .tc := ⟨.hbm, 408, rfl⟩
abbrev main_v286 : Ref sig .tc := ⟨.hbm, 409, rfl⟩
abbrev main_v287 : Ref sig .tc := ⟨.hbm, 410, rfl⟩
abbrev main_c_72 : Ref sig .tc := ⟨.hbm, 411, rfl⟩
abbrev main_v288 : Ref sig .tc := ⟨.hbm, 412, rfl⟩
abbrev main_v289 : Ref sig .tc := ⟨.hbm, 413, rfl⟩
abbrev main_v290 : Ref sig .tc := ⟨.hbm, 414, rfl⟩
abbrev main_v291 : Ref sig .tc := ⟨.hbm, 415, rfl⟩
abbrev main_v292 : Ref sig .tc := ⟨.hbm, 416, rfl⟩
abbrev main_cst_73 : Ref sig .tc := ⟨.hbm, 417, rfl⟩
abbrev main_v293 : Ref sig .tc := ⟨.hbm, 418, rfl⟩
abbrev main_v294 : Ref sig .tc := ⟨.hbm, 419, rfl⟩
abbrev main_v295 : Ref sig .tc := ⟨.hbm, 420, rfl⟩
abbrev main_v296 : Ref sig .tc := ⟨.hbm, 421, rfl⟩
abbrev main_v297 : Ref sig .tc := ⟨.hbm, 422, rfl⟩
abbrev main_v298 : Ref sig .tc := ⟨.hbm, 423, rfl⟩
abbrev main_cst_74 : Ref sig .tc := ⟨.hbm, 424, rfl⟩
abbrev main_v299 : Ref sig .tc := ⟨.hbm, 425, rfl⟩
abbrev main_c_75 : Ref sig .tc := ⟨.hbm, 426, rfl⟩
abbrev main_v300 : Ref sig .tc := ⟨.hbm, 427, rfl⟩
abbrev main_v301 : Ref sig .tc := ⟨.hbm, 428, rfl⟩
abbrev main_c_76 : Ref sig .tc := ⟨.hbm, 429, rfl⟩
abbrev main_v302 : Ref sig .tc := ⟨.hbm, 430, rfl⟩
abbrev main_v303 : Ref sig .tc := ⟨.hbm, 431, rfl⟩
abbrev main_v304 : Ref sig .tc := ⟨.hbm, 432, rfl⟩
abbrev main_v305 : Ref sig .tc := ⟨.hbm, 433, rfl⟩
abbrev main_v306 : Ref sig .tc := ⟨.hbm, 434, rfl⟩
abbrev main_v307 : Ref sig .tc := ⟨.hbm, 435, rfl⟩
abbrev main_v308 : Ref sig .tc := ⟨.hbm, 436, rfl⟩
abbrev main_v309 : Ref sig .tc := ⟨.hbm, 437, rfl⟩

abbrev nD : Nat := 1
abbrev τ : Topo := Topo.v7x

variable {F : FTy → Type} [FloatOps F]

class Facts₀ : Prop where
  bcast_S512_S512x512_0 : S512.BroadcastsInDim S512x512 (![0] : Fin 1 → Fin S512x512.rank)
  shapeCasts_S512x512_S262144 : S512x512.ShapeCasts S262144
  shapeCasts_S512_S1x512 : S512.ShapeCasts S1x512
  bcast_S1x512_S512x512_0_1 : S1x512.BroadcastsInDim S512x512 (![0, 1] : Fin 2 → Fin S512x512.rank)
  bcast_S_S262144 : S_.BroadcastsInDim S262144 (![] : Fin 0 → Fin S262144.rank)
  bcast_S262144_S262144x1_0 : S262144.BroadcastsInDim S262144x1 (![0] : Fin 1 → Fin S262144x1.rank)
  concatenates_S262144x1_S262144x1_S262144x2_d1 : Shape.Concatenates [S262144x1, S262144x1] S262144x2 1
  transposes_S128x128_S128x128_1_0 : S128x128.Transposes [1, 0] S128x128
  shapeCasts_S262144x128_S262144x4x32 : S262144x128.ShapeCasts S262144x4x32
  reducesTo_S262144x4x32_S262144x4_d2 : S262144x4x32.ReducesTo [2] S262144x4
  h_S_ : 0 < S_.numel
  bcast_S4_S1x4_1 : S4.BroadcastsInDim S1x4 (![1] : Fin 1 → Fin S1x4.rank)
  bcast_S1x4_S262144x4_0_1 : S1x4.BroadcastsInDim S262144x4 (![0, 1] : Fin 2 → Fin S262144x4.rank)
  slices_S512x2x128_S512x1x128_0_0_0 : S512x2x128.Slices ![0, 0, 0] S512x1x128
  shapeCasts_S512x1x128_S512x128 : S512x1x128.ShapeCasts S512x128
  shapeCasts_S512x128_S512x4x32 : S512x128.ShapeCasts S512x4x32
  bcast_S4x32_S1x4x32_1_2 : S4x32.BroadcastsInDim S1x4x32 (![1, 2] : Fin 2 → Fin S1x4x32.rank)
  bcast_S1x4x32_S262144x4x32_0_1_2 : S1x4x32.BroadcastsInDim S262144x4x32 (![0, 1, 2] : Fin 3 → Fin S262144x4x32.rank)
  bcast_S_S262144x4 : S_.BroadcastsInDim S262144x4 (![] : Fin 0 → Fin S262144x4.rank)
  bcast_S262144x1_S262144x4_0_1 : S262144x1.BroadcastsInDim S262144x4 (![0, 1] : Fin 2 → Fin S262144x4.rank)
  bcast_S_S512x4 : S_.BroadcastsInDim S512x4 (![] : Fin 0 → Fin S512x4.rank)
  bcast_S262144x4_S262144x4x1_0_1 : S262144x4.BroadcastsInDim S262144x4x1 (![0, 1] : Fin 2 → Fin S262144x4x1.rank)
  bcast_S262144x4x1_S262144x4x32_0_1_2 : S262144x4x1.BroadcastsInDim S262144x4x32 (![0, 1, 2] : Fin 3 → Fin S262144x4x32.rank)
  bcast_S_S512x4x32 : S_.BroadcastsInDim S512x4x32 (![] : Fin 0 → Fin S512x4x32.rank)
  shapeCasts_S512x4x32_S512x128 : S512x4x32.ShapeCasts S512x128
  bcast_S512x128_S512x1x128_0_2 : S512x128.BroadcastsInDim S512x1x128 (![0, 2] : Fin 2 → Fin S512x1x128.rank)
  slices_S512x2x128_S512x1x128_0_1_0 : S512x2x128.Slices ![0, 1, 0] S512x1x128
  concatenates_S512x1x128_S512x1x128_S512x2x128_d1 : Shape.Concatenates [S512x1x128, S512x1x128] S512x2x128 1
  gather_S512x512x128_S262144x2_S262144x128_1_01_n_n_01_1_11128_wf : GatherDims.WF S512x512x128 S262144x2 S262144x128 [1] [0, 1] [] [0, 1] [] 1 ![1, 1, 128]
  dot_S262144x128_S128x128_S262144x128_1_0_0_1_n_n_wf : DotDims.WF S262144x128 S128x128 S262144x128 [1] [0] [0] [1] [] []
  dot_S512x128_S128x128_S512x128_1_0_0_1_n_n_wf : DotDims.WF S512x128 S128x128 S512x128 [1] [0] [0] [1] [] []
  gather_S512x4x32_S262144x1_S262144x4x32_12_0_n_n_0_1_1432_wf : GatherDims.WF S512x4x32 S262144x1 S262144x4x32 [1, 2] [0] [] [0] [] 1 ![1, 4, 32]
  scatter_S512x4_S262144x1_S262144x4_1_0_0_1_wf : ScatterDims.WF S512x4 S262144x1 S262144x4 [1] [0] [0] 1
  gather_S512x4_S262144x1_S262144x4_1_0_n_n_0_1_14_wf : GatherDims.WF S512x4 S262144x1 S262144x4 [1] [0] [] [0] [] 1 ![1, 4]
  scatter_S512x4x32_S262144x1_S262144x4x32_12_0_0_1_wf : ScatterDims.WF S512x4x32 S262144x1 S262144x4x32 [1, 2] [0] [0] 1

variable [Facts₀]

def gather_S512x512x128_S262144x2_S262144x128_1_01_n_n_01_1_11128 : GatherDims S512x512x128 S262144x2 S262144x128 where
  offsetDims := [1]
  collapsedSliceDims := [0, 1]
  operandBatchingDims := []
  startIndicesBatchingDims := []
  startIndexMap := [0, 1]
  indexVectorDim := 1
  sliceSizes := ![1, 1, 128]
  wf := gather_S512x512x128_S262144x2_S262144x128_1_01_n_n_01_1_11128_wf
def dot_S262144x128_S128x128_S262144x128_1_0_0_1_n_n : DotDims S262144x128 S128x128 S262144x128 where
  lhsContracting := [1]
  rhsContracting := [0]
  lhsNonContracting := [0]
  rhsNonContracting := [1]
  lhsBatch := []
  rhsBatch := []
  wf := dot_S262144x128_S128x128_S262144x128_1_0_0_1_n_n_wf
def dot_S512x128_S128x128_S512x128_1_0_0_1_n_n : DotDims S512x128 S128x128 S512x128 where
  lhsContracting := [1]
  rhsContracting := [0]
  lhsNonContracting := [0]
  rhsNonContracting := [1]
  lhsBatch := []
  rhsBatch := []
  wf := dot_S512x128_S128x128_S512x128_1_0_0_1_n_n_wf
def gather_S512x4x32_S262144x1_S262144x4x32_12_0_n_n_0_1_1432 : GatherDims S512x4x32 S262144x1 S262144x4x32 where
  offsetDims := [1, 2]
  collapsedSliceDims := [0]
  operandBatchingDims := []
  startIndicesBatchingDims := []
  startIndexMap := [0]
  indexVectorDim := 1
  sliceSizes := ![1, 4, 32]
  wf := gather_S512x4x32_S262144x1_S262144x4x32_12_0_n_n_0_1_1432_wf
def scatter_S512x4_S262144x1_S262144x4_1_0_0_1 : ScatterDims S512x4 S262144x1 S262144x4 where
  updateWindowDims := [1]
  insertedWindowDims := [0]
  scatterDimsToOperandDims := [0]
  indexVectorDim := 1
  wf := scatter_S512x4_S262144x1_S262144x4_1_0_0_1_wf
def gather_S512x4_S262144x1_S262144x4_1_0_n_n_0_1_14 : GatherDims S512x4 S262144x1 S262144x4 where
  offsetDims := [1]
  collapsedSliceDims := [0]
  operandBatchingDims := []
  startIndicesBatchingDims := []
  startIndexMap := [0]
  indexVectorDim := 1
  sliceSizes := ![1, 4]
  wf := gather_S512x4_S262144x1_S262144x4_1_0_n_n_0_1_14_wf
def scatter_S512x4x32_S262144x1_S262144x4x32_12_0_0_1 : ScatterDims S512x4x32 S262144x1 S262144x4x32 where
  updateWindowDims := [1, 2]
  insertedWindowDims := [0]
  scatterDimsToOperandDims := [0]
  indexVectorDim := 1
  wf := scatter_S512x4x32_S262144x1_S262144x4x32_12_0_0_1_wf

class Facts : Prop extends Facts₀ where

variable [Facts]
-- ==== Proof.KernelCases.lean ====
/-
  The body of the fused attention kernel is run once per grid point, and what it does depends on the point only
  through two tests of the grid coordinate: whether the point is the first (the node projections and the running
  softmax state are initialised there) and whether it is the last (there the stored edge scores of all eight row
  blocks are read back, both layers are normalised and the result is written). This module names the two tests,
  decides them over the eight points, and opens the region's invariant into the six scratch buffers, each whole at
  some contents, and the generator register.
-/
import proofs.«169155_g70909910057105_cont_sun_m_1383_19_alg».proof.Proof.Gen.Kernel.Frame

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The test "this is the first grid point", as the body computes it from the coordinate. -/
abbrev isFirst (i : grid0.Coords) : Prop := (Scalar.cmpi .ne (Scalar.extui (Scalar.cmpi .eq (BitVec.ofNat 32 (i 0).val) 0#32)) 0#32) = 1#1
/-- The test "this is the last grid point". -/
abbrev isLast (i : grid0.Coords) : Prop := k0_cond2 i = 1#1

/-- Among the eight points only point 0 is first, -/
theorem isFirst_iff : ∀ t : Fin cfg0.N, isFirst (grid0.coords t) ↔ t.val = 0 :=
  (by decide +kernel : ∀ t : Fin grid0.N, isFirst (grid0.coords t) ↔ t.val = 0)
/-- and only point 7 is last. -/
theorem isLast_iff : ∀ t : Fin cfg0.N, isLast (grid0.coords t) ↔ t.val = 7 :=
  (by decide +kernel : ∀ t : Fin grid0.N, isLast (grid0.coords t) ↔ t.val = 7)

/-- The six scratch buffers, whole. -/
abbrev scr0 : Memref sig .tc .vmem S4x512x512 .f32 := Memref.whole cc0_scratch0
abbrev scr1 : Memref sig .tc .vmem S2x512x128 .f32 := Memref.whole cc0_scratch1
abbrev scr2 : Memref sig .tc .vmem S512x8 .f32 := Memref.whole cc0_scratch2
abbrev scr3 : Memref sig .tc .vmem S8x512 .f32 := Memref.whole cc0_scratch3
abbrev scr4 : Memref sig .tc .vmem S2x512x128 .f32 := Memref.whole cc0_scratch4
abbrev scr5 : Memref sig .tc .vmem S8x512 .f32 := Memref.whole cc0_scratch5

/-- What the region keeps for the body besides the windows: every scratch buffer whole at some contents, and the
    generator register at some state. -/
theorem inv_eq (c : Dev nD) :
    (Pipeline.ΦA spec0 c : sProp 𝕄)
      = iprop(iprop((∃ d, owns (c : Thread nD τ) scr0 fullShare d) ∗ (∃ d, owns (c : Thread nD τ) scr1 fullShare d) ∗ (∃ d, owns (c : Thread nD τ) scr2 fullShare d) ∗ (∃ d, owns (c : Thread nD τ) scr3 fullShare d) ∗ (∃ d, owns (c : Thread nD τ) scr4 fullShare d) ∗ (∃ d, owns (c : Thread nD τ) scr5 fullShare d)) ∗ (∃ r, prngReg c r)) := by
  unfold Pipeline.ΦA; rw [scopedRest0_eq]; simp only [scr0, scr1, scr2, scr3, scr4, scr5, owns_whole]; try rfl

end Cert.Kernel.Body

end
-- ==== Proof.KernelRunA.lean ====
/-
  The body at the first grid point, run symbolically on any whole staging buffers: the thirteen input buffers hold given
  contents and are handed back as they were; the output buffer and the six scratch buffers are taken at any contents
  and handed back at some contents, nothing of which is named. This is all a frame needs of the body.
-/
import proofs.«169155_g70909910057105_cont_sun_m_1383_19_alg».proof.Proof.KernelCases
import proofs.«169155_g70909910057105_cont_sun_m_1383_19_alg».proof.Proof.Gen.Kernel.Skeleton

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 8000000 in
/-- The body's triple at the first grid point. -/
theorem runA (c : Dev nD) (i : grid0.Coords) (arg1 : Memref sig .tc .vmem S64x512x128 .f32) (harg1 : arg1.IsWhole) (arg2 : Memref sig .tc .vmem S512x512 .i32) (harg2 : arg2.IsWhole) (arg3 : Memref sig .tc .vmem S512x2x128 .f32) (harg3 : arg3.IsWhole) (arg4 : Memref sig .tc .vmem S128x128 .f32) (harg4 : arg4.IsWhole) (arg5 : Memref sig .tc .vmem S128x128 .f32) (harg5 : arg5.IsWhole) (arg6 : Memref sig .tc .vmem S4x1 .f32) (harg6 : arg6.IsWhole) (arg7 : Memref sig .tc .vmem S4x1 .f32) (harg7 : arg7.IsWhole) (arg8 : Memref sig .tc .vmem S128x128 .f32) (harg8 : arg8.IsWhole) (arg9 : Memref sig .tc .vmem S4x32 .f32) (harg9 : arg9.IsWhole) (arg10 : Memref sig .tc .vmem S4x32 .f32) (harg10 : arg10.IsWhole) (arg11 : Memref sig .tc .vmem S128x128 .f32) (harg11 : arg11.IsWhole) (arg12 : Memref sig .tc .vmem S4x32 .f32) (harg12 : arg12.IsWhole) (arg13 : Memref sig .tc .vmem S4x32 .f32) (harg13 : arg13.IsWhole) (arg14 : Memref sig .tc .vmem S512x2x128 .f32) (harg14 : arg14.IsWhole) (arg15 : Memref sig .tc .vmem S4x512x512 .f32) (harg15 : arg15.IsWhole) (arg16 : Memref sig .tc .vmem S2x512x128 .f32) (harg16 : arg16.IsWhole) (arg17 : Memref sig .tc .vmem S512x8 .f32) (harg17 : arg17.IsWhole) (arg18 : Memref sig .tc .vmem S8x512 .f32) (harg18 : arg18.IsWhole) (arg19 : Memref sig .tc .vmem S2x512x128 .f32) (harg19 : arg19.IsWhole) (arg20 : Memref sig .tc .vmem S8x512 .f32) (harg20 : arg20.IsWhole) (hc0 : isFirst i) (hc1 : ¬isLast i)
    (x1 : Vec F S64x512x128 .f32) (x2 : Vec F S512x512 .i32) (x3 : Vec F S512x2x128 .f32) (x4 : Vec F S128x128 .f32) (x5 : Vec F S128x128 .f32) (x6 : Vec F S4x1 .f32) (x7 : Vec F S4x1 .f32) (x8 : Vec F S128x128 .f32) (x9 : Vec F S4x32 .f32) (x10 : Vec F S4x32 .f32) (x11 : Vec F S128x128 .f32) (x12 : Vec F S4x32 .f32) (x13 : Vec F S4x32 .f32) :
      ∀ (E : Set ℕ) (K : PUnit → sProp 𝕄),
        iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare x12 ∗ owns (c : Thread nD τ) arg13 fullShare x13 ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d) ∗ (∃ d, owns (c : Thread nD τ) arg20 fullShare d)
            ∗ (iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare x12 ∗ owns (c : Thread nD τ) arg13 fullShare x13 ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d) ∗ (∃ d, owns (c : Thread nD τ) arg20 fullShare d)) -∗ K ⟨⟩))
          ⊢ wp frame (wpE (defs₀ (F := F)) Variants.none c none) E (cc0__fused_body i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20) K := by
    intro E K
    simp only [cc0__fused_body_eq_skeleton]; unfold cc0__fused_body_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton]
    unfold owns
    iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%d14, %f14, -, H14⟩, ⟨%d15, %f15, -, H15⟩, ⟨%d16, %f16, -, H16⟩, ⟨%d17, %f17, -, H17⟩, ⟨%d18, %f18, -, H18⟩, ⟨%d19, %f19, -, H19⟩, ⟨%d20, %f20, -, H20⟩, Hk⟩
    obtain rfl := harg1.eq_unread hf1
    obtain rfl := harg2.eq_unread hf2
    obtain rfl := harg3.eq_unread hf3
    obtain rfl := harg4.eq_unread hf4
    obtain rfl := harg5.eq_unread hf5
    obtain rfl := harg6.eq_unread hf6
    obtain rfl := harg7.eq_unread hf7
    obtain rfl := harg8.eq_unread hf8
    obtain rfl := harg9.eq_unread hf9
    obtain rfl := harg10.eq_unread hf10
    obtain rfl := harg11.eq_unread hf11
    obtain rfl := harg12.eq_unread hf12
    obtain rfl := harg13.eq_unread hf13
    sl_exec (disch := first | exact hc0 | exact hc1)
    sl_step
    iapply Hk
    isplitl [H1]
    · iexists _; isplitr; · ipureintro; exact harg1.read_unread _
      iexact H1
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexists _; isplitr; · ipureintro; exact harg7.read_unread _
      iexact H7
    isplitl [H8]
    · iexists _; isplitr; · ipureintro; exact harg8.read_unread _
      iexact H8
    isplitl [H9]
    · iexists _; isplitr; · ipureintro; exact harg9.read_unread _
      iexact H9
    isplitl [H10]
    · iexists _; isplitr; · ipureintro; exact harg10.read_unread _
      iexact H10
    isplitl [H11]
    · iexists _; isplitr; · ipureintro; exact harg11.read_unread _
      iexact H11
    isplitl [H12]
    · iexists _; isplitr; · ipureintro; exact harg12.read_unread _
      iexact H12
    isplitl [H13]
    · iexists _; isplitr; · ipureintro; exact harg13.read_unread _
      iexact H13
    isplitl [H14]
    · iexists _, _; isplitr; swap; · iexact H14
      ipureintro; rfl
    isplitl [H15]
    · iexists _, _; isplitr; swap; · iexact H15
      ipureintro; rfl
    isplitl [H16]
    · iexists _, _; isplitr; swap; · iexact H16
      ipureintro; rfl
    isplitl [H17]
    · iexists _, _; isplitr; swap; · iexact H17
      ipureintro; rfl
    isplitl [H18]
    · iexists _, _; isplitr; swap; · iexact H18
      ipureintro; rfl
    isplitl [H19]
    · iexists _, _; isplitr; swap; · iexact H19
      ipureintro; rfl
    iexists _, _; isplitr; swap; · iexact H20
    ipureintro; rfl

end Cert.Kernel.Body

end
-- ==== Proof.KernelRunB.lean ====
/-
  The body at a middle grid point (neither first nor last), run symbolically on any whole staging buffers: the thirteen input buffers hold given
  contents and are handed back as they were; the output buffer and the six scratch buffers are taken at any contents
  and handed back at some contents, nothing of which is named. This is all a frame needs of the body.
-/
import proofs.«169155_g70909910057105_cont_sun_m_1383_19_alg».proof.Proof.KernelCases
import proofs.«169155_g70909910057105_cont_sun_m_1383_19_alg».proof.Proof.Gen.Kernel.Skeleton

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 8000000 in
/-- The body's triple at a middle grid point (neither first nor last). -/
theorem runB (c : Dev nD) (i : grid0.Coords) (arg1 : Memref sig .tc .vmem S64x512x128 .f32) (harg1 : arg1.IsWhole) (arg2 : Memref sig .tc .vmem S512x512 .i32) (harg2 : arg2.IsWhole) (arg3 : Memref sig .tc .vmem S512x2x128 .f32) (harg3 : arg3.IsWhole) (arg4 : Memref sig .tc .vmem S128x128 .f32) (harg4 : arg4.IsWhole) (arg5 : Memref sig .tc .vmem S128x128 .f32) (harg5 : arg5.IsWhole) (arg6 : Memref sig .tc .vmem S4x1 .f32) (harg6 : arg6.IsWhole) (arg7 : Memref sig .tc .vmem S4x1 .f32) (harg7 : arg7.IsWhole) (arg8 : Memref sig .tc .vmem S128x128 .f32) (harg8 : arg8.IsWhole) (arg9 : Memref sig .tc .vmem S4x32 .f32) (harg9 : arg9.IsWhole) (arg10 : Memref sig .tc .vmem S4x32 .f32) (harg10 : arg10.IsWhole) (arg11 : Memref sig .tc .vmem S128x128 .f32) (harg11 : arg11.IsWhole) (arg12 : Memref sig .tc .vmem S4x32 .f32) (harg12 : arg12.IsWhole) (arg13 : Memref sig .tc .vmem S4x32 .f32) (harg13 : arg13.IsWhole) (arg14 : Memref sig .tc .vmem S512x2x128 .f32) (harg14 : arg14.IsWhole) (arg15 : Memref sig .tc .vmem S4x512x512 .f32) (harg15 : arg15.IsWhole) (arg16 : Memref sig .tc .vmem S2x512x128 .f32) (harg16 : arg16.IsWhole) (arg17 : Memref sig .tc .vmem S512x8 .f32) (harg17 : arg17.IsWhole) (arg18 : Memref sig .tc .vmem S8x512 .f32) (harg18 : arg18.IsWhole) (arg19 : Memref sig .tc .vmem S2x512x128 .f32) (harg19 : arg19.IsWhole) (arg20 : Memref sig .tc .vmem S8x512 .f32) (harg20 : arg20.IsWhole) (hc0 : ¬isFirst i) (hc1 : ¬isLast i)
    (x1 : Vec F S64x512x128 .f32) (x2 : Vec F S512x512 .i32) (x3 : Vec F S512x2x128 .f32) (x4 : Vec F S128x128 .f32) (x5 : Vec F S128x128 .f32) (x6 : Vec F S4x1 .f32) (x7 : Vec F S4x1 .f32) (x8 : Vec F S128x128 .f32) (x9 : Vec F S4x32 .f32) (x10 : Vec F S4x32 .f32) (x11 : Vec F S128x128 .f32) (x12 : Vec F S4x32 .f32) (x13 : Vec F S4x32 .f32) :
      ∀ (E : Set ℕ) (K : PUnit → sProp 𝕄),
        iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare x12 ∗ owns (c : Thread nD τ) arg13 fullShare x13 ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d) ∗ (∃ d, owns (c : Thread nD τ) arg20 fullShare d)
            ∗ (iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare x12 ∗ owns (c : Thread nD τ) arg13 fullShare x13 ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d) ∗ (∃ d, owns (c : Thread nD τ) arg20 fullShare d)) -∗ K ⟨⟩))
          ⊢ wp frame (wpE (defs₀ (F := F)) Variants.none c none) E (cc0__fused_body i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20) K := by
    intro E K
    simp only [cc0__fused_body_eq_skeleton]; unfold cc0__fused_body_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton]
    unfold owns
    iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%d14, %f14, -, H14⟩, ⟨%d15, %f15, -, H15⟩, ⟨%d16, %f16, -, H16⟩, ⟨%d17, %f17, -, H17⟩, ⟨%d18, %f18, -, H18⟩, ⟨%d19, %f19, -, H19⟩, ⟨%d20, %f20, -, H20⟩, Hk⟩
    obtain rfl := harg1.eq_unread hf1
    obtain rfl := harg2.eq_unread hf2
    obtain rfl := harg3.eq_unread hf3
    obtain rfl := harg4.eq_unread hf4
    obtain rfl := harg5.eq_unread hf5
    obtain rfl := harg6.eq_unread hf6
    obtain rfl := harg7.eq_unread hf7
    obtain rfl := harg8.eq_unread hf8
    obtain rfl := harg9.eq_unread hf9
    obtain rfl := harg10.eq_unread hf10
    obtain rfl := harg11.eq_unread hf11
    obtain rfl := harg12.eq_unread hf12
    obtain rfl := harg13.eq_unread hf13
    sl_exec (disch := first | exact hc0 | exact hc1)
    sl_step
    iapply Hk
    isplitl [H1]
    · iexists _; isplitr; · ipureintro; exact harg1.read_unread _
      iexact H1
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexists _; isplitr; · ipureintro; exact harg7.read_unread _
      iexact H7
    isplitl [H8]
    · iexists _; isplitr; · ipureintro; exact harg8.read_unread _
      iexact H8
    isplitl [H9]
    · iexists _; isplitr; · ipureintro; exact harg9.read_unread _
      iexact H9
    isplitl [H10]
    · iexists _; isplitr; · ipureintro; exact harg10.read_unread _
      iexact H10
    isplitl [H11]
    · iexists _; isplitr; · ipureintro; exact harg11.read_unread _
      iexact H11
    isplitl [H12]
    · iexists _; isplitr; · ipureintro; exact harg12.read_unread _
      iexact H12
    isplitl [H13]
    · iexists _; isplitr; · ipureintro; exact harg13.read_unread _
      iexact H13
    isplitl [H14]
    · iexists _, _; isplitr; swap; · iexact H14
      ipureintro; rfl
    isplitl [H15]
    · iexists _, _; isplitr; swap; · iexact H15
      ipureintro; rfl
    isplitl [H16]
    · iexists _, _; isplitr; swap; · iexact H16
      ipureintro; rfl
    isplitl [H17]
    · iexists _, _; isplitr; swap; · iexact H17
      ipureintro; rfl
    isplitl [H18]
    · iexists _, _; isplitr; swap; · iexact H18
      ipureintro; rfl
    isplitl [H19]
    · iexists _, _; isplitr; swap; · iexact H19
      ipureintro; rfl
    iexists _, _; isplitr; swap; · iexact H20
    ipureintro; rfl

end Cert.Kernel.Body

end
-- ==== Proof.KernelRunC.lean ====
/-
  The body at the last grid point, run symbolically on any whole staging buffers: the thirteen input buffers hold given
  contents and are handed back as they were; the output buffer and the six scratch buffers are taken at any contents
  and handed back at some contents, nothing of which is named. This is all a frame needs of the body.
-/
import proofs.«169155_g70909910057105_cont_sun_m_1383_19_alg».proof.Proof.KernelCases
import proofs.«169155_g70909910057105_cont_sun_m_1383_19_alg».proof.Proof.Gen.Kernel.Skeleton

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 8000000 in
/-- The body's triple at the last grid point. -/
theorem runC (c : Dev nD) (i : grid0.Coords) (arg1 : Memref sig .tc .vmem S64x512x128 .f32) (harg1 : arg1.IsWhole) (arg2 : Memref sig .tc .vmem S512x512 .i32) (harg2 : arg2.IsWhole) (arg3 : Memref sig .tc .vmem S512x2x128 .f32) (harg3 : arg3.IsWhole) (arg4 : Memref sig .tc .vmem S128x128 .f32) (harg4 : arg4.IsWhole) (arg5 : Memref sig .tc .vmem S128x128 .f32) (harg5 : arg5.IsWhole) (arg6 : Memref sig .tc .vmem S4x1 .f32) (harg6 : arg6.IsWhole) (arg7 : Memref sig .tc .vmem S4x1 .f32) (harg7 : arg7.IsWhole) (arg8 : Memref sig .tc .vmem S128x128 .f32) (harg8 : arg8.IsWhole) (arg9 : Memref sig .tc .vmem S4x32 .f32) (harg9 : arg9.IsWhole) (arg10 : Memref sig .tc .vmem S4x32 .f32) (harg10 : arg10.IsWhole) (arg11 : Memref sig .tc .vmem S128x128 .f32) (harg11 : arg11.IsWhole) (arg12 : Memref sig .tc .vmem S4x32 .f32) (harg12 : arg12.IsWhole) (arg13 : Memref sig .tc .vmem S4x32 .f32) (harg13 : arg13.IsWhole) (arg14 : Memref sig .tc .vmem S512x2x128 .f32) (harg14 : arg14.IsWhole) (arg15 : Memref sig .tc .vmem S4x512x512 .f32) (harg15 : arg15.IsWhole) (arg16 : Memref sig .tc .vmem S2x512x128 .f32) (harg16 : arg16.IsWhole) (arg17 : Memref sig .tc .vmem S512x8 .f32) (harg17 : arg17.IsWhole) (arg18 : Memref sig .tc .vmem S8x512 .f32) (harg18 : arg18.IsWhole) (arg19 : Memref sig .tc .vmem S2x512x128 .f32) (harg19 : arg19.IsWhole) (arg20 : Memref sig .tc .vmem S8x512 .f32) (harg20 : arg20.IsWhole) (hc0 : ¬isFirst i) (hc1 : isLast i)
    (x1 : Vec F S64x512x128 .f32) (x2 : Vec F S512x512 .i32) (x3 : Vec F S512x2x128 .f32) (x4 : Vec F S128x128 .f32) (x5 : Vec F S128x128 .f32) (x6 : Vec F S4x1 .f32) (x7 : Vec F S4x1 .f32) (x8 : Vec F S128x128 .f32) (x9 : Vec F S4x32 .f32) (x10 : Vec F S4x32 .f32) (x11 : Vec F S128x128 .f32) (x12 : Vec F S4x32 .f32) (x13 : Vec F S4x32 .f32) :
      ∀ (E : Set ℕ) (K : PUnit → sProp 𝕄),
        iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare x12 ∗ owns (c : Thread nD τ) arg13 fullShare x13 ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d) ∗ (∃ d, owns (c : Thread nD τ) arg20 fullShare d)
            ∗ (iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare x12 ∗ owns (c : Thread nD τ) arg13 fullShare x13 ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d) ∗ (∃ d, owns (c : Thread nD τ) arg20 fullShare d)) -∗ K ⟨⟩))
          ⊢ wp frame (wpE (defs₀ (F := F)) Variants.none c none) E (cc0__fused_body i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20) K := by
    intro E K
    simp only [cc0__fused_body_eq_skeleton]; unfold cc0__fused_body_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton]
    unfold owns
    iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%d14, %f14, -, H14⟩, ⟨%d15, %f15, -, H15⟩, ⟨%d16, %f16, -, H16⟩, ⟨%d17, %f17, -, H17⟩, ⟨%d18, %f18, -, H18⟩, ⟨%d19, %f19, -, H19⟩, ⟨%d20, %f20, -, H20⟩, Hk⟩
    obtain rfl := harg1.eq_unread hf1
    obtain rfl := harg2.eq_unread hf2
    obtain rfl := harg3.eq_unread hf3
    obtain rfl := harg4.eq_unread hf4
    obtain rfl := harg5.eq_unread hf5
    obtain rfl := harg6.eq_unread hf6
    obtain rfl := harg7.eq_unread hf7
    obtain rfl := harg8.eq_unread hf8
    obtain rfl := harg9.eq_unread hf9
    obtain rfl := harg10.eq_unread hf10
    obtain rfl := harg11.eq_unread hf11
    obtain rfl := harg12.eq_unread hf12
    obtain rfl := harg13.eq_unread hf13
    sl_exec (disch := first | exact hc0 | exact hc1)
    sl_step
    iapply Hk
    isplitl [H1]
    · iexists _; isplitr; · ipureintro; exact harg1.read_unread _
      iexact H1
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexists _; isplitr; · ipureintro; exact harg7.read_unread _
      iexact H7
    isplitl [H8]
    · iexists _; isplitr; · ipureintro; exact harg8.read_unread _
      iexact H8
    isplitl [H9]
    · iexists _; isplitr; · ipureintro; exact harg9.read_unread _
      iexact H9
    isplitl [H10]
    · iexists _; isplitr; · ipureintro; exact harg10.read_unread _
      iexact H10
    isplitl [H11]
    · iexists _; isplitr; · ipureintro; exact harg11.read_unread _
      iexact H11
    isplitl [H12]
    · iexists _; isplitr; · ipureintro; exact harg12.read_unread _
      iexact H12
    isplitl [H13]
    · iexists _; isplitr; · ipureintro; exact harg13.read_unread _
      iexact H13
    isplitl [H14]
    · iexists _, _; isplitr; swap; · iexact H14
      ipureintro; rfl
    isplitl [H15]
    · iexists _, _; isplitr; swap; · iexact H15
      ipureintro; rfl
    isplitl [H16]
    · iexists _, _; isplitr; swap; · iexact H16
      ipureintro; rfl
    isplitl [H17]
    · iexists _, _; isplitr; swap; · iexact H17
      ipureintro; rfl
    isplitl [H18]
    · iexists _, _; isplitr; swap; · iexact H18
      ipureintro; rfl
    isplitl [H19]
    · iexists _, _; isplitr; swap; · iexact H19
      ipureintro; rfl
    iexists _, _; isplitr; swap; · iexact H20
    ipureintro; rfl

end Cert.Kernel.Body

end
-- ==== Proof.KernelFrame.lean ====
/-
  The frame of the program: under any launch memory every weakly fair execution terminates without a fault and
  the thirteen argument arrays end as they began. The grid has eight points. At each the pipeline hands the body the
  thirteen input blocks (the edge-feature block of the point's 64 source rows, and the twelve whole arrays fetched
  once), the output's staging buffer, and the region's six scratch buffers. For a frame nothing the body computes
  matters: the inputs come back as they were, and the output buffer and the scratch come back at SOME contents.
  So the proof data names the inputs' buffers (each holds its block) and forgets the output's; the region invariant
  is the plain one (every scratch buffer whole at some contents) at every point; and the body obligation is the
  point's case (first / middle / last, decided from the point's number) of the symbolic run.
-/
import proofs.«169155_g70909910057105_cont_sun_m_1383_19_alg».proof.Proof.KernelRunA
import proofs.«169155_g70909910057105_cont_sun_m_1383_19_alg».proof.Proof.KernelRunB
import proofs.«169155_g70909910057105_cont_sun_m_1383_19_alg».proof.Proof.KernelRunC

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The one window whose contents after the body are not named: the output (window 13). -/
def forgets : Fin 14 → Bool := fun w => w.val == 13

/-- The proof data on core `c`: the arrays as the region finds them; after the body each input's buffer still at its
    block, the output's at contents not named; the region's plain invariant; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, h⟩ => Pipeline.Dat.unnamed (cfg := cfg0) ⟨13, h⟩ t
  Φ _ := Pipeline.ΦA spec0 c
  q _ := fullShare
  owed _ := 0

theorem A_eq (c : Dev nD) (w : Fin cfg0.W) : (dats m 0 c).A w = V m c (Pipeline.arrRef spec0 w) := by
  dsimp only [dats]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = iblk m c 5 t := by dsimp only [dats]
theorem after_6 (c : Dev nD) (t : Fin cfg0.N) : (dats m 0 c).after 6 t = iblk m c 6 t := by dsimp only [dats]
theorem after_7 (c : Dev nD) (t : Fin cfg0.N) : (dats m 0 c).after 7 t = iblk m c 7 t := by dsimp only [dats]
theorem after_8 (c : Dev nD) (t : Fin cfg0.N) : (dats m 0 c).after 8 t = iblk m c 8 t := by dsimp only [dats]
theorem after_9 (c : Dev nD) (t : Fin cfg0.N) : (dats m 0 c).after 9 t = iblk m c 9 t := by dsimp only [dats]
theorem after_10 (c : Dev nD) (t : Fin cfg0.N) : (dats m 0 c).after 10 t = iblk m c 10 t := by dsimp only [dats]
theorem after_11 (c : Dev nD) (t : Fin cfg0.N) : (dats m 0 c).after 11 t = iblk m c 11 t := by dsimp only [dats]
theorem after_12 (c : Dev nD) (t : Fin cfg0.N) : (dats m 0 c).after 12 t = iblk m c 12 t := by dsimp only [dats]

/-- Each input's current staging buffer holds its block at every point, whether the point fetches it or not. -/
theorem before_0 (c : Dev nD) (t : Fin cfg0.N) (d) : (dats m 0 c).before 0 t d = iblk m c 0 t :=
  before0_0_of m (dats m 0 c) (A_eq m c 0) (after_0 m c) t d
theorem before_1 (c : Dev nD) (t : Fin cfg0.N) (d) : (dats m 0 c).before 1 t d = iblk m c 1 t :=
  before0_1_of m (dats m 0 c) (A_eq m c 1) (after_1 m c) t d
theorem before_2 (c : Dev nD) (t : Fin cfg0.N) (d) : (dats m 0 c).before 2 t d = iblk m c 2 t :=
  before0_2_of m (dats m 0 c) (A_eq m c 2) (after_2 m c) t d
theorem before_3 (c : Dev nD) (t : Fin cfg0.N) (d) : (dats m 0 c).before 3 t d = iblk m c 3 t :=
  before0_3_of m (dats m 0 c) (A_eq m c 3) (after_3 m c) t d
theorem before_4 (c : Dev nD) (t : Fin cfg0.N) (d) : (dats m 0 c).before 4 t d = iblk m c 4 t :=
  before0_4_of m (dats m 0 c) (A_eq m c 4) (after_4 m c) t d
theorem before_5 (c : Dev nD) (t : Fin cfg0.N) (d) : (dats m 0 c).before 5 t d = iblk m c 5 t :=
  before0_5_of m (dats m 0 c) (A_eq m c 5) (after_5 m c) t d
theorem before_6 (c : Dev nD) (t : Fin cfg0.N) (d) : (dats m 0 c).before 6 t d = iblk m c 6 t :=
  before0_6_of m (dats m 0 c) (A_eq m c 6) (after_6 m c) t d
theorem before_7 (c : Dev nD) (t : Fin cfg0.N) (d) : (dats m 0 c).before 7 t d = iblk m c 7 t :=
  before0_7_of m (dats m 0 c) (A_eq m c 7) (after_7 m c) t d
theorem before_8 (c : Dev nD) (t : Fin cfg0.N) (d) : (dats m 0 c).before 8 t d = iblk m c 8 t :=
  before0_8_of m (dats m 0 c) (A_eq m c 8) (after_8 m c) t d
theorem before_9 (c : Dev nD) (t : Fin cfg0.N) (d) : (dats m 0 c).before 9 t d = iblk m c 9 t :=
  before0_9_of m (dats m 0 c) (A_eq m c 9) (after_9 m c) t d
theorem before_10 (c : Dev nD) (t : Fin cfg0.N) (d) : (dats m 0 c).before 10 t d = iblk m c 10 t :=
  before0_10_of m (dats m 0 c) (A_eq m c 10) (after_10 m c) t d
theorem before_11 (c : Dev nD) (t : Fin cfg0.N) (d) : (dats m 0 c).before 11 t d = iblk m c 11 t :=
  before0_11_of m (dats m 0 c) (A_eq m c 11) (after_11 m c) t d
theorem before_12 (c : Dev nD) (t : Fin cfg0.N) (d) : (dats m 0 c).before 12 t d = iblk m c 12 t :=
  before0_12_of m (dats m 0 c) (A_eq m c 12) (after_12 m c) t d

/-- Each window's current staging buffer at point `t`, spelled as the pipeline passes it to the body. -/
abbrev stg0 (t : Fin cfg0.N) : Memref sig .tc .vmem S64x512x128 .f32 := win0_0.stage (cfg0.slots t 0)
abbrev stg1 (t : Fin cfg0.N) : Memref sig .tc .vmem S512x512 .i32 := win0_1.stage (cfg0.slots t 1)
abbrev stg2 (t : Fin cfg0.N) : Memref sig .tc .vmem S512x2x128 .f32 := win0_2.stage (cfg0.slots t 2)
abbrev stg3 (t : Fin cfg0.N) : Memref sig .tc .vmem S128x128 .f32 := win0_3.stage (cfg0.slots t 3)
abbrev stg4 (t : Fin cfg0.N) : Memref sig .tc .vmem S128x128 .f32 := win0_4.stage (cfg0.slots t 4)
abbrev stg5 (t : Fin cfg0.N) : Memref sig .tc .vmem S4x1 .f32 := win0_5.stage (cfg0.slots t 5)
abbrev stg6 (t : Fin cfg0.N) : Memref sig .tc .vmem S4x1 .f32 := win0_6.stage (cfg0.slots t 6)
abbrev stg7 (t : Fin cfg0.N) : Memref sig .tc .vmem S128x128 .f32 := win0_7.stage (cfg0.slots t 7)
abbrev stg8 (t : Fin cfg0.N) : Memref sig .tc .vmem S4x32 .f32 := win0_8.stage (cfg0.slots t 8)
abbrev stg9 (t : Fin cfg0.N) : Memref sig .tc .vmem S4x32 .f32 := win0_9.stage (cfg0.slots t 9)
abbrev stg10 (t : Fin cfg0.N) : Memref sig .tc .vmem S128x128 .f32 := win0_10.stage (cfg0.slots t 10)
abbrev stg11 (t : Fin cfg0.N) : Memref sig .tc .vmem S4x32 .f32 := win0_11.stage (cfg0.slots t 11)
abbrev stg12 (t : Fin cfg0.N) : Memref sig .tc .vmem S4x32 .f32 := win0_12.stage (cfg0.slots t 12)
abbrev stg13 (t : Fin cfg0.N) : Memref sig .tc .vmem S512x2x128 .f32 := win0_13.stage (cfg0.slots t 13)

/-- What the body is called with at point `t`, window by window, -/
def bodyPre (c : Dev nD) (t : Fin cfg0.N) : sProp 𝕄 :=
  iprop((dats m 0 c).Φ t.castSucc ∗ (dats m 0 c).owesAt () t.castSucc
    ∗ (∃ d, owns (c : Thread nD τ) (stg0 t) fullShare ((dats m 0 c).before 0 t d))
    ∗ (∃ d, owns (c : Thread nD τ) (stg1 t) fullShare ((dats m 0 c).before 1 t d))
    ∗ (∃ d, owns (c : Thread nD τ) (stg2 t) fullShare ((dats m 0 c).before 2 t d))
    ∗ (∃ d, owns (c : Thread nD τ) (stg3 t) fullShare ((dats m 0 c).before 3 t d))
    ∗ (∃ d, owns (c : Thread nD τ) (stg4 t) fullShare ((dats m 0 c).before 4 t d))
    ∗ (∃ d, owns (c : Thread nD τ) (stg5 t) fullShare ((dats m 0 c).before 5 t d))
    ∗ (∃ d, owns (c : Thread nD τ) (stg6 t) fullShare ((dats m 0 c).before 6 t d))
    ∗ (∃ d, owns (c : Thread nD τ) (stg7 t) fullShare ((dats m 0 c).before 7 t d))
    ∗ (∃ d, owns (c : Thread nD τ) (stg8 t) fullShare ((dats m 0 c).before 8 t d))
    ∗ (∃ d, owns (c : Thread nD τ) (stg9 t) fullShare ((dats m 0 c).before 9 t d))
    ∗ (∃ d, owns (c : Thread nD τ) (stg10 t) fullShare ((dats m 0 c).before 10 t d))
    ∗ (∃ d, owns (c : Thread nD τ) (stg11 t) fullShare ((dats m 0 c).before 11 t d))
    ∗ (∃ d, owns (c : Thread nD τ) (stg12 t) fullShare ((dats m 0 c).before 12 t d))
    ∗ (∃ d, owns (c : Thread nD τ) (stg13 t) fullShare d))

/-- and what it returns. -/
def bodyPost (c : Dev nD) (t : Fin cfg0.N) : sProp 𝕄 :=
  iprop((dats m 0 c).Φ t.succ ∗ (dats m 0 c).owesAt () t.succ
    ∗ owns (c : Thread nD τ) (stg0 t) fullShare ((dats m 0 c).after 0 t)
    ∗ owns (c : Thread nD τ) (stg1 t) fullShare ((dats m 0 c).after 1 t)
    ∗ owns (c : Thread nD τ) (stg2 t) fullShare ((dats m 0 c).after 2 t)
    ∗ owns (c : Thread nD τ) (stg3 t) fullShare ((dats m 0 c).after 3 t)
    ∗ owns (c : Thread nD τ) (stg4 t) fullShare ((dats m 0 c).after 4 t)
    ∗ owns (c : Thread nD τ) (stg5 t) fullShare ((dats m 0 c).after 5 t)
    ∗ owns (c : Thread nD τ) (stg6 t) fullShare ((dats m 0 c).after 6 t)
    ∗ owns (c : Thread nD τ) (stg7 t) fullShare ((dats m 0 c).after 7 t)
    ∗ owns (c : Thread nD τ) (stg8 t) fullShare ((dats m 0 c).after 8 t)
    ∗ owns (c : Thread nD τ) (stg9 t) fullShare ((dats m 0 c).after 9 t)
    ∗ owns (c : Thread nD τ) (stg10 t) fullShare ((dats m 0 c).after 10 t)
    ∗ owns (c : Thread nD τ) (stg11 t) fullShare ((dats m 0 c).after 11 t)
    ∗ owns (c : Thread nD τ) (stg12 t) fullShare ((dats m 0 c).after 12 t)
    ∗ (∃ d, owns (c : Thread nD τ) (stg13 t) fullShare d))

set_option maxHeartbeats 4000000 in
/-- The body at any point: the point's number decides which of the three cases it is in, and that case's run applies;
    the scratch buffers pass from the invariant to the body and back at some contents. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, before_3, before_4, before_5, before_6, before_7, before_8, before_9, before_10, before_11, before_12]
  rw [show (dats m 0 c).Φ t.succ = (dats m 0 c).Φ t.castSucc from rfl,
    show (dats m 0 c).owesAt () t.succ = (dats m 0 c).owesAt () t.castSucc from rfl,
    after_0, after_1, after_2, after_3, after_4, after_5, after_6, after_7, after_8, after_9, after_10, after_11, after_12]
  rw [show (dats m 0 c).Φ t.castSucc = Pipeline.ΦA spec0 c from rfl, inv_eq]
  by_cases h0 : isFirst (grid0.coords t)
  · by_cases h1 : isLast (grid0.coords t)
    · exfalso
      have e0 := (isFirst_iff t).mp h0
      have e1 := (isLast_iff t).mp h1
      omega
    ·
      iintro ⟨⟨⟨S0, S1, S2, S3, S4, S5⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩⟩
      iapply (runA c (grid0.coords t) _ _ _ _ _ _ _ _ _ _ _ _ _ _ _ _ _ _ _ _ _ _ _ _ _ _ _ _ _ _ _ _ _ _ _ _ _ _ _ _ h0 h1 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [H13]; · iexists _; iexact H13
      isplitl [S0]; · iexact S0
      isplitl [S1]; · iexact S1
      isplitl [S2]; · iexact S2
      isplitl [S3]; · iexact S3
      isplitl [S4]; · iexact S4
      isplitl [S5]; · iexact S5
      iintro ⟨H0, H1, H2, H3, H4, H5, H6, H7, H8, H9, H10, H11, H12, H13, S0, S1, S2, S3, S4, S5⟩
      isplitl [S0 S1 S2 S3 S4 S5 Hg]
      · isplitl [S0 S1 S2 S3 S4 S5]
        · isplitl [S0]; · iexact S0
          isplitl [S1]; · iexact S1
          isplitl [S2]; · iexact S2
          isplitl [S3]; · iexact S3
          isplitl [S4]; · iexact S4
          iexact S5
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      iexact H13
  · by_cases h1 : isLast (grid0.coords t)
    ·
      iintro ⟨⟨⟨S0, S1, S2, S3, S4, S5⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩⟩
      iapply (runC c (grid0.coords t) _ _ _ _ _ _ _ _ _ _ _ _ _ _ _ _ _ _ _ _ _ _ _ _ _ _ _ _ _ _ _ _ _ _ _ _ _ _ _ _ h0 h1 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [H13]; · iexists _; iexact H13
      isplitl [S0]; · iexact S0
      isplitl [S1]; · iexact S1
      isplitl [S2]; · iexact S2
      isplitl [S3]; · iexact S3
      isplitl [S4]; · iexact S4
      isplitl [S5]; · iexact S5
      iintro ⟨H0, H1, H2, H3, H4, H5, H6, H7, H8, H9, H10, H11, H12, H13, S0, S1, S2, S3, S4, S5⟩
      isplitl [S0 S1 S2 S3 S4 S5 Hg]
      · isplitl [S0 S1 S2 S3 S4 S5]
        · isplitl [S0]; · iexact S0
          isplitl [S1]; · iexact S1
          isplitl [S2]; · iexact S2
          isplitl [S3]; · iexact S3
          isplitl [S4]; · iexact S4
          iexact S5
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      iexact H13
    ·
      iintro ⟨⟨⟨S0, S1, S2, S3, S4, S5⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩⟩
      iapply (runB c (grid0.coords t) _ _ _ _ _ _ _ _ _ _ _ _ _ _ _ _ _ _ _ _ _ _ _ _ _ _ _ _ _ _ _ _ _ _ _ _ _ _ _ _ h0 h1 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [H13]; · iexists _; iexact H13
      isplitl [S0]; · iexact S0
      isplitl [S1]; · iexact S1
      isplitl [S2]; · iexact S2
      isplitl [S3]; · iexact S3
      isplitl [S4]; · iexact S4
      isplitl [S5]; · iexact S5
      iintro ⟨H0, H1, H2, H3, H4, H5, H6, H7, H8, H9, H10, H11, H12, H13, S0, S1, S2, S3, S4, S5⟩
      isplitl [S0 S1 S2 S3 S4 S5 Hg]
      · isplitl [S0 S1 S2 S3 S4 S5]
        · isplitl [S0]; · iexact S0
          isplitl [S1]; · iexact S1
          isplitl [S2]; · iexact S2
          isplitl [S3]; · iexact S3
          isplitl [S4]; · iexact S4
          iexact S5
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      iexact H13

/-- The library's body obligation, at every point, the output forgotten. -/
theorem body_obligation (c : Dev nD) : BodyObligation (dats (F := F) m 0 c) (defs₀ (F := F)) Variants.none () Set.univ forgets := fun t => by
  rw [bigSep_W0, bigSep_W0]
  exact sound_body m c t

set_option backward.isDefEq.respectTransparency.types false in
/-- Every weakly fair execution of the program terminates without a fault, every input array of the pipeline
    unchanged and every unscoped buffer no window stages at its contents at the region's entry. -/
theorem run_main : θ_run defs (onTc (τ := τ) (main (F := F))) (s₀ m ρ) (Pipeline.RDat.FramePost (cfgs 0) (fun c => (dats m 0 c).toRForget forgets) (V m)) :=
  Pipeline.RDat.θ_run_frame cfgs (0 : Fin 1) launch0 defs₀ Variants.none (fun c => (dats m 0 c).toRForget forgets) m ρ main
    (hbody := fun c => (body_obligation m c).toRForget) (hshare := fun c => ((dats m 0 c).toRForget forgets).share_full fun _ => rfl)
    (howed := fun _ _ => rfl) (V := V m) (hmain := hmain m Variants.none) (hA := A_eq m) (hΦ := fun _ _ => rfl)

/-- The frame read off such a run: an argument a window stages is that input window's array, unchanged by the
    pipeline; the two arguments no window stages are among the other unscoped buffers; and no host operation before
    the region writes an argument. -/
theorem frame_of_run (rdat : (c : Dev nD) → Pipeline.RDat τ (Elt F) Unit ℕ (UR sig nD τ) ℕ (cfgs 0) c)
    (hA : ∀ c w, (rdat c).A w = V m c (Pipeline.arrRef spec0 w))
    (h : θ_run defs (onTc (τ := τ) (main (F := F))) (s₀ m ρ) (Pipeline.RDat.FramePost (cfgs 0) rdat (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) :=
  (θ_run defs _ _).mono (fun _ h c => ⟨(Eq.mp (congrFun ((rdat c).ArrAt_in 2 rfl _) _) ((h c).1 2)).trans ((hA c 2).trans (V_main_arg0 m c)),
      (Eq.mp (congrFun ((rdat c).ArrAt_in 1 rfl _) _) ((h c).1 1)).trans ((hA c 1).trans (V_main_arg1 m c)),
      (Eq.mp (congrFun ((rdat c).ArrAt_in 0 rfl _) _) ((h c).1 0)).trans ((hA c 0).trans (V_main_arg2 m c)),
      (Eq.mp (congrFun ((rdat c).ArrAt_in 7 rfl _) _) ((h c).1 7)).trans ((hA c 7).trans (V_main_arg3 m c)),
      (Eq.mp (congrFun ((rdat c).ArrAt_in 3 rfl _) _) ((h c).1 3)).trans ((hA c 3).trans (V_main_arg4 m c)),
      (Eq.mp (congrFun ((rdat c).ArrAt_in 8 rfl _) _) ((h c).1 8)).trans ((hA c 8).trans (V_main_arg5 m c)),
      (Eq.mp (congrFun ((rdat c).ArrAt_in 9 rfl _) _) ((h c).1 9)).trans ((hA c 9).trans (V_main_arg6 m c)),
      ((h c).2 main_arg7 (Pipeline.mem_restRefs_of main_arg7 (by decide) (by decide))).trans (V_main_arg7 m c),
      (Eq.mp (congrFun ((rdat c).ArrAt_in 10 rfl _) _) ((h c).1 10)).trans ((hA c 10).trans (V_main_arg8 m c)),
      (Eq.mp (congrFun ((rdat c).ArrAt_in 4 rfl _) _) ((h c).1 4)).trans ((hA c 4).trans (V_main_arg9 m c)),
      (Eq.mp (congrFun ((rdat c).ArrAt_in 11 rfl _) _) ((h c).1 11)).trans ((hA c 11).trans (V_main_arg10 m c)),
      (Eq.mp (congrFun ((rdat c).ArrAt_in 12 rfl _) _) ((h c).1 12)).trans ((hA c 12).trans (V_main_arg11 m c)),
      ((h c).2 main_arg12 (Pipeline.mem_restRefs_of main_arg12 (by decide) (by decide))).trans (V_main_arg12 m c)⟩) h

/-- The frame claim's statement, at any instance of the float operations. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) :=
  frame_of_run m ρ (fun c => (dats m 0 c).toRForget forgets) (A_eq m) (run_main m ρ)

end Cert.Kernel.Body

end
-- ==== Proof.KernelIdealCases.lean ====
/-
  The body of the fused attention kernel is run once per grid point, and what it does depends on the point only
  through two tests of the grid coordinate: whether the point is the first (the node projections and the running
  softmax state are initialised there) and whether it is the last (there the stored edge scores of all eight row
  blocks are read back, both layers are normalised and the result is written). This module names the two tests,
  decides them over the eight points, and opens the region's invariant into the six scratch buffers, each whole at
  some contents, and the generator register.
-/
import proofs.«169155_g70909910057105_cont_sun_m_1383_19_alg».proof.Proof.Gen.KernelIdeal.Frame

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The test "this is the first grid point", as the body computes it from the coordinate. -/
abbrev isFirst (i : grid0.Coords) : Prop := (Scalar.cmpi .ne (Scalar.extui (Scalar.cmpi .eq (BitVec.ofNat 32 (i 0).val) 0#32)) 0#32) = 1#1
/-- The test "this is the last grid point". -/
abbrev isLast (i : grid0.Coords) : Prop := k0_cond2 i = 1#1

/-- Among the eight points only point 0 is first, -/
theorem isFirst_iff : ∀ t : Fin cfg0.N, isFirst (grid0.coords t) ↔ t.val = 0 :=
  (by decide +kernel : ∀ t : Fin grid0.N, isFirst (grid0.coords t) ↔ t.val = 0)
/-- and only point 7 is last. -/
theorem isLast_iff : ∀ t : Fin cfg0.N, isLast (grid0.coords t) ↔ t.val = 7 :=
  (by decide +kernel : ∀ t : Fin grid0.N, isLast (grid0.coords t) ↔ t.val = 7)

/-- The six scratch buffers, whole. -/
abbrev scr0 : Memref sig .tc .vmem S4x512x512 .f32 := Memref.whole cc0_scratch0
abbrev scr1 : Memref sig .tc .vmem S2x512x128 .f32 := Memref.whole cc0_scratch1
abbrev scr2 : Memref sig .tc .vmem S512x8 .f32 := Memref.whole cc0_scratch2
abbrev scr3 : Memref sig .tc .vmem S8x512 .f32 := Memref.whole cc0_scratch3
abbrev scr4 : Memref sig .tc .vmem S2x512x128 .f32 := Memref.whole cc0_scratch4
abbrev scr5 : Memref sig .tc .vmem S8x512 .f32 := Memref.whole cc0_scratch5

/-- What the region keeps for the body besides the windows: every scratch buffer whole at some contents, and the
    generator register at some state. -/
theorem inv_eq (c : Dev nD) :
    (Pipeline.ΦA spec0 c : sProp 𝕄)
      = iprop(iprop((∃ d, owns (c : Thread nD τ) scr0 fullShare d) ∗ (∃ d, owns (c : Thread nD τ) scr1 fullShare d) ∗ (∃ d, owns (c : Thread nD τ) scr2 fullShare d) ∗ (∃ d, owns (c : Thread nD τ) scr3 fullShare d) ∗ (∃ d, owns (c : Thread nD τ) scr4 fullShare d) ∗ (∃ d, owns (c : Thread nD τ) scr5 fullShare d)) ∗ (∃ r, prngReg c r)) := by
  unfold Pipeline.ΦA; rw [scopedRest0_eq]; simp only [scr0, scr1, scr2, scr3, scr4, scr5, owns_whole]; try rfl

end Cert.KernelIdeal.Body

end
-- ==== Proof.KernelIdealRunA.lean ====
/-
  The body at the first grid point, run symbolically on any whole staging buffers: the thirteen input buffers hold given
  contents and are handed back as they were; the output buffer and the six scratch buffers are taken at any contents
  and handed back at some contents, nothing of which is named. This is all a frame needs of the body.
-/
import proofs.«169155_g70909910057105_cont_sun_m_1383_19_alg».proof.Proof.KernelIdealCases
import proofs.«169155_g70909910057105_cont_sun_m_1383_19_alg».proof.Proof.Gen.KernelIdeal.Skeleton

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 8000000 in
/-- The body's triple at the first grid point. -/
theorem runA (c : Dev nD) (i : grid0.Coords) (arg1 : Memref sig .tc .vmem S64x512x128 .f32) (harg1 : arg1.IsWhole) (arg2 : Memref sig .tc .vmem S512x512 .i32) (harg2 : arg2.IsWhole) (arg3 : Memref sig .tc .vmem S512x2x128 .f32) (harg3 : arg3.IsWhole) (arg4 : Memref sig .tc .vmem S128x128 .f32) (harg4 : arg4.IsWhole) (arg5 : Memref sig .tc .vmem S128x128 .f32) (harg5 : arg5.IsWhole) (arg6 : Memref sig .tc .vmem S4x1 .f32) (harg6 : arg6.IsWhole) (arg7 : Memref sig .tc .vmem S4x1 .f32) (harg7 : arg7.IsWhole) (arg8 : Memref sig .tc .vmem S128x128 .f32) (harg8 : arg8.IsWhole) (arg9 : Memref sig .tc .vmem S4x32 .f32) (harg9 : arg9.IsWhole) (arg10 : Memref sig .tc .vmem S4x32 .f32) (harg10 : arg10.IsWhole) (arg11 : Memref sig .tc .vmem S128x128 .f32) (harg11 : arg11.IsWhole) (arg12 : Memref sig .tc .vmem S4x32 .f32) (harg12 : arg12.IsWhole) (arg13 : Memref sig .tc .vmem S4x32 .f32) (harg13 : arg13.IsWhole) (arg14 : Memref sig .tc .vmem S512x2x128 .f32) (harg14 : arg14.IsWhole) (arg15 : Memref sig .tc .vmem S4x512x512 .f32) (harg15 : arg15.IsWhole) (arg16 : Memref sig .tc .vmem S2x512x128 .f32) (harg16 : arg16.IsWhole) (arg17 : Memref sig .tc .vmem S512x8 .f32) (harg17 : arg17.IsWhole) (arg18 : Memref sig .tc .vmem S8x512 .f32) (harg18 : arg18.IsWhole) (arg19 : Memref sig .tc .vmem S2x512x128 .f32) (harg19 : arg19.IsWhole) (arg20 : Memref sig .tc .vmem S8x512 .f32) (harg20 : arg20.IsWhole) (hc0 : isFirst i) (hc1 : ¬isLast i)
    (x1 : Vec F S64x512x128 .f32) (x2 : Vec F S512x512 .i32) (x3 : Vec F S512x2x128 .f32) (x4 : Vec F S128x128 .f32) (x5 : Vec F S128x128 .f32) (x6 : Vec F S4x1 .f32) (x7 : Vec F S4x1 .f32) (x8 : Vec F S128x128 .f32) (x9 : Vec F S4x32 .f32) (x10 : Vec F S4x32 .f32) (x11 : Vec F S128x128 .f32) (x12 : Vec F S4x32 .f32) (x13 : Vec F S4x32 .f32) :
      ∀ (E : Set ℕ) (K : PUnit → sProp 𝕄),
        iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare x12 ∗ owns (c : Thread nD τ) arg13 fullShare x13 ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d) ∗ (∃ d, owns (c : Thread nD τ) arg20 fullShare d)
            ∗ (iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare x12 ∗ owns (c : Thread nD τ) arg13 fullShare x13 ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d) ∗ (∃ d, owns (c : Thread nD τ) arg20 fullShare d)) -∗ K ⟨⟩))
          ⊢ wp frame (wpE (defs₀ (F := F)) Variants.none c none) E (cc0__fused_body i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20) K := by
    intro E K
    simp only [cc0__fused_body_eq_skeleton]; unfold cc0__fused_body_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton]
    unfold owns
    iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%d14, %f14, -, H14⟩, ⟨%d15, %f15, -, H15⟩, ⟨%d16, %f16, -, H16⟩, ⟨%d17, %f17, -, H17⟩, ⟨%d18, %f18, -, H18⟩, ⟨%d19, %f19, -, H19⟩, ⟨%d20, %f20, -, H20⟩, Hk⟩
    obtain rfl := harg1.eq_unread hf1
    obtain rfl := harg2.eq_unread hf2
    obtain rfl := harg3.eq_unread hf3
    obtain rfl := harg4.eq_unread hf4
    obtain rfl := harg5.eq_unread hf5
    obtain rfl := harg6.eq_unread hf6
    obtain rfl := harg7.eq_unread hf7
    obtain rfl := harg8.eq_unread hf8
    obtain rfl := harg9.eq_unread hf9
    obtain rfl := harg10.eq_unread hf10
    obtain rfl := harg11.eq_unread hf11
    obtain rfl := harg12.eq_unread hf12
    obtain rfl := harg13.eq_unread hf13
    sl_exec (disch := first | exact hc0 | exact hc1)
    sl_step
    iapply Hk
    isplitl [H1]
    · iexists _; isplitr; · ipureintro; exact harg1.read_unread _
      iexact H1
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexists _; isplitr; · ipureintro; exact harg7.read_unread _
      iexact H7
    isplitl [H8]
    · iexists _; isplitr; · ipureintro; exact harg8.read_unread _
      iexact H8
    isplitl [H9]
    · iexists _; isplitr; · ipureintro; exact harg9.read_unread _
      iexact H9
    isplitl [H10]
    · iexists _; isplitr; · ipureintro; exact harg10.read_unread _
      iexact H10
    isplitl [H11]
    · iexists _; isplitr; · ipureintro; exact harg11.read_unread _
      iexact H11
    isplitl [H12]
    · iexists _; isplitr; · ipureintro; exact harg12.read_unread _
      iexact H12
    isplitl [H13]
    · iexists _; isplitr; · ipureintro; exact harg13.read_unread _
      iexact H13
    isplitl [H14]
    · iexists _, _; isplitr; swap; · iexact H14
      ipureintro; rfl
    isplitl [H15]
    · iexists _, _; isplitr; swap; · iexact H15
      ipureintro; rfl
    isplitl [H16]
    · iexists _, _; isplitr; swap; · iexact H16
      ipureintro; rfl
    isplitl [H17]
    · iexists _, _; isplitr; swap; · iexact H17
      ipureintro; rfl
    isplitl [H18]
    · iexists _, _; isplitr; swap; · iexact H18
      ipureintro; rfl
    isplitl [H19]
    · iexists _, _; isplitr; swap; · iexact H19
      ipureintro; rfl
    iexists _, _; isplitr; swap; · iexact H20
    ipureintro; rfl

end Cert.KernelIdeal.Body

end
-- ==== Proof.KernelIdealRunB.lean ====
/-
  The body at a middle grid point (neither first nor last), run symbolically on any whole staging buffers: the thirteen input buffers hold given
  contents and are handed back as they were; the output buffer and the six scratch buffers are taken at any contents
  and handed back at some contents, nothing of which is named. This is all a frame needs of the body.
-/
import proofs.«169155_g70909910057105_cont_sun_m_1383_19_alg».proof.Proof.KernelIdealCases
import proofs.«169155_g70909910057105_cont_sun_m_1383_19_alg».proof.Proof.Gen.KernelIdeal.Skeleton

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 8000000 in
/-- The body's triple at a middle grid point (neither first nor last). -/
theorem runB (c : Dev nD) (i : grid0.Coords) (arg1 : Memref sig .tc .vmem S64x512x128 .f32) (harg1 : arg1.IsWhole) (arg2 : Memref sig .tc .vmem S512x512 .i32) (harg2 : arg2.IsWhole) (arg3 : Memref sig .tc .vmem S512x2x128 .f32) (harg3 : arg3.IsWhole) (arg4 : Memref sig .tc .vmem S128x128 .f32) (harg4 : arg4.IsWhole) (arg5 : Memref sig .tc .vmem S128x128 .f32) (harg5 : arg5.IsWhole) (arg6 : Memref sig .tc .vmem S4x1 .f32) (harg6 : arg6.IsWhole) (arg7 : Memref sig .tc .vmem S4x1 .f32) (harg7 : arg7.IsWhole) (arg8 : Memref sig .tc .vmem S128x128 .f32) (harg8 : arg8.IsWhole) (arg9 : Memref sig .tc .vmem S4x32 .f32) (harg9 : arg9.IsWhole) (arg10 : Memref sig .tc .vmem S4x32 .f32) (harg10 : arg10.IsWhole) (arg11 : Memref sig .tc .vmem S128x128 .f32) (harg11 : arg11.IsWhole) (arg12 : Memref sig .tc .vmem S4x32 .f32) (harg12 : arg12.IsWhole) (arg13 : Memref sig .tc .vmem S4x32 .f32) (harg13 : arg13.IsWhole) (arg14 : Memref sig .tc .vmem S512x2x128 .f32) (harg14 : arg14.IsWhole) (arg15 : Memref sig .tc .vmem S4x512x512 .f32) (harg15 : arg15.IsWhole) (arg16 : Memref sig .tc .vmem S2x512x128 .f32) (harg16 : arg16.IsWhole) (arg17 : Memref sig .tc .vmem S512x8 .f32) (harg17 : arg17.IsWhole) (arg18 : Memref sig .tc .vmem S8x512 .f32) (harg18 : arg18.IsWhole) (arg19 : Memref sig .tc .vmem S2x512x128 .f32) (harg19 : arg19.IsWhole) (arg20 : Memref sig .tc .vmem S8x512 .f32) (harg20 : arg20.IsWhole) (hc0 : ¬isFirst i) (hc1 : ¬isLast i)
    (x1 : Vec F S64x512x128 .f32) (x2 : Vec F S512x512 .i32) (x3 : Vec F S512x2x128 .f32) (x4 : Vec F S128x128 .f32) (x5 : Vec F S128x128 .f32) (x6 : Vec F S4x1 .f32) (x7 : Vec F S4x1 .f32) (x8 : Vec F S128x128 .f32) (x9 : Vec F S4x32 .f32) (x10 : Vec F S4x32 .f32) (x11 : Vec F S128x128 .f32) (x12 : Vec F S4x32 .f32) (x13 : Vec F S4x32 .f32) :
      ∀ (E : Set ℕ) (K : PUnit → sProp 𝕄),
        iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare x12 ∗ owns (c : Thread nD τ) arg13 fullShare x13 ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d) ∗ (∃ d, owns (c : Thread nD τ) arg20 fullShare d)
            ∗ (iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare x12 ∗ owns (c : Thread nD τ) arg13 fullShare x13 ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d) ∗ (∃ d, owns (c : Thread nD τ) arg20 fullShare d)) -∗ K ⟨⟩))
          ⊢ wp frame (wpE (defs₀ (F := F)) Variants.none c none) E (cc0__fused_body i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20) K := by
    intro E K
    simp only [cc0__fused_body_eq_skeleton]; unfold cc0__fused_body_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton]
    unfold owns
    iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%d14, %f14, -, H14⟩, ⟨%d15, %f15, -, H15⟩, ⟨%d16, %f16, -, H16⟩, ⟨%d17, %f17, -, H17⟩, ⟨%d18, %f18, -, H18⟩, ⟨%d19, %f19, -, H19⟩, ⟨%d20, %f20, -, H20⟩, Hk⟩
    obtain rfl := harg1.eq_unread hf1
    obtain rfl := harg2.eq_unread hf2
    obtain rfl := harg3.eq_unread hf3
    obtain rfl := harg4.eq_unread hf4
    obtain rfl := harg5.eq_unread hf5
    obtain rfl := harg6.eq_unread hf6
    obtain rfl := harg7.eq_unread hf7
    obtain rfl := harg8.eq_unread hf8
    obtain rfl := harg9.eq_unread hf9
    obtain rfl := harg10.eq_unread hf10
    obtain rfl := harg11.eq_unread hf11
    obtain rfl := harg12.eq_unread hf12
    obtain rfl := harg13.eq_unread hf13
    sl_exec (disch := first | exact hc0 | exact hc1)
    sl_step
    iapply Hk
    isplitl [H1]
    · iexists _; isplitr; · ipureintro; exact harg1.read_unread _
      iexact H1
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexists _; isplitr; · ipureintro; exact harg7.read_unread _
      iexact H7
    isplitl [H8]
    · iexists _; isplitr; · ipureintro; exact harg8.read_unread _
      iexact H8
    isplitl [H9]
    · iexists _; isplitr; · ipureintro; exact harg9.read_unread _
      iexact H9
    isplitl [H10]
    · iexists _; isplitr; · ipureintro; exact harg10.read_unread _
      iexact H10
    isplitl [H11]
    · iexists _; isplitr; · ipureintro; exact harg11.read_unread _
      iexact H11
    isplitl [H12]
    · iexists _; isplitr; · ipureintro; exact harg12.read_unread _
      iexact H12
    isplitl [H13]
    · iexists _; isplitr; · ipureintro; exact harg13.read_unread _
      iexact H13
    isplitl [H14]
    · iexists _, _; isplitr; swap; · iexact H14
      ipureintro; rfl
    isplitl [H15]
    · iexists _, _; isplitr; swap; · iexact H15
      ipureintro; rfl
    isplitl [H16]
    · iexists _, _; isplitr; swap; · iexact H16
      ipureintro; rfl
    isplitl [H17]
    · iexists _, _; isplitr; swap; · iexact H17
      ipureintro; rfl
    isplitl [H18]
    · iexists _, _; isplitr; swap; · iexact H18
      ipureintro; rfl
    isplitl [H19]
    · iexists _, _; isplitr; swap; · iexact H19
      ipureintro; rfl
    iexists _, _; isplitr; swap; · iexact H20
    ipureintro; rfl

end Cert.KernelIdeal.Body

end
-- ==== Proof.KernelIdealRunC.lean ====
/-
  The body at the last grid point, run symbolically on any whole staging buffers: the thirteen input buffers hold given
  contents and are handed back as they were; the output buffer and the six scratch buffers are taken at any contents
  and handed back at some contents, nothing of which is named. This is all a frame needs of the body.
-/
import proofs.«169155_g70909910057105_cont_sun_m_1383_19_alg».proof.Proof.KernelIdealCases
import proofs.«169155_g70909910057105_cont_sun_m_1383_19_alg».proof.Proof.Gen.KernelIdeal.Skeleton

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 8000000 in
/-- The body's triple at the last grid point. -/
theorem runC (c : Dev nD) (i : grid0.Coords) (arg1 : Memref sig .tc .vmem S64x512x128 .f32) (harg1 : arg1.IsWhole) (arg2 : Memref sig .tc .vmem S512x512 .i32) (harg2 : arg2.IsWhole) (arg3 : Memref sig .tc .vmem S512x2x128 .f32) (harg3 : arg3.IsWhole) (arg4 : Memref sig .tc .vmem S128x128 .f32) (harg4 : arg4.IsWhole) (arg5 : Memref sig .tc .vmem S128x128 .f32) (harg5 : arg5.IsWhole) (arg6 : Memref sig .tc .vmem S4x1 .f32) (harg6 : arg6.IsWhole) (arg7 : Memref sig .tc .vmem S4x1 .f32) (harg7 : arg7.IsWhole) (arg8 : Memref sig .tc .vmem S128x128 .f32) (harg8 : arg8.IsWhole) (arg9 : Memref sig .tc .vmem S4x32 .f32) (harg9 : arg9.IsWhole) (arg10 : Memref sig .tc .vmem S4x32 .f32) (harg10 : arg10.IsWhole) (arg11 : Memref sig .tc .vmem S128x128 .f32) (harg11 : arg11.IsWhole) (arg12 : Memref sig .tc .vmem S4x32 .f32) (harg12 : arg12.IsWhole) (arg13 : Memref sig .tc .vmem S4x32 .f32) (harg13 : arg13.IsWhole) (arg14 : Memref sig .tc .vmem S512x2x128 .f32) (harg14 : arg14.IsWhole) (arg15 : Memref sig .tc .vmem S4x512x512 .f32) (harg15 : arg15.IsWhole) (arg16 : Memref sig .tc .vmem S2x512x128 .f32) (harg16 : arg16.IsWhole) (arg17 : Memref sig .tc .vmem S512x8 .f32) (harg17 : arg17.IsWhole) (arg18 : Memref sig .tc .vmem S8x512 .f32) (harg18 : arg18.IsWhole) (arg19 : Memref sig .tc .vmem S2x512x128 .f32) (harg19 : arg19.IsWhole) (arg20 : Memref sig .tc .vmem S8x512 .f32) (harg20 : arg20.IsWhole) (hc0 : ¬isFirst i) (hc1 : isLast i)
    (x1 : Vec F S64x512x128 .f32) (x2 : Vec F S512x512 .i32) (x3 : Vec F S512x2x128 .f32) (x4 : Vec F S128x128 .f32) (x5 : Vec F S128x128 .f32) (x6 : Vec F S4x1 .f32) (x7 : Vec F S4x1 .f32) (x8 : Vec F S128x128 .f32) (x9 : Vec F S4x32 .f32) (x10 : Vec F S4x32 .f32) (x11 : Vec F S128x128 .f32) (x12 : Vec F S4x32 .f32) (x13 : Vec F S4x32 .f32) :
      ∀ (E : Set ℕ) (K : PUnit → sProp 𝕄),
        iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare x12 ∗ owns (c : Thread nD τ) arg13 fullShare x13 ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d) ∗ (∃ d, owns (c : Thread nD τ) arg20 fullShare d)
            ∗ (iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare x12 ∗ owns (c : Thread nD τ) arg13 fullShare x13 ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d) ∗ (∃ d, owns (c : Thread nD τ) arg20 fullShare d)) -∗ K ⟨⟩))
          ⊢ wp frame (wpE (defs₀ (F := F)) Variants.none c none) E (cc0__fused_body i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20) K := by
    intro E K
    simp only [cc0__fused_body_eq_skeleton]; unfold cc0__fused_body_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton]
    unfold owns
    iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%d14, %f14, -, H14⟩, ⟨%d15, %f15, -, H15⟩, ⟨%d16, %f16, -, H16⟩, ⟨%d17, %f17, -, H17⟩, ⟨%d18, %f18, -, H18⟩, ⟨%d19, %f19, -, H19⟩, ⟨%d20, %f20, -, H20⟩, Hk⟩
    obtain rfl := harg1.eq_unread hf1
    obtain rfl := harg2.eq_unread hf2
    obtain rfl := harg3.eq_unread hf3
    obtain rfl := harg4.eq_unread hf4
    obtain rfl := harg5.eq_unread hf5
    obtain rfl := harg6.eq_unread hf6
    obtain rfl := harg7.eq_unread hf7
    obtain rfl := harg8.eq_unread hf8
    obtain rfl := harg9.eq_unread hf9
    obtain rfl := harg10.eq_unread hf10
    obtain rfl := harg11.eq_unread hf11
    obtain rfl := harg12.eq_unread hf12
    obtain rfl := harg13.eq_unread hf13
    sl_exec (disch := first | exact hc0 | exact hc1)
    sl_step
    iapply Hk
    isplitl [H1]
    · iexists _; isplitr; · ipureintro; exact harg1.read_unread _
      iexact H1
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexists _; isplitr; · ipureintro; exact harg7.read_unread _
      iexact H7
    isplitl [H8]
    · iexists _; isplitr; · ipureintro; exact harg8.read_unread _
      iexact H8
    isplitl [H9]
    · iexists _; isplitr; · ipureintro; exact harg9.read_unread _
      iexact H9
    isplitl [H10]
    · iexists _; isplitr; · ipureintro; exact harg10.read_unread _
      iexact H10
    isplitl [H11]
    · iexists _; isplitr; · ipureintro; exact harg11.read_unread _
      iexact H11
    isplitl [H12]
    · iexists _; isplitr; · ipureintro; exact harg12.read_unread _
      iexact H12
    isplitl [H13]
    · iexists _; isplitr; · ipureintro; exact harg13.read_unread _
      iexact H13
    isplitl [H14]
    · iexists _, _; isplitr; swap; · iexact H14
      ipureintro; rfl
    isplitl [H15]
    · iexists _, _; isplitr; swap; · iexact H15
      ipureintro; rfl
    isplitl [H16]
    · iexists _, _; isplitr; swap; · iexact H16
      ipureintro; rfl
    isplitl [H17]
    · iexists _, _; isplitr; swap; · iexact H17
      ipureintro; rfl
    isplitl [H18]
    · iexists _, _; isplitr; swap; · iexact H18
      ipureintro; rfl
    isplitl [H19]
    · iexists _, _; isplitr; swap; · iexact H19
      ipureintro; rfl
    iexists _, _; isplitr; swap; · iexact H20
    ipureintro; rfl

end Cert.KernelIdeal.Body

end
-- ==== Proof.KernelIdealFrame.lean ====
/-
  The frame of the program: under any launch memory every weakly fair execution terminates without a fault and
  the thirteen argument arrays end as they began. The grid has eight points. At each the pipeline hands the body the
  thirteen input blocks (the edge-feature block of the point's 64 source rows, and the twelve whole arrays fetched
  once), the output's staging buffer, and the region's six scratch buffers. For a frame nothing the body computes
  matters: the inputs come back as they were, and the output buffer and the scratch come back at SOME contents.
  So the proof data names the inputs' buffers (each holds its block) and forgets the output's; the region invariant
  is the plain one (every scratch buffer whole at some contents) at every point; and the body obligation is the
  point's case (first / middle / last, decided from the point's number) of the symbolic run.
-/
import proofs.«169155_g70909910057105_cont_sun_m_1383_19_alg».proof.Proof.KernelIdealRunA
import proofs.«169155_g70909910057105_cont_sun_m_1383_19_alg».proof.Proof.KernelIdealRunB
import proofs.«169155_g70909910057105_cont_sun_m_1383_19_alg».proof.Proof.KernelIdealRunC

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The one window whose contents after the body are not named: the output (window 13). -/
def forgets : Fin 14 → Bool := fun w => w.val == 13

/-- The proof data on core `c`: the arrays as the region finds them; after the body each input's buffer still at its
    block, the output's at contents not named; the region's plain invariant; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, h⟩ => Pipeline.Dat.unnamed (cfg := cfg0) ⟨13, h⟩ t
  Φ _ := Pipeline.ΦA spec0 c
  q _ := fullShare
  owed _ := 0

theorem A_eq (c : Dev nD) (w : Fin cfg0.W) : (dats m 0 c).A w = V m c (Pipeline.arrRef spec0 w) := by
  dsimp only [dats]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = iblk m c 5 t := by dsimp only [dats]
theorem after_6 (c : Dev nD) (t : Fin cfg0.N) : (dats m 0 c).after 6 t = iblk m c 6 t := by dsimp only [dats]
theorem after_7 (c : Dev nD) (t : Fin cfg0.N) : (dats m 0 c).after 7 t = iblk m c 7 t := by dsimp only [dats]
theorem after_8 (c : Dev nD) (t : Fin cfg0.N) : (dats m 0 c).after 8 t = iblk m c 8 t := by dsimp only [dats]
theorem after_9 (c : Dev nD) (t : Fin cfg0.N) : (dats m 0 c).after 9 t = iblk m c 9 t := by dsimp only [dats]
theorem after_10 (c : Dev nD) (t : Fin cfg0.N) : (dats m 0 c).after 10 t = iblk m c 10 t := by dsimp only [dats]
theorem after_11 (c : Dev nD) (t : Fin cfg0.N) : (dats m 0 c).after 11 t = iblk m c 11 t := by dsimp only [dats]
theorem after_12 (c : Dev nD) (t : Fin cfg0.N) : (dats m 0 c).after 12 t = iblk m c 12 t := by dsimp only [dats]

/-- Each input's current staging buffer holds its block at every point, whether the point fetches it or not. -/
theorem before_0 (c : Dev nD) (t : Fin cfg0.N) (d) : (dats m 0 c).before 0 t d = iblk m c 0 t :=
  before0_0_of m (dats m 0 c) (A_eq m c 0) (after_0 m c) t d
theorem before_1 (c : Dev nD) (t : Fin cfg0.N) (d) : (dats m 0 c).before 1 t d = iblk m c 1 t :=
  before0_1_of m (dats m 0 c) (A_eq m c 1) (after_1 m c) t d
theorem before_2 (c : Dev nD) (t : Fin cfg0.N) (d) : (dats m 0 c).before 2 t d = iblk m c 2 t :=
  before0_2_of m (dats m 0 c) (A_eq m c 2) (after_2 m c) t d
theorem before_3 (c : Dev nD) (t : Fin cfg0.N) (d) : (dats m 0 c).before 3 t d = iblk m c 3 t :=
  before0_3_of m (dats m 0 c) (A_eq m c 3) (after_3 m c) t d
theorem before_4 (c : Dev nD) (t : Fin cfg0.N) (d) : (dats m 0 c).before 4 t d = iblk m c 4 t :=
  before0_4_of m (dats m 0 c) (A_eq m c 4) (after_4 m c) t d
theorem before_5 (c : Dev nD) (t : Fin cfg0.N) (d) : (dats m 0 c).before 5 t d = iblk m c 5 t :=
  before0_5_of m (dats m 0 c) (A_eq m c 5) (after_5 m c) t d
theorem before_6 (c : Dev nD) (t : Fin cfg0.N) (d) : (dats m 0 c).before 6 t d = iblk m c 6 t :=
  before0_6_of m (dats m 0 c) (A_eq m c 6) (after_6 m c) t d
theorem before_7 (c : Dev nD) (t : Fin cfg0.N) (d) : (dats m 0 c).before 7 t d = iblk m c 7 t :=
  before0_7_of m (dats m 0 c) (A_eq m c 7) (after_7 m c) t d
theorem before_8 (c : Dev nD) (t : Fin cfg0.N) (d) : (dats m 0 c).before 8 t d = iblk m c 8 t :=
  before0_8_of m (dats m 0 c) (A_eq m c 8) (after_8 m c) t d
theorem before_9 (c : Dev nD) (t : Fin cfg0.N) (d) : (dats m 0 c).before 9 t d = iblk m c 9 t :=
  before0_9_of m (dats m 0 c) (A_eq m c 9) (after_9 m c) t d
theorem before_10 (c : Dev nD) (t : Fin cfg0.N) (d) : (dats m 0 c).before 10 t d = iblk m c 10 t :=
  before0_10_of m (dats m 0 c) (A_eq m c 10) (after_10 m c) t d
theorem before_11 (c : Dev nD) (t : Fin cfg0.N) (d) : (dats m 0 c).before 11 t d = iblk m c 11 t :=
  before0_11_of m (dats m 0 c) (A_eq m c 11) (after_11 m c) t d
theorem before_12 (c : Dev nD) (t : Fin cfg0.N) (d) : (dats m 0 c).before 12 t d = iblk m c 12 t :=
  before0_12_of m (dats m 0 c) (A_eq m c 12) (after_12 m c) t d

/-- Each window's current staging buffer at point `t`, spelled as the pipeline passes it to the body. -/
abbrev stg0 (t : Fin cfg0.N) : Memref sig .tc .vmem S64x512x128 .f32 := win0_0.stage (cfg0.slots t 0)
abbrev stg1 (t : Fin cfg0.N) : Memref sig .tc .vmem S512x512 .i32 := win0_1.stage (cfg0.slots t 1)
abbrev stg2 (t : Fin cfg0.N) : Memref sig .tc .vmem S512x2x128 .f32 := win0_2.stage (cfg0.slots t 2)
abbrev stg3 (t : Fin cfg0.N) : Memref sig .tc .vmem S128x128 .f32 := win0_3.stage (cfg0.slots t 3)
abbrev stg4 (t : Fin cfg0.N) : Memref sig .tc .vmem S128x128 .f32 := win0_4.stage (cfg0.slots t 4)
abbrev stg5 (t : Fin cfg0.N) : Memref sig .tc .vmem S4x1 .f32 := win0_5.stage (cfg0.slots t 5)
abbrev stg6 (t : Fin cfg0.N) : Memref sig .tc .vmem S4x1 .f32 := win0_6.stage (cfg0.slots t 6)
abbrev stg7 (t : Fin cfg0.N) : Memref sig .tc .vmem S128x128 .f32 := win0_7.stage (cfg0.slots t 7)
abbrev stg8 (t : Fin cfg0.N) : Memref sig .tc .vmem S4x32 .f32 := win0_8.stage (cfg0.slots t 8)
abbrev stg9 (t : Fin cfg0.N) : Memref sig .tc .vmem S4x32 .f32 := win0_9.stage (cfg0.slots t 9)
abbrev stg10 (t : Fin cfg0.N) : Memref sig .tc .vmem S128x128 .f32 := win0_10.stage (cfg0.slots t 10)
abbrev stg11 (t : Fin cfg0.N) : Memref sig .tc .vmem S4x32 .f32 := win0_11.stage (cfg0.slots t 11)
abbrev stg12 (t : Fin cfg0.N) : Memref sig .tc .vmem S4x32 .f32 := win0_12.stage (cfg0.slots t 12)
abbrev stg13 (t : Fin cfg0.N) : Memref sig .tc .vmem S512x2x128 .f32 := win0_13.stage (cfg0.slots t 13)

/-- What the body is called with at point `t`, window by window, -/
def bodyPre (c : Dev nD) (t : Fin cfg0.N) : sProp 𝕄 :=
  iprop((dats m 0 c).Φ t.castSucc ∗ (dats m 0 c).owesAt () t.castSucc
    ∗ (∃ d, owns (c : Thread nD τ) (stg0 t) fullShare ((dats m 0 c).before 0 t d))
    ∗ (∃ d, owns (c : Thread nD τ) (stg1 t) fullShare ((dats m 0 c).before 1 t d))
    ∗ (∃ d, owns (c : Thread nD τ) (stg2 t) fullShare ((dats m 0 c).before 2 t d))
    ∗ (∃ d, owns (c : Thread nD τ) (stg3 t) fullShare ((dats m 0 c).before 3 t d))
    ∗ (∃ d, owns (c : Thread nD τ) (stg4 t) fullShare ((dats m 0 c).before 4 t d))
    ∗ (∃ d, owns (c : Thread nD τ) (stg5 t) fullShare ((dats m 0 c).before 5 t d))
    ∗ (∃ d, owns (c : Thread nD τ) (stg6 t) fullShare ((dats m 0 c).before 6 t d))
    ∗ (∃ d, owns (c : Thread nD τ) (stg7 t) fullShare ((dats m 0 c).before 7 t d))
    ∗ (∃ d, owns (c : Thread nD τ) (stg8 t) fullShare ((dats m 0 c).before 8 t d))
    ∗ (∃ d, owns (c : Thread nD τ) (stg9 t) fullShare ((dats m 0 c).before 9 t d))
    ∗ (∃ d, owns (c : Thread nD τ) (stg10 t) fullShare ((dats m 0 c).before 10 t d))
    ∗ (∃ d, owns (c : Thread nD τ) (stg11 t) fullShare ((dats m 0 c).before 11 t d))
    ∗ (∃ d, owns (c : Thread nD τ) (stg12 t) fullShare ((dats m 0 c).before 12 t d))
    ∗ (∃ d, owns (c : Thread nD τ) (stg13 t) fullShare d))

/-- and what it returns. -/
def bodyPost (c : Dev nD) (t : Fin cfg0.N) : sProp 𝕄 :=
  iprop((dats m 0 c).Φ t.succ ∗ (dats m 0 c).owesAt () t.succ
    ∗ owns (c : Thread nD τ) (stg0 t) fullShare ((dats m 0 c).after 0 t)
    ∗ owns (c : Thread nD τ) (stg1 t) fullShare ((dats m 0 c).after 1 t)
    ∗ owns (c : Thread nD τ) (stg2 t) fullShare ((dats m 0 c).after 2 t)
    ∗ owns (c : Thread nD τ) (stg3 t) fullShare ((dats m 0 c).after 3 t)
    ∗ owns (c : Thread nD τ) (stg4 t) fullShare ((dats m 0 c).after 4 t)
    ∗ owns (c : Thread nD τ) (stg5 t) fullShare ((dats m 0 c).after 5 t)
    ∗ owns (c : Thread nD τ) (stg6 t) fullShare ((dats m 0 c).after 6 t)
    ∗ owns (c : Thread nD τ) (stg7 t) fullShare ((dats m 0 c).after 7 t)
    ∗ owns (c : Thread nD τ) (stg8 t) fullShare ((dats m 0 c).after 8 t)
    ∗ owns (c : Thread nD τ) (stg9 t) fullShare ((dats m 0 c).after 9 t)
    ∗ owns (c : Thread nD τ) (stg10 t) fullShare ((dats m 0 c).after 10 t)
    ∗ owns (c : Thread nD τ) (stg11 t) fullShare ((dats m 0 c).after 11 t)
    ∗ owns (c : Thread nD τ) (stg12 t) fullShare ((dats m 0 c).after 12 t)
    ∗ (∃ d, owns (c : Thread nD τ) (stg13 t) fullShare d))

set_option maxHeartbeats 4000000 in
/-- The body at any point: the point's number decides which of the three cases it is in, and that case's run applies;
    the scratch buffers pass from the invariant to the body and back at some contents. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, before_3, before_4, before_5, before_6, before_7, before_8, before_9, before_10, before_11, before_12]
  rw [show (dats m 0 c).Φ t.succ = (dats m 0 c).Φ t.castSucc from rfl,
    show (dats m 0 c).owesAt () t.succ = (dats m 0 c).owesAt () t.castSucc from rfl,
    after_0, after_1, after_2, after_3, after_4, after_5, after_6, after_7, after_8, after_9, after_10, after_11, after_12]
  rw [show (dats m 0 c).Φ t.castSucc = Pipeline.ΦA spec0 c from rfl, inv_eq]
  by_cases h0 : isFirst (grid0.coords t)
  · by_cases h1 : isLast (grid0.coords t)
    · exfalso
      have e0 := (isFirst_iff t).mp h0
      have e1 := (isLast_iff t).mp h1
      omega
    ·
      iintro ⟨⟨⟨S0, S1, S2, S3, S4, S5⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩⟩
      iapply (runA c (grid0.coords t) _ _ _ _ _ _ _ _ _ _ _ _ _ _ _ _ _ _ _ _ _ _ _ _ _ _ _ _ _ _ _ _ _ _ _ _ _ _ _ _ h0 h1 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [H13]; · iexists _; iexact H13
      isplitl [S0]; · iexact S0
      isplitl [S1]; · iexact S1
      isplitl [S2]; · iexact S2
      isplitl [S3]; · iexact S3
      isplitl [S4]; · iexact S4
      isplitl [S5]; · iexact S5
      iintro ⟨H0, H1, H2, H3, H4, H5, H6, H7, H8, H9, H10, H11, H12, H13, S0, S1, S2, S3, S4, S5⟩
      isplitl [S0 S1 S2 S3 S4 S5 Hg]
      · isplitl [S0 S1 S2 S3 S4 S5]
        · isplitl [S0]; · iexact S0
          isplitl [S1]; · iexact S1
          isplitl [S2]; · iexact S2
          isplitl [S3]; · iexact S3
          isplitl [S4]; · iexact S4
          iexact S5
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      iexact H13
  · by_cases h1 : isLast (grid0.coords t)
    ·
      iintro ⟨⟨⟨S0, S1, S2, S3, S4, S5⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩⟩
      iapply (runC c (grid0.coords t) _ _ _ _ _ _ _ _ _ _ _ _ _ _ _ _ _ _ _ _ _ _ _ _ _ _ _ _ _ _ _ _ _ _ _ _ _ _ _ _ h0 h1 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [H13]; · iexists _; iexact H13
      isplitl [S0]; · iexact S0
      isplitl [S1]; · iexact S1
      isplitl [S2]; · iexact S2
      isplitl [S3]; · iexact S3
      isplitl [S4]; · iexact S4
      isplitl [S5]; · iexact S5
      iintro ⟨H0, H1, H2, H3, H4, H5, H6, H7, H8, H9, H10, H11, H12, H13, S0, S1, S2, S3, S4, S5⟩
      isplitl [S0 S1 S2 S3 S4 S5 Hg]
      · isplitl [S0 S1 S2 S3 S4 S5]
        · isplitl [S0]; · iexact S0
          isplitl [S1]; · iexact S1
          isplitl [S2]; · iexact S2
          isplitl [S3]; · iexact S3
          isplitl [S4]; · iexact S4
          iexact S5
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      iexact H13
    ·
      iintro ⟨⟨⟨S0, S1, S2, S3, S4, S5⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩⟩
      iapply (runB c (grid0.coords t) _ _ _ _ _ _ _ _ _ _ _ _ _ _ _ _ _ _ _ _ _ _ _ _ _ _ _ _ _ _ _ _ _ _ _ _ _ _ _ _ h0 h1 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [H13]; · iexists _; iexact H13
      isplitl [S0]; · iexact S0
      isplitl [S1]; · iexact S1
      isplitl [S2]; · iexact S2
      isplitl [S3]; · iexact S3
      isplitl [S4]; · iexact S4
      isplitl [S5]; · iexact S5
      iintro ⟨H0, H1, H2, H3, H4, H5, H6, H7, H8, H9, H10, H11, H12, H13, S0, S1, S2, S3, S4, S5⟩
      isplitl [S0 S1 S2 S3 S4 S5 Hg]
      · isplitl [S0 S1 S2 S3 S4 S5]
        · isplitl [S0]; · iexact S0
          isplitl [S1]; · iexact S1
          isplitl [S2]; · iexact S2
          isplitl [S3]; · iexact S3
          isplitl [S4]; · iexact S4
          iexact S5
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      iexact H13

/-- The library's body obligation, at every point, the output forgotten. -/
theorem body_obligation (c : Dev nD) : BodyObligation (dats (F := F) m 0 c) (defs₀ (F := F)) Variants.none () Set.univ forgets := fun t => by
  rw [bigSep_W0, bigSep_W0]
  exact sound_body m c t

set_option backward.isDefEq.respectTransparency.types false in
/-- Every weakly fair execution of the program terminates without a fault, every input array of the pipeline
    unchanged and every unscoped buffer no window stages at its contents at the region's entry. -/
theorem run_main : θ_run defs (onTc (τ := τ) (main (F := F))) (s₀ m ρ) (Pipeline.RDat.FramePost (cfgs 0) (fun c => (dats m 0 c).toRForget forgets) (V m)) :=
  Pipeline.RDat.θ_run_frame cfgs (0 : Fin 1) launch0 defs₀ Variants.none (fun c => (dats m 0 c).toRForget forgets) m ρ main
    (hbody := fun c => (body_obligation m c).toRForget) (hshare := fun c => ((dats m 0 c).toRForget forgets).share_full fun _ => rfl)
    (howed := fun _ _ => rfl) (V := V m) (hmain := hmain m Variants.none) (hA := A_eq m) (hΦ := fun _ _ => rfl)

/-- The frame read off such a run: an argument a window stages is that input window's array, unchanged by the
    pipeline; the two arguments no window stages are among the other unscoped buffers; and no host operation before
    the region writes an argument. -/
theorem frame_of_run (rdat : (c : Dev nD) → Pipeline.RDat τ (Elt F) Unit ℕ (UR sig nD τ) ℕ (cfgs 0) c)
    (hA : ∀ c w, (rdat c).A w = V m c (Pipeline.arrRef spec0 w))
    (h : θ_run defs (onTc (τ := τ) (main (F := F))) (s₀ m ρ) (Pipeline.RDat.FramePost (cfgs 0) rdat (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) :=
  (θ_run defs _ _).mono (fun _ h c => ⟨(Eq.mp (congrFun ((rdat c).ArrAt_in 2 rfl _) _) ((h c).1 2)).trans ((hA c 2).trans (V_main_arg0 m c)),
      (Eq.mp (congrFun ((rdat c).ArrAt_in 1 rfl _) _) ((h c).1 1)).trans ((hA c 1).trans (V_main_arg1 m c)),
      (Eq.mp (congrFun ((rdat c).ArrAt_in 0 rfl _) _) ((h c).1 0)).trans ((hA c 0).trans (V_main_arg2 m c)),
      (Eq.mp (congrFun ((rdat c).ArrAt_in 7 rfl _) _) ((h c).1 7)).trans ((hA c 7).trans (V_main_arg3 m c)),
      (Eq.mp (congrFun ((rdat c).ArrAt_in 3 rfl _) _) ((h c).1 3)).trans ((hA c 3).trans (V_main_arg4 m c)),
      (Eq.mp (congrFun ((rdat c).ArrAt_in 8 rfl _) _) ((h c).1 8)).trans ((hA c 8).trans (V_main_arg5 m c)),
      (Eq.mp (congrFun ((rdat c).ArrAt_in 9 rfl _) _) ((h c).1 9)).trans ((hA c 9).trans (V_main_arg6 m c)),
      ((h c).2 main_arg7 (Pipeline.mem_restRefs_of main_arg7 (by decide) (by decide))).trans (V_main_arg7 m c),
      (Eq.mp (congrFun ((rdat c).ArrAt_in 10 rfl _) _) ((h c).1 10)).trans ((hA c 10).trans (V_main_arg8 m c)),
      (Eq.mp (congrFun ((rdat c).ArrAt_in 4 rfl _) _) ((h c).1 4)).trans ((hA c 4).trans (V_main_arg9 m c)),
      (Eq.mp (congrFun ((rdat c).ArrAt_in 11 rfl _) _) ((h c).1 11)).trans ((hA c 11).trans (V_main_arg10 m c)),
      (Eq.mp (congrFun ((rdat c).ArrAt_in 12 rfl _) _) ((h c).1 12)).trans ((hA c 12).trans (V_main_arg11 m c)),
      ((h c).2 main_arg12 (Pipeline.mem_restRefs_of main_arg12 (by decide) (by decide))).trans (V_main_arg12 m c)⟩) h

/-- The frame claim's statement, at any instance of the float operations. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) :=
  frame_of_run m ρ (fun c => (dats m 0 c).toRForget forgets) (A_eq m) (run_main m ρ)

end Cert.KernelIdeal.Body

end
-- ==== Proof.RefPart0.lean ====
/-
  Statements 1 … 60 of the reference's host program, as the list of their operations in order:
  the window's program is the run of that list; every operation names only TensorCore buffers; and each operation writes
  exactly one buffer, all of them intermediate values, so a buffer outside the list of written ones — every argument
  array — keeps its contents.
-/
import proofs.«169155_g70909910057105_cont_sun_m_1383_19_alg».proof.Proof.Gen.ReferenceIdeal
import Idealize.ShloMosaic.Lib.StableHlo.Run

noncomputable section

namespace Cert.ReferenceIdeal.HostRun

open Cert.ReferenceIdeal Cert.ReferenceIdeal.Gen Idealize.ShloMosaic Idealize.ShloMosaic.TcCoe Idealize.SL.Sem Idealize.ShloMosaic.StableHlo

variable {F : FTy → Type} [FloatOps F]

/-- The operations of statements 1 … 60. -/
abbrev ops0 : List (HloOp τ sig (Elt F)) :=
  [ StableHlo.nullary main_v0 (iotaInDim S512 32 0),
    StableHlo.unary main_v0 main_v1 (broadcastInDim S512x512 ![0] bcast_S512_S512x512_0 : (⟨S512, .i32⟩ : BufTy).Contents (Elt F) → (⟨S512x512, .i32⟩ : BufTy).Contents (Elt F)),
    StableHlo.reshape main_v1 main_v2 rfl shapeCasts_S512x512_S262144,
    StableHlo.nullary main_v3 (iotaInDim S512 32 0),
    StableHlo.reshape main_v3 main_v4 rfl shapeCasts_S512_S1x512,
    StableHlo.unary main_v4 main_v5 (broadcastInDim S512x512 ![0, 1] bcast_S1x512_S512x512_0_1 : (⟨S1x512, .i32⟩ : BufTy).Contents (Elt F) → (⟨S512x512, .i32⟩ : BufTy).Contents (Elt F)),
    StableHlo.reshape main_v5 main_v6 rfl shapeCasts_S512x512_S262144,
    StableHlo.reshape main_arg1 main_v7 rfl shapeCasts_S512x512_S262144,
    StableHlo.nullary main_c (constantI S_ 32 0#32),
    StableHlo.unary main_c main_v8 (broadcastInDim S262144 ![] bcast_S_S262144 : (⟨S_, .i32⟩ : BufTy).Contents (Elt F) → (⟨S262144, .i32⟩ : BufTy).Contents (Elt F)),
    StableHlo.binary main_v7 main_v8 main_v9 (cmpi .ne : (⟨S262144, .i32⟩ : BufTy).Contents (Elt F) → (⟨S262144, .i32⟩ : BufTy).Contents (Elt F) → (⟨S262144, .i1⟩ : BufTy).Contents (Elt F)),
    StableHlo.nullary main_c_0 (constantI S_ 32 0#32),
    StableHlo.unary main_c_0 main_v10 (broadcastInDim S262144 ![] bcast_S_S262144 : (⟨S_, .i32⟩ : BufTy).Contents (Elt F) → (⟨S262144, .i32⟩ : BufTy).Contents (Elt F)),
    StableHlo.binary main_v2 main_v10 main_v11 (cmpi .slt : (⟨S262144, .i32⟩ : BufTy).Contents (Elt F) → (⟨S262144, .i32⟩ : BufTy).Contents (Elt F) → (⟨S262144, .i1⟩ : BufTy).Contents (Elt F)),
    StableHlo.nullary main_c_1 (constantI S_ 32 512#32),
    StableHlo.unary main_c_1 main_v12 (broadcastInDim S262144 ![] bcast_S_S262144 : (⟨S_, .i32⟩ : BufTy).Contents (Elt F) → (⟨S262144, .i32⟩ : BufTy).Contents (Elt F)),
    StableHlo.binary main_v2 main_v12 main_v13 (addi : (⟨S262144, .i32⟩ : BufTy).Contents (Elt F) → (⟨S262144, .i32⟩ : BufTy).Contents (Elt F) → (⟨S262144, .i32⟩ : BufTy).Contents (Elt F)),
    StableHlo.ternary main_v11 main_v13 main_v2 main_v14 (select : (⟨S262144, .i1⟩ : BufTy).Contents (Elt F) → (⟨S262144, .i32⟩ : BufTy).Contents (Elt F) → (⟨S262144, .i32⟩ : BufTy).Contents (Elt F) → (⟨S262144, .i32⟩ : BufTy).Contents (Elt F)),
    StableHlo.nullary main_c_2 (constantI S_ 32 0#32),
    StableHlo.unary main_c_2 main_v15 (broadcastInDim S262144 ![] bcast_S_S262144 : (⟨S_, .i32⟩ : BufTy).Contents (Elt F) → (⟨S262144, .i32⟩ : BufTy).Contents (Elt F)),
    StableHlo.binary main_v6 main_v15 main_v16 (cmpi .slt : (⟨S262144, .i32⟩ : BufTy).Contents (Elt F) → (⟨S262144, .i32⟩ : BufTy).Contents (Elt F) → (⟨S262144, .i1⟩ : BufTy).Contents (Elt F)),
    StableHlo.nullary main_c_3 (constantI S_ 32 512#32),
    StableHlo.unary main_c_3 main_v17 (broadcastInDim S262144 ![] bcast_S_S262144 : (⟨S_, .i32⟩ : BufTy).Contents (Elt F) → (⟨S262144, .i32⟩ : BufTy).Contents (Elt F)),
    StableHlo.binary main_v6 main_v17 main_v18 (addi : (⟨S262144, .i32⟩ : BufTy).Contents (Elt F) → (⟨S262144, .i32⟩ : BufTy).Contents (Elt F) → (⟨S262144, .i32⟩ : BufTy).Contents (Elt F)),
    StableHlo.ternary main_v16 main_v18 main_v6 main_v19 (select : (⟨S262144, .i1⟩ : BufTy).Contents (Elt F) → (⟨S262144, .i32⟩ : BufTy).Contents (Elt F) → (⟨S262144, .i32⟩ : BufTy).Contents (Elt F) → (⟨S262144, .i32⟩ : BufTy).Contents (Elt F)),
    StableHlo.unary main_v14 main_v20 (broadcastInDim S262144x1 ![0] bcast_S262144_S262144x1_0 : (⟨S262144, .i32⟩ : BufTy).Contents (Elt F) → (⟨S262144x1, .i32⟩ : BufTy).Contents (Elt F)),
    StableHlo.unary main_v19 main_v21 (broadcastInDim S262144x1 ![0] bcast_S262144_S262144x1_0 : (⟨S262144, .i32⟩ : BufTy).Contents (Elt F) → (⟨S262144x1, .i32⟩ : BufTy).Contents (Elt F)),
    StableHlo.binary main_v20 main_v21 main_v22 ((fun a b => concatenate S262144x2 1 [⟨S262144x1, a⟩, ⟨S262144x1, b⟩] concatenates_S262144x1_S262144x1_S262144x2_d1) : (⟨S262144x1, .i32⟩ : BufTy).Contents (Elt F) → (⟨S262144x1, .i32⟩ : BufTy).Contents (Elt F) → (⟨S262144x2, .i32⟩ : BufTy).Contents (Elt F)),
    StableHlo.binary main_arg2 main_v22 main_v23 ((fun x i => Host.gather gather_S512x512x128_S262144x2_S262144x128_1_01_n_n_01_1_11128 x i) : (⟨S512x512x128, .f32⟩ : BufTy).Contents (Elt F) → (⟨S262144x2, .i32⟩ : BufTy).Contents (Elt F) → (⟨S262144x128, .f32⟩ : BufTy).Contents (Elt F)),
    StableHlo.unary main_arg4 main_v24 ((transpose S128x128 [1, 0] · transposes_S128x128_S128x128_1_0) : (⟨S128x128, .f32⟩ : BufTy).Contents (Elt F) → (⟨S128x128, .f32⟩ : BufTy).Contents (Elt F)),
    StableHlo.binary main_v23 main_v24 main_v25 ((fun l r => Host.dotGeneral dot_S262144x128_S128x128_S262144x128_1_0_0_1_n_n none l r) : (⟨S262144x128, .f32⟩ : BufTy).Contents (Elt F) → (⟨S128x128, .f32⟩ : BufTy).Contents (Elt F) → (⟨S262144x128, .f32⟩ : BufTy).Contents (Elt F)),
    StableHlo.reshape main_v25 main_v26 rfl shapeCasts_S262144x128_S262144x4x32,
    StableHlo.nullary main_cst (constant S_ .f32 0x00000000#32),
    StableHlo.binary main_v26 main_cst main_v27 ((fun x v => Host.reduceAdd x v reducesTo_S262144x4x32_S262144x4_d2 h_S_) : (⟨S262144x4x32, .f32⟩ : BufTy).Contents (Elt F) → (⟨S_, .f32⟩ : BufTy).Contents (Elt F) → (⟨S262144x4, .f32⟩ : BufTy).Contents (Elt F)),
    StableHlo.unary main_arg7 main_v28 (broadcastInDim S1x4 ![1] bcast_S4_S1x4_1 : (⟨S4, .f32⟩ : BufTy).Contents (Elt F) → (⟨S1x4, .f32⟩ : BufTy).Contents (Elt F)),
    StableHlo.unary main_v28 main_v29 (broadcastInDim S262144x4 ![0, 1] bcast_S1x4_S262144x4_0_1 : (⟨S1x4, .f32⟩ : BufTy).Contents (Elt F) → (⟨S262144x4, .f32⟩ : BufTy).Contents (Elt F)),
    StableHlo.binary main_v27 main_v29 main_v30 (mulf : (⟨S262144x4, .f32⟩ : BufTy).Contents (Elt F) → (⟨S262144x4, .f32⟩ : BufTy).Contents (Elt F) → (⟨S262144x4, .f32⟩ : BufTy).Contents (Elt F)),
    StableHlo.unary main_arg0 main_v31 ((extractStridedSlice S512x1x128 ![0, 0, 0] · slices_S512x2x128_S512x1x128_0_0_0) : (⟨S512x2x128, .f32⟩ : BufTy).Contents (Elt F) → (⟨S512x1x128, .f32⟩ : BufTy).Contents (Elt F)),
    StableHlo.reshape main_v31 main_v32 rfl shapeCasts_S512x1x128_S512x128,
    StableHlo.unary main_arg3 main_v33 ((transpose S128x128 [1, 0] · transposes_S128x128_S128x128_1_0) : (⟨S128x128, .f32⟩ : BufTy).Contents (Elt F) → (⟨S128x128, .f32⟩ : BufTy).Contents (Elt F)),
    StableHlo.binary main_v32 main_v33 main_v34 ((fun l r => Host.dotGeneral dot_S512x128_S128x128_S512x128_1_0_0_1_n_n none l r) : (⟨S512x128, .f32⟩ : BufTy).Contents (Elt F) → (⟨S128x128, .f32⟩ : BufTy).Contents (Elt F) → (⟨S512x128, .f32⟩ : BufTy).Contents (Elt F)),
    StableHlo.reshape main_v34 main_v35 rfl shapeCasts_S512x128_S512x4x32,
    StableHlo.nullary main_c_4 (constantI S_ 32 0#32),
    StableHlo.unary main_c_4 main_v36 (broadcastInDim S262144 ![] bcast_S_S262144 : (⟨S_, .i32⟩ : BufTy).Contents (Elt F) → (⟨S262144, .i32⟩ : BufTy).Contents (Elt F)),
    StableHlo.binary main_v2 main_v36 main_v37 (cmpi .slt : (⟨S262144, .i32⟩ : BufTy).Contents (Elt F) → (⟨S262144, .i32⟩ : BufTy).Contents (Elt F) → (⟨S262144, .i1⟩ : BufTy).Contents (Elt F)),
    StableHlo.nullary main_c_5 (constantI S_ 32 512#32),
    StableHlo.unary main_c_5 main_v38 (broadcastInDim S262144 ![] bcast_S_S262144 : (⟨S_, .i32⟩ : BufTy).Contents (Elt F) → (⟨S262144, .i32⟩ : BufTy).Contents (Elt F)),
    StableHlo.binary main_v2 main_v38 main_v39 (addi : (⟨S262144, .i32⟩ : BufTy).Contents (Elt F) → (⟨S262144, .i32⟩ : BufTy).Contents (Elt F) → (⟨S262144, .i32⟩ : BufTy).Contents (Elt F)),
    StableHlo.ternary main_v37 main_v39 main_v2 main_v40 (select : (⟨S262144, .i1⟩ : BufTy).Contents (Elt F) → (⟨S262144, .i32⟩ : BufTy).Contents (Elt F) → (⟨S262144, .i32⟩ : BufTy).Contents (Elt F) → (⟨S262144, .i32⟩ : BufTy).Contents (Elt F)),
    StableHlo.unary main_v40 main_v41 (broadcastInDim S262144x1 ![0] bcast_S262144_S262144x1_0 : (⟨S262144, .i32⟩ : BufTy).Contents (Elt F) → (⟨S262144x1, .i32⟩ : BufTy).Contents (Elt F)),
    StableHlo.binary main_v35 main_v41 main_v42 ((fun x i => Host.gather gather_S512x4x32_S262144x1_S262144x4x32_12_0_n_n_0_1_1432 x i) : (⟨S512x4x32, .f32⟩ : BufTy).Contents (Elt F) → (⟨S262144x1, .i32⟩ : BufTy).Contents (Elt F) → (⟨S262144x4x32, .f32⟩ : BufTy).Contents (Elt F)),
    StableHlo.nullary main_c_6 (constantI S_ 32 0#32),
    StableHlo.unary main_c_6 main_v43 (broadcastInDim S262144 ![] bcast_S_S262144 : (⟨S_, .i32⟩ : BufTy).Contents (Elt F) → (⟨S262144, .i32⟩ : BufTy).Contents (Elt F)),
    StableHlo.binary main_v6 main_v43 main_v44 (cmpi .slt : (⟨S262144, .i32⟩ : BufTy).Contents (Elt F) → (⟨S262144, .i32⟩ : BufTy).Contents (Elt F) → (⟨S262144, .i1⟩ : BufTy).Contents (Elt F)),
    StableHlo.nullary main_c_7 (constantI S_ 32 512#32),
    StableHlo.unary main_c_7 main_v45 (broadcastInDim S262144 ![] bcast_S_S262144 : (⟨S_, .i32⟩ : BufTy).Contents (Elt F) → (⟨S262144, .i32⟩ : BufTy).Contents (Elt F)),
    StableHlo.binary main_v6 main_v45 main_v46 (addi : (⟨S262144, .i32⟩ : BufTy).Contents (Elt F) → (⟨S262144, .i32⟩ : BufTy).Contents (Elt F) → (⟨S262144, .i32⟩ : BufTy).Contents (Elt F)),
    StableHlo.ternary main_v44 main_v46 main_v6 main_v47 (select : (⟨S262144, .i1⟩ : BufTy).Contents (Elt F) → (⟨S262144, .i32⟩ : BufTy).Contents (Elt F) → (⟨S262144, .i32⟩ : BufTy).Contents (Elt F) → (⟨S262144, .i32⟩ : BufTy).Contents (Elt F)),
    StableHlo.unary main_v47 main_v48 (broadcastInDim S262144x1 ![0] bcast_S262144_S262144x1_0 : (⟨S262144, .i32⟩ : BufTy).Contents (Elt F) → (⟨S262144x1, .i32⟩ : BufTy).Contents (Elt F)),
    StableHlo.binary main_v35 main_v48 main_v49 ((fun x i => Host.gather gather_S512x4x32_S262144x1_S262144x4x32_12_0_n_n_0_1_1432 x i) : (⟨S512x4x32, .f32⟩ : BufTy).Contents (Elt F) → (⟨S262144x1, .i32⟩ : BufTy).Contents (Elt F) → (⟨S262144x4x32, .f32⟩ : BufTy).Contents (Elt F)) ]

set_option maxRecDepth 16384 in
set_option maxHeartbeats 40000000 in
/-- The window's program is that line of operations. -/
theorem part0_eq (c : Dev nD) : main_part0 (F := F) c = seq ops0 := by
  rfl

/-- Every operation reads and writes TensorCore buffers only. -/
theorem ops0_sub : (ops0 : List (HloOp τ sig (Elt F))).Forall fun op => op.bufs ⊆ tcRefs τ sig :=
  ⟨nullary_bufs_sub .., unary_bufs_sub .., reshape_bufs_sub .., nullary_bufs_sub .., reshape_bufs_sub .., unary_bufs_sub ..,
    reshape_bufs_sub .., reshape_bufs_sub .., nullary_bufs_sub .., unary_bufs_sub .., binary_bufs_sub .., nullary_bufs_sub ..,
    unary_bufs_sub .., binary_bufs_sub .., nullary_bufs_sub .., unary_bufs_sub .., binary_bufs_sub .., ternary_bufs_sub ..,
    nullary_bufs_sub .., unary_bufs_sub .., binary_bufs_sub .., nullary_bufs_sub .., unary_bufs_sub .., binary_bufs_sub ..,
    ternary_bufs_sub .., unary_bufs_sub .., unary_bufs_sub .., binary_bufs_sub .., binary_bufs_sub .., unary_bufs_sub ..,
    binary_bufs_sub .., reshape_bufs_sub .., nullary_bufs_sub .., binary_bufs_sub .., unary_bufs_sub .., unary_bufs_sub ..,
    binary_bufs_sub .., unary_bufs_sub .., reshape_bufs_sub .., unary_bufs_sub .., binary_bufs_sub .., reshape_bufs_sub ..,
    nullary_bufs_sub .., unary_bufs_sub .., binary_bufs_sub .., nullary_bufs_sub .., unary_bufs_sub .., binary_bufs_sub ..,
    ternary_bufs_sub .., unary_bufs_sub .., binary_bufs_sub .., nullary_bufs_sub .., unary_bufs_sub .., binary_bufs_sub ..,
    nullary_bufs_sub .., unary_bufs_sub .., binary_bufs_sub .., ternary_bufs_sub .., unary_bufs_sub .., binary_bufs_sub ..⟩

set_option maxRecDepth 16384 in
/-- No operation of the window allocates a buffer. -/
theorem fresh0 : ∀ op ∈ (ops0 : List (HloOp τ sig (Elt F))), op.fresh = ∅ := by
  intro _ h; (repeat (cases h with | head => rfl | tail _ h => ?_)); exact nomatch h

/-- The buffers the window's operations write, one each. -/
abbrev written0 : List (Ref sig .tc) :=
  [main_v0, main_v1, main_v2, main_v3, main_v4, main_v5, main_v6, main_v7,
    main_c, main_v8, main_v9, main_c_0, main_v10, main_v11, main_c_1, main_v12,
    main_v13, main_v14, main_c_2, main_v15, main_v16, main_c_3, main_v17, main_v18,
    main_v19, main_v20, main_v21, main_v22, main_v23, main_v24, main_v25, main_v26,
    main_cst, main_v27, main_v28, main_v29, main_v30, main_v31, main_v32, main_v33,
    main_v34, main_v35, main_c_4, main_v36, main_v37, main_c_5, main_v38, main_v39,
    main_v40, main_v41, main_v42, main_c_6, main_v43, main_v44, main_c_7, main_v45,
    main_v46, main_v47, main_v48, main_v49]

set_option maxRecDepth 16384 in
theorem ops0_writes : (ops0 : List (HloOp τ sig (Elt F))).Forall fun op => op.writes ⊆ (written0.map (Proc.devRef (τ := τ) .tc)).toFinset := by
  simp only [List.Forall]
  exact ⟨by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide)⟩

/-- A buffer the window does not write keeps its contents through it. -/
theorem keep0 (V : Valuation τ sig (Elt F)) (r : Ref sig .tc) (h : r ∉ written0) :
    after ops0 V (Proc.devRef .tc r) = V (Proc.devRef .tc r) :=
  after_of_writes_sub ops0 V ops0_writes h

end Cert.ReferenceIdeal.HostRun

end
-- ==== Proof.RefPart1.lean ====
/-
  Statements 61 … 120 of the reference's host program, as the list of their operations in order (where the program calls leaky_relu or a masked select, the callee's own operations stand at the call, over the buffers of that call):
  the window's program is the run of that list; every operation names only TensorCore buffers; and each operation writes
  exactly one buffer, all of them intermediate values, so a buffer outside the list of written ones — every argument
  array — keeps its contents.
-/
import proofs.«169155_g70909910057105_cont_sun_m_1383_19_alg».proof.Proof.Gen.ReferenceIdeal
import Idealize.ShloMosaic.Lib.StableHlo.Run

noncomputable section

namespace Cert.ReferenceIdeal.HostRun

open Cert.ReferenceIdeal Cert.ReferenceIdeal.Gen Idealize.ShloMosaic Idealize.ShloMosaic.TcCoe Idealize.SL.Sem Idealize.ShloMosaic.StableHlo

variable {F : FTy → Type} [FloatOps F]

/-- The operations of statements 61 … 120. -/
abbrev ops1 : List (HloOp τ sig (Elt F)) :=
  [ StableHlo.unary main_arg5 main_v50 (broadcastInDim S1x4x32 ![1, 2] bcast_S4x32_S1x4x32_1_2 : (⟨S4x32, .f32⟩ : BufTy).Contents (Elt F) → (⟨S1x4x32, .f32⟩ : BufTy).Contents (Elt F)),
    StableHlo.unary main_v50 main_v51 (broadcastInDim S262144x4x32 ![0, 1, 2] bcast_S1x4x32_S262144x4x32_0_1_2 : (⟨S1x4x32, .f32⟩ : BufTy).Contents (Elt F) → (⟨S262144x4x32, .f32⟩ : BufTy).Contents (Elt F)),
    StableHlo.binary main_v42 main_v51 main_v52 (mulf : (⟨S262144x4x32, .f32⟩ : BufTy).Contents (Elt F) → (⟨S262144x4x32, .f32⟩ : BufTy).Contents (Elt F) → (⟨S262144x4x32, .f32⟩ : BufTy).Contents (Elt F)),
    StableHlo.nullary main_cst_8 (constant S_ .f32 0x00000000#32),
    StableHlo.binary main_v52 main_cst_8 main_v53 ((fun x v => Host.reduceAdd x v reducesTo_S262144x4x32_S262144x4_d2 h_S_) : (⟨S262144x4x32, .f32⟩ : BufTy).Contents (Elt F) → (⟨S_, .f32⟩ : BufTy).Contents (Elt F) → (⟨S262144x4, .f32⟩ : BufTy).Contents (Elt F)),
    StableHlo.unary main_arg6 main_v54 (broadcastInDim S1x4x32 ![1, 2] bcast_S4x32_S1x4x32_1_2 : (⟨S4x32, .f32⟩ : BufTy).Contents (Elt F) → (⟨S1x4x32, .f32⟩ : BufTy).Contents (Elt F)),
    StableHlo.unary main_v54 main_v55 (broadcastInDim S262144x4x32 ![0, 1, 2] bcast_S1x4x32_S262144x4x32_0_1_2 : (⟨S1x4x32, .f32⟩ : BufTy).Contents (Elt F) → (⟨S262144x4x32, .f32⟩ : BufTy).Contents (Elt F)),
    StableHlo.binary main_v49 main_v55 main_v56 (mulf : (⟨S262144x4x32, .f32⟩ : BufTy).Contents (Elt F) → (⟨S262144x4x32, .f32⟩ : BufTy).Contents (Elt F) → (⟨S262144x4x32, .f32⟩ : BufTy).Contents (Elt F)),
    StableHlo.nullary main_cst_9 (constant S_ .f32 0x00000000#32),
    StableHlo.binary main_v56 main_cst_9 main_v57 ((fun x v => Host.reduceAdd x v reducesTo_S262144x4x32_S262144x4_d2 h_S_) : (⟨S262144x4x32, .f32⟩ : BufTy).Contents (Elt F) → (⟨S_, .f32⟩ : BufTy).Contents (Elt F) → (⟨S262144x4, .f32⟩ : BufTy).Contents (Elt F)),
    StableHlo.binary main_v53 main_v57 main_v58 (addf : (⟨S262144x4, .f32⟩ : BufTy).Contents (Elt F) → (⟨S262144x4, .f32⟩ : BufTy).Contents (Elt F) → (⟨S262144x4, .f32⟩ : BufTy).Contents (Elt F)),
    StableHlo.binary main_v58 main_v30 main_v59 (addf : (⟨S262144x4, .f32⟩ : BufTy).Contents (Elt F) → (⟨S262144x4, .f32⟩ : BufTy).Contents (Elt F) → (⟨S262144x4, .f32⟩ : BufTy).Contents (Elt F)),
    StableHlo.nullary main_cst_10 (constant S_ .f32 0x3E4CCCCD#32),
    StableHlo.TRef.nullary main_call0.cst (constant S_ .f32 0x00000000#32),
    StableHlo.TRef.unary main_call0.cst main_call0.v0 (broadcastInDim S262144x4 ![] bcast_S_S262144x4),
    StableHlo.TRef.binary ((.of main_v59) : StableHlo.TRef sig ⟨S262144x4, .f32⟩) main_call0.v0 main_call0.v1 (cmpf .oge),
    StableHlo.TRef.unary ((.of main_cst_10) : StableHlo.TRef sig ⟨S_, .f32⟩) main_call0.v2 id,
    StableHlo.TRef.unary main_call0.v2 main_call0.v3 (broadcastInDim S262144x4 ![] bcast_S_S262144x4),
    StableHlo.TRef.binary main_call0.v3 ((.of main_v59) : StableHlo.TRef sig ⟨S262144x4, .f32⟩) main_call0.v4 mulf,
    StableHlo.TRef.ternary main_call0.v1 ((.of main_v59) : StableHlo.TRef sig ⟨S262144x4, .f32⟩) main_call0.v4 main_call0.call0.v0 select,
    StableHlo.unary main_v9 main_v61 (broadcastInDim S262144x1 ![0] bcast_S262144_S262144x1_0 : (⟨S262144, .i1⟩ : BufTy).Contents (Elt F) → (⟨S262144x1, .i1⟩ : BufTy).Contents (Elt F)),
    StableHlo.unary main_v60 main_v62 (Host.exp : (⟨S262144x4, .f32⟩ : BufTy).Contents (Elt F) → (⟨S262144x4, .f32⟩ : BufTy).Contents (Elt F)),
    StableHlo.nullary main_cst_11 (constant S_ .f32 0x00000000#32),
    StableHlo.TRef.unary ((.of main_cst_11) : StableHlo.TRef sig ⟨S_, .f32⟩) main_call1.v0 id,
    StableHlo.TRef.unary ((.of main_v61) : StableHlo.TRef sig ⟨S262144x1, .i1⟩) main_call1.v1 (broadcastInDim S262144x4 ![0, 1] bcast_S262144x1_S262144x4_0_1),
    StableHlo.TRef.unary main_call1.v0 main_call1.v2 (broadcastInDim S262144x4 ![] bcast_S_S262144x4),
    StableHlo.TRef.ternary main_call1.v1 ((.of main_v62) : StableHlo.TRef sig ⟨S262144x4, .f32⟩) main_call1.v2 main_call1.v3 select,
    StableHlo.nullary main_cst_12 (constant S_ .f32 0x00000000#32),
    StableHlo.unary main_cst_12 main_v64 (broadcastInDim S512x4 ![] bcast_S_S512x4 : (⟨S_, .f32⟩ : BufTy).Contents (Elt F) → (⟨S512x4, .f32⟩ : BufTy).Contents (Elt F)),
    StableHlo.nullary main_c_13 (constantI S_ 32 0#32),
    StableHlo.unary main_c_13 main_v65 (broadcastInDim S262144 ![] bcast_S_S262144 : (⟨S_, .i32⟩ : BufTy).Contents (Elt F) → (⟨S262144, .i32⟩ : BufTy).Contents (Elt F)),
    StableHlo.binary main_v6 main_v65 main_v66 (cmpi .slt : (⟨S262144, .i32⟩ : BufTy).Contents (Elt F) → (⟨S262144, .i32⟩ : BufTy).Contents (Elt F) → (⟨S262144, .i1⟩ : BufTy).Contents (Elt F)),
    StableHlo.nullary main_c_14 (constantI S_ 32 512#32),
    StableHlo.unary main_c_14 main_v67 (broadcastInDim S262144 ![] bcast_S_S262144 : (⟨S_, .i32⟩ : BufTy).Contents (Elt F) → (⟨S262144, .i32⟩ : BufTy).Contents (Elt F)),
    StableHlo.binary main_v6 main_v67 main_v68 (addi : (⟨S262144, .i32⟩ : BufTy).Contents (Elt F) → (⟨S262144, .i32⟩ : BufTy).Contents (Elt F) → (⟨S262144, .i32⟩ : BufTy).Contents (Elt F)),
    StableHlo.ternary main_v66 main_v68 main_v6 main_v69 (select : (⟨S262144, .i1⟩ : BufTy).Contents (Elt F) → (⟨S262144, .i32⟩ : BufTy).Contents (Elt F) → (⟨S262144, .i32⟩ : BufTy).Contents (Elt F) → (⟨S262144, .i32⟩ : BufTy).Contents (Elt F)),
    StableHlo.unary main_v69 main_v70 (broadcastInDim S262144x1 ![0] bcast_S262144_S262144x1_0 : (⟨S262144, .i32⟩ : BufTy).Contents (Elt F) → (⟨S262144x1, .i32⟩ : BufTy).Contents (Elt F)),
    StableHlo.ternary main_v64 main_v70 main_v63 main_v71 ((fun x i u => Host.scatterAdd scatter_S512x4_S262144x1_S262144x4_1_0_0_1 x i u) : (⟨S512x4, .f32⟩ : BufTy).Contents (Elt F) → (⟨S262144x1, .i32⟩ : BufTy).Contents (Elt F) → (⟨S262144x4, .f32⟩ : BufTy).Contents (Elt F) → (⟨S512x4, .f32⟩ : BufTy).Contents (Elt F)),
    StableHlo.nullary main_c_15 (constantI S_ 32 0#32),
    StableHlo.unary main_c_15 main_v72 (broadcastInDim S262144 ![] bcast_S_S262144 : (⟨S_, .i32⟩ : BufTy).Contents (Elt F) → (⟨S262144, .i32⟩ : BufTy).Contents (Elt F)),
    StableHlo.binary main_v6 main_v72 main_v73 (cmpi .slt : (⟨S262144, .i32⟩ : BufTy).Contents (Elt F) → (⟨S262144, .i32⟩ : BufTy).Contents (Elt F) → (⟨S262144, .i1⟩ : BufTy).Contents (Elt F)),
    StableHlo.nullary main_c_16 (constantI S_ 32 512#32),
    StableHlo.unary main_c_16 main_v74 (broadcastInDim S262144 ![] bcast_S_S262144 : (⟨S_, .i32⟩ : BufTy).Contents (Elt F) → (⟨S262144, .i32⟩ : BufTy).Contents (Elt F)),
    StableHlo.binary main_v6 main_v74 main_v75 (addi : (⟨S262144, .i32⟩ : BufTy).Contents (Elt F) → (⟨S262144, .i32⟩ : BufTy).Contents (Elt F) → (⟨S262144, .i32⟩ : BufTy).Contents (Elt F)),
    StableHlo.ternary main_v73 main_v75 main_v6 main_v76 (select : (⟨S262144, .i1⟩ : BufTy).Contents (Elt F) → (⟨S262144, .i32⟩ : BufTy).Contents (Elt F) → (⟨S262144, .i32⟩ : BufTy).Contents (Elt F) → (⟨S262144, .i32⟩ : BufTy).Contents (Elt F)),
    StableHlo.unary main_v76 main_v77 (broadcastInDim S262144x1 ![0] bcast_S262144_S262144x1_0 : (⟨S262144, .i32⟩ : BufTy).Contents (Elt F) → (⟨S262144x1, .i32⟩ : BufTy).Contents (Elt F)),
    StableHlo.binary main_v71 main_v77 main_v78 ((fun x i => Host.gather gather_S512x4_S262144x1_S262144x4_1_0_n_n_0_1_14 x i) : (⟨S512x4, .f32⟩ : BufTy).Contents (Elt F) → (⟨S262144x1, .i32⟩ : BufTy).Contents (Elt F) → (⟨S262144x4, .f32⟩ : BufTy).Contents (Elt F)),
    StableHlo.nullary main_cst_17 (constant S_ .f32 0x24E69595#32),
    StableHlo.unary main_cst_17 main_v79 (broadcastInDim S262144x4 ![] bcast_S_S262144x4 : (⟨S_, .f32⟩ : BufTy).Contents (Elt F) → (⟨S262144x4, .f32⟩ : BufTy).Contents (Elt F)),
    StableHlo.binary main_v78 main_v79 main_v80 (addf : (⟨S262144x4, .f32⟩ : BufTy).Contents (Elt F) → (⟨S262144x4, .f32⟩ : BufTy).Contents (Elt F) → (⟨S262144x4, .f32⟩ : BufTy).Contents (Elt F)),
    StableHlo.binary main_v63 main_v80 main_v81 (Host.divf : (⟨S262144x4, .f32⟩ : BufTy).Contents (Elt F) → (⟨S262144x4, .f32⟩ : BufTy).Contents (Elt F) → (⟨S262144x4, .f32⟩ : BufTy).Contents (Elt F)),
    StableHlo.unary main_v81 main_v82 (broadcastInDim S262144x4x1 ![0, 1] bcast_S262144x4_S262144x4x1_0_1 : (⟨S262144x4, .f32⟩ : BufTy).Contents (Elt F) → (⟨S262144x4x1, .f32⟩ : BufTy).Contents (Elt F)),
    StableHlo.unary main_v82 main_v83 (broadcastInDim S262144x4x32 ![0, 1, 2] bcast_S262144x4x1_S262144x4x32_0_1_2 : (⟨S262144x4x1, .f32⟩ : BufTy).Contents (Elt F) → (⟨S262144x4x32, .f32⟩ : BufTy).Contents (Elt F)),
    StableHlo.binary main_v42 main_v83 main_v84 (mulf : (⟨S262144x4x32, .f32⟩ : BufTy).Contents (Elt F) → (⟨S262144x4x32, .f32⟩ : BufTy).Contents (Elt F) → (⟨S262144x4x32, .f32⟩ : BufTy).Contents (Elt F)),
    StableHlo.nullary main_cst_18 (constant S_ .f32 0x00000000#32),
    StableHlo.unary main_cst_18 main_v85 (broadcastInDim S512x4x32 ![] bcast_S_S512x4x32 : (⟨S_, .f32⟩ : BufTy).Contents (Elt F) → (⟨S512x4x32, .f32⟩ : BufTy).Contents (Elt F)),
    StableHlo.nullary main_c_19 (constantI S_ 32 0#32),
    StableHlo.unary main_c_19 main_v86 (broadcastInDim S262144 ![] bcast_S_S262144 : (⟨S_, .i32⟩ : BufTy).Contents (Elt F) → (⟨S262144, .i32⟩ : BufTy).Contents (Elt F)),
    StableHlo.binary main_v6 main_v86 main_v87 (cmpi .slt : (⟨S262144, .i32⟩ : BufTy).Contents (Elt F) → (⟨S262144, .i32⟩ : BufTy).Contents (Elt F) → (⟨S262144, .i1⟩ : BufTy).Contents (Elt F)),
    StableHlo.nullary main_c_20 (constantI S_ 32 512#32),
    StableHlo.unary main_c_20 main_v88 (broadcastInDim S262144 ![] bcast_S_S262144 : (⟨S_, .i32⟩ : BufTy).Contents (Elt F) → (⟨S262144, .i32⟩ : BufTy).Contents (Elt F)),
    StableHlo.binary main_v6 main_v88 main_v89 (addi : (⟨S262144, .i32⟩ : BufTy).Contents (Elt F) → (⟨S262144, .i32⟩ : BufTy).Contents (Elt F) → (⟨S262144, .i32⟩ : BufTy).Contents (Elt F)),
    StableHlo.ternary main_v87 main_v89 main_v6 main_v90 (select : (⟨S262144, .i1⟩ : BufTy).Contents (Elt F) → (⟨S262144, .i32⟩ : BufTy).Contents (Elt F) → (⟨S262144, .i32⟩ : BufTy).Contents (Elt F) → (⟨S262144, .i32⟩ : BufTy).Contents (Elt F)),
    StableHlo.unary main_v90 main_v91 (broadcastInDim S262144x1 ![0] bcast_S262144_S262144x1_0 : (⟨S262144, .i32⟩ : BufTy).Contents (Elt F) → (⟨S262144x1, .i32⟩ : BufTy).Contents (Elt F)),
    StableHlo.ternary main_v85 main_v91 main_v84 main_v92 ((fun x i u => Host.scatterAdd scatter_S512x4x32_S262144x1_S262144x4x32_12_0_0_1 x i u) : (⟨S512x4x32, .f32⟩ : BufTy).Contents (Elt F) → (⟨S262144x1, .i32⟩ : BufTy).Contents (Elt F) → (⟨S262144x4x32, .f32⟩ : BufTy).Contents (Elt F) → (⟨S512x4x32, .f32⟩ : BufTy).Contents (Elt F)),
    StableHlo.reshape main_v92 main_v93 rfl shapeCasts_S512x4x32_S512x128,
    StableHlo.unary main_v93 main_v94 (broadcastInDim S512x1x128 ![0, 2] bcast_S512x128_S512x1x128_0_2 : (⟨S512x128, .f32⟩ : BufTy).Contents (Elt F) → (⟨S512x1x128, .f32⟩ : BufTy).Contents (Elt F)),
    StableHlo.unary main_arg0 main_v95 ((extractStridedSlice S512x1x128 ![0, 1, 0] · slices_S512x2x128_S512x1x128_0_1_0) : (⟨S512x2x128, .f32⟩ : BufTy).Contents (Elt F) → (⟨S512x1x128, .f32⟩ : BufTy).Contents (Elt F)),
    StableHlo.reshape main_v95 main_v96 rfl shapeCasts_S512x1x128_S512x128 ]

set_option maxRecDepth 16384 in
set_option maxHeartbeats 40000000 in
/-- The window's program is that line of operations. -/
theorem part1_eq (c : Dev nD) : main_part1 (F := F) c = seq ops1 := by
  simp only [main_part1, fn_leaky_relu.body, fn_where.body, fn_where_0.body, seq, bind_assoc, pure_bind]
  try rfl

/-- Every operation reads and writes TensorCore buffers only. -/
theorem ops1_sub : (ops1 : List (HloOp τ sig (Elt F))).Forall fun op => op.bufs ⊆ tcRefs τ sig :=
  ⟨unary_bufs_sub .., unary_bufs_sub .., binary_bufs_sub .., nullary_bufs_sub .., binary_bufs_sub .., unary_bufs_sub ..,
    unary_bufs_sub .., binary_bufs_sub .., nullary_bufs_sub .., binary_bufs_sub .., binary_bufs_sub .., binary_bufs_sub ..,
    nullary_bufs_sub .., nullary_bufs_sub .., unary_bufs_sub .., binary_bufs_sub .., unary_bufs_sub .., unary_bufs_sub ..,
    binary_bufs_sub .., ternary_bufs_sub .., unary_bufs_sub .., unary_bufs_sub .., nullary_bufs_sub .., unary_bufs_sub ..,
    unary_bufs_sub .., unary_bufs_sub .., ternary_bufs_sub .., nullary_bufs_sub .., unary_bufs_sub .., nullary_bufs_sub ..,
    unary_bufs_sub .., binary_bufs_sub .., nullary_bufs_sub .., unary_bufs_sub .., binary_bufs_sub .., ternary_bufs_sub ..,
    unary_bufs_sub .., ternary_bufs_sub .., nullary_bufs_sub .., unary_bufs_sub .., binary_bufs_sub .., nullary_bufs_sub ..,
    unary_bufs_sub .., binary_bufs_sub .., ternary_bufs_sub .., unary_bufs_sub .., binary_bufs_sub .., nullary_bufs_sub ..,
    unary_bufs_sub .., binary_bufs_sub .., binary_bufs_sub .., unary_bufs_sub .., unary_bufs_sub .., binary_bufs_sub ..,
    nullary_bufs_sub .., unary_bufs_sub .., nullary_bufs_sub .., unary_bufs_sub .., binary_bufs_sub .., nullary_bufs_sub ..,
    unary_bufs_sub .., binary_bufs_sub .., ternary_bufs_sub .., unary_bufs_sub .., ternary_bufs_sub .., reshape_bufs_sub ..,
    unary_bufs_sub .., unary_bufs_sub .., reshape_bufs_sub ..⟩

set_option maxRecDepth 16384 in
/-- No operation of the window allocates a buffer. -/
theorem fresh1 : ∀ op ∈ (ops1 : List (HloOp τ sig (Elt F))), op.fresh = ∅ := by
  intro _ h; (repeat (cases h with | head => rfl | tail _ h => ?_)); exact nomatch h

/-- The buffers the window's operations write, one each. -/
abbrev written1 : List (Ref sig .tc) :=
  [main_v50, main_v51, main_v52, main_cst_8, main_v53, main_v54, main_v55, main_v56,
    main_cst_9, main_v57, main_v58, main_v59, main_cst_10, (main_call0.cst).ref, (main_call0.v0).ref, (main_call0.v1).ref,
    (main_call0.v2).ref, (main_call0.v3).ref, (main_call0.v4).ref, (main_call0.call0.v0).ref, main_v61, main_v62, main_cst_11, (main_call1.v0).ref,
    (main_call1.v1).ref, (main_call1.v2).ref, (main_call1.v3).ref, main_cst_12, main_v64, main_c_13, main_v65, main_v66,
    main_c_14, main_v67, main_v68, main_v69, main_v70, main_v71, main_c_15, main_v72,
    main_v73, main_c_16, main_v74, main_v75, main_v76, main_v77, main_v78, main_cst_17,
    main_v79, main_v80, main_v81, main_v82, main_v83, main_v84, main_cst_18, main_v85,
    main_c_19, main_v86, main_v87, main_c_20, main_v88, main_v89, main_v90, main_v91,
    main_v92, main_v93, main_v94, main_v95, main_v96]

set_option maxRecDepth 16384 in
theorem ops1_writes : (ops1 : List (HloOp τ sig (Elt F))).Forall fun op => op.writes ⊆ (written1.map (Proc.devRef (τ := τ) .tc)).toFinset := by
  simp only [List.Forall]
  exact ⟨by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide)⟩

/-- A buffer the window does not write keeps its contents through it. -/
theorem keep1 (V : Valuation τ sig (Elt F)) (r : Ref sig .tc) (h : r ∉ written1) :
    after ops1 V (Proc.devRef .tc r) = V (Proc.devRef .tc r) :=
  after_of_writes_sub ops1 V ops1_writes h

end Cert.ReferenceIdeal.HostRun

end
-- ==== Proof.RefPart2.lean ====
/-
  Statements 121 … 180 of the reference's host program, as the list of their operations in order (where the program calls leaky_relu or a masked select, the callee's own operations stand at the call, over the buffers of that call):
  the window's program is the run of that list; every operation names only TensorCore buffers; and each operation writes
  exactly one buffer, all of them intermediate values, so a buffer outside the list of written ones — every argument
  array — keeps its contents.
-/
import proofs.«169155_g70909910057105_cont_sun_m_1383_19_alg».proof.Proof.Gen.ReferenceIdeal
import Idealize.ShloMosaic.Lib.StableHlo.Run

noncomputable section

namespace Cert.ReferenceIdeal.HostRun

open Cert.ReferenceIdeal Cert.ReferenceIdeal.Gen Idealize.ShloMosaic Idealize.ShloMosaic.TcCoe Idealize.SL.Sem Idealize.ShloMosaic.StableHlo

variable {F : FTy → Type} [FloatOps F]

/-- The operations of statements 121 … 180. -/
abbrev ops2 : List (HloOp τ sig (Elt F)) :=
  [ StableHlo.unary main_arg3 main_v97 ((transpose S128x128 [1, 0] · transposes_S128x128_S128x128_1_0) : (⟨S128x128, .f32⟩ : BufTy).Contents (Elt F) → (⟨S128x128, .f32⟩ : BufTy).Contents (Elt F)),
    StableHlo.binary main_v96 main_v97 main_v98 ((fun l r => Host.dotGeneral dot_S512x128_S128x128_S512x128_1_0_0_1_n_n none l r) : (⟨S512x128, .f32⟩ : BufTy).Contents (Elt F) → (⟨S128x128, .f32⟩ : BufTy).Contents (Elt F) → (⟨S512x128, .f32⟩ : BufTy).Contents (Elt F)),
    StableHlo.reshape main_v98 main_v99 rfl shapeCasts_S512x128_S512x4x32,
    StableHlo.nullary main_c_21 (constantI S_ 32 0#32),
    StableHlo.unary main_c_21 main_v100 (broadcastInDim S262144 ![] bcast_S_S262144 : (⟨S_, .i32⟩ : BufTy).Contents (Elt F) → (⟨S262144, .i32⟩ : BufTy).Contents (Elt F)),
    StableHlo.binary main_v2 main_v100 main_v101 (cmpi .slt : (⟨S262144, .i32⟩ : BufTy).Contents (Elt F) → (⟨S262144, .i32⟩ : BufTy).Contents (Elt F) → (⟨S262144, .i1⟩ : BufTy).Contents (Elt F)),
    StableHlo.nullary main_c_22 (constantI S_ 32 512#32),
    StableHlo.unary main_c_22 main_v102 (broadcastInDim S262144 ![] bcast_S_S262144 : (⟨S_, .i32⟩ : BufTy).Contents (Elt F) → (⟨S262144, .i32⟩ : BufTy).Contents (Elt F)),
    StableHlo.binary main_v2 main_v102 main_v103 (addi : (⟨S262144, .i32⟩ : BufTy).Contents (Elt F) → (⟨S262144, .i32⟩ : BufTy).Contents (Elt F) → (⟨S262144, .i32⟩ : BufTy).Contents (Elt F)),
    StableHlo.ternary main_v101 main_v103 main_v2 main_v104 (select : (⟨S262144, .i1⟩ : BufTy).Contents (Elt F) → (⟨S262144, .i32⟩ : BufTy).Contents (Elt F) → (⟨S262144, .i32⟩ : BufTy).Contents (Elt F) → (⟨S262144, .i32⟩ : BufTy).Contents (Elt F)),
    StableHlo.unary main_v104 main_v105 (broadcastInDim S262144x1 ![0] bcast_S262144_S262144x1_0 : (⟨S262144, .i32⟩ : BufTy).Contents (Elt F) → (⟨S262144x1, .i32⟩ : BufTy).Contents (Elt F)),
    StableHlo.binary main_v99 main_v105 main_v106 ((fun x i => Host.gather gather_S512x4x32_S262144x1_S262144x4x32_12_0_n_n_0_1_1432 x i) : (⟨S512x4x32, .f32⟩ : BufTy).Contents (Elt F) → (⟨S262144x1, .i32⟩ : BufTy).Contents (Elt F) → (⟨S262144x4x32, .f32⟩ : BufTy).Contents (Elt F)),
    StableHlo.nullary main_c_23 (constantI S_ 32 0#32),
    StableHlo.unary main_c_23 main_v107 (broadcastInDim S262144 ![] bcast_S_S262144 : (⟨S_, .i32⟩ : BufTy).Contents (Elt F) → (⟨S262144, .i32⟩ : BufTy).Contents (Elt F)),
    StableHlo.binary main_v6 main_v107 main_v108 (cmpi .slt : (⟨S262144, .i32⟩ : BufTy).Contents (Elt F) → (⟨S262144, .i32⟩ : BufTy).Contents (Elt F) → (⟨S262144, .i1⟩ : BufTy).Contents (Elt F)),
    StableHlo.nullary main_c_24 (constantI S_ 32 512#32),
    StableHlo.unary main_c_24 main_v109 (broadcastInDim S262144 ![] bcast_S_S262144 : (⟨S_, .i32⟩ : BufTy).Contents (Elt F) → (⟨S262144, .i32⟩ : BufTy).Contents (Elt F)),
    StableHlo.binary main_v6 main_v109 main_v110 (addi : (⟨S262144, .i32⟩ : BufTy).Contents (Elt F) → (⟨S262144, .i32⟩ : BufTy).Contents (Elt F) → (⟨S262144, .i32⟩ : BufTy).Contents (Elt F)),
    StableHlo.ternary main_v108 main_v110 main_v6 main_v111 (select : (⟨S262144, .i1⟩ : BufTy).Contents (Elt F) → (⟨S262144, .i32⟩ : BufTy).Contents (Elt F) → (⟨S262144, .i32⟩ : BufTy).Contents (Elt F) → (⟨S262144, .i32⟩ : BufTy).Contents (Elt F)),
    StableHlo.unary main_v111 main_v112 (broadcastInDim S262144x1 ![0] bcast_S262144_S262144x1_0 : (⟨S262144, .i32⟩ : BufTy).Contents (Elt F) → (⟨S262144x1, .i32⟩ : BufTy).Contents (Elt F)),
    StableHlo.binary main_v99 main_v112 main_v113 ((fun x i => Host.gather gather_S512x4x32_S262144x1_S262144x4x32_12_0_n_n_0_1_1432 x i) : (⟨S512x4x32, .f32⟩ : BufTy).Contents (Elt F) → (⟨S262144x1, .i32⟩ : BufTy).Contents (Elt F) → (⟨S262144x4x32, .f32⟩ : BufTy).Contents (Elt F)),
    StableHlo.unary main_arg5 main_v114 (broadcastInDim S1x4x32 ![1, 2] bcast_S4x32_S1x4x32_1_2 : (⟨S4x32, .f32⟩ : BufTy).Contents (Elt F) → (⟨S1x4x32, .f32⟩ : BufTy).Contents (Elt F)),
    StableHlo.unary main_v114 main_v115 (broadcastInDim S262144x4x32 ![0, 1, 2] bcast_S1x4x32_S262144x4x32_0_1_2 : (⟨S1x4x32, .f32⟩ : BufTy).Contents (Elt F) → (⟨S262144x4x32, .f32⟩ : BufTy).Contents (Elt F)),
    StableHlo.binary main_v106 main_v115 main_v116 (mulf : (⟨S262144x4x32, .f32⟩ : BufTy).Contents (Elt F) → (⟨S262144x4x32, .f32⟩ : BufTy).Contents (Elt F) → (⟨S262144x4x32, .f32⟩ : BufTy).Contents (Elt F)),
    StableHlo.nullary main_cst_25 (constant S_ .f32 0x00000000#32),
    StableHlo.binary main_v116 main_cst_25 main_v117 ((fun x v => Host.reduceAdd x v reducesTo_S262144x4x32_S262144x4_d2 h_S_) : (⟨S262144x4x32, .f32⟩ : BufTy).Contents (Elt F) → (⟨S_, .f32⟩ : BufTy).Contents (Elt F) → (⟨S262144x4, .f32⟩ : BufTy).Contents (Elt F)),
    StableHlo.unary main_arg6 main_v118 (broadcastInDim S1x4x32 ![1, 2] bcast_S4x32_S1x4x32_1_2 : (⟨S4x32, .f32⟩ : BufTy).Contents (Elt F) → (⟨S1x4x32, .f32⟩ : BufTy).Contents (Elt F)),
    StableHlo.unary main_v118 main_v119 (broadcastInDim S262144x4x32 ![0, 1, 2] bcast_S1x4x32_S262144x4x32_0_1_2 : (⟨S1x4x32, .f32⟩ : BufTy).Contents (Elt F) → (⟨S262144x4x32, .f32⟩ : BufTy).Contents (Elt F)),
    StableHlo.binary main_v113 main_v119 main_v120 (mulf : (⟨S262144x4x32, .f32⟩ : BufTy).Contents (Elt F) → (⟨S262144x4x32, .f32⟩ : BufTy).Contents (Elt F) → (⟨S262144x4x32, .f32⟩ : BufTy).Contents (Elt F)),
    StableHlo.nullary main_cst_26 (constant S_ .f32 0x00000000#32),
    StableHlo.binary main_v120 main_cst_26 main_v121 ((fun x v => Host.reduceAdd x v reducesTo_S262144x4x32_S262144x4_d2 h_S_) : (⟨S262144x4x32, .f32⟩ : BufTy).Contents (Elt F) → (⟨S_, .f32⟩ : BufTy).Contents (Elt F) → (⟨S262144x4, .f32⟩ : BufTy).Contents (Elt F)),
    StableHlo.binary main_v117 main_v121 main_v122 (addf : (⟨S262144x4, .f32⟩ : BufTy).Contents (Elt F) → (⟨S262144x4, .f32⟩ : BufTy).Contents (Elt F) → (⟨S262144x4, .f32⟩ : BufTy).Contents (Elt F)),
    StableHlo.binary main_v122 main_v30 main_v123 (addf : (⟨S262144x4, .f32⟩ : BufTy).Contents (Elt F) → (⟨S262144x4, .f32⟩ : BufTy).Contents (Elt F) → (⟨S262144x4, .f32⟩ : BufTy).Contents (Elt F)),
    StableHlo.nullary main_cst_27 (constant S_ .f32 0x3E4CCCCD#32),
    StableHlo.TRef.nullary main_call2.cst (constant S_ .f32 0x00000000#32),
    StableHlo.TRef.unary main_call2.cst main_call2.v0 (broadcastInDim S262144x4 ![] bcast_S_S262144x4),
    StableHlo.TRef.binary ((.of main_v123) : StableHlo.TRef sig ⟨S262144x4, .f32⟩) main_call2.v0 main_call2.v1 (cmpf .oge),
    StableHlo.TRef.unary ((.of main_cst_27) : StableHlo.TRef sig ⟨S_, .f32⟩) main_call2.v2 id,
    StableHlo.TRef.unary main_call2.v2 main_call2.v3 (broadcastInDim S262144x4 ![] bcast_S_S262144x4),
    StableHlo.TRef.binary main_call2.v3 ((.of main_v123) : StableHlo.TRef sig ⟨S262144x4, .f32⟩) main_call2.v4 mulf,
    StableHlo.TRef.ternary main_call2.v1 ((.of main_v123) : StableHlo.TRef sig ⟨S262144x4, .f32⟩) main_call2.v4 main_call2.call0.v0 select,
    StableHlo.unary main_v9 main_v125 (broadcastInDim S262144x1 ![0] bcast_S262144_S262144x1_0 : (⟨S262144, .i1⟩ : BufTy).Contents (Elt F) → (⟨S262144x1, .i1⟩ : BufTy).Contents (Elt F)),
    StableHlo.unary main_v124 main_v126 (Host.exp : (⟨S262144x4, .f32⟩ : BufTy).Contents (Elt F) → (⟨S262144x4, .f32⟩ : BufTy).Contents (Elt F)),
    StableHlo.nullary main_cst_28 (constant S_ .f32 0x00000000#32),
    StableHlo.TRef.unary ((.of main_cst_28) : StableHlo.TRef sig ⟨S_, .f32⟩) main_call3.v0 id,
    StableHlo.TRef.unary ((.of main_v125) : StableHlo.TRef sig ⟨S262144x1, .i1⟩) main_call3.v1 (broadcastInDim S262144x4 ![0, 1] bcast_S262144x1_S262144x4_0_1),
    StableHlo.TRef.unary main_call3.v0 main_call3.v2 (broadcastInDim S262144x4 ![] bcast_S_S262144x4),
    StableHlo.TRef.ternary main_call3.v1 ((.of main_v126) : StableHlo.TRef sig ⟨S262144x4, .f32⟩) main_call3.v2 main_call3.v3 select,
    StableHlo.nullary main_cst_29 (constant S_ .f32 0x00000000#32),
    StableHlo.unary main_cst_29 main_v128 (broadcastInDim S512x4 ![] bcast_S_S512x4 : (⟨S_, .f32⟩ : BufTy).Contents (Elt F) → (⟨S512x4, .f32⟩ : BufTy).Contents (Elt F)),
    StableHlo.nullary main_c_30 (constantI S_ 32 0#32),
    StableHlo.unary main_c_30 main_v129 (broadcastInDim S262144 ![] bcast_S_S262144 : (⟨S_, .i32⟩ : BufTy).Contents (Elt F) → (⟨S262144, .i32⟩ : BufTy).Contents (Elt F)),
    StableHlo.binary main_v6 main_v129 main_v130 (cmpi .slt : (⟨S262144, .i32⟩ : BufTy).Contents (Elt F) → (⟨S262144, .i32⟩ : BufTy).Contents (Elt F) → (⟨S262144, .i1⟩ : BufTy).Contents (Elt F)),
    StableHlo.nullary main_c_31 (constantI S_ 32 512#32),
    StableHlo.unary main_c_31 main_v131 (broadcastInDim S262144 ![] bcast_S_S262144 : (⟨S_, .i32⟩ : BufTy).Contents (Elt F) → (⟨S262144, .i32⟩ : BufTy).Contents (Elt F)),
    StableHlo.binary main_v6 main_v131 main_v132 (addi : (⟨S262144, .i32⟩ : BufTy).Contents (Elt F) → (⟨S262144, .i32⟩ : BufTy).Contents (Elt F) → (⟨S262144, .i32⟩ : BufTy).Contents (Elt F)),
    StableHlo.ternary main_v130 main_v132 main_v6 main_v133 (select : (⟨S262144, .i1⟩ : BufTy).Contents (Elt F) → (⟨S262144, .i32⟩ : BufTy).Contents (Elt F) → (⟨S262144, .i32⟩ : BufTy).Contents (Elt F) → (⟨S262144, .i32⟩ : BufTy).Contents (Elt F)),
    StableHlo.unary main_v133 main_v134 (broadcastInDim S262144x1 ![0] bcast_S262144_S262144x1_0 : (⟨S262144, .i32⟩ : BufTy).Contents (Elt F) → (⟨S262144x1, .i32⟩ : BufTy).Contents (Elt F)),
    StableHlo.ternary main_v128 main_v134 main_v127 main_v135 ((fun x i u => Host.scatterAdd scatter_S512x4_S262144x1_S262144x4_1_0_0_1 x i u) : (⟨S512x4, .f32⟩ : BufTy).Contents (Elt F) → (⟨S262144x1, .i32⟩ : BufTy).Contents (Elt F) → (⟨S262144x4, .f32⟩ : BufTy).Contents (Elt F) → (⟨S512x4, .f32⟩ : BufTy).Contents (Elt F)),
    StableHlo.nullary main_c_32 (constantI S_ 32 0#32),
    StableHlo.unary main_c_32 main_v136 (broadcastInDim S262144 ![] bcast_S_S262144 : (⟨S_, .i32⟩ : BufTy).Contents (Elt F) → (⟨S262144, .i32⟩ : BufTy).Contents (Elt F)),
    StableHlo.binary main_v6 main_v136 main_v137 (cmpi .slt : (⟨S262144, .i32⟩ : BufTy).Contents (Elt F) → (⟨S262144, .i32⟩ : BufTy).Contents (Elt F) → (⟨S262144, .i1⟩ : BufTy).Contents (Elt F)),
    StableHlo.nullary main_c_33 (constantI S_ 32 512#32),
    StableHlo.unary main_c_33 main_v138 (broadcastInDim S262144 ![] bcast_S_S262144 : (⟨S_, .i32⟩ : BufTy).Contents (Elt F) → (⟨S262144, .i32⟩ : BufTy).Contents (Elt F)),
    StableHlo.binary main_v6 main_v138 main_v139 (addi : (⟨S262144, .i32⟩ : BufTy).Contents (Elt F) → (⟨S262144, .i32⟩ : BufTy).Contents (Elt F) → (⟨S262144, .i32⟩ : BufTy).Contents (Elt F)),
    StableHlo.ternary main_v137 main_v139 main_v6 main_v140 (select : (⟨S262144, .i1⟩ : BufTy).Contents (Elt F) → (⟨S262144, .i32⟩ : BufTy).Contents (Elt F) → (⟨S262144, .i32⟩ : BufTy).Contents (Elt F) → (⟨S262144, .i32⟩ : BufTy).Contents (Elt F)),
    StableHlo.unary main_v140 main_v141 (broadcastInDim S262144x1 ![0] bcast_S262144_S262144x1_0 : (⟨S262144, .i32⟩ : BufTy).Contents (Elt F) → (⟨S262144x1, .i32⟩ : BufTy).Contents (Elt F)),
    StableHlo.binary main_v135 main_v141 main_v142 ((fun x i => Host.gather gather_S512x4_S262144x1_S262144x4_1_0_n_n_0_1_14 x i) : (⟨S512x4, .f32⟩ : BufTy).Contents (Elt F) → (⟨S262144x1, .i32⟩ : BufTy).Contents (Elt F) → (⟨S262144x4, .f32⟩ : BufTy).Contents (Elt F)),
    StableHlo.nullary main_cst_34 (constant S_ .f32 0x24E69595#32) ]

set_option maxRecDepth 16384 in
set_option maxHeartbeats 40000000 in
/-- The window's program is that line of operations. -/
theorem part2_eq (c : Dev nD) : main_part2 (F := F) c = seq ops2 := by
  simp only [main_part2, fn_leaky_relu.body, fn_where.body, fn_where_0.body, seq, bind_assoc, pure_bind]
  try rfl

/-- Every operation reads and writes TensorCore buffers only. -/
theorem ops2_sub : (ops2 : List (HloOp τ sig (Elt F))).Forall fun op => op.bufs ⊆ tcRefs τ sig :=
  ⟨unary_bufs_sub .., binary_bufs_sub .., reshape_bufs_sub .., nullary_bufs_sub .., unary_bufs_sub .., binary_bufs_sub ..,
    nullary_bufs_sub .., unary_bufs_sub .., binary_bufs_sub .., ternary_bufs_sub .., unary_bufs_sub .., binary_bufs_sub ..,
    nullary_bufs_sub .., unary_bufs_sub .., binary_bufs_sub .., nullary_bufs_sub .., unary_bufs_sub .., binary_bufs_sub ..,
    ternary_bufs_sub .., unary_bufs_sub .., binary_bufs_sub .., unary_bufs_sub .., unary_bufs_sub .., binary_bufs_sub ..,
    nullary_bufs_sub .., binary_bufs_sub .., unary_bufs_sub .., unary_bufs_sub .., binary_bufs_sub .., nullary_bufs_sub ..,
    binary_bufs_sub .., binary_bufs_sub .., binary_bufs_sub .., nullary_bufs_sub .., nullary_bufs_sub .., unary_bufs_sub ..,
    binary_bufs_sub .., unary_bufs_sub .., unary_bufs_sub .., binary_bufs_sub .., ternary_bufs_sub .., unary_bufs_sub ..,
    unary_bufs_sub .., nullary_bufs_sub .., unary_bufs_sub .., unary_bufs_sub .., unary_bufs_sub .., ternary_bufs_sub ..,
    nullary_bufs_sub .., unary_bufs_sub .., nullary_bufs_sub .., unary_bufs_sub .., binary_bufs_sub .., nullary_bufs_sub ..,
    unary_bufs_sub .., binary_bufs_sub .., ternary_bufs_sub .., unary_bufs_sub .., ternary_bufs_sub .., nullary_bufs_sub ..,
    unary_bufs_sub .., binary_bufs_sub .., nullary_bufs_sub .., unary_bufs_sub .., binary_bufs_sub .., ternary_bufs_sub ..,
    unary_bufs_sub .., binary_bufs_sub .., nullary_bufs_sub ..⟩

set_option maxRecDepth 16384 in
/-- No operation of the window allocates a buffer. -/
theorem fresh2 : ∀ op ∈ (ops2 : List (HloOp τ sig (Elt F))), op.fresh = ∅ := by
  intro _ h; (repeat (cases h with | head => rfl | tail _ h => ?_)); exact nomatch h

/-- The buffers the window's operations write, one each. -/
abbrev written2 : List (Ref sig .tc) :=
  [main_v97, main_v98, main_v99, main_c_21, main_v100, main_v101, main_c_22, main_v102,
    main_v103, main_v104, main_v105, main_v106, main_c_23, main_v107, main_v108, main_c_24,
    main_v109, main_v110, main_v111, main_v112, main_v113, main_v114, main_v115, main_v116,
    main_cst_25, main_v117, main_v118, main_v119, main_v120, main_cst_26, main_v121, main_v122,
    main_v123, main_cst_27, (main_call2.cst).ref, (main_call2.v0).ref, (main_call2.v1).ref, (main_call2.v2).ref, (main_call2.v3).ref, (main_call2.v4).ref,
    (main_call2.call0.v0).ref, main_v125, main_v126, main_cst_28, (main_call3.v0).ref, (main_call3.v1).ref, (main_call3.v2).ref, (main_call3.v3).ref,
    main_cst_29, main_v128, main_c_30, main_v129, main_v130, main_c_31, main_v131, main_v132,
    main_v133, main_v134, main_v135, main_c_32, main_v136, main_v137, main_c_33, main_v138,
    main_v139, main_v140, main_v141, main_v142, main_cst_34]

set_option maxRecDepth 16384 in
theorem ops2_writes : (ops2 : List (HloOp τ sig (Elt F))).Forall fun op => op.writes ⊆ (written2.map (Proc.devRef (τ := τ) .tc)).toFinset := by
  simp only [List.Forall]
  exact ⟨by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide)⟩

/-- A buffer the window does not write keeps its contents through it. -/
theorem keep2 (V : Valuation τ sig (Elt F)) (r : Ref sig .tc) (h : r ∉ written2) :
    after ops2 V (Proc.devRef .tc r) = V (Proc.devRef .tc r) :=
  after_of_writes_sub ops2 V ops2_writes h

end Cert.ReferenceIdeal.HostRun

end
-- ==== Proof.RefPart3.lean ====
/-
  Statements 181 … 240 of the reference's host program, as the list of their operations in order:
  the window's program is the run of that list; every operation names only TensorCore buffers; and each operation writes
  exactly one buffer, all of them intermediate values, so a buffer outside the list of written ones — every argument
  array — keeps its contents.
-/
import proofs.«169155_g70909910057105_cont_sun_m_1383_19_alg».proof.Proof.Gen.ReferenceIdeal
import Idealize.ShloMosaic.Lib.StableHlo.Run

noncomputable section

namespace Cert.ReferenceIdeal.HostRun

open Cert.ReferenceIdeal Cert.ReferenceIdeal.Gen Idealize.ShloMosaic Idealize.ShloMosaic.TcCoe Idealize.SL.Sem Idealize.ShloMosaic.StableHlo

variable {F : FTy → Type} [FloatOps F]

/-- The operations of statements 181 … 240. -/
abbrev ops3 : List (HloOp τ sig (Elt F)) :=
  [ StableHlo.unary main_cst_34 main_v143 (broadcastInDim S262144x4 ![] bcast_S_S262144x4 : (⟨S_, .f32⟩ : BufTy).Contents (Elt F) → (⟨S262144x4, .f32⟩ : BufTy).Contents (Elt F)),
    StableHlo.binary main_v142 main_v143 main_v144 (addf : (⟨S262144x4, .f32⟩ : BufTy).Contents (Elt F) → (⟨S262144x4, .f32⟩ : BufTy).Contents (Elt F) → (⟨S262144x4, .f32⟩ : BufTy).Contents (Elt F)),
    StableHlo.binary main_v127 main_v144 main_v145 (Host.divf : (⟨S262144x4, .f32⟩ : BufTy).Contents (Elt F) → (⟨S262144x4, .f32⟩ : BufTy).Contents (Elt F) → (⟨S262144x4, .f32⟩ : BufTy).Contents (Elt F)),
    StableHlo.unary main_v145 main_v146 (broadcastInDim S262144x4x1 ![0, 1] bcast_S262144x4_S262144x4x1_0_1 : (⟨S262144x4, .f32⟩ : BufTy).Contents (Elt F) → (⟨S262144x4x1, .f32⟩ : BufTy).Contents (Elt F)),
    StableHlo.unary main_v146 main_v147 (broadcastInDim S262144x4x32 ![0, 1, 2] bcast_S262144x4x1_S262144x4x32_0_1_2 : (⟨S262144x4x1, .f32⟩ : BufTy).Contents (Elt F) → (⟨S262144x4x32, .f32⟩ : BufTy).Contents (Elt F)),
    StableHlo.binary main_v106 main_v147 main_v148 (mulf : (⟨S262144x4x32, .f32⟩ : BufTy).Contents (Elt F) → (⟨S262144x4x32, .f32⟩ : BufTy).Contents (Elt F) → (⟨S262144x4x32, .f32⟩ : BufTy).Contents (Elt F)),
    StableHlo.nullary main_cst_35 (constant S_ .f32 0x00000000#32),
    StableHlo.unary main_cst_35 main_v149 (broadcastInDim S512x4x32 ![] bcast_S_S512x4x32 : (⟨S_, .f32⟩ : BufTy).Contents (Elt F) → (⟨S512x4x32, .f32⟩ : BufTy).Contents (Elt F)),
    StableHlo.nullary main_c_36 (constantI S_ 32 0#32),
    StableHlo.unary main_c_36 main_v150 (broadcastInDim S262144 ![] bcast_S_S262144 : (⟨S_, .i32⟩ : BufTy).Contents (Elt F) → (⟨S262144, .i32⟩ : BufTy).Contents (Elt F)),
    StableHlo.binary main_v6 main_v150 main_v151 (cmpi .slt : (⟨S262144, .i32⟩ : BufTy).Contents (Elt F) → (⟨S262144, .i32⟩ : BufTy).Contents (Elt F) → (⟨S262144, .i1⟩ : BufTy).Contents (Elt F)),
    StableHlo.nullary main_c_37 (constantI S_ 32 512#32),
    StableHlo.unary main_c_37 main_v152 (broadcastInDim S262144 ![] bcast_S_S262144 : (⟨S_, .i32⟩ : BufTy).Contents (Elt F) → (⟨S262144, .i32⟩ : BufTy).Contents (Elt F)),
    StableHlo.binary main_v6 main_v152 main_v153 (addi : (⟨S262144, .i32⟩ : BufTy).Contents (Elt F) → (⟨S262144, .i32⟩ : BufTy).Contents (Elt F) → (⟨S262144, .i32⟩ : BufTy).Contents (Elt F)),
    StableHlo.ternary main_v151 main_v153 main_v6 main_v154 (select : (⟨S262144, .i1⟩ : BufTy).Contents (Elt F) → (⟨S262144, .i32⟩ : BufTy).Contents (Elt F) → (⟨S262144, .i32⟩ : BufTy).Contents (Elt F) → (⟨S262144, .i32⟩ : BufTy).Contents (Elt F)),
    StableHlo.unary main_v154 main_v155 (broadcastInDim S262144x1 ![0] bcast_S262144_S262144x1_0 : (⟨S262144, .i32⟩ : BufTy).Contents (Elt F) → (⟨S262144x1, .i32⟩ : BufTy).Contents (Elt F)),
    StableHlo.ternary main_v149 main_v155 main_v148 main_v156 ((fun x i u => Host.scatterAdd scatter_S512x4x32_S262144x1_S262144x4x32_12_0_0_1 x i u) : (⟨S512x4x32, .f32⟩ : BufTy).Contents (Elt F) → (⟨S262144x1, .i32⟩ : BufTy).Contents (Elt F) → (⟨S262144x4x32, .f32⟩ : BufTy).Contents (Elt F) → (⟨S512x4x32, .f32⟩ : BufTy).Contents (Elt F)),
    StableHlo.reshape main_v156 main_v157 rfl shapeCasts_S512x4x32_S512x128,
    StableHlo.unary main_v157 main_v158 (broadcastInDim S512x1x128 ![0, 2] bcast_S512x128_S512x1x128_0_2 : (⟨S512x128, .f32⟩ : BufTy).Contents (Elt F) → (⟨S512x1x128, .f32⟩ : BufTy).Contents (Elt F)),
    StableHlo.binary main_v94 main_v158 main_v159 ((fun a b => concatenate S512x2x128 1 [⟨S512x1x128, a⟩, ⟨S512x1x128, b⟩] concatenates_S512x1x128_S512x1x128_S512x2x128_d1) : (⟨S512x1x128, .f32⟩ : BufTy).Contents (Elt F) → (⟨S512x1x128, .f32⟩ : BufTy).Contents (Elt F) → (⟨S512x2x128, .f32⟩ : BufTy).Contents (Elt F)),
    StableHlo.nullary main_c_38 (constantI S_ 32 0#32),
    StableHlo.unary main_c_38 main_v160 (broadcastInDim S262144 ![] bcast_S_S262144 : (⟨S_, .i32⟩ : BufTy).Contents (Elt F) → (⟨S262144, .i32⟩ : BufTy).Contents (Elt F)),
    StableHlo.binary main_v2 main_v160 main_v161 (cmpi .slt : (⟨S262144, .i32⟩ : BufTy).Contents (Elt F) → (⟨S262144, .i32⟩ : BufTy).Contents (Elt F) → (⟨S262144, .i1⟩ : BufTy).Contents (Elt F)),
    StableHlo.nullary main_c_39 (constantI S_ 32 512#32),
    StableHlo.unary main_c_39 main_v162 (broadcastInDim S262144 ![] bcast_S_S262144 : (⟨S_, .i32⟩ : BufTy).Contents (Elt F) → (⟨S262144, .i32⟩ : BufTy).Contents (Elt F)),
    StableHlo.binary main_v2 main_v162 main_v163 (addi : (⟨S262144, .i32⟩ : BufTy).Contents (Elt F) → (⟨S262144, .i32⟩ : BufTy).Contents (Elt F) → (⟨S262144, .i32⟩ : BufTy).Contents (Elt F)),
    StableHlo.ternary main_v161 main_v163 main_v2 main_v164 (select : (⟨S262144, .i1⟩ : BufTy).Contents (Elt F) → (⟨S262144, .i32⟩ : BufTy).Contents (Elt F) → (⟨S262144, .i32⟩ : BufTy).Contents (Elt F) → (⟨S262144, .i32⟩ : BufTy).Contents (Elt F)),
    StableHlo.nullary main_c_40 (constantI S_ 32 0#32),
    StableHlo.unary main_c_40 main_v165 (broadcastInDim S262144 ![] bcast_S_S262144 : (⟨S_, .i32⟩ : BufTy).Contents (Elt F) → (⟨S262144, .i32⟩ : BufTy).Contents (Elt F)),
    StableHlo.binary main_v6 main_v165 main_v166 (cmpi .slt : (⟨S262144, .i32⟩ : BufTy).Contents (Elt F) → (⟨S262144, .i32⟩ : BufTy).Contents (Elt F) → (⟨S262144, .i1⟩ : BufTy).Contents (Elt F)),
    StableHlo.nullary main_c_41 (constantI S_ 32 512#32),
    StableHlo.unary main_c_41 main_v167 (broadcastInDim S262144 ![] bcast_S_S262144 : (⟨S_, .i32⟩ : BufTy).Contents (Elt F) → (⟨S262144, .i32⟩ : BufTy).Contents (Elt F)),
    StableHlo.binary main_v6 main_v167 main_v168 (addi : (⟨S262144, .i32⟩ : BufTy).Contents (Elt F) → (⟨S262144, .i32⟩ : BufTy).Contents (Elt F) → (⟨S262144, .i32⟩ : BufTy).Contents (Elt F)),
    StableHlo.ternary main_v166 main_v168 main_v6 main_v169 (select : (⟨S262144, .i1⟩ : BufTy).Contents (Elt F) → (⟨S262144, .i32⟩ : BufTy).Contents (Elt F) → (⟨S262144, .i32⟩ : BufTy).Contents (Elt F) → (⟨S262144, .i32⟩ : BufTy).Contents (Elt F)),
    StableHlo.unary main_v164 main_v170 (broadcastInDim S262144x1 ![0] bcast_S262144_S262144x1_0 : (⟨S262144, .i32⟩ : BufTy).Contents (Elt F) → (⟨S262144x1, .i32⟩ : BufTy).Contents (Elt F)),
    StableHlo.unary main_v169 main_v171 (broadcastInDim S262144x1 ![0] bcast_S262144_S262144x1_0 : (⟨S262144, .i32⟩ : BufTy).Contents (Elt F) → (⟨S262144x1, .i32⟩ : BufTy).Contents (Elt F)),
    StableHlo.binary main_v170 main_v171 main_v172 ((fun a b => concatenate S262144x2 1 [⟨S262144x1, a⟩, ⟨S262144x1, b⟩] concatenates_S262144x1_S262144x1_S262144x2_d1) : (⟨S262144x1, .i32⟩ : BufTy).Contents (Elt F) → (⟨S262144x1, .i32⟩ : BufTy).Contents (Elt F) → (⟨S262144x2, .i32⟩ : BufTy).Contents (Elt F)),
    StableHlo.binary main_arg2 main_v172 main_v173 ((fun x i => Host.gather gather_S512x512x128_S262144x2_S262144x128_1_01_n_n_01_1_11128 x i) : (⟨S512x512x128, .f32⟩ : BufTy).Contents (Elt F) → (⟨S262144x2, .i32⟩ : BufTy).Contents (Elt F) → (⟨S262144x128, .f32⟩ : BufTy).Contents (Elt F)),
    StableHlo.unary main_arg9 main_v174 ((transpose S128x128 [1, 0] · transposes_S128x128_S128x128_1_0) : (⟨S128x128, .f32⟩ : BufTy).Contents (Elt F) → (⟨S128x128, .f32⟩ : BufTy).Contents (Elt F)),
    StableHlo.binary main_v173 main_v174 main_v175 ((fun l r => Host.dotGeneral dot_S262144x128_S128x128_S262144x128_1_0_0_1_n_n none l r) : (⟨S262144x128, .f32⟩ : BufTy).Contents (Elt F) → (⟨S128x128, .f32⟩ : BufTy).Contents (Elt F) → (⟨S262144x128, .f32⟩ : BufTy).Contents (Elt F)),
    StableHlo.reshape main_v175 main_v176 rfl shapeCasts_S262144x128_S262144x4x32,
    StableHlo.nullary main_cst_42 (constant S_ .f32 0x00000000#32),
    StableHlo.binary main_v176 main_cst_42 main_v177 ((fun x v => Host.reduceAdd x v reducesTo_S262144x4x32_S262144x4_d2 h_S_) : (⟨S262144x4x32, .f32⟩ : BufTy).Contents (Elt F) → (⟨S_, .f32⟩ : BufTy).Contents (Elt F) → (⟨S262144x4, .f32⟩ : BufTy).Contents (Elt F)),
    StableHlo.unary main_arg12 main_v178 (broadcastInDim S1x4 ![1] bcast_S4_S1x4_1 : (⟨S4, .f32⟩ : BufTy).Contents (Elt F) → (⟨S1x4, .f32⟩ : BufTy).Contents (Elt F)),
    StableHlo.unary main_v178 main_v179 (broadcastInDim S262144x4 ![0, 1] bcast_S1x4_S262144x4_0_1 : (⟨S1x4, .f32⟩ : BufTy).Contents (Elt F) → (⟨S262144x4, .f32⟩ : BufTy).Contents (Elt F)),
    StableHlo.binary main_v177 main_v179 main_v180 (mulf : (⟨S262144x4, .f32⟩ : BufTy).Contents (Elt F) → (⟨S262144x4, .f32⟩ : BufTy).Contents (Elt F) → (⟨S262144x4, .f32⟩ : BufTy).Contents (Elt F)),
    StableHlo.unary main_v159 main_v181 ((extractStridedSlice S512x1x128 ![0, 0, 0] · slices_S512x2x128_S512x1x128_0_0_0) : (⟨S512x2x128, .f32⟩ : BufTy).Contents (Elt F) → (⟨S512x1x128, .f32⟩ : BufTy).Contents (Elt F)),
    StableHlo.reshape main_v181 main_v182 rfl shapeCasts_S512x1x128_S512x128,
    StableHlo.unary main_arg8 main_v183 ((transpose S128x128 [1, 0] · transposes_S128x128_S128x128_1_0) : (⟨S128x128, .f32⟩ : BufTy).Contents (Elt F) → (⟨S128x128, .f32⟩ : BufTy).Contents (Elt F)),
    StableHlo.binary main_v182 main_v183 main_v184 ((fun l r => Host.dotGeneral dot_S512x128_S128x128_S512x128_1_0_0_1_n_n none l r) : (⟨S512x128, .f32⟩ : BufTy).Contents (Elt F) → (⟨S128x128, .f32⟩ : BufTy).Contents (Elt F) → (⟨S512x128, .f32⟩ : BufTy).Contents (Elt F)),
    StableHlo.reshape main_v184 main_v185 rfl shapeCasts_S512x128_S512x4x32,
    StableHlo.nullary main_c_43 (constantI S_ 32 0#32),
    StableHlo.unary main_c_43 main_v186 (broadcastInDim S262144 ![] bcast_S_S262144 : (⟨S_, .i32⟩ : BufTy).Contents (Elt F) → (⟨S262144, .i32⟩ : BufTy).Contents (Elt F)),
    StableHlo.binary main_v2 main_v186 main_v187 (cmpi .slt : (⟨S262144, .i32⟩ : BufTy).Contents (Elt F) → (⟨S262144, .i32⟩ : BufTy).Contents (Elt F) → (⟨S262144, .i1⟩ : BufTy).Contents (Elt F)),
    StableHlo.nullary main_c_44 (constantI S_ 32 512#32),
    StableHlo.unary main_c_44 main_v188 (broadcastInDim S262144 ![] bcast_S_S262144 : (⟨S_, .i32⟩ : BufTy).Contents (Elt F) → (⟨S262144, .i32⟩ : BufTy).Contents (Elt F)),
    StableHlo.binary main_v2 main_v188 main_v189 (addi : (⟨S262144, .i32⟩ : BufTy).Contents (Elt F) → (⟨S262144, .i32⟩ : BufTy).Contents (Elt F) → (⟨S262144, .i32⟩ : BufTy).Contents (Elt F)),
    StableHlo.ternary main_v187 main_v189 main_v2 main_v190 (select : (⟨S262144, .i1⟩ : BufTy).Contents (Elt F) → (⟨S262144, .i32⟩ : BufTy).Contents (Elt F) → (⟨S262144, .i32⟩ : BufTy).Contents (Elt F) → (⟨S262144, .i32⟩ : BufTy).Contents (Elt F)),
    StableHlo.unary main_v190 main_v191 (broadcastInDim S262144x1 ![0] bcast_S262144_S262144x1_0 : (⟨S262144, .i32⟩ : BufTy).Contents (Elt F) → (⟨S262144x1, .i32⟩ : BufTy).Contents (Elt F)),
    StableHlo.binary main_v185 main_v191 main_v192 ((fun x i => Host.gather gather_S512x4x32_S262144x1_S262144x4x32_12_0_n_n_0_1_1432 x i) : (⟨S512x4x32, .f32⟩ : BufTy).Contents (Elt F) → (⟨S262144x1, .i32⟩ : BufTy).Contents (Elt F) → (⟨S262144x4x32, .f32⟩ : BufTy).Contents (Elt F)) ]

set_option maxRecDepth 16384 in
set_option maxHeartbeats 40000000 in
/-- The window's program is that line of operations. -/
theorem part3_eq (c : Dev nD) : main_part3 (F := F) c = seq ops3 := by
  rfl

/-- Every operation reads and writes TensorCore buffers only. -/
theorem ops3_sub : (ops3 : List (HloOp τ sig (Elt F))).Forall fun op => op.bufs ⊆ tcRefs τ sig :=
  ⟨unary_bufs_sub .., binary_bufs_sub .., binary_bufs_sub .., unary_bufs_sub .., unary_bufs_sub .., binary_bufs_sub ..,
    nullary_bufs_sub .., unary_bufs_sub .., nullary_bufs_sub .., unary_bufs_sub .., binary_bufs_sub .., nullary_bufs_sub ..,
    unary_bufs_sub .., binary_bufs_sub .., ternary_bufs_sub .., unary_bufs_sub .., ternary_bufs_sub .., reshape_bufs_sub ..,
    unary_bufs_sub .., binary_bufs_sub .., nullary_bufs_sub .., unary_bufs_sub .., binary_bufs_sub .., nullary_bufs_sub ..,
    unary_bufs_sub .., binary_bufs_sub .., ternary_bufs_sub .., nullary_bufs_sub .., unary_bufs_sub .., binary_bufs_sub ..,
    nullary_bufs_sub .., unary_bufs_sub .., binary_bufs_sub .., ternary_bufs_sub .., unary_bufs_sub .., unary_bufs_sub ..,
    binary_bufs_sub .., binary_bufs_sub .., unary_bufs_sub .., binary_bufs_sub .., reshape_bufs_sub .., nullary_bufs_sub ..,
    binary_bufs_sub .., unary_bufs_sub .., unary_bufs_sub .., binary_bufs_sub .., unary_bufs_sub .., reshape_bufs_sub ..,
    unary_bufs_sub .., binary_bufs_sub .., reshape_bufs_sub .., nullary_bufs_sub .., unary_bufs_sub .., binary_bufs_sub ..,
    nullary_bufs_sub .., unary_bufs_sub .., binary_bufs_sub .., ternary_bufs_sub .., unary_bufs_sub .., binary_bufs_sub ..⟩

set_option maxRecDepth 16384 in
/-- No operation of the window allocates a buffer. -/
theorem fresh3 : ∀ op ∈ (ops3 : List (HloOp τ sig (Elt F))), op.fresh = ∅ := by
  intro _ h; (repeat (cases h with | head => rfl | tail _ h => ?_)); exact nomatch h

/-- The buffers the window's operations write, one each. -/
abbrev written3 : List (Ref sig .tc) :=
  [main_v143, main_v144, main_v145, main_v146, main_v147, main_v148, main_cst_35, main_v149,
    main_c_36, main_v150, main_v151, main_c_37, main_v152, main_v153, main_v154, main_v155,
    main_v156, main_v157, main_v158, main_v159, main_c_38, main_v160, main_v161, main_c_39,
    main_v162, main_v163, main_v164, main_c_40, main_v165, main_v166, main_c_41, main_v167,
    main_v168, main_v169, main_v170, main_v171, main_v172, main_v173, main_v174, main_v175,
    main_v176, main_cst_42, main_v177, main_v178, main_v179, main_v180, main_v181, main_v182,
    main_v183, main_v184, main_v185, main_c_43, main_v186, main_v187, main_c_44, main_v188,
    main_v189, main_v190, main_v191, main_v192]

set_option maxRecDepth 16384 in
theorem ops3_writes : (ops3 : List (HloOp τ sig (Elt F))).Forall fun op => op.writes ⊆ (written3.map (Proc.devRef (τ := τ) .tc)).toFinset := by
  simp only [List.Forall]
  exact ⟨by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide)⟩

/-- A buffer the window does not write keeps its contents through it. -/
theorem keep3 (V : Valuation τ sig (Elt F)) (r : Ref sig .tc) (h : r ∉ written3) :
    after ops3 V (Proc.devRef .tc r) = V (Proc.devRef .tc r) :=
  after_of_writes_sub ops3 V ops3_writes h

end Cert.ReferenceIdeal.HostRun

end
-- ==== Proof.RefPart4.lean ====
/-
  Statements 241 … 300 of the reference's host program, as the list of their operations in order (where the program calls leaky_relu or a masked select, the callee's own operations stand at the call, over the buffers of that call):
  the window's program is the run of that list; every operation names only TensorCore buffers; and each operation writes
  exactly one buffer, all of them intermediate values, so a buffer outside the list of written ones — every argument
  array — keeps its contents.
-/
import proofs.«169155_g70909910057105_cont_sun_m_1383_19_alg».proof.Proof.Gen.ReferenceIdeal
import Idealize.ShloMosaic.Lib.StableHlo.Run

noncomputable section

namespace Cert.ReferenceIdeal.HostRun

open Cert.ReferenceIdeal Cert.ReferenceIdeal.Gen Idealize.ShloMosaic Idealize.ShloMosaic.TcCoe Idealize.SL.Sem Idealize.ShloMosaic.StableHlo

variable {F : FTy → Type} [FloatOps F]

/-- The operations of statements 241 … 300. -/
abbrev ops4 : List (HloOp τ sig (Elt F)) :=
  [ StableHlo.nullary main_c_45 (constantI S_ 32 0#32),
    StableHlo.unary main_c_45 main_v193 (broadcastInDim S262144 ![] bcast_S_S262144 : (⟨S_, .i32⟩ : BufTy).Contents (Elt F) → (⟨S262144, .i32⟩ : BufTy).Contents (Elt F)),
    StableHlo.binary main_v6 main_v193 main_v194 (cmpi .slt : (⟨S262144, .i32⟩ : BufTy).Contents (Elt F) → (⟨S262144, .i32⟩ : BufTy).Contents (Elt F) → (⟨S262144, .i1⟩ : BufTy).Contents (Elt F)),
    StableHlo.nullary main_c_46 (constantI S_ 32 512#32),
    StableHlo.unary main_c_46 main_v195 (broadcastInDim S262144 ![] bcast_S_S262144 : (⟨S_, .i32⟩ : BufTy).Contents (Elt F) → (⟨S262144, .i32⟩ : BufTy).Contents (Elt F)),
    StableHlo.binary main_v6 main_v195 main_v196 (addi : (⟨S262144, .i32⟩ : BufTy).Contents (Elt F) → (⟨S262144, .i32⟩ : BufTy).Contents (Elt F) → (⟨S262144, .i32⟩ : BufTy).Contents (Elt F)),
    StableHlo.ternary main_v194 main_v196 main_v6 main_v197 (select : (⟨S262144, .i1⟩ : BufTy).Contents (Elt F) → (⟨S262144, .i32⟩ : BufTy).Contents (Elt F) → (⟨S262144, .i32⟩ : BufTy).Contents (Elt F) → (⟨S262144, .i32⟩ : BufTy).Contents (Elt F)),
    StableHlo.unary main_v197 main_v198 (broadcastInDim S262144x1 ![0] bcast_S262144_S262144x1_0 : (⟨S262144, .i32⟩ : BufTy).Contents (Elt F) → (⟨S262144x1, .i32⟩ : BufTy).Contents (Elt F)),
    StableHlo.binary main_v185 main_v198 main_v199 ((fun x i => Host.gather gather_S512x4x32_S262144x1_S262144x4x32_12_0_n_n_0_1_1432 x i) : (⟨S512x4x32, .f32⟩ : BufTy).Contents (Elt F) → (⟨S262144x1, .i32⟩ : BufTy).Contents (Elt F) → (⟨S262144x4x32, .f32⟩ : BufTy).Contents (Elt F)),
    StableHlo.unary main_arg10 main_v200 (broadcastInDim S1x4x32 ![1, 2] bcast_S4x32_S1x4x32_1_2 : (⟨S4x32, .f32⟩ : BufTy).Contents (Elt F) → (⟨S1x4x32, .f32⟩ : BufTy).Contents (Elt F)),
    StableHlo.unary main_v200 main_v201 (broadcastInDim S262144x4x32 ![0, 1, 2] bcast_S1x4x32_S262144x4x32_0_1_2 : (⟨S1x4x32, .f32⟩ : BufTy).Contents (Elt F) → (⟨S262144x4x32, .f32⟩ : BufTy).Contents (Elt F)),
    StableHlo.binary main_v192 main_v201 main_v202 (mulf : (⟨S262144x4x32, .f32⟩ : BufTy).Contents (Elt F) → (⟨S262144x4x32, .f32⟩ : BufTy).Contents (Elt F) → (⟨S262144x4x32, .f32⟩ : BufTy).Contents (Elt F)),
    StableHlo.nullary main_cst_47 (constant S_ .f32 0x00000000#32),
    StableHlo.binary main_v202 main_cst_47 main_v203 ((fun x v => Host.reduceAdd x v reducesTo_S262144x4x32_S262144x4_d2 h_S_) : (⟨S262144x4x32, .f32⟩ : BufTy).Contents (Elt F) → (⟨S_, .f32⟩ : BufTy).Contents (Elt F) → (⟨S262144x4, .f32⟩ : BufTy).Contents (Elt F)),
    StableHlo.unary main_arg11 main_v204 (broadcastInDim S1x4x32 ![1, 2] bcast_S4x32_S1x4x32_1_2 : (⟨S4x32, .f32⟩ : BufTy).Contents (Elt F) → (⟨S1x4x32, .f32⟩ : BufTy).Contents (Elt F)),
    StableHlo.unary main_v204 main_v205 (broadcastInDim S262144x4x32 ![0, 1, 2] bcast_S1x4x32_S262144x4x32_0_1_2 : (⟨S1x4x32, .f32⟩ : BufTy).Contents (Elt F) → (⟨S262144x4x32, .f32⟩ : BufTy).Contents (Elt F)),
    StableHlo.binary main_v199 main_v205 main_v206 (mulf : (⟨S262144x4x32, .f32⟩ : BufTy).Contents (Elt F) → (⟨S262144x4x32, .f32⟩ : BufTy).Contents (Elt F) → (⟨S262144x4x32, .f32⟩ : BufTy).Contents (Elt F)),
    StableHlo.nullary main_cst_48 (constant S_ .f32 0x00000000#32),
    StableHlo.binary main_v206 main_cst_48 main_v207 ((fun x v => Host.reduceAdd x v reducesTo_S262144x4x32_S262144x4_d2 h_S_) : (⟨S262144x4x32, .f32⟩ : BufTy).Contents (Elt F) → (⟨S_, .f32⟩ : BufTy).Contents (Elt F) → (⟨S262144x4, .f32⟩ : BufTy).Contents (Elt F)),
    StableHlo.binary main_v203 main_v207 main_v208 (addf : (⟨S262144x4, .f32⟩ : BufTy).Contents (Elt F) → (⟨S262144x4, .f32⟩ : BufTy).Contents (Elt F) → (⟨S262144x4, .f32⟩ : BufTy).Contents (Elt F)),
    StableHlo.binary main_v208 main_v180 main_v209 (addf : (⟨S262144x4, .f32⟩ : BufTy).Contents (Elt F) → (⟨S262144x4, .f32⟩ : BufTy).Contents (Elt F) → (⟨S262144x4, .f32⟩ : BufTy).Contents (Elt F)),
    StableHlo.nullary main_cst_49 (constant S_ .f32 0x3E4CCCCD#32),
    StableHlo.TRef.nullary main_call4.cst (constant S_ .f32 0x00000000#32),
    StableHlo.TRef.unary main_call4.cst main_call4.v0 (broadcastInDim S262144x4 ![] bcast_S_S262144x4),
    StableHlo.TRef.binary ((.of main_v209) : StableHlo.TRef sig ⟨S262144x4, .f32⟩) main_call4.v0 main_call4.v1 (cmpf .oge),
    StableHlo.TRef.unary ((.of main_cst_49) : StableHlo.TRef sig ⟨S_, .f32⟩) main_call4.v2 id,
    StableHlo.TRef.unary main_call4.v2 main_call4.v3 (broadcastInDim S262144x4 ![] bcast_S_S262144x4),
    StableHlo.TRef.binary main_call4.v3 ((.of main_v209) : StableHlo.TRef sig ⟨S262144x4, .f32⟩) main_call4.v4 mulf,
    StableHlo.TRef.ternary main_call4.v1 ((.of main_v209) : StableHlo.TRef sig ⟨S262144x4, .f32⟩) main_call4.v4 main_call4.call0.v0 select,
    StableHlo.unary main_v9 main_v211 (broadcastInDim S262144x1 ![0] bcast_S262144_S262144x1_0 : (⟨S262144, .i1⟩ : BufTy).Contents (Elt F) → (⟨S262144x1, .i1⟩ : BufTy).Contents (Elt F)),
    StableHlo.unary main_v210 main_v212 (Host.exp : (⟨S262144x4, .f32⟩ : BufTy).Contents (Elt F) → (⟨S262144x4, .f32⟩ : BufTy).Contents (Elt F)),
    StableHlo.nullary main_cst_50 (constant S_ .f32 0x00000000#32),
    StableHlo.TRef.unary ((.of main_cst_50) : StableHlo.TRef sig ⟨S_, .f32⟩) main_call5.v0 id,
    StableHlo.TRef.unary ((.of main_v211) : StableHlo.TRef sig ⟨S262144x1, .i1⟩) main_call5.v1 (broadcastInDim S262144x4 ![0, 1] bcast_S262144x1_S262144x4_0_1),
    StableHlo.TRef.unary main_call5.v0 main_call5.v2 (broadcastInDim S262144x4 ![] bcast_S_S262144x4),
    StableHlo.TRef.ternary main_call5.v1 ((.of main_v212) : StableHlo.TRef sig ⟨S262144x4, .f32⟩) main_call5.v2 main_call5.v3 select,
    StableHlo.nullary main_cst_51 (constant S_ .f32 0x00000000#32),
    StableHlo.unary main_cst_51 main_v214 (broadcastInDim S512x4 ![] bcast_S_S512x4 : (⟨S_, .f32⟩ : BufTy).Contents (Elt F) → (⟨S512x4, .f32⟩ : BufTy).Contents (Elt F)),
    StableHlo.nullary main_c_52 (constantI S_ 32 0#32),
    StableHlo.unary main_c_52 main_v215 (broadcastInDim S262144 ![] bcast_S_S262144 : (⟨S_, .i32⟩ : BufTy).Contents (Elt F) → (⟨S262144, .i32⟩ : BufTy).Contents (Elt F)),
    StableHlo.binary main_v6 main_v215 main_v216 (cmpi .slt : (⟨S262144, .i32⟩ : BufTy).Contents (Elt F) → (⟨S262144, .i32⟩ : BufTy).Contents (Elt F) → (⟨S262144, .i1⟩ : BufTy).Contents (Elt F)),
    StableHlo.nullary main_c_53 (constantI S_ 32 512#32),
    StableHlo.unary main_c_53 main_v217 (broadcastInDim S262144 ![] bcast_S_S262144 : (⟨S_, .i32⟩ : BufTy).Contents (Elt F) → (⟨S262144, .i32⟩ : BufTy).Contents (Elt F)),
    StableHlo.binary main_v6 main_v217 main_v218 (addi : (⟨S262144, .i32⟩ : BufTy).Contents (Elt F) → (⟨S262144, .i32⟩ : BufTy).Contents (Elt F) → (⟨S262144, .i32⟩ : BufTy).Contents (Elt F)),
    StableHlo.ternary main_v216 main_v218 main_v6 main_v219 (select : (⟨S262144, .i1⟩ : BufTy).Contents (Elt F) → (⟨S262144, .i32⟩ : BufTy).Contents (Elt F) → (⟨S262144, .i32⟩ : BufTy).Contents (Elt F) → (⟨S262144, .i32⟩ : BufTy).Contents (Elt F)),
    StableHlo.unary main_v219 main_v220 (broadcastInDim S262144x1 ![0] bcast_S262144_S262144x1_0 : (⟨S262144, .i32⟩ : BufTy).Contents (Elt F) → (⟨S262144x1, .i32⟩ : BufTy).Contents (Elt F)),
    StableHlo.ternary main_v214 main_v220 main_v213 main_v221 ((fun x i u => Host.scatterAdd scatter_S512x4_S262144x1_S262144x4_1_0_0_1 x i u) : (⟨S512x4, .f32⟩ : BufTy).Contents (Elt F) → (⟨S262144x1, .i32⟩ : BufTy).Contents (Elt F) → (⟨S262144x4, .f32⟩ : BufTy).Contents (Elt F) → (⟨S512x4, .f32⟩ : BufTy).Contents (Elt F)),
    StableHlo.nullary main_c_54 (constantI S_ 32 0#32),
    StableHlo.unary main_c_54 main_v222 (broadcastInDim S262144 ![] bcast_S_S262144 : (⟨S_, .i32⟩ : BufTy).Contents (Elt F) → (⟨S262144, .i32⟩ : BufTy).Contents (Elt F)),
    StableHlo.binary main_v6 main_v222 main_v223 (cmpi .slt : (⟨S262144, .i32⟩ : BufTy).Contents (Elt F) → (⟨S262144, .i32⟩ : BufTy).Contents (Elt F) → (⟨S262144, .i1⟩ : BufTy).Contents (Elt F)),
    StableHlo.nullary main_c_55 (constantI S_ 32 512#32),
    StableHlo.unary main_c_55 main_v224 (broadcastInDim S262144 ![] bcast_S_S262144 : (⟨S_, .i32⟩ : BufTy).Contents (Elt F) → (⟨S262144, .i32⟩ : BufTy).Contents (Elt F)),
    StableHlo.binary main_v6 main_v224 main_v225 (addi : (⟨S262144, .i32⟩ : BufTy).Contents (Elt F) → (⟨S262144, .i32⟩ : BufTy).Contents (Elt F) → (⟨S262144, .i32⟩ : BufTy).Contents (Elt F)),
    StableHlo.ternary main_v223 main_v225 main_v6 main_v226 (select : (⟨S262144, .i1⟩ : BufTy).Contents (Elt F) → (⟨S262144, .i32⟩ : BufTy).Contents (Elt F) → (⟨S262144, .i32⟩ : BufTy).Contents (Elt F) → (⟨S262144, .i32⟩ : BufTy).Contents (Elt F)),
    StableHlo.unary main_v226 main_v227 (broadcastInDim S262144x1 ![0] bcast_S262144_S262144x1_0 : (⟨S262144, .i32⟩ : BufTy).Contents (Elt F) → (⟨S262144x1, .i32⟩ : BufTy).Contents (Elt F)),
    StableHlo.binary main_v221 main_v227 main_v228 ((fun x i => Host.gather gather_S512x4_S262144x1_S262144x4_1_0_n_n_0_1_14 x i) : (⟨S512x4, .f32⟩ : BufTy).Contents (Elt F) → (⟨S262144x1, .i32⟩ : BufTy).Contents (Elt F) → (⟨S262144x4, .f32⟩ : BufTy).Contents (Elt F)),
    StableHlo.nullary main_cst_56 (constant S_ .f32 0x24E69595#32),
    StableHlo.unary main_cst_56 main_v229 (broadcastInDim S262144x4 ![] bcast_S_S262144x4 : (⟨S_, .f32⟩ : BufTy).Contents (Elt F) → (⟨S262144x4, .f32⟩ : BufTy).Contents (Elt F)),
    StableHlo.binary main_v228 main_v229 main_v230 (addf : (⟨S262144x4, .f32⟩ : BufTy).Contents (Elt F) → (⟨S262144x4, .f32⟩ : BufTy).Contents (Elt F) → (⟨S262144x4, .f32⟩ : BufTy).Contents (Elt F)),
    StableHlo.binary main_v213 main_v230 main_v231 (Host.divf : (⟨S262144x4, .f32⟩ : BufTy).Contents (Elt F) → (⟨S262144x4, .f32⟩ : BufTy).Contents (Elt F) → (⟨S262144x4, .f32⟩ : BufTy).Contents (Elt F)),
    StableHlo.unary main_v231 main_v232 (broadcastInDim S262144x4x1 ![0, 1] bcast_S262144x4_S262144x4x1_0_1 : (⟨S262144x4, .f32⟩ : BufTy).Contents (Elt F) → (⟨S262144x4x1, .f32⟩ : BufTy).Contents (Elt F)),
    StableHlo.unary main_v232 main_v233 (broadcastInDim S262144x4x32 ![0, 1, 2] bcast_S262144x4x1_S262144x4x32_0_1_2 : (⟨S262144x4x1, .f32⟩ : BufTy).Contents (Elt F) → (⟨S262144x4x32, .f32⟩ : BufTy).Contents (Elt F)),
    StableHlo.binary main_v192 main_v233 main_v234 (mulf : (⟨S262144x4x32, .f32⟩ : BufTy).Contents (Elt F) → (⟨S262144x4x32, .f32⟩ : BufTy).Contents (Elt F) → (⟨S262144x4x32, .f32⟩ : BufTy).Contents (Elt F)),
    StableHlo.nullary main_cst_57 (constant S_ .f32 0x00000000#32),
    StableHlo.unary main_cst_57 main_v235 (broadcastInDim S512x4x32 ![] bcast_S_S512x4x32 : (⟨S_, .f32⟩ : BufTy).Contents (Elt F) → (⟨S512x4x32, .f32⟩ : BufTy).Contents (Elt F)),
    StableHlo.nullary main_c_58 (constantI S_ 32 0#32),
    StableHlo.unary main_c_58 main_v236 (broadcastInDim S262144 ![] bcast_S_S262144 : (⟨S_, .i32⟩ : BufTy).Contents (Elt F) → (⟨S262144, .i32⟩ : BufTy).Contents (Elt F)),
    StableHlo.binary main_v6 main_v236 main_v237 (cmpi .slt : (⟨S262144, .i32⟩ : BufTy).Contents (Elt F) → (⟨S262144, .i32⟩ : BufTy).Contents (Elt F) → (⟨S262144, .i1⟩ : BufTy).Contents (Elt F)),
    StableHlo.nullary main_c_59 (constantI S_ 32 512#32) ]

set_option maxRecDepth 16384 in
set_option maxHeartbeats 40000000 in
/-- The window's program is that line of operations. -/
theorem part4_eq (c : Dev nD) : main_part4 (F := F) c = seq ops4 := by
  simp only [main_part4, fn_leaky_relu.body, fn_where.body, fn_where_0.body, seq, bind_assoc, pure_bind]
  try rfl

/-- Every operation reads and writes TensorCore buffers only. -/
theorem ops4_sub : (ops4 : List (HloOp τ sig (Elt F))).Forall fun op => op.bufs ⊆ tcRefs τ sig :=
  ⟨nullary_bufs_sub .., unary_bufs_sub .., binary_bufs_sub .., nullary_bufs_sub .., unary_bufs_sub .., binary_bufs_sub ..,
    ternary_bufs_sub .., unary_bufs_sub .., binary_bufs_sub .., unary_bufs_sub .., unary_bufs_sub .., binary_bufs_sub ..,
    nullary_bufs_sub .., binary_bufs_sub .., unary_bufs_sub .., unary_bufs_sub .., binary_bufs_sub .., nullary_bufs_sub ..,
    binary_bufs_sub .., binary_bufs_sub .., binary_bufs_sub .., nullary_bufs_sub .., nullary_bufs_sub .., unary_bufs_sub ..,
    binary_bufs_sub .., unary_bufs_sub .., unary_bufs_sub .., binary_bufs_sub .., ternary_bufs_sub .., unary_bufs_sub ..,
    unary_bufs_sub .., nullary_bufs_sub .., unary_bufs_sub .., unary_bufs_sub .., unary_bufs_sub .., ternary_bufs_sub ..,
    nullary_bufs_sub .., unary_bufs_sub .., nullary_bufs_sub .., unary_bufs_sub .., binary_bufs_sub .., nullary_bufs_sub ..,
    unary_bufs_sub .., binary_bufs_sub .., ternary_bufs_sub .., unary_bufs_sub .., ternary_bufs_sub .., nullary_bufs_sub ..,
    unary_bufs_sub .., binary_bufs_sub .., nullary_bufs_sub .., unary_bufs_sub .., binary_bufs_sub .., ternary_bufs_sub ..,
    unary_bufs_sub .., binary_bufs_sub .., nullary_bufs_sub .., unary_bufs_sub .., binary_bufs_sub .., binary_bufs_sub ..,
    unary_bufs_sub .., unary_bufs_sub .., binary_bufs_sub .., nullary_bufs_sub .., unary_bufs_sub .., nullary_bufs_sub ..,
    unary_bufs_sub .., binary_bufs_sub .., nullary_bufs_sub ..⟩

set_option maxRecDepth 16384 in
/-- No operation of the window allocates a buffer. -/
theorem fresh4 : ∀ op ∈ (ops4 : List (HloOp τ sig (Elt F))), op.fresh = ∅ := by
  intro _ h; (repeat (cases h with | head => rfl | tail _ h => ?_)); exact nomatch h

/-- The buffers the window's operations write, one each. -/
abbrev written4 : List (Ref sig .tc) :=
  [main_c_45, main_v193, main_v194, main_c_46, main_v195, main_v196, main_v197, main_v198,
    main_v199, main_v200, main_v201, main_v202, main_cst_47, main_v203, main_v204, main_v205,
    main_v206, main_cst_48, main_v207, main_v208, main_v209, main_cst_49, (main_call4.cst).ref, (main_call4.v0).ref,
    (main_call4.v1).ref, (main_call4.v2).ref, (main_call4.v3).ref, (main_call4.v4).ref, (main_call4.call0.v0).ref, main_v211, main_v212, main_cst_50,
    (main_call5.v0).ref, (main_call5.v1).ref, (main_call5.v2).ref, (main_call5.v3).ref, main_cst_51, main_v214, main_c_52, main_v215,
    main_v216, main_c_53, main_v217, main_v218, main_v219, main_v220, main_v221, main_c_54,
    main_v222, main_v223, main_c_55, main_v224, main_v225, main_v226, main_v227, main_v228,
    main_cst_56, main_v229, main_v230, main_v231, main_v232, main_v233, main_v234, main_cst_57,
    main_v235, main_c_58, main_v236, main_v237, main_c_59]

set_option maxRecDepth 16384 in
theorem ops4_writes : (ops4 : List (HloOp τ sig (Elt F))).Forall fun op => op.writes ⊆ (written4.map (Proc.devRef (τ := τ) .tc)).toFinset := by
  simp only [List.Forall]
  exact ⟨by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide)⟩

/-- A buffer the window does not write keeps its contents through it. -/
theorem keep4 (V : Valuation τ sig (Elt F)) (r : Ref sig .tc) (h : r ∉ written4) :
    after ops4 V (Proc.devRef .tc r) = V (Proc.devRef .tc r) :=
  after_of_writes_sub ops4 V ops4_writes h

end Cert.ReferenceIdeal.HostRun

end
-- ==== Proof.RefPart5.lean ====
/-
  Statements 301 … 360 of the reference's host program, as the list of their operations in order (where the program calls leaky_relu or a masked select, the callee's own operations stand at the call, over the buffers of that call):
  the window's program is the run of that list; every operation names only TensorCore buffers; and each operation writes
  exactly one buffer, all of them intermediate values, so a buffer outside the list of written ones — every argument
  array — keeps its contents.
-/
import proofs.«169155_g70909910057105_cont_sun_m_1383_19_alg».proof.Proof.Gen.ReferenceIdeal
import Idealize.ShloMosaic.Lib.StableHlo.Run

noncomputable section

namespace Cert.ReferenceIdeal.HostRun

open Cert.ReferenceIdeal Cert.ReferenceIdeal.Gen Idealize.ShloMosaic Idealize.ShloMosaic.TcCoe Idealize.SL.Sem Idealize.ShloMosaic.StableHlo

variable {F : FTy → Type} [FloatOps F]

/-- The operations of statements 301 … 360. -/
abbrev ops5 : List (HloOp τ sig (Elt F)) :=
  [ StableHlo.unary main_c_59 main_v238 (broadcastInDim S262144 ![] bcast_S_S262144 : (⟨S_, .i32⟩ : BufTy).Contents (Elt F) → (⟨S262144, .i32⟩ : BufTy).Contents (Elt F)),
    StableHlo.binary main_v6 main_v238 main_v239 (addi : (⟨S262144, .i32⟩ : BufTy).Contents (Elt F) → (⟨S262144, .i32⟩ : BufTy).Contents (Elt F) → (⟨S262144, .i32⟩ : BufTy).Contents (Elt F)),
    StableHlo.ternary main_v237 main_v239 main_v6 main_v240 (select : (⟨S262144, .i1⟩ : BufTy).Contents (Elt F) → (⟨S262144, .i32⟩ : BufTy).Contents (Elt F) → (⟨S262144, .i32⟩ : BufTy).Contents (Elt F) → (⟨S262144, .i32⟩ : BufTy).Contents (Elt F)),
    StableHlo.unary main_v240 main_v241 (broadcastInDim S262144x1 ![0] bcast_S262144_S262144x1_0 : (⟨S262144, .i32⟩ : BufTy).Contents (Elt F) → (⟨S262144x1, .i32⟩ : BufTy).Contents (Elt F)),
    StableHlo.ternary main_v235 main_v241 main_v234 main_v242 ((fun x i u => Host.scatterAdd scatter_S512x4x32_S262144x1_S262144x4x32_12_0_0_1 x i u) : (⟨S512x4x32, .f32⟩ : BufTy).Contents (Elt F) → (⟨S262144x1, .i32⟩ : BufTy).Contents (Elt F) → (⟨S262144x4x32, .f32⟩ : BufTy).Contents (Elt F) → (⟨S512x4x32, .f32⟩ : BufTy).Contents (Elt F)),
    StableHlo.reshape main_v242 main_v243 rfl shapeCasts_S512x4x32_S512x128,
    StableHlo.unary main_v243 main_v244 (broadcastInDim S512x1x128 ![0, 2] bcast_S512x128_S512x1x128_0_2 : (⟨S512x128, .f32⟩ : BufTy).Contents (Elt F) → (⟨S512x1x128, .f32⟩ : BufTy).Contents (Elt F)),
    StableHlo.unary main_v159 main_v245 ((extractStridedSlice S512x1x128 ![0, 1, 0] · slices_S512x2x128_S512x1x128_0_1_0) : (⟨S512x2x128, .f32⟩ : BufTy).Contents (Elt F) → (⟨S512x1x128, .f32⟩ : BufTy).Contents (Elt F)),
    StableHlo.reshape main_v245 main_v246 rfl shapeCasts_S512x1x128_S512x128,
    StableHlo.unary main_arg8 main_v247 ((transpose S128x128 [1, 0] · transposes_S128x128_S128x128_1_0) : (⟨S128x128, .f32⟩ : BufTy).Contents (Elt F) → (⟨S128x128, .f32⟩ : BufTy).Contents (Elt F)),
    StableHlo.binary main_v246 main_v247 main_v248 ((fun l r => Host.dotGeneral dot_S512x128_S128x128_S512x128_1_0_0_1_n_n none l r) : (⟨S512x128, .f32⟩ : BufTy).Contents (Elt F) → (⟨S128x128, .f32⟩ : BufTy).Contents (Elt F) → (⟨S512x128, .f32⟩ : BufTy).Contents (Elt F)),
    StableHlo.reshape main_v248 main_v249 rfl shapeCasts_S512x128_S512x4x32,
    StableHlo.nullary main_c_60 (constantI S_ 32 0#32),
    StableHlo.unary main_c_60 main_v250 (broadcastInDim S262144 ![] bcast_S_S262144 : (⟨S_, .i32⟩ : BufTy).Contents (Elt F) → (⟨S262144, .i32⟩ : BufTy).Contents (Elt F)),
    StableHlo.binary main_v2 main_v250 main_v251 (cmpi .slt : (⟨S262144, .i32⟩ : BufTy).Contents (Elt F) → (⟨S262144, .i32⟩ : BufTy).Contents (Elt F) → (⟨S262144, .i1⟩ : BufTy).Contents (Elt F)),
    StableHlo.nullary main_c_61 (constantI S_ 32 512#32),
    StableHlo.unary main_c_61 main_v252 (broadcastInDim S262144 ![] bcast_S_S262144 : (⟨S_, .i32⟩ : BufTy).Contents (Elt F) → (⟨S262144, .i32⟩ : BufTy).Contents (Elt F)),
    StableHlo.binary main_v2 main_v252 main_v253 (addi : (⟨S262144, .i32⟩ : BufTy).Contents (Elt F) → (⟨S262144, .i32⟩ : BufTy).Contents (Elt F) → (⟨S262144, .i32⟩ : BufTy).Contents (Elt F)),
    StableHlo.ternary main_v251 main_v253 main_v2 main_v254 (select : (⟨S262144, .i1⟩ : BufTy).Contents (Elt F) → (⟨S262144, .i32⟩ : BufTy).Contents (Elt F) → (⟨S262144, .i32⟩ : BufTy).Contents (Elt F) → (⟨S262144, .i32⟩ : BufTy).Contents (Elt F)),
    StableHlo.unary main_v254 main_v255 (broadcastInDim S262144x1 ![0] bcast_S262144_S262144x1_0 : (⟨S262144, .i32⟩ : BufTy).Contents (Elt F) → (⟨S262144x1, .i32⟩ : BufTy).Contents (Elt F)),
    StableHlo.binary main_v249 main_v255 main_v256 ((fun x i => Host.gather gather_S512x4x32_S262144x1_S262144x4x32_12_0_n_n_0_1_1432 x i) : (⟨S512x4x32, .f32⟩ : BufTy).Contents (Elt F) → (⟨S262144x1, .i32⟩ : BufTy).Contents (Elt F) → (⟨S262144x4x32, .f32⟩ : BufTy).Contents (Elt F)),
    StableHlo.nullary main_c_62 (constantI S_ 32 0#32),
    StableHlo.unary main_c_62 main_v257 (broadcastInDim S262144 ![] bcast_S_S262144 : (⟨S_, .i32⟩ : BufTy).Contents (Elt F) → (⟨S262144, .i32⟩ : BufTy).Contents (Elt F)),
    StableHlo.binary main_v6 main_v257 main_v258 (cmpi .slt : (⟨S262144, .i32⟩ : BufTy).Contents (Elt F) → (⟨S262144, .i32⟩ : BufTy).Contents (Elt F) → (⟨S262144, .i1⟩ : BufTy).Contents (Elt F)),
    StableHlo.nullary main_c_63 (constantI S_ 32 512#32),
    StableHlo.unary main_c_63 main_v259 (broadcastInDim S262144 ![] bcast_S_S262144 : (⟨S_, .i32⟩ : BufTy).Contents (Elt F) → (⟨S262144, .i32⟩ : BufTy).Contents (Elt F)),
    StableHlo.binary main_v6 main_v259 main_v260 (addi : (⟨S262144, .i32⟩ : BufTy).Contents (Elt F) → (⟨S262144, .i32⟩ : BufTy).Contents (Elt F) → (⟨S262144, .i32⟩ : BufTy).Contents (Elt F)),
    StableHlo.ternary main_v258 main_v260 main_v6 main_v261 (select : (⟨S262144, .i1⟩ : BufTy).Contents (Elt F) → (⟨S262144, .i32⟩ : BufTy).Contents (Elt F) → (⟨S262144, .i32⟩ : BufTy).Contents (Elt F) → (⟨S262144, .i32⟩ : BufTy).Contents (Elt F)),
    StableHlo.unary main_v261 main_v262 (broadcastInDim S262144x1 ![0] bcast_S262144_S262144x1_0 : (⟨S262144, .i32⟩ : BufTy).Contents (Elt F) → (⟨S262144x1, .i32⟩ : BufTy).Contents (Elt F)),
    StableHlo.binary main_v249 main_v262 main_v263 ((fun x i => Host.gather gather_S512x4x32_S262144x1_S262144x4x32_12_0_n_n_0_1_1432 x i) : (⟨S512x4x32, .f32⟩ : BufTy).Contents (Elt F) → (⟨S262144x1, .i32⟩ : BufTy).Contents (Elt F) → (⟨S262144x4x32, .f32⟩ : BufTy).Contents (Elt F)),
    StableHlo.unary main_arg10 main_v264 (broadcastInDim S1x4x32 ![1, 2] bcast_S4x32_S1x4x32_1_2 : (⟨S4x32, .f32⟩ : BufTy).Contents (Elt F) → (⟨S1x4x32, .f32⟩ : BufTy).Contents (Elt F)),
    StableHlo.unary main_v264 main_v265 (broadcastInDim S262144x4x32 ![0, 1, 2] bcast_S1x4x32_S262144x4x32_0_1_2 : (⟨S1x4x32, .f32⟩ : BufTy).Contents (Elt F) → (⟨S262144x4x32, .f32⟩ : BufTy).Contents (Elt F)),
    StableHlo.binary main_v256 main_v265 main_v266 (mulf : (⟨S262144x4x32, .f32⟩ : BufTy).Contents (Elt F) → (⟨S262144x4x32, .f32⟩ : BufTy).Contents (Elt F) → (⟨S262144x4x32, .f32⟩ : BufTy).Contents (Elt F)),
    StableHlo.nullary main_cst_64 (constant S_ .f32 0x00000000#32),
    StableHlo.binary main_v266 main_cst_64 main_v267 ((fun x v => Host.reduceAdd x v reducesTo_S262144x4x32_S262144x4_d2 h_S_) : (⟨S262144x4x32, .f32⟩ : BufTy).Contents (Elt F) → (⟨S_, .f32⟩ : BufTy).Contents (Elt F) → (⟨S262144x4, .f32⟩ : BufTy).Contents (Elt F)),
    StableHlo.unary main_arg11 main_v268 (broadcastInDim S1x4x32 ![1, 2] bcast_S4x32_S1x4x32_1_2 : (⟨S4x32, .f32⟩ : BufTy).Contents (Elt F) → (⟨S1x4x32, .f32⟩ : BufTy).Contents (Elt F)),
    StableHlo.unary main_v268 main_v269 (broadcastInDim S262144x4x32 ![0, 1, 2] bcast_S1x4x32_S262144x4x32_0_1_2 : (⟨S1x4x32, .f32⟩ : BufTy).Contents (Elt F) → (⟨S262144x4x32, .f32⟩ : BufTy).Contents (Elt F)),
    StableHlo.binary main_v263 main_v269 main_v270 (mulf : (⟨S262144x4x32, .f32⟩ : BufTy).Contents (Elt F) → (⟨S262144x4x32, .f32⟩ : BufTy).Contents (Elt F) → (⟨S262144x4x32, .f32⟩ : BufTy).Contents (Elt F)),
    StableHlo.nullary main_cst_65 (constant S_ .f32 0x00000000#32),
    StableHlo.binary main_v270 main_cst_65 main_v271 ((fun x v => Host.reduceAdd x v reducesTo_S262144x4x32_S262144x4_d2 h_S_) : (⟨S262144x4x32, .f32⟩ : BufTy).Contents (Elt F) → (⟨S_, .f32⟩ : BufTy).Contents (Elt F) → (⟨S262144x4, .f32⟩ : BufTy).Contents (Elt F)),
    StableHlo.binary main_v267 main_v271 main_v272 (addf : (⟨S262144x4, .f32⟩ : BufTy).Contents (Elt F) → (⟨S262144x4, .f32⟩ : BufTy).Contents (Elt F) → (⟨S262144x4, .f32⟩ : BufTy).Contents (Elt F)),
    StableHlo.binary main_v272 main_v180 main_v273 (addf : (⟨S262144x4, .f32⟩ : BufTy).Contents (Elt F) → (⟨S262144x4, .f32⟩ : BufTy).Contents (Elt F) → (⟨S262144x4, .f32⟩ : BufTy).Contents (Elt F)),
    StableHlo.nullary main_cst_66 (constant S_ .f32 0x3E4CCCCD#32),
    StableHlo.TRef.nullary main_call6.cst (constant S_ .f32 0x00000000#32),
    StableHlo.TRef.unary main_call6.cst main_call6.v0 (broadcastInDim S262144x4 ![] bcast_S_S262144x4),
    StableHlo.TRef.binary ((.of main_v273) : StableHlo.TRef sig ⟨S262144x4, .f32⟩) main_call6.v0 main_call6.v1 (cmpf .oge),
    StableHlo.TRef.unary ((.of main_cst_66) : StableHlo.TRef sig ⟨S_, .f32⟩) main_call6.v2 id,
    StableHlo.TRef.unary main_call6.v2 main_call6.v3 (broadcastInDim S262144x4 ![] bcast_S_S262144x4),
    StableHlo.TRef.binary main_call6.v3 ((.of main_v273) : StableHlo.TRef sig ⟨S262144x4, .f32⟩) main_call6.v4 mulf,
    StableHlo.TRef.ternary main_call6.v1 ((.of main_v273) : StableHlo.TRef sig ⟨S262144x4, .f32⟩) main_call6.v4 main_call6.call0.v0 select,
    StableHlo.unary main_v9 main_v275 (broadcastInDim S262144x1 ![0] bcast_S262144_S262144x1_0 : (⟨S262144, .i1⟩ : BufTy).Contents (Elt F) → (⟨S262144x1, .i1⟩ : BufTy).Contents (Elt F)),
    StableHlo.unary main_v274 main_v276 (Host.exp : (⟨S262144x4, .f32⟩ : BufTy).Contents (Elt F) → (⟨S262144x4, .f32⟩ : BufTy).Contents (Elt F)),
    StableHlo.nullary main_cst_67 (constant S_ .f32 0x00000000#32),
    StableHlo.TRef.unary ((.of main_cst_67) : StableHlo.TRef sig ⟨S_, .f32⟩) main_call7.v0 id,
    StableHlo.TRef.unary ((.of main_v275) : StableHlo.TRef sig ⟨S262144x1, .i1⟩) main_call7.v1 (broadcastInDim S262144x4 ![0, 1] bcast_S262144x1_S262144x4_0_1),
    StableHlo.TRef.unary main_call7.v0 main_call7.v2 (broadcastInDim S262144x4 ![] bcast_S_S262144x4),
    StableHlo.TRef.ternary main_call7.v1 ((.of main_v276) : StableHlo.TRef sig ⟨S262144x4, .f32⟩) main_call7.v2 main_call7.v3 select,
    StableHlo.nullary main_cst_68 (constant S_ .f32 0x00000000#32),
    StableHlo.unary main_cst_68 main_v278 (broadcastInDim S512x4 ![] bcast_S_S512x4 : (⟨S_, .f32⟩ : BufTy).Contents (Elt F) → (⟨S512x4, .f32⟩ : BufTy).Contents (Elt F)),
    StableHlo.nullary main_c_69 (constantI S_ 32 0#32),
    StableHlo.unary main_c_69 main_v279 (broadcastInDim S262144 ![] bcast_S_S262144 : (⟨S_, .i32⟩ : BufTy).Contents (Elt F) → (⟨S262144, .i32⟩ : BufTy).Contents (Elt F)),
    StableHlo.binary main_v6 main_v279 main_v280 (cmpi .slt : (⟨S262144, .i32⟩ : BufTy).Contents (Elt F) → (⟨S262144, .i32⟩ : BufTy).Contents (Elt F) → (⟨S262144, .i1⟩ : BufTy).Contents (Elt F)),
    StableHlo.nullary main_c_70 (constantI S_ 32 512#32),
    StableHlo.unary main_c_70 main_v281 (broadcastInDim S262144 ![] bcast_S_S262144 : (⟨S_, .i32⟩ : BufTy).Contents (Elt F) → (⟨S262144, .i32⟩ : BufTy).Contents (Elt F)),
    StableHlo.binary main_v6 main_v281 main_v282 (addi : (⟨S262144, .i32⟩ : BufTy).Contents (Elt F) → (⟨S262144, .i32⟩ : BufTy).Contents (Elt F) → (⟨S262144, .i32⟩ : BufTy).Contents (Elt F)),
    StableHlo.ternary main_v280 main_v282 main_v6 main_v283 (select : (⟨S262144, .i1⟩ : BufTy).Contents (Elt F) → (⟨S262144, .i32⟩ : BufTy).Contents (Elt F) → (⟨S262144, .i32⟩ : BufTy).Contents (Elt F) → (⟨S262144, .i32⟩ : BufTy).Contents (Elt F)),
    StableHlo.unary main_v283 main_v284 (broadcastInDim S262144x1 ![0] bcast_S262144_S262144x1_0 : (⟨S262144, .i32⟩ : BufTy).Contents (Elt F) → (⟨S262144x1, .i32⟩ : BufTy).Contents (Elt F)),
    StableHlo.ternary main_v278 main_v284 main_v277 main_v285 ((fun x i u => Host.scatterAdd scatter_S512x4_S262144x1_S262144x4_1_0_0_1 x i u) : (⟨S512x4, .f32⟩ : BufTy).Contents (Elt F) → (⟨S262144x1, .i32⟩ : BufTy).Contents (Elt F) → (⟨S262144x4, .f32⟩ : BufTy).Contents (Elt F) → (⟨S512x4, .f32⟩ : BufTy).Contents (Elt F)),
    StableHlo.nullary main_c_71 (constantI S_ 32 0#32) ]

set_option maxRecDepth 16384 in
set_option maxHeartbeats 40000000 in
/-- The window's program is that line of operations. -/
theorem part5_eq (c : Dev nD) : main_part5 (F := F) c = seq ops5 := by
  simp only [main_part5, fn_leaky_relu.body, fn_where.body, fn_where_0.body, seq, bind_assoc, pure_bind]
  try rfl

/-- Every operation reads and writes TensorCore buffers only. -/
theorem ops5_sub : (ops5 : List (HloOp τ sig (Elt F))).Forall fun op => op.bufs ⊆ tcRefs τ sig :=
  ⟨unary_bufs_sub .., binary_bufs_sub .., ternary_bufs_sub .., unary_bufs_sub .., ternary_bufs_sub .., reshape_bufs_sub ..,
    unary_bufs_sub .., unary_bufs_sub .., reshape_bufs_sub .., unary_bufs_sub .., binary_bufs_sub .., reshape_bufs_sub ..,
    nullary_bufs_sub .., unary_bufs_sub .., binary_bufs_sub .., nullary_bufs_sub .., unary_bufs_sub .., binary_bufs_sub ..,
    ternary_bufs_sub .., unary_bufs_sub .., binary_bufs_sub .., nullary_bufs_sub .., unary_bufs_sub .., binary_bufs_sub ..,
    nullary_bufs_sub .., unary_bufs_sub .., binary_bufs_sub .., ternary_bufs_sub .., unary_bufs_sub .., binary_bufs_sub ..,
    unary_bufs_sub .., unary_bufs_sub .., binary_bufs_sub .., nullary_bufs_sub .., binary_bufs_sub .., unary_bufs_sub ..,
    unary_bufs_sub .., binary_bufs_sub .., nullary_bufs_sub .., binary_bufs_sub .., binary_bufs_sub .., binary_bufs_sub ..,
    nullary_bufs_sub .., nullary_bufs_sub .., unary_bufs_sub .., binary_bufs_sub .., unary_bufs_sub .., unary_bufs_sub ..,
    binary_bufs_sub .., ternary_bufs_sub .., unary_bufs_sub .., unary_bufs_sub .., nullary_bufs_sub .., unary_bufs_sub ..,
    unary_bufs_sub .., unary_bufs_sub .., ternary_bufs_sub .., nullary_bufs_sub .., unary_bufs_sub .., nullary_bufs_sub ..,
    unary_bufs_sub .., binary_bufs_sub .., nullary_bufs_sub .., unary_bufs_sub .., binary_bufs_sub .., ternary_bufs_sub ..,
    unary_bufs_sub .., ternary_bufs_sub .., nullary_bufs_sub ..⟩

set_option maxRecDepth 16384 in
/-- No operation of the window allocates a buffer. -/
theorem fresh5 : ∀ op ∈ (ops5 : List (HloOp τ sig (Elt F))), op.fresh = ∅ := by
  intro _ h; (repeat (cases h with | head => rfl | tail _ h => ?_)); exact nomatch h

/-- The buffers the window's operations write, one each. -/
abbrev written5 : List (Ref sig .tc) :=
  [main_v238, main_v239, main_v240, main_v241, main_v242, main_v243, main_v244, main_v245,
    main_v246, main_v247, main_v248, main_v249, main_c_60, main_v250, main_v251, main_c_61,
    main_v252, main_v253, main_v254, main_v255, main_v256, main_c_62, main_v257, main_v258,
    main_c_63, main_v259, main_v260, main_v261, main_v262, main_v263, main_v264, main_v265,
    main_v266, main_cst_64, main_v267, main_v268, main_v269, main_v270, main_cst_65, main_v271,
    main_v272, main_v273, main_cst_66, (main_call6.cst).ref, (main_call6.v0).ref, (main_call6.v1).ref, (main_call6.v2).ref, (main_call6.v3).ref,
    (main_call6.v4).ref, (main_call6.call0.v0).ref, main_v275, main_v276, main_cst_67, (main_call7.v0).ref, (main_call7.v1).ref, (main_call7.v2).ref,
    (main_call7.v3).ref, main_cst_68, main_v278, main_c_69, main_v279, main_v280, main_c_70, main_v281,
    main_v282, main_v283, main_v284, main_v285, main_c_71]

set_option maxRecDepth 16384 in
theorem ops5_writes : (ops5 : List (HloOp τ sig (Elt F))).Forall fun op => op.writes ⊆ (written5.map (Proc.devRef (τ := τ) .tc)).toFinset := by
  simp only [List.Forall]
  exact ⟨by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide)⟩

/-- A buffer the window does not write keeps its contents through it. -/
theorem keep5 (V : Valuation τ sig (Elt F)) (r : Ref sig .tc) (h : r ∉ written5) :
    after ops5 V (Proc.devRef .tc r) = V (Proc.devRef .tc r) :=
  after_of_writes_sub ops5 V ops5_writes h

end Cert.ReferenceIdeal.HostRun

end
-- ==== Proof.RefPart6.lean ====
/-
  Statements 361 … 390 of the reference's host program, as the list of their operations in order:
  the window's program is the run of that list; every operation names only TensorCore buffers; and each operation writes
  exactly one buffer, all of them intermediate values, so a buffer outside the list of written ones — every argument
  array — keeps its contents.
-/
import proofs.«169155_g70909910057105_cont_sun_m_1383_19_alg».proof.Proof.Gen.ReferenceIdeal
import Idealize.ShloMosaic.Lib.StableHlo.Run

noncomputable section

namespace Cert.ReferenceIdeal.HostRun

open Cert.ReferenceIdeal Cert.ReferenceIdeal.Gen Idealize.ShloMosaic Idealize.ShloMosaic.TcCoe Idealize.SL.Sem Idealize.ShloMosaic.StableHlo

variable {F : FTy → Type} [FloatOps F]

/-- The operations of statements 361 … 390. -/
abbrev ops6 : List (HloOp τ sig (Elt F)) :=
  [ StableHlo.unary main_c_71 main_v286 (broadcastInDim S262144 ![] bcast_S_S262144 : (⟨S_, .i32⟩ : BufTy).Contents (Elt F) → (⟨S262144, .i32⟩ : BufTy).Contents (Elt F)),
    StableHlo.binary main_v6 main_v286 main_v287 (cmpi .slt : (⟨S262144, .i32⟩ : BufTy).Contents (Elt F) → (⟨S262144, .i32⟩ : BufTy).Contents (Elt F) → (⟨S262144, .i1⟩ : BufTy).Contents (Elt F)),
    StableHlo.nullary main_c_72 (constantI S_ 32 512#32),
    StableHlo.unary main_c_72 main_v288 (broadcastInDim S262144 ![] bcast_S_S262144 : (⟨S_, .i32⟩ : BufTy).Contents (Elt F) → (⟨S262144, .i32⟩ : BufTy).Contents (Elt F)),
    StableHlo.binary main_v6 main_v288 main_v289 (addi : (⟨S262144, .i32⟩ : BufTy).Contents (Elt F) → (⟨S262144, .i32⟩ : BufTy).Contents (Elt F) → (⟨S262144, .i32⟩ : BufTy).Contents (Elt F)),
    StableHlo.ternary main_v287 main_v289 main_v6 main_v290 (select : (⟨S262144, .i1⟩ : BufTy).Contents (Elt F) → (⟨S262144, .i32⟩ : BufTy).Contents (Elt F) → (⟨S262144, .i32⟩ : BufTy).Contents (Elt F) → (⟨S262144, .i32⟩ : BufTy).Contents (Elt F)),
    StableHlo.unary main_v290 main_v291 (broadcastInDim S262144x1 ![0] bcast_S262144_S262144x1_0 : (⟨S262144, .i32⟩ : BufTy).Contents (Elt F) → (⟨S262144x1, .i32⟩ : BufTy).Contents (Elt F)),
    StableHlo.binary main_v285 main_v291 main_v292 ((fun x i => Host.gather gather_S512x4_S262144x1_S262144x4_1_0_n_n_0_1_14 x i) : (⟨S512x4, .f32⟩ : BufTy).Contents (Elt F) → (⟨S262144x1, .i32⟩ : BufTy).Contents (Elt F) → (⟨S262144x4, .f32⟩ : BufTy).Contents (Elt F)),
    StableHlo.nullary main_cst_73 (constant S_ .f32 0x24E69595#32),
    StableHlo.unary main_cst_73 main_v293 (broadcastInDim S262144x4 ![] bcast_S_S262144x4 : (⟨S_, .f32⟩ : BufTy).Contents (Elt F) → (⟨S262144x4, .f32⟩ : BufTy).Contents (Elt F)),
    StableHlo.binary main_v292 main_v293 main_v294 (addf : (⟨S262144x4, .f32⟩ : BufTy).Contents (Elt F) → (⟨S262144x4, .f32⟩ : BufTy).Contents (Elt F) → (⟨S262144x4, .f32⟩ : BufTy).Contents (Elt F)),
    StableHlo.binary main_v277 main_v294 main_v295 (Host.divf : (⟨S262144x4, .f32⟩ : BufTy).Contents (Elt F) → (⟨S262144x4, .f32⟩ : BufTy).Contents (Elt F) → (⟨S262144x4, .f32⟩ : BufTy).Contents (Elt F)),
    StableHlo.unary main_v295 main_v296 (broadcastInDim S262144x4x1 ![0, 1] bcast_S262144x4_S262144x4x1_0_1 : (⟨S262144x4, .f32⟩ : BufTy).Contents (Elt F) → (⟨S262144x4x1, .f32⟩ : BufTy).Contents (Elt F)),
    StableHlo.unary main_v296 main_v297 (broadcastInDim S262144x4x32 ![0, 1, 2] bcast_S262144x4x1_S262144x4x32_0_1_2 : (⟨S262144x4x1, .f32⟩ : BufTy).Contents (Elt F) → (⟨S262144x4x32, .f32⟩ : BufTy).Contents (Elt F)),
    StableHlo.binary main_v256 main_v297 main_v298 (mulf : (⟨S262144x4x32, .f32⟩ : BufTy).Contents (Elt F) → (⟨S262144x4x32, .f32⟩ : BufTy).Contents (Elt F) → (⟨S262144x4x32, .f32⟩ : BufTy).Contents (Elt F)),
    StableHlo.nullary main_cst_74 (constant S_ .f32 0x00000000#32),
    StableHlo.unary main_cst_74 main_v299 (broadcastInDim S512x4x32 ![] bcast_S_S512x4x32 : (⟨S_, .f32⟩ : BufTy).Contents (Elt F) → (⟨S512x4x32, .f32⟩ : BufTy).Contents (Elt F)),
    StableHlo.nullary main_c_75 (constantI S_ 32 0#32),
    StableHlo.unary main_c_75 main_v300 (broadcastInDim S262144 ![] bcast_S_S262144 : (⟨S_, .i32⟩ : BufTy).Contents (Elt F) → (⟨S262144, .i32⟩ : BufTy).Contents (Elt F)),
    StableHlo.binary main_v6 main_v300 main_v301 (cmpi .slt : (⟨S262144, .i32⟩ : BufTy).Contents (Elt F) → (⟨S262144, .i32⟩ : BufTy).Contents (Elt F) → (⟨S262144, .i1⟩ : BufTy).Contents (Elt F)),
    StableHlo.nullary main_c_76 (constantI S_ 32 512#32),
    StableHlo.unary main_c_76 main_v302 (broadcastInDim S262144 ![] bcast_S_S262144 : (⟨S_, .i32⟩ : BufTy).Contents (Elt F) → (⟨S262144, .i32⟩ : BufTy).Contents (Elt F)),
    StableHlo.binary main_v6 main_v302 main_v303 (addi : (⟨S262144, .i32⟩ : BufTy).Contents (Elt F) → (⟨S262144, .i32⟩ : BufTy).Contents (Elt F) → (⟨S262144, .i32⟩ : BufTy).Contents (Elt F)),
    StableHlo.ternary main_v301 main_v303 main_v6 main_v304 (select : (⟨S262144, .i1⟩ : BufTy).Contents (Elt F) → (⟨S262144, .i32⟩ : BufTy).Contents (Elt F) → (⟨S262144, .i32⟩ : BufTy).Contents (Elt F) → (⟨S262144, .i32⟩ : BufTy).Contents (Elt F)),
    StableHlo.unary main_v304 main_v305 (broadcastInDim S262144x1 ![0] bcast_S262144_S262144x1_0 : (⟨S262144, .i32⟩ : BufTy).Contents (Elt F) → (⟨S262144x1, .i32⟩ : BufTy).Contents (Elt F)),
    StableHlo.ternary main_v299 main_v305 main_v298 main_v306 ((fun x i u => Host.scatterAdd scatter_S512x4x32_S262144x1_S262144x4x32_12_0_0_1 x i u) : (⟨S512x4x32, .f32⟩ : BufTy).Contents (Elt F) → (⟨S262144x1, .i32⟩ : BufTy).Contents (Elt F) → (⟨S262144x4x32, .f32⟩ : BufTy).Contents (Elt F) → (⟨S512x4x32, .f32⟩ : BufTy).Contents (Elt F)),
    StableHlo.reshape main_v306 main_v307 rfl shapeCasts_S512x4x32_S512x128,
    StableHlo.unary main_v307 main_v308 (broadcastInDim S512x1x128 ![0, 2] bcast_S512x128_S512x1x128_0_2 : (⟨S512x128, .f32⟩ : BufTy).Contents (Elt F) → (⟨S512x1x128, .f32⟩ : BufTy).Contents (Elt F)),
    StableHlo.binary main_v244 main_v308 main_v309 ((fun a b => concatenate S512x2x128 1 [⟨S512x1x128, a⟩, ⟨S512x1x128, b⟩] concatenates_S512x1x128_S512x1x128_S512x2x128_d1) : (⟨S512x1x128, .f32⟩ : BufTy).Contents (Elt F) → (⟨S512x1x128, .f32⟩ : BufTy).Contents (Elt F) → (⟨S512x2x128, .f32⟩ : BufTy).Contents (Elt F)) ]

set_option maxRecDepth 16384 in
set_option maxHeartbeats 40000000 in
/-- The window's program is that line of operations. -/
theorem part6_eq (c : Dev nD) : main_part6 (F := F) c = seq ops6 := by
  rfl

/-- Every operation reads and writes TensorCore buffers only. -/
theorem ops6_sub : (ops6 : List (HloOp τ sig (Elt F))).Forall fun op => op.bufs ⊆ tcRefs τ sig :=
  ⟨unary_bufs_sub .., binary_bufs_sub .., nullary_bufs_sub .., unary_bufs_sub .., binary_bufs_sub .., ternary_bufs_sub ..,
    unary_bufs_sub .., binary_bufs_sub .., nullary_bufs_sub .., unary_bufs_sub .., binary_bufs_sub .., binary_bufs_sub ..,
    unary_bufs_sub .., unary_bufs_sub .., binary_bufs_sub .., nullary_bufs_sub .., unary_bufs_sub .., nullary_bufs_sub ..,
    unary_bufs_sub .., binary_bufs_sub .., nullary_bufs_sub .., unary_bufs_sub .., binary_bufs_sub .., ternary_bufs_sub ..,
    unary_bufs_sub .., ternary_bufs_sub .., reshape_bufs_sub .., unary_bufs_sub .., binary_bufs_sub ..⟩

set_option maxRecDepth 16384 in
/-- No operation of the window allocates a buffer. -/
theorem fresh6 : ∀ op ∈ (ops6 : List (HloOp τ sig (Elt F))), op.fresh = ∅ := by
  intro _ h; (repeat (cases h with | head => rfl | tail _ h => ?_)); exact nomatch h

/-- The buffers the window's operations write, one each. -/
abbrev written6 : List (Ref sig .tc) :=
  [main_v286, main_v287, main_c_72, main_v288, main_v289, main_v290, main_v291, main_v292,
    main_cst_73, main_v293, main_v294, main_v295, main_v296, main_v297, main_v298, main_cst_74,
    main_v299, main_c_75, main_v300, main_v301, main_c_76, main_v302, main_v303, main_v304,
    main_v305, main_v306, main_v307, main_v308, main_v309]

set_option maxRecDepth 16384 in
theorem ops6_writes : (ops6 : List (HloOp τ sig (Elt F))).Forall fun op => op.writes ⊆ (written6.map (Proc.devRef (τ := τ) .tc)).toFinset := by
  simp only [List.Forall]
  exact ⟨by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide)⟩

/-- A buffer the window does not write keeps its contents through it. -/
theorem keep6 (V : Valuation τ sig (Elt F)) (r : Ref sig .tc) (h : r ∉ written6) :
    after ops6 V (Proc.devRef .tc r) = V (Proc.devRef .tc r) :=
  after_of_writes_sub ops6 V ops6_writes h

end Cert.ReferenceIdeal.HostRun

end
-- ==== Proof.RefFrame.lean ====
/-
  The reference is a host program with no kernel launch: a straight line of 425 operations once its seven printed
  windows are put end to end and the outlined functions' operations are read at their calls. Every weakly fair
  execution of such a line terminates without a fault, each buffer ending at the fold of the operations over its launch
  contents; and since every operation writes an intermediate value and none writes an argument array, the thirteen
  arguments end as they began: the reference's frame.
-/
import proofs.«169155_g70909910057105_cont_sun_m_1383_19_alg».proof.Proof.RefPart0
import proofs.«169155_g70909910057105_cont_sun_m_1383_19_alg».proof.Proof.RefPart1
import proofs.«169155_g70909910057105_cont_sun_m_1383_19_alg».proof.Proof.RefPart2
import proofs.«169155_g70909910057105_cont_sun_m_1383_19_alg».proof.Proof.RefPart3
import proofs.«169155_g70909910057105_cont_sun_m_1383_19_alg».proof.Proof.RefPart4
import proofs.«169155_g70909910057105_cont_sun_m_1383_19_alg».proof.Proof.RefPart5
import proofs.«169155_g70909910057105_cont_sun_m_1383_19_alg».proof.Proof.RefPart6
import Idealize.ShloMosaic.Lib.Pipeline.Frame

noncomputable section

namespace Cert.ReferenceIdeal.HostRun

open Cert.ReferenceIdeal Cert.ReferenceIdeal.Gen Idealize.ShloMosaic Idealize.ShloMosaic.TcCoe Idealize.SL.Sem Idealize.ShloMosaic.StableHlo

variable {F : FTy → Type} [FloatOps F]

/-- The whole program's operations: the seven windows', in order. -/
abbrev ops : List (HloOp τ sig (Elt F)) :=
  ops0 ++ (ops1 ++ (ops2 ++ (ops3 ++ (ops4 ++ (ops5 ++ ops6)))))

set_option maxRecDepth 16384 in
/-- The program is the run of that line: window by window. -/
theorem main_eq (c : Dev nD) : main (F := F) c = seq ops := by
  simp only [ops, seq_append, ← part0_eq c, ← part1_eq c, ← part2_eq c, ← part3_eq c, ← part4_eq c, ← part5_eq c, ← part6_eq c]
  rfl

theorem scopedRefs_eq : (Finset.univ.filter fun b : Ref sig .tc => b.isScoped) = ∅ := by decide
theorem scopedSems_eq : (Finset.univ.filter fun sm : SemLoc sig => sm.isScoped .tc) = ∅ := by decide

set_option maxRecDepth 16384 in
theorem ops_sub : (ops : List (HloOp τ sig (Elt F))).Forall fun op => op.bufs ⊆ tcRefs τ sig :=
  List.forall_iff_forall_mem.mpr fun op h => by
    simp only [ops, List.mem_append] at h
    rcases h with h | h | h | h | h | h | h
    exacts [List.forall_iff_forall_mem.mp ops0_sub op h, List.forall_iff_forall_mem.mp ops1_sub op h, List.forall_iff_forall_mem.mp ops2_sub op h, List.forall_iff_forall_mem.mp ops3_sub op h, List.forall_iff_forall_mem.mp ops4_sub op h, List.forall_iff_forall_mem.mp ops5_sub op h, List.forall_iff_forall_mem.mp ops6_sub op h]

set_option maxRecDepth 16384 in
/-- No operation allocates: each determines what it writes. -/
theorem ops_fresh : ∀ op ∈ (ops : List (HloOp τ sig (Elt F))), op.fresh = ∅ := fun op h => by
    simp only [ops, List.mem_append] at h
    rcases h with h | h | h | h | h | h | h
    exacts [fresh0 op h, fresh1 op h, fresh2 op h, fresh3 op h, fresh4 op h, fresh5 op h, fresh6 op h]

/-- A buffer no window writes keeps its contents through the whole program. -/
theorem keep (V : Valuation τ sig (Elt F)) (r : Ref sig .tc) (h0 : r ∉ written0) (h1 : r ∉ written1) (h2 : r ∉ written2) (h3 : r ∉ written3) (h4 : r ∉ written4) (h5 : r ∉ written5) (h6 : r ∉ written6) :
    after ops V (Proc.devRef .tc r) = V (Proc.devRef .tc r) := by
  simp only [ops, after_append]
  exact (keep6 _ r h6).trans ((keep5 _ r h5).trans ((keep4 _ r h4).trans ((keep3 _ r h3).trans ((keep2 _ r h2).trans ((keep1 _ r h1).trans (keep0 V r h0))))))

set_option maxRecDepth 16384 in
/-- The reference's frame, at any instance of the float operations. -/
theorem frame (m : (ℓ : Loc nD τ sig) → Buf (Elt F) ℓ) (ρ : Dev nD → PrngReg) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) :=
  (θ_run defs _ _).mono (fun _ h c => ⟨(h c main_arg0).trans (keep (launchContents m c) main_arg0 (by decide) (by decide) (by decide) (by decide) (by decide) (by decide) (by decide)),
      (h c main_arg1).trans (keep (launchContents m c) main_arg1 (by decide) (by decide) (by decide) (by decide) (by decide) (by decide) (by decide)),
      (h c main_arg2).trans (keep (launchContents m c) main_arg2 (by decide) (by decide) (by decide) (by decide) (by decide) (by decide) (by decide)),
      (h c main_arg3).trans (keep (launchContents m c) main_arg3 (by decide) (by decide) (by decide) (by decide) (by decide) (by decide) (by decide)),
      (h c main_arg4).trans (keep (launchContents m c) main_arg4 (by decide) (by decide) (by decide) (by decide) (by decide) (by decide) (by decide)),
      (h c main_arg5).trans (keep (launchContents m c) main_arg5 (by decide) (by decide) (by decide) (by decide) (by decide) (by decide) (by decide)),
      (h c main_arg6).trans (keep (launchContents m c) main_arg6 (by decide) (by decide) (by decide) (by decide) (by decide) (by decide) (by decide)),
      (h c main_arg7).trans (keep (launchContents m c) main_arg7 (by decide) (by decide) (by decide) (by decide) (by decide) (by decide) (by decide)),
      (h c main_arg8).trans (keep (launchContents m c) main_arg8 (by decide) (by decide) (by decide) (by decide) (by decide) (by decide) (by decide)),
      (h c main_arg9).trans (keep (launchContents m c) main_arg9 (by decide) (by decide) (by decide) (by decide) (by decide) (by decide) (by decide)),
      (h c main_arg10).trans (keep (launchContents m c) main_arg10 (by decide) (by decide) (by decide) (by decide) (by decide) (by decide) (by decide)),
      (h c main_arg11).trans (keep (launchContents m c) main_arg11 (by decide) (by decide) (by decide) (by decide) (by decide) (by decide) (by decide)),
      (h c main_arg12).trans (keep (launchContents m c) main_arg12 (by decide) (by decide) (by decide) (by decide) (by decide) (by decide) (by decide))⟩)
    (run_seq scopedRefs_eq scopedSems_eq defs main (fun _ => ops) main_eq (fun _ => ops_sub) m ρ (fun _ => ops_fresh))

end Cert.ReferenceIdeal.HostRun

end
-- ==== Proof.Preserves.lean ====
/-
  The idealized kernel differs from the printed one only where a value was rounded to bf16 and widened
  back to f32 at once; over the extended reals a change of float format is the identity, so each of the
  ten removed round trips is the rule's statement at the shape of the value it stood on.
-/
import proofs.«169155_g70909910057105_cont_sun_m_1383_19_alg».proof.Defs

noncomputable section

namespace Cert.Proof.Preserves

open Idealize.ShloMosaic

/-- One conjunct per removed bf16 round trip, in the order the idealized program lists them. -/
theorem preserves : Cert.preserves_Kernel_KernelIdeal :=
  ⟨IdealRules.truncf_extf.statement _ .f32 .bf16, IdealRules.truncf_extf.statement _ .f32 .bf16,
   IdealRules.truncf_extf.statement _ .f32 .bf16, IdealRules.truncf_extf.statement _ .f32 .bf16,
   IdealRules.truncf_extf.statement _ .f32 .bf16, IdealRules.truncf_extf.statement _ .f32 .bf16,
   IdealRules.truncf_extf.statement _ .f32 .bf16, IdealRules.truncf_extf.statement _ .f32 .bf16,
   IdealRules.truncf_extf.statement _ .f32 .bf16, IdealRules.truncf_extf.statement _ .f32 .bf16⟩

end Cert.Proof.Preserves

end
-- ==== Proof.KernelIdealNamedA.lean ====
/-
  The body at the first grid point, run symbolically with the contents it depends on named: the thirteen input buffers, and of the
  output buffer and the six scratch buffers those the case reads before overwriting. A buffer the case only reads comes
  back as it was; one it stores into comes back with the case's stores written over what it held (or, when the stores
  tile the buffer before any read, over contents that no longer matter), piece by piece; the pieces (a rectangle and the
  value stored there, as a term over the named contents) are found by the run itself.
-/
import proofs.«169155_g70909910057105_cont_sun_m_1383_19_alg».proof.Proof.KernelIdealCases
import proofs.«169155_g70909910057105_cont_sun_m_1383_19_alg».proof.Proof.Gen.KernelIdeal.Skeleton

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 16000000 in
/-- The body's stores at the first grid point, per buffer it stores into (last store first), with the proof that the body runs to the
    continuation holding every buffer as described above. -/
noncomputable def namedA (c : Dev nD) (i : grid0.Coords) (arg1 : Memref sig .tc .vmem S64x512x128 .f32) (harg1 : arg1.IsWhole) (arg2 : Memref sig .tc .vmem S512x512 .i32) (harg2 : arg2.IsWhole) (arg3 : Memref sig .tc .vmem S512x2x128 .f32) (harg3 : arg3.IsWhole) (arg4 : Memref sig .tc .vmem S128x128 .f32) (harg4 : arg4.IsWhole) (arg5 : Memref sig .tc .vmem S128x128 .f32) (harg5 : arg5.IsWhole) (arg6 : Memref sig .tc .vmem S4x1 .f32) (harg6 : arg6.IsWhole) (arg7 : Memref sig .tc .vmem S4x1 .f32) (harg7 : arg7.IsWhole) (arg8 : Memref sig .tc .vmem S128x128 .f32) (harg8 : arg8.IsWhole) (arg9 : Memref sig .tc .vmem S4x32 .f32) (harg9 : arg9.IsWhole) (arg10 : Memref sig .tc .vmem S4x32 .f32) (harg10 : arg10.IsWhole) (arg11 : Memref sig .tc .vmem S128x128 .f32) (harg11 : arg11.IsWhole) (arg12 : Memref sig .tc .vmem S4x32 .f32) (harg12 : arg12.IsWhole) (arg13 : Memref sig .tc .vmem S4x32 .f32) (harg13 : arg13.IsWhole) (arg14 : Memref sig .tc .vmem S512x2x128 .f32) (harg14 : arg14.IsWhole) (arg15 : Memref sig .tc .vmem S4x512x512 .f32) (harg15 : arg15.IsWhole) (arg16 : Memref sig .tc .vmem S2x512x128 .f32) (harg16 : arg16.IsWhole) (arg17 : Memref sig .tc .vmem S512x8 .f32) (harg17 : arg17.IsWhole) (arg18 : Memref sig .tc .vmem S8x512 .f32) (harg18 : arg18.IsWhole) (arg19 : Memref sig .tc .vmem S2x512x128 .f32) (harg19 : arg19.IsWhole) (arg20 : Memref sig .tc .vmem S8x512 .f32) (harg20 : arg20.IsWhole) (hc0 : isFirst i) (hc1 : ¬isLast i)
    (x1 : Vec F S64x512x128 .f32) (x2 : Vec F S512x512 .i32) (x3 : Vec F S512x2x128 .f32) (x4 : Vec F S128x128 .f32) (x5 : Vec F S128x128 .f32) (x6 : Vec F S4x1 .f32) (x7 : Vec F S4x1 .f32) (x8 : Vec F S128x128 .f32) (x9 : Vec F S4x32 .f32) (x10 : Vec F S4x32 .f32) (x11 : Vec F S128x128 .f32) (x12 : Vec F S4x32 .f32) (x13 : Vec F S4x32 .f32) (y15 : Vec F S4x512x512 .f32) :
    Σ' (L15 : List (View.Piece (Elt F) S4x512x512 .f32)) (L16 : List (View.Piece (Elt F) S2x512x128 .f32)) (L17 : List (View.Piece (Elt F) S512x8 .f32)) (L18 : List (View.Piece (Elt F) S8x512 .f32)) (L19 : List (View.Piece (Elt F) S2x512x128 .f32)), { L20 : List (View.Piece (Elt F) S8x512 .f32) //
      ∀ (E : Set ℕ) (K : PUnit → sProp 𝕄),
        iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare x12 ∗ owns (c : Thread nD τ) arg13 fullShare x13 ∗ (∃ d, owns (c : Thread nD τ) arg14 fullShare d) ∗ owns (c : Thread nD τ) arg15 fullShare y15 ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d) ∗ (∃ d, owns (c : Thread nD τ) arg20 fullShare d)
            ∗ (iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare x12 ∗ owns (c : Thread nD τ) arg13 fullShare x13 ∗ (∃ d, owns (c : Thread nD τ) arg14 fullShare d) ∗ owns (c : Thread nD τ) arg15 fullShare (arg15.view.read (Elt F) (arg15.view.writes (Elt F) (harg15.unread y15) L15)) ∗ (∃ f, arg16.view.loc (c : Thread nD τ) ↦[arg16.view.set]{fullShare} arg16.view.writes (Elt F) f L16) ∗ (∃ f, arg17.view.loc (c : Thread nD τ) ↦[arg17.view.set]{fullShare} arg17.view.writes (Elt F) f L17) ∗ (∃ f, arg18.view.loc (c : Thread nD τ) ↦[arg18.view.set]{fullShare} arg18.view.writes (Elt F) f L18) ∗ (∃ f, arg19.view.loc (c : Thread nD τ) ↦[arg19.view.set]{fullShare} arg19.view.writes (Elt F) f L19) ∗ (∃ f, arg20.view.loc (c : Thread nD τ) ↦[arg20.view.set]{fullShare} arg20.view.writes (Elt F) f L20)) -∗ K ⟨⟩))
          ⊢ wp frame (wpE (defs₀ (F := F)) Variants.none c none) E (cc0__fused_body i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20) K } := by
  refine ⟨?_, ?_, ?_, ?_, ?_, ?_, fun E K => ?run⟩
  case run =>
    simp only [cc0__fused_body_eq_skeleton]; unfold cc0__fused_body_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton]
    unfold owns
    iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%d14, %f14, -, H14⟩, ⟨%f15, %hf15, H15⟩, ⟨%d16, %f16, -, H16⟩, ⟨%d17, %f17, -, H17⟩, ⟨%d18, %f18, -, H18⟩, ⟨%d19, %f19, -, H19⟩, ⟨%d20, %f20, -, H20⟩, Hk⟩
    obtain rfl := harg1.eq_unread hf1
    obtain rfl := harg2.eq_unread hf2
    obtain rfl := harg3.eq_unread hf3
    obtain rfl := harg4.eq_unread hf4
    obtain rfl := harg5.eq_unread hf5
    obtain rfl := harg6.eq_unread hf6
    obtain rfl := harg7.eq_unread hf7
    obtain rfl := harg8.eq_unread hf8
    obtain rfl := harg9.eq_unread hf9
    obtain rfl := harg10.eq_unread hf10
    obtain rfl := harg11.eq_unread hf11
    obtain rfl := harg12.eq_unread hf12
    obtain rfl := harg13.eq_unread hf13
    obtain rfl := harg15.eq_unread hf15
    sl_exec (disch := first | exact hc0 | exact hc1)
    sl_step
    iapply Hk
    isplitl [H1]
    · iexists _; isplitr; · ipureintro; exact harg1.read_unread _
      iexact H1
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexists _; isplitr; · ipureintro; exact harg7.read_unread _
      iexact H7
    isplitl [H8]
    · iexists _; isplitr; · ipureintro; exact harg8.read_unread _
      iexact H8
    isplitl [H9]
    · iexists _; isplitr; · ipureintro; exact harg9.read_unread _
      iexact H9
    isplitl [H10]
    · iexists _; isplitr; · ipureintro; exact harg10.read_unread _
      iexact H10
    isplitl [H11]
    · iexists _; isplitr; · ipureintro; exact harg11.read_unread _
      iexact H11
    isplitl [H12]
    · iexists _; isplitr; · ipureintro; exact harg12.read_unread _
      iexact H12
    isplitl [H13]
    · iexists _; isplitr; · ipureintro; exact harg13.read_unread _
      iexact H13
    isplitl [H14]
    · iexists _, _; isplitr; swap; · iexact H14
      ipureintro; rfl
    isplitl [H15]
    · iexists _; isplitr; swap; · iexact H15
      ipureintro; rfl
    isplitl [H16]
    · iexists _; iexact H16
    isplitl [H17]
    · iexists _; iexact H17
    isplitl [H18]
    · iexists _; iexact H18
    isplitl [H19]
    · iexists _; iexact H19
    · iexists _; iexact H20

end Cert.KernelIdeal.Body

end
-- ==== Proof.KernelIdealNamedB.lean ====
/-
  The body at a middle grid point, run symbolically with the contents it depends on named: the thirteen input buffers, and of the
  output buffer and the six scratch buffers those the case reads before overwriting. A buffer the case only reads comes
  back as it was; one it stores into comes back with the case's stores written over what it held (or, when the stores
  tile the buffer before any read, over contents that no longer matter), piece by piece; the pieces (a rectangle and the
  value stored there, as a term over the named contents) are found by the run itself.
-/
import proofs.«169155_g70909910057105_cont_sun_m_1383_19_alg».proof.Proof.KernelIdealCases
import proofs.«169155_g70909910057105_cont_sun_m_1383_19_alg».proof.Proof.Gen.KernelIdeal.Skeleton

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 16000000 in
/-- The body's stores at a middle grid point, per buffer it stores into (last store first), with the proof that the body runs to the
    continuation holding every buffer as described above. -/
noncomputable def namedB (c : Dev nD) (i : grid0.Coords) (arg1 : Memref sig .tc .vmem S64x512x128 .f32) (harg1 : arg1.IsWhole) (arg2 : Memref sig .tc .vmem S512x512 .i32) (harg2 : arg2.IsWhole) (arg3 : Memref sig .tc .vmem S512x2x128 .f32) (harg3 : arg3.IsWhole) (arg4 : Memref sig .tc .vmem S128x128 .f32) (harg4 : arg4.IsWhole) (arg5 : Memref sig .tc .vmem S128x128 .f32) (harg5 : arg5.IsWhole) (arg6 : Memref sig .tc .vmem S4x1 .f32) (harg6 : arg6.IsWhole) (arg7 : Memref sig .tc .vmem S4x1 .f32) (harg7 : arg7.IsWhole) (arg8 : Memref sig .tc .vmem S128x128 .f32) (harg8 : arg8.IsWhole) (arg9 : Memref sig .tc .vmem S4x32 .f32) (harg9 : arg9.IsWhole) (arg10 : Memref sig .tc .vmem S4x32 .f32) (harg10 : arg10.IsWhole) (arg11 : Memref sig .tc .vmem S128x128 .f32) (harg11 : arg11.IsWhole) (arg12 : Memref sig .tc .vmem S4x32 .f32) (harg12 : arg12.IsWhole) (arg13 : Memref sig .tc .vmem S4x32 .f32) (harg13 : arg13.IsWhole) (arg14 : Memref sig .tc .vmem S512x2x128 .f32) (harg14 : arg14.IsWhole) (arg15 : Memref sig .tc .vmem S4x512x512 .f32) (harg15 : arg15.IsWhole) (arg16 : Memref sig .tc .vmem S2x512x128 .f32) (harg16 : arg16.IsWhole) (arg17 : Memref sig .tc .vmem S512x8 .f32) (harg17 : arg17.IsWhole) (arg18 : Memref sig .tc .vmem S8x512 .f32) (harg18 : arg18.IsWhole) (arg19 : Memref sig .tc .vmem S2x512x128 .f32) (harg19 : arg19.IsWhole) (arg20 : Memref sig .tc .vmem S8x512 .f32) (harg20 : arg20.IsWhole) (hc0 : ¬isFirst i) (hc1 : ¬isLast i)
    (x1 : Vec F S64x512x128 .f32) (x2 : Vec F S512x512 .i32) (x3 : Vec F S512x2x128 .f32) (x4 : Vec F S128x128 .f32) (x5 : Vec F S128x128 .f32) (x6 : Vec F S4x1 .f32) (x7 : Vec F S4x1 .f32) (x8 : Vec F S128x128 .f32) (x9 : Vec F S4x32 .f32) (x10 : Vec F S4x32 .f32) (x11 : Vec F S128x128 .f32) (x12 : Vec F S4x32 .f32) (x13 : Vec F S4x32 .f32) (y15 : Vec F S4x512x512 .f32) (y16 : Vec F S2x512x128 .f32) (y17 : Vec F S512x8 .f32) (y18 : Vec F S8x512 .f32) (y19 : Vec F S2x512x128 .f32) (y20 : Vec F S8x512 .f32) :
    Σ' (L15 : List (View.Piece (Elt F) S4x512x512 .f32)) (L19 : List (View.Piece (Elt F) S2x512x128 .f32)), { L20 : List (View.Piece (Elt F) S8x512 .f32) //
      ∀ (E : Set ℕ) (K : PUnit → sProp 𝕄),
        iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare x12 ∗ owns (c : Thread nD τ) arg13 fullShare x13 ∗ (∃ d, owns (c : Thread nD τ) arg14 fullShare d) ∗ owns (c : Thread nD τ) arg15 fullShare y15 ∗ owns (c : Thread nD τ) arg16 fullShare y16 ∗ owns (c : Thread nD τ) arg17 fullShare y17 ∗ owns (c : Thread nD τ) arg18 fullShare y18 ∗ owns (c : Thread nD τ) arg19 fullShare y19 ∗ owns (c : Thread nD τ) arg20 fullShare y20
            ∗ (iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare x12 ∗ owns (c : Thread nD τ) arg13 fullShare x13 ∗ (∃ d, owns (c : Thread nD τ) arg14 fullShare d) ∗ owns (c : Thread nD τ) arg15 fullShare (arg15.view.read (Elt F) (arg15.view.writes (Elt F) (harg15.unread y15) L15)) ∗ owns (c : Thread nD τ) arg16 fullShare y16 ∗ owns (c : Thread nD τ) arg17 fullShare y17 ∗ owns (c : Thread nD τ) arg18 fullShare y18 ∗ owns (c : Thread nD τ) arg19 fullShare (arg19.view.read (Elt F) (arg19.view.writes (Elt F) (harg19.unread y19) L19)) ∗ owns (c : Thread nD τ) arg20 fullShare (arg20.view.read (Elt F) (arg20.view.writes (Elt F) (harg20.unread y20) L20))) -∗ K ⟨⟩))
          ⊢ wp frame (wpE (defs₀ (F := F)) Variants.none c none) E (cc0__fused_body i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20) K } := by
  refine ⟨?_, ?_, ?_, fun E K => ?run⟩
  case run =>
    simp only [cc0__fused_body_eq_skeleton]; unfold cc0__fused_body_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton]
    unfold owns
    iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%d14, %f14, -, H14⟩, ⟨%f15, %hf15, H15⟩, ⟨%f16, %hf16, H16⟩, ⟨%f17, %hf17, H17⟩, ⟨%f18, %hf18, H18⟩, ⟨%f19, %hf19, H19⟩, ⟨%f20, %hf20, H20⟩, Hk⟩
    obtain rfl := harg1.eq_unread hf1
    obtain rfl := harg2.eq_unread hf2
    obtain rfl := harg3.eq_unread hf3
    obtain rfl := harg4.eq_unread hf4
    obtain rfl := harg5.eq_unread hf5
    obtain rfl := harg6.eq_unread hf6
    obtain rfl := harg7.eq_unread hf7
    obtain rfl := harg8.eq_unread hf8
    obtain rfl := harg9.eq_unread hf9
    obtain rfl := harg10.eq_unread hf10
    obtain rfl := harg11.eq_unread hf11
    obtain rfl := harg12.eq_unread hf12
    obtain rfl := harg13.eq_unread hf13
    obtain rfl := harg15.eq_unread hf15
    obtain rfl := harg16.eq_unread hf16
    obtain rfl := harg17.eq_unread hf17
    obtain rfl := harg18.eq_unread hf18
    obtain rfl := harg19.eq_unread hf19
    obtain rfl := harg20.eq_unread hf20
    sl_exec (disch := first | exact hc0 | exact hc1)
    sl_step
    iapply Hk
    isplitl [H1]
    · iexists _; isplitr; · ipureintro; exact harg1.read_unread _
      iexact H1
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexists _; isplitr; · ipureintro; exact harg7.read_unread _
      iexact H7
    isplitl [H8]
    · iexists _; isplitr; · ipureintro; exact harg8.read_unread _
      iexact H8
    isplitl [H9]
    · iexists _; isplitr; · ipureintro; exact harg9.read_unread _
      iexact H9
    isplitl [H10]
    · iexists _; isplitr; · ipureintro; exact harg10.read_unread _
      iexact H10
    isplitl [H11]
    · iexists _; isplitr; · ipureintro; exact harg11.read_unread _
      iexact H11
    isplitl [H12]
    · iexists _; isplitr; · ipureintro; exact harg12.read_unread _
      iexact H12
    isplitl [H13]
    · iexists _; isplitr; · ipureintro; exact harg13.read_unread _
      iexact H13
    isplitl [H14]
    · iexists _, _; isplitr; swap; · iexact H14
      ipureintro; rfl
    isplitl [H15]
    · iexists _; isplitr; swap; · iexact H15
      ipureintro; rfl
    isplitl [H16]
    · iexists _; isplitr; · ipureintro; exact harg16.read_unread _
      iexact H16
    isplitl [H17]
    · iexists _; isplitr; · ipureintro; exact harg17.read_unread _
      iexact H17
    isplitl [H18]
    · iexists _; isplitr; · ipureintro; exact harg18.read_unread _
      iexact H18
    isplitl [H19]
    · iexists _; isplitr; swap; · iexact H19
      ipureintro; rfl
    · iexists _; isplitr; swap; · iexact H20
      ipureintro; rfl

end Cert.KernelIdeal.Body

end
-- ==== Proof.KernelIdealNamedC.lean ====
/-
  The body at the last grid point, run symbolically with the contents it depends on named: the thirteen input buffers, and of the
  output buffer and the six scratch buffers those the case reads before overwriting. A buffer the case only reads comes
  back as it was; one it stores into comes back with the case's stores written over what it held (or, when the stores
  tile the buffer before any read, over contents that no longer matter), piece by piece; the pieces (a rectangle and the
  value stored there, as a term over the named contents) are found by the run itself.
-/
import proofs.«169155_g70909910057105_cont_sun_m_1383_19_alg».proof.Proof.KernelIdealCases
import proofs.«169155_g70909910057105_cont_sun_m_1383_19_alg».proof.Proof.Gen.KernelIdeal.Skeleton

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 16000000 in
/-- The body's stores at the last grid point, per buffer it stores into (last store first), with the proof that the body runs to the
    continuation holding every buffer as described above. -/
noncomputable def namedC (c : Dev nD) (i : grid0.Coords) (arg1 : Memref sig .tc .vmem S64x512x128 .f32) (harg1 : arg1.IsWhole) (arg2 : Memref sig .tc .vmem S512x512 .i32) (harg2 : arg2.IsWhole) (arg3 : Memref sig .tc .vmem S512x2x128 .f32) (harg3 : arg3.IsWhole) (arg4 : Memref sig .tc .vmem S128x128 .f32) (harg4 : arg4.IsWhole) (arg5 : Memref sig .tc .vmem S128x128 .f32) (harg5 : arg5.IsWhole) (arg6 : Memref sig .tc .vmem S4x1 .f32) (harg6 : arg6.IsWhole) (arg7 : Memref sig .tc .vmem S4x1 .f32) (harg7 : arg7.IsWhole) (arg8 : Memref sig .tc .vmem S128x128 .f32) (harg8 : arg8.IsWhole) (arg9 : Memref sig .tc .vmem S4x32 .f32) (harg9 : arg9.IsWhole) (arg10 : Memref sig .tc .vmem S4x32 .f32) (harg10 : arg10.IsWhole) (arg11 : Memref sig .tc .vmem S128x128 .f32) (harg11 : arg11.IsWhole) (arg12 : Memref sig .tc .vmem S4x32 .f32) (harg12 : arg12.IsWhole) (arg13 : Memref sig .tc .vmem S4x32 .f32) (harg13 : arg13.IsWhole) (arg14 : Memref sig .tc .vmem S512x2x128 .f32) (harg14 : arg14.IsWhole) (arg15 : Memref sig .tc .vmem S4x512x512 .f32) (harg15 : arg15.IsWhole) (arg16 : Memref sig .tc .vmem S2x512x128 .f32) (harg16 : arg16.IsWhole) (arg17 : Memref sig .tc .vmem S512x8 .f32) (harg17 : arg17.IsWhole) (arg18 : Memref sig .tc .vmem S8x512 .f32) (harg18 : arg18.IsWhole) (arg19 : Memref sig .tc .vmem S2x512x128 .f32) (harg19 : arg19.IsWhole) (arg20 : Memref sig .tc .vmem S8x512 .f32) (harg20 : arg20.IsWhole) (hc0 : ¬isFirst i) (hc1 : isLast i)
    (x1 : Vec F S64x512x128 .f32) (x2 : Vec F S512x512 .i32) (x3 : Vec F S512x2x128 .f32) (x4 : Vec F S128x128 .f32) (x5 : Vec F S128x128 .f32) (x6 : Vec F S4x1 .f32) (x7 : Vec F S4x1 .f32) (x8 : Vec F S128x128 .f32) (x9 : Vec F S4x32 .f32) (x10 : Vec F S4x32 .f32) (x11 : Vec F S128x128 .f32) (x12 : Vec F S4x32 .f32) (x13 : Vec F S4x32 .f32) (y15 : Vec F S4x512x512 .f32) (y16 : Vec F S2x512x128 .f32) (y17 : Vec F S512x8 .f32) (y18 : Vec F S8x512 .f32) (y19 : Vec F S2x512x128 .f32) (y20 : Vec F S8x512 .f32) :
    Σ' (L14 : List (View.Piece (Elt F) S512x2x128 .f32)) (L15 : List (View.Piece (Elt F) S4x512x512 .f32)) (L19 : List (View.Piece (Elt F) S2x512x128 .f32)), { L20 : List (View.Piece (Elt F) S8x512 .f32) //
      ∀ (E : Set ℕ) (K : PUnit → sProp 𝕄),
        iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare x12 ∗ owns (c : Thread nD τ) arg13 fullShare x13 ∗ (∃ d, owns (c : Thread nD τ) arg14 fullShare d) ∗ owns (c : Thread nD τ) arg15 fullShare y15 ∗ owns (c : Thread nD τ) arg16 fullShare y16 ∗ owns (c : Thread nD τ) arg17 fullShare y17 ∗ owns (c : Thread nD τ) arg18 fullShare y18 ∗ owns (c : Thread nD τ) arg19 fullShare y19 ∗ owns (c : Thread nD τ) arg20 fullShare y20
            ∗ (iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare x12 ∗ owns (c : Thread nD τ) arg13 fullShare x13 ∗ (∃ f, arg14.view.loc (c : Thread nD τ) ↦[arg14.view.set]{fullShare} arg14.view.writes (Elt F) f L14) ∗ owns (c : Thread nD τ) arg15 fullShare (arg15.view.read (Elt F) (arg15.view.writes (Elt F) (harg15.unread y15) L15)) ∗ owns (c : Thread nD τ) arg16 fullShare y16 ∗ owns (c : Thread nD τ) arg17 fullShare y17 ∗ owns (c : Thread nD τ) arg18 fullShare y18 ∗ owns (c : Thread nD τ) arg19 fullShare (arg19.view.read (Elt F) (arg19.view.writes (Elt F) (harg19.unread y19) L19)) ∗ owns (c : Thread nD τ) arg20 fullShare (arg20.view.read (Elt F) (arg20.view.writes (Elt F) (harg20.unread y20) L20))) -∗ K ⟨⟩))
          ⊢ wp frame (wpE (defs₀ (F := F)) Variants.none c none) E (cc0__fused_body i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20) K } := by
  refine ⟨?_, ?_, ?_, ?_, fun E K => ?run⟩
  case run =>
    simp only [cc0__fused_body_eq_skeleton]; unfold cc0__fused_body_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton]
    unfold owns
    iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%d14, %f14, -, H14⟩, ⟨%f15, %hf15, H15⟩, ⟨%f16, %hf16, H16⟩, ⟨%f17, %hf17, H17⟩, ⟨%f18, %hf18, H18⟩, ⟨%f19, %hf19, H19⟩, ⟨%f20, %hf20, H20⟩, Hk⟩
    obtain rfl := harg1.eq_unread hf1
    obtain rfl := harg2.eq_unread hf2
    obtain rfl := harg3.eq_unread hf3
    obtain rfl := harg4.eq_unread hf4
    obtain rfl := harg5.eq_unread hf5
    obtain rfl := harg6.eq_unread hf6
    obtain rfl := harg7.eq_unread hf7
    obtain rfl := harg8.eq_unread hf8
    obtain rfl := harg9.eq_unread hf9
    obtain rfl := harg10.eq_unread hf10
    obtain rfl := harg11.eq_unread hf11
    obtain rfl := harg12.eq_unread hf12
    obtain rfl := harg13.eq_unread hf13
    obtain rfl := harg15.eq_unread hf15
    obtain rfl := harg16.eq_unread hf16
    obtain rfl := harg17.eq_unread hf17
    obtain rfl := harg18.eq_unread hf18
    obtain rfl := harg19.eq_unread hf19
    obtain rfl := harg20.eq_unread hf20
    sl_exec (disch := first | exact hc0 | exact hc1)
    sl_step
    iapply Hk
    isplitl [H1]
    · iexists _; isplitr; · ipureintro; exact harg1.read_unread _
      iexact H1
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexists _; isplitr; · ipureintro; exact harg7.read_unread _
      iexact H7
    isplitl [H8]
    · iexists _; isplitr; · ipureintro; exact harg8.read_unread _
      iexact H8
    isplitl [H9]
    · iexists _; isplitr; · ipureintro; exact harg9.read_unread _
      iexact H9
    isplitl [H10]
    · iexists _; isplitr; · ipureintro; exact harg10.read_unread _
      iexact H10
    isplitl [H11]
    · iexists _; isplitr; · ipureintro; exact harg11.read_unread _
      iexact H11
    isplitl [H12]
    · iexists _; isplitr; · ipureintro; exact harg12.read_unread _
      iexact H12
    isplitl [H13]
    · iexists _; isplitr; · ipureintro; exact harg13.read_unread _
      iexact H13
    isplitl [H14]
    · iexists _; iexact H14
    isplitl [H15]
    · iexists _; isplitr; swap; · iexact H15
      ipureintro; rfl
    isplitl [H16]
    · iexists _; isplitr; · ipureintro; exact harg16.read_unread _
      iexact H16
    isplitl [H17]
    · iexists _; isplitr; · ipureintro; exact harg17.read_unread _
      iexact H17
    isplitl [H18]
    · iexists _; isplitr; · ipureintro; exact harg18.read_unread _
      iexact H18
    isplitl [H19]
    · iexists _; isplitr; swap; · iexact H19
      ipureintro; rfl
    · iexists _; isplitr; swap; · iexact H20
      ipureintro; rfl

end Cert.KernelIdeal.Body

end
-- ==== Proof.SpecDenseGat.lean ====
/-
  The specification shared by the two programs: two layers of dense masked multi-head graph attention over the
  extended reals, as ONE function of the argument arrays, index by index. It mentions no program.

  A layer takes node features X (512 nodes, batch 2, 128 features), the edge mask M (an edge from source s to target t
  exists when the adjacency entry is nonzero), edge features E (128 per ordered pair), two 128 x 128 projections Wn
  and We, and per-head vectors: 4 heads of width 32, so feature q = 32 h + d belongs to head h. For a batch slice b:
    hN i q    = sum over k of X i b k * Wn q k                      (projected node features)
    es s t h  = (sum over d, k of E s t k * We (32 h + d) k) * ae h  (edge score, summed over the head's columns)
    ss s h    = sum over d of hN s (32 h + d) * as h d               (source score), ts likewise with at
    z s t h   = leaky (ss s h + ts t h + es s t h)                   (slope: the f32 word nearest 0.2)
    ex s t h  = exp (z s t h) on an edge, 0 off it
    den t h   = 0 + sum over s of ex s t h
    attn s t h = ex s t h / (den t h + eps)                          (eps: the f32 word nearest 1e-16)
    out t b (32 h + d) = 0 + sum over s of hN s (32 h + d) * attn s t h.
  The network is the layer applied twice, the second layer's node features the first layer's output, the mask and the
  edge features shared.
-/
import Idealize.ShloMosaic.PureOps.Ideal
import Mathlib.Algebra.BigOperators.Fin

noncomputable section

namespace Cert.Spec.DenseGat

open Idealize.ShloMosaic

/-- Feature `32 h + d`: column `d` of head `h`. -/
def feat (h : Fin 4) (d : Fin 32) : Fin 128 := ⟨32 * h.val + d.val, by have := h.isLt; have := d.isLt; omega⟩
/-- The head of a feature, -/
def headOf (q : Fin 128) : Fin 4 := ⟨q.val / 32, by have := q.isLt; omega⟩
/-- and its column within the head. -/
def colOf (q : Fin 128) : Fin 32 := ⟨q.val % 32, Nat.mod_lt _ (by decide)⟩

theorem feat_headOf_colOf (q : Fin 128) : feat (headOf q) (colOf q) = q :=
  Fin.ext (by simp only [feat, headOf, colOf]; omega)

/-- The slope of the leaky rectifier and the guard added to a denominator, as the float words both programs carry. -/
def leakSlope : EReal := Ideal.ofBits .f32 0x3E4CCCCD#32
def eps : EReal := Ideal.ofBits .f32 0x24E69595#32

/-- The leaky rectifier. -/
def leaky (x : EReal) : EReal := if 0 ≤ x then x else leakSlope * x

/-- The arrays a layer reads besides its node features. -/
structure Params where
  /-- the node projection, -/
  Wn : Fin 128 → Fin 128 → EReal
  /-- the edge projection, -/
  We : Fin 128 → Fin 128 → EReal
  /-- the per-head source, target and edge vectors. -/
  aS : Fin 4 → Fin 32 → EReal
  aT : Fin 4 → Fin 32 → EReal
  aE : Fin 4 → EReal

variable (M : Fin 512 → Fin 512 → Prop) [DecidableRel M] (E : Fin 512 → Fin 512 → Fin 128 → EReal) (P : Params)
  (X : Fin 512 → Fin 2 → Fin 128 → EReal)

/-- Projected node features of batch slice `b`. -/
def proj (b : Fin 2) (i : Fin 512) (q : Fin 128) : EReal := ∑ k, X i b k * P.Wn q k
/-- The edge score of head `h` on the pair `(s, t)`. -/
def edgeScore (s t : Fin 512) (h : Fin 4) : EReal := (∑ d : Fin 32, ∑ k, E s t k * P.We (feat h d) k) * P.aE h
/-- The source and target scores of a node. -/
def srcScore (b : Fin 2) (s : Fin 512) (h : Fin 4) : EReal := ∑ d, proj P X b s (feat h d) * P.aS h d
def tgtScore (b : Fin 2) (t : Fin 512) (h : Fin 4) : EReal := ∑ d, proj P X b t (feat h d) * P.aT h d
/-- The masked exponential of the rectified score. -/
def expScore (b : Fin 2) (s t : Fin 512) (h : Fin 4) : EReal :=
  if M s t then Ideal.exp (leaky (srcScore P X b s h + tgtScore P X b t h + edgeScore E P s t h)) else 0
/-- The softmax denominator of target `t`: over all sources. -/
def denom (b : Fin 2) (t : Fin 512) (h : Fin 4) : EReal := 0 + ∑ s, expScore M E P X b s t h
/-- The attention weight of the pair. -/
def attn (b : Fin 2) (s t : Fin 512) (h : Fin 4) : EReal :=
  Ideal.div (expScore M E P X b s t h) (denom M E P X b t h + eps)
/-- One layer: each target's attention-weighted sum of the sources' projected features. -/
def layer (t : Fin 512) (b : Fin 2) (q : Fin 128) : EReal :=
  0 + ∑ s, proj P X b s q * attn M E P X b s t (headOf q)

/-- The network: two layers. -/
def network (P1 P2 : Params) : Fin 512 → Fin 2 → Fin 128 → EReal :=
  layer M E P2 (layer M E P1 X)

end Cert.Spec.DenseGat

end
-- ==== Proof.LibScatterSum.lean ====
/-
  Two general facts for comparing a blocked, dense computation with a gather / scatter-add formulation of the
  same sums. Nothing here mentions a program.

  * Over the extended reals the host's accumulating float scatter is, at each element, the operand's element plus
    the sum of the updates whose result index is that element. When those updates are exactly the image of an
    injective enumeration `g` (for a dense edge list: the edges with a given target, enumerated by their source),
    the sum is a plain sum over the enumeration.
  * A sum over `m * n` consecutive rows is the sum over the `m` blocks of the sums over each block's `n` rows.
-/
import Idealize.ShloMosaic.PureOps.Ideal
import Mathlib.Algebra.BigOperators.Fin
import Mathlib.Logic.Equiv.Fin.Basic

noncomputable section

namespace Cert.Lib.ScatterSum

open Idealize.ShloMosaic

/-- The accumulating scatter at element `i`, when the updates landing on `i` are enumerated without repetition by
    `g`: the operand's element plus the sum of those updates. -/
theorem hostScatterAdd_apply_of_fiber {s si su : Shape} (d : ScatterDims s si su) {w : Nat} (x : s.Idx → EReal)
    (idx : IVec si w) (upd : su.Idx → EReal) (i : s.Idx) {κ : Type*} [Fintype κ] (g : κ → su.Idx)
    (hg : Function.Injective g) (h : ∀ j, d.resultIdx? j idx = some i ↔ ∃ k, g k = j) :
    Ideal.hostScatterAdd d x idx upd i = x i + ∑ k, upd (g k) := by
  classical
  unfold Ideal.hostScatterAdd
  have e : (Finset.univ.filter fun j => d.resultIdx? j idx = some i) = Finset.univ.image g := by
    ext j
    simp only [Finset.mem_filter, Finset.mem_univ, true_and, Finset.mem_image, h]
  have e' : (∑ j ∈ Finset.univ.filter (fun j => d.resultIdx? j idx = some i), upd j) = ∑ k, upd (g k) := by
    rw [← Finset.sum_image (s := Finset.univ) (g := g) (f := upd) (fun a _ b _ hab => hg hab), ← e]
  exact congrArg (x i + ·) e'

/-- Row `i` of block `b` is a row of the whole. -/
theorem block_row_lt {m n b i : ℕ} (hb : b < m) (hi : i < n) : b * n + i < m * n :=
  calc b * n + i < b * n + n := Nat.add_lt_add_left hi _
    _ = (b + 1) * n := by ring
    _ ≤ m * n := Nat.mul_le_mul_right _ hb

/-- A sum over `m * n` rows, block by block. -/
theorem sum_blocks {M : Type*} [AddCommMonoid M] (m n : ℕ) (f : Fin (m * n) → M) :
    ∑ k, f k = ∑ b : Fin m, ∑ i : Fin n, f ⟨b.val * n + i.val, block_row_lt b.isLt i.isLt⟩ := by
  rw [← Equiv.sum_comp finProdFinEquiv f, Fintype.sum_prod_type]
  refine Finset.sum_congr rfl fun b _ => Finset.sum_congr rfl fun i _ => congrArg f (Fin.ext ?_)
  simp only [finProdFinEquiv_apply_val]
  ring

end Cert.Lib.ScatterSum

end
-- ==== Proof.KernelIdealState.lean ====
/-
  What the kernel's buffers hold, as explicit functions of the thirteen argument arrays — the vocabulary in which the run
  of the eight grid points is described. Layer 1 is accumulated block by block: after the first n blocks of 64 source
  rows the denominator and numerator accumulators hold the sums over the sources s < 64 n.
    score b h p      the per-head score of node p in batch slice b (source or target, by the vector used)
    es w ae h s t    the edge score of head h on (s, t), for a layer's edge weights w and edge vector ae
    p1 b h s t       layer 1's masked exponential: mask (s,t) * exp (leaky (src score s + tgt score t + edge score))
    den1 n, num1 n   the partial sums over s < 64 n of p1, and of p1 times the projected feature of s
  It mentions no program.
-/
import proofs.«169155_g70909910057105_cont_sun_m_1383_19_alg».proof.Proof.SpecDenseGat
import proofs.«169155_g70909910057105_cont_sun_m_1383_19_alg».proof.Proof.LibScatterSum
import Idealize.ShloMosaic.Lib.ValueIdx
import Idealize.ShloMosaic.PureOps.Ideal

noncomputable section

namespace Cert.KernelIdeal.State

open Idealize.ShloMosaic Idealize.ShloMosaic.ValueIdx
open Cert.Spec.DenseGat (feat headOf colOf leaky leakSlope)

/-- The shapes' names, spelled out (the programs' own names for them live in the programs' namespaces). -/
abbrev Sh512x512x128 : Shape := ⟨3, ![512, 512, 128]⟩
abbrev Sh512x512 : Shape := ⟨2, ![512, 512]⟩
abbrev Sh512x2x128 : Shape := ⟨3, ![512, 2, 128]⟩
abbrev Sh128x128 : Shape := ⟨2, ![128, 128]⟩
abbrev Sh4x1 : Shape := ⟨2, ![4, 1]⟩
abbrev Sh4x32 : Shape := ⟨2, ![4, 32]⟩

/-- The thirteen argument arrays as the body's windows present them. -/
structure Args where
  ef : Sh512x512x128.Idx → EReal
  adj : Sh512x512.Idx → BitVec 32
  x : Sh512x2x128.Idx → EReal
  w1e : Sh128x128.Idx → EReal
  w2e : Sh128x128.Idx → EReal
  ae1 : Sh4x1.Idx → EReal
  ae2 : Sh4x1.Idx → EReal
  w1n : Sh128x128.Idx → EReal
  as1 : Sh4x32.Idx → EReal
  at1 : Sh4x32.Idx → EReal
  w2n : Sh128x128.Idx → EReal
  as2 : Sh4x32.Idx → EReal
  at2 : Sh4x32.Idx → EReal

variable (A : Args)

/-- Layer 1's projected node features. -/
def h1 (b : Fin 2) (p : Fin 512) (q : Fin 128) : EReal := ∑ k : Fin 128, A.x (ix3 p b k) * A.w1n (ix2 q k)
/-- A per-head score of node p against the head vectors a. -/
def score1 (a : Sh4x32.Idx → EReal) (b : Fin 2) (h : Fin 4) (p : Fin 512) : EReal :=
  ∑ d : Fin 32, h1 A b p (feat h d) * a (ix2 h d)
/-- An edge score: the head's 32 weight rows summed, contracted with the pair's features, times the head's edge coefficient. -/
def es (w : Sh128x128.Idx → EReal) (ae : Sh4x1.Idx → EReal) (h : Fin 4) (s t : Fin 512) : EReal :=
  (∑ k : Fin 128, (∑ d : Fin 32, w (ix2 (feat h d) k)) * A.ef (ix3 s t k)) * ae (ix2 h (0 : Fin 1))
/-- The 0/1 edge mask. -/
def msk (s t : Fin 512) : EReal := if A.adj (ix2 s t) ≠ 0#32 then 1 else 0
/-- Layer 1's masked exponential. -/
def p1 (b : Fin 2) (h : Fin 4) (s t : Fin 512) : EReal :=
  msk A s t * Ideal.exp (leaky (score1 A A.as1 b h s + score1 A A.at1 b h t + es A A.w1e A.ae1 h s t))
/-- The denominator accumulator after the first n blocks of 64 sources. -/
def den1 (n : ℕ) (b : Fin 2) (h : Fin 4) (t : Fin 512) : EReal :=
  ∑ s : Fin 512, if s.val < 64 * n then p1 A b h s t else 0
/-- The numerator accumulator after the first n blocks. -/
def num1 (n : ℕ) (b : Fin 2) (t : Fin 512) (q : Fin 128) : EReal :=
  ∑ s : Fin 512, if s.val < 64 * n then p1 A b (headOf q) s t * h1 A b s q else 0

/-- Source row i of block c. -/
def rowOf (c : Fin 8) (i : Fin 64) : Fin 512 := ⟨64 * c.val + i.val, by have := c.isLt; have := i.isLt; omega⟩

/-- One more block: the partial sum over s < 64 (n + 1) is the one over s < 64 n plus block n's 64 rows. -/
theorem sum_next_block {M : Type*} [AddCommMonoid M] (f : Fin 512 → M) (c : Fin 8) :
    (∑ s : Fin 512, if s.val < 64 * (c.val + 1) then f s else 0)
      = (∑ s : Fin 512, if s.val < 64 * c.val then f s else 0) + ∑ i : Fin 64, f (rowOf c i) := by
  have split : ∀ s : Fin 512, (if s.val < 64 * (c.val + 1) then f s else 0)
      = (if s.val < 64 * c.val then f s else 0) + (if s.val / 64 = c.val then f s else 0) := fun s => by
    by_cases h1 : s.val < 64 * c.val
    · have h2 : s.val < 64 * (c.val + 1) := by omega
      have h3 : ¬ s.val / 64 = c.val := by omega
      rw [if_pos h1, if_pos h2, if_neg h3, add_zero]
    · by_cases h3 : s.val / 64 = c.val
      · have h2 : s.val < 64 * (c.val + 1) := by omega
        rw [if_neg h1, if_pos h2, if_pos h3, zero_add]
      · have h2 : ¬ s.val < 64 * (c.val + 1) := by omega
        rw [if_neg h1, if_neg h2, if_neg h3, add_zero]
  rw [Finset.sum_congr rfl (fun s _ => split s), Finset.sum_add_distrib]
  refine congrArg (_ + ·) ?_
  have e : (∑ s : Fin 512, if s.val / 64 = c.val then f s else 0) = ∑ s : Fin (8 * 64), if s.val / 64 = c.val then f ⟨s.val, s.isLt⟩ else 0 := rfl
  rw [e, Cert.Lib.ScatterSum.sum_blocks 8 64, Finset.sum_eq_single c]
  · refine Finset.sum_congr rfl fun i _ => ?_
    have h : (c.val * 64 + i.val) / 64 = c.val := by have := i.isLt; omega
    rw [if_pos h]
    exact congrArg f (Fin.ext (by show c.val * 64 + i.val = 64 * c.val + i.val; omega))
  · intro b _ hb
    refine Finset.sum_eq_zero fun i _ => ?_
    have h : ¬ (b.val * 64 + i.val) / 64 = c.val := by
      have := i.isLt; intro e; apply hb; apply Fin.ext; omega
    rw [if_neg h]
  · intro hh; exact absurd (Finset.mem_univ c) hh

end Cert.KernelIdeal.State

end
-- ==== Proof.KernelIdealCovers.lean ====
/-
  Which buffers a grid point overwrites WHOLE. At the first point the body stores into every scratch buffer but the
  layer-2 edge scores before it reads any of them, and its stores tile each of those five buffers: what they hold
  afterwards does not depend on what they held before. At the last point the stores into the output buffer tile it.
  (The layer-2 edge-score scratch is different: each point writes only its own 64 source rows of it.)
-/
import proofs.«169155_g70909910057105_cont_sun_m_1383_19_alg».proof.Proof.KernelIdealNamedA
import proofs.«169155_g70909910057105_cont_sun_m_1383_19_alg».proof.Proof.KernelIdealNamedC

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- At the first point the stores into the layer-1 projected node features, both batch slices tile the buffer. -/
theorem coverA_16 (c : Dev nD) (i : grid0.Coords) (arg1 : Memref sig .tc .vmem S64x512x128 .f32) (harg1 : arg1.IsWhole) (arg2 : Memref sig .tc .vmem S512x512 .i32) (harg2 : arg2.IsWhole) (arg3 : Memref sig .tc .vmem S512x2x128 .f32) (harg3 : arg3.IsWhole) (arg4 : Memref sig .tc .vmem S128x128 .f32) (harg4 : arg4.IsWhole) (arg5 : Memref sig .tc .vmem S128x128 .f32) (harg5 : arg5.IsWhole) (arg6 : Memref sig .tc .vmem S4x1 .f32) (harg6 : arg6.IsWhole) (arg7 : Memref sig .tc .vmem S4x1 .f32) (harg7 : arg7.IsWhole) (arg8 : Memref sig .tc .vmem S128x128 .f32) (harg8 : arg8.IsWhole) (arg9 : Memref sig .tc .vmem S4x32 .f32) (harg9 : arg9.IsWhole) (arg10 : Memref sig .tc .vmem S4x32 .f32) (harg10 : arg10.IsWhole) (arg11 : Memref sig .tc .vmem S128x128 .f32) (harg11 : arg11.IsWhole) (arg12 : Memref sig .tc .vmem S4x32 .f32) (harg12 : arg12.IsWhole) (arg13 : Memref sig .tc .vmem S4x32 .f32) (harg13 : arg13.IsWhole) (arg14 : Memref sig .tc .vmem S512x2x128 .f32) (harg14 : arg14.IsWhole) (arg15 : Memref sig .tc .vmem S4x512x512 .f32) (harg15 : arg15.IsWhole) (arg16 : Memref sig .tc .vmem S2x512x128 .f32) (harg16 : arg16.IsWhole) (arg17 : Memref sig .tc .vmem S512x8 .f32) (harg17 : arg17.IsWhole) (arg18 : Memref sig .tc .vmem S8x512 .f32) (harg18 : arg18.IsWhole) (arg19 : Memref sig .tc .vmem S2x512x128 .f32) (harg19 : arg19.IsWhole) (arg20 : Memref sig .tc .vmem S8x512 .f32) (harg20 : arg20.IsWhole) (hc0 : isFirst i) (hc1 : ¬isLast i)
    (x1 : Vec F S64x512x128 .f32) (x2 : Vec F S512x512 .i32) (x3 : Vec F S512x2x128 .f32) (x4 : Vec F S128x128 .f32) (x5 : Vec F S128x128 .f32) (x6 : Vec F S4x1 .f32) (x7 : Vec F S4x1 .f32) (x8 : Vec F S128x128 .f32) (x9 : Vec F S4x32 .f32) (x10 : Vec F S4x32 .f32) (x11 : Vec F S128x128 .f32) (x12 : Vec F S4x32 .f32) (x13 : Vec F S4x32 .f32) (y15 : Vec F S4x512x512 .f32) (y : S2x512x128.Idx) :
    ∃ pc ∈ (namedA c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 hc1 x1 x2 x3 x4 x5 x6 x7 x8 x9 x10 x11 x12 x13 y15).2.1, y ∈ pc.1.set :=
  View.cover_of_tiledBy ((namedA c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 hc1 x1 x2 x3 x4 x5 x6 x7 x8 x9 x10 x11 x12 x13 y15).2.1) S1x512x128.size (by sl_kernel_rfl) y

/-- At the first point the stores into the layer-1 source scores tile the buffer. -/
theorem coverA_17 (c : Dev nD) (i : grid0.Coords) (arg1 : Memref sig .tc .vmem S64x512x128 .f32) (harg1 : arg1.IsWhole) (arg2 : Memref sig .tc .vmem S512x512 .i32) (harg2 : arg2.IsWhole) (arg3 : Memref sig .tc .vmem S512x2x128 .f32) (harg3 : arg3.IsWhole) (arg4 : Memref sig .tc .vmem S128x128 .f32) (harg4 : arg4.IsWhole) (arg5 : Memref sig .tc .vmem S128x128 .f32) (harg5 : arg5.IsWhole) (arg6 : Memref sig .tc .vmem S4x1 .f32) (harg6 : arg6.IsWhole) (arg7 : Memref sig .tc .vmem S4x1 .f32) (harg7 : arg7.IsWhole) (arg8 : Memref sig .tc .vmem S128x128 .f32) (harg8 : arg8.IsWhole) (arg9 : Memref sig .tc .vmem S4x32 .f32) (harg9 : arg9.IsWhole) (arg10 : Memref sig .tc .vmem S4x32 .f32) (harg10 : arg10.IsWhole) (arg11 : Memref sig .tc .vmem S128x128 .f32) (harg11 : arg11.IsWhole) (arg12 : Memref sig .tc .vmem S4x32 .f32) (harg12 : arg12.IsWhole) (arg13 : Memref sig .tc .vmem S4x32 .f32) (harg13 : arg13.IsWhole) (arg14 : Memref sig .tc .vmem S512x2x128 .f32) (harg14 : arg14.IsWhole) (arg15 : Memref sig .tc .vmem S4x512x512 .f32) (harg15 : arg15.IsWhole) (arg16 : Memref sig .tc .vmem S2x512x128 .f32) (harg16 : arg16.IsWhole) (arg17 : Memref sig .tc .vmem S512x8 .f32) (harg17 : arg17.IsWhole) (arg18 : Memref sig .tc .vmem S8x512 .f32) (harg18 : arg18.IsWhole) (arg19 : Memref sig .tc .vmem S2x512x128 .f32) (harg19 : arg19.IsWhole) (arg20 : Memref sig .tc .vmem S8x512 .f32) (harg20 : arg20.IsWhole) (hc0 : isFirst i) (hc1 : ¬isLast i)
    (x1 : Vec F S64x512x128 .f32) (x2 : Vec F S512x512 .i32) (x3 : Vec F S512x2x128 .f32) (x4 : Vec F S128x128 .f32) (x5 : Vec F S128x128 .f32) (x6 : Vec F S4x1 .f32) (x7 : Vec F S4x1 .f32) (x8 : Vec F S128x128 .f32) (x9 : Vec F S4x32 .f32) (x10 : Vec F S4x32 .f32) (x11 : Vec F S128x128 .f32) (x12 : Vec F S4x32 .f32) (x13 : Vec F S4x32 .f32) (y15 : Vec F S4x512x512 .f32) (y : S512x8.Idx) :
    ∃ pc ∈ (namedA c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 hc1 x1 x2 x3 x4 x5 x6 x7 x8 x9 x10 x11 x12 x13 y15).2.2.1, y ∈ pc.1.set :=
  View.cover_of_tiledBy ((namedA c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 hc1 x1 x2 x3 x4 x5 x6 x7 x8 x9 x10 x11 x12 x13 y15).2.2.1) S512x4.size (by sl_kernel_rfl) y

/-- At the first point the stores into the layer-1 target scores tile the buffer. -/
theorem coverA_18 (c : Dev nD) (i : grid0.Coords) (arg1 : Memref sig .tc .vmem S64x512x128 .f32) (harg1 : arg1.IsWhole) (arg2 : Memref sig .tc .vmem S512x512 .i32) (harg2 : arg2.IsWhole) (arg3 : Memref sig .tc .vmem S512x2x128 .f32) (harg3 : arg3.IsWhole) (arg4 : Memref sig .tc .vmem S128x128 .f32) (harg4 : arg4.IsWhole) (arg5 : Memref sig .tc .vmem S128x128 .f32) (harg5 : arg5.IsWhole) (arg6 : Memref sig .tc .vmem S4x1 .f32) (harg6 : arg6.IsWhole) (arg7 : Memref sig .tc .vmem S4x1 .f32) (harg7 : arg7.IsWhole) (arg8 : Memref sig .tc .vmem S128x128 .f32) (harg8 : arg8.IsWhole) (arg9 : Memref sig .tc .vmem S4x32 .f32) (harg9 : arg9.IsWhole) (arg10 : Memref sig .tc .vmem S4x32 .f32) (harg10 : arg10.IsWhole) (arg11 : Memref sig .tc .vmem S128x128 .f32) (harg11 : arg11.IsWhole) (arg12 : Memref sig .tc .vmem S4x32 .f32) (harg12 : arg12.IsWhole) (arg13 : Memref sig .tc .vmem S4x32 .f32) (harg13 : arg13.IsWhole) (arg14 : Memref sig .tc .vmem S512x2x128 .f32) (harg14 : arg14.IsWhole) (arg15 : Memref sig .tc .vmem S4x512x512 .f32) (harg15 : arg15.IsWhole) (arg16 : Memref sig .tc .vmem S2x512x128 .f32) (harg16 : arg16.IsWhole) (arg17 : Memref sig .tc .vmem S512x8 .f32) (harg17 : arg17.IsWhole) (arg18 : Memref sig .tc .vmem S8x512 .f32) (harg18 : arg18.IsWhole) (arg19 : Memref sig .tc .vmem S2x512x128 .f32) (harg19 : arg19.IsWhole) (arg20 : Memref sig .tc .vmem S8x512 .f32) (harg20 : arg20.IsWhole) (hc0 : isFirst i) (hc1 : ¬isLast i)
    (x1 : Vec F S64x512x128 .f32) (x2 : Vec F S512x512 .i32) (x3 : Vec F S512x2x128 .f32) (x4 : Vec F S128x128 .f32) (x5 : Vec F S128x128 .f32) (x6 : Vec F S4x1 .f32) (x7 : Vec F S4x1 .f32) (x8 : Vec F S128x128 .f32) (x9 : Vec F S4x32 .f32) (x10 : Vec F S4x32 .f32) (x11 : Vec F S128x128 .f32) (x12 : Vec F S4x32 .f32) (x13 : Vec F S4x32 .f32) (y15 : Vec F S4x512x512 .f32) (y : S8x512.Idx) :
    ∃ pc ∈ (namedA c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 hc1 x1 x2 x3 x4 x5 x6 x7 x8 x9 x10 x11 x12 x13 y15).2.2.2.1, y ∈ pc.1.set :=
  View.cover_of_tiledBy ((namedA c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 hc1 x1 x2 x3 x4 x5 x6 x7 x8 x9 x10 x11 x12 x13 y15).2.2.2.1) S4x512.size (by sl_kernel_rfl) y

/-- At the first point the stores into the layer-1 numerator accumulator tile the buffer. -/
theorem coverA_19 (c : Dev nD) (i : grid0.Coords) (arg1 : Memref sig .tc .vmem S64x512x128 .f32) (harg1 : arg1.IsWhole) (arg2 : Memref sig .tc .vmem S512x512 .i32) (harg2 : arg2.IsWhole) (arg3 : Memref sig .tc .vmem S512x2x128 .f32) (harg3 : arg3.IsWhole) (arg4 : Memref sig .tc .vmem S128x128 .f32) (harg4 : arg4.IsWhole) (arg5 : Memref sig .tc .vmem S128x128 .f32) (harg5 : arg5.IsWhole) (arg6 : Memref sig .tc .vmem S4x1 .f32) (harg6 : arg6.IsWhole) (arg7 : Memref sig .tc .vmem S4x1 .f32) (harg7 : arg7.IsWhole) (arg8 : Memref sig .tc .vmem S128x128 .f32) (harg8 : arg8.IsWhole) (arg9 : Memref sig .tc .vmem S4x32 .f32) (harg9 : arg9.IsWhole) (arg10 : Memref sig .tc .vmem S4x32 .f32) (harg10 : arg10.IsWhole) (arg11 : Memref sig .tc .vmem S128x128 .f32) (harg11 : arg11.IsWhole) (arg12 : Memref sig .tc .vmem S4x32 .f32) (harg12 : arg12.IsWhole) (arg13 : Memref sig .tc .vmem S4x32 .f32) (harg13 : arg13.IsWhole) (arg14 : Memref sig .tc .vmem S512x2x128 .f32) (harg14 : arg14.IsWhole) (arg15 : Memref sig .tc .vmem S4x512x512 .f32) (harg15 : arg15.IsWhole) (arg16 : Memref sig .tc .vmem S2x512x128 .f32) (harg16 : arg16.IsWhole) (arg17 : Memref sig .tc .vmem S512x8 .f32) (harg17 : arg17.IsWhole) (arg18 : Memref sig .tc .vmem S8x512 .f32) (harg18 : arg18.IsWhole) (arg19 : Memref sig .tc .vmem S2x512x128 .f32) (harg19 : arg19.IsWhole) (arg20 : Memref sig .tc .vmem S8x512 .f32) (harg20 : arg20.IsWhole) (hc0 : isFirst i) (hc1 : ¬isLast i)
    (x1 : Vec F S64x512x128 .f32) (x2 : Vec F S512x512 .i32) (x3 : Vec F S512x2x128 .f32) (x4 : Vec F S128x128 .f32) (x5 : Vec F S128x128 .f32) (x6 : Vec F S4x1 .f32) (x7 : Vec F S4x1 .f32) (x8 : Vec F S128x128 .f32) (x9 : Vec F S4x32 .f32) (x10 : Vec F S4x32 .f32) (x11 : Vec F S128x128 .f32) (x12 : Vec F S4x32 .f32) (x13 : Vec F S4x32 .f32) (y15 : Vec F S4x512x512 .f32) (y : S2x512x128.Idx) :
    ∃ pc ∈ (namedA c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 hc1 x1 x2 x3 x4 x5 x6 x7 x8 x9 x10 x11 x12 x13 y15).2.2.2.2.1, y ∈ pc.1.set :=
  View.cover_of_tiledBy ((namedA c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 hc1 x1 x2 x3 x4 x5 x6 x7 x8 x9 x10 x11 x12 x13 y15).2.2.2.2.1) S1x512x128.size (by sl_kernel_rfl) y

/-- At the first point the stores into the layer-1 denominator accumulator tile the buffer. -/
theorem coverA_20 (c : Dev nD) (i : grid0.Coords) (arg1 : Memref sig .tc .vmem S64x512x128 .f32) (harg1 : arg1.IsWhole) (arg2 : Memref sig .tc .vmem S512x512 .i32) (harg2 : arg2.IsWhole) (arg3 : Memref sig .tc .vmem S512x2x128 .f32) (harg3 : arg3.IsWhole) (arg4 : Memref sig .tc .vmem S128x128 .f32) (harg4 : arg4.IsWhole) (arg5 : Memref sig .tc .vmem S128x128 .f32) (harg5 : arg5.IsWhole) (arg6 : Memref sig .tc .vmem S4x1 .f32) (harg6 : arg6.IsWhole) (arg7 : Memref sig .tc .vmem S4x1 .f32) (harg7 : arg7.IsWhole) (arg8 : Memref sig .tc .vmem S128x128 .f32) (harg8 : arg8.IsWhole) (arg9 : Memref sig .tc .vmem S4x32 .f32) (harg9 : arg9.IsWhole) (arg10 : Memref sig .tc .vmem S4x32 .f32) (harg10 : arg10.IsWhole) (arg11 : Memref sig .tc .vmem S128x128 .f32) (harg11 : arg11.IsWhole) (arg12 : Memref sig .tc .vmem S4x32 .f32) (harg12 : arg12.IsWhole) (arg13 : Memref sig .tc .vmem S4x32 .f32) (harg13 : arg13.IsWhole) (arg14 : Memref sig .tc .vmem S512x2x128 .f32) (harg14 : arg14.IsWhole) (arg15 : Memref sig .tc .vmem S4x512x512 .f32) (harg15 : arg15.IsWhole) (arg16 : Memref sig .tc .vmem S2x512x128 .f32) (harg16 : arg16.IsWhole) (arg17 : Memref sig .tc .vmem S512x8 .f32) (harg17 : arg17.IsWhole) (arg18 : Memref sig .tc .vmem S8x512 .f32) (harg18 : arg18.IsWhole) (arg19 : Memref sig .tc .vmem S2x512x128 .f32) (harg19 : arg19.IsWhole) (arg20 : Memref sig .tc .vmem S8x512 .f32) (harg20 : arg20.IsWhole) (hc0 : isFirst i) (hc1 : ¬isLast i)
    (x1 : Vec F S64x512x128 .f32) (x2 : Vec F S512x512 .i32) (x3 : Vec F S512x2x128 .f32) (x4 : Vec F S128x128 .f32) (x5 : Vec F S128x128 .f32) (x6 : Vec F S4x1 .f32) (x7 : Vec F S4x1 .f32) (x8 : Vec F S128x128 .f32) (x9 : Vec F S4x32 .f32) (x10 : Vec F S4x32 .f32) (x11 : Vec F S128x128 .f32) (x12 : Vec F S4x32 .f32) (x13 : Vec F S4x32 .f32) (y15 : Vec F S4x512x512 .f32) (y : S8x512.Idx) :
    ∃ pc ∈ (namedA c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 hc1 x1 x2 x3 x4 x5 x6 x7 x8 x9 x10 x11 x12 x13 y15).2.2.2.2.2.1, y ∈ pc.1.set :=
  View.cover_of_tiledBy ((namedA c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 hc1 x1 x2 x3 x4 x5 x6 x7 x8 x9 x10 x11 x12 x13 y15).2.2.2.2.2.1) S4x512.size (by sl_kernel_rfl) y

/-- At the last point the stores into the output block, both batch slices tile the buffer. -/
theorem coverC_14 (c : Dev nD) (i : grid0.Coords) (arg1 : Memref sig .tc .vmem S64x512x128 .f32) (harg1 : arg1.IsWhole) (arg2 : Memref sig .tc .vmem S512x512 .i32) (harg2 : arg2.IsWhole) (arg3 : Memref sig .tc .vmem S512x2x128 .f32) (harg3 : arg3.IsWhole) (arg4 : Memref sig .tc .vmem S128x128 .f32) (harg4 : arg4.IsWhole) (arg5 : Memref sig .tc .vmem S128x128 .f32) (harg5 : arg5.IsWhole) (arg6 : Memref sig .tc .vmem S4x1 .f32) (harg6 : arg6.IsWhole) (arg7 : Memref sig .tc .vmem S4x1 .f32) (harg7 : arg7.IsWhole) (arg8 : Memref sig .tc .vmem S128x128 .f32) (harg8 : arg8.IsWhole) (arg9 : Memref sig .tc .vmem S4x32 .f32) (harg9 : arg9.IsWhole) (arg10 : Memref sig .tc .vmem S4x32 .f32) (harg10 : arg10.IsWhole) (arg11 : Memref sig .tc .vmem S128x128 .f32) (harg11 : arg11.IsWhole) (arg12 : Memref sig .tc .vmem S4x32 .f32) (harg12 : arg12.IsWhole) (arg13 : Memref sig .tc .vmem S4x32 .f32) (harg13 : arg13.IsWhole) (arg14 : Memref sig .tc .vmem S512x2x128 .f32) (harg14 : arg14.IsWhole) (arg15 : Memref sig .tc .vmem S4x512x512 .f32) (harg15 : arg15.IsWhole) (arg16 : Memref sig .tc .vmem S2x512x128 .f32) (harg16 : arg16.IsWhole) (arg17 : Memref sig .tc .vmem S512x8 .f32) (harg17 : arg17.IsWhole) (arg18 : Memref sig .tc .vmem S8x512 .f32) (harg18 : arg18.IsWhole) (arg19 : Memref sig .tc .vmem S2x512x128 .f32) (harg19 : arg19.IsWhole) (arg20 : Memref sig .tc .vmem S8x512 .f32) (harg20 : arg20.IsWhole) (hc0 : ¬isFirst i) (hc1 : isLast i)
    (x1 : Vec F S64x512x128 .f32) (x2 : Vec F S512x512 .i32) (x3 : Vec F S512x2x128 .f32) (x4 : Vec F S128x128 .f32) (x5 : Vec F S128x128 .f32) (x6 : Vec F S4x1 .f32) (x7 : Vec F S4x1 .f32) (x8 : Vec F S128x128 .f32) (x9 : Vec F S4x32 .f32) (x10 : Vec F S4x32 .f32) (x11 : Vec F S128x128 .f32) (x12 : Vec F S4x32 .f32) (x13 : Vec F S4x32 .f32) (y15 : Vec F S4x512x512 .f32) (y16 : Vec F S2x512x128 .f32) (y17 : Vec F S512x8 .f32) (y18 : Vec F S8x512 .f32) (y19 : Vec F S2x512x128 .f32) (y20 : Vec F S8x512 .f32) (y : S512x2x128.Idx) :
    ∃ pc ∈ (namedC c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 hc1 x1 x2 x3 x4 x5 x6 x7 x8 x9 x10 x11 x12 x13 y15 y16 y17 y18 y19 y20).1, y ∈ pc.1.set :=
  View.cover_of_tiledBy ((namedC c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 hc1 x1 x2 x3 x4 x5 x6 x7 x8 x9 x10 x11 x12 x13 y15 y16 y17 y18 y19 y20).1) S512x1x128.size (by sl_kernel_rfl) y

end Cert.KernelIdeal.Body

end
-- ==== Proof.KernelIdealData.lean ====
/-
  The proof data of the idealized kernel's one pipeline, with the scratch buffers' contents TRACKED: after n grid points
  the five layer-1 scratch buffers hold explicit functions of the argument arrays (projected features, source and target
  scores, and the numerator and denominator sums over the first 64 n sources), and the layer-2 edge-score scratch holds
  some contents that agree with the layer-2 edge scores on the rows of the first n blocks. What each kind of point does to
  the buffers is taken as a bundle of facts (`PointFacts`): the pipeline's run follows from the bundle, and the bundle is
  proved apart, buffer by buffer.
-/
import proofs.«169155_g70909910057105_cont_sun_m_1383_19_alg».proof.Proof.KernelIdealNamedA
import proofs.«169155_g70909910057105_cont_sun_m_1383_19_alg».proof.Proof.KernelIdealNamedB
import proofs.«169155_g70909910057105_cont_sun_m_1383_19_alg».proof.Proof.KernelIdealNamedC
import proofs.«169155_g70909910057105_cont_sun_m_1383_19_alg».proof.Proof.KernelIdealState
import proofs.«169155_g70909910057105_cont_sun_m_1383_19_alg».proof.Proof.KernelIdealCovers
import proofs.«169155_g70909910057105_cont_sun_m_1383_19_alg».proof.Proof.Gen.KernelIdeal.Frame
import Idealize.ShloMosaic.Lib.Pipeline.Value

set_option maxRecDepth 16384

noncomputable section

namespace Cert.KernelIdeal.Body

open Cert.KernelIdeal Cert.KernelIdeal.Gen
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.State (Args)

local notation "𝕄" => MT nD τ sig Unit (Elt Ideal) ℕ (UR sig nD τ) ℕ

/-! ## The buffers' contents as functions of the arguments, in the buffers' layouts -/

/-- Projected features, laid out (b, p, q). -/
def h1Buf (A : Args) : S2x512x128.Idx → EReal := fun j => State.h1 A ⟨(j 0).val, (j 0).isLt⟩ ⟨(j 1).val, (j 1).isLt⟩ ⟨(j 2).val, (j 2).isLt⟩
/-- Source scores, laid out (p, 4 b + h). -/
def ss1Buf (A : Args) : S512x8.Idx → EReal := fun j => State.score1 A A.as1
  ⟨(j 1).val / 4, by have := (j 1).isLt; change _ < 8 at this; omega⟩ ⟨(j 1).val % 4, Nat.mod_lt _ (by decide)⟩ ⟨(j 0).val, (j 0).isLt⟩
/-- Target scores, laid out (4 b + h, p). -/
def st1Buf (A : Args) : S8x512.Idx → EReal := fun j => State.score1 A A.at1
  ⟨(j 0).val / 4, by have := (j 0).isLt; change _ < 8 at this; omega⟩ ⟨(j 0).val % 4, Nat.mod_lt _ (by decide)⟩ ⟨(j 1).val, (j 1).isLt⟩
/-- The denominator sums over the first n blocks, laid out (4 b + h, t). -/
def denBuf (A : Args) (n : ℕ) : S8x512.Idx → EReal := fun j => State.den1 A n
  ⟨(j 0).val / 4, by have := (j 0).isLt; change _ < 8 at this; omega⟩ ⟨(j 0).val % 4, Nat.mod_lt _ (by decide)⟩ ⟨(j 1).val, (j 1).isLt⟩
/-- The numerator sums over the first n blocks, laid out (b, t, q). -/
def numBuf (A : Args) (n : ℕ) : S2x512x128.Idx → EReal := fun j => State.num1 A n ⟨(j 0).val, (j 0).isLt⟩ ⟨(j 1).val, (j 1).isLt⟩ ⟨(j 2).val, (j 2).isLt⟩
/-- Contents of the layer-2 edge-score scratch that are right on the rows of the first n blocks. -/
def agree (A : Args) (n : ℕ) (Y : S4x512x512.Idx → EReal) : Prop :=
  ∀ (h : Fin 4) (s t : Fin 512), s.val < 64 * n → Y (ix3 h s t) = State.es A A.w2e A.ae2 h s t

variable (m : (ℓ : Loc nD τ sig) → Buf (Elt Ideal) ℓ) (ρ : Dev nD → PrngReg)

/-- Each window's current staging buffer at point `t`, spelled as the pipeline passes it to the body. -/
abbrev ms0 (t : Fin cfg0.N) : Memref sig .tc .vmem S64x512x128 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S512x512 .i32 := win0_1.stage (cfg0.slots t 1)
abbrev hs1 (t : Fin cfg0.N) : (ms1 t).IsWhole := hstage0_1 ((cfg0.slots t 1).cast nbuf0_1)
abbrev ms2 (t : Fin cfg0.N) : Memref sig .tc .vmem S512x2x128 .f32 := win0_2.stage (cfg0.slots t 2)
abbrev hs2 (t : Fin cfg0.N) : (ms2 t).IsWhole := hstage0_2 ((cfg0.slots t 2).cast nbuf0_2)
abbrev ms3 (t : Fin cfg0.N) : Memref sig .tc .vmem S128x128 .f32 := win0_3.stage (cfg0.slots t 3)
abbrev hs3 (t : Fin cfg0.N) : (ms3 t).IsWhole := hstage0_3 ((cfg0.slots t 3).cast nbuf0_3)
abbrev ms4 (t : Fin cfg0.N) : Memref sig .tc .vmem S128x128 .f32 := win0_4.stage (cfg0.slots t 4)
abbrev hs4 (t : Fin cfg0.N) : (ms4 t).IsWhole := hstage0_4 ((cfg0.slots t 4).cast nbuf0_4)
abbrev ms5 (t : Fin cfg0.N) : Memref sig .tc .vmem S4x1 .f32 := win0_5.stage (cfg0.slots t 5)
abbrev hs5 (t : Fin cfg0.N) : (ms5 t).IsWhole := hstage0_5 ((cfg0.slots t 5).cast nbuf0_5)
abbrev ms6 (t : Fin cfg0.N) : Memref sig .tc .vmem S4x1 .f32 := win0_6.stage (cfg0.slots t 6)
abbrev hs6 (t : Fin cfg0.N) : (ms6 t).IsWhole := hstage0_6 ((cfg0.slots t 6).cast nbuf0_6)
abbrev ms7 (t : Fin cfg0.N) : Memref sig .tc .vmem S128x128 .f32 := win0_7.stage (cfg0.slots t 7)
abbrev hs7 (t : Fin cfg0.N) : (ms7 t).IsWhole := hstage0_7 ((cfg0.slots t 7).cast nbuf0_7)
abbrev ms8 (t : Fin cfg0.N) : Memref sig .tc .vmem S4x32 .f32 := win0_8.stage (cfg0.slots t 8)
abbrev hs8 (t : Fin cfg0.N) : (ms8 t).IsWhole := hstage0_8 ((cfg0.slots t 8).cast nbuf0_8)
abbrev ms9 (t : Fin cfg0.N) : Memref sig .tc .vmem S4x32 .f32 := win0_9.stage (cfg0.slots t 9)
abbrev hs9 (t : Fin cfg0.N) : (ms9 t).IsWhole := hstage0_9 ((cfg0.slots t 9).cast nbuf0_9)
abbrev ms10 (t : Fin cfg0.N) : Memref sig .tc .vmem S128x128 .f32 := win0_10.stage (cfg0.slots t 10)
abbrev hs10 (t : Fin cfg0.N) : (ms10 t).IsWhole := hstage0_10 ((cfg0.slots t 10).cast nbuf0_10)
abbrev ms11 (t : Fin cfg0.N) : Memref sig .tc .vmem S4x32 .f32 := win0_11.stage (cfg0.slots t 11)
abbrev hs11 (t : Fin cfg0.N) : (ms11 t).IsWhole := hstage0_11 ((cfg0.slots t 11).cast nbuf0_11)
abbrev ms12 (t : Fin cfg0.N) : Memref sig .tc .vmem S4x32 .f32 := win0_12.stage (cfg0.slots t 12)
abbrev hs12 (t : Fin cfg0.N) : (ms12 t).IsWhole := hstage0_12 ((cfg0.slots t 12).cast nbuf0_12)
abbrev ms13 (t : Fin cfg0.N) : Memref sig .tc .vmem S512x2x128 .f32 := win0_13.stage (cfg0.slots t 13)
abbrev hs13 (t : Fin cfg0.N) : (ms13 t).IsWhole := hstage0_13 ((cfg0.slots t 13).cast nbuf0_13)

/-- What the grid's points do to the buffers, for core `c` whose arguments are `A` and whose output block ends at `out`:
    the first point from any contents; a middle or last point from the tracked contents after the points before it. -/
structure PointFacts (c : Dev nD) (A : Args) (out : S512x2x128.Idx → EReal) : Prop where
  first : ∀ (t : Fin cfg0.N) (h0 : isFirst (grid0.coords t)) (h1 : ¬isLast (grid0.coords t)) (y15 : Vec Ideal S4x512x512 .f32),
    let R := namedA (F := Ideal) c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t) (ms12 t) (hs12 t) (ms13 t) (hs13 t) scr0 (Memref.isWhole_whole _) scr1 (Memref.isWhole_whole _) scr2 (Memref.isWhole_whole _) scr3 (Memref.isWhole_whole _) scr4 (Memref.isWhole_whole _) scr5 (Memref.isWhole_whole _) h0 h1 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) y15
    agree A 1 (scr0.view.read (Elt Ideal) (scr0.view.writes (Elt Ideal) ((Memref.isWhole_whole cc0_scratch0).unread y15) R.1))
    ∧ View.canon R.2.1 = h1Buf A ∧ View.canon R.2.2.1 = ss1Buf A ∧ View.canon R.2.2.2.1 = st1Buf A
    ∧ View.canon R.2.2.2.2.1 = numBuf A 1 ∧ View.canon R.2.2.2.2.2.1 = denBuf A 1
  mid : ∀ (t : Fin cfg0.N) (h0 : ¬isFirst (grid0.coords t)) (h1 : ¬isLast (grid0.coords t)) (y15 : Vec Ideal S4x512x512 .f32),
    agree A t.val y15 →
    let R := namedB (F := Ideal) c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t) (ms12 t) (hs12 t) (ms13 t) (hs13 t) scr0 (Memref.isWhole_whole _) scr1 (Memref.isWhole_whole _) scr2 (Memref.isWhole_whole _) scr3 (Memref.isWhole_whole _) scr4 (Memref.isWhole_whole _) scr5 (Memref.isWhole_whole _) h0 h1 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) y15 (h1Buf A) (ss1Buf A) (st1Buf A) (numBuf A t.val) (denBuf A t.val)
    agree A (t.val + 1) (scr0.view.read (Elt Ideal) (scr0.view.writes (Elt Ideal) ((Memref.isWhole_whole cc0_scratch0).unread y15) R.1))
    ∧ scr4.view.read (Elt Ideal) (scr4.view.writes (Elt Ideal) ((Memref.isWhole_whole cc0_scratch4).unread (numBuf A t.val)) R.2.1) = numBuf A (t.val + 1)
    ∧ scr5.view.read (Elt Ideal) (scr5.view.writes (Elt Ideal) ((Memref.isWhole_whole cc0_scratch5).unread (denBuf A t.val)) R.2.2.1) = denBuf A (t.val + 1)
  last : ∀ (t : Fin cfg0.N) (h0 : ¬isFirst (grid0.coords t)) (h1 : isLast (grid0.coords t)) (y15 : Vec Ideal S4x512x512 .f32),
    agree A t.val y15 →
    let R := namedC (F := Ideal) c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t) (ms12 t) (hs12 t) (ms13 t) (hs13 t) scr0 (Memref.isWhole_whole _) scr1 (Memref.isWhole_whole _) scr2 (Memref.isWhole_whole _) scr3 (Memref.isWhole_whole _) scr4 (Memref.isWhole_whole _) scr5 (Memref.isWhole_whole _) h0 h1 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) y15 (h1Buf A) (ss1Buf A) (st1Buf A) (numBuf A t.val) (denBuf A t.val)
    View.canon R.1 = out

/-! ## The tracked invariant and the proof data -/

/-- The region's invariant before position n: before the first point and after the last the plain one (every scratch at
    anything); in between the tracked contents after n points. -/
def PhiT (c : Dev nD) (A : Args) : (n : ℕ) → n ≤ cfg0.N → sProp 𝕄
  | 0, _ => Pipeline.ΦA spec0 c
  | n + 1, _ => if n + 1 = 8 then Pipeline.ΦA spec0 c else iprop(iprop((∃ Y, owns (c : Thread nD τ) scr0 fullShare Y ∗ ⌜agree A (n + 1) Y⌝)
      ∗ owns (c : Thread nD τ) scr1 fullShare (h1Buf A) ∗ owns (c : Thread nD τ) scr2 fullShare (ss1Buf A)
      ∗ owns (c : Thread nD τ) scr3 fullShare (st1Buf A) ∗ owns (c : Thread nD τ) scr4 fullShare (numBuf A (n + 1))
      ∗ owns (c : Thread nD τ) scr5 fullShare (denBuf A (n + 1))) ∗ (∃ r, prngReg c r))

theorem PhiT_zero (c : Dev nD) (A : Args) (n : ℕ) (h : n ≤ cfg0.N) (hz : n = 0) : PhiT c A n h = Pipeline.ΦA spec0 c := by
  subst hz; rfl

theorem PhiT_last (c : Dev nD) (A : Args) (n : ℕ) (h : n ≤ cfg0.N) (hz : n = 8) : PhiT c A n h = Pipeline.ΦA spec0 c := by
  subst hz; rfl

theorem PhiT_mid (c : Dev nD) (A : Args) (n : ℕ) (h : n ≤ cfg0.N) (h0 : n ≠ 0) (h8 : n ≠ 8) :
    PhiT c A n h = iprop(iprop((∃ Y, owns (c : Thread nD τ) scr0 fullShare Y ∗ ⌜agree A n Y⌝)
      ∗ owns (c : Thread nD τ) scr1 fullShare (h1Buf A) ∗ owns (c : Thread nD τ) scr2 fullShare (ss1Buf A)
      ∗ owns (c : Thread nD τ) scr3 fullShare (st1Buf A) ∗ owns (c : Thread nD τ) scr4 fullShare (numBuf A n)
      ∗ owns (c : Thread nD τ) scr5 fullShare (denBuf A n)) ∗ (∃ r, prngReg c r)) := by
  cases n with
  | zero => exact absurd rfl h0
  | succ n => exact if_neg h8

/-- The proof data on core `c`: the arrays as the region finds them; after the body each input's buffer still at its
    block and the output's at `out` (it matters at the last point only: the window is idle and not written back before);
    the tracked invariant; nothing owed; full shares. -/
def vdats (A : Dev nD → Args) (out : Dev nD → S512x2x128.Idx → EReal) (_ : Fin 1) (c : Dev nD) : Dat τ (Elt Ideal) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => out c
  Φ t := PhiT c (A c) t.val (Nat.le_of_lt_succ t.isLt)
  q _ := fullShare
  owed _ := 0

variable (A : Dev nD → Args) (out : Dev nD → S512x2x128.Idx → EReal)

theorem vA_eq (c : Dev nD) (w : Fin cfg0.W) : (vdats m A out 0 c).A w = V m c (Pipeline.arrRef spec0 w) := by
  dsimp only [vdats]

theorem vafter_0 (c : Dev nD) (t : Fin cfg0.N) : (vdats m A out 0 c).after 0 t = iblk m c 0 t := by dsimp only [vdats]
theorem vafter_1 (c : Dev nD) (t : Fin cfg0.N) : (vdats m A out 0 c).after 1 t = iblk m c 1 t := by dsimp only [vdats]
theorem vafter_2 (c : Dev nD) (t : Fin cfg0.N) : (vdats m A out 0 c).after 2 t = iblk m c 2 t := by dsimp only [vdats]
theorem vafter_3 (c : Dev nD) (t : Fin cfg0.N) : (vdats m A out 0 c).after 3 t = iblk m c 3 t := by dsimp only [vdats]
theorem vafter_4 (c : Dev nD) (t : Fin cfg0.N) : (vdats m A out 0 c).after 4 t = iblk m c 4 t := by dsimp only [vdats]
theorem vafter_5 (c : Dev nD) (t : Fin cfg0.N) : (vdats m A out 0 c).after 5 t = iblk m c 5 t := by dsimp only [vdats]
theorem vafter_6 (c : Dev nD) (t : Fin cfg0.N) : (vdats m A out 0 c).after 6 t = iblk m c 6 t := by dsimp only [vdats]
theorem vafter_7 (c : Dev nD) (t : Fin cfg0.N) : (vdats m A out 0 c).after 7 t = iblk m c 7 t := by dsimp only [vdats]
theorem vafter_8 (c : Dev nD) (t : Fin cfg0.N) : (vdats m A out 0 c).after 8 t = iblk m c 8 t := by dsimp only [vdats]
theorem vafter_9 (c : Dev nD) (t : Fin cfg0.N) : (vdats m A out 0 c).after 9 t = iblk m c 9 t := by dsimp only [vdats]
theorem vafter_10 (c : Dev nD) (t : Fin cfg0.N) : (vdats m A out 0 c).after 10 t = iblk m c 10 t := by dsimp only [vdats]
theorem vafter_11 (c : Dev nD) (t : Fin cfg0.N) : (vdats m A out 0 c).after 11 t = iblk m c 11 t := by dsimp only [vdats]
theorem vafter_12 (c : Dev nD) (t : Fin cfg0.N) : (vdats m A out 0 c).after 12 t = iblk m c 12 t := by dsimp only [vdats]
theorem vafter_13 (c : Dev nD) (t : Fin cfg0.N) : (vdats m A out 0 c).after 13 t = out c := by dsimp only [vdats]

theorem vbefore_0 (c : Dev nD) (t : Fin cfg0.N) (d) : (vdats m A out 0 c).before 0 t d = iblk m c 0 t :=
  before0_0_of m (vdats m A out 0 c) (vA_eq m A out c 0) (vafter_0 m A out c) t d
theorem vbefore_1 (c : Dev nD) (t : Fin cfg0.N) (d) : (vdats m A out 0 c).before 1 t d = iblk m c 1 t :=
  before0_1_of m (vdats m A out 0 c) (vA_eq m A out c 1) (vafter_1 m A out c) t d
theorem vbefore_2 (c : Dev nD) (t : Fin cfg0.N) (d) : (vdats m A out 0 c).before 2 t d = iblk m c 2 t :=
  before0_2_of m (vdats m A out 0 c) (vA_eq m A out c 2) (vafter_2 m A out c) t d
theorem vbefore_3 (c : Dev nD) (t : Fin cfg0.N) (d) : (vdats m A out 0 c).before 3 t d = iblk m c 3 t :=
  before0_3_of m (vdats m A out 0 c) (vA_eq m A out c 3) (vafter_3 m A out c) t d
theorem vbefore_4 (c : Dev nD) (t : Fin cfg0.N) (d) : (vdats m A out 0 c).before 4 t d = iblk m c 4 t :=
  before0_4_of m (vdats m A out 0 c) (vA_eq m A out c 4) (vafter_4 m A out c) t d
theorem vbefore_5 (c : Dev nD) (t : Fin cfg0.N) (d) : (vdats m A out 0 c).before 5 t d = iblk m c 5 t :=
  before0_5_of m (vdats m A out 0 c) (vA_eq m A out c 5) (vafter_5 m A out c) t d
theorem vbefore_6 (c : Dev nD) (t : Fin cfg0.N) (d) : (vdats m A out 0 c).before 6 t d = iblk m c 6 t :=
  before0_6_of m (vdats m A out 0 c) (vA_eq m A out c 6) (vafter_6 m A out c) t d
theorem vbefore_7 (c : Dev nD) (t : Fin cfg0.N) (d) : (vdats m A out 0 c).before 7 t d = iblk m c 7 t :=
  before0_7_of m (vdats m A out 0 c) (vA_eq m A out c 7) (vafter_7 m A out c) t d
theorem vbefore_8 (c : Dev nD) (t : Fin cfg0.N) (d) : (vdats m A out 0 c).before 8 t d = iblk m c 8 t :=
  before0_8_of m (vdats m A out 0 c) (vA_eq m A out c 8) (vafter_8 m A out c) t d
theorem vbefore_9 (c : Dev nD) (t : Fin cfg0.N) (d) : (vdats m A out 0 c).before 9 t d = iblk m c 9 t :=
  before0_9_of m (vdats m A out 0 c) (vA_eq m A out c 9) (vafter_9 m A out c) t d
theorem vbefore_10 (c : Dev nD) (t : Fin cfg0.N) (d) : (vdats m A out 0 c).before 10 t d = iblk m c 10 t :=
  before0_10_of m (vdats m A out 0 c) (vA_eq m A out c 10) (vafter_10 m A out c) t d
theorem vbefore_11 (c : Dev nD) (t : Fin cfg0.N) (d) : (vdats m A out 0 c).before 11 t d = iblk m c 11 t :=
  before0_11_of m (vdats m A out 0 c) (vA_eq m A out c 11) (vafter_11 m A out c) t d
theorem vbefore_12 (c : Dev nD) (t : Fin cfg0.N) (d) : (vdats m A out 0 c).before 12 t d = iblk m c 12 t :=
  before0_12_of m (vdats m A out 0 c) (vA_eq m A out c 12) (vafter_12 m A out c) t d

theorem vPhi_castSucc (c : Dev nD) (t : Fin cfg0.N) :
    (vdats m A out 0 c).Φ t.castSucc = PhiT c (A c) t.val (Nat.le_of_lt t.isLt) := by
  dsimp only [vdats]; simp only [Fin.coe_castSucc]

/-- Only the last point is not idle for the output window, and only it writes the block back. -/
theorem idle13_of_not_last (t : Fin cfg0.N) (h1 : ¬isLast (grid0.coords t)) : cfg0.idle 13 (grid0.coords t) = true := by
  show (!(k0_cond2 (grid0.coords t) == 1#1)) = true
  simp only [Bool.not_eq_true', beq_eq_false_iff_ne, ne_eq]
  exact h1
theorem live13_of_last (t : Fin cfg0.N) (h1 : isLast (grid0.coords t)) : cfg0.idle 13 (grid0.coords t) = false := by
  show (!(k0_cond2 (grid0.coords t) == 1#1)) = false
  simp only [Bool.not_eq_false', beq_iff_eq]
  exact h1
theorem noflush13_of_not_last (t : Fin cfg0.N) (h1 : ¬isLast (grid0.coords t)) : (cfg0.win 13).flush t = false := by
  have hne : ¬ t.val % 8 = 7 := fun h => h1 ((isLast_iff t).mpr (by have := t.isLt; have hN : cfg0.N = 8 := N_0; omega))
  cases hf : (cfg0.win 13).flush t with
  | false => rfl
  | true => exact absurd ((flush0_13 t).mp hf) hne

/-! ## The body obligation, at a generic point -/

def vbodyPre (c : Dev nD) (t : Fin cfg0.N) : sProp 𝕄 :=
  iprop((vdats m A out 0 c).Φ t.castSucc ∗ (vdats m A out 0 c).owesAt () t.castSucc
    ∗ (∃ d, owns (c : Thread nD τ) (ms0 t) fullShare ((vdats m A out 0 c).before 0 t d))
    ∗ (∃ d, owns (c : Thread nD τ) (ms1 t) fullShare ((vdats m A out 0 c).before 1 t d))
    ∗ (∃ d, owns (c : Thread nD τ) (ms2 t) fullShare ((vdats m A out 0 c).before 2 t d))
    ∗ (∃ d, owns (c : Thread nD τ) (ms3 t) fullShare ((vdats m A out 0 c).before 3 t d))
    ∗ (∃ d, owns (c : Thread nD τ) (ms4 t) fullShare ((vdats m A out 0 c).before 4 t d))
    ∗ (∃ d, owns (c : Thread nD τ) (ms5 t) fullShare ((vdats m A out 0 c).before 5 t d))
    ∗ (∃ d, owns (c : Thread nD τ) (ms6 t) fullShare ((vdats m A out 0 c).before 6 t d))
    ∗ (∃ d, owns (c : Thread nD τ) (ms7 t) fullShare ((vdats m A out 0 c).before 7 t d))
    ∗ (∃ d, owns (c : Thread nD τ) (ms8 t) fullShare ((vdats m A out 0 c).before 8 t d))
    ∗ (∃ d, owns (c : Thread nD τ) (ms9 t) fullShare ((vdats m A out 0 c).before 9 t d))
    ∗ (∃ d, owns (c : Thread nD τ) (ms10 t) fullShare ((vdats m A out 0 c).before 10 t d))
    ∗ (∃ d, owns (c : Thread nD τ) (ms11 t) fullShare ((vdats m A out 0 c).before 11 t d))
    ∗ (∃ d, owns (c : Thread nD τ) (ms12 t) fullShare ((vdats m A out 0 c).before 12 t d))
    ∗ (∃ d, owns (c : Thread nD τ) (ms13 t) fullShare ((vdats m A out 0 c).before 13 t d)))

def vbodyPost (c : Dev nD) (t : Fin cfg0.N) : sProp 𝕄 :=
  iprop((vdats m A out 0 c).Φ t.succ ∗ (vdats m A out 0 c).owesAt () t.succ
    ∗ (vdats m A out 0 c).leavesExact 0 t
    ∗ (vdats m A out 0 c).leavesExact 1 t
    ∗ (vdats m A out 0 c).leavesExact 2 t
    ∗ (vdats m A out 0 c).leavesExact 3 t
    ∗ (vdats m A out 0 c).leavesExact 4 t
    ∗ (vdats m A out 0 c).leavesExact 5 t
    ∗ (vdats m A out 0 c).leavesExact 6 t
    ∗ (vdats m A out 0 c).leavesExact 7 t
    ∗ (vdats m A out 0 c).leavesExact 8 t
    ∗ (vdats m A out 0 c).leavesExact 9 t
    ∗ (vdats m A out 0 c).leavesExact 10 t
    ∗ (vdats m A out 0 c).leavesExact 11 t
    ∗ (vdats m A out 0 c).leavesExact 12 t
    ∗ (vdats m A out 0 c).leavesExact 13 t)

/-- The output window is never fetched. -/
theorem fetch13 : ∀ t : Fin cfg0.N, (cfg0.win 13).fetch t = false := by decide +kernel

/-- Through its idle points the output's staging buffer holds what it held at the region's entry. -/
theorem vbefore_13 (c : Dev nD) (d) : ∀ (n : ℕ) (t : Fin cfg0.N), t.val = n → (vdats m A out 0 c).before 13 t d = d
  | 0, t, ht => by
    unfold Dat.before
    rw [if_neg (by rw [fetch13]; exact Bool.false_ne_true), if_pos ht]
  | n + 1, t, ht => by
    have hN : cfg0.N = 8 := N_0
    have hpos : t.val ≠ 0 := by omega
    have hl : ¬isLast (grid0.coords (⟨t.val - 1, Nat.lt_of_le_of_lt (Nat.sub_le _ _) t.isLt⟩ : Fin cfg0.N)) := fun h => by
      have h7 := (isLast_iff (⟨t.val - 1, Nat.lt_of_le_of_lt (Nat.sub_le _ _) t.isLt⟩ : Fin cfg0.N)).mp h
      have := t.isLt
      simp only at h7; omega
    rw [Dat.before_of_pos _ 13 t hpos (fetch13 t),
      if_neg (by rw [noflush13_of_not_last _ hl]; exact Bool.false_ne_true)]
    unfold Dat.left
    have hi : cfg0.idle 13 (cfg0.grid.coords (⟨t.val - 1, Nat.lt_of_le_of_lt (Nat.sub_le _ _) t.isLt⟩ : Fin cfg0.N)) = true :=
      idle13_of_not_last _ hl
    rw [hi]
    exact vbefore_13 c d n (⟨t.val - 1, Nat.lt_of_le_of_lt (Nat.sub_le _ _) t.isLt⟩ : Fin cfg0.N) (by show t.val - 1 = n; omega)

theorem vleaves_0 (c : Dev nD) (t : Fin cfg0.N) :
    (vdats m A out 0 c).leavesExact 0 t = owns (c : Thread nD τ) (ms0 t) fullShare (iblk m c 0 t) := by
  unfold Dat.leavesExact; rw [show cfg0.idle 0 (grid0.coords t) = false from rfl, vafter_0]
theorem vleaves_1 (c : Dev nD) (t : Fin cfg0.N) :
    (vdats m A out 0 c).leavesExact 1 t = owns (c : Thread nD τ) (ms1 t) fullShare (iblk m c 1 t) := by
  unfold Dat.leavesExact; rw [show cfg0.idle 1 (grid0.coords t) = false from rfl, vafter_1]
theorem vleaves_2 (c : Dev nD) (t : Fin cfg0.N) :
    (vdats m A out 0 c).leavesExact 2 t = owns (c : Thread nD τ) (ms2 t) fullShare (iblk m c 2 t) := by
  unfold Dat.leavesExact; rw [show cfg0.idle 2 (grid0.coords t) = false from rfl, vafter_2]
theorem vleaves_3 (c : Dev nD) (t : Fin cfg0.N) :
    (vdats m A out 0 c).leavesExact 3 t = owns (c : Thread nD τ) (ms3 t) fullShare (iblk m c 3 t) := by
  unfold Dat.leavesExact; rw [show cfg0.idle 3 (grid0.coords t) = false from rfl, vafter_3]
theorem vleaves_4 (c : Dev nD) (t : Fin cfg0.N) :
    (vdats m A out 0 c).leavesExact 4 t = owns (c : Thread nD τ) (ms4 t) fullShare (iblk m c 4 t) := by
  unfold Dat.leavesExact; rw [show cfg0.idle 4 (grid0.coords t) = false from rfl, vafter_4]
theorem vleaves_5 (c : Dev nD) (t : Fin cfg0.N) :
    (vdats m A out 0 c).leavesExact 5 t = owns (c : Thread nD τ) (ms5 t) fullShare (iblk m c 5 t) := by
  unfold Dat.leavesExact; rw [show cfg0.idle 5 (grid0.coords t) = false from rfl, vafter_5]
theorem vleaves_6 (c : Dev nD) (t : Fin cfg0.N) :
    (vdats m A out 0 c).leavesExact 6 t = owns (c : Thread nD τ) (ms6 t) fullShare (iblk m c 6 t) := by
  unfold Dat.leavesExact; rw [show cfg0.idle 6 (grid0.coords t) = false from rfl, vafter_6]
theorem vleaves_7 (c : Dev nD) (t : Fin cfg0.N) :
    (vdats m A out 0 c).leavesExact 7 t = owns (c : Thread nD τ) (ms7 t) fullShare (iblk m c 7 t) := by
  unfold Dat.leavesExact; rw [show cfg0.idle 7 (grid0.coords t) = false from rfl, vafter_7]
theorem vleaves_8 (c : Dev nD) (t : Fin cfg0.N) :
    (vdats m A out 0 c).leavesExact 8 t = owns (c : Thread nD τ) (ms8 t) fullShare (iblk m c 8 t) := by
  unfold Dat.leavesExact; rw [show cfg0.idle 8 (grid0.coords t) = false from rfl, vafter_8]
theorem vleaves_9 (c : Dev nD) (t : Fin cfg0.N) :
    (vdats m A out 0 c).leavesExact 9 t = owns (c : Thread nD τ) (ms9 t) fullShare (iblk m c 9 t) := by
  unfold Dat.leavesExact; rw [show cfg0.idle 9 (grid0.coords t) = false from rfl, vafter_9]
theorem vleaves_10 (c : Dev nD) (t : Fin cfg0.N) :
    (vdats m A out 0 c).leavesExact 10 t = owns (c : Thread nD τ) (ms10 t) fullShare (iblk m c 10 t) := by
  unfold Dat.leavesExact; rw [show cfg0.idle 10 (grid0.coords t) = false from rfl, vafter_10]
theorem vleaves_11 (c : Dev nD) (t : Fin cfg0.N) :
    (vdats m A out 0 c).leavesExact 11 t = owns (c : Thread nD τ) (ms11 t) fullShare (iblk m c 11 t) := by
  unfold Dat.leavesExact; rw [show cfg0.idle 11 (grid0.coords t) = false from rfl, vafter_11]
theorem vleaves_12 (c : Dev nD) (t : Fin cfg0.N) :
    (vdats m A out 0 c).leavesExact 12 t = owns (c : Thread nD τ) (ms12 t) fullShare (iblk m c 12 t) := by
  unfold Dat.leavesExact; rw [show cfg0.idle 12 (grid0.coords t) = false from rfl, vafter_12]
theorem vleaves_13_idle (c : Dev nD) (t : Fin cfg0.N) (h1 : ¬isLast (grid0.coords t)) :
    (vdats m A out 0 c).leavesExact 13 t = iprop(∃ d, owns (c : Thread nD τ) (ms13 t) fullShare d) := by
  rw [Dat.leavesExact_idle (vdats m A out 0 c) 13 t (idle13_of_not_last t h1) (noflush13_of_not_last t h1)]
  have e : ∀ d, (vdats m A out 0 c).before 13 t d = d := fun d => vbefore_13 m A out c d t.val t rfl
  simp only [e]
  rfl
theorem vleaves_13_last (c : Dev nD) (t : Fin cfg0.N) (h1 : isLast (grid0.coords t)) :
    (vdats m A out 0 c).leavesExact 13 t = owns (c : Thread nD τ) (ms13 t) fullShare (out c) := by
  unfold Dat.leavesExact; rw [live13_of_last t h1, vafter_13]

/-! ## The body at any point, from the fact bundle -/

set_option maxHeartbeats 16000000 in
theorem vsound_body (hF : ∀ c, PointFacts m c (A c) (out c)) (c : Dev nD) (t : Fin cfg0.N) :
    vbodyPre m A out c t ⊢ wp frame (wpE (defs₀ (F := Ideal)) Variants.none c none) Set.univ (bodyAt0 t) (fun _ => vbodyPost m A out c t) := by
  unfold vbodyPre vbodyPost bodyAt0
  simp only [vbefore_0, vbefore_1, vbefore_2, vbefore_3, vbefore_4, vbefore_5, vbefore_6, vbefore_7, vbefore_8, vbefore_9, vbefore_10, vbefore_11, vbefore_12]
  have e13 : ∀ d, (vdats m A out 0 c).before 13 t d = d := fun d => vbefore_13 m A out c d t.val t rfl
  simp only [e13]
  rw [show (vdats m A out 0 c).owesAt () t.succ = (vdats m A out 0 c).owesAt () t.castSucc from rfl,
    vleaves_0, vleaves_1, vleaves_2, vleaves_3, vleaves_4, vleaves_5, vleaves_6, vleaves_7, vleaves_8, vleaves_9, vleaves_10, vleaves_11, vleaves_12]
  rw [show (vdats m A out 0 c).Φ t.succ = PhiT c (A c) (t.val + 1) t.isLt from rfl, vPhi_castSucc]
  have hN : t.val < 8 := lt_of_lt_of_eq t.isLt N_0
  by_cases h0 : isFirst (grid0.coords t)
  · -- the first point
    have ht0 : t.val = 0 := (isFirst_iff t).mp h0
    have h1 : ¬isLast (grid0.coords t) := fun h => by have := (isLast_iff t).mp h; omega
    rw [vleaves_13_idle m A out c t h1, PhiT_zero c (A c) _ _ ht0, PhiT_mid c (A c) (t.val + 1) _ (by omega) (by omega), inv_eq]
    iintro ⟨⟨⟨⟨%y15, S0⟩, S1, S2, S3, S4, S5⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩⟩
    obtain ⟨f15, f16, f17, f18, f19, f20⟩ := (hF c).first t h0 h1 y15
    have e1 : t.val + 1 = 1 := by omega
    rw [e1]
    iapply ((namedA (F := Ideal) c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t) (ms12 t) (hs12 t) (ms13 t) (hs13 t) scr0 (Memref.isWhole_whole _) scr1 (Memref.isWhole_whole _) scr2 (Memref.isWhole_whole _) scr3 (Memref.isWhole_whole _) scr4 (Memref.isWhole_whole _) scr5 (Memref.isWhole_whole _) h0 h1 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) y15).2.2.2.2.2.2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexists _; iexact H13
    isplitl [S0]; · iexact S0
    isplitl [S1]; · iexact S1
    isplitl [S2]; · iexact S2
    isplitl [S3]; · iexact S3
    isplitl [S4]; · iexact S4
    isplitl [S5]; · iexact S5
    iintro ⟨H0, H1, H2, H3, H4, H5, H6, H7, H8, H9, H10, H11, H12, H13, S0, ⟨%e16, S1⟩, ⟨%e17, S2⟩, ⟨%e18, S3⟩, ⟨%e19, S4⟩, ⟨%e20, S5⟩⟩
    isplitl [S0 S1 S2 S3 S4 S5 Hg]
    · isplitl [S0 S1 S2 S3 S4 S5]
      · isplitl [S0]
        · iexists _; isplitl [S0]; · iexact S0
          ipureintro; exact f15
        isplitl [S1]
        · unfold owns; iexists _; isplitr; swap; · iexact S1
          ipureintro; exact (View.read_writes_eq_canon _ _ _ (fun y => coverA_16 c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t) (ms12 t) (hs12 t) (ms13 t) (hs13 t) scr0 (Memref.isWhole_whole _) scr1 (Memref.isWhole_whole _) scr2 (Memref.isWhole_whole _) scr3 (Memref.isWhole_whole _) scr4 (Memref.isWhole_whole _) scr5 (Memref.isWhole_whole _) h0 h1 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) y15 y)).trans f16
        isplitl [S2]
        · unfold owns; iexists _; isplitr; swap; · iexact S2
          ipureintro; exact (View.read_writes_eq_canon _ _ _ (fun y => coverA_17 c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t) (ms12 t) (hs12 t) (ms13 t) (hs13 t) scr0 (Memref.isWhole_whole _) scr1 (Memref.isWhole_whole _) scr2 (Memref.isWhole_whole _) scr3 (Memref.isWhole_whole _) scr4 (Memref.isWhole_whole _) scr5 (Memref.isWhole_whole _) h0 h1 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) y15 y)).trans f17
        isplitl [S3]
        · unfold owns; iexists _; isplitr; swap; · iexact S3
          ipureintro; exact (View.read_writes_eq_canon _ _ _ (fun y => coverA_18 c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t) (ms12 t) (hs12 t) (ms13 t) (hs13 t) scr0 (Memref.isWhole_whole _) scr1 (Memref.isWhole_whole _) scr2 (Memref.isWhole_whole _) scr3 (Memref.isWhole_whole _) scr4 (Memref.isWhole_whole _) scr5 (Memref.isWhole_whole _) h0 h1 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) y15 y)).trans f18
        isplitl [S4]
        · unfold owns; iexists _; isplitr; swap; · iexact S4
          ipureintro; exact (View.read_writes_eq_canon _ _ _ (fun y => coverA_19 c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t) (ms12 t) (hs12 t) (ms13 t) (hs13 t) scr0 (Memref.isWhole_whole _) scr1 (Memref.isWhole_whole _) scr2 (Memref.isWhole_whole _) scr3 (Memref.isWhole_whole _) scr4 (Memref.isWhole_whole _) scr5 (Memref.isWhole_whole _) h0 h1 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) y15 y)).trans f19
        · unfold owns; iexists _; isplitr; swap; · iexact S5
          ipureintro; exact (View.read_writes_eq_canon _ _ _ (fun y => coverA_20 c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t) (ms12 t) (hs12 t) (ms13 t) (hs13 t) scr0 (Memref.isWhole_whole _) scr1 (Memref.isWhole_whole _) scr2 (Memref.isWhole_whole _) scr3 (Memref.isWhole_whole _) scr4 (Memref.isWhole_whole _) scr5 (Memref.isWhole_whole _) h0 h1 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) y15 y)).trans f20
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    iexact H13
  · by_cases h1 : isLast (grid0.coords t)
    · -- the last point
      have ht7 : t.val = 7 := (isLast_iff t).mp h1
      rw [vleaves_13_last m A out c t h1, PhiT_mid c (A c) t.val _ (by omega) (by omega), PhiT_last c (A c) (t.val + 1) _ (by omega), inv_eq]
      iintro ⟨⟨⟨⟨%y15, S0, %hag⟩, S1, S2, S3, S4, S5⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩⟩
      have fout := (hF c).last t h0 h1 y15 hag
      iapply ((namedC (F := Ideal) c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t) (ms12 t) (hs12 t) (ms13 t) (hs13 t) scr0 (Memref.isWhole_whole _) scr1 (Memref.isWhole_whole _) scr2 (Memref.isWhole_whole _) scr3 (Memref.isWhole_whole _) scr4 (Memref.isWhole_whole _) scr5 (Memref.isWhole_whole _) h0 h1 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) y15 (h1Buf (A c)) (ss1Buf (A c)) (st1Buf (A c)) (numBuf (A c) t.val) (denBuf (A c) t.val)).2.2.2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [H13]; · iexists _; iexact H13
      isplitl [S0]; · iexact S0
      isplitl [S1]; · iexact S1
      isplitl [S2]; · iexact S2
      isplitl [S3]; · iexact S3
      isplitl [S4]; · iexact S4
      isplitl [S5]; · iexact S5
      iintro ⟨H0, H1, H2, H3, H4, H5, H6, H7, H8, H9, H10, H11, H12, ⟨%e14, H13⟩, S0, S1, S2, S3, S4, S5⟩
      isplitl [S0 S1 S2 S3 S4 S5 Hg]
      · isplitl [S0 S1 S2 S3 S4 S5]
        · isplitl [S0]; · iexists _; iexact S0
          isplitl [S1]; · iexists _; iexact S1
          isplitl [S2]; · iexists _; iexact S2
          isplitl [S3]; · iexists _; iexact S3
          isplitl [S4]; · iexists _; iexact S4
          iexists _; iexact S5
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      unfold owns; iexists _; isplitr; swap; · iexact H13
      ipureintro; exact (View.read_writes_eq_canon _ _ _ (fun y => coverC_14 c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t) (ms12 t) (hs12 t) (ms13 t) (hs13 t) scr0 (Memref.isWhole_whole _) scr1 (Memref.isWhole_whole _) scr2 (Memref.isWhole_whole _) scr3 (Memref.isWhole_whole _) scr4 (Memref.isWhole_whole _) scr5 (Memref.isWhole_whole _) h0 h1 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) y15 (h1Buf (A c)) (ss1Buf (A c)) (st1Buf (A c)) (numBuf (A c) t.val) (denBuf (A c) t.val) y)).trans fout
    · -- a middle point
      have ht0 : t.val ≠ 0 := fun h => h0 ((isFirst_iff t).mpr h)
      have ht7 : t.val ≠ 7 := fun h => h1 ((isLast_iff t).mpr h)
      rw [vleaves_13_idle m A out c t h1, PhiT_mid c (A c) t.val _ ht0 (by omega), PhiT_mid c (A c) (t.val + 1) _ (by omega) (by omega)]
      iintro ⟨⟨⟨⟨%y15, S0, %hag⟩, S1, S2, S3, S4, S5⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩⟩
      obtain ⟨g15, g19, g20⟩ := (hF c).mid t h0 h1 y15 hag
      iapply ((namedB (F := Ideal) c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t) (ms12 t) (hs12 t) (ms13 t) (hs13 t) scr0 (Memref.isWhole_whole _) scr1 (Memref.isWhole_whole _) scr2 (Memref.isWhole_whole _) scr3 (Memref.isWhole_whole _) scr4 (Memref.isWhole_whole _) scr5 (Memref.isWhole_whole _) h0 h1 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) y15 (h1Buf (A c)) (ss1Buf (A c)) (st1Buf (A c)) (numBuf (A c) t.val) (denBuf (A c) t.val)).2.2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [H13]; · iexists _; iexact H13
      isplitl [S0]; · iexact S0
      isplitl [S1]; · iexact S1
      isplitl [S2]; · iexact S2
      isplitl [S3]; · iexact S3
      isplitl [S4]; · iexact S4
      isplitl [S5]; · iexact S5
      iintro ⟨H0, H1, H2, H3, H4, H5, H6, H7, H8, H9, H10, H11, H12, H13, S0, S1, S2, S3, S4, S5⟩
      isplitl [S0 S1 S2 S3 S4 S5 Hg]
      · isplitl [S0 S1 S2 S3 S4 S5]
        · isplitl [S0]
          · iexists _; isplitl [S0]; · iexact S0
            ipureintro; exact g15
          isplitl [S1]; · iexact S1
          isplitl [S2]; · iexact S2
          isplitl [S3]; · iexact S3
          isplitl [S4]; · rw [← g19]; iexact S4
          rw [← g20]; iexact S5
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      iexact H13

/-- The library's body obligation, at every point. -/
theorem vbody_obligation (hF : ∀ c, PointFacts m c (A c) (out c)) (c : Dev nD) :
    BodyObligation (vdats m A out 0 c) (defs₀ (F := Ideal)) Variants.none () Set.univ := fun t => by
  rw [bigSep_W0, bigSep_W0]
  exact vsound_body m A out hF c t

/-! ## The run and the kernel's value -/

theorem vhin (c : Dev nD) : Pipeline.ΦA spec0 c ⊢ (vdats m A out 0 c).Φ 0 := by
  rw [show (vdats m A out 0 c).Φ 0 = PhiT c (A c) 0 (Nat.zero_le _) from rfl, PhiT_zero c (A c) 0 _ rfl]
  try exact Idealize.SL.BI.Entails.refl _

theorem vhout (c : Dev nD) : (vdats m A out 0 c).Φ (Fin.last cfg0.N) ⊢ Pipeline.ΦA spec0 c := by
  rw [show (vdats m A out 0 c).Φ (Fin.last cfg0.N) = PhiT c (A c) (Fin.last cfg0.N).val (Nat.le_of_lt_succ (Fin.last cfg0.N).isLt) from rfl,
    PhiT_last c (A c) _ _ (by rw [Fin.val_last]; exact N_0)]
  try exact Idealize.SL.BI.Entails.refl _

set_option backward.isDefEq.respectTransparency.types false in
/-- Every weakly fair execution terminates without a fault, every array of the pipeline ending at what the proof data
    computes and every other unscoped buffer at its region-entry contents. -/
theorem vrun_main (hF : ∀ c, PointFacts m c (A c) (out c)) :
    θ_run defs (onTc (τ := τ) (main (F := Ideal))) (s₀ m ρ) (Pipeline.FramePost cfgs (vdats m A out) 0 (V m)) :=
  Pipeline.θ_run_frame_track cfgs (vdats m A out) (0 : Fin 1) launch0 defs₀ Variants.none m ρ main
    (hbody := fun c => (vbody_obligation m A out hF c).loose) (hshare := fun c => (vdats m A out 0 c).share_full fun _ => rfl)
    (howed := fun _ _ => rfl) (V := V m) (hmain := hmain m Variants.none) (hA := vA_eq m A out)
    (hin := vhin m A out) (hout := vhout m A out)

/-- The output window's block is the whole array at every point. -/
theorem idx13 : ∀ t : Fin cfg0.N, win0_13.index t (0 : Fin 3) = 0 ∧ win0_13.index t (1 : Fin 3) = 0 ∧ win0_13.index t (2 : Fin 3) = 0 :=
  (by decide +kernel : ∀ t : Fin grid0.N, _)

/-- What the last point writes back is the whole of `out`. -/
theorem vflushed13 (c : Dev nD) (t : Fin cfg0.N) :
    (vdats m A out 0 c).flushed 13 t = ((cfg0.win 13).blk t).view.read (Elt Ideal) (out c) := by
  show (cfg0.win 13).cut (grid0.coords t) ((vdats m A out 0 c).after 13 t) = _
  rw [vafter_13]
  obtain ⟨e0, e1, e2⟩ := idx13 t
  funext j
  show out c j = out c (((cfg0.win 13).blk t).view.emb j)
  refine congrArg (out c) (funext fun a => Fin.ext ?_)
  match a with
  | ⟨0, _⟩ => show (j 0).val = win0_13.index t (0 : Fin 3) * 512 + 1 * (j 0).val; omega
  | ⟨1, _⟩ => show (j 1).val = win0_13.index t (1 : Fin 3) * 2 + 1 * (j 1).val; omega
  | ⟨2, _⟩ => show (j 2).val = win0_13.index t (2 : Fin 3) * 128 + 1 * (j 2).val; omega

/-- The output array after the run. -/
theorem vfinal13 (c : Dev nD) : (vdats m A out 0 c).arrAt 13 cfg0.N = out c := by
  refine (vdats m A out 0 c).arrAt_eq_of_cover 13 (out c) (fun t _ => vflushed13 m A out c t) (fun i => ?_)
  refine ⟨t0_7, (flush0_13 t0_7).mpr rfl, ?_⟩
  show i ∈ ((View.whole main_v0).slice (win0_13.rect t0_7)).set
  rw [View.set_slice_whole, Rect.mem_set_unit]
  obtain ⟨e0, e1, e2⟩ := idx13 t0_7
  intro a
  match a with
  | ⟨0, _⟩ => show win0_13.index t0_7 (0 : Fin 3) * 512 ≤ (i 0).val ∧ (i 0).val < win0_13.index t0_7 (0 : Fin 3) * 512 + 512; have := (i 0).isLt; change _ < 512 at this; omega
  | ⟨1, _⟩ => show win0_13.index t0_7 (1 : Fin 3) * 2 ≤ (i 1).val ∧ (i 1).val < win0_13.index t0_7 (1 : Fin 3) * 2 + 2; have := (i 1).isLt; change _ < 2 at this; omega
  | ⟨2, _⟩ => show win0_13.index t0_7 (2 : Fin 3) * 128 ≤ (i 2).val ∧ (i 2).val < win0_13.index t0_7 (2 : Fin 3) * 128 + 128; have := (i 2).isLt; change _ < 128 at this; omega

/-- THE KERNEL'S VALUE, relative to the fact bundle: every weakly fair execution terminates without a fault with the
    result array at `out` and the thirteen argument arrays unchanged. -/
theorem kernel_value (hF : ∀ c, PointFacts m c (A c) (out c)) :
    θ_run defs (onTc (τ := τ) (main (F := Ideal))) ⟨m, fun _ => 0, ρ⟩ (fun r => ∀ c : Dev nD,
      r.2.mem ((c.tc : Thread nD τ).loc main_v0) = out c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) :=
  (θ_run defs _ _).mono (fun _ h c => ⟨((h c).1 13).trans (vfinal13 m A out c),
      ((h c).1 2).trans ((((vdats m A out) 0 c).arrAt_in 2 rfl _).trans ((vA_eq m A out c 2).trans (V_main_arg0 m c))),
      ((h c).1 1).trans ((((vdats m A out) 0 c).arrAt_in 1 rfl _).trans ((vA_eq m A out c 1).trans (V_main_arg1 m c))),
      ((h c).1 0).trans ((((vdats m A out) 0 c).arrAt_in 0 rfl _).trans ((vA_eq m A out c 0).trans (V_main_arg2 m c))),
      ((h c).1 7).trans ((((vdats m A out) 0 c).arrAt_in 7 rfl _).trans ((vA_eq m A out c 7).trans (V_main_arg3 m c))),
      ((h c).1 3).trans ((((vdats m A out) 0 c).arrAt_in 3 rfl _).trans ((vA_eq m A out c 3).trans (V_main_arg4 m c))),
      ((h c).1 8).trans ((((vdats m A out) 0 c).arrAt_in 8 rfl _).trans ((vA_eq m A out c 8).trans (V_main_arg5 m c))),
      ((h c).1 9).trans ((((vdats m A out) 0 c).arrAt_in 9 rfl _).trans ((vA_eq m A out c 9).trans (V_main_arg6 m c))),
      ((h c).2 main_arg7 (Pipeline.mem_restRefs_of main_arg7 (by decide) (by decide))).trans (V_main_arg7 m c),
      ((h c).1 10).trans ((((vdats m A out) 0 c).arrAt_in 10 rfl _).trans ((vA_eq m A out c 10).trans (V_main_arg8 m c))),
      ((h c).1 4).trans ((((vdats m A out) 0 c).arrAt_in 4 rfl _).trans ((vA_eq m A out c 4).trans (V_main_arg9 m c))),
      ((h c).1 11).trans ((((vdats m A out) 0 c).arrAt_in 11 rfl _).trans ((vA_eq m A out c 11).trans (V_main_arg10 m c))),
      ((h c).1 12).trans ((((vdats m A out) 0 c).arrAt_in 12 rfl _).trans ((vA_eq m A out c 12).trans (V_main_arg11 m c))),
      ((h c).2 main_arg12 (Pipeline.mem_restRefs_of main_arg12 (by decide) (by decide))).trans (V_main_arg12 m c)⟩) (vrun_main m ρ A out hF)

end Cert.KernelIdeal.Body

end
-- ==== Proof.KernelIdealArgs.lean ====
/-
  The argument arrays as the kernel's windows present them: window k's array as the region finds it. Twelve of the
  thirteen input windows hold their whole array at every grid point; the edge-feature window holds, at point t, the 64
  source rows of block t.
-/
import proofs.«169155_g70909910057105_cont_sun_m_1383_19_alg».proof.Proof.KernelIdealData

set_option maxRecDepth 16384

noncomputable section

namespace Cert.KernelIdeal.Body

open Cert.KernelIdeal Cert.KernelIdeal.Gen
open Idealize.ShloMosaic Idealize.ShloMosaic.TcCoe Idealize.ShloMosaic.ValueIdx
open Idealize.SL Idealize.SL.Sem
open Cert.KernelIdeal.State (Args rowOf)

variable (m : (ℓ : Loc nD τ sig) → Buf (Elt Ideal) ℓ)

/-- Core `c`'s argument arrays, window by window, as the region finds them. -/
def argsOf (c : Dev nD) : Args where
  ef := V m c (Pipeline.arrRef spec0 0)
  adj := V m c (Pipeline.arrRef spec0 1)
  x := V m c (Pipeline.arrRef spec0 2)
  w1e := V m c (Pipeline.arrRef spec0 3)
  w2e := V m c (Pipeline.arrRef spec0 4)
  ae1 := V m c (Pipeline.arrRef spec0 5)
  ae2 := V m c (Pipeline.arrRef spec0 6)
  w1n := V m c (Pipeline.arrRef spec0 7)
  as1 := V m c (Pipeline.arrRef spec0 8)
  at1 := V m c (Pipeline.arrRef spec0 9)
  w2n := V m c (Pipeline.arrRef spec0 10)
  as2 := V m c (Pipeline.arrRef spec0 11)
  at2 := V m c (Pipeline.arrRef spec0 12)

/-- The printed index maps, decided over the grid: the edge-feature window moves one block of rows per point, every other
    input window stays at its whole array. -/
theorem idx_in : ∀ t : Fin cfg0.N, win0_0.index t (0 : Fin 3) = t.val ∧ win0_0.index t (1 : Fin 3) = 0 ∧ win0_0.index t (2 : Fin 3) = 0
    ∧ win0_1.index t (0 : Fin 2) = 0
    ∧ win0_1.index t (1 : Fin 2) = 0
    ∧ win0_2.index t (0 : Fin 3) = 0
    ∧ win0_2.index t (1 : Fin 3) = 0
    ∧ win0_2.index t (2 : Fin 3) = 0
    ∧ win0_3.index t (0 : Fin 2) = 0
    ∧ win0_3.index t (1 : Fin 2) = 0
    ∧ win0_4.index t (0 : Fin 2) = 0
    ∧ win0_4.index t (1 : Fin 2) = 0
    ∧ win0_5.index t (0 : Fin 2) = 0
    ∧ win0_5.index t (1 : Fin 2) = 0
    ∧ win0_6.index t (0 : Fin 2) = 0
    ∧ win0_6.index t (1 : Fin 2) = 0
    ∧ win0_7.index t (0 : Fin 2) = 0
    ∧ win0_7.index t (1 : Fin 2) = 0
    ∧ win0_8.index t (0 : Fin 2) = 0
    ∧ win0_8.index t (1 : Fin 2) = 0
    ∧ win0_9.index t (0 : Fin 2) = 0
    ∧ win0_9.index t (1 : Fin 2) = 0
    ∧ win0_10.index t (0 : Fin 2) = 0
    ∧ win0_10.index t (1 : Fin 2) = 0
    ∧ win0_11.index t (0 : Fin 2) = 0
    ∧ win0_11.index t (1 : Fin 2) = 0
    ∧ win0_12.index t (0 : Fin 2) = 0
    ∧ win0_12.index t (1 : Fin 2) = 0 :=
  (by decide +kernel : ∀ t : Fin grid0.N, _)

/-- Window 1 holds its whole array at every point. -/
theorem blk_1 (c : Dev nD) (t : Fin cfg0.N) : iblk m c 1 t = (argsOf m c).adj := by
  have hi := idx_in t
  funext y
  show V m c (Pipeline.arrRef spec0 1) (((cfg0.win 1).blk t).view.emb y) = V m c (Pipeline.arrRef spec0 1) y
  refine congrArg (V m c (Pipeline.arrRef spec0 1)) (funext fun a => Fin.ext ?_)
  match a with
  | ⟨0, _⟩ => show win0_1.index t (0 : Fin 2) * 512 + 1 * (y 0).val = (y 0).val; omega
  | ⟨1, _⟩ => show win0_1.index t (1 : Fin 2) * 512 + 1 * (y 1).val = (y 1).val; omega

/-- Window 2 holds its whole array at every point. -/
theorem blk_2 (c : Dev nD) (t : Fin cfg0.N) : iblk m c 2 t = (argsOf m c).x := by
  have hi := idx_in t
  funext y
  show V m c (Pipeline.arrRef spec0 2) (((cfg0.win 2).blk t).view.emb y) = V m c (Pipeline.arrRef spec0 2) y
  refine congrArg (V m c (Pipeline.arrRef spec0 2)) (funext fun a => Fin.ext ?_)
  match a with
  | ⟨0, _⟩ => show win0_2.index t (0 : Fin 3) * 512 + 1 * (y 0).val = (y 0).val; omega
  | ⟨1, _⟩ => show win0_2.index t (1 : Fin 3) * 2 + 1 * (y 1).val = (y 1).val; omega
  | ⟨2, _⟩ => show win0_2.index t (2 : Fin 3) * 128 + 1 * (y 2).val = (y 2).val; omega

/-- Window 3 holds its whole array at every point. -/
theorem blk_3 (c : Dev nD) (t : Fin cfg0.N) : iblk m c 3 t = (argsOf m c).w1e := by
  have hi := idx_in t
  funext y
  show V m c (Pipeline.arrRef spec0 3) (((cfg0.win 3).blk t).view.emb y) = V m c (Pipeline.arrRef spec0 3) y
  refine congrArg (V m c (Pipeline.arrRef spec0 3)) (funext fun a => Fin.ext ?_)
  match a with
  | ⟨0, _⟩ => show win0_3.index t (0 : Fin 2) * 128 + 1 * (y 0).val = (y 0).val; omega
  | ⟨1, _⟩ => show win0_3.index t (1 : Fin 2) * 128 + 1 * (y 1).val = (y 1).val; omega

/-- Window 4 holds its whole array at every point. -/
theorem blk_4 (c : Dev nD) (t : Fin cfg0.N) : iblk m c 4 t = (argsOf m c).w2e := by
  have hi := idx_in t
  funext y
  show V m c (Pipeline.arrRef spec0 4) (((cfg0.win 4).blk t).view.emb y) = V m c (Pipeline.arrRef spec0 4) y
  refine congrArg (V m c (Pipeline.arrRef spec0 4)) (funext fun a => Fin.ext ?_)
  match a with
  | ⟨0, _⟩ => show win0_4.index t (0 : Fin 2) * 128 + 1 * (y 0).val = (y 0).val; omega
  | ⟨1, _⟩ => show win0_4.index t (1 : Fin 2) * 128 + 1 * (y 1).val = (y 1).val; omega

/-- Window 5 holds its whole array at every point. -/
theorem blk_5 (c : Dev nD) (t : Fin cfg0.N) : iblk m c 5 t = (argsOf m c).ae1 := by
  have hi := idx_in t
  funext y
  show V m c (Pipeline.arrRef spec0 5) (((cfg0.win 5).blk t).view.emb y) = V m c (Pipeline.arrRef spec0 5) y
  refine congrArg (V m c (Pipeline.arrRef spec0 5)) (funext fun a => Fin.ext ?_)
  match a with
  | ⟨0, _⟩ => show win0_5.index t (0 : Fin 2) * 4 + 1 * (y 0).val = (y 0).val; omega
  | ⟨1, _⟩ => show win0_5.index t (1 : Fin 2) * 1 + 1 * (y 1).val = (y 1).val; omega

/-- Window 6 holds its whole array at every point. -/
theorem blk_6 (c : Dev nD) (t : Fin cfg0.N) : iblk m c 6 t = (argsOf m c).ae2 := by
  have hi := idx_in t
  funext y
  show V m c (Pipeline.arrRef spec0 6) (((cfg0.win 6).blk t).view.emb y) = V m c (Pipeline.arrRef spec0 6) y
  refine congrArg (V m c (Pipeline.arrRef spec0 6)) (funext fun a => Fin.ext ?_)
  match a with
  | ⟨0, _⟩ => show win0_6.index t (0 : Fin 2) * 4 + 1 * (y 0).val = (y 0).val; omega
  | ⟨1, _⟩ => show win0_6.index t (1 : Fin 2) * 1 + 1 * (y 1).val = (y 1).val; omega

/-- Window 7 holds its whole array at every point. -/
theorem blk_7 (c : Dev nD) (t : Fin cfg0.N) : iblk m c 7 t = (argsOf m c).w1n := by
  have hi := idx_in t
  funext y
  show V m c (Pipeline.arrRef spec0 7) (((cfg0.win 7).blk t).view.emb y) = V m c (Pipeline.arrRef spec0 7) y
  refine congrArg (V m c (Pipeline.arrRef spec0 7)) (funext fun a => Fin.ext ?_)
  match a with
  | ⟨0, _⟩ => show win0_7.index t (0 : Fin 2) * 128 + 1 * (y 0).val = (y 0).val; omega
  | ⟨1, _⟩ => show win0_7.index t (1 : Fin 2) * 128 + 1 * (y 1).val = (y 1).val; omega

/-- Window 8 holds its whole array at every point. -/
theorem blk_8 (c : Dev nD) (t : Fin cfg0.N) : iblk m c 8 t = (argsOf m c).as1 := by
  have hi := idx_in t
  funext y
  show V m c (Pipeline.arrRef spec0 8) (((cfg0.win 8).blk t).view.emb y) = V m c (Pipeline.arrRef spec0 8) y
  refine congrArg (V m c (Pipeline.arrRef spec0 8)) (funext fun a => Fin.ext ?_)
  match a with
  | ⟨0, _⟩ => show win0_8.index t (0 : Fin 2) * 4 + 1 * (y 0).val = (y 0).val; omega
  | ⟨1, _⟩ => show win0_8.index t (1 : Fin 2) * 32 + 1 * (y 1).val = (y 1).val; omega

/-- Window 9 holds its whole array at every point. -/
theorem blk_9 (c : Dev nD) (t : Fin cfg0.N) : iblk m c 9 t = (argsOf m c).at1 := by
  have hi := idx_in t
  funext y
  show V m c (Pipeline.arrRef spec0 9) (((cfg0.win 9).blk t).view.emb y) = V m c (Pipeline.arrRef spec0 9) y
  refine congrArg (V m c (Pipeline.arrRef spec0 9)) (funext fun a => Fin.ext ?_)
  match a with
  | ⟨0, _⟩ => show win0_9.index t (0 : Fin 2) * 4 + 1 * (y 0).val = (y 0).val; omega
  | ⟨1, _⟩ => show win0_9.index t (1 : Fin 2) * 32 + 1 * (y 1).val = (y 1).val; omega

/-- Window 10 holds its whole array at every point. -/
theorem blk_10 (c : Dev nD) (t : Fin cfg0.N) : iblk m c 10 t = (argsOf m c).w2n := by
  have hi := idx_in t
  funext y
  show V m c (Pipeline.arrRef spec0 10) (((cfg0.win 10).blk t).view.emb y) = V m c (Pipeline.arrRef spec0 10) y
  refine congrArg (V m c (Pipeline.arrRef spec0 10)) (funext fun a => Fin.ext ?_)
  match a with
  | ⟨0, _⟩ => show win0_10.index t (0 : Fin 2) * 128 + 1 * (y 0).val = (y 0).val; omega
  | ⟨1, _⟩ => show win0_10.index t (1 : Fin 2) * 128 + 1 * (y 1).val = (y 1).val; omega

/-- Window 11 holds its whole array at every point. -/
theorem blk_11 (c : Dev nD) (t : Fin cfg0.N) : iblk m c 11 t = (argsOf m c).as2 := by
  have hi := idx_in t
  funext y
  show V m c (Pipeline.arrRef spec0 11) (((cfg0.win 11).blk t).view.emb y) = V m c (Pipeline.arrRef spec0 11) y
  refine congrArg (V m c (Pipeline.arrRef spec0 11)) (funext fun a => Fin.ext ?_)
  match a with
  | ⟨0, _⟩ => show win0_11.index t (0 : Fin 2) * 4 + 1 * (y 0).val = (y 0).val; omega
  | ⟨1, _⟩ => show win0_11.index t (1 : Fin 2) * 32 + 1 * (y 1).val = (y 1).val; omega

/-- Window 12 holds its whole array at every point. -/
theorem blk_12 (c : Dev nD) (t : Fin cfg0.N) : iblk m c 12 t = (argsOf m c).at2 := by
  have hi := idx_in t
  funext y
  show V m c (Pipeline.arrRef spec0 12) (((cfg0.win 12).blk t).view.emb y) = V m c (Pipeline.arrRef spec0 12) y
  refine congrArg (V m c (Pipeline.arrRef spec0 12)) (funext fun a => Fin.ext ?_)
  match a with
  | ⟨0, _⟩ => show win0_12.index t (0 : Fin 2) * 4 + 1 * (y 0).val = (y 0).val; omega
  | ⟨1, _⟩ => show win0_12.index t (1 : Fin 2) * 32 + 1 * (y 1).val = (y 1).val; omega

/-- The edge-feature window at point t holds block t: row i of it is source row 64 t + i. -/
theorem blk_0 (c : Dev nD) (t : Fin cfg0.N) (i : Fin 64) (tt : Fin 512) (k : Fin 128) :
    iblk m c 0 t (ix3 i tt k) = (argsOf m c).ef (ix3 (rowOf ⟨t.val, lt_of_lt_of_eq t.isLt N_0⟩ i) tt k) := by
  have hi := idx_in t
  show V m c (Pipeline.arrRef spec0 0) (((cfg0.win 0).blk t).view.emb (ix3 i tt k)) = V m c (Pipeline.arrRef spec0 0) _
  refine congrArg (V m c (Pipeline.arrRef spec0 0)) (funext fun a => Fin.ext ?_)
  match a with
  | ⟨0, _⟩ => show win0_0.index t (0 : Fin 3) * 64 + 1 * i.val = 64 * t.val + i.val; omega
  | ⟨1, _⟩ => show win0_0.index t (1 : Fin 3) * 512 + 1 * tt.val = tt.val; omega
  | ⟨2, _⟩ => show win0_0.index t (2 : Fin 3) * 128 + 1 * k.val = k.val; omega

end Cert.KernelIdeal.Body

end
-- ==== Proof.LibLayout.lean ====
/-
  Two layout facts the library does not state: a reshape that removes, or inserts, a MIDDLE axis of extent one,
  read at an index. Nothing here mentions a program.
-/
import Idealize.ShloMosaic.Lib.ValueIdx
import Idealize.ShloMosaic.Lib.Pipeline.Value

noncomputable section

namespace Cert.Lib.Layout

open Idealize.ShloMosaic Idealize.ShloMosaic.ValueIdx

variable {α : Type}

/-- `[a, 1, b] → [a, b]`: the element at `(i, j)` is the operand's at `(i, 0, j)`. -/
theorem shapeCast_a1b_ab_apply {a b : ℕ} (x : (⟨3, ![a, 1, b]⟩ : Shape).Idx → α)
    (h : (⟨3, ![a, 1, b]⟩ : Shape).ShapeCasts ⟨2, ![a, b]⟩) (i : Fin a) (j : Fin b) :
    shapeCast ⟨2, ![a, b]⟩ x h (ix2 i j) = x (ix3 i (0 : Fin 1) j) :=
  shapeCast_apply x h _ _ (by
    rw [Shape.rowMajor_val_three, Shape.rowMajor_val_two]
    show (i.val * 1 + 0) * b + j.val = i.val * b + j.val
    rw [Nat.mul_one, Nat.add_zero])

/-- `[a, b] → [a, 1, b]`: the element at `(i, u, j)` is the operand's at `(i, j)`. -/
theorem shapeCast_ab_a1b_apply {a b : ℕ} (x : (⟨2, ![a, b]⟩ : Shape).Idx → α)
    (h : (⟨2, ![a, b]⟩ : Shape).ShapeCasts ⟨3, ![a, 1, b]⟩) (i : Fin a) (u : Fin 1) (j : Fin b) :
    shapeCast ⟨3, ![a, 1, b]⟩ x h (ix3 i u j) = x (ix2 i j) :=
  shapeCast_apply x h _ _ (by
    have hu : u.val = 0 := by omega
    rw [Shape.rowMajor_val_three, Shape.rowMajor_val_two]
    show i.val * b + j.val = (i.val * 1 + u.val) * b + j.val
    rw [hu, Nat.mul_one, Nat.add_zero])

end Cert.Lib.Layout

end
-- ==== Proof.KernelIdealProj.lean ====
/-
  The first point's node projection, read at an index: the stored value for batch slice b is the matrix product of
  the slice's node features (512 x 128, read off the 512 x 1 x 128 slice) with the transposed node weights — entry
  (p, q) is the sum over k of feature k of node p times weight (q, k). Over the extended reals the matrix unit's
  product into a zero accumulator is exactly this sum.
-/
import proofs.«169155_g70909910057105_cont_sun_m_1383_19_alg».proof.Proof.Gen.KernelIdeal.Skeleton
import proofs.«169155_g70909910057105_cont_sun_m_1383_19_alg».proof.Proof.LibLayout
import Idealize.ShloMosaic.Lib.ValueIdx
import Idealize.ShloMosaic.PureOps.Ideal.Laws

noncomputable section

namespace Cert.KernelIdeal.Payloads

open Cert.KernelIdeal Cert.KernelIdeal.Gen Idealize.ShloMosaic Idealize.ShloMosaic.ValueIdx

/-- The product's dimension numbers: both operands contracted along their second axis. -/
abbrev dProj := dot_S512x128_S128x128_S512x128_1_1_0_0_n_n

theorem dProj_lhs0 (i : S512x128.Idx) (q : dProj.contr.Idx) : (dProj.lhsIdx i q 0).val = (i 0).val := by
  unfold DotDims.lhsIdx
  rw [dif_neg (show ¬(0 : Fin S512x128.rank) ∈ dProj.lhsBatch by decide), dif_pos (show (0 : Fin S512x128.rank) ∈ dProj.lhsNonContracting by decide)]
  rfl
theorem dProj_lhs1 (i : S512x128.Idx) (q : dProj.contr.Idx) : (dProj.lhsIdx i q 1).val = (q ⟨0, by decide⟩).val :=
  dProj.lhsIdx_val_of_single rfl i q
theorem dProj_rhs0 (i : S512x128.Idx) (q : dProj.contr.Idx) : (dProj.rhsIdx i q 0).val = (i 1).val := by
  unfold DotDims.rhsIdx
  rw [dif_neg (show ¬(0 : Fin S128x128.rank) ∈ dProj.rhsBatch by decide), dif_pos (show (0 : Fin S128x128.rank) ∈ dProj.rhsNonContracting by decide)]
  rfl
theorem dProj_rhs1 (i : S512x128.Idx) (q : dProj.contr.Idx) : (dProj.rhsIdx i q 1).val = (q ⟨0, by decide⟩).val :=
  dProj.rhsIdx_val_of_single rfl i q

/-- The projected features of one batch slice, entry by entry. -/
theorem proj_apply (xb : Vec Ideal S512x1x128 .f32) (w : Vec Ideal S128x128 .f32) (p : Fin 512) (q : Fin 128) :
    k0_pay3 (F := Ideal) xb w (ix2 p q) = ∑ k : Fin 128, xb (ix3 p (0 : Fin 1) k) * w (ix2 q k) := by
  unfold k0_pay3
  refine (Ideal.matmul_constant_zero_apply dProj none _ _ _).trans ?_
  rw [← Equiv.sum_comp (contrEquiv1 dProj 128 rfl rfl).symm]
  refine Finset.sum_congr rfl fun k _ => ?_
  have hk := contrEquiv1_symm_val dProj 128 rfl rfl k
  have el : dProj.lhsIdx (ix2 p q) ((contrEquiv1 dProj 128 rfl rfl).symm k) = ix2 p k := funext fun a => Fin.ext (by
    match a with
    | ⟨0, _⟩ => exact dProj_lhs0 _ _
    | ⟨1, _⟩ => exact (dProj_lhs1 _ _).trans hk)
  have er : dProj.rhsIdx (ix2 p q) ((contrEquiv1 dProj 128 rfl rfl).symm k) = ix2 q k := funext fun a => Fin.ext (by
    match a with
    | ⟨0, _⟩ => exact dProj_rhs0 _ _
    | ⟨1, _⟩ => exact (dProj_rhs1 _ _).trans hk)
  rw [el, er, Cert.Lib.Layout.shapeCast_a1b_ab_apply]

end Cert.KernelIdeal.Payloads

end
-- ==== Proof.KernelIdealH1.lean ====
/-
  What the first grid point leaves in the scratch buffer of layer-1 projected node features: for each of the two batch
  slices b, node p and feature q, the sum over k of node feature (p, b, k) times node weight (q, k). The point stores one
  512 x 128 block per batch slice; each block is the product of that slice of the node features with the transposed
  weights, so each stored piece is a block of this one function of the buffer's index, and the two pieces tile the buffer.
-/
import proofs.«169155_g70909910057105_cont_sun_m_1383_19_alg».proof.Proof.KernelIdealCovers
import proofs.«169155_g70909910057105_cont_sun_m_1383_19_alg».proof.Proof.KernelIdealProj
import Idealize.ShloMosaic.Lib.ValueLayout

set_option maxRecDepth 16384

noncomputable section

namespace Cert.KernelIdeal.Body

open Cert.KernelIdeal Cert.KernelIdeal.Gen Cert.KernelIdeal.Payloads
open Idealize.ShloMosaic Idealize.ShloMosaic.TcCoe Idealize.ShloMosaic.Tactic Idealize.ShloMosaic.ValueIdx
open Idealize.SL Idealize.SL.Sem

/-- The projected node features as one function of the scratch buffer's index (b, p, q). -/
def h1Fun (x3 : Vec Ideal S512x2x128 .f32) (x8 : Vec Ideal S128x128 .f32) : S2x512x128.Idx → Ideal .f32 :=
  fun j => ∑ k : Fin 128, x3 (ix3 (n0 := 512) (n1 := 2) (n2 := 128) (j 1) (j 0) k) * x8 (ix2 (n0 := 128) (n1 := 128) (j 2) k)

/-- One stored block: the projection of batch slice b, read at (p, q). -/
theorem proj_block (x3 : Vec Ideal S512x2x128 .f32) (x8 : Vec Ideal S128x128 .f32) (f3 : S512x1x128.Idx → Ideal .f32)
    (f8 : S128x128.Idx → Ideal .f32) (b : Fin 2) (h3 : ∀ (p : Fin 512) (k : Fin 128), f3 (ix3 p (0 : Fin 1) k) = x3 (ix3 p b k))
    (h8 : ∀ (q k : Fin 128), f8 (ix2 q k) = x8 (ix2 q k)) (u : Fin 1) (p : Fin 512) (q : Fin 128) :
    k0_pay4 (F := Ideal) f3 f8 (ix3 u p q) = ∑ k : Fin 128, x3 (ix3 p b k) * x8 (ix2 q k) := by
  unfold k0_pay4
  rw [shapeCast_ab_1ab_apply, proj_apply]
  exact Finset.sum_congr rfl fun k _ => by rw [h3, h8]

/-- A stored block is the block of `h1Fun` at its rectangle. -/
theorem proj_piece (x3 : Vec Ideal S512x2x128 .f32) (x8 : Vec Ideal S128x128 .f32) (f3 : S512x1x128.Idx → Ideal .f32)
    (f8 : S128x128.Idx → Ideal .f32) (o : ℕ) (ho : o < 2) (inb)
    (h3 : ∀ (p : Fin 512) (k : Fin 128), f3 (ix3 p (0 : Fin 1) k) = x3 (ix3 p (⟨o, ho⟩ : Fin 2) k))
    (h8 : ∀ (q k : Fin 128), f8 (ix2 q k) = x8 (ix2 q k)) (x : S1x512x128.Idx) :
    k0_pay4 (F := Ideal) f3 f8 x = h1Fun x3 x8 ((Rect.unit (s := S2x512x128) ![o, 0, 0] S1x512x128.size inb).emb x) := by
  obtain ⟨u, p, q, rfl⟩ : ∃ (u : Fin 1) (p : Fin 512) (q : Fin 128), x = ix3 u p q := ⟨x 0, x 1, x 2, eq_ix3 x⟩
  rw [proj_block x3 x8 f3 f8 ⟨o, ho⟩ h3 h8 u p q]
  unfold h1Fun
  have hu : u.val = 0 := by omega
  refine Finset.sum_congr rfl fun k _ => ?_
  refine congrArg₂ (· * ·) (congrArg x3 (funext fun a => Fin.ext ?_)) (congrArg x8 (funext fun a => Fin.ext ?_))
  · match a with
    | ⟨0, _⟩ => exact (by rw [Rect.emb_apply]; exact (by omega : p.val = 0 + 1 * p.val) :
        p.val = (((Rect.unit (s := S2x512x128) ![o, 0, 0] S1x512x128.size inb).emb (ix3 u p q)) 1 : ℕ))
    | ⟨1, _⟩ => exact (by rw [Rect.emb_apply]; exact (by omega : o = o + 1 * u.val) :
        o = (((Rect.unit (s := S2x512x128) ![o, 0, 0] S1x512x128.size inb).emb (ix3 u p q)) 0 : ℕ))
    | ⟨2, _⟩ => rfl
  · match a with
    | ⟨0, _⟩ => exact (by rw [Rect.emb_apply]; exact (by omega : q.val = 0 + 1 * q.val) :
        q.val = (((Rect.unit (s := S2x512x128) ![o, 0, 0] S1x512x128.size inb).emb (ix3 u p q)) 2 : ℕ))
    | ⟨1, _⟩ => rfl

/-- The buffer read back after the first point is `h1Fun` of the node features and the node weights. -/
theorem h1_first (c : Dev nD) (i : grid0.Coords) (arg1 : Memref sig .tc .vmem S64x512x128 .f32) (harg1 : arg1.IsWhole) (arg2 : Memref sig .tc .vmem S512x512 .i32) (harg2 : arg2.IsWhole) (arg3 : Memref sig .tc .vmem S512x2x128 .f32) (harg3 : arg3.IsWhole) (arg4 : Memref sig .tc .vmem S128x128 .f32) (harg4 : arg4.IsWhole) (arg5 : Memref sig .tc .vmem S128x128 .f32) (harg5 : arg5.IsWhole) (arg6 : Memref sig .tc .vmem S4x1 .f32) (harg6 : arg6.IsWhole) (arg7 : Memref sig .tc .vmem S4x1 .f32) (harg7 : arg7.IsWhole) (arg8 : Memref sig .tc .vmem S128x128 .f32) (harg8 : arg8.IsWhole) (arg9 : Memref sig .tc .vmem S4x32 .f32) (harg9 : arg9.IsWhole) (arg10 : Memref sig .tc .vmem S4x32 .f32) (harg10 : arg10.IsWhole) (arg11 : Memref sig .tc .vmem S128x128 .f32) (harg11 : arg11.IsWhole) (arg12 : Memref sig .tc .vmem S4x32 .f32) (harg12 : arg12.IsWhole) (arg13 : Memref sig .tc .vmem S4x32 .f32) (harg13 : arg13.IsWhole) (arg14 : Memref sig .tc .vmem S512x2x128 .f32) (harg14 : arg14.IsWhole) (arg15 : Memref sig .tc .vmem S4x512x512 .f32) (harg15 : arg15.IsWhole) (arg16 : Memref sig .tc .vmem S2x512x128 .f32) (harg16 : arg16.IsWhole) (arg17 : Memref sig .tc .vmem S512x8 .f32) (harg17 : arg17.IsWhole) (arg18 : Memref sig .tc .vmem S8x512 .f32) (harg18 : arg18.IsWhole) (arg19 : Memref sig .tc .vmem S2x512x128 .f32) (harg19 : arg19.IsWhole) (arg20 : Memref sig .tc .vmem S8x512 .f32) (harg20 : arg20.IsWhole) (hc0 : isFirst i) (hc1 : ¬isLast i)
    (x1 : Vec Ideal S64x512x128 .f32) (x2 : Vec Ideal S512x512 .i32) (x3 : Vec Ideal S512x2x128 .f32) (x4 : Vec Ideal S128x128 .f32) (x5 : Vec Ideal S128x128 .f32) (x6 : Vec Ideal S4x1 .f32) (x7 : Vec Ideal S4x1 .f32) (x8 : Vec Ideal S128x128 .f32) (x9 : Vec Ideal S4x32 .f32) (x10 : Vec Ideal S4x32 .f32) (x11 : Vec Ideal S128x128 .f32) (x12 : Vec Ideal S4x32 .f32) (x13 : Vec Ideal S4x32 .f32) (y15 : Vec Ideal S4x512x512 .f32) (j : S2x512x128.Idx) :
    View.canon (namedA (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 hc1 x1 x2 x3 x4 x5 x6 x7 x8 x9 x10 x11 x12 x13 y15).2.1 j = h1Fun x3 x8 j := by
  refine View.canon_apply_of_pieces (h1Fun x3 x8) _ ?_ j (coverA_16 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 hc1 x1 x2 x3 x4 x5 x6 x7 x8 x9 x10 x11 x12 x13 y15 j)
  unfold namedA
  dsimp only
  sl_unfold_words
  have hx3 : ∀ (o : ℕ) (ho : o < 2) (inb) (pp : Fin 512) (kk : Fin 128),
      View.readAt (Elt Ideal) arg3.view (Rect.unit (s := S512x2x128) ![0, o, 0] S512x1x128.size inb).toLoadRect (harg3.unread x3) (ix3 pp (0 : Fin 1) kk)
        = x3 (ix3 pp (⟨o, ho⟩ : Fin 2) kk) := fun o ho inb pp kk => by
    rw [View.readAt_eq_ld, harg3.read_unread]
    refine congrArg x3 (funext fun a => Fin.ext ?_)
    show ((Rect.unit (s := S512x2x128) ![0, o, 0] S512x1x128.size inb).emb (ix3 pp (0 : Fin 1) kk) a : ℕ) = _
    rw [Rect.emb_apply]
    match a with
    | ⟨0, _⟩ => exact (by omega : 0 + 1 * pp.val = pp.val)
    | ⟨1, _⟩ => exact (by omega : o + 1 * 0 = o)
    | ⟨2, _⟩ => exact (by omega : 0 + 1 * kk.val = kk.val)
  have hx8 : ∀ (inb) (qq kk : Fin 128),
      View.readAt (Elt Ideal) arg8.view (Rect.unit (s := S128x128) ![0, 0] S128x128.size inb).toLoadRect (harg8.unread x8) (ix2 qq kk)
        = x8 (ix2 qq kk) := fun inb qq kk => by
    rw [View.readAt_eq_ld, harg8.read_unread]
    refine congrArg x8 (funext fun a => Fin.ext ?_)
    show ((Rect.unit (s := S128x128) ![0, 0] S128x128.size inb).emb (ix2 qq kk) a : ℕ) = _
    rw [Rect.emb_apply]
    match a with
    | ⟨0, _⟩ => exact (by omega : 0 + 1 * qq.val = qq.val)
    | ⟨1, _⟩ => exact (by omega : 0 + 1 * kk.val = kk.val)
  intro pc hpc x
  rcases List.mem_cons.mp hpc with rfl | hpc
  · exact proj_piece x3 x8 _ _ 1 (by decide) inb_S2x512x128_S1x512x128_1_0_0 (fun pp kk => hx3 1 (by decide) _ pp kk) (fun qq kk => hx8 _ qq kk) x
  · rcases List.mem_cons.mp hpc with rfl | hpc
    · exact proj_piece x3 x8 _ _ 0 (by decide) inb_S2x512x128_S1x512x128_0_0_0 (fun pp kk => hx3 0 (by decide) _ pp kk) (fun qq kk => hx8 _ qq kk) x
    · exact absurd hpc (List.not_mem_nil)

end Cert.KernelIdeal.Body

end
-- ==== Proof.KernelIdealHeadvec.lean ====
/-
  The per-head score weights: a 4 x 32 table of per-head vectors laid out as a 4 x 128 matrix whose row h carries head h's
  vector in columns 32 h … 32 h + 31 and zero elsewhere (so that one product against 128 projected features gives all four
  heads' scores at once). The layout is computed from the row and column numbers: entry (h, q) is kept when q div 32 = h.
-/
import proofs.«169155_g70909910057105_cont_sun_m_1383_19_alg».proof.Proof.Gen.KernelIdeal.Skeleton
import Idealize.ShloMosaic.Lib.ValueIdx
import Idealize.ShloMosaic.Lib.Pipeline.Value

noncomputable section

namespace Cert.KernelIdeal.Payloads

open Cert.KernelIdeal Cert.KernelIdeal.Gen Idealize.ShloMosaic Idealize.ShloMosaic.ValueIdx

variable {F : FTy → Type} [FloatOps F]

/-- Which entries of the 4 x 128 layout are kept: the column's head is the row. (The division is the floor division
    of two 32-bit integers as the body spells it: quotient toward zero, corrected when the signs differ and the
    remainder is not zero.) -/
def headMask : IVec S4x128 1 :=
  have v363 : IVec S4x128 32 := iota .tc S4x128 32 [0] iota_S4x128_d0_w32
  have v364 : IVec S4x128 32 := iota .tc S4x128 32 [1] iota_S4x128_d1_w32
  have v365 : IVec S4x128 32 := broadcast S4x128 32#32
  have v366 : IVec S4x128 32 := divsi v364 v365
  have v367 : IVec S4x128 32 := broadcast S4x128 0#32
  have v368 : IVec S4x128 1 := cmpi .sgt v364 v367
  have v369 : IVec S4x128 32 := extui 32 v368 natLt_1_32
  have v370 : IVec S4x128 32 := broadcast S4x128 0#32
  have v371 : IVec S4x128 1 := cmpi .slt v364 v370
  have v372 : IVec S4x128 32 := extui 32 v371 natLt_1_32
  have v373 : IVec S4x128 32 := subi v369 v372
  let v374 : BitVec 1 := Scalar.cmpi .sgt 32#32 0#32
  let v375 : BitVec 32 := Scalar.extui v374
  let v376 : BitVec 1 := Scalar.cmpi .slt 32#32 0#32
  let v377 : BitVec 32 := Scalar.extui v376
  let v378 : BitVec 32 := Scalar.subi v375 v377
  have v379 : IVec S4x128 32 := broadcast S4x128 v378
  have v380 : IVec S4x128 1 := cmpi .ne v373 v379
  have v381 : IVec S4x128 32 := broadcast S4x128 32#32
  have v382 : IVec S4x128 32 := remsi v364 v381
  have v383 : IVec S4x128 32 := broadcast S4x128 0#32
  have v384 : IVec S4x128 1 := cmpi .ne v382 v383
  have v385 : IVec S4x128 1 := andi v380 v384
  have v386 : IVec S4x128 32 := broadcast S4x128 1#32
  have v387 : IVec S4x128 32 := subi v366 v386
  have v388 : IVec S4x128 32 := select v385 v387 v366
  cmpi .eq v388 v363

/-- The mask, entry by entry. -/
theorem headMask_apply : ∀ (h : Fin 4) (q : Fin 128), headMask (ix2 h q) = if q.val / 32 = h.val then 1#1 else 0#1 := by
  decide +kernel

/-- The laid-out weights. -/
def headvec (a : Vec F S4x32 .f32) : FVec F S4x128 .f32 :=
  select headMask
    (concatenate S4x128 1 [⟨S4x32, a⟩, ⟨S4x32, a⟩, ⟨S4x32, a⟩, ⟨S4x32, a⟩] concatenates_S4x32_S4x32_S4x32_S4x32_S4x128_d1)
    (broadcast S4x128 (Scalar.ofBits .f32 0x00000000#32 : F .f32))

/-- The score payload is the projected features times the laid-out weights. -/
theorem pay5_eq (xb : Vec F S512x1x128 .f32) (w : Vec F S128x128 .f32) (a : Vec F S4x32 .f32) :
    k0_pay5 xb w a = matmul dot_S512x128_S4x128_S512x4_1_1_0_0_n_n (some .fp32) (k0_pay3 xb w) (headvec a) (constant S512x4 .f32 0x00000000#32) := rfl

end Cert.KernelIdeal.Payloads

end
-- ==== Proof.KernelIdealScore.lean ====
/-
  The per-head scores of a node: the projected features (128 of them) against the laid-out per-head weights. Only the 32
  columns of head h meet a nonzero weight in row h, so the score of head h is the sum over the head's own 32 columns d of
  feature 32 h + d times the head's weight d.
-/
import proofs.«169155_g70909910057105_cont_sun_m_1383_19_alg».proof.Proof.KernelIdealHeadvec
import proofs.«169155_g70909910057105_cont_sun_m_1383_19_alg».proof.Proof.KernelIdealProj
import proofs.«169155_g70909910057105_cont_sun_m_1383_19_alg».proof.Proof.LibScatterSum
import proofs.«169155_g70909910057105_cont_sun_m_1383_19_alg».proof.Proof.SpecDenseGat
import Idealize.ShloMosaic.PureOps.Ideal.Laws
import Idealize.ShloMosaic.Lib.ValueLayout

noncomputable section

namespace Cert.KernelIdeal.Payloads

open Cert.KernelIdeal Cert.KernelIdeal.Gen Idealize.ShloMosaic Idealize.ShloMosaic.ValueIdx
open Cert.Spec.DenseGat (feat)

/-- Row h of the laid-out weights: head h's vector on the head's own columns, zero elsewhere. -/
theorem headvec_apply (a : Vec Ideal S4x32 .f32) (h : Fin 4) (q : Fin 128) :
    headvec (F := Ideal) a (ix2 h q)
      = if q.val / 32 = h.val then a (ix2 h (⟨q.val % 32, Nat.mod_lt _ (by decide)⟩ : Fin 32)) else 0 := by
  unfold headvec select
  show Scalar.select (headMask (ix2 h q)) _ _ = _
  rw [headMask_apply]
  by_cases hq : q.val / 32 = h.val
  · rw [if_pos hq, if_pos hq]
    show concatenate S4x128 1 (List.replicate 4 (⟨S4x32, a⟩ : (s : Shape) × (s.Idx → Ideal .f32))) concatenates_S4x32_S4x32_S4x32_S4x32_S4x128_d1 (ix2 h q) = _
    exact concatenate_replicate_apply (1 : Fin S4x128.rank) 4 a _ rfl (ix2 h q) (ix2 h (⟨q.val % 32, Nat.mod_lt _ (by decide)⟩ : Fin 32))
      rfl (fun b hb => by
        match b with
        | ⟨0, _⟩ => rfl
        | ⟨1, _⟩ => exact absurd rfl hb)
  · rw [if_neg hq, if_neg hq]
    show Ideal.ofBits .f32 0x00000000#32 = 0
    exact Ideal.ofBits_zero_f32

/-- The product's dimension numbers: 128 features contracted against the 128 columns of the 4 laid-out rows. -/
abbrev dScore := dot_S512x128_S4x128_S512x4_1_1_0_0_n_n

theorem dScore_lhs0 (i : S512x4.Idx) (q : dScore.contr.Idx) : (dScore.lhsIdx i q 0).val = (i 0).val := by
  unfold DotDims.lhsIdx
  rw [dif_neg (show ¬(0 : Fin S512x128.rank) ∈ dScore.lhsBatch by decide), dif_pos (show (0 : Fin S512x128.rank) ∈ dScore.lhsNonContracting by decide)]
  rfl
theorem dScore_lhs1 (i : S512x4.Idx) (q : dScore.contr.Idx) : (dScore.lhsIdx i q 1).val = (q ⟨0, by decide⟩).val :=
  dScore.lhsIdx_val_of_single rfl i q
theorem dScore_rhs0 (i : S512x4.Idx) (q : dScore.contr.Idx) : (dScore.rhsIdx i q 0).val = (i 1).val := by
  unfold DotDims.rhsIdx
  rw [dif_neg (show ¬(0 : Fin S4x128.rank) ∈ dScore.rhsBatch by decide), dif_pos (show (0 : Fin S4x128.rank) ∈ dScore.rhsNonContracting by decide)]
  rfl
theorem dScore_rhs1 (i : S512x4.Idx) (q : dScore.contr.Idx) : (dScore.rhsIdx i q 1).val = (q ⟨0, by decide⟩).val :=
  dScore.rhsIdx_val_of_single rfl i q

/-- A sum over the 128 features against weights that vanish off head h's columns is the sum over those 32 columns. -/
theorem sum_head (x : Fin 128 → EReal) (y : Fin 32 → EReal) (h : Fin 4) :
    (∑ q : Fin 128, x q * (if q.val / 32 = h.val then y (⟨q.val % 32, Nat.mod_lt _ (by decide)⟩ : Fin 32) else 0))
      = ∑ d : Fin 32, x (feat h d) * y d := by
  rw [Cert.Lib.ScatterSum.sum_blocks 4 32, Finset.sum_eq_single h]
  · refine Finset.sum_congr rfl fun d _ => ?_
    have e1 : (h.val * 32 + d.val) / 32 = h.val := by have := d.isLt; omega
    have e2 : (h.val * 32 + d.val) % 32 = d.val := by have := d.isLt; omega
    rw [if_pos e1]
    refine congrArg₂ (· * ·) (congrArg x (Fin.ext ?_)) (congrArg y (Fin.ext e2))
    show h.val * 32 + d.val = 32 * h.val + d.val
    omega
  · intro b _ hb
    refine Finset.sum_eq_zero fun d _ => ?_
    have e1 : ¬(b.val * 32 + d.val) / 32 = h.val := by
      have := d.isLt
      intro e; apply hb; apply Fin.ext; omega
    rw [if_neg e1, mul_zero]
  · intro hh; exact absurd (Finset.mem_univ h) hh

/-- The score of head h at node p, for any matrix of projected features. -/
theorem score_of (g : FVec Ideal S512x128 .f32) (a : Vec Ideal S4x32 .f32) (p : Fin 512) (h : Fin 4) :
    matmul dScore (some .fp32) g (headvec (F := Ideal) a) (constant S512x4 .f32 0x00000000#32) (ix2 p h)
      = ∑ d : Fin 32, g (ix2 p (feat h d)) * a (ix2 h d) := by
  refine (Ideal.matmul_constant_zero_apply dScore (some .fp32) _ _ _).trans ?_
  rw [← Equiv.sum_comp (contrEquiv1 dScore 128 rfl rfl).symm]
  refine Eq.trans (Finset.sum_congr rfl fun k _ => ?_) (sum_head (fun q => g (ix2 p q)) (fun d => a (ix2 h d)) h)
  have hk := contrEquiv1_symm_val dScore 128 rfl rfl k
  have el : dScore.lhsIdx (ix2 p h) ((contrEquiv1 dScore 128 rfl rfl).symm k) = ix2 p k := funext fun b => Fin.ext (by
    match b with
    | ⟨0, _⟩ => exact dScore_lhs0 _ _
    | ⟨1, _⟩ => exact (dScore_lhs1 _ _).trans hk)
  have er : dScore.rhsIdx (ix2 p h) ((contrEquiv1 dScore 128 rfl rfl).symm k) = ix2 h k := funext fun b => Fin.ext (by
    match b with
    | ⟨0, _⟩ => exact dScore_rhs0 _ _
    | ⟨1, _⟩ => exact (dScore_rhs1 _ _).trans hk)
  rw [el, er, headvec_apply]

/-- The source scores as the first point stores them: head h of node p. -/
theorem score_apply (xb : Vec Ideal S512x1x128 .f32) (w : Vec Ideal S128x128 .f32) (a : Vec Ideal S4x32 .f32)
    (p : Fin 512) (h : Fin 4) :
    k0_pay5 (F := Ideal) xb w a (ix2 p h) = ∑ d : Fin 32, k0_pay3 (F := Ideal) xb w (ix2 p (feat h d)) * a (ix2 h d) := by
  rw [pay5_eq]; exact score_of _ a p h

/-- The target-score payload: the same product, transposed. -/
theorem pay7_eq {F : FTy → Type} [FloatOps F] (g : FVec F S512x128 .f32) (a : Vec F S4x32 .f32) :
    k0_pay7 g a = shapeCast S4x512 (transpose S4x512 [1, 0]
      (matmul dScore (some .fp32) g (headvec a) (constant S512x4 .f32 0x00000000#32)) transposes_S512x4_p1_0_S4x512) shapeCasts_S4x512_S4x512 := rfl

/-- The target scores as the first point stores them (heads along the rows): head h of node p. -/
theorem tscore_apply (g : FVec Ideal S512x128 .f32) (a : Vec Ideal S4x32 .f32) (h : Fin 4) (p : Fin 512) :
    k0_pay7 (F := Ideal) g a (ix2 h p) = ∑ d : Fin 32, g (ix2 p (feat h d)) * a (ix2 h d) := by
  rw [pay7_eq, shapeCast_self, transpose_ix2_apply]; exact score_of g a p h

end Cert.KernelIdeal.Payloads

end
-- ==== Proof.KernelIdealSt1.lean ====
/-
  What the first grid point leaves in the scratch buffer of layer-1 target scores (8 rows: row 4 b + h is head h of batch
  slice b; 512 columns: the nodes): the score of node p is the sum over the head's 32 columns d of the projected feature
  (p, 32 h + d) of that slice times the head's target weight d. The point stores one 4 x 512 block per batch slice, each
  the transposed product of the slice's projected features with the laid-out target weights; the two blocks tile the buffer.
-/
import proofs.«169155_g70909910057105_cont_sun_m_1383_19_alg».proof.Proof.KernelIdealCovers
import proofs.«169155_g70909910057105_cont_sun_m_1383_19_alg».proof.Proof.KernelIdealScore
import Idealize.ShloMosaic.Lib.ValueLayout

set_option maxRecDepth 16384

noncomputable section

namespace Cert.KernelIdeal.Body

open Cert.KernelIdeal Cert.KernelIdeal.Gen Cert.KernelIdeal.Payloads
open Idealize.ShloMosaic Idealize.ShloMosaic.TcCoe Idealize.ShloMosaic.Tactic Idealize.ShloMosaic.ValueIdx
open Idealize.SL Idealize.SL.Sem
open Cert.Spec.DenseGat (feat)

/-- The second batch slice's payloads are the first's, spelled again. -/
theorem pay10_eq {F : FTy → Type} [FloatOps F] : @k0_pay10 F _ = @k0_pay3 F _ := rfl
theorem pay15_eq {F : FTy → Type} [FloatOps F] : @k0_pay15 F _ = @k0_pay7 F _ := rfl

/-- Head h's score of node p from the node features of slice b: the projection, then the head's 32 columns. -/
def scoreOf (x3 : Vec Ideal S512x2x128 .f32) (x8 : Vec Ideal S128x128 .f32) (a : Vec Ideal S4x32 .f32)
    (b : Fin 2) (h : Fin 4) (p : Fin 512) : Ideal .f32 :=
  ∑ d : Fin 32, (∑ k : Fin 128, x3 (ix3 p b k) * x8 (ix2 (feat h d) k)) * a (ix2 h d)

/-- The target scores as one function of the scratch buffer's index (4 b + h, p). -/
def st1Fun (x3 : Vec Ideal S512x2x128 .f32) (x8 : Vec Ideal S128x128 .f32) (a : Vec Ideal S4x32 .f32) : S8x512.Idx → Ideal .f32 :=
  fun j => scoreOf x3 x8 a ⟨(j 0).val / 4, by have := (j 0).isLt; change _ < 8 at this; omega⟩
    ⟨(j 0).val % 4, Nat.mod_lt _ (by decide)⟩ ⟨(j 1).val, (j 1).isLt⟩

/-- A stored block is the block of `st1Fun` at its rectangle. -/
theorem tscore_piece (x3 : Vec Ideal S512x2x128 .f32) (x8 : Vec Ideal S128x128 .f32) (a : Vec Ideal S4x32 .f32)
    (f3 : S512x1x128.Idx → Ideal .f32) (f8 : S128x128.Idx → Ideal .f32) (fa : S4x32.Idx → Ideal .f32)
    (o : ℕ) (ho : o < 2) (inb)
    (h3 : ∀ (p : Fin 512) (k : Fin 128), f3 (ix3 p (0 : Fin 1) k) = x3 (ix3 p (⟨o, ho⟩ : Fin 2) k))
    (h8 : ∀ (q k : Fin 128), f8 (ix2 q k) = x8 (ix2 q k)) (ha : ∀ (h : Fin 4) (d : Fin 32), fa (ix2 h d) = a (ix2 h d))
    (x : S4x512.Idx) :
    k0_pay7 (F := Ideal) (k0_pay3 f3 f8) fa x
      = st1Fun x3 x8 a ((Rect.unit (s := S8x512) ![4 * o, 0] S4x512.size inb).emb x) := by
  obtain ⟨h, p, rfl⟩ : ∃ (h : Fin 4) (p : Fin 512), x = ix2 h p := ⟨x 0, x 1, eq_ix2 x⟩
  rw [tscore_apply]
  unfold st1Fun scoreOf
  have e0 : (((Rect.unit (s := S8x512) ![4 * o, 0] S4x512.size inb).emb (ix2 h p)) 0 : ℕ) = 4 * o + h.val := by
    rw [Rect.emb_apply]; exact (by omega : 4 * o + 1 * h.val = 4 * o + h.val)
  have e1 : (((Rect.unit (s := S8x512) ![4 * o, 0] S4x512.size inb).emb (ix2 h p)) 1 : ℕ) = p.val := by
    rw [Rect.emb_apply]; exact (by omega : 0 + 1 * p.val = p.val)
  have hb : (⟨(((Rect.unit (s := S8x512) ![4 * o, 0] S4x512.size inb).emb (ix2 h p)) 0 : ℕ) / 4, by rw [e0]; have := h.isLt; omega⟩ : Fin 2) = ⟨o, ho⟩ :=
    Fin.ext (by show _ / 4 = o; rw [e0]; have := h.isLt; omega)
  have hh : (⟨(((Rect.unit (s := S8x512) ![4 * o, 0] S4x512.size inb).emb (ix2 h p)) 0 : ℕ) % 4, Nat.mod_lt _ (by decide)⟩ : Fin 4) = h :=
    Fin.ext (by show _ % 4 = h.val; rw [e0]; have := h.isLt; omega)
  have hp : (⟨(((Rect.unit (s := S8x512) ![4 * o, 0] S4x512.size inb).emb (ix2 h p)) 1 : ℕ), by rw [e1]; exact p.isLt⟩ : Fin 512) = p :=
    Fin.ext e1
  rw [hb, hh, hp]
  refine Finset.sum_congr rfl fun d _ => ?_
  rw [proj_apply, ha]
  exact congrArg (· * a (ix2 h d)) (Finset.sum_congr rfl fun k _ => by rw [h3, h8])

/-- The buffer read back after the first point is `st1Fun` of the node features, the node weights and the target vectors. -/
theorem st1_first (c : Dev nD) (i : grid0.Coords) (arg1 : Memref sig .tc .vmem S64x512x128 .f32) (harg1 : arg1.IsWhole) (arg2 : Memref sig .tc .vmem S512x512 .i32) (harg2 : arg2.IsWhole) (arg3 : Memref sig .tc .vmem S512x2x128 .f32) (harg3 : arg3.IsWhole) (arg4 : Memref sig .tc .vmem S128x128 .f32) (harg4 : arg4.IsWhole) (arg5 : Memref sig .tc .vmem S128x128 .f32) (harg5 : arg5.IsWhole) (arg6 : Memref sig .tc .vmem S4x1 .f32) (harg6 : arg6.IsWhole) (arg7 : Memref sig .tc .vmem S4x1 .f32) (harg7 : arg7.IsWhole) (arg8 : Memref sig .tc .vmem S128x128 .f32) (harg8 : arg8.IsWhole) (arg9 : Memref sig .tc .vmem S4x32 .f32) (harg9 : arg9.IsWhole) (arg10 : Memref sig .tc .vmem S4x32 .f32) (harg10 : arg10.IsWhole) (arg11 : Memref sig .tc .vmem S128x128 .f32) (harg11 : arg11.IsWhole) (arg12 : Memref sig .tc .vmem S4x32 .f32) (harg12 : arg12.IsWhole) (arg13 : Memref sig .tc .vmem S4x32 .f32) (harg13 : arg13.IsWhole) (arg14 : Memref sig .tc .vmem S512x2x128 .f32) (harg14 : arg14.IsWhole) (arg15 : Memref sig .tc .vmem S4x512x512 .f32) (harg15 : arg15.IsWhole) (arg16 : Memref sig .tc .vmem S2x512x128 .f32) (harg16 : arg16.IsWhole) (arg17 : Memref sig .tc .vmem S512x8 .f32) (harg17 : arg17.IsWhole) (arg18 : Memref sig .tc .vmem S8x512 .f32) (harg18 : arg18.IsWhole) (arg19 : Memref sig .tc .vmem S2x512x128 .f32) (harg19 : arg19.IsWhole) (arg20 : Memref sig .tc .vmem S8x512 .f32) (harg20 : arg20.IsWhole) (hc0 : isFirst i) (hc1 : ¬isLast i)
    (x1 : Vec Ideal S64x512x128 .f32) (x2 : Vec Ideal S512x512 .i32) (x3 : Vec Ideal S512x2x128 .f32) (x4 : Vec Ideal S128x128 .f32) (x5 : Vec Ideal S128x128 .f32) (x6 : Vec Ideal S4x1 .f32) (x7 : Vec Ideal S4x1 .f32) (x8 : Vec Ideal S128x128 .f32) (x9 : Vec Ideal S4x32 .f32) (x10 : Vec Ideal S4x32 .f32) (x11 : Vec Ideal S128x128 .f32) (x12 : Vec Ideal S4x32 .f32) (x13 : Vec Ideal S4x32 .f32) (y15 : Vec Ideal S4x512x512 .f32) (j : S8x512.Idx) :
    View.canon (namedA (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 hc1 x1 x2 x3 x4 x5 x6 x7 x8 x9 x10 x11 x12 x13 y15).2.2.2.1 j = st1Fun x3 x8 x10 j := by
  refine View.canon_apply_of_pieces (st1Fun x3 x8 x10) _ ?_ j (coverA_18 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 hc1 x1 x2 x3 x4 x5 x6 x7 x8 x9 x10 x11 x12 x13 y15 j)
  unfold namedA
  dsimp only
  sl_unfold_words
  have hx3 : ∀ (o : ℕ) (ho : o < 2) (inb) (pp : Fin 512) (kk : Fin 128),
      View.readAt (Elt Ideal) arg3.view (Rect.unit (s := S512x2x128) ![0, o, 0] S512x1x128.size inb).toLoadRect (harg3.unread x3) (ix3 pp (0 : Fin 1) kk)
        = x3 (ix3 pp (⟨o, ho⟩ : Fin 2) kk) := fun o ho inb pp kk => by
    rw [View.readAt_eq_ld, harg3.read_unread]
    refine congrArg x3 (funext fun a => Fin.ext ?_)
    show ((Rect.unit (s := S512x2x128) ![0, o, 0] S512x1x128.size inb).emb (ix3 pp (0 : Fin 1) kk) a : ℕ) = _
    rw [Rect.emb_apply]
    match a with
    | ⟨0, _⟩ => exact (by omega : 0 + 1 * pp.val = pp.val)
    | ⟨1, _⟩ => exact (by omega : o + 1 * 0 = o)
    | ⟨2, _⟩ => exact (by omega : 0 + 1 * kk.val = kk.val)
  have hx8 : ∀ (inb) (qq kk : Fin 128),
      View.readAt (Elt Ideal) arg8.view (Rect.unit (s := S128x128) ![0, 0] S128x128.size inb).toLoadRect (harg8.unread x8) (ix2 qq kk)
        = x8 (ix2 qq kk) := fun inb qq kk => by
    rw [View.readAt_eq_ld, harg8.read_unread]
    refine congrArg x8 (funext fun a => Fin.ext ?_)
    show ((Rect.unit (s := S128x128) ![0, 0] S128x128.size inb).emb (ix2 qq kk) a : ℕ) = _
    rw [Rect.emb_apply]
    match a with
    | ⟨0, _⟩ => exact (by omega : 0 + 1 * qq.val = qq.val)
    | ⟨1, _⟩ => exact (by omega : 0 + 1 * kk.val = kk.val)
  have hx10 : ∀ (inb) (hh : Fin 4) (dd : Fin 32),
      View.readAt (Elt Ideal) arg10.view (Rect.unit (s := S4x32) ![0, 0] S4x32.size inb).toLoadRect (harg10.unread x10) (ix2 hh dd)
        = x10 (ix2 hh dd) := fun inb hh dd => by
    rw [View.readAt_eq_ld, harg10.read_unread]
    refine congrArg x10 (funext fun a => Fin.ext ?_)
    show ((Rect.unit (s := S4x32) ![0, 0] S4x32.size inb).emb (ix2 hh dd) a : ℕ) = _
    rw [Rect.emb_apply]
    match a with
    | ⟨0, _⟩ => exact (by omega : 0 + 1 * hh.val = hh.val)
    | ⟨1, _⟩ => exact (by omega : 0 + 1 * dd.val = dd.val)
  intro pc hpc x
  rcases List.mem_cons.mp hpc with rfl | hpc
  · exact tscore_piece x3 x8 x10 _ _ _ 1 (by decide) inb_S8x512_S4x512_4_0 (fun pp kk => hx3 1 (by decide) _ pp kk) (fun qq kk => hx8 _ qq kk) (fun hh dd => hx10 _ hh dd) x
  · rcases List.mem_cons.mp hpc with rfl | hpc
    · exact tscore_piece x3 x8 x10 _ _ _ 0 (by decide) inb_S8x512_S4x512_0_0 (fun pp kk => hx3 0 (by decide) _ pp kk) (fun qq kk => hx8 _ qq kk) (fun hh dd => hx10 _ hh dd) x
    · exact absurd hpc (List.not_mem_nil)

end Cert.KernelIdeal.Body

end
-- ==== Proof.KernelIdealSs1.lean ====
/-
  What the first grid point leaves in the scratch buffer of layer-1 source scores (512 rows: the nodes; 8 columns: column
  4 b + h is head h of batch slice b): the same per-head scores as the target-score buffer, with the source weights and
  not transposed. One 512 x 4 block per batch slice; the two blocks tile the buffer.
-/
import proofs.«169155_g70909910057105_cont_sun_m_1383_19_alg».proof.Proof.KernelIdealSt1

set_option maxRecDepth 16384

noncomputable section

namespace Cert.KernelIdeal.Body

open Cert.KernelIdeal Cert.KernelIdeal.Gen Cert.KernelIdeal.Payloads
open Idealize.ShloMosaic Idealize.ShloMosaic.TcCoe Idealize.ShloMosaic.Tactic Idealize.ShloMosaic.ValueIdx
open Idealize.SL Idealize.SL.Sem
open Cert.Spec.DenseGat (feat)

/-- The second slice's score payload, spelled through its parts, is the same product against the laid-out weights. -/
theorem pay14_eq {F : FTy → Type} [FloatOps F] (g : FVec F S512x128 .f32) (a : Vec F S4x32 .f32) :
    k0_pay14 g (k0_pay12 a) k0_pay13
      = shapeCast S512x4 (matmul dScore (some .fp32) g (headvec a) (constant S512x4 .f32 0x00000000#32)) shapeCasts_S512x4_S512x4 := rfl

/-- The source scores as one function of the scratch buffer's index (p, 4 b + h). -/
def ss1Fun (x3 : Vec Ideal S512x2x128 .f32) (x8 : Vec Ideal S128x128 .f32) (a : Vec Ideal S4x32 .f32) : S512x8.Idx → Ideal .f32 :=
  fun j => scoreOf x3 x8 a ⟨(j 1).val / 4, by have := (j 1).isLt; change _ < 8 at this; omega⟩
    ⟨(j 1).val % 4, Nat.mod_lt _ (by decide)⟩ ⟨(j 0).val, (j 0).isLt⟩

/-- A stored block (either spelling, as a product against the laid-out weights) is the block of `ss1Fun` at its rectangle. -/
theorem sscore_piece (x3 : Vec Ideal S512x2x128 .f32) (x8 : Vec Ideal S128x128 .f32) (a : Vec Ideal S4x32 .f32)
    (f3 : S512x1x128.Idx → Ideal .f32) (f8 : S128x128.Idx → Ideal .f32) (fa : S4x32.Idx → Ideal .f32)
    (o : ℕ) (ho : o < 2) (inb)
    (h3 : ∀ (p : Fin 512) (k : Fin 128), f3 (ix3 p (0 : Fin 1) k) = x3 (ix3 p (⟨o, ho⟩ : Fin 2) k))
    (h8 : ∀ (q k : Fin 128), f8 (ix2 q k) = x8 (ix2 q k)) (ha : ∀ (h : Fin 4) (d : Fin 32), fa (ix2 h d) = a (ix2 h d))
    (x : S512x4.Idx) :
    shapeCast S512x4 (matmul dScore (some .fp32) (k0_pay3 (F := Ideal) f3 f8) (headvec fa) (constant S512x4 .f32 0x00000000#32)) shapeCasts_S512x4_S512x4 x
      = ss1Fun x3 x8 a ((Rect.unit (s := S512x8) ![0, 4 * o] S512x4.size inb).emb x) := by
  obtain ⟨p, h, rfl⟩ : ∃ (p : Fin 512) (h : Fin 4), x = ix2 p h := ⟨x 0, x 1, eq_ix2 x⟩
  rw [shapeCast_self, score_of]
  unfold ss1Fun scoreOf
  have e0 : (((Rect.unit (s := S512x8) ![0, 4 * o] S512x4.size inb).emb (ix2 p h)) 0 : ℕ) = p.val := by
    rw [Rect.emb_apply]; exact (by omega : 0 + 1 * p.val = p.val)
  have e1 : (((Rect.unit (s := S512x8) ![0, 4 * o] S512x4.size inb).emb (ix2 p h)) 1 : ℕ) = 4 * o + h.val := by
    rw [Rect.emb_apply]; exact (by omega : 4 * o + 1 * h.val = 4 * o + h.val)
  have hb : (⟨(((Rect.unit (s := S512x8) ![0, 4 * o] S512x4.size inb).emb (ix2 p h)) 1 : ℕ) / 4, by rw [e1]; have := h.isLt; omega⟩ : Fin 2) = ⟨o, ho⟩ :=
    Fin.ext (by show _ / 4 = o; rw [e1]; have := h.isLt; omega)
  have hh : (⟨(((Rect.unit (s := S512x8) ![0, 4 * o] S512x4.size inb).emb (ix2 p h)) 1 : ℕ) % 4, Nat.mod_lt _ (by decide)⟩ : Fin 4) = h :=
    Fin.ext (by show _ % 4 = h.val; rw [e1]; have := h.isLt; omega)
  have hp : (⟨(((Rect.unit (s := S512x8) ![0, 4 * o] S512x4.size inb).emb (ix2 p h)) 0 : ℕ), by rw [e0]; exact p.isLt⟩ : Fin 512) = p :=
    Fin.ext e0
  rw [hb, hh, hp]
  refine Finset.sum_congr rfl fun d _ => ?_
  rw [proj_apply, ha]
  exact congrArg (· * a (ix2 h d)) (Finset.sum_congr rfl fun k _ => by rw [h3, h8])

/-- The buffer read back after the first point is `ss1Fun` of the node features, the node weights and the source vectors. -/
theorem ss1_first (c : Dev nD) (i : grid0.Coords) (arg1 : Memref sig .tc .vmem S64x512x128 .f32) (harg1 : arg1.IsWhole) (arg2 : Memref sig .tc .vmem S512x512 .i32) (harg2 : arg2.IsWhole) (arg3 : Memref sig .tc .vmem S512x2x128 .f32) (harg3 : arg3.IsWhole) (arg4 : Memref sig .tc .vmem S128x128 .f32) (harg4 : arg4.IsWhole) (arg5 : Memref sig .tc .vmem S128x128 .f32) (harg5 : arg5.IsWhole) (arg6 : Memref sig .tc .vmem S4x1 .f32) (harg6 : arg6.IsWhole) (arg7 : Memref sig .tc .vmem S4x1 .f32) (harg7 : arg7.IsWhole) (arg8 : Memref sig .tc .vmem S128x128 .f32) (harg8 : arg8.IsWhole) (arg9 : Memref sig .tc .vmem S4x32 .f32) (harg9 : arg9.IsWhole) (arg10 : Memref sig .tc .vmem S4x32 .f32) (harg10 : arg10.IsWhole) (arg11 : Memref sig .tc .vmem S128x128 .f32) (harg11 : arg11.IsWhole) (arg12 : Memref sig .tc .vmem S4x32 .f32) (harg12 : arg12.IsWhole) (arg13 : Memref sig .tc .vmem S4x32 .f32) (harg13 : arg13.IsWhole) (arg14 : Memref sig .tc .vmem S512x2x128 .f32) (harg14 : arg14.IsWhole) (arg15 : Memref sig .tc .vmem S4x512x512 .f32) (harg15 : arg15.IsWhole) (arg16 : Memref sig .tc .vmem S2x512x128 .f32) (harg16 : arg16.IsWhole) (arg17 : Memref sig .tc .vmem S512x8 .f32) (harg17 : arg17.IsWhole) (arg18 : Memref sig .tc .vmem S8x512 .f32) (harg18 : arg18.IsWhole) (arg19 : Memref sig .tc .vmem S2x512x128 .f32) (harg19 : arg19.IsWhole) (arg20 : Memref sig .tc .vmem S8x512 .f32) (harg20 : arg20.IsWhole) (hc0 : isFirst i) (hc1 : ¬isLast i)
    (x1 : Vec Ideal S64x512x128 .f32) (x2 : Vec Ideal S512x512 .i32) (x3 : Vec Ideal S512x2x128 .f32) (x4 : Vec Ideal S128x128 .f32) (x5 : Vec Ideal S128x128 .f32) (x6 : Vec Ideal S4x1 .f32) (x7 : Vec Ideal S4x1 .f32) (x8 : Vec Ideal S128x128 .f32) (x9 : Vec Ideal S4x32 .f32) (x10 : Vec Ideal S4x32 .f32) (x11 : Vec Ideal S128x128 .f32) (x12 : Vec Ideal S4x32 .f32) (x13 : Vec Ideal S4x32 .f32) (y15 : Vec Ideal S4x512x512 .f32) (j : S512x8.Idx) :
    View.canon (namedA (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 hc1 x1 x2 x3 x4 x5 x6 x7 x8 x9 x10 x11 x12 x13 y15).2.2.1 j = ss1Fun x3 x8 x9 j := by
  refine View.canon_apply_of_pieces (ss1Fun x3 x8 x9) _ ?_ j (coverA_17 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 hc1 x1 x2 x3 x4 x5 x6 x7 x8 x9 x10 x11 x12 x13 y15 j)
  unfold namedA
  dsimp only
  sl_unfold_words
  have hx3 : ∀ (o : ℕ) (ho : o < 2) (inb) (pp : Fin 512) (kk : Fin 128),
      View.readAt (Elt Ideal) arg3.view (Rect.unit (s := S512x2x128) ![0, o, 0] S512x1x128.size inb).toLoadRect (harg3.unread x3) (ix3 pp (0 : Fin 1) kk)
        = x3 (ix3 pp (⟨o, ho⟩ : Fin 2) kk) := fun o ho inb pp kk => by
    rw [View.readAt_eq_ld, harg3.read_unread]
    refine congrArg x3 (funext fun a => Fin.ext ?_)
    show ((Rect.unit (s := S512x2x128) ![0, o, 0] S512x1x128.size inb).emb (ix3 pp (0 : Fin 1) kk) a : ℕ) = _
    rw [Rect.emb_apply]
    match a with
    | ⟨0, _⟩ => exact (by omega : 0 + 1 * pp.val = pp.val)
    | ⟨1, _⟩ => exact (by omega : o + 1 * 0 = o)
    | ⟨2, _⟩ => exact (by omega : 0 + 1 * kk.val = kk.val)
  have hx8 : ∀ (inb) (qq kk : Fin 128),
      View.readAt (Elt Ideal) arg8.view (Rect.unit (s := S128x128) ![0, 0] S128x128.size inb).toLoadRect (harg8.unread x8) (ix2 qq kk)
        = x8 (ix2 qq kk) := fun inb qq kk => by
    rw [View.readAt_eq_ld, harg8.read_unread]
    refine congrArg x8 (funext fun a => Fin.ext ?_)
    show ((Rect.unit (s := S128x128) ![0, 0] S128x128.size inb).emb (ix2 qq kk) a : ℕ) = _
    rw [Rect.emb_apply]
    match a with
    | ⟨0, _⟩ => exact (by omega : 0 + 1 * qq.val = qq.val)
    | ⟨1, _⟩ => exact (by omega : 0 + 1 * kk.val = kk.val)
  have hx9 : ∀ (inb) (hh : Fin 4) (dd : Fin 32),
      View.readAt (Elt Ideal) arg9.view (Rect.unit (s := S4x32) ![0, 0] S4x32.size inb).toLoadRect (harg9.unread x9) (ix2 hh dd)
        = x9 (ix2 hh dd) := fun inb hh dd => by
    rw [View.readAt_eq_ld, harg9.read_unread]
    refine congrArg x9 (funext fun a => Fin.ext ?_)
    show ((Rect.unit (s := S4x32) ![0, 0] S4x32.size inb).emb (ix2 hh dd) a : ℕ) = _
    rw [Rect.emb_apply]
    match a with
    | ⟨0, _⟩ => exact (by omega : 0 + 1 * hh.val = hh.val)
    | ⟨1, _⟩ => exact (by omega : 0 + 1 * dd.val = dd.val)
  intro pc hpc x
  rcases List.mem_cons.mp hpc with rfl | hpc
  · exact sscore_piece x3 x8 x9 _ _ _ 1 (by decide) inb_S512x8_S512x4_0_4 (fun pp kk => hx3 1 (by decide) _ pp kk) (fun qq kk => hx8 _ qq kk) (fun hh dd => hx9 _ hh dd) x
  · rcases List.mem_cons.mp hpc with rfl | hpc
    · exact sscore_piece x3 x8 x9 _ _ _ 0 (by decide) inb_S512x8_S512x4_0_0 (fun pp kk => hx3 0 (by decide) _ pp kk) (fun qq kk => hx8 _ qq kk) (fun hh dd => hx9 _ hh dd) x
    · exact absurd hpc (List.not_mem_nil)

end Cert.KernelIdeal.Body

end
-- ==== Proof.LibDenseAttention.lean ====
/-
  Dense masked attention on the extended reals, in the spellings a fused kernel and a gather/scatter
  reference give it. Every entry is a real number read in the extended reals; the lemmas say that the
  two spellings are one number.

  * a finite sum of reals is the sum of the summands read in the extended reals (`coe_sum`);
  * a matrix product whose operands are split into a high part `v` and a low part `v - v` is the plain
    product: the low parts are zero (`split3`);
  * the attention-weighted sum `Σ i, h i * (p i / d)` is `(Σ i, p i * h i) * (1 / d)` and also
    `Σ i, (p i * (1 / d)) * h i`, for a nonzero real `d` (`weighted_quotient`, `weighted_scaled`);
  * contracting with the column sums of a row group is the sum over the group of the contractions
    (`rowgroup_contract`);
  * a sum over `H * n` rows in which only the rows of block `q` are kept is the sum over that block
    (`sum_block_select`): the block-diagonal operands of a batched per-head contraction.
-/
import Idealize.ShloMosaic.PureOps.Ideal
import Mathlib.Algebra.BigOperators.Fin
import Mathlib.Logic.Equiv.Fin.Basic
import Mathlib.Tactic.Ring

noncomputable section

namespace Cert.Lib.DenseAttention

open Idealize.ShloMosaic

/-- A finite sum of reals, read in the extended reals, is the sum of its summands read there. -/
theorem coe_sum {ι : Type*} (s : Finset ι) (f : ι → ℝ) :
    ((∑ i ∈ s, f i : ℝ) : EReal) = ∑ i ∈ s, (f i : EReal) := by
  classical
  refine Finset.induction_on s (by simp) ?_
  intro a s ha ih
  rw [Finset.sum_insert ha, Finset.sum_insert ha, EReal.coe_add, ih]

/-- The low part of a real split against itself is zero. -/
theorem coe_sub_self (x : ℝ) : (x : EReal) - (x : EReal) = 0 := by
  rw [← EReal.coe_sub, sub_self, EReal.coe_zero]

/-- A contraction of real operands split as high part plus low part `v - v`, with the low-by-low term
    dropped, is the plain contraction: both low parts are zero. -/
theorem split3 {ι : Type*} (s : Finset ι) (a b : ι → ℝ) :
    (∑ i ∈ s, (a i : EReal) * (b i : EReal))
      + (∑ i ∈ s, (a i : EReal) * ((b i : EReal) - (b i : EReal)))
      + (∑ i ∈ s, ((a i : EReal) - (a i : EReal)) * (b i : EReal))
    = ∑ i ∈ s, (a i : EReal) * (b i : EReal) := by
  simp only [coe_sub_self, mul_zero, zero_mul, Finset.sum_const_zero, add_zero]

/-- The quotient of one by a nonzero real is the real reciprocal. -/
theorem div_one_coe {d : ℝ} (hd : d ≠ 0) : Ideal.div 1 (d : EReal) = ((1 / d : ℝ) : EReal) := by
  rw [Ideal.div_coe hd, one_mul]

/-- The attention-weighted sum with each weight divided by the normaliser is the unnormalised
    weighted sum times the normaliser's reciprocal. -/
theorem weighted_quotient {ι : Type*} (s : Finset ι) (p h : ι → ℝ) {d : ℝ} (hd : d ≠ 0) :
    ∑ i ∈ s, (h i : EReal) * Ideal.div (p i : EReal) (d : EReal)
      = (∑ i ∈ s, (p i : EReal) * (h i : EReal)) * Ideal.div 1 (d : EReal) := by
  have e1 : ∀ i, (h i : EReal) * Ideal.div (p i : EReal) (d : EReal)
      = ((h i * (p i * (1 / d)) : ℝ) : EReal) := by
    intro i; rw [Ideal.div_coe hd, EReal.coe_mul, EReal.coe_mul]
  have e2 : ∀ i, (p i : EReal) * (h i : EReal) = ((p i * h i : ℝ) : EReal) :=
    fun i => (EReal.coe_mul _ _).symm
  simp only [e1, e2]
  rw [div_one_coe hd, ← coe_sum, ← coe_sum, ← EReal.coe_mul, Finset.sum_mul]
  exact congrArg _ (Finset.sum_congr rfl fun i _ => by ring)

/-- The same weighted sum with each weight scaled by a real factor first. -/
theorem weighted_scaled {ι : Type*} (s : Finset ι) (p h : ι → ℝ) (r : ℝ) :
    ∑ i ∈ s, ((p i : EReal) * (r : EReal)) * (h i : EReal)
      = (∑ i ∈ s, (p i : EReal) * (h i : EReal)) * (r : EReal) := by
  have e1 : ∀ i, ((p i : EReal) * (r : EReal)) * (h i : EReal) = ((p i * r * h i : ℝ) : EReal) := by
    intro i; rw [EReal.coe_mul, EReal.coe_mul]
  have e2 : ∀ i, (p i : EReal) * (h i : EReal) = ((p i * h i : ℝ) : EReal) :=
    fun i => (EReal.coe_mul _ _).symm
  simp only [e1, e2]
  rw [← coe_sum, ← coe_sum, ← EReal.coe_mul, Finset.sum_mul]
  exact congrArg _ (Finset.sum_congr rfl fun i _ => by ring)

/-- Contracting a vector with the column sums of a group of rows is the sum, over the rows of the
    group, of the contractions with each row. -/
theorem rowgroup_contract {δ κ : Type*} (sd : Finset δ) (sk : Finset κ) (W : δ → κ → ℝ) (e : κ → ℝ) :
    ∑ k ∈ sk, (∑ d ∈ sd, (W d k : EReal)) * (e k : EReal)
      = ∑ d ∈ sd, ∑ k ∈ sk, (e k : EReal) * (W d k : EReal) := by
  have e1 : ∀ k, (∑ d ∈ sd, (W d k : EReal)) * (e k : EReal) = (((∑ d ∈ sd, W d k) * e k : ℝ) : EReal) := by
    intro k; rw [EReal.coe_mul, coe_sum]
  have e2 : ∀ d k, (e k : EReal) * (W d k : EReal) = ((e k * W d k : ℝ) : EReal) :=
    fun d k => (EReal.coe_mul _ _).symm
  simp only [e1, e2]
  simp only [← coe_sum]
  refine congrArg _ ?_
  rw [Finset.sum_comm]
  refine Finset.sum_congr rfl fun k _ => ?_
  rw [Finset.sum_mul]
  exact Finset.sum_congr rfl fun d _ => by ring

/-- Row `q * n + i` of `H` blocks of `n` rows. -/
theorem block_lt {H n q i : ℕ} (hq : q < H) (hi : i < n) : q * n + i < H * n :=
  calc q * n + i < q * n + n := Nat.add_lt_add_left hi _
    _ = (q + 1) * n := (Nat.succ_mul q n).symm
    _ ≤ H * n := Nat.mul_le_mul_right n hq

/-- A sum over `H * n` rows that keeps only the rows whose block number is `q` is the sum over the
    `n` rows of block `q`. -/
theorem sum_block_select {M : Type*} [AddCommMonoid M] (H n q : ℕ) (hq : q < H) (f : Fin (H * n) → M) :
    ∑ r : Fin (H * n), (if r.val / n = q then f r else 0)
      = ∑ i : Fin n, f ⟨q * n + i.val, block_lt hq i.isLt⟩ := by
  classical
  rcases Nat.eq_zero_or_pos n with rfl | hn
  · simp
  rw [← (finProdFinEquiv (m := H) (n := n)).sum_comp, Fintype.sum_prod_type]
  have hdiv : ∀ (a : Fin H) (b : Fin n), (finProdFinEquiv (a, b)).val / n = a.val := by
    intro a b
    show (b.val + n * a.val) / n = a.val
    rw [Nat.add_mul_div_left _ _ hn, Nat.div_eq_of_lt b.isLt, Nat.zero_add]
  simp only [hdiv]
  rw [Finset.sum_eq_single (⟨q, hq⟩ : Fin H)]
  · refine Finset.sum_congr rfl fun b _ => ?_
    rw [if_pos (rfl : (⟨q, hq⟩ : Fin H).val = q)]
    refine congrArg f (Fin.ext ?_)
    show b.val + n * q = q * n + b.val
    rw [Nat.mul_comm, Nat.add_comm]
  · intro a _ ha
    have : a.val ≠ q := fun h => ha (Fin.ext h)
    simp only [if_neg this, Finset.sum_const_zero]
  · intro h; exact absurd (Finset.mem_univ _) h

end Cert.Lib.DenseAttention

end
-- ==== Proof.KernelIdealEdgeScore.lean ====
/-
  The edge scores of one block of 64 source rows, read at an index. The two layers' edge weights are stacked
  (256 x 128), every group of 32 consecutive rows is summed into one row (8 x 128: rows 0-3 are layer 1's heads,
  rows 4-7 layer 2's), the summed rows are split into a high part and a low part (the row less its high part),
  both parts are contracted with the block's edge features (64 x 512 pairs, 128 features each), the two products
  are added and the result is scaled by the stacked per-head edge coefficients. Over the extended reals the high
  part is the summed row itself and the low part is that row less itself, which is zero when the weights are
  finite: the score of head h on the pair (i, t) is then
      (sum over k of (sum over d of W (32 h + d) k) * E i t k) * ae h.
-/
import proofs.«169155_g70909910057105_cont_sun_m_1383_19_alg».proof.Proof.Gen.KernelIdeal.Skeleton
import proofs.«169155_g70909910057105_cont_sun_m_1383_19_alg».proof.Proof.LibLayout
import proofs.«169155_g70909910057105_cont_sun_m_1383_19_alg».proof.Proof.LibDenseAttention
import proofs.«169155_g70909910057105_cont_sun_m_1383_19_alg».proof.Proof.SpecDenseGat
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Payloads

open Cert.KernelIdeal Cert.KernelIdeal.Gen Idealize.ShloMosaic Idealize.ShloMosaic.ValueIdx
open Cert.Spec.DenseGat (feat)

/-! ## The stacked weights and their group sums -/

/-- Row q of layer 1's weights in the stack, -/
def stackLo (q : Fin 128) : Fin 256 := ⟨q.val, Nat.lt_trans q.isLt (by decide)⟩
/-- and row q of layer 2's. -/
def stackHi (q : Fin 128) : Fin 256 := ⟨128 + q.val, by have := q.isLt; omega⟩
/-- Row d of group g of the stack. -/
def stackRow (g : Fin 8) (d : Fin 32) : Fin 256 := ⟨32 * g.val + d.val, by have := g.isLt; have := d.isLt; omega⟩

/-- The first 128 rows of the stack are layer 1's weights. -/
theorem pay56_lo (w1 w2 : Vec Ideal S128x128 .f32) (q k : Fin 128) :
    k0_pay56 (F := Ideal) w1 w2 (ix2 (stackLo q) k) = w1 (ix2 q k) := by
  unfold k0_pay56
  exact concatenate_pair_apply_left (0 : Fin S256x128.rank) w1 w2 _ (ix2 (stackLo q) k) rfl (ix2 q k) (fun b => by
    match b with
    | ⟨0, _⟩ => rfl
    | ⟨1, _⟩ => rfl)

/-- The last 128 rows of the stack are layer 2's weights. -/
theorem pay56_hi (w1 w2 : Vec Ideal S128x128 .f32) (q k : Fin 128) :
    k0_pay56 (F := Ideal) w1 w2 (ix2 (stackHi q) k) = w2 (ix2 q k) := by
  unfold k0_pay56
  exact concatenate_pair_apply_right (0 : Fin S256x128.rank) w1 w2 _ (ix2 (stackHi q) k) rfl rfl (ix2 q k)
    (fun b hb => by
      match b with
      | ⟨0, _⟩ => exact absurd rfl hb
      | ⟨1, _⟩ => rfl)
    (by show q.val + 128 = 128 + q.val; omega)

/-- The index a sum over a group's 32 rows inserts at group g, column k. -/
theorem lift_group (h : Shape.Reduces S8x32x128 [1] S8x128) (g : Fin 8) (k : Fin 128) (d : Fin 32) :
    h.lift (ix2 g k) d = ix3 g d k := by
  funext a; refine Fin.ext ?_
  match a with
  | ⟨0, _⟩ => rfl
  | ⟨1, _⟩ => rfl
  | ⟨2, _⟩ => rfl

/-- The summed rows: entry (g, k) is the sum over the 32 rows of group g of column k of the stack. -/
theorem pay57_apply (w1 w2 : Vec Ideal S128x128 .f32) (g : Fin 8) (k : Fin 128) :
    k0_pay57 (F := Ideal) w1 w2 (ix2 g k) = ∑ d : Fin 32, k0_pay56 (F := Ideal) w1 w2 (ix2 (stackRow g d) k) := by
  unfold k0_pay57
  refine (Ideal.multiReduction_add_single _ _ reduces_S8x32x128_S8x128 (.inl rfl) rfl (ix2 g k)).trans ?_
  refine Finset.sum_congr rfl fun (d : Fin 32) _ => ?_
  rw [lift_group]
  exact shapeCast_apply _ _ (ix3 g d k) (ix2 (stackRow g d) k) (by
    rw [Shape.rowMajor_val_two, Shape.rowMajor_val_three]
    show (32 * g.val + d.val) * 128 + k.val = (g.val * 32 + d.val) * 128 + k.val
    omega)

/-! ## The split rows, the contraction with the edge features, the stacked coefficients -/

/-- Head h of layer 1 among the 8 stacked heads, -/
def headLo (h : Fin 4) : Fin 8 := ⟨h.val, Nat.lt_trans h.isLt (by decide)⟩
/-- and head h of layer 2. -/
def headHi (h : Fin 4) : Fin 8 := ⟨4 + h.val, by have := h.isLt; omega⟩
/-- Row g of the high part, -/
def splitTop (g : Fin 8) : Fin 16 := ⟨g.val, Nat.lt_trans g.isLt (by decide)⟩
/-- and row g of the low part, of the split rows. -/
def splitBot (g : Fin 8) : Fin 16 := ⟨8 + g.val, by have := g.isLt; omega⟩
/-- The position of the pair (i, t) among the block's 64 x 512 pairs. -/
def pairPos (i : Fin 64) (t : Fin 512) : Fin 32768 := ⟨i.val * 512 + t.val, by have := i.isLt; have := t.isLt; omega⟩

/-- The split rows: the summed rows on top of the summed rows less themselves. -/
def splitRows {F : FTy → Type} [FloatOps F] (w1 w2 : Vec F S128x128 .f32) : FVec F S16x128 .f32 :=
  concatenate S16x128 0 [⟨S8x128, k0_pay57 w1 w2⟩, ⟨S8x128, subf (k0_pay57 w1 w2) (k0_pay57 w1 w2)⟩]
    concatenates_S8x128_S8x128_S16x128_d0

/-- The product's dimension numbers: the 128 columns of the 16 split rows against the 128 features of each pair. -/
abbrev dEdge := dot_S16x128_S32768x128_S16x32768_1_1_0_0_n_n

/-- The split rows contracted with the block's edge features, one column per pair. -/
def edgeDots {F : FTy → Type} [FloatOps F] (w1 w2 : Vec F S128x128 .f32) (ef : Vec F S64x512x128 .f32) :
    FVec F S16x32768 .f32 :=
  matmul dEdge none (truncf .bf16 (splitRows w1 w2) bitsLt_bf16_f32)
    (truncf .bf16 (shapeCast S32768x128 ef shapeCasts_S64x512x128_S32768x128) bitsLt_bf16_f32)
    (constant S16x32768 .f32 0x00000000#32)

/-- The two layers' per-head edge coefficients, stacked. -/
def edgeCoef {F : FTy → Type} [FloatOps F] (a1 a2 : Vec F S4x1 .f32) : FVec F S8x1 .f32 :=
  concatenate S8x1 0 [⟨S4x1, shapeCast S4x1 a1 shapeCasts_S4x1_S4x1⟩, ⟨S4x1, shapeCast S4x1 a2 shapeCasts_S4x1_S4x1⟩]
    concatenates_S4x1_S4x1_S8x1_d0

/-- The scores of all 8 heads: the two halves of the contraction added, times the coefficients. -/
theorem pay58_eq {F : FTy → Type} [FloatOps F] (w1 w2 : Vec F S128x128 .f32) (a1 a2 : Vec F S4x1 .f32)
    (ef : Vec F S64x512x128 .f32) :
    k0_pay58 w1 w2 a1 a2 ef
      = mulf (addf (extractStridedSlice S8x32768 ![0, 0] (edgeDots w1 w2 ef) slices_S16x32768_o0_0_S8x32768)
                   (extractStridedSlice S8x32768 ![8, 0] (edgeDots w1 w2 ef) slices_S16x32768_o8_0_S8x32768))
             (broadcastTo S8x32768 (edgeCoef a1 a2) broadcasts_S8x1_S8x32768) := rfl

/-- The high part of the split rows is the summed rows. -/
theorem splitRows_top (w1 w2 : Vec Ideal S128x128 .f32) (g : Fin 8) (k : Fin 128) :
    splitRows (F := Ideal) w1 w2 (ix2 (splitTop g) k) = k0_pay57 (F := Ideal) w1 w2 (ix2 g k) := by
  unfold splitRows
  exact concatenate_pair_apply_left (s₁ := S8x128) (s₂ := S8x128) (0 : Fin S16x128.rank) _ _ _ (ix2 (splitTop g) k) rfl (ix2 g k) (fun b => by
    match b with
    | ⟨0, _⟩ => rfl
    | ⟨1, _⟩ => rfl)

/-- The low part is each summed entry less itself. -/
theorem splitRows_bot (w1 w2 : Vec Ideal S128x128 .f32) (g : Fin 8) (k : Fin 128) :
    splitRows (F := Ideal) w1 w2 (ix2 (splitBot g) k)
      = k0_pay57 (F := Ideal) w1 w2 (ix2 g k) - k0_pay57 (F := Ideal) w1 w2 (ix2 g k) := by
  unfold splitRows
  exact concatenate_pair_apply_right (s₁ := S8x128) (s₂ := S8x128) (0 : Fin S16x128.rank) _ _ _ (ix2 (splitBot g) k) rfl rfl (ix2 g k)
    (fun b hb => by
      match b with
      | ⟨0, _⟩ => exact absurd rfl hb
      | ⟨1, _⟩ => rfl)
    (by show g.val + 8 = 8 + g.val; omega)

theorem dEdge_lhs0 (i : S16x32768.Idx) (q : dEdge.contr.Idx) : (dEdge.lhsIdx i q 0).val = (i 0).val := by
  unfold DotDims.lhsIdx
  rw [dif_neg (show ¬(0 : Fin S16x128.rank) ∈ dEdge.lhsBatch by decide), dif_pos (show (0 : Fin S16x128.rank) ∈ dEdge.lhsNonContracting by decide)]
  rfl
theorem dEdge_lhs1 (i : S16x32768.Idx) (q : dEdge.contr.Idx) : (dEdge.lhsIdx i q 1).val = (q ⟨0, by decide⟩).val :=
  dEdge.lhsIdx_val_of_single rfl i q
theorem dEdge_rhs0 (i : S16x32768.Idx) (q : dEdge.contr.Idx) : (dEdge.rhsIdx i q 0).val = (i 1).val := by
  unfold DotDims.rhsIdx
  rw [dif_neg (show ¬(0 : Fin S32768x128.rank) ∈ dEdge.rhsBatch by decide), dif_pos (show (0 : Fin S32768x128.rank) ∈ dEdge.rhsNonContracting by decide)]
  rfl
theorem dEdge_rhs1 (i : S16x32768.Idx) (q : dEdge.contr.Idx) : (dEdge.rhsIdx i q 1).val = (q ⟨0, by decide⟩).val :=
  dEdge.rhsIdx_val_of_single rfl i q

/-- Row r of the contraction at the pair (i, t): the row against the pair's 128 edge features. -/
theorem edgeDots_apply (w1 w2 : Vec Ideal S128x128 .f32) (ef : Vec Ideal S64x512x128 .f32) (r : Fin 16) (i : Fin 64)
    (t : Fin 512) :
    edgeDots (F := Ideal) w1 w2 ef (ix2 r (pairPos i t))
      = ∑ k : Fin 128, splitRows (F := Ideal) w1 w2 (ix2 r k) * ef (ix3 i t k) := by
  unfold edgeDots
  refine (Ideal.matmul_constant_zero_apply dEdge none _ _ _).trans ?_
  rw [← Equiv.sum_comp (contrEquiv1 dEdge 128 rfl rfl).symm]
  refine Finset.sum_congr rfl fun k _ => ?_
  have hk := contrEquiv1_symm_val dEdge 128 rfl rfl k
  have el : dEdge.lhsIdx (ix2 r (pairPos i t)) ((contrEquiv1 dEdge 128 rfl rfl).symm k) = ix2 r k := funext fun a => Fin.ext (by
    match a with
    | ⟨0, _⟩ => exact dEdge_lhs0 _ _
    | ⟨1, _⟩ => exact (dEdge_lhs1 _ _).trans hk)
  have er : dEdge.rhsIdx (ix2 r (pairPos i t)) ((contrEquiv1 dEdge 128 rfl rfl).symm k) = ix2 (pairPos i t) k := funext fun a => Fin.ext (by
    match a with
    | ⟨0, _⟩ => exact dEdge_rhs0 _ _
    | ⟨1, _⟩ => exact (dEdge_rhs1 _ _).trans hk)
  rw [el, er]
  show splitRows (F := Ideal) w1 w2 (ix2 r k) * shapeCast S32768x128 ef shapeCasts_S64x512x128_S32768x128 (ix2 (pairPos i t) k) = _
  rw [shapeCast_apply ef _ (ix2 (pairPos i t) k) (ix3 i t k) (by
    rw [Shape.rowMajor_val_two, Shape.rowMajor_val_three]
    show (i.val * 512 + t.val) * 128 + k.val = (i.val * 512 + t.val) * 128 + k.val
    rfl)]

/-- The first four stacked coefficients are layer 1's, -/
theorem edgeCoef_lo (a1 a2 : Vec Ideal S4x1 .f32) (h : Fin 4) :
    edgeCoef (F := Ideal) a1 a2 (ix2 (headLo h) (0 : Fin 1)) = a1 (ix2 h (0 : Fin 1)) := by
  unfold edgeCoef
  rw [shapeCast_self, shapeCast_self]
  exact concatenate_pair_apply_left (0 : Fin S8x1.rank) a1 a2 _ (ix2 (headLo h) (0 : Fin 1)) rfl (ix2 h (0 : Fin 1)) (fun b => by
    match b with
    | ⟨0, _⟩ => rfl
    | ⟨1, _⟩ => rfl)

/-- the last four layer 2's. -/
theorem edgeCoef_hi (a1 a2 : Vec Ideal S4x1 .f32) (h : Fin 4) :
    edgeCoef (F := Ideal) a1 a2 (ix2 (headHi h) (0 : Fin 1)) = a2 (ix2 h (0 : Fin 1)) := by
  unfold edgeCoef
  rw [shapeCast_self, shapeCast_self]
  exact concatenate_pair_apply_right (0 : Fin S8x1.rank) a1 a2 _ (ix2 (headHi h) (0 : Fin 1)) rfl rfl (ix2 h (0 : Fin 1))
    (fun b hb => by
      match b with
      | ⟨0, _⟩ => exact absurd rfl hb
      | ⟨1, _⟩ => rfl)
    (by show h.val + 4 = 4 + h.val; omega)

/-! ## The scores at an index -/

/-- The score of stacked head g on the pair (i, t), before finiteness is used: the summed row against the pair's
    features, plus the row's low part against them, times the head's coefficient. -/
theorem pay58_apply (w1 w2 : Vec Ideal S128x128 .f32) (a1 a2 : Vec Ideal S4x1 .f32) (ef : Vec Ideal S64x512x128 .f32)
    (g : Fin 8) (i : Fin 64) (t : Fin 512) :
    k0_pay58 (F := Ideal) w1 w2 a1 a2 ef (ix2 g (pairPos i t))
      = ((∑ k : Fin 128, k0_pay57 (F := Ideal) w1 w2 (ix2 g k) * ef (ix3 i t k))
          + ∑ k : Fin 128, (k0_pay57 (F := Ideal) w1 w2 (ix2 g k) - k0_pay57 (F := Ideal) w1 w2 (ix2 g k)) * ef (ix3 i t k))
        * edgeCoef (F := Ideal) a1 a2 (ix2 g (0 : Fin 1)) := by
  have e0 : extractStridedSlice S8x32768 ![0, 0] (edgeDots (F := Ideal) w1 w2 ef) slices_S16x32768_o0_0_S8x32768 (ix2 g (pairPos i t))
      = edgeDots (F := Ideal) w1 w2 ef (ix2 (splitTop g) (pairPos i t)) :=
    extractStridedSlice_apply _ _ _ _ _ (fun c => by
      match c with
      | ⟨0, _⟩ => exact (by omega : g.val = 0 + g.val)
      | ⟨1, _⟩ => exact (by omega : (pairPos i t).val = 0 + (pairPos i t).val))
  have e8 : extractStridedSlice S8x32768 ![8, 0] (edgeDots (F := Ideal) w1 w2 ef) slices_S16x32768_o8_0_S8x32768 (ix2 g (pairPos i t))
      = edgeDots (F := Ideal) w1 w2 ef (ix2 (splitBot g) (pairPos i t)) :=
    extractStridedSlice_apply _ _ _ _ _ (fun c => by
      match c with
      | ⟨0, _⟩ => rfl
      | ⟨1, _⟩ => exact (by omega : (pairPos i t).val = 0 + (pairPos i t).val))
  have ec : broadcastTo S8x32768 (edgeCoef (F := Ideal) a1 a2) broadcasts_S8x1_S8x32768 (ix2 g (pairPos i t))
      = edgeCoef (F := Ideal) a1 a2 (ix2 g (0 : Fin 1)) :=
    broadcastTo_apply _ _ _ _ (fun c => by
      match c with
      | ⟨0, _⟩ => rfl
      | ⟨1, _⟩ => rfl)
  rw [pay58_eq]
  show (extractStridedSlice S8x32768 ![0, 0] (edgeDots (F := Ideal) w1 w2 ef) slices_S16x32768_o0_0_S8x32768 (ix2 g (pairPos i t))
        + extractStridedSlice S8x32768 ![8, 0] (edgeDots (F := Ideal) w1 w2 ef) slices_S16x32768_o8_0_S8x32768 (ix2 g (pairPos i t)))
      * broadcastTo S8x32768 (edgeCoef (F := Ideal) a1 a2) broadcasts_S8x1_S8x32768 (ix2 g (pairPos i t)) = _
  rw [e0, e8, ec, edgeDots_apply, edgeDots_apply]
  simp only [splitRows_top, splitRows_bot]

/-- When the summed row is finite its low part is zero: the score is the summed row against the pair's features,
    times the head's coefficient. -/
theorem pay58_of_finite (w1 w2 : Vec Ideal S128x128 .f32) (a1 a2 : Vec Ideal S4x1 .f32) (ef : Vec Ideal S64x512x128 .f32)
    (g : Fin 8) (i : Fin 64) (t : Fin 512)
    (hf : ∀ k : Fin 128, ∃ r : ℝ, k0_pay57 (F := Ideal) w1 w2 (ix2 g k) = (r : EReal)) :
    k0_pay58 (F := Ideal) w1 w2 a1 a2 ef (ix2 g (pairPos i t))
      = (∑ k : Fin 128, k0_pay57 (F := Ideal) w1 w2 (ix2 g k) * ef (ix3 i t k))
        * edgeCoef (F := Ideal) a1 a2 (ix2 g (0 : Fin 1)) := by
  rw [pay58_apply]
  have hz : ∀ k : Fin 128,
      (k0_pay57 (F := Ideal) w1 w2 (ix2 g k) - k0_pay57 (F := Ideal) w1 w2 (ix2 g k)) * ef (ix3 i t k) = 0 := by
    intro k
    obtain ⟨r, hr⟩ := hf k
    rw [hr, Cert.Lib.DenseAttention.coe_sub_self, zero_mul]
  rw [Finset.sum_eq_zero (fun k _ => hz k), add_zero]

/-- Group h of the stack is head h's rows of layer 1's weights, -/
theorem stackRow_lo (h : Fin 4) (d : Fin 32) : stackRow (headLo h) d = stackLo (feat h d) := Fin.ext rfl
/-- and group 4 + h is head h's rows of layer 2's. -/
theorem stackRow_hi (h : Fin 4) (d : Fin 32) : stackRow (headHi h) d = stackHi (feat h d) :=
  Fin.ext (by show 32 * (4 + h.val) + d.val = 128 + (32 * h.val + d.val); omega)

/-- The summed row of head h of layer 1, -/
theorem wsum_lo (w1 w2 : Vec Ideal S128x128 .f32) (h : Fin 4) (k : Fin 128) :
    k0_pay57 (F := Ideal) w1 w2 (ix2 (headLo h) k) = ∑ d : Fin 32, w1 (ix2 (feat h d) k) := by
  rw [pay57_apply]
  refine Finset.sum_congr rfl fun d _ => ?_
  rw [stackRow_lo, pay56_lo]

/-- and of head h of layer 2. -/
theorem wsum_hi (w1 w2 : Vec Ideal S128x128 .f32) (h : Fin 4) (k : Fin 128) :
    k0_pay57 (F := Ideal) w1 w2 (ix2 (headHi h) k) = ∑ d : Fin 32, w2 (ix2 (feat h d) k) := by
  rw [pay57_apply]
  refine Finset.sum_congr rfl fun d _ => ?_
  rw [stackRow_hi, pay56_hi]

/-- A finite sum of finite entries is finite. -/
theorem finite_sum {ι : Type*} (s : Finset ι) (f : ι → EReal) (hf : ∀ i, ∃ r : ℝ, f i = (r : EReal)) :
    ∃ r : ℝ, ∑ i ∈ s, f i = (r : EReal) := by
  choose r hr using hf
  exact ⟨∑ i ∈ s, r i, by rw [Cert.Lib.DenseAttention.coe_sum]; exact Finset.sum_congr rfl fun i _ => hr i⟩

/-- The position of (h, i, t) in the 4 x 64 x 512 block is that of (h, the pair's position) in the 4 x 32768 one. -/
theorem pos_split (h : Fin 4) (i : Fin 64) (t : Fin 512) :
    (S4x32768.rowMajor (ix2 h (pairPos i t))).val = (S4x64x512.rowMajor (ix3 h i t)).val := by
  rw [Shape.rowMajor_val_two, Shape.rowMajor_val_three]
  show h.val * 32768 + (i.val * 512 + t.val) = (h.val * 64 + i.val) * 512 + t.val
  omega

/-- Layer 1's edge scores of the block, as the attention of layer 1 reads them: head h on the pair (i, t) is the
    head's summed weight rows against the pair's edge features, times the head's edge coefficient. -/
theorem pay59_apply (w1 w2 : Vec Ideal S128x128 .f32) (a1 a2 : Vec Ideal S4x1 .f32) (ef : Vec Ideal S64x512x128 .f32)
    (hw : ∀ q k : Fin 128, ∃ r : ℝ, w1 (ix2 q k) = (r : EReal)) (h : Fin 4) (i : Fin 64) (t : Fin 512) :
    k0_pay59 (F := Ideal) w1 w2 a1 a2 ef (ix3 h i t)
      = (∑ k : Fin 128, (∑ d : Fin 32, w1 (ix2 (feat h d) k)) * ef (ix3 i t k)) * a1 (ix2 h (0 : Fin 1)) := by
  have es : extractStridedSlice S4x32768 ![0, 0] (k0_pay58 (F := Ideal) w1 w2 a1 a2 ef) slices_S8x32768_o0_0_S4x32768 (ix2 h (pairPos i t))
      = k0_pay58 (F := Ideal) w1 w2 a1 a2 ef (ix2 (headLo h) (pairPos i t)) :=
    extractStridedSlice_apply _ _ _ _ _ (fun c => by
      match c with
      | ⟨0, _⟩ => exact (by omega : h.val = 0 + h.val)
      | ⟨1, _⟩ => exact (by omega : (pairPos i t).val = 0 + (pairPos i t).val))
  unfold k0_pay59
  rw [shapeCast_apply _ _ (ix3 h i t) (ix2 h (pairPos i t)) (pos_split h i t), es,
    pay58_of_finite w1 w2 a1 a2 ef (headLo h) i t (fun k => by
      rw [wsum_lo]; exact finite_sum _ _ fun d => hw _ _),
    edgeCoef_lo]
  simp only [wsum_lo]

/-- Layer 2's edge scores of the block, as stored for the second layer: head h on the pair (i, t) likewise, with
    layer 2's weights and coefficients. -/
theorem pay60_apply (w1 w2 : Vec Ideal S128x128 .f32) (a1 a2 : Vec Ideal S4x1 .f32) (ef : Vec Ideal S64x512x128 .f32)
    (hw : ∀ q k : Fin 128, ∃ r : ℝ, w2 (ix2 q k) = (r : EReal)) (h : Fin 4) (i : Fin 64) (t : Fin 512) :
    k0_pay60 (F := Ideal) w1 w2 a1 a2 ef (ix3 h i t)
      = (∑ k : Fin 128, (∑ d : Fin 32, w2 (ix2 (feat h d) k)) * ef (ix3 i t k)) * a2 (ix2 h (0 : Fin 1)) := by
  have es : extractStridedSlice S4x32768 ![4, 0] (k0_pay58 (F := Ideal) w1 w2 a1 a2 ef) slices_S8x32768_o4_0_S4x32768 (ix2 h (pairPos i t))
      = k0_pay58 (F := Ideal) w1 w2 a1 a2 ef (ix2 (headHi h) (pairPos i t)) :=
    extractStridedSlice_apply _ _ _ _ _ (fun c => by
      match c with
      | ⟨0, _⟩ => rfl
      | ⟨1, _⟩ => exact (by omega : (pairPos i t).val = 0 + (pairPos i t).val))
  unfold k0_pay60
  rw [shapeCast_self, shapeCast_apply _ _ (ix3 h i t) (ix2 h (pairPos i t)) (pos_split h i t), es,
    pay58_of_finite w1 w2 a1 a2 ef (headHi h) i t (fun k => by
      rw [wsum_hi]; exact finite_sum _ _ fun d => hw _ _),
    edgeCoef_hi]
  simp only [wsum_hi]

/-! ## The same scores with the group sum outermost -/

/-- Contracting finite features with the column sums of a group of finite rows is the sum, over the group's rows, of
    the contractions with each row. -/
theorem contract_groups (W : Fin 32 → Fin 128 → EReal) (e : Fin 128 → EReal)
    (hW : ∀ d k, ∃ r : ℝ, W d k = (r : EReal)) (he : ∀ k, ∃ r : ℝ, e k = (r : EReal)) :
    ∑ k : Fin 128, (∑ d : Fin 32, W d k) * e k = ∑ d : Fin 32, ∑ k : Fin 128, e k * W d k := by
  choose rW hrW using hW
  choose re hre using he
  simp only [hrW, hre]
  exact Cert.Lib.DenseAttention.rowgroup_contract Finset.univ Finset.univ rW re

/-- Layer 1's edge scores with finite edge features: the pair's features against each of the head's 32 weight rows,
    summed over the rows, times the head's coefficient. -/
theorem pay59_rows (w1 w2 : Vec Ideal S128x128 .f32) (a1 a2 : Vec Ideal S4x1 .f32) (ef : Vec Ideal S64x512x128 .f32)
    (hw : ∀ q k : Fin 128, ∃ r : ℝ, w1 (ix2 q k) = (r : EReal))
    (he : ∀ (i : Fin 64) (t : Fin 512) (k : Fin 128), ∃ r : ℝ, ef (ix3 i t k) = (r : EReal))
    (h : Fin 4) (i : Fin 64) (t : Fin 512) :
    k0_pay59 (F := Ideal) w1 w2 a1 a2 ef (ix3 h i t)
      = (∑ d : Fin 32, ∑ k : Fin 128, ef (ix3 i t k) * w1 (ix2 (feat h d) k)) * a1 (ix2 h (0 : Fin 1)) := by
  rw [pay59_apply w1 w2 a1 a2 ef hw h i t,
    contract_groups (fun d k => w1 (ix2 (feat h d) k)) (fun k => ef (ix3 i t k)) (fun d k => hw _ _) (fun k => he i t k)]

/-- Layer 2's edge scores with finite edge features, likewise. -/
theorem pay60_rows (w1 w2 : Vec Ideal S128x128 .f32) (a1 a2 : Vec Ideal S4x1 .f32) (ef : Vec Ideal S64x512x128 .f32)
    (hw : ∀ q k : Fin 128, ∃ r : ℝ, w2 (ix2 q k) = (r : EReal))
    (he : ∀ (i : Fin 64) (t : Fin 512) (k : Fin 128), ∃ r : ℝ, ef (ix3 i t k) = (r : EReal))
    (h : Fin 4) (i : Fin 64) (t : Fin 512) :
    k0_pay60 (F := Ideal) w1 w2 a1 a2 ef (ix3 h i t)
      = (∑ d : Fin 32, ∑ k : Fin 128, ef (ix3 i t k) * w2 (ix2 (feat h d) k)) * a2 (ix2 h (0 : Fin 1)) := by
  rw [pay60_apply w1 w2 a1 a2 ef hw h i t,
    contract_groups (fun d k => w2 (ix2 (feat h d) k)) (fun k => ef (ix3 i t k)) (fun d k => hw _ _) (fun k => he i t k)]

end Cert.KernelIdeal.Payloads

end
-- ==== Proof.KernelIdealEs2.lean ====
/-
  The scratch buffer of layer 2's edge scores: 4 heads x 512 source rows x 512 targets. Every grid point stores one
  block — the 64 source rows of its own block, for all heads and targets — and leaves the other rows as they were.
  The stored entry (h, i, t) is head h's layer-2 edge score on the pair (row i of the block, t). So if the rows below
  64 c hold the edge scores before point c, the rows below 64 (c + 1) hold them after it: the rows of block c read the
  new store, the rows below it read what the buffer held. The three statements are this one fact at the first, a
  middle and the last point.
-/
import proofs.«169155_g70909910057105_cont_sun_m_1383_19_alg».proof.Proof.KernelIdealNamedA
import proofs.«169155_g70909910057105_cont_sun_m_1383_19_alg».proof.Proof.KernelIdealNamedB
import proofs.«169155_g70909910057105_cont_sun_m_1383_19_alg».proof.Proof.KernelIdealNamedC
import proofs.«169155_g70909910057105_cont_sun_m_1383_19_alg».proof.Proof.KernelIdealEdgeScore
import proofs.«169155_g70909910057105_cont_sun_m_1383_19_alg».proof.Proof.KernelIdealState
import Idealize.ShloMosaic.Lib.WritesUnit

set_option maxRecDepth 16384

noncomputable section

namespace Cert.KernelIdeal.Body

open Cert.KernelIdeal Cert.KernelIdeal.Gen Cert.KernelIdeal.Payloads
open Idealize.ShloMosaic Idealize.ShloMosaic.TcCoe Idealize.ShloMosaic.Tactic Idealize.ShloMosaic.ValueIdx
open Idealize.SL Idealize.SL.Sem
open Cert.Spec.DenseGat (feat)

/-- The row offset a grid coordinate n < 8 gives is 64 n. -/
theorem rowOff_eq (n : ℕ) (hn : n < 8) :
    BitVec.toNat (Scalar.indexCast (Scalar.muli (BitVec.ofNat 32 n) 64#32)) = 64 * n := by
  interval_cases n <;> rfl

/-- The stored entry (h, i, t) of block c: head h's layer-2 edge score on (row i of block c, t), the loaded edge
    features being block c's and the layer-2 weights finite. -/
theorem es2_payload (w1 w2 : S128x128.Idx → Ideal .f32) (a1 a2 : S4x1.Idx → Ideal .f32) (ef : S64x512x128.Idx → Ideal .f32)
    (A : State.Args) (cb : Fin 8)
    (h1 : ∀ (r : Fin 64) (t : Fin 512) (k : Fin 128), ef (ix3 r t k) = A.ef (ix3 (State.rowOf cb r) t k))
    (h5 : ∀ q k : Fin 128, w2 (ix2 q k) = A.w2e (ix2 q k))
    (h7 : ∀ h : Fin 4, a2 (ix2 h (0 : Fin 1)) = A.ae2 (ix2 h (0 : Fin 1)))
    (hfin : ∀ q k : Fin 128, ∃ r : ℝ, A.w2e (ix2 q k) = (r : EReal))
    (h : Fin 4) (r : Fin 64) (t : Fin 512) :
    k0_pay60 (F := Ideal) w1 w2 a1 a2 ef (ix3 h r t) = State.es A A.w2e A.ae2 h (State.rowOf cb r) t := by
  rw [pay60_apply w1 w2 a1 a2 ef (fun q k => by rw [h5]; exact hfin q k) h r t]
  unfold State.es
  rw [h7]
  refine congrArg (· * A.ae2 (ix2 h (0 : Fin 1))) (Finset.sum_congr rfl fun k _ => ?_)
  rw [h1]
  exact congrArg (· * A.ef (ix3 (State.rowOf cb r) t k)) (Finset.sum_congr rfl fun d _ => h5 _ _)

/-- One store of block c's rows over contents f: if f holds the edge scores on the rows below 64 c and the stored
    block holds them on its own rows, the result holds them on the rows below 64 (c + 1). -/
theorem es2_step (arg15 : Memref sig .tc .vmem S4x512x512 .f32) (f : arg15.view.ty.Contents (Elt Ideal))
    (A : State.Args) (cb : Fin 8) (off : Fin S4x512x512.rank → ℕ)
    (inb : ∀ a, off a + S4x64x512.size a ≤ S4x512x512.size a)
    (w : (Rect.unit (s := S4x512x512) off S4x64x512.size inb).shape.Idx → Elt Ideal .f32)
    (hoff : off = ![0, 64 * cb.val, 0])
    (hw : ∀ (h : Fin 4) (r : Fin 64) (t : Fin 512), w (ix3 h r t) = State.es A A.w2e A.ae2 h (State.rowOf cb r) t)
    (hpre : ∀ (h : Fin 4) (s t : Fin 512), s.val < 64 * cb.val →
      arg15.view.read (Elt Ideal) f (ix3 h s t) = State.es A A.w2e A.ae2 h s t)
    (h : Fin 4) (s t : Fin 512) (hs : s.val < 64 * (cb.val + 1)) :
    arg15.view.read (Elt Ideal) (arg15.view.writes (Elt Ideal) f
        [(⟨Rect.unit (s := S4x512x512) off S4x64x512.size inb, w⟩ : View.Piece (Elt Ideal) S4x512x512 .f32)]) (ix3 h s t)
      = State.es A A.w2e A.ae2 h s t := by
  by_cases hlt : s.val < 64 * cb.val
  · rw [View.read_writes_cons_unit_of_not_mem arg15.view f inb w [] (ix3 h s t) hoff (⟨1, by decide⟩ : Fin S4x512x512.rank)
      (by exact Or.inl hlt)]
    exact hpre h s t hlt
  · have hr : s.val - 64 * cb.val < 64 := by omega
    rw [View.read_writes_cons_unit_of_mem arg15.view f inb w [] (ix3 h s t) (ix3 h (⟨s.val - 64 * cb.val, hr⟩ : Fin 64) t) hoff
      (fun a => by
        match a with
        | ⟨0, _⟩ => exact (by omega : h.val = 0 + h.val)
        | ⟨1, _⟩ => exact (by omega : s.val = 64 * cb.val + (s.val - 64 * cb.val))
        | ⟨2, _⟩ => exact (by omega : t.val = 0 + t.val)),
      hw]
    exact congrArg (fun p => State.es A A.w2e A.ae2 h p t) (Fin.ext (by show 64 * cb.val + (s.val - 64 * cb.val) = s.val; omega))

/-- A whole-buffer load of held contents reads those contents: the weights, -/
theorem read_whole_w (arg : Memref sig .tc .vmem S128x128 .f32) (harg : arg.IsWhole) (x : Vec Ideal S128x128 .f32) (inb)
    (q k : Fin 128) :
    View.readAt (Elt Ideal) arg.view (Rect.unit (s := S128x128) ![0, 0] S128x128.size inb).toLoadRect (harg.unread x) (ix2 q k)
      = x (ix2 q k) := by
  rw [View.readAt_eq_ld, harg.read_unread]
  refine congrArg x (funext fun a => Fin.ext ?_)
  show ((Rect.unit (s := S128x128) ![0, 0] S128x128.size inb).emb (ix2 q k) a : ℕ) = _
  rw [Rect.emb_apply]
  match a with
  | ⟨0, _⟩ => exact (by omega : 0 + 1 * q.val = q.val)
  | ⟨1, _⟩ => exact (by omega : 0 + 1 * k.val = k.val)

/-- the per-head edge coefficients, -/
theorem read_whole_a (arg : Memref sig .tc .vmem S4x1 .f32) (harg : arg.IsWhole) (x : Vec Ideal S4x1 .f32) (inb)
    (h : Fin 4) (z : Fin 1) :
    View.readAt (Elt Ideal) arg.view (Rect.unit (s := S4x1) ![0, 0] S4x1.size inb).toLoadRect (harg.unread x) (ix2 h z)
      = x (ix2 h z) := by
  rw [View.readAt_eq_ld, harg.read_unread]
  refine congrArg x (funext fun a => Fin.ext ?_)
  show ((Rect.unit (s := S4x1) ![0, 0] S4x1.size inb).emb (ix2 h z) a : ℕ) = _
  rw [Rect.emb_apply]
  match a with
  | ⟨0, _⟩ => exact (by omega : 0 + 1 * h.val = h.val)
  | ⟨1, _⟩ => exact (by omega : 0 + 1 * z.val = z.val)

/-- the block of edge features. -/
theorem read_whole_ef (arg : Memref sig .tc .vmem S64x512x128 .f32) (harg : arg.IsWhole) (x : Vec Ideal S64x512x128 .f32) (inb)
    (r : Fin 64) (t : Fin 512) (k : Fin 128) :
    View.readAt (Elt Ideal) arg.view (Rect.unit (s := S64x512x128) ![0, 0, 0] S64x512x128.size inb).toLoadRect (harg.unread x) (ix3 r t k)
      = x (ix3 r t k) := by
  rw [View.readAt_eq_ld, harg.read_unread]
  refine congrArg x (funext fun a => Fin.ext ?_)
  show ((Rect.unit (s := S64x512x128) ![0, 0, 0] S64x512x128.size inb).emb (ix3 r t k) a : ℕ) = _
  rw [Rect.emb_apply]
  match a with
  | ⟨0, _⟩ => exact (by omega : 0 + 1 * r.val = r.val)
  | ⟨1, _⟩ => exact (by omega : 0 + 1 * t.val = t.val)
  | ⟨2, _⟩ => exact (by omega : 0 + 1 * k.val = k.val)

set_option maxHeartbeats 4000000 in
/-- The first point: with cb the point's block (block 0, where the hypothesis on the rows below is empty). -/
theorem es2_first (c : Dev nD) (i : grid0.Coords) (arg1 : Memref sig .tc .vmem S64x512x128 .f32) (harg1 : arg1.IsWhole) (arg2 : Memref sig .tc .vmem S512x512 .i32) (harg2 : arg2.IsWhole) (arg3 : Memref sig .tc .vmem S512x2x128 .f32) (harg3 : arg3.IsWhole) (arg4 : Memref sig .tc .vmem S128x128 .f32) (harg4 : arg4.IsWhole) (arg5 : Memref sig .tc .vmem S128x128 .f32) (harg5 : arg5.IsWhole) (arg6 : Memref sig .tc .vmem S4x1 .f32) (harg6 : arg6.IsWhole) (arg7 : Memref sig .tc .vmem S4x1 .f32) (harg7 : arg7.IsWhole) (arg8 : Memref sig .tc .vmem S128x128 .f32) (harg8 : arg8.IsWhole) (arg9 : Memref sig .tc .vmem S4x32 .f32) (harg9 : arg9.IsWhole) (arg10 : Memref sig .tc .vmem S4x32 .f32) (harg10 : arg10.IsWhole) (arg11 : Memref sig .tc .vmem S128x128 .f32) (harg11 : arg11.IsWhole) (arg12 : Memref sig .tc .vmem S4x32 .f32) (harg12 : arg12.IsWhole) (arg13 : Memref sig .tc .vmem S4x32 .f32) (harg13 : arg13.IsWhole) (arg14 : Memref sig .tc .vmem S512x2x128 .f32) (harg14 : arg14.IsWhole) (arg15 : Memref sig .tc .vmem S4x512x512 .f32) (harg15 : arg15.IsWhole) (arg16 : Memref sig .tc .vmem S2x512x128 .f32) (harg16 : arg16.IsWhole) (arg17 : Memref sig .tc .vmem S512x8 .f32) (harg17 : arg17.IsWhole) (arg18 : Memref sig .tc .vmem S8x512 .f32) (harg18 : arg18.IsWhole) (arg19 : Memref sig .tc .vmem S2x512x128 .f32) (harg19 : arg19.IsWhole) (arg20 : Memref sig .tc .vmem S8x512 .f32) (harg20 : arg20.IsWhole) (hc0 : isFirst i) (hc1 : ¬isLast i)
    (x1 : Vec Ideal S64x512x128 .f32) (x2 : Vec Ideal S512x512 .i32) (x3 : Vec Ideal S512x2x128 .f32) (x4 : Vec Ideal S128x128 .f32) (x5 : Vec Ideal S128x128 .f32) (x6 : Vec Ideal S4x1 .f32) (x7 : Vec Ideal S4x1 .f32) (x8 : Vec Ideal S128x128 .f32) (x9 : Vec Ideal S4x32 .f32) (x10 : Vec Ideal S4x32 .f32) (x11 : Vec Ideal S128x128 .f32) (x12 : Vec Ideal S4x32 .f32) (x13 : Vec Ideal S4x32 .f32) (y15 : Vec Ideal S4x512x512 .f32)
    (A : State.Args) (cb : Fin 8) (hcb : (i 0).val = cb.val)
    (h1 : ∀ (r : Fin 64) (t : Fin 512) (k : Fin 128), x1 (ix3 r t k) = A.ef (ix3 (State.rowOf cb r) t k))
    (h5 : ∀ q k : Fin 128, x5 (ix2 q k) = A.w2e (ix2 q k))
    (h7 : ∀ h : Fin 4, x7 (ix2 h (0 : Fin 1)) = A.ae2 (ix2 h (0 : Fin 1)))
    (hfin : ∀ q k : Fin 128, ∃ r : ℝ, A.w2e (ix2 q k) = (r : EReal))
    (hpre : ∀ (h : Fin 4) (s t : Fin 512), s.val < 64 * cb.val → y15 (ix3 h s t) = State.es A A.w2e A.ae2 h s t)
    (h : Fin 4) (s t : Fin 512) (hs : s.val < 64 * (cb.val + 1)) :
    arg15.view.read (Elt Ideal) (arg15.view.writes (Elt Ideal) (harg15.unread y15)
        (namedA (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 hc1 x1 x2 x3 x4 x5 x6 x7 x8 x9 x10 x11 x12 x13 y15).1) (ix3 h s t)
      = State.es A A.w2e A.ae2 h s t := by
  unfold namedA
  dsimp only
  sl_unfold_words
  have e : BitVec.toNat (Scalar.indexCast (Scalar.muli (BitVec.ofNat 32 (i 0).val) 64#32)) = 64 * cb.val :=
    (rowOff_eq (i 0).val (by rw [hcb]; exact cb.isLt)).trans (by rw [hcb])
  refine es2_step arg15 (harg15.unread y15) A cb _ _ _ (congrArg (fun n => (![0, n, 0] : Fin 3 → ℕ)) e) ?_ ?_ h s t hs
  · intro h r t
    exact es2_payload _ _ _ _ _ A cb (fun r t k => (read_whole_ef arg1 harg1 x1 _ r t k).trans (h1 r t k))
      (fun q k => (read_whole_w arg5 harg5 x5 _ q k).trans (h5 q k))
      (fun h => (read_whole_a arg7 harg7 x7 _ h (0 : Fin 1)).trans (h7 h)) hfin h r t
  · intro h s t hlt
    rw [harg15.read_unread]
    exact hpre h s t hlt

set_option maxHeartbeats 4000000 in
/-- A middle point. -/
theorem es2_mid (c : Dev nD) (i : grid0.Coords) (arg1 : Memref sig .tc .vmem S64x512x128 .f32) (harg1 : arg1.IsWhole) (arg2 : Memref sig .tc .vmem S512x512 .i32) (harg2 : arg2.IsWhole) (arg3 : Memref sig .tc .vmem S512x2x128 .f32) (harg3 : arg3.IsWhole) (arg4 : Memref sig .tc .vmem S128x128 .f32) (harg4 : arg4.IsWhole) (arg5 : Memref sig .tc .vmem S128x128 .f32) (harg5 : arg5.IsWhole) (arg6 : Memref sig .tc .vmem S4x1 .f32) (harg6 : arg6.IsWhole) (arg7 : Memref sig .tc .vmem S4x1 .f32) (harg7 : arg7.IsWhole) (arg8 : Memref sig .tc .vmem S128x128 .f32) (harg8 : arg8.IsWhole) (arg9 : Memref sig .tc .vmem S4x32 .f32) (harg9 : arg9.IsWhole) (arg10 : Memref sig .tc .vmem S4x32 .f32) (harg10 : arg10.IsWhole) (arg11 : Memref sig .tc .vmem S128x128 .f32) (harg11 : arg11.IsWhole) (arg12 : Memref sig .tc .vmem S4x32 .f32) (harg12 : arg12.IsWhole) (arg13 : Memref sig .tc .vmem S4x32 .f32) (harg13 : arg13.IsWhole) (arg14 : Memref sig .tc .vmem S512x2x128 .f32) (harg14 : arg14.IsWhole) (arg15 : Memref sig .tc .vmem S4x512x512 .f32) (harg15 : arg15.IsWhole) (arg16 : Memref sig .tc .vmem S2x512x128 .f32) (harg16 : arg16.IsWhole) (arg17 : Memref sig .tc .vmem S512x8 .f32) (harg17 : arg17.IsWhole) (arg18 : Memref sig .tc .vmem S8x512 .f32) (harg18 : arg18.IsWhole) (arg19 : Memref sig .tc .vmem S2x512x128 .f32) (harg19 : arg19.IsWhole) (arg20 : Memref sig .tc .vmem S8x512 .f32) (harg20 : arg20.IsWhole) (hc0 : ¬isFirst i) (hc1 : ¬isLast i)
    (x1 : Vec Ideal S64x512x128 .f32) (x2 : Vec Ideal S512x512 .i32) (x3 : Vec Ideal S512x2x128 .f32) (x4 : Vec Ideal S128x128 .f32) (x5 : Vec Ideal S128x128 .f32) (x6 : Vec Ideal S4x1 .f32) (x7 : Vec Ideal S4x1 .f32) (x8 : Vec Ideal S128x128 .f32) (x9 : Vec Ideal S4x32 .f32) (x10 : Vec Ideal S4x32 .f32) (x11 : Vec Ideal S128x128 .f32) (x12 : Vec Ideal S4x32 .f32) (x13 : Vec Ideal S4x32 .f32) (y15 : Vec Ideal S4x512x512 .f32) (y16 : Vec Ideal S2x512x128 .f32) (y17 : Vec Ideal S512x8 .f32) (y18 : Vec Ideal S8x512 .f32) (y19 : Vec Ideal S2x512x128 .f32) (y20 : Vec Ideal S8x512 .f32)
    (A : State.Args) (cb : Fin 8) (hcb : (i 0).val = cb.val)
    (h1 : ∀ (r : Fin 64) (t : Fin 512) (k : Fin 128), x1 (ix3 r t k) = A.ef (ix3 (State.rowOf cb r) t k))
    (h5 : ∀ q k : Fin 128, x5 (ix2 q k) = A.w2e (ix2 q k))
    (h7 : ∀ h : Fin 4, x7 (ix2 h (0 : Fin 1)) = A.ae2 (ix2 h (0 : Fin 1)))
    (hfin : ∀ q k : Fin 128, ∃ r : ℝ, A.w2e (ix2 q k) = (r : EReal))
    (hpre : ∀ (h : Fin 4) (s t : Fin 512), s.val < 64 * cb.val → y15 (ix3 h s t) = State.es A A.w2e A.ae2 h s t)
    (h : Fin 4) (s t : Fin 512) (hs : s.val < 64 * (cb.val + 1)) :
    arg15.view.read (Elt Ideal) (arg15.view.writes (Elt Ideal) (harg15.unread y15)
        (namedB (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 hc1 x1 x2 x3 x4 x5 x6 x7 x8 x9 x10 x11 x12 x13 y15 y16 y17 y18 y19 y20).1) (ix3 h s t)
      = State.es A A.w2e A.ae2 h s t := by
  unfold namedB
  dsimp only
  sl_unfold_words
  have e : BitVec.toNat (Scalar.indexCast (Scalar.muli (BitVec.ofNat 32 (i 0).val) 64#32)) = 64 * cb.val :=
    (rowOff_eq (i 0).val (by rw [hcb]; exact cb.isLt)).trans (by rw [hcb])
  refine es2_step arg15 (harg15.unread y15) A cb _ _ _ (congrArg (fun n => (![0, n, 0] : Fin 3 → ℕ)) e) ?_ ?_ h s t hs
  · intro h r t
    exact es2_payload _ _ _ _ _ A cb (fun r t k => (read_whole_ef arg1 harg1 x1 _ r t k).trans (h1 r t k))
      (fun q k => (read_whole_w arg5 harg5 x5 _ q k).trans (h5 q k))
      (fun h => (read_whole_a arg7 harg7 x7 _ h (0 : Fin 1)).trans (h7 h)) hfin h r t
  · intro h s t hlt
    rw [harg15.read_unread]
    exact hpre h s t hlt

set_option maxHeartbeats 4000000 in
/-- The last point. -/
theorem es2_last (c : Dev nD) (i : grid0.Coords) (arg1 : Memref sig .tc .vmem S64x512x128 .f32) (harg1 : arg1.IsWhole) (arg2 : Memref sig .tc .vmem S512x512 .i32) (harg2 : arg2.IsWhole) (arg3 : Memref sig .tc .vmem S512x2x128 .f32) (harg3 : arg3.IsWhole) (arg4 : Memref sig .tc .vmem S128x128 .f32) (harg4 : arg4.IsWhole) (arg5 : Memref sig .tc .vmem S128x128 .f32) (harg5 : arg5.IsWhole) (arg6 : Memref sig .tc .vmem S4x1 .f32) (harg6 : arg6.IsWhole) (arg7 : Memref sig .tc .vmem S4x1 .f32) (harg7 : arg7.IsWhole) (arg8 : Memref sig .tc .vmem S128x128 .f32) (harg8 : arg8.IsWhole) (arg9 : Memref sig .tc .vmem S4x32 .f32) (harg9 : arg9.IsWhole) (arg10 : Memref sig .tc .vmem S4x32 .f32) (harg10 : arg10.IsWhole) (arg11 : Memref sig .tc .vmem S128x128 .f32) (harg11 : arg11.IsWhole) (arg12 : Memref sig .tc .vmem S4x32 .f32) (harg12 : arg12.IsWhole) (arg13 : Memref sig .tc .vmem S4x32 .f32) (harg13 : arg13.IsWhole) (arg14 : Memref sig .tc .vmem S512x2x128 .f32) (harg14 : arg14.IsWhole) (arg15 : Memref sig .tc .vmem S4x512x512 .f32) (harg15 : arg15.IsWhole) (arg16 : Memref sig .tc .vmem S2x512x128 .f32) (harg16 : arg16.IsWhole) (arg17 : Memref sig .tc .vmem S512x8 .f32) (harg17 : arg17.IsWhole) (arg18 : Memref sig .tc .vmem S8x512 .f32) (harg18 : arg18.IsWhole) (arg19 : Memref sig .tc .vmem S2x512x128 .f32) (harg19 : arg19.IsWhole) (arg20 : Memref sig .tc .vmem S8x512 .f32) (harg20 : arg20.IsWhole) (hc0 : ¬isFirst i) (hc1 : isLast i)
    (x1 : Vec Ideal S64x512x128 .f32) (x2 : Vec Ideal S512x512 .i32) (x3 : Vec Ideal S512x2x128 .f32) (x4 : Vec Ideal S128x128 .f32) (x5 : Vec Ideal S128x128 .f32) (x6 : Vec Ideal S4x1 .f32) (x7 : Vec Ideal S4x1 .f32) (x8 : Vec Ideal S128x128 .f32) (x9 : Vec Ideal S4x32 .f32) (x10 : Vec Ideal S4x32 .f32) (x11 : Vec Ideal S128x128 .f32) (x12 : Vec Ideal S4x32 .f32) (x13 : Vec Ideal S4x32 .f32) (y15 : Vec Ideal S4x512x512 .f32) (y16 : Vec Ideal S2x512x128 .f32) (y17 : Vec Ideal S512x8 .f32) (y18 : Vec Ideal S8x512 .f32) (y19 : Vec Ideal S2x512x128 .f32) (y20 : Vec Ideal S8x512 .f32)
    (A : State.Args) (cb : Fin 8) (hcb : (i 0).val = cb.val)
    (h1 : ∀ (r : Fin 64) (t : Fin 512) (k : Fin 128), x1 (ix3 r t k) = A.ef (ix3 (State.rowOf cb r) t k))
    (h5 : ∀ q k : Fin 128, x5 (ix2 q k) = A.w2e (ix2 q k))
    (h7 : ∀ h : Fin 4, x7 (ix2 h (0 : Fin 1)) = A.ae2 (ix2 h (0 : Fin 1)))
    (hfin : ∀ q k : Fin 128, ∃ r : ℝ, A.w2e (ix2 q k) = (r : EReal))
    (hpre : ∀ (h : Fin 4) (s t : Fin 512), s.val < 64 * cb.val → y15 (ix3 h s t) = State.es A A.w2e A.ae2 h s t)
    (h : Fin 4) (s t : Fin 512) (hs : s.val < 64 * (cb.val + 1)) :
    arg15.view.read (Elt Ideal) (arg15.view.writes (Elt Ideal) (harg15.unread y15)
        (namedC (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 hc1 x1 x2 x3 x4 x5 x6 x7 x8 x9 x10 x11 x12 x13 y15 y16 y17 y18 y19 y20).2.1) (ix3 h s t)
      = State.es A A.w2e A.ae2 h s t := by
  unfold namedC
  dsimp only
  sl_unfold_words
  have e : BitVec.toNat (Scalar.indexCast (Scalar.muli (BitVec.ofNat 32 (i 0).val) 64#32)) = 64 * cb.val :=
    (rowOff_eq (i 0).val (by rw [hcb]; exact cb.isLt)).trans (by rw [hcb])
  refine es2_step arg15 (harg15.unread y15) A cb _ _ _ (congrArg (fun n => (![0, n, 0] : Fin 3 → ℕ)) e) ?_ ?_ h s t hs
  · intro h r t
    exact es2_payload _ _ _ _ _ A cb (fun r t k => (read_whole_ef arg1 harg1 x1 _ r t k).trans (h1 r t k))
      (fun q k => (read_whole_w arg5 harg5 x5 _ q k).trans (h5 q k))
      (fun h => (read_whole_a arg7 harg7 x7 _ h (0 : Fin 1)).trans (h7 h)) hfin h r t
  · intro h s t hlt
    rw [harg15.read_unread]
    exact hpre h s t hlt

end Cert.KernelIdeal.Body

end
-- ==== Proof.KernelIdealFactsFirst.lean ====
/-
  The first grid point's facts for the pipeline's actual buffers: from any contents, the point leaves the five layer-1
  scratch buffers at the tracked functions of the argument arrays after one block, and the layer-2 edge-score scratch
  right on the first block's rows.
-/
import proofs.«169155_g70909910057105_cont_sun_m_1383_19_alg».proof.Proof.KernelIdealArgs
import proofs.«169155_g70909910057105_cont_sun_m_1383_19_alg».proof.Proof.KernelIdealH1
import proofs.«169155_g70909910057105_cont_sun_m_1383_19_alg».proof.Proof.KernelIdealSs1
import proofs.«169155_g70909910057105_cont_sun_m_1383_19_alg».proof.Proof.KernelIdealEs2

set_option maxRecDepth 16384

noncomputable section

namespace Cert.KernelIdeal.Body

open Cert.KernelIdeal Cert.KernelIdeal.Gen
open Idealize.ShloMosaic Idealize.ShloMosaic.TcCoe Idealize.ShloMosaic.ValueIdx
open Idealize.SL Idealize.SL.Sem
open Cert.KernelIdeal.State (Args rowOf)

variable (m : (ℓ : Loc nD τ sig) → Buf (Elt Ideal) ℓ)

/-- The grid's one coordinate is the point's number. -/
theorem coord_eq : ∀ t : Fin cfg0.N, ((grid0.coords t) 0).val = t.val :=
  (by decide +kernel : ∀ t : Fin grid0.N, ((grid0.coords t) 0).val = t.val)

theorem first_h1 (c : Dev nD) (t : Fin cfg0.N) (h0 : isFirst (grid0.coords t)) (h1 : ¬isLast (grid0.coords t)) (y15 : Vec Ideal S4x512x512 .f32) :
    View.canon (namedA (F := Ideal) c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t) (ms12 t) (hs12 t) (ms13 t) (hs13 t) scr0 (Memref.isWhole_whole _) scr1 (Memref.isWhole_whole _) scr2 (Memref.isWhole_whole _) scr3 (Memref.isWhole_whole _) scr4 (Memref.isWhole_whole _) scr5 (Memref.isWhole_whole _) h0 h1 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) y15).2.1 = h1Buf (argsOf m c) := by
  funext j
  rw [h1_first]
  show h1Fun (iblk m c 2 t) (iblk m c 7 t) j = _
  rw [blk_2, blk_7]
  rfl

theorem first_ss1 (c : Dev nD) (t : Fin cfg0.N) (h0 : isFirst (grid0.coords t)) (h1 : ¬isLast (grid0.coords t)) (y15 : Vec Ideal S4x512x512 .f32) :
    View.canon (namedA (F := Ideal) c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t) (ms12 t) (hs12 t) (ms13 t) (hs13 t) scr0 (Memref.isWhole_whole _) scr1 (Memref.isWhole_whole _) scr2 (Memref.isWhole_whole _) scr3 (Memref.isWhole_whole _) scr4 (Memref.isWhole_whole _) scr5 (Memref.isWhole_whole _) h0 h1 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) y15).2.2.1 = ss1Buf (argsOf m c) := by
  funext j
  rw [ss1_first]
  show ss1Fun (iblk m c 2 t) (iblk m c 7 t) (iblk m c 8 t) j = _
  rw [blk_2, blk_7, blk_8]
  rfl

theorem first_st1 (c : Dev nD) (t : Fin cfg0.N) (h0 : isFirst (grid0.coords t)) (h1 : ¬isLast (grid0.coords t)) (y15 : Vec Ideal S4x512x512 .f32) :
    View.canon (namedA (F := Ideal) c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t) (ms12 t) (hs12 t) (ms13 t) (hs13 t) scr0 (Memref.isWhole_whole _) scr1 (Memref.isWhole_whole _) scr2 (Memref.isWhole_whole _) scr3 (Memref.isWhole_whole _) scr4 (Memref.isWhole_whole _) scr5 (Memref.isWhole_whole _) h0 h1 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) y15).2.2.2.1 = st1Buf (argsOf m c) := by
  funext j
  rw [st1_first]
  show st1Fun (iblk m c 2 t) (iblk m c 7 t) (iblk m c 9 t) j = _
  rw [blk_2, blk_7, blk_9]
  rfl

theorem first_es2 (c : Dev nD) (hfin : ∀ q k : Fin 128, ∃ r : ℝ, (argsOf m c).w2e (ix2 q k) = (r : EReal))
    (t : Fin cfg0.N) (h0 : isFirst (grid0.coords t)) (h1 : ¬isLast (grid0.coords t)) (y15 : Vec Ideal S4x512x512 .f32) :
    agree (argsOf m c) 1 (scr0.view.read (Elt Ideal) (scr0.view.writes (Elt Ideal) ((Memref.isWhole_whole cc0_scratch0).unread y15) (namedA (F := Ideal) c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t) (ms12 t) (hs12 t) (ms13 t) (hs13 t) scr0 (Memref.isWhole_whole _) scr1 (Memref.isWhole_whole _) scr2 (Memref.isWhole_whole _) scr3 (Memref.isWhole_whole _) scr4 (Memref.isWhole_whole _) scr5 (Memref.isWhole_whole _) h0 h1 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) y15).1)) := by
  have ht0 : t.val = 0 := (isFirst_iff t).mp h0
  intro h s tt hs
  exact es2_first c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t) (ms12 t) (hs12 t) (ms13 t) (hs13 t) scr0 (Memref.isWhole_whole _) scr1 (Memref.isWhole_whole _) scr2 (Memref.isWhole_whole _) scr3 (Memref.isWhole_whole _) scr4 (Memref.isWhole_whole _) scr5 (Memref.isWhole_whole _) h0 h1 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) y15 (argsOf m c) (⟨0, by decide⟩ : Fin 8)
    (by rw [coord_eq]; exact ht0)
    (fun r tt' k => by rw [blk_0]; exact congrArg (fun z => (argsOf m c).ef (ix3 z tt' k)) (Fin.ext (by show 64 * t.val + r.val = 64 * 0 + r.val; omega)))
    (fun q k => by rw [blk_4])
    (fun hh => by rw [blk_6])
    hfin (fun hh ss tt' hlt => absurd hlt (by show ¬ ss.val < 64 * 0; omega)) h s tt hs

end Cert.KernelIdeal.Body

end
-- ==== Proof.KernelIdealPointwise.lean ====
/-
  The masked exponential of a rectified score, entry by entry: the body adds two score terms, applies the leaky
  rectifier (the value itself where it is at least zero, the slope times it elsewhere), exponentiates, and multiplies by
  the 0/1 edge mask. Over the extended reals every step is the plain operation at the entry.
-/
import proofs.«169155_g70909910057105_cont_sun_m_1383_19_alg».proof.Proof.Gen.KernelIdeal.Skeleton
import proofs.«169155_g70909910057105_cont_sun_m_1383_19_alg».proof.Proof.SpecDenseGat
import Idealize.ShloMosaic.PureOps.Ideal.Laws
import Idealize.ShloMosaic.Lib.ValueIdx
import Idealize.ShloMosaic.Lib.ValueLayout
import Idealize.ShloMosaic.Lib.Pipeline.Value

noncomputable section

namespace Cert.KernelIdeal.Payloads

open Cert.KernelIdeal Cert.KernelIdeal.Gen Idealize.ShloMosaic Idealize.ShloMosaic.ValueIdx
open Cert.Spec.DenseGat (leaky leakSlope)

/-- The ordered comparison "at least", as a proposition. -/
theorem cmp_oge_eq_one (x y : EReal) : (Ideal.cmp .oge x y = 1) ↔ y ≤ x := by
  unfold Ideal.cmp
  by_cases h : y ≤ x
  · simp [h]
  · simp [h]

/-- Mask times the exponential of the rectified sum. -/
theorem pay77_apply (m a b : FVec Ideal S64x512 .f32) (i : S64x512.Idx) :
    k0_pay77 (F := Ideal) m a b i = m i * Ideal.exp (leaky (a i + b i)) := by
  unfold k0_pay77 leaky leakSlope
  simp only [addf, mulf, cmpf, select, exp, broadcast, Scalar.select, Ideal.addf_def, Ideal.mulf_def, Ideal.exp_def, Ideal.cmpf_def]
  have hz : (FloatOps.ofBits FTy.f32 0#32 : Ideal .f32) = 0 := Ideal.ofBits_zero_f32
  rw [hz]
  simp only [cmp_oge_eq_one]
  rfl

/-- The 0/1 edge mask of the point's 64 source rows: 1 where the adjacency entry is not zero. -/
theorem pay61_apply (adj : Vec Ideal S64x512 .i32) (i : S64x512.Idx) :
    k0_pay61 (F := Ideal) adj i = if adj i ≠ 0#32 then (1 : EReal) else 0 := by
  unfold k0_pay61
  show (((BitVec.setWidth 32 (IntOp.cmpi .ne (adj i) 0#32)).toInt : ℝ) : EReal) = _
  by_cases h : adj i ≠ 0#32
  · have hb : (adj i != 0#32) = true := bne_iff_ne.mpr h
    have e : IntOp.cmpi .ne (adj i) 0#32 = 1#1 := by simp [IntOp.cmpi, hb]
    have e1 : (BitVec.setWidth 32 (1#1 : BitVec 1)).toInt = 1 := by decide
    rw [if_pos h, e, e1]; simp
  · have h' : adj i = 0#32 := not_not.mp h
    have e : IntOp.cmpi .ne (adj i) 0#32 = 0#1 := by simp [IntOp.cmpi, h']
    have e0 : (BitVec.setWidth 32 (0#1 : BitVec 1)).toInt = 0 := by decide
    rw [if_neg h, e, e0]; simp

/-- A source score (one per source row) plus a target score (one per target column). -/
theorem pay75_apply (a : Vec Ideal S64x1 .f32) (b : Vec Ideal S1x512 .f32) (i : Fin 64) (t : Fin 512) :
    k0_pay75 (F := Ideal) a b (ix2 i t) = a (ix2 i (0 : Fin 1)) + b (ix2 (0 : Fin 1) t) := by
  unfold k0_pay75
  show broadcastTo S64x512 a broadcasts_S64x1_S64x512 (ix2 i t) + broadcastTo S64x512 b broadcasts_S1x512_S64x512 (ix2 i t) = _
  rw [broadcastTo_apply a _ (ix2 i t) (ix2 i (0 : Fin 1)) (fun c => by
        match c with
        | ⟨0, _⟩ => rfl
        | ⟨1, _⟩ => rfl),
    broadcastTo_apply b _ (ix2 i t) (ix2 (0 : Fin 1) t) (fun c => by
        match c with
        | ⟨0, _⟩ => rfl
        | ⟨1, _⟩ => rfl)]

/-- Head 0's edge scores of the point's rows, out of the four heads'. -/
theorem pay76_apply (es : FVec Ideal S4x64x512 .f32) (i : Fin 64) (t : Fin 512) :
    k0_pay76 (F := Ideal) es (ix2 i t) = es (ix3 (0 : Fin 4) i t) := by
  unfold k0_pay76
  rw [shapeCast_1ab_ab_apply]
  exact extractStridedSlice_apply _ es _ _ (ix3 (0 : Fin 4) i t) (fun c => by
    match c with
    | ⟨0, _⟩ => rfl
    | ⟨1, _⟩ => exact (by omega : i.val = 0 + i.val)
    | ⟨2, _⟩ => exact (by omega : t.val = 0 + t.val))

end Cert.KernelIdeal.Payloads

end
-- ==== Proof.KernelIdealPHead.lean ====
/-
  One head's masked exponentials over the point's 64 source rows and all 512 targets: entry (i, t) is the edge mask times
  the exponential of the rectified sum of the row's source score, the column's target score and the head's edge score.
  The body spells head 0 through separate payloads and heads 1..3 each in one payload; all are the same chain.
-/
import proofs.«169155_g70909910057105_cont_sun_m_1383_19_alg».proof.Proof.KernelIdealPointwise

noncomputable section

namespace Cert.KernelIdeal.Payloads

open Cert.KernelIdeal Cert.KernelIdeal.Gen Idealize.ShloMosaic Idealize.ShloMosaic.ValueIdx
open Cert.Spec.DenseGat (leaky leakSlope)

variable {F : FTy → Type} [FloatOps F]

/-- Mask times the exponential of the rectified score, as the body spells it. -/
def pOf (mask sc : FVec F S64x512 .f32) : FVec F S64x512 .f32 :=
  mulf mask (exp (select (cmpf .oge sc (broadcast S64x512 (Scalar.ofBits .f32 0x00000000#32 : F .f32))) sc
    (mulf (broadcast S64x512 (Scalar.ofBits .f32 0x3E4CCCCD#32 : F .f32)) sc)))

/-- The score before rectifying: source score + target score + the head's edge score. -/
def scOf (a : Vec F S64x1 .f32) (b : Vec F S1x512 .f32) (e : FVec F S64x512 .f32) : FVec F S64x512 .f32 :=
  addf (addf (broadcastTo S64x512 a broadcasts_S64x1_S64x512) (broadcastTo S64x512 b broadcasts_S1x512_S64x512)) e

theorem pay77_eq (mask s e : FVec F S64x512 .f32) : k0_pay77 mask s e = pOf mask (addf s e) := rfl
theorem pay78_eq (es : FVec F S4x64x512 .f32) (mask : FVec F S64x512 .f32) (a : Vec F S64x1 .f32) (b : Vec F S1x512 .f32) :
    k0_pay78 es mask a b = pOf mask (scOf a b (shapeCast S64x512 (extractStridedSlice S1x64x512 ![1, 0, 0] es slices_S4x64x512_o1_0_0_S1x64x512) shapeCasts_S1x64x512_S64x512)) := rfl
theorem pay79_eq (es : FVec F S4x64x512 .f32) (mask : FVec F S64x512 .f32) (a : Vec F S64x1 .f32) (b : Vec F S1x512 .f32) :
    k0_pay79 es mask a b = pOf mask (scOf a b (shapeCast S64x512 (extractStridedSlice S1x64x512 ![2, 0, 0] es slices_S4x64x512_o2_0_0_S1x64x512) shapeCasts_S1x64x512_S64x512)) := rfl

/-- The chain at an entry. -/
theorem pOf_apply (mask sc : FVec Ideal S64x512 .f32) (i : S64x512.Idx) :
    pOf (F := Ideal) mask sc i = mask i * Ideal.exp (leaky (sc i)) := by
  unfold pOf leaky leakSlope
  simp only [mulf, cmpf, select, exp, broadcast, Scalar.select, Ideal.mulf_def, Ideal.exp_def, Ideal.cmpf_def]
  have hz : (FloatOps.ofBits FTy.f32 0#32 : Ideal .f32) = 0 := Ideal.ofBits_zero_f32
  rw [hz]
  simp only [cmp_oge_eq_one]
  rfl

/-- The score sum at an entry. -/
theorem scOf_apply (a : Vec Ideal S64x1 .f32) (b : Vec Ideal S1x512 .f32) (e : FVec Ideal S64x512 .f32) (i : Fin 64) (t : Fin 512) :
    scOf (F := Ideal) a b e (ix2 i t) = a (ix2 i (0 : Fin 1)) + b (ix2 (0 : Fin 1) t) + e (ix2 i t) := by
  unfold scOf
  show broadcastTo S64x512 a broadcasts_S64x1_S64x512 (ix2 i t) + broadcastTo S64x512 b broadcasts_S1x512_S64x512 (ix2 i t) + e (ix2 i t) = _
  rw [broadcastTo_apply a _ (ix2 i t) (ix2 i (0 : Fin 1)) (fun c => by
        match c with
        | ⟨0, _⟩ => rfl
        | ⟨1, _⟩ => rfl),
    broadcastTo_apply b _ (ix2 i t) (ix2 (0 : Fin 1) t) (fun c => by
        match c with
        | ⟨0, _⟩ => rfl
        | ⟨1, _⟩ => rfl)]

/-- Head o's edge scores of the point's rows, out of the four heads'. -/
theorem head_slice_apply (es : FVec Ideal S4x64x512 .f32) (o : ℕ) (ho : o < 4) (hs : S4x64x512.Slices ![o, 0, 0] S1x64x512)
    (hc : S1x64x512.ShapeCasts S64x512) (i : Fin 64) (t : Fin 512) :
    shapeCast S64x512 (extractStridedSlice S1x64x512 ![o, 0, 0] es hs) hc (ix2 i t) = es (ix3 (⟨o, ho⟩ : Fin 4) i t) := by
  rw [shapeCast_1ab_ab_apply]
  exact extractStridedSlice_apply _ es _ _ (ix3 (⟨o, ho⟩ : Fin 4) i t) (fun c => by
    match c with
    | ⟨0, _⟩ => exact (by omega : o = o + 0)
    | ⟨1, _⟩ => exact (by omega : i.val = 0 + i.val)
    | ⟨2, _⟩ => exact (by omega : t.val = 0 + t.val))

/-- A head's masked exponential at (i, t), in one formula. -/
def pEntry (es : FVec Ideal S4x64x512 .f32) (mask : FVec Ideal S64x512 .f32) (a : Vec Ideal S64x1 .f32) (b : Vec Ideal S1x512 .f32)
    (h : Fin 4) (i : Fin 64) (t : Fin 512) : EReal :=
  mask (ix2 i t) * Ideal.exp (leaky (a (ix2 i (0 : Fin 1)) + b (ix2 (0 : Fin 1) t) + es (ix3 h i t)))

theorem pay78_apply (es : FVec Ideal S4x64x512 .f32) (mask : FVec Ideal S64x512 .f32) (a : Vec Ideal S64x1 .f32) (b : Vec Ideal S1x512 .f32)
    (i : Fin 64) (t : Fin 512) : k0_pay78 (F := Ideal) es mask a b (ix2 i t) = pEntry es mask a b ⟨1, by decide⟩ i t := by
  rw [pay78_eq, pOf_apply, scOf_apply, head_slice_apply es 1 (by decide)]; rfl

theorem pay79_apply (es : FVec Ideal S4x64x512 .f32) (mask : FVec Ideal S64x512 .f32) (a : Vec Ideal S64x1 .f32) (b : Vec Ideal S1x512 .f32)
    (i : Fin 64) (t : Fin 512) : k0_pay79 (F := Ideal) es mask a b (ix2 i t) = pEntry es mask a b ⟨2, by decide⟩ i t := by
  rw [pay79_eq, pOf_apply, scOf_apply, head_slice_apply es 2 (by decide)]; rfl

/-- Head 0, spelled through three payloads. -/
theorem pay77_head0_apply (es : FVec Ideal S4x64x512 .f32) (mask : FVec Ideal S64x512 .f32) (a : Vec Ideal S64x1 .f32) (b : Vec Ideal S1x512 .f32)
    (i : Fin 64) (t : Fin 512) :
    k0_pay77 (F := Ideal) mask (k0_pay75 a b) (k0_pay76 es) (ix2 i t) = pEntry es mask a b ⟨0, by decide⟩ i t := by
  rw [pay77_apply, pay75_apply, pay76_apply]; rfl

end Cert.KernelIdeal.Payloads

end
-- ==== Proof.KernelIdealDen.lean ====
/-
  The denominator update of one grid point: for each head h and target t, what the accumulator held plus the sum over the
  point's 64 source rows i of that head's masked exponential (i, t). The body stacks the four heads' 64 x 512 tables into
  one 256 x 512 table, regroups it as 4 x 64 x 512, sums over the middle axis and adds the old 4 x 512 slice.
-/
import proofs.«169155_g70909910057105_cont_sun_m_1383_19_alg».proof.Proof.KernelIdealPHead
import Idealize.ShloMosaic.PureOps.Ideal.Laws

noncomputable section

namespace Cert.KernelIdeal.Payloads

open Cert.KernelIdeal Cert.KernelIdeal.Gen Idealize.ShloMosaic Idealize.ShloMosaic.ValueIdx

variable {F : FTy → Type} [FloatOps F]

/-- The stacked table, spelled with head 3's chain named. -/
theorem pay80_eq (es : FVec F S4x64x512 .f32) (mask p0 p1 p2 : FVec F S64x512 .f32) (a : Vec F S64x1 .f32) (b : Vec F S1x512 .f32) :
    k0_pay80 es mask p0 p1 p2 a b = concatenate S256x512 0 [⟨S64x512, p0⟩, ⟨S64x512, p1⟩, ⟨S64x512, p2⟩,
      ⟨S64x512, pOf mask (scOf a b (shapeCast S64x512 (extractStridedSlice S1x64x512 ![3, 0, 0] es slices_S4x64x512_o3_0_0_S1x64x512) shapeCasts_S1x64x512_S64x512))⟩]
      concatenates_S64x512_S64x512_S64x512_S64x512_S256x512_d0 := rfl

/-- Row 64 h + i of four stacked 64 x 512 tables is row i of table h. -/
theorem stack4_apply {α : Type} (q0 q1 q2 q3 : S64x512.Idx → α)
    (hc : Shape.Concatenates (([⟨S64x512, q0⟩, ⟨S64x512, q1⟩, ⟨S64x512, q2⟩, ⟨S64x512, q3⟩] : List ((s : Shape) × (s.Idx → α))).map (·.1)) S256x512 0)
    (h : Fin 4) (i : Fin 64) (t : Fin 512) :
    concatenate S256x512 0 [⟨S64x512, q0⟩, ⟨S64x512, q1⟩, ⟨S64x512, q2⟩, ⟨S64x512, q3⟩] hc
        (ix2 (⟨64 * h.val + i.val, by have := h.isLt; have := i.isLt; omega⟩ : Fin 256) t)
      = (match h with | ⟨0, _⟩ => q0 | ⟨1, _⟩ => q1 | ⟨2, _⟩ => q2 | ⟨3, _⟩ => q3) (ix2 i t) := by
  have hoff : ∀ (r : Fin 256) (b : Fin S64x512.rank), b.cast (rfl : S64x512.rank = S256x512.rank) ≠ (0 : Fin S256x512.rank) →
      ((ix2 i t : S64x512.Idx) b).val = ((ix2 r t : S256x512.Idx) (b.cast rfl)).val := fun r b hb => by
    match b with
    | ⟨0, _⟩ => exact absurd rfl hb
    | ⟨1, _⟩ => rfl
  match h with
  | ⟨0, _⟩ =>
    exact concatenate_apply_piece (0 : Fin S256x512.rank) _ hc _ 0 (by simp) S64x512 q0 rfl rfl (64 * 0) rfl (ix2 i t) (hoff _)
      (by show 64 * 0 + i.val = 64 * 0 + i.val; rfl)
  | ⟨1, _⟩ =>
    exact concatenate_apply_piece (0 : Fin S256x512.rank) _ hc _ 1 (by simp) S64x512 q1 rfl rfl (64 * 1) rfl (ix2 i t) (hoff _)
      (by show 64 * 1 + i.val = 64 * 1 + i.val; rfl)
  | ⟨2, _⟩ =>
    exact concatenate_apply_piece (0 : Fin S256x512.rank) _ hc _ 2 (by simp) S64x512 q2 rfl rfl (64 * 2) rfl (ix2 i t) (hoff _)
      (by show 64 * 2 + i.val = 64 * 2 + i.val; rfl)
  | ⟨3, _⟩ =>
    exact concatenate_apply_piece (0 : Fin S256x512.rank) _ hc _ 3 (by simp) S64x512 q3 rfl rfl (64 * 3) rfl (ix2 i t) (hoff _)
      (by show 64 * 3 + i.val = 64 * 3 + i.val; rfl)

/-- The update at (h, t): the old entry plus the sum over the point's rows of the stacked table's row 64 h + i. -/
theorem pay81_apply (es : FVec Ideal S4x64x512 .f32) (mask p0 p1 p2 : FVec Ideal S64x512 .f32) (a : Vec Ideal S64x1 .f32)
    (b : Vec Ideal S1x512 .f32) (old : Vec Ideal S4x512 .f32) (h : Fin 4) (t : Fin 512) :
    k0_pay81 (F := Ideal) es mask p0 p1 p2 a b old (ix2 h t)
      = old (ix2 h t) + ∑ i : Fin 64, k0_pay80 (F := Ideal) es mask p0 p1 p2 a b
          (ix2 (⟨64 * h.val + i.val, by have := h.isLt; have := i.isLt; omega⟩ : Fin 256) t) := by
  unfold k0_pay81
  rw [shapeCast_self]
  show old (ix2 h t) + multiReduction .add [1] S4x512 (shapeCast S4x64x512 (k0_pay80 es mask p0 p1 p2 a b) shapeCasts_S256x512_S4x64x512)
      0x00000000#32 reduces_S4x64x512_S4x512 (.inl rfl) rfl (ix2 h t) = _
  refine congrArg (old (ix2 h t) + ·) ?_
  refine (Ideal.multiReduction_add_single _ 0x00000000#32 reduces_S4x64x512_S4x512 (.inl rfl) rfl (ix2 h t)).trans ?_
  refine Finset.sum_congr rfl fun i _ => ?_
  have hi : (i : ℕ) < 64 := i.isLt
  have el : reduces_S4x64x512_S4x512.lift (ix2 h t) i = ix3 h (⟨i.val, hi⟩ : Fin 64) t := funext fun c => Fin.ext (by
    match c with
    | ⟨0, _⟩ => rfl
    | ⟨1, _⟩ => rfl
    | ⟨2, _⟩ => rfl)
  rw [el]
  exact shapeCast_apply _ _ (ix3 h (⟨i.val, hi⟩ : Fin 64) t) (ix2 (⟨64 * h.val + i.val, by have := h.isLt; omega⟩ : Fin 256) t) (by
    rw [Shape.rowMajor_val_two, Shape.rowMajor_val_three]
    show (64 * h.val + i.val) * 512 + t.val = (h.val * 64 + i.val) * 512 + t.val
    omega)

end Cert.KernelIdeal.Payloads

end
-- ==== Proof.KernelIdealFirst.lean ====
/-
  The two layer-1 accumulators after the first grid point. The point zeroes both, then adds block 0's contribution for
  each batch slice: for the denominator, the sum over the block's 64 source rows of each head's masked exponential.
  The scores the exponentials are built from are read back from what the point itself has just stored (the projected
  features' source and target scores), the edge scores and the mask are computed from the loaded block. Slice 1's
  update is spelled as at every later point; slice 0's is spelled through other payloads with the same content.
-/
import proofs.«169155_g70909910057105_cont_sun_m_1383_19_alg».proof.Proof.KernelIdealCovers
import proofs.«169155_g70909910057105_cont_sun_m_1383_19_alg».proof.Proof.KernelIdealH1
import proofs.«169155_g70909910057105_cont_sun_m_1383_19_alg».proof.Proof.KernelIdealSt1
import proofs.«169155_g70909910057105_cont_sun_m_1383_19_alg».proof.Proof.KernelIdealSs1
import proofs.«169155_g70909910057105_cont_sun_m_1383_19_alg».proof.Proof.KernelIdealDen
import proofs.«169155_g70909910057105_cont_sun_m_1383_19_alg».proof.Proof.KernelIdealEdgeScore
import proofs.«169155_g70909910057105_cont_sun_m_1383_19_alg».proof.Proof.KernelIdealState
import Idealize.ShloMosaic.Lib.Pipeline.FrameBody

set_option maxRecDepth 16384

noncomputable section

namespace Cert.KernelIdeal.Payloads

open Cert.KernelIdeal Cert.KernelIdeal.Gen Idealize.ShloMosaic Idealize.ShloMosaic.ValueIdx
open Cert.Spec.DenseGat (leaky leakSlope feat)

/-! ## The stacked tables and the reduction over the block's rows -/

/-- Head o's chain at an entry, whichever payload spells it. -/
theorem pOf_scOf_entry (es : FVec Ideal S4x64x512 .f32) (mask : FVec Ideal S64x512 .f32) (a : Vec Ideal S64x1 .f32)
    (b : Vec Ideal S1x512 .f32) (o : ℕ) (ho : o < 4) (hs : S4x64x512.Slices ![o, 0, 0] S1x64x512)
    (hc : S1x64x512.ShapeCasts S64x512) (i : Fin 64) (t : Fin 512) :
    pOf (F := Ideal) mask (scOf a b (shapeCast S64x512 (extractStridedSlice S1x64x512 ![o, 0, 0] es hs) hc)) (ix2 i t)
      = pEntry es mask a b ⟨o, ho⟩ i t := by
  rw [pOf_apply, scOf_apply, head_slice_apply es o ho]; rfl

/-- Old entry plus the sum over the 64 rows of group h of a 256-row table: the regrouping, the reduction over the
    middle axis and the addition, at (h, t). -/
theorem den_reduce (tbl : FVec Ideal S256x512 .f32) (old : Vec Ideal S4x512 .f32) (h : Fin 4) (t : Fin 512) :
    (addf old (multiReduction .add [1] S4x512 (shapeCast S4x64x512 tbl shapeCasts_S256x512_S4x64x512)
        0x00000000#32 reduces_S4x64x512_S4x512 (.inl rfl) rfl) : FVec Ideal S4x512 .f32) (ix2 h t)
      = old (ix2 h t) + ∑ i : Fin 64, tbl (ix2 (⟨64 * h.val + i.val, by have := h.isLt; have := i.isLt; omega⟩ : Fin 256) t) := by
  show old (ix2 h t) + multiReduction .add [1] S4x512 (shapeCast S4x64x512 tbl shapeCasts_S256x512_S4x64x512)
      0x00000000#32 reduces_S4x64x512_S4x512 (.inl rfl) rfl (ix2 h t) = _
  refine congrArg (old (ix2 h t) + ·) ?_
  refine (Ideal.multiReduction_add_single _ 0x00000000#32 reduces_S4x64x512_S4x512 (.inl rfl) rfl (ix2 h t)).trans ?_
  refine Finset.sum_congr rfl fun i _ => ?_
  have hi : (i : ℕ) < 64 := i.isLt
  have el : reduces_S4x64x512_S4x512.lift (ix2 h t) i = ix3 h (⟨i.val, hi⟩ : Fin 64) t := funext fun c => Fin.ext (by
    match c with
    | ⟨0, _⟩ => rfl
    | ⟨1, _⟩ => rfl
    | ⟨2, _⟩ => rfl)
  rw [el]
  exact shapeCast_apply _ _ (ix3 h (⟨i.val, hi⟩ : Fin 64) t) (ix2 (⟨64 * h.val + i.val, by have := h.isLt; omega⟩ : Fin 256) t) (by
    rw [Shape.rowMajor_val_two, Shape.rowMajor_val_three]
    show (64 * h.val + i.val) * 512 + t.val = (h.val * 64 + i.val) * 512 + t.val
    omega)

/-- Slice 0's spelling of the chain: head 0 in one payload from the raw adjacency block, -/
theorem pay63_spell {F : FTy → Type} [FloatOps F] (es : FVec F S4x64x512 .f32) (adj : Vec F S64x512 .i32) (a : Vec F S64x1 .f32) (b : Vec F S1x512 .f32) :
    k0_pay63 es adj a b = pOf (k0_pay61 adj) (scOf a b (shapeCast S64x512
      (extractStridedSlice S1x64x512 ![0, 0, 0] es slices_S4x64x512_o0_0_0_S1x64x512) shapeCasts_S1x64x512_S64x512)) := rfl

/-- head 1's rectified score in one payload and its exponential and mask in the next, heads 2 and 3 inside the stack. -/
theorem pay65_spell {F : FTy → Type} [FloatOps F] (es : FVec F S4x64x512 .f32) (mask p0 : FVec F S64x512 .f32) (a1 : Vec F S64x1 .f32) (b1 : Vec F S1x512 .f32)
    (a2 : Vec F S64x1 .f32) (b2 : Vec F S1x512 .f32) (a3 : Vec F S64x1 .f32) (b3 : Vec F S1x512 .f32) :
    k0_pay65 es mask p0 (k0_pay64 es a1 b1) a2 b2 a3 b3 = concatenate S256x512 0 [⟨S64x512, p0⟩,
      ⟨S64x512, pOf mask (scOf a1 b1 (shapeCast S64x512 (extractStridedSlice S1x64x512 ![1, 0, 0] es slices_S4x64x512_o1_0_0_S1x64x512) shapeCasts_S1x64x512_S64x512))⟩,
      ⟨S64x512, pOf mask (scOf a2 b2 (shapeCast S64x512 (extractStridedSlice S1x64x512 ![2, 0, 0] es slices_S4x64x512_o2_0_0_S1x64x512) shapeCasts_S1x64x512_S64x512))⟩,
      ⟨S64x512, pOf mask (scOf a3 b3 (shapeCast S64x512 (extractStridedSlice S1x64x512 ![3, 0, 0] es slices_S4x64x512_o3_0_0_S1x64x512) shapeCasts_S1x64x512_S64x512))⟩]
      concatenates_S64x512_S64x512_S64x512_S64x512_S256x512_d0 := rfl

/-- Row 64 h + i of slice 0's stacked table is head h's masked exponential (i, t), each head with its own scores. -/
theorem stack0_row (es : FVec Ideal S4x64x512 .f32) (adj : Vec Ideal S64x512 .i32)
    (a0 a1 a2 a3 : Vec Ideal S64x1 .f32) (b0 b1 b2 b3 : Vec Ideal S1x512 .f32) (h : Fin 4) (i : Fin 64) (t : Fin 512) :
    k0_pay65 (F := Ideal) es (k0_pay61 adj) (k0_pay63 es adj a0 b0) (k0_pay64 es a1 b1) a2 b2 a3 b3
        (ix2 (⟨64 * h.val + i.val, by have := h.isLt; have := i.isLt; omega⟩ : Fin 256) t)
      = pEntry es (k0_pay61 adj) (match h with | ⟨0, _⟩ => a0 | ⟨1, _⟩ => a1 | ⟨2, _⟩ => a2 | ⟨3, _⟩ => a3)
          (match h with | ⟨0, _⟩ => b0 | ⟨1, _⟩ => b1 | ⟨2, _⟩ => b2 | ⟨3, _⟩ => b3) h i t := by
  rw [pay65_spell, stack4_apply, pay63_spell]
  match h with
  | ⟨0, _⟩ => exact pOf_scOf_entry es _ a0 b0 0 (by decide) _ _ i t
  | ⟨1, _⟩ => exact pOf_scOf_entry es _ a1 b1 1 (by decide) _ _ i t
  | ⟨2, _⟩ => exact pOf_scOf_entry es _ a2 b2 2 (by decide) _ _ i t
  | ⟨3, _⟩ => exact pOf_scOf_entry es _ a3 b3 3 (by decide) _ _ i t

/-- Row 64 h + i of slice 1's stacked table likewise. -/
theorem stack1_row (es : FVec Ideal S4x64x512 .f32) (mask : FVec Ideal S64x512 .f32)
    (a0 a1 a2 a3 : Vec Ideal S64x1 .f32) (b0 b1 b2 b3 : Vec Ideal S1x512 .f32) (h : Fin 4) (i : Fin 64) (t : Fin 512) :
    k0_pay80 (F := Ideal) es mask (k0_pay77 mask (k0_pay75 a0 b0) (k0_pay76 es)) (k0_pay78 es mask a1 b1) (k0_pay79 es mask a2 b2) a3 b3
        (ix2 (⟨64 * h.val + i.val, by have := h.isLt; have := i.isLt; omega⟩ : Fin 256) t)
      = pEntry es mask (match h with | ⟨0, _⟩ => a0 | ⟨1, _⟩ => a1 | ⟨2, _⟩ => a2 | ⟨3, _⟩ => a3)
          (match h with | ⟨0, _⟩ => b0 | ⟨1, _⟩ => b1 | ⟨2, _⟩ => b2 | ⟨3, _⟩ => b3) h i t := by
  rw [pay80_eq, stack4_apply]
  match h with
  | ⟨0, _⟩ => exact pay77_head0_apply es mask a0 b0 i t
  | ⟨1, _⟩ => exact pay78_apply es mask a1 b1 i t
  | ⟨2, _⟩ => exact pay79_apply es mask a2 b2 i t
  | ⟨3, _⟩ => exact pOf_scOf_entry es mask a3 b3 3 (by decide) _ _ i t

/-- Slice 0's denominator update at (h, t): the old entry plus the block's 64 rows of head h. -/
theorem den0_apply (es : FVec Ideal S4x64x512 .f32) (adj : Vec Ideal S64x512 .i32)
    (a0 a1 a2 a3 : Vec Ideal S64x1 .f32) (b0 b1 b2 b3 : Vec Ideal S1x512 .f32) (old : Vec Ideal S4x512 .f32) (h : Fin 4) (t : Fin 512) :
    k0_pay67 (F := Ideal) (k0_pay66 es (k0_pay61 adj) (k0_pay63 es adj a0 b0) (k0_pay64 es a1 b1) a2 b2 a3 b3 old) (ix2 h t)
      = old (ix2 h t) + ∑ i : Fin 64, pEntry es (k0_pay61 adj) (match h with | ⟨0, _⟩ => a0 | ⟨1, _⟩ => a1 | ⟨2, _⟩ => a2 | ⟨3, _⟩ => a3)
          (match h with | ⟨0, _⟩ => b0 | ⟨1, _⟩ => b1 | ⟨2, _⟩ => b2 | ⟨3, _⟩ => b3) h i t := by
  unfold k0_pay67 k0_pay66
  rw [shapeCast_self]
  refine (den_reduce _ old h t).trans ?_
  exact congrArg (old (ix2 h t) + ·) (Finset.sum_congr rfl fun i _ => stack0_row es adj a0 a1 a2 a3 b0 b1 b2 b3 h i t)

/-- Slice 1's denominator update at (h, t). -/
theorem den1_apply (es : FVec Ideal S4x64x512 .f32) (mask : FVec Ideal S64x512 .f32)
    (a0 a1 a2 a3 : Vec Ideal S64x1 .f32) (b0 b1 b2 b3 : Vec Ideal S1x512 .f32) (old : Vec Ideal S4x512 .f32) (h : Fin 4) (t : Fin 512) :
    k0_pay81 (F := Ideal) es mask (k0_pay77 mask (k0_pay75 a0 b0) (k0_pay76 es)) (k0_pay78 es mask a1 b1) (k0_pay79 es mask a2 b2) a3 b3 old (ix2 h t)
      = old (ix2 h t) + ∑ i : Fin 64, pEntry es mask (match h with | ⟨0, _⟩ => a0 | ⟨1, _⟩ => a1 | ⟨2, _⟩ => a2 | ⟨3, _⟩ => a3)
          (match h with | ⟨0, _⟩ => b0 | ⟨1, _⟩ => b1 | ⟨2, _⟩ => b2 | ⟨3, _⟩ => b3) h i t := by
  rw [pay81_apply]
  exact congrArg (old (ix2 h t) + ·) (Finset.sum_congr rfl fun i _ => stack1_row es mask a0 a1 a2 a3 b0 b1 b2 b3 h i t)

end Cert.KernelIdeal.Payloads

namespace Cert.KernelIdeal.Payloads

open Cert.KernelIdeal Cert.KernelIdeal.Gen Idealize.ShloMosaic Idealize.ShloMosaic.ValueIdx
open Cert.Spec.DenseGat (leaky leakSlope feat headOf)

/-! ## The numerator update -/

/-- Slice 0's numerator update is slice 1's: the same masked product and addition, the head mask's row half and
    column half computed in the other order. -/
theorem pay73_eq {F : FTy → Type} [FloatOps F] (T : FVec F S256x512 .f32) (W : FVec F S256x128 .f32) (old : Vec F S1x512x128 .f32) :
    k0_pay73 T W k0_pay69 k0_pay70 k0_pay71 k0_pay72 0#32 old
      = k0_pay1 (k0_pay86 T W (iota .tc S256x128 32 [1] iota_S256x128_d1_w32) k0_pay83 k0_pay84 k0_pay85 0#32) old := rfl

/-- The four stacked copies of the block's projected features, in either spelling. -/
theorem pay68_eq {F : FTy → Type} [FloatOps F] (V : FVec F S64x128 .f32) : k0_pay68 V = k0_pay82 V := rfl

/-- The update at (t, q): the old entry plus the product's. -/
theorem pay1_apply (X : FVec Ideal S512x128 .f32) (old : Vec Ideal S1x512x128 .f32) (u : Fin 1) (t : Fin 512) (q : Fin 128) :
    k0_pay1 (F := Ideal) X old (ix3 u t q) = old (ix3 (0 : Fin 1) t q) + X (ix2 t q) := by
  unfold k0_pay1
  rw [shapeCast_ab_1ab_apply]
  show shapeCast S512x128 old shapeCasts_S1x512x128_S512x128 (ix2 t q) + X (ix2 t q) = _
  rw [shapeCast_1ab_ab_apply]

/-- The block's projected features, the unit batch axis dropped. -/
theorem pay74_apply (v : Vec Ideal S1x64x128 .f32) (r : Fin 64) (q : Fin 128) :
    k0_pay74 (F := Ideal) v (ix2 r q) = v (ix3 (0 : Fin 1) r q) := by
  unfold k0_pay74; rw [shapeCast_1ab_ab_apply]
theorem pay62_apply (v : Vec Ideal S1x64x128 .f32) (r : Fin 64) (q : Fin 128) :
    k0_pay62 (F := Ideal) v (ix2 r q) = v (ix3 (0 : Fin 1) r q) := by
  unfold k0_pay62; rw [shapeCast_1ab_ab_apply]

/-- The zero fills of the numerator, in both spellings. -/
theorem pay54_apply (y : S1x512x128.Idx) : k0_pay54 (F := Ideal) y = 0 := by
  obtain ⟨u, t, q, rfl⟩ : ∃ (u : Fin 1) (t : Fin 512) (q : Fin 128), y = ix3 u t q := ⟨y 0, y 1, y 2, eq_ix3 y⟩
  unfold k0_pay54
  rw [shapeCast_ab_1ab_apply]
  exact Ideal.ofBits_zero_f32
theorem pay9_apply (y : S1x512x128.Idx) : k0_pay9 (F := Ideal) k0_pay8 y = 0 := by
  obtain ⟨u, t, q, rfl⟩ : ∃ (u : Fin 1) (t : Fin 512) (q : Fin 128), y = ix3 u t q := ⟨y 0, y 1, y 2, eq_ix3 y⟩
  unfold k0_pay9 k0_pay8
  rw [shapeCast_ab_1ab_apply]
  exact Ideal.ofBits_zero_f32

/-- The numerator's leaf fact: the product of a finite 256-row table (four heads' 64 rows each, against the 512
    targets) with the four stacked copies of a finite 64 x 128 block, each copy kept only on its own head's 32
    columns, is at (t, q) the sum over the block's 64 rows of the row of q's head times the block's entry. -/
def NumLeaf : Prop :=
  ∀ (T : FVec Ideal S256x512 .f32) (V : FVec Ideal S64x128 .f32),
    (∀ (R : Fin 256) (t : Fin 512), ∃ r : ℝ, T (ix2 R t) = (r : EReal)) →
    (∀ (i : Fin 64) (q : Fin 128), ∃ r : ℝ, V (ix2 i q) = (r : EReal)) →
    ∀ (t : Fin 512) (q : Fin 128),
      k0_pay86 (F := Ideal) T (k0_pay82 V) (iota .tc S256x128 32 [1] iota_S256x128_d1_w32) k0_pay83 k0_pay84 k0_pay85 0#32 (ix2 t q)
        = ∑ i : Fin 64, T (ix2 (⟨64 * (headOf q).val + i.val, by have := (headOf q).isLt; have := i.isLt; omega⟩ : Fin 256) t) * V (ix2 i q)

/-- A 256-row table whose row 64 h + i is finite for every head and row is finite. -/
theorem rows_fin (T : S256x512.Idx → EReal) (P : Fin 4 → Fin 64 → Fin 512 → EReal)
    (hrow : ∀ (h : Fin 4) (i : Fin 64) (t : Fin 512),
      T (ix2 (⟨64 * h.val + i.val, by have := h.isLt; have := i.isLt; omega⟩ : Fin 256) t) = P h i t)
    (hP : ∀ h i t, ∃ r : ℝ, P h i t = (r : EReal)) (R : Fin 256) (t : Fin 512) : ∃ r : ℝ, T (ix2 R t) = (r : EReal) := by
  obtain ⟨h, i, rfl⟩ : ∃ (h : Fin 4) (i : Fin 64), R = ⟨64 * h.val + i.val, by have := h.isLt; have := i.isLt; omega⟩ :=
    ⟨⟨R.val / 64, by have := R.isLt; omega⟩, ⟨R.val % 64, Nat.mod_lt _ (by decide)⟩, Fin.ext (by show R.val = 64 * (R.val / 64) + R.val % 64; omega)⟩
  rw [hrow]; exact hP h i t

end Cert.KernelIdeal.Payloads

namespace Cert.KernelIdeal.Body

open Cert.KernelIdeal Cert.KernelIdeal.Gen Cert.KernelIdeal.Payloads
open Idealize.ShloMosaic Idealize.ShloMosaic.TcCoe Idealize.ShloMosaic.Tactic Idealize.ShloMosaic.ValueIdx
open Idealize.SL Idealize.SL.Sem
open Cert.Spec.DenseGat (feat leaky headOf)

/-! ## The factors of a masked exponential, named -/

/-- At grid coordinate 0 the row offset is 0. -/
theorem rowOff_zero (n : ℕ) (hn : n = 0) :
    BitVec.toNat (Scalar.indexCast (Scalar.muli (BitVec.ofNat 32 n) 64#32)) = 0 := by subst hn; rfl

/-- A head's score from the loaded node features, weights and head vectors is the score of the named arrays. -/
theorem scoreOf_eq (x3 : Vec Ideal S512x2x128 .f32) (x8 : Vec Ideal S128x128 .f32) (a : Vec Ideal S4x32 .f32)
    (A : State.Args) (aA : State.Sh4x32.Idx → EReal)
    (h3 : ∀ (p : Fin 512) (b : Fin 2) (k : Fin 128), x3 (ix3 p b k) = A.x (ix3 p b k))
    (h8 : ∀ q k : Fin 128, x8 (ix2 q k) = A.w1n (ix2 q k))
    (ha : ∀ (h : Fin 4) (d : Fin 32), a (ix2 h d) = aA (ix2 h d)) (b : Fin 2) (h : Fin 4) (p : Fin 512) :
    scoreOf x3 x8 a b h p = State.score1 A aA b h p := by
  unfold scoreOf State.score1 State.h1
  refine Finset.sum_congr rfl fun d _ => ?_
  rw [ha]
  exact congrArg (· * aA (ix2 h d)) (Finset.sum_congr rfl fun k _ => by rw [h3, h8])

/-- The source-score buffer at row p, column 4 b + h. -/
theorem ss1Fun_at (x3 : Vec Ideal S512x2x128 .f32) (x8 : Vec Ideal S128x128 .f32) (a : Vec Ideal S4x32 .f32)
    (A : State.Args) (aA : State.Sh4x32.Idx → EReal)
    (h3 : ∀ (p : Fin 512) (b : Fin 2) (k : Fin 128), x3 (ix3 p b k) = A.x (ix3 p b k))
    (h8 : ∀ q k : Fin 128, x8 (ix2 q k) = A.w1n (ix2 q k))
    (ha : ∀ (h : Fin 4) (d : Fin 32), a (ix2 h d) = aA (ix2 h d))
    (j : S512x8.Idx) (b : Fin 2) (h : Fin 4) (p : Fin 512) (e0 : (j 0).val = p.val) (e1 : (j 1).val = 4 * b.val + h.val) :
    ss1Fun x3 x8 a j = State.score1 A aA b h p := by
  unfold ss1Fun
  refine (congr (congr (congrArg (scoreOf x3 x8 a) (Fin.ext ?_ : _ = b)) (Fin.ext ?_ : _ = h)) (Fin.ext ?_ : _ = p)).trans
    (scoreOf_eq x3 x8 a A aA h3 h8 ha b h p)
  · show (j 1).val / 4 = b.val
    have := h.isLt; omega
  · show (j 1).val % 4 = h.val
    have := h.isLt; omega
  · exact e0

/-- The target-score buffer at row 4 b + h, column p. -/
theorem st1Fun_at (x3 : Vec Ideal S512x2x128 .f32) (x8 : Vec Ideal S128x128 .f32) (a : Vec Ideal S4x32 .f32)
    (A : State.Args) (aA : State.Sh4x32.Idx → EReal)
    (h3 : ∀ (p : Fin 512) (b : Fin 2) (k : Fin 128), x3 (ix3 p b k) = A.x (ix3 p b k))
    (h8 : ∀ q k : Fin 128, x8 (ix2 q k) = A.w1n (ix2 q k))
    (ha : ∀ (h : Fin 4) (d : Fin 32), a (ix2 h d) = aA (ix2 h d))
    (j : S8x512.Idx) (b : Fin 2) (h : Fin 4) (p : Fin 512) (e0 : (j 0).val = 4 * b.val + h.val) (e1 : (j 1).val = p.val) :
    st1Fun x3 x8 a j = State.score1 A aA b h p := by
  unfold st1Fun
  refine (congr (congr (congrArg (scoreOf x3 x8 a) (Fin.ext ?_ : _ = b)) (Fin.ext ?_ : _ = h)) (Fin.ext ?_ : _ = p)).trans
    (scoreOf_eq x3 x8 a A aA h3 h8 ha b h p)
  · show (j 0).val / 4 = b.val
    have := h.isLt; omega
  · show (j 0).val % 4 = h.val
    have := h.isLt; omega
  · exact e1

/-- A head's masked exponential on (row r of block c, t), its four factors being the named ones. -/
theorem pEntry_eq_p1 (es : FVec Ideal S4x64x512 .f32) (mask : FVec Ideal S64x512 .f32) (a : Vec Ideal S64x1 .f32)
    (b : Vec Ideal S1x512 .f32) (A : State.Args) (bb : Fin 2) (h : Fin 4) (cb : Fin 8) (r : Fin 64) (t : Fin 512)
    (hm : mask (ix2 r t) = State.msk A (State.rowOf cb r) t)
    (ha : a (ix2 r (0 : Fin 1)) = State.score1 A A.as1 bb h (State.rowOf cb r))
    (hb : b (ix2 (0 : Fin 1) t) = State.score1 A A.at1 bb h t)
    (he : es (ix3 h r t) = State.es A A.w1e A.ae1 h (State.rowOf cb r) t) :
    pEntry es mask a b h r t = State.p1 A bb h (State.rowOf cb r) t := by
  unfold pEntry State.p1
  rw [hm, ha, hb, he]

/-- The layer-1 edge scores of block c from the loaded weights, coefficients and features. -/
theorem es1_payload (w1 w2 : S128x128.Idx → Ideal .f32) (a1 a2 : S4x1.Idx → Ideal .f32) (ef : S64x512x128.Idx → Ideal .f32)
    (A : State.Args) (cb : Fin 8)
    (h1 : ∀ (r : Fin 64) (t : Fin 512) (k : Fin 128), ef (ix3 r t k) = A.ef (ix3 (State.rowOf cb r) t k))
    (h4 : ∀ q k : Fin 128, w1 (ix2 q k) = A.w1e (ix2 q k))
    (h6 : ∀ h : Fin 4, a1 (ix2 h (0 : Fin 1)) = A.ae1 (ix2 h (0 : Fin 1)))
    (hfin : ∀ q k : Fin 128, ∃ r : ℝ, A.w1e (ix2 q k) = (r : EReal))
    (h : Fin 4) (r : Fin 64) (t : Fin 512) :
    k0_pay59 (F := Ideal) w1 w2 a1 a2 ef (ix3 h r t) = State.es A A.w1e A.ae1 h (State.rowOf cb r) t := by
  rw [pay59_apply w1 w2 a1 a2 ef (fun q k => by rw [h4]; exact hfin q k) h r t]
  unfold State.es
  rw [h6]
  refine congrArg (· * A.ae1 (ix2 h (0 : Fin 1))) (Finset.sum_congr rfl fun k _ => ?_)
  rw [h1]
  exact congrArg (· * A.ef (ix3 (State.rowOf cb r) t k)) (Finset.sum_congr rfl fun d _ => h4 _ _)

/-- The mask of block c from the loaded adjacency rows. -/
theorem mask_payload (adj : S64x512.Idx → BitVec 32) (A : State.Args) (cb : Fin 8)
    (h2 : ∀ (r : Fin 64) (t : Fin 512), adj (ix2 r t) = A.adj (ix2 (State.rowOf cb r) t)) (r : Fin 64) (t : Fin 512) :
    k0_pay61 (F := Ideal) adj (ix2 r t) = State.msk A (State.rowOf cb r) t := by
  rw [pay61_apply]; unfold State.msk; rw [h2]

/-- Block 0 alone: the partial sum over the sources below 64. -/
theorem den1_one (A : State.Args) (b : Fin 2) (h : Fin 4) (t : Fin 512) :
    (0 : EReal) + ∑ r : Fin 64, State.p1 A b h (State.rowOf 0 r) t = State.den1 A 1 b h t := by
  unfold State.den1
  have e := State.sum_next_block (fun s => State.p1 A b h s t) (0 : Fin 8)
  have z : (∑ s : Fin 512, if s.val < 64 * (0 : Fin 8).val then State.p1 A b h s t else 0) = 0 :=
    Finset.sum_eq_zero fun s _ => if_neg (by show ¬ s.val < 64 * 0; omega)
  rw [z] at e
  exact e.symm

/-! ## Loads and the zero fill -/

/-- Off the newest piece's unit-stride rectangle on axis a, the canonical contents are those of the rest of the list. -/
theorem canon_cons_unit_off {s : Shape} {e : EltTy} {off size : Fin s.rank → ℕ} (inb : ∀ a, off a + size a ≤ s.size a)
    (w : (Rect.unit off size inb).shape.Idx → Elt Ideal e) (L : List (View.Piece (Elt Ideal) s e)) (y : s.Idx)
    (a : Fin s.rank) (ha : (y a).val < off a ∨ off a + size a ≤ (y a).val) :
    View.canon ((⟨Rect.unit off size inb, w⟩ : View.Piece (Elt Ideal) s e) :: L) y = View.canon L y :=
  View.canon_cons_of_not_mem _ L (by
    rw [Rect.mem_set_unit]
    intro hall
    have := hall a
    omega)

/-- The zero fill is zero everywhere. -/
theorem pay55_apply (y : S8x512.Idx) : k0_pay55 (F := Ideal) y = 0 := by
  unfold k0_pay55
  rw [shapeCast_self]
  exact Ideal.ofBits_zero_f32

/-- A whole-buffer load of held contents reads those contents: weights, -/
theorem ld_whole_w (arg : Memref sig .tc .vmem S128x128 .f32) (harg : arg.IsWhole) (x : Vec Ideal S128x128 .f32) (inb)
    (q k : Fin 128) :
    View.readAt (Elt Ideal) arg.view (Rect.unit (s := S128x128) ![0, 0] S128x128.size inb).toLoadRect (harg.unread x) (ix2 q k)
      = x (ix2 q k) := by
  rw [View.readAt_eq_ld, harg.read_unread]
  refine congrArg x (funext fun a => Fin.ext ?_)
  show ((Rect.unit (s := S128x128) ![0, 0] S128x128.size inb).emb (ix2 q k) a : ℕ) = _
  rw [Rect.emb_apply]
  match a with
  | ⟨0, _⟩ => exact (by omega : 0 + 1 * q.val = q.val)
  | ⟨1, _⟩ => exact (by omega : 0 + 1 * k.val = k.val)

/-- per-head coefficients, -/
theorem ld_whole_a (arg : Memref sig .tc .vmem S4x1 .f32) (harg : arg.IsWhole) (x : Vec Ideal S4x1 .f32) (inb)
    (h : Fin 4) (z : Fin 1) :
    View.readAt (Elt Ideal) arg.view (Rect.unit (s := S4x1) ![0, 0] S4x1.size inb).toLoadRect (harg.unread x) (ix2 h z)
      = x (ix2 h z) := by
  rw [View.readAt_eq_ld, harg.read_unread]
  refine congrArg x (funext fun a => Fin.ext ?_)
  show ((Rect.unit (s := S4x1) ![0, 0] S4x1.size inb).emb (ix2 h z) a : ℕ) = _
  rw [Rect.emb_apply]
  match a with
  | ⟨0, _⟩ => exact (by omega : 0 + 1 * h.val = h.val)
  | ⟨1, _⟩ => exact (by omega : 0 + 1 * z.val = z.val)

/-- the block of edge features, -/
theorem ld_whole_ef (arg : Memref sig .tc .vmem S64x512x128 .f32) (harg : arg.IsWhole) (x : Vec Ideal S64x512x128 .f32) (inb)
    (r : Fin 64) (t : Fin 512) (k : Fin 128) :
    View.readAt (Elt Ideal) arg.view (Rect.unit (s := S64x512x128) ![0, 0, 0] S64x512x128.size inb).toLoadRect (harg.unread x) (ix3 r t k)
      = x (ix3 r t k) := by
  rw [View.readAt_eq_ld, harg.read_unread]
  refine congrArg x (funext fun a => Fin.ext ?_)
  show ((Rect.unit (s := S64x512x128) ![0, 0, 0] S64x512x128.size inb).emb (ix3 r t k) a : ℕ) = _
  rw [Rect.emb_apply]
  match a with
  | ⟨0, _⟩ => exact (by omega : 0 + 1 * r.val = r.val)
  | ⟨1, _⟩ => exact (by omega : 0 + 1 * t.val = t.val)
  | ⟨2, _⟩ => exact (by omega : 0 + 1 * k.val = k.val)

/-- and, at grid coordinate 0, the first 64 rows of the adjacency. -/
theorem ld_adj_rows (arg : Memref sig .tc .vmem S512x512 .i32) (harg : arg.IsWhole) (x : Vec Ideal S512x512 .i32)
    (n : ℕ) (hn : n = 0) (inb) (r : Fin 64) (t : Fin 512) :
    View.readAt (Elt Ideal) arg.view (Rect.unit (s := S512x512)
        ![BitVec.toNat (Scalar.indexCast (Scalar.muli (BitVec.ofNat 32 n) 64#32)), 0] S64x512.size inb).toLoadRect (harg.unread x) (ix2 r t)
      = x (ix2 (State.rowOf 0 r) t) := by
  rw [View.readAt_eq_ld, harg.read_unread]
  refine congrArg x (funext fun a => Fin.ext ?_)
  show ((Rect.unit (s := S512x512) ![BitVec.toNat (Scalar.indexCast (Scalar.muli (BitVec.ofNat 32 n) 64#32)), 0] S64x512.size inb).emb (ix2 r t) a : ℕ) = _
  rw [Rect.emb_apply]
  match a with
  | ⟨0, _⟩ =>
    show BitVec.toNat (Scalar.indexCast (Scalar.muli (BitVec.ofNat 32 n) 64#32)) + 1 * r.val = 64 * 0 + r.val
    rw [rowOff_zero n hn]; omega
  | ⟨1, _⟩ => exact (by omega : 0 + 1 * t.val = t.val)

/-- Row r of the block at grid coordinate 0 is source row r. -/
theorem row_first (n : ℕ) (hn : n = 0) (r : ℕ) :
    BitVec.toNat (Scalar.indexCast (Scalar.muli (BitVec.ofNat 32 n) 64#32)) + 1 * r = 64 * 0 + r := by
  rw [rowOff_zero n hn]; omega

/-! ## The numerator's factors -/

/-- The projected-feature buffer at (b, p, q). -/
theorem h1Fun_at (x3 : Vec Ideal S512x2x128 .f32) (x8 : Vec Ideal S128x128 .f32) (A : State.Args)
    (h3 : ∀ (p : Fin 512) (b : Fin 2) (k : Fin 128), x3 (ix3 p b k) = A.x (ix3 p b k))
    (h8 : ∀ q k : Fin 128, x8 (ix2 q k) = A.w1n (ix2 q k))
    (j : S2x512x128.Idx) (b : Fin 2) (p : Fin 512) (q : Fin 128)
    (e0 : (j 0).val = b.val) (e1 : (j 1).val = p.val) (e2 : (j 2).val = q.val) :
    h1Fun x3 x8 j = State.h1 A b p q := by
  obtain ⟨b', p', q', rfl⟩ : ∃ (b' : Fin 2) (p' : Fin 512) (q' : Fin 128), j = ix3 b' p' q' := ⟨j 0, j 1, j 2, eq_ix3 j⟩
  have hb : b' = b := Fin.ext e0
  have hp : p' = p := Fin.ext e1
  have hq : q' = q := Fin.ext e2
  subst hb hp hq
  unfold h1Fun State.h1
  exact Finset.sum_congr rfl fun k _ => by rw [← h3, ← h8]

/-- Block 0 alone: the numerator's partial sum over the sources below 64. -/
theorem num1_one (A : State.Args) (b : Fin 2) (t : Fin 512) (q : Fin 128) :
    (0 : EReal) + ∑ r : Fin 64, State.p1 A b (headOf q) (State.rowOf 0 r) t * State.h1 A b (State.rowOf 0 r) q
      = State.num1 A 1 b t q := by
  unfold State.num1
  have e := State.sum_next_block (fun s => State.p1 A b (headOf q) s t * State.h1 A b s q) (0 : Fin 8)
  have z : (∑ s : Fin 512, if s.val < 64 * (0 : Fin 8).val then State.p1 A b (headOf q) s t * State.h1 A b s q else 0) = 0 :=
    Finset.sum_eq_zero fun s _ => if_neg (by show ¬ s.val < 64 * 0; omega)
  rw [z] at e
  exact e.symm

/-- Slice 1's masked product at (t, q), given the leaf fact: the block's rows of q's head against the block's features. -/
theorem num_block1 (hleaf : NumLeaf) (es : FVec Ideal S4x64x512 .f32) (mask : FVec Ideal S64x512 .f32)
    (a0 a1 a2 a3 : Vec Ideal S64x1 .f32) (b0 b1 b2 b3 : Vec Ideal S1x512 .f32) (V : FVec Ideal S64x128 .f32)
    (A : State.Args) (bb : Fin 2)
    (hfac : ∀ (h : Fin 4) (r : Fin 64) (t : Fin 512),
      pEntry es mask (match h with | ⟨0, _⟩ => a0 | ⟨1, _⟩ => a1 | ⟨2, _⟩ => a2 | ⟨3, _⟩ => a3) (match h with | ⟨0, _⟩ => b0 | ⟨1, _⟩ => b1 | ⟨2, _⟩ => b2 | ⟨3, _⟩ => b3) h r t = State.p1 A bb h (State.rowOf 0 r) t)
    (hV : ∀ (r : Fin 64) (q : Fin 128), V (ix2 r q) = State.h1 A bb (State.rowOf 0 r) q)
    (hpfin : ∀ (b : Fin 2) (h : Fin 4) (s t : Fin 512), ∃ r : ℝ, State.p1 A b h s t = (r : EReal))
    (hhfin : ∀ (b : Fin 2) (p : Fin 512) (q : Fin 128), ∃ r : ℝ, State.h1 A b p q = (r : EReal))
    (t : Fin 512) (q : Fin 128) :
    k0_pay86 (F := Ideal) (k0_pay80 es mask (k0_pay77 mask (k0_pay75 a0 b0) (k0_pay76 es)) (k0_pay78 es mask a1 b1) (k0_pay79 es mask a2 b2) a3 b3)
        (k0_pay82 V) (iota .tc S256x128 32 [1] iota_S256x128_d1_w32) k0_pay83 k0_pay84 k0_pay85 0#32 (ix2 t q)
      = ∑ r : Fin 64, State.p1 A bb (headOf q) (State.rowOf 0 r) t * State.h1 A bb (State.rowOf 0 r) q := by
  have hrow : ∀ (h : Fin 4) (r : Fin 64) (t : Fin 512),
      k0_pay80 (F := Ideal) es mask (k0_pay77 mask (k0_pay75 a0 b0) (k0_pay76 es)) (k0_pay78 es mask a1 b1) (k0_pay79 es mask a2 b2) a3 b3
          (ix2 (⟨64 * h.val + r.val, by have := h.isLt; have := r.isLt; omega⟩ : Fin 256) t)
        = State.p1 A bb h (State.rowOf 0 r) t :=
    fun h r t => (stack1_row es mask a0 a1 a2 a3 b0 b1 b2 b3 h r t).trans (hfac h r t)
  rw [hleaf _ V (rows_fin _ _ hrow (fun h r t => hpfin bb h _ t)) (fun r q => by rw [hV]; exact hhfin bb _ q) t q]
  exact Finset.sum_congr rfl fun r _ => by rw [hrow, hV]

/-- Slice 0's likewise, in its own spelling. -/
theorem num_block0 (hleaf : NumLeaf) (es : FVec Ideal S4x64x512 .f32) (adj : Vec Ideal S64x512 .i32)
    (a0 a1 a2 a3 : Vec Ideal S64x1 .f32) (b0 b1 b2 b3 : Vec Ideal S1x512 .f32) (V : FVec Ideal S64x128 .f32)
    (A : State.Args) (bb : Fin 2)
    (hfac : ∀ (h : Fin 4) (r : Fin 64) (t : Fin 512),
      pEntry es (k0_pay61 adj) (match h with | ⟨0, _⟩ => a0 | ⟨1, _⟩ => a1 | ⟨2, _⟩ => a2 | ⟨3, _⟩ => a3) (match h with | ⟨0, _⟩ => b0 | ⟨1, _⟩ => b1 | ⟨2, _⟩ => b2 | ⟨3, _⟩ => b3) h r t = State.p1 A bb h (State.rowOf 0 r) t)
    (hV : ∀ (r : Fin 64) (q : Fin 128), V (ix2 r q) = State.h1 A bb (State.rowOf 0 r) q)
    (hpfin : ∀ (b : Fin 2) (h : Fin 4) (s t : Fin 512), ∃ r : ℝ, State.p1 A b h s t = (r : EReal))
    (hhfin : ∀ (b : Fin 2) (p : Fin 512) (q : Fin 128), ∃ r : ℝ, State.h1 A b p q = (r : EReal))
    (t : Fin 512) (q : Fin 128) :
    k0_pay86 (F := Ideal) (k0_pay65 es (k0_pay61 adj) (k0_pay63 es adj a0 b0) (k0_pay64 es a1 b1) a2 b2 a3 b3)
        (k0_pay68 V) (iota .tc S256x128 32 [1] iota_S256x128_d1_w32) k0_pay83 k0_pay84 k0_pay85 0#32 (ix2 t q)
      = ∑ r : Fin 64, State.p1 A bb (headOf q) (State.rowOf 0 r) t * State.h1 A bb (State.rowOf 0 r) q := by
  have hrow : ∀ (h : Fin 4) (r : Fin 64) (t : Fin 512),
      k0_pay65 (F := Ideal) es (k0_pay61 adj) (k0_pay63 es adj a0 b0) (k0_pay64 es a1 b1) a2 b2 a3 b3
          (ix2 (⟨64 * h.val + r.val, by have := h.isLt; have := r.isLt; omega⟩ : Fin 256) t)
        = State.p1 A bb h (State.rowOf 0 r) t :=
    fun h r t => (stack0_row es adj a0 a1 a2 a3 b0 b1 b2 b3 h r t).trans (hfac h r t)
  rw [pay68_eq, hleaf _ V (rows_fin _ _ hrow (fun h r t => hpfin bb h _ t)) (fun r q => by rw [hV]; exact hhfin bb _ q) t q]
  exact Finset.sum_congr rfl fun r _ => by rw [hrow, hV]

set_option maxHeartbeats 16000000 in
/-- The denominator accumulator after the first point: row 4 b + h, column t holds the sum over the sources below 64 of
    head h's masked exponential in batch slice b. -/
theorem den_first (c : Dev nD) (i : grid0.Coords) (arg1 : Memref sig .tc .vmem S64x512x128 .f32) (harg1 : arg1.IsWhole) (arg2 : Memref sig .tc .vmem S512x512 .i32) (harg2 : arg2.IsWhole) (arg3 : Memref sig .tc .vmem S512x2x128 .f32) (harg3 : arg3.IsWhole) (arg4 : Memref sig .tc .vmem S128x128 .f32) (harg4 : arg4.IsWhole) (arg5 : Memref sig .tc .vmem S128x128 .f32) (harg5 : arg5.IsWhole) (arg6 : Memref sig .tc .vmem S4x1 .f32) (harg6 : arg6.IsWhole) (arg7 : Memref sig .tc .vmem S4x1 .f32) (harg7 : arg7.IsWhole) (arg8 : Memref sig .tc .vmem S128x128 .f32) (harg8 : arg8.IsWhole) (arg9 : Memref sig .tc .vmem S4x32 .f32) (harg9 : arg9.IsWhole) (arg10 : Memref sig .tc .vmem S4x32 .f32) (harg10 : arg10.IsWhole) (arg11 : Memref sig .tc .vmem S128x128 .f32) (harg11 : arg11.IsWhole) (arg12 : Memref sig .tc .vmem S4x32 .f32) (harg12 : arg12.IsWhole) (arg13 : Memref sig .tc .vmem S4x32 .f32) (harg13 : arg13.IsWhole) (arg14 : Memref sig .tc .vmem S512x2x128 .f32) (harg14 : arg14.IsWhole) (arg15 : Memref sig .tc .vmem S4x512x512 .f32) (harg15 : arg15.IsWhole) (arg16 : Memref sig .tc .vmem S2x512x128 .f32) (harg16 : arg16.IsWhole) (arg17 : Memref sig .tc .vmem S512x8 .f32) (harg17 : arg17.IsWhole) (arg18 : Memref sig .tc .vmem S8x512 .f32) (harg18 : arg18.IsWhole) (arg19 : Memref sig .tc .vmem S2x512x128 .f32) (harg19 : arg19.IsWhole) (arg20 : Memref sig .tc .vmem S8x512 .f32) (harg20 : arg20.IsWhole) (hc0 : isFirst i) (hc1 : ¬isLast i)
    (x1 : Vec Ideal S64x512x128 .f32) (x2 : Vec Ideal S512x512 .i32) (x3 : Vec Ideal S512x2x128 .f32) (x4 : Vec Ideal S128x128 .f32) (x5 : Vec Ideal S128x128 .f32) (x6 : Vec Ideal S4x1 .f32) (x7 : Vec Ideal S4x1 .f32) (x8 : Vec Ideal S128x128 .f32) (x9 : Vec Ideal S4x32 .f32) (x10 : Vec Ideal S4x32 .f32) (x11 : Vec Ideal S128x128 .f32) (x12 : Vec Ideal S4x32 .f32) (x13 : Vec Ideal S4x32 .f32) (y15 : Vec Ideal S4x512x512 .f32)
    (A : State.Args) (hi0 : (i 0).val = 0)
    (h1 : ∀ (r : Fin 64) (t : Fin 512) (k : Fin 128), x1 (ix3 r t k) = A.ef (ix3 (State.rowOf 0 r) t k))
    (h2 : ∀ (s t : Fin 512), x2 (ix2 s t) = A.adj (ix2 s t))
    (h3 : ∀ (p : Fin 512) (b : Fin 2) (k : Fin 128), x3 (ix3 p b k) = A.x (ix3 p b k))
    (h4 : ∀ q k : Fin 128, x4 (ix2 q k) = A.w1e (ix2 q k))
    (h6 : ∀ h : Fin 4, x6 (ix2 h (0 : Fin 1)) = A.ae1 (ix2 h (0 : Fin 1)))
    (h8 : ∀ q k : Fin 128, x8 (ix2 q k) = A.w1n (ix2 q k))
    (h9 : ∀ (h : Fin 4) (d : Fin 32), x9 (ix2 h d) = A.as1 (ix2 h d))
    (h10 : ∀ (h : Fin 4) (d : Fin 32), x10 (ix2 h d) = A.at1 (ix2 h d))
    (hfin : ∀ q k : Fin 128, ∃ r : ℝ, A.w1e (ix2 q k) = (r : EReal))
    (b : Fin 2) (h : Fin 4) (t : Fin 512) :
    View.canon (namedA (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 hc1 x1 x2 x3 x4 x5 x6 x7 x8 x9 x10 x11 x12 x13 y15).2.2.2.2.2.1
        (ix2 (⟨4 * b.val + h.val, by have := b.isLt; have := h.isLt; omega⟩ : Fin 8) t)
      = State.den1 A 1 b h t := by
  have H17 := ss1_first c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 hc1 x1 x2 x3 x4 x5 x6 x7 x8 x9 x10 x11 x12 x13 y15
  have H18 := st1_first c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 hc1 x1 x2 x3 x4 x5 x6 x7 x8 x9 x10 x11 x12 x13 y15
  unfold namedA
  dsimp only
  sl_unfold_words
  simp only [View.readAt_writes_junk_eq_canon, View.readCov_eq_canon']
  match b with
  | ⟨1, _⟩ =>
    have e : (ix2 (⟨4 * 1 + h.val, by have := h.isLt; omega⟩ : Fin 8) t : S8x512.Idx)
        = (Rect.unit (s := S8x512) ![4, 0] S4x512.size inb_S8x512_S4x512_4_0).emb (ix2 h t) := funext fun a => Fin.ext (by
      rw [Rect.emb_apply]
      match a with
      | ⟨0, _⟩ => exact (by omega : 4 * 1 + h.val = 4 + 1 * h.val)
      | ⟨1, _⟩ => exact (by omega : t.val = 0 + 1 * t.val))
    refine (congrArg (View.canon _) e).trans ?_
    refine (View.canon_cons_emb _ _ _ _).trans ?_
    refine (den1_apply _ _ _ _ _ _ _ _ _ _ _ h t).trans ?_
    refine (congr (congrArg HAdd.hAdd (?_ : _ = (0 : EReal))) (Finset.sum_congr rfl fun r _ =>
      (?_ : _ = State.p1 A ⟨1, by decide⟩ h (State.rowOf 0 r) t))).trans (den1_one A _ h t)
    · refine (canon_cons_unit_off _ _ _ _ (⟨0, by decide⟩ : Fin S8x512.rank) (Or.inr ?_)).trans ?_
      · show 0 + 4 ≤ 4 + 1 * h.val
        omega
      · rw [View.canon_unit_zero (funext fun a => by match a with | ⟨0, _⟩ => rfl | ⟨1, _⟩ => rfl)]
        exact pay55_apply _
    · refine pEntry_eq_p1 _ _ _ _ A _ h 0 r t ?_ ?_ ?_ ?_
      · exact mask_payload _ A 0 (fun r t => (ld_adj_rows arg2 harg2 x2 _ hi0 _ r t).trans (h2 _ _)) r t
      · match h with
        | ⟨0, _⟩ => exact (H17 _).trans (ss1Fun_at x3 x8 x9 A A.as1 h3 h8 h9 _ _ _ _ (row_first _ hi0 _) rfl)
        | ⟨1, _⟩ => exact (H17 _).trans (ss1Fun_at x3 x8 x9 A A.as1 h3 h8 h9 _ _ _ _ (row_first _ hi0 _) rfl)
        | ⟨2, _⟩ => exact (H17 _).trans (ss1Fun_at x3 x8 x9 A A.as1 h3 h8 h9 _ _ _ _ (row_first _ hi0 _) rfl)
        | ⟨3, _⟩ => exact (H17 _).trans (ss1Fun_at x3 x8 x9 A A.as1 h3 h8 h9 _ _ _ _ (row_first _ hi0 _) rfl)
      · match h with
        | ⟨0, _⟩ => exact (H18 _).trans (st1Fun_at x3 x8 x10 A A.at1 h3 h8 h10 _ _ _ _ rfl (by show 0 + 1 * t.val = t.val; omega))
        | ⟨1, _⟩ => exact (H18 _).trans (st1Fun_at x3 x8 x10 A A.at1 h3 h8 h10 _ _ _ _ rfl (by show 0 + 1 * t.val = t.val; omega))
        | ⟨2, _⟩ => exact (H18 _).trans (st1Fun_at x3 x8 x10 A A.at1 h3 h8 h10 _ _ _ _ rfl (by show 0 + 1 * t.val = t.val; omega))
        | ⟨3, _⟩ => exact (H18 _).trans (st1Fun_at x3 x8 x10 A A.at1 h3 h8 h10 _ _ _ _ rfl (by show 0 + 1 * t.val = t.val; omega))
      · exact es1_payload _ _ _ _ _ A 0 (fun r t k => (ld_whole_ef arg1 harg1 x1 _ r t k).trans (h1 r t k))
          (fun q k => (ld_whole_w arg4 harg4 x4 _ q k).trans (h4 q k))
          (fun h => (ld_whole_a arg6 harg6 x6 _ h (0 : Fin 1)).trans (h6 h)) hfin h r t
  | ⟨0, _⟩ =>
    have e : (ix2 (⟨4 * 0 + h.val, by have := h.isLt; omega⟩ : Fin 8) t : S8x512.Idx)
        = (Rect.unit (s := S8x512) ![0, 0] S4x512.size inb_S8x512_S4x512_0_0).emb (ix2 h t) := funext fun a => Fin.ext (by
      rw [Rect.emb_apply]
      match a with
      | ⟨0, _⟩ => exact (by omega : 4 * 0 + h.val = 0 + 1 * h.val)
      | ⟨1, _⟩ => exact (by omega : t.val = 0 + 1 * t.val))
    refine (canon_cons_unit_off _ _ _ _ (⟨0, by decide⟩ : Fin S8x512.rank) (Or.inl ?_)).trans ?_
    · show 4 * 0 + h.val < 4
      have := h.isLt; omega
    refine (congrArg (View.canon _) e).trans ?_
    refine (View.canon_cons_emb _ _ _ _).trans ?_
    refine (den0_apply _ _ _ _ _ _ _ _ _ _ _ h t).trans ?_
    refine (congr (congrArg HAdd.hAdd (?_ : _ = (0 : EReal))) (Finset.sum_congr rfl fun r _ =>
      (?_ : _ = State.p1 A ⟨0, by decide⟩ h (State.rowOf 0 r) t))).trans (den1_one A _ h t)
    · rw [View.canon_unit_zero (funext fun a => by match a with | ⟨0, _⟩ => rfl | ⟨1, _⟩ => rfl)]
      exact pay55_apply _
    · refine pEntry_eq_p1 _ _ _ _ A _ h 0 r t ?_ ?_ ?_ ?_
      · exact mask_payload _ A 0 (fun r t => (ld_adj_rows arg2 harg2 x2 _ hi0 _ r t).trans (h2 _ _)) r t
      · match h with
        | ⟨0, _⟩ => exact (H17 _).trans (ss1Fun_at x3 x8 x9 A A.as1 h3 h8 h9 _ _ _ _ (row_first _ hi0 _) rfl)
        | ⟨1, _⟩ => exact (H17 _).trans (ss1Fun_at x3 x8 x9 A A.as1 h3 h8 h9 _ _ _ _ (row_first _ hi0 _) rfl)
        | ⟨2, _⟩ => exact (H17 _).trans (ss1Fun_at x3 x8 x9 A A.as1 h3 h8 h9 _ _ _ _ (row_first _ hi0 _) rfl)
        | ⟨3, _⟩ => exact (H17 _).trans (ss1Fun_at x3 x8 x9 A A.as1 h3 h8 h9 _ _ _ _ (row_first _ hi0 _) rfl)
      · match h with
        | ⟨0, _⟩ => exact (H18 _).trans (st1Fun_at x3 x8 x10 A A.at1 h3 h8 h10 _ _ _ _ rfl (by show 0 + 1 * t.val = t.val; omega))
        | ⟨1, _⟩ => exact (H18 _).trans (st1Fun_at x3 x8 x10 A A.at1 h3 h8 h10 _ _ _ _ rfl (by show 0 + 1 * t.val = t.val; omega))
        | ⟨2, _⟩ => exact (H18 _).trans (st1Fun_at x3 x8 x10 A A.at1 h3 h8 h10 _ _ _ _ rfl (by show 0 + 1 * t.val = t.val; omega))
        | ⟨3, _⟩ => exact (H18 _).trans (st1Fun_at x3 x8 x10 A A.at1 h3 h8 h10 _ _ _ _ rfl (by show 0 + 1 * t.val = t.val; omega))
      · exact es1_payload _ _ _ _ _ A 0 (fun r t k => (ld_whole_ef arg1 harg1 x1 _ r t k).trans (h1 r t k))
          (fun q k => (ld_whole_w arg4 harg4 x4 _ q k).trans (h4 q k))
          (fun h => (ld_whole_a arg6 harg6 x6 _ h (0 : Fin 1)).trans (h6 h)) hfin h r t

set_option maxHeartbeats 16000000 in
/-- The numerator accumulator after the first point, given the leaf fact about the masked product and the finiteness
    of the masked exponentials and of the projected features: entry (b, t, q) holds the sum over the sources below 64
    of the masked exponential of q's head times the source's projected feature q. -/
theorem num_first (c : Dev nD) (i : grid0.Coords) (arg1 : Memref sig .tc .vmem S64x512x128 .f32) (harg1 : arg1.IsWhole) (arg2 : Memref sig .tc .vmem S512x512 .i32) (harg2 : arg2.IsWhole) (arg3 : Memref sig .tc .vmem S512x2x128 .f32) (harg3 : arg3.IsWhole) (arg4 : Memref sig .tc .vmem S128x128 .f32) (harg4 : arg4.IsWhole) (arg5 : Memref sig .tc .vmem S128x128 .f32) (harg5 : arg5.IsWhole) (arg6 : Memref sig .tc .vmem S4x1 .f32) (harg6 : arg6.IsWhole) (arg7 : Memref sig .tc .vmem S4x1 .f32) (harg7 : arg7.IsWhole) (arg8 : Memref sig .tc .vmem S128x128 .f32) (harg8 : arg8.IsWhole) (arg9 : Memref sig .tc .vmem S4x32 .f32) (harg9 : arg9.IsWhole) (arg10 : Memref sig .tc .vmem S4x32 .f32) (harg10 : arg10.IsWhole) (arg11 : Memref sig .tc .vmem S128x128 .f32) (harg11 : arg11.IsWhole) (arg12 : Memref sig .tc .vmem S4x32 .f32) (harg12 : arg12.IsWhole) (arg13 : Memref sig .tc .vmem S4x32 .f32) (harg13 : arg13.IsWhole) (arg14 : Memref sig .tc .vmem S512x2x128 .f32) (harg14 : arg14.IsWhole) (arg15 : Memref sig .tc .vmem S4x512x512 .f32) (harg15 : arg15.IsWhole) (arg16 : Memref sig .tc .vmem S2x512x128 .f32) (harg16 : arg16.IsWhole) (arg17 : Memref sig .tc .vmem S512x8 .f32) (harg17 : arg17.IsWhole) (arg18 : Memref sig .tc .vmem S8x512 .f32) (harg18 : arg18.IsWhole) (arg19 : Memref sig .tc .vmem S2x512x128 .f32) (harg19 : arg19.IsWhole) (arg20 : Memref sig .tc .vmem S8x512 .f32) (harg20 : arg20.IsWhole) (hc0 : isFirst i) (hc1 : ¬isLast i)
    (x1 : Vec Ideal S64x512x128 .f32) (x2 : Vec Ideal S512x512 .i32) (x3 : Vec Ideal S512x2x128 .f32) (x4 : Vec Ideal S128x128 .f32) (x5 : Vec Ideal S128x128 .f32) (x6 : Vec Ideal S4x1 .f32) (x7 : Vec Ideal S4x1 .f32) (x8 : Vec Ideal S128x128 .f32) (x9 : Vec Ideal S4x32 .f32) (x10 : Vec Ideal S4x32 .f32) (x11 : Vec Ideal S128x128 .f32) (x12 : Vec Ideal S4x32 .f32) (x13 : Vec Ideal S4x32 .f32) (y15 : Vec Ideal S4x512x512 .f32)
    (A : State.Args) (hi0 : (i 0).val = 0)
    (h1 : ∀ (r : Fin 64) (t : Fin 512) (k : Fin 128), x1 (ix3 r t k) = A.ef (ix3 (State.rowOf 0 r) t k))
    (h2 : ∀ (s t : Fin 512), x2 (ix2 s t) = A.adj (ix2 s t))
    (h3 : ∀ (p : Fin 512) (b : Fin 2) (k : Fin 128), x3 (ix3 p b k) = A.x (ix3 p b k))
    (h4 : ∀ q k : Fin 128, x4 (ix2 q k) = A.w1e (ix2 q k))
    (h6 : ∀ h : Fin 4, x6 (ix2 h (0 : Fin 1)) = A.ae1 (ix2 h (0 : Fin 1)))
    (h8 : ∀ q k : Fin 128, x8 (ix2 q k) = A.w1n (ix2 q k))
    (h9 : ∀ (h : Fin 4) (d : Fin 32), x9 (ix2 h d) = A.as1 (ix2 h d))
    (h10 : ∀ (h : Fin 4) (d : Fin 32), x10 (ix2 h d) = A.at1 (ix2 h d))
    (hfin : ∀ q k : Fin 128, ∃ r : ℝ, A.w1e (ix2 q k) = (r : EReal))
    (hpfin : ∀ (b : Fin 2) (h : Fin 4) (s t : Fin 512), ∃ r : ℝ, State.p1 A b h s t = (r : EReal))
    (hhfin : ∀ (b : Fin 2) (p : Fin 512) (q : Fin 128), ∃ r : ℝ, State.h1 A b p q = (r : EReal))
    (hleaf : NumLeaf)
    (b : Fin 2) (t : Fin 512) (q : Fin 128) :
    View.canon (namedA (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 hc1 x1 x2 x3 x4 x5 x6 x7 x8 x9 x10 x11 x12 x13 y15).2.2.2.2.1 (ix3 b t q)
      = State.num1 A 1 b t q := by
  have H16 := h1_first c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 hc1 x1 x2 x3 x4 x5 x6 x7 x8 x9 x10 x11 x12 x13 y15
  have H17 := ss1_first c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 hc1 x1 x2 x3 x4 x5 x6 x7 x8 x9 x10 x11 x12 x13 y15
  have H18 := st1_first c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 hc1 x1 x2 x3 x4 x5 x6 x7 x8 x9 x10 x11 x12 x13 y15
  unfold namedA
  dsimp only
  sl_unfold_words
  simp only [View.readAt_writes_junk_eq_canon, View.readCov_eq_canon']
  match b with
  | ⟨1, _⟩ =>
    have e : (ix3 (⟨1, by decide⟩ : Fin 2) t q : S2x512x128.Idx)
        = (Rect.unit (s := S2x512x128) ![1, 0, 0] S1x512x128.size inb_S2x512x128_S1x512x128_1_0_0).emb (ix3 (0 : Fin 1) t q) :=
      funext fun a => Fin.ext (by
        rw [Rect.emb_apply]
        match a with
        | ⟨0, _⟩ => exact (by omega : 1 = 1 + 1 * 0)
        | ⟨1, _⟩ => exact (by omega : t.val = 0 + 1 * t.val)
        | ⟨2, _⟩ => exact (by omega : q.val = 0 + 1 * q.val))
    refine (congrArg (View.canon _) e).trans ?_
    refine (View.canon_cons_emb _ _ _ _).trans ?_
    refine (pay1_apply _ _ _ t q).trans ?_
    refine (congr (congrArg HAdd.hAdd (?_ : _ = (0 : EReal)))
      (num_block1 hleaf _ _ _ _ _ _ _ _ _ _ _ A ⟨1, by decide⟩ ?_ ?_ hpfin hhfin t q)).trans (num1_one A _ t q)
    · refine (canon_cons_unit_off _ _ _ _ (⟨0, by decide⟩ : Fin S2x512x128.rank) (Or.inr ?_)).trans ?_
      · show 0 + 1 ≤ 1 + 1 * 0
        omega
      · exact (View.canon_cons_emb _ _ _ _).trans (pay54_apply _)
    · intro h r t
      refine pEntry_eq_p1 _ _ _ _ A _ h 0 r t ?_ ?_ ?_ ?_
      · exact mask_payload _ A 0 (fun r t => (ld_adj_rows arg2 harg2 x2 _ hi0 _ r t).trans (h2 _ _)) r t
      · match h with
        | ⟨0, _⟩ => exact (H17 _).trans (ss1Fun_at x3 x8 x9 A A.as1 h3 h8 h9 _ _ _ _ (row_first _ hi0 _) rfl)
        | ⟨1, _⟩ => exact (H17 _).trans (ss1Fun_at x3 x8 x9 A A.as1 h3 h8 h9 _ _ _ _ (row_first _ hi0 _) rfl)
        | ⟨2, _⟩ => exact (H17 _).trans (ss1Fun_at x3 x8 x9 A A.as1 h3 h8 h9 _ _ _ _ (row_first _ hi0 _) rfl)
        | ⟨3, _⟩ => exact (H17 _).trans (ss1Fun_at x3 x8 x9 A A.as1 h3 h8 h9 _ _ _ _ (row_first _ hi0 _) rfl)
      · match h with
        | ⟨0, _⟩ => exact (H18 _).trans (st1Fun_at x3 x8 x10 A A.at1 h3 h8 h10 _ _ _ _ rfl (by show 0 + 1 * t.val = t.val; omega))
        | ⟨1, _⟩ => exact (H18 _).trans (st1Fun_at x3 x8 x10 A A.at1 h3 h8 h10 _ _ _ _ rfl (by show 0 + 1 * t.val = t.val; omega))
        | ⟨2, _⟩ => exact (H18 _).trans (st1Fun_at x3 x8 x10 A A.at1 h3 h8 h10 _ _ _ _ rfl (by show 0 + 1 * t.val = t.val; omega))
        | ⟨3, _⟩ => exact (H18 _).trans (st1Fun_at x3 x8 x10 A A.at1 h3 h8 h10 _ _ _ _ rfl (by show 0 + 1 * t.val = t.val; omega))
      · exact es1_payload _ _ _ _ _ A 0 (fun r t k => (ld_whole_ef arg1 harg1 x1 _ r t k).trans (h1 r t k))
          (fun q k => (ld_whole_w arg4 harg4 x4 _ q k).trans (h4 q k))
          (fun h => (ld_whole_a arg6 harg6 x6 _ h (0 : Fin 1)).trans (h6 h)) hfin h r t
    · intro r q
      refine (pay74_apply _ r q).trans ?_
      exact (H16 _).trans (h1Fun_at x3 x8 A h3 h8 _ _ _ _ rfl (row_first _ hi0 _) (by show 0 + 1 * q.val = q.val; omega))
  | ⟨0, _⟩ =>
    have e : (ix3 (⟨0, by decide⟩ : Fin 2) t q : S2x512x128.Idx)
        = (Rect.unit (s := S2x512x128) ![0, 0, 0] S1x512x128.size inb_S2x512x128_S1x512x128_0_0_0).emb (ix3 (0 : Fin 1) t q) :=
      funext fun a => Fin.ext (by
        rw [Rect.emb_apply]
        match a with
        | ⟨0, _⟩ => exact (by omega : 0 = 0 + 1 * 0)
        | ⟨1, _⟩ => exact (by omega : t.val = 0 + 1 * t.val)
        | ⟨2, _⟩ => exact (by omega : q.val = 0 + 1 * q.val))
    refine (canon_cons_unit_off _ _ _ _ (⟨0, by decide⟩ : Fin S2x512x128.rank) (Or.inl ?_)).trans ?_
    · show 0 < 1
      omega
    refine (congrArg (View.canon _) e).trans ?_
    refine (View.canon_cons_emb _ _ _ _).trans ?_
    refine (congrFun (pay73_eq _ _ _) _).trans ?_
    refine (pay1_apply _ _ _ t q).trans ?_
    refine (congr (congrArg HAdd.hAdd (?_ : _ = (0 : EReal)))
      (num_block0 hleaf _ _ _ _ _ _ _ _ _ _ _ A ⟨0, by decide⟩ ?_ ?_ hpfin hhfin t q)).trans (num1_one A _ t q)
    · refine (canon_cons_unit_off _ _ _ _ (⟨0, by decide⟩ : Fin S2x512x128.rank) (Or.inl ?_)).trans ?_
      · show 0 + 1 * 0 < 1
        omega
      · exact (View.canon_cons_emb _ _ _ _).trans (pay9_apply _)
    · intro h r t
      refine pEntry_eq_p1 _ _ _ _ A _ h 0 r t ?_ ?_ ?_ ?_
      · exact mask_payload _ A 0 (fun r t => (ld_adj_rows arg2 harg2 x2 _ hi0 _ r t).trans (h2 _ _)) r t
      · match h with
        | ⟨0, _⟩ => exact (H17 _).trans (ss1Fun_at x3 x8 x9 A A.as1 h3 h8 h9 _ _ _ _ (row_first _ hi0 _) rfl)
        | ⟨1, _⟩ => exact (H17 _).trans (ss1Fun_at x3 x8 x9 A A.as1 h3 h8 h9 _ _ _ _ (row_first _ hi0 _) rfl)
        | ⟨2, _⟩ => exact (H17 _).trans (ss1Fun_at x3 x8 x9 A A.as1 h3 h8 h9 _ _ _ _ (row_first _ hi0 _) rfl)
        | ⟨3, _⟩ => exact (H17 _).trans (ss1Fun_at x3 x8 x9 A A.as1 h3 h8 h9 _ _ _ _ (row_first _ hi0 _) rfl)
      · match h with
        | ⟨0, _⟩ => exact (H18 _).trans (st1Fun_at x3 x8 x10 A A.at1 h3 h8 h10 _ _ _ _ rfl (by show 0 + 1 * t.val = t.val; omega))
        | ⟨1, _⟩ => exact (H18 _).trans (st1Fun_at x3 x8 x10 A A.at1 h3 h8 h10 _ _ _ _ rfl (by show 0 + 1 * t.val = t.val; omega))
        | ⟨2, _⟩ => exact (H18 _).trans (st1Fun_at x3 x8 x10 A A.at1 h3 h8 h10 _ _ _ _ rfl (by show 0 + 1 * t.val = t.val; omega))
        | ⟨3, _⟩ => exact (H18 _).trans (st1Fun_at x3 x8 x10 A A.at1 h3 h8 h10 _ _ _ _ rfl (by show 0 + 1 * t.val = t.val; omega))
      · exact es1_payload _ _ _ _ _ A 0 (fun r t k => (ld_whole_ef arg1 harg1 x1 _ r t k).trans (h1 r t k))
          (fun q k => (ld_whole_w arg4 harg4 x4 _ q k).trans (h4 q k))
          (fun h => (ld_whole_a arg6 harg6 x6 _ h (0 : Fin 1)).trans (h6 h)) hfin h r t
    · intro r q
      refine (pay62_apply _ r q).trans ?_
      exact (H16 _).trans (h1Fun_at x3 x8 A h3 h8 _ _ _ _ rfl (row_first _ hi0 _) (by show 0 + 1 * q.val = q.val; omega))

end Cert.KernelIdeal.Body

end
-- ==== Proof.KernelIdealMid.lean ====
/-
  A middle grid point's update of layer 1's two accumulators. The point holds block c of 64 source rows: it computes the
  block's edge scores, the 0/1 mask of the block's rows of the adjacency, each head's masked exponentials p (i, t) over
  the block's rows i and all targets t, and adds, for each batch slice b and head h, the sum over the block's rows of
  p (i, t) into the denominator accumulator (8 x 512, row 4 b + h). With the buffers holding the partial sums over the
  sources s < 64 c before, they hold the partial sums over s < 64 (c + 1) after. The numerator accumulator (2 x 512 x 128) likewise receives the
  sum over the block's rows of p (i, t) times the projected feature q of row i, for the head of q, computed as products of
  the four heads' stacked tables with the block's features laid out block-diagonally, both split into a high and a low part.
  The last point makes the same two updates before it finishes the layer.
-/
import proofs.«169155_g70909910057105_cont_sun_m_1383_19_alg».proof.Proof.KernelIdealNamedB
import proofs.«169155_g70909910057105_cont_sun_m_1383_19_alg».proof.Proof.KernelIdealNamedC
import proofs.«169155_g70909910057105_cont_sun_m_1383_19_alg».proof.Proof.KernelIdealDen
import proofs.«169155_g70909910057105_cont_sun_m_1383_19_alg».proof.Proof.KernelIdealEdgeScore
import proofs.«169155_g70909910057105_cont_sun_m_1383_19_alg».proof.Proof.KernelIdealState
import Idealize.ShloMosaic.Lib.ValueLayout

set_option maxRecDepth 16384

noncomputable section

namespace Cert.KernelIdeal.Body

open Cert.KernelIdeal Cert.KernelIdeal.Gen Cert.KernelIdeal.Payloads
open Idealize.ShloMosaic Idealize.ShloMosaic.TcCoe Idealize.ShloMosaic.Tactic Idealize.ShloMosaic.ValueIdx
open Idealize.SL Idealize.SL.Sem
open Cert.Spec.DenseGat (feat leaky leakSlope)

/-! ## The first batch slice's spelling of the head tables and of the update -/

section Spelling
variable {F : FTy → Type} [FloatOps F]

/-- Head o's edge scores of the block's rows, as a 64 x 512 table. -/
abbrev headSlice (es : FVec F S4x64x512 .f32) (o : ℕ) (hs : S4x64x512.Slices ![o, 0, 0] S1x64x512) : FVec F S64x512 .f32 :=
  shapeCast S64x512 (extractStridedSlice S1x64x512 ![o, 0, 0] es hs) shapeCasts_S1x64x512_S64x512

/-- Head 0 of the first slice: the mask is computed from the adjacency block in the same expression. -/
theorem pay63_eq (es : FVec F S4x64x512 .f32) (adj : Vec F S64x512 .i32) (a : Vec F S64x1 .f32) (b : Vec F S1x512 .f32) :
    k0_pay63 es adj a b = pOf (k0_pay61 adj) (scOf a b (headSlice es 0 slices_S4x64x512_o0_0_0_S1x64x512)) := rfl

/-- The first slice's stacked table: head 0 as given, head 1 from its rectified score, heads 2 and 3 in full. -/
theorem pay65_eq (es : FVec F S4x64x512 .f32) (mask p0 : FVec F S64x512 .f32) (a1 : Vec F S64x1 .f32) (b1 : Vec F S1x512 .f32)
    (a2 : Vec F S64x1 .f32) (b2 : Vec F S1x512 .f32) (a3 : Vec F S64x1 .f32) (b3 : Vec F S1x512 .f32) :
    k0_pay65 es mask p0 (k0_pay64 es a1 b1) a2 b2 a3 b3
      = concatenate S256x512 0 [⟨S64x512, p0⟩,
          ⟨S64x512, pOf mask (scOf a1 b1 (headSlice es 1 slices_S4x64x512_o1_0_0_S1x64x512))⟩,
          ⟨S64x512, pOf mask (scOf a2 b2 (headSlice es 2 slices_S4x64x512_o2_0_0_S1x64x512))⟩,
          ⟨S64x512, pOf mask (scOf a3 b3 (headSlice es 3 slices_S4x64x512_o3_0_0_S1x64x512))⟩]
        concatenates_S64x512_S64x512_S64x512_S64x512_S256x512_d0 := rfl

end Spelling

/-- A head's table at (i, t) in one formula. -/
theorem pOf_scOf_apply (es : FVec Ideal S4x64x512 .f32) (mask : FVec Ideal S64x512 .f32) (a : Vec Ideal S64x1 .f32)
    (b : Vec Ideal S1x512 .f32) (o : ℕ) (ho : o < 4) (hs : S4x64x512.Slices ![o, 0, 0] S1x64x512) (i : Fin 64) (t : Fin 512) :
    pOf (F := Ideal) mask (scOf a b (headSlice es o hs)) (ix2 i t) = pEntry es mask a b ⟨o, ho⟩ i t := by
  rw [pOf_apply, scOf_apply]
  unfold headSlice
  rw [head_slice_apply es o ho]; rfl

/-- Adding to an old 4 x 512 slice the sums, over each head's 64 rows, of a stacked 256 x 512 table. -/
theorem accum_apply (T : FVec Ideal S256x512 .f32) (old : Vec Ideal S4x512 .f32) (h : Fin 4) (t : Fin 512) :
    addf old (multiReduction .add [1] S4x512 (shapeCast S4x64x512 T shapeCasts_S256x512_S4x64x512)
        0x00000000#32 reduces_S4x64x512_S4x512 (.inl rfl) rfl) (ix2 h t)
      = old (ix2 h t) + ∑ i : Fin 64, T (ix2 (⟨64 * h.val + i.val, by have := h.isLt; have := i.isLt; omega⟩ : Fin 256) t) := by
  show old (ix2 h t) + multiReduction .add [1] S4x512 (shapeCast S4x64x512 T shapeCasts_S256x512_S4x64x512)
      0x00000000#32 reduces_S4x64x512_S4x512 (.inl rfl) rfl (ix2 h t) = _
  refine congrArg (old (ix2 h t) + ·) ?_
  refine (Ideal.multiReduction_add_single _ 0x00000000#32 reduces_S4x64x512_S4x512 (.inl rfl) rfl (ix2 h t)).trans ?_
  refine Finset.sum_congr rfl fun i _ => ?_
  have hi : (i : ℕ) < 64 := i.isLt
  have el : reduces_S4x64x512_S4x512.lift (ix2 h t) i = ix3 h (⟨i.val, hi⟩ : Fin 64) t := funext fun c => Fin.ext (by
    match c with
    | ⟨0, _⟩ => rfl
    | ⟨1, _⟩ => rfl
    | ⟨2, _⟩ => rfl)
  rw [el]
  exact shapeCast_apply _ _ (ix3 h (⟨i.val, hi⟩ : Fin 64) t) (ix2 (⟨64 * h.val + i.val, by have := h.isLt; omega⟩ : Fin 256) t) (by
    rw [Shape.rowMajor_val_two, Shape.rowMajor_val_three]
    show (64 * h.val + i.val) * 512 + t.val = (h.val * 64 + i.val) * 512 + t.val
    omega)

/-- Four head tables, stacked, at row 64 h + i: table h's entry, whatever it is called. -/
theorem stack_heads (q0 q1 q2 q3 : FVec Ideal S64x512 .f32) (P : Fin 4 → Fin 64 → Fin 512 → EReal)
    (h0 : ∀ i t, q0 (ix2 i t) = P ⟨0, by decide⟩ i t) (h1 : ∀ i t, q1 (ix2 i t) = P ⟨1, by decide⟩ i t)
    (h2 : ∀ i t, q2 (ix2 i t) = P ⟨2, by decide⟩ i t) (h3 : ∀ i t, q3 (ix2 i t) = P ⟨3, by decide⟩ i t)
    (h : Fin 4) (i : Fin 64) (t : Fin 512) :
    concatenate S256x512 0 [⟨S64x512, q0⟩, ⟨S64x512, q1⟩, ⟨S64x512, q2⟩, ⟨S64x512, q3⟩]
        concatenates_S64x512_S64x512_S64x512_S64x512_S256x512_d0
        (ix2 (⟨64 * h.val + i.val, by have := h.isLt; have := i.isLt; omega⟩ : Fin 256) t) = P h i t := by
  rw [stack4_apply]
  match h with
  | ⟨0, _⟩ => exact h0 i t
  | ⟨1, _⟩ => exact h1 i t
  | ⟨2, _⟩ => exact h2 i t
  | ⟨3, _⟩ => exact h3 i t

/-- The first slice's update at (h, t): the old entry plus the sum over the block's rows of head h's table. -/
theorem den_slice0 (es : FVec Ideal S4x64x512 .f32) (adj : Vec Ideal S64x512 .i32)
    (a0 a1 a2 a3 : Vec Ideal S64x1 .f32) (b0 b1 b2 b3 : Vec Ideal S1x512 .f32) (old : Vec Ideal S4x512 .f32)
    (P : Fin 4 → Fin 64 → Fin 512 → EReal)
    (h0 : ∀ i t, pEntry es (k0_pay61 adj) a0 b0 ⟨0, by decide⟩ i t = P ⟨0, by decide⟩ i t)
    (h1 : ∀ i t, pEntry es (k0_pay61 adj) a1 b1 ⟨1, by decide⟩ i t = P ⟨1, by decide⟩ i t)
    (h2 : ∀ i t, pEntry es (k0_pay61 adj) a2 b2 ⟨2, by decide⟩ i t = P ⟨2, by decide⟩ i t)
    (h3 : ∀ i t, pEntry es (k0_pay61 adj) a3 b3 ⟨3, by decide⟩ i t = P ⟨3, by decide⟩ i t)
    (h : Fin 4) (t : Fin 512) :
    k0_pay67 (F := Ideal) (k0_pay66 es (k0_pay61 adj) (k0_pay63 es adj a0 b0) (k0_pay64 es a1 b1) a2 b2 a3 b3 old) (ix2 h t)
      = old (ix2 h t) + ∑ i : Fin 64, P h i t := by
  unfold k0_pay67
  rw [shapeCast_self]
  unfold k0_pay66
  refine (accum_apply _ old h t).trans (congrArg (old (ix2 h t) + ·) (Finset.sum_congr rfl fun i _ => ?_))
  rw [pay65_eq, pay63_eq]
  exact stack_heads _ _ _ _ P
    (fun i t => (pOf_scOf_apply es _ a0 b0 0 (by decide) _ i t).trans (h0 i t))
    (fun i t => (pOf_scOf_apply es _ a1 b1 1 (by decide) _ i t).trans (h1 i t))
    (fun i t => (pOf_scOf_apply es _ a2 b2 2 (by decide) _ i t).trans (h2 i t))
    (fun i t => (pOf_scOf_apply es _ a3 b3 3 (by decide) _ i t).trans (h3 i t)) h i t

/-- The second slice's update at (h, t), likewise. -/
theorem den_slice1 (es : FVec Ideal S4x64x512 .f32) (mask : FVec Ideal S64x512 .f32)
    (a0 a1 a2 a3 : Vec Ideal S64x1 .f32) (b0 b1 b2 b3 : Vec Ideal S1x512 .f32) (old : Vec Ideal S4x512 .f32)
    (P : Fin 4 → Fin 64 → Fin 512 → EReal)
    (h0 : ∀ i t, pEntry es mask a0 b0 ⟨0, by decide⟩ i t = P ⟨0, by decide⟩ i t)
    (h1 : ∀ i t, pEntry es mask a1 b1 ⟨1, by decide⟩ i t = P ⟨1, by decide⟩ i t)
    (h2 : ∀ i t, pEntry es mask a2 b2 ⟨2, by decide⟩ i t = P ⟨2, by decide⟩ i t)
    (h3 : ∀ i t, pEntry es mask a3 b3 ⟨3, by decide⟩ i t = P ⟨3, by decide⟩ i t)
    (h : Fin 4) (t : Fin 512) :
    k0_pay81 (F := Ideal) es mask (k0_pay77 mask (k0_pay75 a0 b0) (k0_pay76 es)) (k0_pay78 es mask a1 b1) (k0_pay79 es mask a2 b2)
        a3 b3 old (ix2 h t)
      = old (ix2 h t) + ∑ i : Fin 64, P h i t := by
  rw [pay81_apply]
  refine congrArg (old (ix2 h t) + ·) (Finset.sum_congr rfl fun i _ => ?_)
  rw [pay80_eq]
  exact stack_heads _ _ _ _ P
    (fun i t => (pay77_head0_apply es mask a0 b0 i t).trans (h0 i t))
    (fun i t => (pay78_apply es mask a1 b1 i t).trans (h1 i t))
    (fun i t => (pay79_apply es mask a2 b2 i t).trans (h2 i t))
    (fun i t => (pOf_scOf_apply es mask a3 b3 3 (by decide) _ i t).trans (h3 i t)) h i t

/-! ## The block's quantities in terms of the argument arrays -/

/-- Row 4 b + h of an accumulator: head h of batch slice b. -/
def accRow (b : Fin 2) (h : Fin 4) : Fin 8 := ⟨4 * b.val + h.val, by have := b.isLt; have := h.isLt; omega⟩

/-- The block's layer-1 edge scores are the edge scores of the block's source rows. -/
theorem es_block (A : State.Args) (c : Fin 8) (f4 f5 : Vec Ideal S128x128 .f32) (f6 f7 : Vec Ideal S4x1 .f32)
    (f1 : Vec Ideal S64x512x128 .f32)
    (h4 : ∀ q k : Fin 128, f4 (ix2 q k) = A.w1e (ix2 q k))
    (h6 : ∀ h : Fin 4, f6 (ix2 h (0 : Fin 1)) = A.ae1 (ix2 h (0 : Fin 1)))
    (h1 : ∀ (i : Fin 64) (t : Fin 512) (k : Fin 128), f1 (ix3 i t k) = A.ef (ix3 (State.rowOf c i) t k))
    (hfin : ∀ q k : Fin 128, ∃ r : ℝ, A.w1e (ix2 q k) = (r : EReal)) (h : Fin 4) (i : Fin 64) (t : Fin 512) :
    k0_pay59 (F := Ideal) f4 f5 f6 f7 f1 (ix3 h i t) = State.es A A.w1e A.ae1 h (State.rowOf c i) t := by
  rw [pay59_apply f4 f5 f6 f7 f1 (fun q k => by rw [h4]; exact hfin q k) h i t]
  unfold State.es
  simp only [h4, h6, h1]

/-- The block's 0/1 mask is the edge mask of the block's source rows. -/
theorem msk_block (A : State.Args) (c : Fin 8) (f2 : Vec Ideal S64x512 .i32)
    (h2 : ∀ (i : Fin 64) (t : Fin 512), f2 (ix2 i t) = A.adj (ix2 (State.rowOf c i) t)) (i : Fin 64) (t : Fin 512) :
    k0_pay61 (F := Ideal) f2 (ix2 i t) = State.msk A (State.rowOf c i) t := by
  rw [pay61_apply, h2]; rfl

/-- A head's masked exponential on the block is layer 1's masked exponential of the block's source rows. -/
theorem p1_block (A : State.Args) (c : Fin 8) (b : Fin 2) (h : Fin 4) (es : FVec Ideal S4x64x512 .f32)
    (mask : FVec Ideal S64x512 .f32) (a : Vec Ideal S64x1 .f32) (bb : Vec Ideal S1x512 .f32)
    (he : ∀ (i : Fin 64) (t : Fin 512), es (ix3 h i t) = State.es A A.w1e A.ae1 h (State.rowOf c i) t)
    (hm : ∀ (i : Fin 64) (t : Fin 512), mask (ix2 i t) = State.msk A (State.rowOf c i) t)
    (ha : ∀ i : Fin 64, a (ix2 i (0 : Fin 1)) = State.score1 A A.as1 b h (State.rowOf c i))
    (hb : ∀ t : Fin 512, bb (ix2 (0 : Fin 1) t) = State.score1 A A.at1 b h t) (i : Fin 64) (t : Fin 512) :
    pEntry es mask a bb h i t = State.p1 A b h (State.rowOf c i) t := by
  unfold pEntry State.p1
  rw [he, hm, ha, hb]

/-- The denominator accumulator after n blocks as one function of the buffer's index (4 b + h, t). -/
def den1Fun (A : State.Args) (n : ℕ) : S8x512.Idx → Ideal .f32 :=
  fun j => State.den1 A n ⟨(j 0).val / 4, by have := (j 0).isLt; change _ < 8 at this; omega⟩
    ⟨(j 0).val % 4, Nat.mod_lt _ (by decide)⟩ ⟨(j 1).val, (j 1).isLt⟩

theorem den1Fun_apply (A : State.Args) (n : ℕ) (b : Fin 2) (h : Fin 4) (t : Fin 512) :
    den1Fun A n (ix2 (accRow b h) t) = State.den1 A n b h t := by
  unfold den1Fun
  have hb : (⟨((ix2 (accRow b h) t : S8x512.Idx) 0).val / 4, by show (4 * b.val + h.val) / 4 < 2; have := b.isLt; have := h.isLt; omega⟩ : Fin 2) = b :=
    Fin.ext (by show (4 * b.val + h.val) / 4 = b.val; have := h.isLt; omega)
  have hh : (⟨((ix2 (accRow b h) t : S8x512.Idx) 0).val % 4, Nat.mod_lt _ (by decide)⟩ : Fin 4) = h :=
    Fin.ext (by show (4 * b.val + h.val) % 4 = h.val; have := h.isLt; omega)
  have ht : (⟨((ix2 (accRow b h) t : S8x512.Idx) 1).val, ((ix2 (accRow b h) t : S8x512.Idx) 1).isLt⟩ : Fin 512) = t := Fin.ext rfl
  rw [hb, hh, ht]

/-- A stored 4 x 512 block whose entry (h, t) is the old partial sum plus block c's rows is the block of the next
    partial sums at its rectangle. -/
theorem den_block (A : State.Args) (c : Fin 8) (o : ℕ) (ho : o < 2) (inb) (w : S4x512.Idx → Ideal .f32)
    (hw : ∀ (h : Fin 4) (t : Fin 512), w (ix2 h t)
      = State.den1 A c.val ⟨o, ho⟩ h t + ∑ i : Fin 64, State.p1 A ⟨o, ho⟩ h (State.rowOf c i) t) (x : S4x512.Idx) :
    w x = den1Fun A (c.val + 1) ((Rect.unit (s := S8x512) ![4 * o, 0] S4x512.size inb).emb x) := by
  obtain ⟨h, t, rfl⟩ : ∃ (h : Fin 4) (t : Fin 512), x = ix2 h t := ⟨x 0, x 1, eq_ix2 x⟩
  rw [hw]
  unfold den1Fun
  have e0 : (((Rect.unit (s := S8x512) ![4 * o, 0] S4x512.size inb).emb (ix2 h t)) 0 : ℕ) = 4 * o + h.val := by
    rw [Rect.emb_apply]; exact (by omega : 4 * o + 1 * h.val = 4 * o + h.val)
  have e1 : (((Rect.unit (s := S8x512) ![4 * o, 0] S4x512.size inb).emb (ix2 h t)) 1 : ℕ) = t.val := by
    rw [Rect.emb_apply]; exact (by omega : 0 + 1 * t.val = t.val)
  have hb : (⟨(((Rect.unit (s := S8x512) ![4 * o, 0] S4x512.size inb).emb (ix2 h t)) 0 : ℕ) / 4, by rw [e0]; have := h.isLt; omega⟩ : Fin 2) = ⟨o, ho⟩ :=
    Fin.ext (by show _ / 4 = o; rw [e0]; have := h.isLt; omega)
  have hh : (⟨(((Rect.unit (s := S8x512) ![4 * o, 0] S4x512.size inb).emb (ix2 h t)) 0 : ℕ) % 4, Nat.mod_lt _ (by decide)⟩ : Fin 4) = h :=
    Fin.ext (by show _ % 4 = h.val; rw [e0]; have := h.isLt; omega)
  have ht : (⟨(((Rect.unit (s := S8x512) ![4 * o, 0] S4x512.size inb).emb (ix2 h t)) 1 : ℕ), by rw [e1]; exact t.isLt⟩ : Fin 512) = t :=
    Fin.ext e1
  rw [hb, hh, ht]
  unfold State.den1
  exact (State.sum_next_block (fun s => State.p1 A ⟨o, ho⟩ h s t) c).symm

/-- The first row of block c, as the body's index arithmetic computes it from the grid coordinate. -/
theorem off_block (n : ℕ) (hn : n < 8) :
    BitVec.toNat (Scalar.indexCast (Scalar.muli (BitVec.ofNat 32 n) 64#32)) = 64 * n := by
  show (BitVec.ofNat 32 n * 64#32).toNat = 64 * n
  rw [BitVec.toNat_mul, BitVec.toNat_ofNat]
  show (n % 2 ^ 32 * 64) % 2 ^ 32 = 64 * n
  omega

/-! ## The numerator: the stacked tables against the block-diagonal layout of the block's projected features -/

/-- The column's head: the floor quotient of the column number by 32, as the first slice spells it (quotient toward
    zero, corrected when the signs differ and the remainder is not zero). -/
def colHead0 : IVec S256x128 32 :=
  select (andi k0_pay71 (cmpi .ne k0_pay72 (broadcast S256x128 0#32))) (subi k0_pay70 (broadcast S256x128 1#32)) k0_pay70

/-- Which entries of the 256 x 128 stacked feature rows the first slice keeps: row r is kept in column q when the row's
    block (r div 64) is the column's head (q div 32). -/
def bdMask0 : IVec S256x128 1 := cmpi .eq k0_pay69 colHead0

/-- The row's block, as the second slice spells it, -/
def rowBlock1 : IVec S256x128 32 :=
  select (andi k0_pay84 (cmpi .ne k0_pay85 (broadcast S256x128 0#32))) (subi k0_pay83 (broadcast S256x128 1#32)) k0_pay83

/-- and the column's head. -/
def colHead1 : IVec S256x128 32 :=
  have v280 : IVec S256x128 32 := iota .tc S256x128 32 [1] iota_S256x128_d1_w32
  have v306 : IVec S256x128 32 := divsi v280 (broadcast S256x128 32#32)
  have v313 : IVec S256x128 32 := subi (extui 32 (cmpi .sgt v280 (broadcast S256x128 0#32)) natLt_1_32)
    (extui 32 (cmpi .slt v280 (broadcast S256x128 0#32)) natLt_1_32)
  have v320 : IVec S256x128 1 := cmpi .ne v313 (broadcast S256x128
    (Scalar.subi (Scalar.extui (Scalar.cmpi .sgt 32#32 0#32)) (Scalar.extui (Scalar.cmpi .slt 32#32 0#32))))
  have v325 : IVec S256x128 1 := andi v320 (cmpi .ne (remsi v280 (broadcast S256x128 32#32)) (broadcast S256x128 0#32))
  select v325 (subi v306 (broadcast S256x128 1#32)) v306

/-- The second slice's mask. -/
def bdMask1 : IVec S256x128 1 := cmpi .eq rowBlock1 colHead1

theorem rowBlock0_col (r : Fin 256) (q : Fin 128) : k0_pay69 (ix2 r q) = k0_pay69 (ix2 r (0 : Fin 128)) := rfl
theorem colHead0_row (r : Fin 256) (q : Fin 128) : colHead0 (ix2 r q) = colHead0 (ix2 (0 : Fin 256) q) := rfl
theorem rowBlock1_col (r : Fin 256) (q : Fin 128) : rowBlock1 (ix2 r q) = rowBlock1 (ix2 r (0 : Fin 128)) := rfl
theorem colHead1_row (r : Fin 256) (q : Fin 128) : colHead1 (ix2 r q) = colHead1 (ix2 (0 : Fin 256) q) := rfl

theorem rowBlock0_val : ∀ r : Fin 256, k0_pay69 (ix2 r (0 : Fin 128)) = BitVec.ofNat 32 (r.val / 64) := by decide +kernel
theorem colHead0_val : ∀ q : Fin 128, colHead0 (ix2 (0 : Fin 256) q) = BitVec.ofNat 32 (q.val / 32) := by decide +kernel
theorem rowBlock1_val : ∀ r : Fin 256, rowBlock1 (ix2 r (0 : Fin 128)) = BitVec.ofNat 32 (r.val / 64) := by decide +kernel
theorem colHead1_val : ∀ q : Fin 128, colHead1 (ix2 (0 : Fin 256) q) = BitVec.ofNat 32 (q.val / 32) := by decide +kernel

theorem cmp_small : ∀ a b : Fin 4, IntOp.cmpi .eq (BitVec.ofNat 32 a.val) (BitVec.ofNat 32 b.val) = if a.val = b.val then 1#1 else 0#1 := by
  decide +kernel

/-- The masks, entry by entry. -/
theorem bdMask0_apply (r : Fin 256) (q : Fin 128) : bdMask0 (ix2 r q) = if r.val / 64 = q.val / 32 then 1#1 else 0#1 := by
  show IntOp.cmpi .eq (k0_pay69 (ix2 r q)) (colHead0 (ix2 r q)) = _
  rw [rowBlock0_col, colHead0_row, rowBlock0_val, colHead0_val]
  exact cmp_small ⟨r.val / 64, by have := r.isLt; omega⟩ ⟨q.val / 32, by have := q.isLt; omega⟩

theorem bdMask1_apply (r : Fin 256) (q : Fin 128) : bdMask1 (ix2 r q) = if r.val / 64 = q.val / 32 then 1#1 else 0#1 := by
  show IntOp.cmpi .eq (rowBlock1 (ix2 r q)) (colHead1 (ix2 r q)) = _
  rw [rowBlock1_col, colHead1_row, rowBlock1_val, colHead1_val]
  exact cmp_small ⟨r.val / 64, by have := r.isLt; omega⟩ ⟨q.val / 32, by have := q.isLt; omega⟩

/-- Row 64 h + i of a stack of four 64-row tables. -/
def blk (h : Fin 4) (i : Fin 64) : Fin 256 := ⟨64 * h.val + i.val, by have := h.isLt; have := i.isLt; omega⟩

/-- The product's dimension numbers: both operands contracted along their 256 stacked rows. -/
abbrev dNum := dot_S256x512_S256x128_S512x128_0_0_1_1_n_n

theorem dNum_lhs0 (j : S512x128.Idx) (k : dNum.contr.Idx) : (dNum.lhsIdx j k 0).val = (k ⟨0, by decide⟩).val :=
  dNum.lhsIdx_val_of_single rfl j k
theorem dNum_lhs1 (j : S512x128.Idx) (k : dNum.contr.Idx) : (dNum.lhsIdx j k 1).val = (j 0).val := by
  unfold DotDims.lhsIdx
  rw [dif_neg (show ¬(1 : Fin S256x512.rank) ∈ dNum.lhsBatch by decide), dif_pos (show (1 : Fin S256x512.rank) ∈ dNum.lhsNonContracting by decide)]
  rfl
theorem dNum_rhs0 (j : S512x128.Idx) (k : dNum.contr.Idx) : (dNum.rhsIdx j k 0).val = (k ⟨0, by decide⟩).val :=
  dNum.rhsIdx_val_of_single rfl j k
theorem dNum_rhs1 (j : S512x128.Idx) (k : dNum.contr.Idx) : (dNum.rhsIdx j k 1).val = (j 1).val := by
  unfold DotDims.rhsIdx
  rw [dif_neg (show ¬(1 : Fin S256x128.rank) ∈ dNum.rhsBatch by decide), dif_pos (show (1 : Fin S256x128.rank) ∈ dNum.rhsNonContracting by decide)]
  rfl

/-- One product at (t, q): the sum over the 256 stacked rows r of table entry (r, t) times feature entry (r, q). -/
theorem num_dot (P : FVec Ideal S256x512 .bf16) (G : FVec Ideal S256x128 .bf16) (t : Fin 512) (q : Fin 128) :
    matmul dNum none P G (constant S512x128 .f32 0x00000000#32) (ix2 t q) = ∑ r : Fin 256, P (ix2 r t) * G (ix2 r q) := by
  refine (Ideal.matmul_constant_zero_apply dNum none _ _ _).trans ?_
  rw [← Equiv.sum_comp (contrEquiv1 dNum 256 rfl rfl).symm]
  refine Finset.sum_congr rfl fun r _ => ?_
  have hr := contrEquiv1_symm_val dNum 256 rfl rfl r
  have el : dNum.lhsIdx (ix2 t q) ((contrEquiv1 dNum 256 rfl rfl).symm r) = ix2 r t := funext fun a => Fin.ext (by
    match a with
    | ⟨0, _⟩ => exact (dNum_lhs0 _ _).trans hr
    | ⟨1, _⟩ => exact dNum_lhs1 _ _)
  have er : dNum.rhsIdx (ix2 t q) ((contrEquiv1 dNum 256 rfl rfl).symm r) = ix2 r q := funext fun a => Fin.ext (by
    match a with
    | ⟨0, _⟩ => exact (dNum_rhs0 _ _).trans hr
    | ⟨1, _⟩ => exact dNum_rhs1 _ _)
  rw [el, er]

section NumSpelling
variable {F : FTy → Type} [FloatOps F]

/-- The block's contribution to the numerator as the body computes it: with the features kept where the mask m says and
    zero elsewhere, the tables against the features, plus the tables against the features' low part, plus the tables' low
    part against the features (a low part being the value less itself). -/
def numAcc (T : FVec F S256x512 .f32) (G : FVec F S256x128 .f32) (m : IVec S256x128 1) : FVec F S512x128 .f32 :=
  have G' : FVec F S256x128 .f32 := select m G (broadcast S256x128 (Scalar.ofBits .f32 0x00000000#32 : F .f32))
  addf (addf (matmul dNum none (truncf .bf16 T bitsLt_bf16_f32) (truncf .bf16 G' bitsLt_bf16_f32) (constant S512x128 .f32 0x00000000#32))
      (matmul dNum none (truncf .bf16 T bitsLt_bf16_f32) (truncf .bf16 (subf G' G') bitsLt_bf16_f32) (constant S512x128 .f32 0x00000000#32)))
    (matmul dNum none (truncf .bf16 (subf T T) bitsLt_bf16_f32) (truncf .bf16 G' bitsLt_bf16_f32) (constant S512x128 .f32 0x00000000#32))

theorem pay73_eq (T : FVec F S256x512 .f32) (G : FVec F S256x128 .f32) (old : Vec F S1x512x128 .f32) :
    k0_pay73 T G k0_pay69 k0_pay70 k0_pay71 k0_pay72 0#32 old
      = shapeCast S1x512x128 (addf (shapeCast S512x128 old shapeCasts_S1x512x128_S512x128) (numAcc T G bdMask0))
          shapeCasts_S512x128_S1x512x128 := rfl

theorem pay86_eq (T : FVec F S256x512 .f32) (G : FVec F S256x128 .f32) :
    k0_pay86 T G (iota .tc S256x128 32 [1] iota_S256x128_d1_w32) k0_pay83 k0_pay84 k0_pay85 0#32 = numAcc T G bdMask1 := rfl

theorem pay82_eq (g : FVec F S64x128 .f32) : k0_pay82 g = k0_pay68 g := rfl

end NumSpelling

/-- The three products at (t, q), term by term. -/
theorem numAcc_apply (T : FVec Ideal S256x512 .f32) (G : FVec Ideal S256x128 .f32) (m : IVec S256x128 1) (t : Fin 512) (q : Fin 128) :
    numAcc (F := Ideal) T G m (ix2 t q)
      = (∑ r : Fin 256, T (ix2 r t) * (if m (ix2 r q) = 1 then G (ix2 r q) else 0))
        + (∑ r : Fin 256, T (ix2 r t) * ((if m (ix2 r q) = 1 then G (ix2 r q) else 0) - (if m (ix2 r q) = 1 then G (ix2 r q) else 0)))
        + ∑ r : Fin 256, (T (ix2 r t) - T (ix2 r t)) * (if m (ix2 r q) = 1 then G (ix2 r q) else 0) := by
  have hz : (Scalar.ofBits .f32 0x00000000#32 : Ideal .f32) = 0 := Ideal.ofBits_zero_f32
  unfold numAcc
  show matmul dNum none _ _ _ (ix2 t q) + matmul dNum none _ _ _ (ix2 t q) + matmul dNum none _ _ _ (ix2 t q) = _
  rw [num_dot, num_dot, num_dot]
  simp only [truncf, subf, select, broadcast, Scalar.select, Ideal.truncf_def, Ideal.subf_def, hz]

/-- With finite tables and features the low parts vanish: the one product against the kept features. -/
theorem numAcc_finite (T : FVec Ideal S256x512 .f32) (G : FVec Ideal S256x128 .f32) (m : IVec S256x128 1) (t : Fin 512) (q : Fin 128)
    (hT : ∀ r : Fin 256, ∃ x : ℝ, T (ix2 r t) = (x : EReal)) (hG : ∀ r : Fin 256, ∃ y : ℝ, G (ix2 r q) = (y : EReal)) :
    numAcc (F := Ideal) T G m (ix2 t q) = ∑ r : Fin 256, T (ix2 r t) * (if m (ix2 r q) = 1 then G (ix2 r q) else 0) := by
  rw [numAcc_apply]
  choose a ha using hT
  choose g hg using hG
  have hk : ∀ r : Fin 256, (if m (ix2 r q) = 1 then G (ix2 r q) else 0) = (((if m (ix2 r q) = 1 then g r else 0 : ℝ)) : EReal) := by
    intro r
    by_cases hm : m (ix2 r q) = 1
    · rw [if_pos hm, if_pos hm, hg]
    · rw [if_neg hm, if_neg hm, EReal.coe_zero]
  simp only [ha, hk]
  exact Cert.Lib.DenseAttention.split3 Finset.univ a (fun r => if m (ix2 r q) = 1 then g r else 0)

/-- Against a mask that keeps row r in column q exactly when r's block is q's head, the sum over the 256 stacked rows is the
    sum over the 64 rows of the block of q's head. -/
theorem bd_sum (T : FVec Ideal S256x512 .f32) (G : FVec Ideal S256x128 .f32) (m : IVec S256x128 1)
    (hm : ∀ (r : Fin 256) (q : Fin 128), m (ix2 r q) = if r.val / 64 = q.val / 32 then 1#1 else 0#1) (t : Fin 512) (q : Fin 128) :
    ∑ r : Fin 256, T (ix2 r t) * (if m (ix2 r q) = 1 then G (ix2 r q) else 0)
      = ∑ i : Fin 64, T (ix2 (blk (Cert.Spec.DenseGat.headOf q) i) t) * G (ix2 (blk (Cert.Spec.DenseGat.headOf q) i) q) := by
  have e : ∀ r : Fin 256, T (ix2 r t) * (if m (ix2 r q) = 1 then G (ix2 r q) else 0)
      = if r.val / 64 = q.val / 32 then T (ix2 r t) * G (ix2 r q) else 0 := by
    intro r
    rw [hm]
    by_cases hc : r.val / 64 = q.val / 32
    · rw [if_pos hc, if_pos hc, if_pos (by decide : (1#1 : BitVec 1) = 1)]
    · rw [if_neg hc, if_neg hc, if_neg (by decide : ¬(0#1 : BitVec 1) = 1), mul_zero]
  rw [Finset.sum_congr rfl (fun r _ => e r)]
  have hq : q.val / 32 < 4 := by have := q.isLt; omega
  refine (Cert.Lib.DenseAttention.sum_block_select 4 64 (q.val / 32) hq (fun r : Fin 256 => T (ix2 r t) * G (ix2 r q))).trans ?_
  refine Finset.sum_congr rfl fun i _ => ?_
  have eb : (⟨q.val / 32 * 64 + i.val, Cert.Lib.DenseAttention.block_lt hq i.isLt⟩ : Fin 256) = blk (Cert.Spec.DenseGat.headOf q) i :=
    Fin.ext (by show q.val / 32 * 64 + i.val = 64 * (q.val / 32) + i.val; omega)
  rw [eb]

/-- Row 64 h + i of the four stacked copies of the block's features is the block's row i. -/
theorem stackG_apply (g : FVec Ideal S64x128 .f32) (h : Fin 4) (i : Fin 64) (q : Fin 128) :
    k0_pay68 g (ix2 (blk h i) q) = g (ix2 i q) := by
  unfold k0_pay68
  show concatenate S256x128 0 (List.replicate 4 (⟨S64x128, g⟩ : (s : Shape) × (s.Idx → Ideal .f32)))
      concatenates_S64x128_S64x128_S64x128_S64x128_S256x128_d0 (ix2 (blk h i) q) = _
  exact concatenate_replicate_apply (0 : Fin S256x128.rank) 4 g _ rfl (ix2 (blk h i) q) (ix2 i q)
    (by show i.val = (64 * h.val + i.val) % 64; have := i.isLt; omega)
    (fun b hb => by
      match b with
      | ⟨0, _⟩ => exact absurd rfl hb
      | ⟨1, _⟩ => rfl)

/-- The block's contribution at (t, q) for stacked tables whose row 64 h + i is X h i and the four stacked copies of the
    block's features g: the sum over the block's rows of head (q div 32)'s table entry times the row's feature q. -/
theorem numAcc_block (T : FVec Ideal S256x512 .f32) (g : FVec Ideal S64x128 .f32) (m : IVec S256x128 1)
    (hm : ∀ (r : Fin 256) (q : Fin 128), m (ix2 r q) = if r.val / 64 = q.val / 32 then 1#1 else 0#1)
    (X : Fin 4 → Fin 64 → Fin 512 → EReal) (hT : ∀ h i t, T (ix2 (blk h i) t) = X h i t)
    (hX : ∀ h i t, ∃ x : ℝ, X h i t = (x : EReal)) (hg : ∀ i q, ∃ y : ℝ, g (ix2 i q) = (y : EReal)) (t : Fin 512) (q : Fin 128) :
    numAcc (F := Ideal) T (k0_pay68 g) m (ix2 t q) = ∑ i : Fin 64, X (Cert.Spec.DenseGat.headOf q) i t * g (ix2 i q) := by
  have hrow : ∀ r : Fin 256, r = blk ⟨r.val / 64, by have := r.isLt; omega⟩ ⟨r.val % 64, Nat.mod_lt _ (by decide)⟩ := fun r =>
    Fin.ext (by show r.val = 64 * (r.val / 64) + r.val % 64; omega)
  rw [numAcc_finite T _ m t q (fun r => by rw [hrow r, hT]; exact hX _ _ _) (fun r => by rw [hrow r, stackG_apply]; exact hg _ _),
    bd_sum T _ m hm t q]
  refine Finset.sum_congr rfl fun i _ => ?_
  rw [hT, stackG_apply]

/-- The first slice's update at (t, q): the old entry plus the block's contribution. -/
theorem num_slice0 (T : FVec Ideal S256x512 .f32) (g : FVec Ideal S64x128 .f32) (old : Vec Ideal S1x512x128 .f32)
    (X : Fin 4 → Fin 64 → Fin 512 → EReal) (hT : ∀ h i t, T (ix2 (blk h i) t) = X h i t)
    (hX : ∀ h i t, ∃ x : ℝ, X h i t = (x : EReal)) (hg : ∀ i q, ∃ y : ℝ, g (ix2 i q) = (y : EReal)) (t : Fin 512) (q : Fin 128) :
    k0_pay73 (F := Ideal) T (k0_pay68 g) k0_pay69 k0_pay70 k0_pay71 k0_pay72 0#32 old (ix3 (0 : Fin 1) t q)
      = old (ix3 (0 : Fin 1) t q) + ∑ i : Fin 64, X (Cert.Spec.DenseGat.headOf q) i t * g (ix2 i q) := by
  rw [pay73_eq, shapeCast_ab_1ab_apply]
  show shapeCast S512x128 old shapeCasts_S1x512x128_S512x128 (ix2 t q) + numAcc (F := Ideal) T (k0_pay68 g) bdMask0 (ix2 t q) = _
  rw [shapeCast_1ab_ab_apply, numAcc_block T g bdMask0 bdMask0_apply X hT hX hg t q]

/-- The second slice's update at (t, q), likewise. -/
theorem num_slice1 (T : FVec Ideal S256x512 .f32) (g : FVec Ideal S64x128 .f32) (old : Vec Ideal S1x512x128 .f32)
    (X : Fin 4 → Fin 64 → Fin 512 → EReal) (hT : ∀ h i t, T (ix2 (blk h i) t) = X h i t)
    (hX : ∀ h i t, ∃ x : ℝ, X h i t = (x : EReal)) (hg : ∀ i q, ∃ y : ℝ, g (ix2 i q) = (y : EReal)) (t : Fin 512) (q : Fin 128) :
    k0_pay1 (F := Ideal) (k0_pay86 T (k0_pay82 g) (iota .tc S256x128 32 [1] iota_S256x128_d1_w32) k0_pay83 k0_pay84 k0_pay85 0#32) old
        (ix3 (0 : Fin 1) t q)
      = old (ix3 (0 : Fin 1) t q) + ∑ i : Fin 64, X (Cert.Spec.DenseGat.headOf q) i t * g (ix2 i q) := by
  unfold k0_pay1
  rw [shapeCast_ab_1ab_apply, pay82_eq, pay86_eq]
  show shapeCast S512x128 old shapeCasts_S1x512x128_S512x128 (ix2 t q) + numAcc (F := Ideal) T (k0_pay68 g) bdMask1 (ix2 t q) = _
  rw [shapeCast_1ab_ab_apply, numAcc_block T g bdMask1 bdMask1_apply X hT hX hg t q]

/-! ## The stacked tables and the accumulators as functions of the buffer index -/

/-- The stacked tables of the first slice, row 64 h + i. -/
theorem table0 (es : FVec Ideal S4x64x512 .f32) (adj : Vec Ideal S64x512 .i32)
    (a0 a1 a2 a3 : Vec Ideal S64x1 .f32) (b0 b1 b2 b3 : Vec Ideal S1x512 .f32) (P : Fin 4 → Fin 64 → Fin 512 → EReal)
    (h0 : ∀ i t, pEntry es (k0_pay61 adj) a0 b0 ⟨0, by decide⟩ i t = P ⟨0, by decide⟩ i t)
    (h1 : ∀ i t, pEntry es (k0_pay61 adj) a1 b1 ⟨1, by decide⟩ i t = P ⟨1, by decide⟩ i t)
    (h2 : ∀ i t, pEntry es (k0_pay61 adj) a2 b2 ⟨2, by decide⟩ i t = P ⟨2, by decide⟩ i t)
    (h3 : ∀ i t, pEntry es (k0_pay61 adj) a3 b3 ⟨3, by decide⟩ i t = P ⟨3, by decide⟩ i t)
    (h : Fin 4) (i : Fin 64) (t : Fin 512) :
    k0_pay65 (F := Ideal) es (k0_pay61 adj) (k0_pay63 es adj a0 b0) (k0_pay64 es a1 b1) a2 b2 a3 b3 (ix2 (blk h i) t) = P h i t := by
  rw [pay65_eq, pay63_eq]
  exact stack_heads _ _ _ _ P
    (fun i t => (pOf_scOf_apply es _ a0 b0 0 (by decide) _ i t).trans (h0 i t))
    (fun i t => (pOf_scOf_apply es _ a1 b1 1 (by decide) _ i t).trans (h1 i t))
    (fun i t => (pOf_scOf_apply es _ a2 b2 2 (by decide) _ i t).trans (h2 i t))
    (fun i t => (pOf_scOf_apply es _ a3 b3 3 (by decide) _ i t).trans (h3 i t)) h i t

/-- The stacked tables of the second slice, row 64 h + i. -/
theorem table1 (es : FVec Ideal S4x64x512 .f32) (mask : FVec Ideal S64x512 .f32)
    (a0 a1 a2 a3 : Vec Ideal S64x1 .f32) (b0 b1 b2 b3 : Vec Ideal S1x512 .f32) (P : Fin 4 → Fin 64 → Fin 512 → EReal)
    (h0 : ∀ i t, pEntry es mask a0 b0 ⟨0, by decide⟩ i t = P ⟨0, by decide⟩ i t)
    (h1 : ∀ i t, pEntry es mask a1 b1 ⟨1, by decide⟩ i t = P ⟨1, by decide⟩ i t)
    (h2 : ∀ i t, pEntry es mask a2 b2 ⟨2, by decide⟩ i t = P ⟨2, by decide⟩ i t)
    (h3 : ∀ i t, pEntry es mask a3 b3 ⟨3, by decide⟩ i t = P ⟨3, by decide⟩ i t)
    (h : Fin 4) (i : Fin 64) (t : Fin 512) :
    k0_pay80 (F := Ideal) es mask (k0_pay77 mask (k0_pay75 a0 b0) (k0_pay76 es)) (k0_pay78 es mask a1 b1) (k0_pay79 es mask a2 b2)
        a3 b3 (ix2 (blk h i) t) = P h i t := by
  rw [pay80_eq]
  exact stack_heads _ _ _ _ P
    (fun i t => (pay77_head0_apply es mask a0 b0 i t).trans (h0 i t))
    (fun i t => (pay78_apply es mask a1 b1 i t).trans (h1 i t))
    (fun i t => (pay79_apply es mask a2 b2 i t).trans (h2 i t))
    (fun i t => (pOf_scOf_apply es mask a3 b3 3 (by decide) _ i t).trans (h3 i t)) h i t

theorem pay74_eq {F : FTy → Type} [FloatOps F] (v : Vec F S1x64x128 .f32) : k0_pay74 v = k0_pay62 v := rfl

/-- The numerator accumulator after n blocks as one function of the buffer's index (b, t, q). -/
def num1Fun (A : State.Args) (n : ℕ) : S2x512x128.Idx → Ideal .f32 :=
  fun j => State.num1 A n ⟨(j 0).val, (j 0).isLt⟩ ⟨(j 1).val, (j 1).isLt⟩ ⟨(j 2).val, (j 2).isLt⟩

theorem num1Fun_apply (A : State.Args) (n : ℕ) (b : Fin 2) (t : Fin 512) (q : Fin 128) :
    num1Fun A n (ix3 b t q) = State.num1 A n b t q := rfl

/-- A stored 1 x 512 x 128 block whose entry (t, q) is the old partial sum plus block c's rows is the block of the next
    partial sums at its rectangle. -/
theorem num_block (A : State.Args) (c : Fin 8) (o : ℕ) (ho : o < 2) (inb) (w : S1x512x128.Idx → Ideal .f32)
    (hw : ∀ (t : Fin 512) (q : Fin 128), w (ix3 (0 : Fin 1) t q)
      = State.num1 A c.val ⟨o, ho⟩ t q
        + ∑ i : Fin 64, State.p1 A ⟨o, ho⟩ (Cert.Spec.DenseGat.headOf q) (State.rowOf c i) t * State.h1 A ⟨o, ho⟩ (State.rowOf c i) q)
    (x : S1x512x128.Idx) :
    w x = num1Fun A (c.val + 1) ((Rect.unit (s := S2x512x128) ![o, 0, 0] S1x512x128.size inb).emb x) := by
  obtain ⟨u, t, q, rfl⟩ : ∃ (u : Fin 1) (t : Fin 512) (q : Fin 128), x = ix3 u t q := ⟨x 0, x 1, x 2, eq_ix3 x⟩
  obtain rfl : u = 0 := Fin.ext (by omega)
  rw [hw]
  unfold num1Fun
  have e0 : (((Rect.unit (s := S2x512x128) ![o, 0, 0] S1x512x128.size inb).emb (ix3 (0 : Fin 1) t q)) 0 : ℕ) = o := by
    rw [Rect.emb_apply]; exact (by omega : o + 1 * 0 = o)
  have e1 : (((Rect.unit (s := S2x512x128) ![o, 0, 0] S1x512x128.size inb).emb (ix3 (0 : Fin 1) t q)) 1 : ℕ) = t.val := by
    rw [Rect.emb_apply]; exact (by omega : 0 + 1 * t.val = t.val)
  have e2 : (((Rect.unit (s := S2x512x128) ![o, 0, 0] S1x512x128.size inb).emb (ix3 (0 : Fin 1) t q)) 2 : ℕ) = q.val := by
    rw [Rect.emb_apply]; exact (by omega : 0 + 1 * q.val = q.val)
  have hb : (⟨(((Rect.unit (s := S2x512x128) ![o, 0, 0] S1x512x128.size inb).emb (ix3 (0 : Fin 1) t q)) 0 : ℕ), by rw [e0]; exact ho⟩ : Fin 2) = ⟨o, ho⟩ :=
    Fin.ext e0
  have ht : (⟨(((Rect.unit (s := S2x512x128) ![o, 0, 0] S1x512x128.size inb).emb (ix3 (0 : Fin 1) t q)) 1 : ℕ), by rw [e1]; exact t.isLt⟩ : Fin 512) = t :=
    Fin.ext e1
  have hq : (⟨(((Rect.unit (s := S2x512x128) ![o, 0, 0] S1x512x128.size inb).emb (ix3 (0 : Fin 1) t q)) 2 : ℕ), by rw [e2]; exact q.isLt⟩ : Fin 128) = q :=
    Fin.ext e2
  rw [hb, ht, hq]
  unfold State.num1
  exact (State.sum_next_block (fun s => State.p1 A ⟨o, ho⟩ (Cert.Spec.DenseGat.headOf q) s t * State.h1 A ⟨o, ho⟩ s q) c).symm

/-! ## The two accumulators after a middle point -/

/-- At a middle point the two stores into the denominator accumulator (one 4 x 512 block per batch slice) tile it. -/
theorem coverB_20 (c : Dev nD) (i : grid0.Coords) (arg1 : Memref sig .tc .vmem S64x512x128 .f32) (harg1 : arg1.IsWhole) (arg2 : Memref sig .tc .vmem S512x512 .i32) (harg2 : arg2.IsWhole) (arg3 : Memref sig .tc .vmem S512x2x128 .f32) (harg3 : arg3.IsWhole) (arg4 : Memref sig .tc .vmem S128x128 .f32) (harg4 : arg4.IsWhole) (arg5 : Memref sig .tc .vmem S128x128 .f32) (harg5 : arg5.IsWhole) (arg6 : Memref sig .tc .vmem S4x1 .f32) (harg6 : arg6.IsWhole) (arg7 : Memref sig .tc .vmem S4x1 .f32) (harg7 : arg7.IsWhole) (arg8 : Memref sig .tc .vmem S128x128 .f32) (harg8 : arg8.IsWhole) (arg9 : Memref sig .tc .vmem S4x32 .f32) (harg9 : arg9.IsWhole) (arg10 : Memref sig .tc .vmem S4x32 .f32) (harg10 : arg10.IsWhole) (arg11 : Memref sig .tc .vmem S128x128 .f32) (harg11 : arg11.IsWhole) (arg12 : Memref sig .tc .vmem S4x32 .f32) (harg12 : arg12.IsWhole) (arg13 : Memref sig .tc .vmem S4x32 .f32) (harg13 : arg13.IsWhole) (arg14 : Memref sig .tc .vmem S512x2x128 .f32) (harg14 : arg14.IsWhole) (arg15 : Memref sig .tc .vmem S4x512x512 .f32) (harg15 : arg15.IsWhole) (arg16 : Memref sig .tc .vmem S2x512x128 .f32) (harg16 : arg16.IsWhole) (arg17 : Memref sig .tc .vmem S512x8 .f32) (harg17 : arg17.IsWhole) (arg18 : Memref sig .tc .vmem S8x512 .f32) (harg18 : arg18.IsWhole) (arg19 : Memref sig .tc .vmem S2x512x128 .f32) (harg19 : arg19.IsWhole) (arg20 : Memref sig .tc .vmem S8x512 .f32) (harg20 : arg20.IsWhole) (hc0 : ¬isFirst i) (hc1 : ¬isLast i)
    (x1 : Vec Ideal S64x512x128 .f32) (x2 : Vec Ideal S512x512 .i32) (x3 : Vec Ideal S512x2x128 .f32) (x4 : Vec Ideal S128x128 .f32) (x5 : Vec Ideal S128x128 .f32) (x6 : Vec Ideal S4x1 .f32) (x7 : Vec Ideal S4x1 .f32) (x8 : Vec Ideal S128x128 .f32) (x9 : Vec Ideal S4x32 .f32) (x10 : Vec Ideal S4x32 .f32) (x11 : Vec Ideal S128x128 .f32) (x12 : Vec Ideal S4x32 .f32) (x13 : Vec Ideal S4x32 .f32) (y15 : Vec Ideal S4x512x512 .f32) (y16 : Vec Ideal S2x512x128 .f32) (y17 : Vec Ideal S512x8 .f32) (y18 : Vec Ideal S8x512 .f32) (y19 : Vec Ideal S2x512x128 .f32) (y20 : Vec Ideal S8x512 .f32) (y : S8x512.Idx) :
    ∃ pc ∈ (namedB (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 hc1 x1 x2 x3 x4 x5 x6 x7 x8 x9 x10 x11 x12 x13 y15 y16 y17 y18 y19 y20).2.2.1, y ∈ pc.1.set :=
  View.cover_of_tiledBy ((namedB (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 hc1 x1 x2 x3 x4 x5 x6 x7 x8 x9 x10 x11 x12 x13 y15 y16 y17 y18 y19 y20).2.2.1) S4x512.size (by sl_kernel_rfl) y

/-- With the buffers holding the state after block c's predecessors, the denominator accumulator a middle point leaves
    holds the partial sums over the sources of blocks 0 … c. -/
theorem den1_mid_canon (c : Dev nD) (i : grid0.Coords) (arg1 : Memref sig .tc .vmem S64x512x128 .f32) (harg1 : arg1.IsWhole) (arg2 : Memref sig .tc .vmem S512x512 .i32) (harg2 : arg2.IsWhole) (arg3 : Memref sig .tc .vmem S512x2x128 .f32) (harg3 : arg3.IsWhole) (arg4 : Memref sig .tc .vmem S128x128 .f32) (harg4 : arg4.IsWhole) (arg5 : Memref sig .tc .vmem S128x128 .f32) (harg5 : arg5.IsWhole) (arg6 : Memref sig .tc .vmem S4x1 .f32) (harg6 : arg6.IsWhole) (arg7 : Memref sig .tc .vmem S4x1 .f32) (harg7 : arg7.IsWhole) (arg8 : Memref sig .tc .vmem S128x128 .f32) (harg8 : arg8.IsWhole) (arg9 : Memref sig .tc .vmem S4x32 .f32) (harg9 : arg9.IsWhole) (arg10 : Memref sig .tc .vmem S4x32 .f32) (harg10 : arg10.IsWhole) (arg11 : Memref sig .tc .vmem S128x128 .f32) (harg11 : arg11.IsWhole) (arg12 : Memref sig .tc .vmem S4x32 .f32) (harg12 : arg12.IsWhole) (arg13 : Memref sig .tc .vmem S4x32 .f32) (harg13 : arg13.IsWhole) (arg14 : Memref sig .tc .vmem S512x2x128 .f32) (harg14 : arg14.IsWhole) (arg15 : Memref sig .tc .vmem S4x512x512 .f32) (harg15 : arg15.IsWhole) (arg16 : Memref sig .tc .vmem S2x512x128 .f32) (harg16 : arg16.IsWhole) (arg17 : Memref sig .tc .vmem S512x8 .f32) (harg17 : arg17.IsWhole) (arg18 : Memref sig .tc .vmem S8x512 .f32) (harg18 : arg18.IsWhole) (arg19 : Memref sig .tc .vmem S2x512x128 .f32) (harg19 : arg19.IsWhole) (arg20 : Memref sig .tc .vmem S8x512 .f32) (harg20 : arg20.IsWhole) (hc0 : ¬isFirst i) (hc1 : ¬isLast i)
    (x1 : Vec Ideal S64x512x128 .f32) (x2 : Vec Ideal S512x512 .i32) (x3 : Vec Ideal S512x2x128 .f32) (x4 : Vec Ideal S128x128 .f32) (x5 : Vec Ideal S128x128 .f32) (x6 : Vec Ideal S4x1 .f32) (x7 : Vec Ideal S4x1 .f32) (x8 : Vec Ideal S128x128 .f32) (x9 : Vec Ideal S4x32 .f32) (x10 : Vec Ideal S4x32 .f32) (x11 : Vec Ideal S128x128 .f32) (x12 : Vec Ideal S4x32 .f32) (x13 : Vec Ideal S4x32 .f32) (y15 : Vec Ideal S4x512x512 .f32) (y16 : Vec Ideal S2x512x128 .f32) (y17 : Vec Ideal S512x8 .f32) (y18 : Vec Ideal S8x512 .f32) (y19 : Vec Ideal S2x512x128 .f32) (y20 : Vec Ideal S8x512 .f32)
    (A : State.Args) (c8 : Fin 8) (hi : (i 0).val = c8.val)
    (hx1 : ∀ (ii : Fin 64) (t : Fin 512) (k : Fin 128), x1 (ix3 ii t k) = A.ef (ix3 (State.rowOf c8 ii) t k))
    (hx2 : ∀ s t : Fin 512, x2 (ix2 s t) = A.adj (ix2 s t))
    (hx4 : ∀ q k : Fin 128, x4 (ix2 q k) = A.w1e (ix2 q k))
    (hx6 : ∀ h : Fin 4, x6 (ix2 h (0 : Fin 1)) = A.ae1 (ix2 h (0 : Fin 1)))
    (hy17 : ∀ (p : Fin 512) (b : Fin 2) (h : Fin 4), y17 (ix2 p (accRow b h)) = State.score1 A A.as1 b h p)
    (hy18 : ∀ (b : Fin 2) (h : Fin 4) (p : Fin 512), y18 (ix2 (accRow b h) p) = State.score1 A A.at1 b h p)
    (hy20 : ∀ (b : Fin 2) (h : Fin 4) (t : Fin 512), y20 (ix2 (accRow b h) t) = State.den1 A c8.val b h t)
    (hfin : ∀ q k : Fin 128, ∃ r : ℝ, A.w1e (ix2 q k) = (r : EReal)) (j : S8x512.Idx) :
    View.canon (namedB (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 hc1 x1 x2 x3 x4 x5 x6 x7 x8 x9 x10 x11 x12 x13 y15 y16 y17 y18 y19 y20).2.2.1 j = den1Fun A (c8.val + 1) j := by
  refine View.canon_apply_of_pieces (den1Fun A (c8.val + 1)) _ ?_ j (coverB_20 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 hc1 x1 x2 x3 x4 x5 x6 x7 x8 x9 x10 x11 x12 x13 y15 y16 y17 y18 y19 y20 j)
  unfold namedB
  dsimp only
  sl_unfold_words
  have hoff : BitVec.toNat (Scalar.indexCast (Scalar.muli (BitVec.ofNat 32 (i 0).val) 64#32)) = 64 * c8.val := by
    rw [hi]; exact off_block c8.val c8.isLt
  have hr1 : ∀ (inb) (ii : Fin 64) (tt : Fin 512) (kk : Fin 128),
      View.readAt (Elt Ideal) arg1.view (Rect.unit (s := S64x512x128) ![0, 0, 0] S64x512x128.size inb).toLoadRect (harg1.unread x1) (ix3 ii tt kk)
        = A.ef (ix3 (State.rowOf c8 ii) tt kk) := fun inb ii tt kk => by
    rw [View.readAt_eq_ld, harg1.read_unread, ← hx1]
    refine congrArg x1 (funext fun a => Fin.ext ?_)
    show ((Rect.unit (s := S64x512x128) ![0, 0, 0] S64x512x128.size inb).emb (ix3 ii tt kk) a : ℕ) = _
    rw [Rect.emb_apply]
    match a with
    | ⟨0, _⟩ => exact (by omega : 0 + 1 * ii.val = ii.val)
    | ⟨1, _⟩ => exact (by omega : 0 + 1 * tt.val = tt.val)
    | ⟨2, _⟩ => exact (by omega : 0 + 1 * kk.val = kk.val)
  have hr2 : ∀ (inb) (ii : Fin 64) (tt : Fin 512),
      View.readAt (Elt Ideal) arg2.view (Rect.unit (s := S512x512) ![BitVec.toNat (Scalar.indexCast (Scalar.muli (BitVec.ofNat 32 (i 0).val) 64#32)), 0] S64x512.size inb).toLoadRect (harg2.unread x2) (ix2 ii tt)
        = A.adj (ix2 (State.rowOf c8 ii) tt) := fun inb ii tt => by
    rw [View.readAt_eq_ld, harg2.read_unread, ← hx2]
    refine congrArg x2 (funext fun a => Fin.ext ?_)
    show ((Rect.unit (s := S512x512) ![BitVec.toNat (Scalar.indexCast (Scalar.muli (BitVec.ofNat 32 (i 0).val) 64#32)), 0] S64x512.size inb).emb (ix2 ii tt) a : ℕ) = _
    rw [Rect.emb_apply]
    match a with
    | ⟨0, _⟩ => show BitVec.toNat (Scalar.indexCast (Scalar.muli (BitVec.ofNat 32 (i 0).val) 64#32)) + 1 * ii.val = 64 * c8.val + ii.val; rw [hoff]; omega
    | ⟨1, _⟩ => exact (by omega : 0 + 1 * tt.val = tt.val)
  have hr4 : ∀ (inb) (qq kk : Fin 128),
      View.readAt (Elt Ideal) arg4.view (Rect.unit (s := S128x128) ![0, 0] S128x128.size inb).toLoadRect (harg4.unread x4) (ix2 qq kk)
        = A.w1e (ix2 qq kk) := fun inb qq kk => by
    rw [View.readAt_eq_ld, harg4.read_unread, ← hx4]
    refine congrArg x4 (funext fun a => Fin.ext ?_)
    show ((Rect.unit (s := S128x128) ![0, 0] S128x128.size inb).emb (ix2 qq kk) a : ℕ) = _
    rw [Rect.emb_apply]
    match a with
    | ⟨0, _⟩ => exact (by omega : 0 + 1 * qq.val = qq.val)
    | ⟨1, _⟩ => exact (by omega : 0 + 1 * kk.val = kk.val)
  have hr6 : ∀ (inb) (hh : Fin 4),
      View.readAt (Elt Ideal) arg6.view (Rect.unit (s := S4x1) ![0, 0] S4x1.size inb).toLoadRect (harg6.unread x6) (ix2 hh (0 : Fin 1))
        = A.ae1 (ix2 hh (0 : Fin 1)) := fun inb hh => by
    rw [View.readAt_eq_ld, harg6.read_unread, ← hx6]
    refine congrArg x6 (funext fun a => Fin.ext ?_)
    show ((Rect.unit (s := S4x1) ![0, 0] S4x1.size inb).emb (ix2 hh (0 : Fin 1)) a : ℕ) = _
    rw [Rect.emb_apply]
    match a with
    | ⟨0, _⟩ => exact (by omega : 0 + 1 * hh.val = hh.val)
    | ⟨1, _⟩ => exact (by omega : 0 + 1 * 0 = 0)
  have hr17 : ∀ (b : Fin 2) (h : Fin 4) (inb) (ii : Fin 64),
      View.readAt (Elt Ideal) arg17.view (Rect.unit (s := S512x8) ![BitVec.toNat (Scalar.indexCast (Scalar.muli (BitVec.ofNat 32 (i 0).val) 64#32)), 4 * b.val + h.val] S64x1.size inb).toLoadRect (harg17.unread y17) (ix2 ii (0 : Fin 1))
        = State.score1 A A.as1 b h (State.rowOf c8 ii) := fun b h inb ii => by
    rw [View.readAt_eq_ld, harg17.read_unread, ← hy17]
    refine congrArg y17 (funext fun a => Fin.ext ?_)
    show ((Rect.unit (s := S512x8) ![BitVec.toNat (Scalar.indexCast (Scalar.muli (BitVec.ofNat 32 (i 0).val) 64#32)), 4 * b.val + h.val] S64x1.size inb).emb (ix2 ii (0 : Fin 1)) a : ℕ) = _
    rw [Rect.emb_apply]
    match a with
    | ⟨0, _⟩ => show BitVec.toNat (Scalar.indexCast (Scalar.muli (BitVec.ofNat 32 (i 0).val) 64#32)) + 1 * ii.val = 64 * c8.val + ii.val; rw [hoff]; omega
    | ⟨1, _⟩ => exact (by omega : 4 * b.val + h.val + 1 * 0 = 4 * b.val + h.val)
  have hr18 : ∀ (b : Fin 2) (h : Fin 4) (inb) (tt : Fin 512),
      View.readAt (Elt Ideal) arg18.view (Rect.unit (s := S8x512) ![4 * b.val + h.val, 0] S1x512.size inb).toLoadRect (harg18.unread y18) (ix2 (0 : Fin 1) tt)
        = State.score1 A A.at1 b h tt := fun b h inb tt => by
    rw [View.readAt_eq_ld, harg18.read_unread, ← hy18]
    refine congrArg y18 (funext fun a => Fin.ext ?_)
    show ((Rect.unit (s := S8x512) ![4 * b.val + h.val, 0] S1x512.size inb).emb (ix2 (0 : Fin 1) tt) a : ℕ) = _
    rw [Rect.emb_apply]
    match a with
    | ⟨0, _⟩ => exact (by omega : 4 * b.val + h.val + 1 * 0 = 4 * b.val + h.val)
    | ⟨1, _⟩ => exact (by omega : 0 + 1 * tt.val = tt.val)
  have hr20 : ∀ (b : Fin 2) (inb) (h : Fin 4) (tt : Fin 512),
      View.readAt (Elt Ideal) arg20.view (Rect.unit (s := S8x512) ![4 * b.val, 0] S4x512.size inb).toLoadRect (harg20.unread y20) (ix2 h tt)
        = State.den1 A c8.val b h tt := fun b inb h tt => by
    rw [View.readAt_eq_ld, harg20.read_unread, ← hy20]
    refine congrArg y20 (funext fun a => Fin.ext ?_)
    show ((Rect.unit (s := S8x512) ![4 * b.val, 0] S4x512.size inb).emb (ix2 h tt) a : ℕ) = _
    rw [Rect.emb_apply]
    match a with
    | ⟨0, _⟩ => exact (by omega : 4 * b.val + 1 * h.val = 4 * b.val + h.val)
    | ⟨1, _⟩ => exact (by omega : 0 + 1 * tt.val = tt.val)
  have hes : ∀ (h : Fin 4) (ii : Fin 64) (tt : Fin 512), k0_pay59 (F := Ideal) _ _ _ _ _ (ix3 h ii tt) = State.es A A.w1e A.ae1 h (State.rowOf c8 ii) tt :=
    fun h ii tt => es_block A c8 _
      (View.readAt (Elt Ideal) arg5.view (Rect.unit (s := S128x128) ![0, 0] S128x128.size inb_S128x128_S128x128_0_0).toLoadRect (harg5.unread x5)) _
      (View.readAt (Elt Ideal) arg7.view (Rect.unit (s := S4x1) ![0, 0] S4x1.size inb_S4x1_S4x1_0_0).toLoadRect (harg7.unread x7)) _
      (hr4 inb_S128x128_S128x128_0_0) (hr6 inb_S4x1_S4x1_0_0) (hr1 inb_S64x512x128_S64x512x128_0_0_0) hfin h ii tt
  have hmk : ∀ (ii : Fin 64) (tt : Fin 512), k0_pay61 (F := Ideal) _ (ix2 ii tt) = State.msk A (State.rowOf c8 ii) tt :=
    fun ii tt => msk_block A c8 _ (hr2 (k0_off2_inb i)) ii tt
  intro pc hpc x
  rcases List.mem_cons.mp hpc with rfl | hpc
  · refine den_block A c8 1 (by decide) inb_S8x512_S4x512_4_0 _ (fun h t => ?_) x
    refine (den_slice1 _ _ _ _ _ _ _ _ _ _ _ (fun hh ii tt => State.p1 A (1 : Fin 2) hh (State.rowOf c8 ii) tt) ?_ ?_ ?_ ?_ h t).trans ?_
    · exact fun ii tt => p1_block A c8 1 _ _ _ _ _ (hes _) hmk (hr17 1 0 _) (hr18 1 0 _) ii tt
    · exact fun ii tt => p1_block A c8 1 _ _ _ _ _ (hes _) hmk (hr17 1 1 _) (hr18 1 1 _) ii tt
    · exact fun ii tt => p1_block A c8 1 _ _ _ _ _ (hes _) hmk (hr17 1 2 _) (hr18 1 2 _) ii tt
    · exact fun ii tt => p1_block A c8 1 _ _ _ _ _ (hes _) hmk (hr17 1 3 _) (hr18 1 3 _) ii tt
    · exact congrArg (· + _) (hr20 1 _ h t)
  · rcases List.mem_cons.mp hpc with rfl | hpc
    · refine den_block A c8 0 (by decide) inb_S8x512_S4x512_0_0 _ (fun h t => ?_) x
      refine (den_slice0 _ _ _ _ _ _ _ _ _ _ _ (fun hh ii tt => State.p1 A (0 : Fin 2) hh (State.rowOf c8 ii) tt) ?_ ?_ ?_ ?_ h t).trans ?_
      · exact fun ii tt => p1_block A c8 0 _ _ _ _ _ (hes _) hmk (hr17 0 0 _) (hr18 0 0 _) ii tt
      · exact fun ii tt => p1_block A c8 0 _ _ _ _ _ (hes _) hmk (hr17 0 1 _) (hr18 0 1 _) ii tt
      · exact fun ii tt => p1_block A c8 0 _ _ _ _ _ (hes _) hmk (hr17 0 2 _) (hr18 0 2 _) ii tt
      · exact fun ii tt => p1_block A c8 0 _ _ _ _ _ (hes _) hmk (hr17 0 3 _) (hr18 0 3 _) ii tt
      · exact congrArg (· + _) (hr20 0 _ h t)
    · exact absurd hpc (List.not_mem_nil)

/-- The same, as the buffer's contents read back: row 4 b + h, column t holds the partial sum over the sources of
    blocks 0 … c of layer 1's masked exponentials of head h, slice b, target t. -/
theorem den1_mid (c : Dev nD) (i : grid0.Coords) (arg1 : Memref sig .tc .vmem S64x512x128 .f32) (harg1 : arg1.IsWhole) (arg2 : Memref sig .tc .vmem S512x512 .i32) (harg2 : arg2.IsWhole) (arg3 : Memref sig .tc .vmem S512x2x128 .f32) (harg3 : arg3.IsWhole) (arg4 : Memref sig .tc .vmem S128x128 .f32) (harg4 : arg4.IsWhole) (arg5 : Memref sig .tc .vmem S128x128 .f32) (harg5 : arg5.IsWhole) (arg6 : Memref sig .tc .vmem S4x1 .f32) (harg6 : arg6.IsWhole) (arg7 : Memref sig .tc .vmem S4x1 .f32) (harg7 : arg7.IsWhole) (arg8 : Memref sig .tc .vmem S128x128 .f32) (harg8 : arg8.IsWhole) (arg9 : Memref sig .tc .vmem S4x32 .f32) (harg9 : arg9.IsWhole) (arg10 : Memref sig .tc .vmem S4x32 .f32) (harg10 : arg10.IsWhole) (arg11 : Memref sig .tc .vmem S128x128 .f32) (harg11 : arg11.IsWhole) (arg12 : Memref sig .tc .vmem S4x32 .f32) (harg12 : arg12.IsWhole) (arg13 : Memref sig .tc .vmem S4x32 .f32) (harg13 : arg13.IsWhole) (arg14 : Memref sig .tc .vmem S512x2x128 .f32) (harg14 : arg14.IsWhole) (arg15 : Memref sig .tc .vmem S4x512x512 .f32) (harg15 : arg15.IsWhole) (arg16 : Memref sig .tc .vmem S2x512x128 .f32) (harg16 : arg16.IsWhole) (arg17 : Memref sig .tc .vmem S512x8 .f32) (harg17 : arg17.IsWhole) (arg18 : Memref sig .tc .vmem S8x512 .f32) (harg18 : arg18.IsWhole) (arg19 : Memref sig .tc .vmem S2x512x128 .f32) (harg19 : arg19.IsWhole) (arg20 : Memref sig .tc .vmem S8x512 .f32) (harg20 : arg20.IsWhole) (hc0 : ¬isFirst i) (hc1 : ¬isLast i)
    (x1 : Vec Ideal S64x512x128 .f32) (x2 : Vec Ideal S512x512 .i32) (x3 : Vec Ideal S512x2x128 .f32) (x4 : Vec Ideal S128x128 .f32) (x5 : Vec Ideal S128x128 .f32) (x6 : Vec Ideal S4x1 .f32) (x7 : Vec Ideal S4x1 .f32) (x8 : Vec Ideal S128x128 .f32) (x9 : Vec Ideal S4x32 .f32) (x10 : Vec Ideal S4x32 .f32) (x11 : Vec Ideal S128x128 .f32) (x12 : Vec Ideal S4x32 .f32) (x13 : Vec Ideal S4x32 .f32) (y15 : Vec Ideal S4x512x512 .f32) (y16 : Vec Ideal S2x512x128 .f32) (y17 : Vec Ideal S512x8 .f32) (y18 : Vec Ideal S8x512 .f32) (y19 : Vec Ideal S2x512x128 .f32) (y20 : Vec Ideal S8x512 .f32)
    (A : State.Args) (c8 : Fin 8) (hi : (i 0).val = c8.val)
    (hx1 : ∀ (ii : Fin 64) (t : Fin 512) (k : Fin 128), x1 (ix3 ii t k) = A.ef (ix3 (State.rowOf c8 ii) t k))
    (hx2 : ∀ s t : Fin 512, x2 (ix2 s t) = A.adj (ix2 s t))
    (hx4 : ∀ q k : Fin 128, x4 (ix2 q k) = A.w1e (ix2 q k))
    (hx6 : ∀ h : Fin 4, x6 (ix2 h (0 : Fin 1)) = A.ae1 (ix2 h (0 : Fin 1)))
    (hy17 : ∀ (p : Fin 512) (b : Fin 2) (h : Fin 4), y17 (ix2 p (accRow b h)) = State.score1 A A.as1 b h p)
    (hy18 : ∀ (b : Fin 2) (h : Fin 4) (p : Fin 512), y18 (ix2 (accRow b h) p) = State.score1 A A.at1 b h p)
    (hy20 : ∀ (b : Fin 2) (h : Fin 4) (t : Fin 512), y20 (ix2 (accRow b h) t) = State.den1 A c8.val b h t)
    (hfin : ∀ q k : Fin 128, ∃ r : ℝ, A.w1e (ix2 q k) = (r : EReal)) (b : Fin 2) (h : Fin 4) (t : Fin 512) :
    arg20.view.read (Elt Ideal) (arg20.view.writes (Elt Ideal) (harg20.unread y20)
        (namedB (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 hc1 x1 x2 x3 x4 x5 x6 x7 x8 x9 x10 x11 x12 x13 y15 y16 y17 y18 y19 y20).2.2.1) (ix2 (accRow b h) t)
      = State.den1 A (c8.val + 1) b h t := by
  rw [View.read_writes_eq_canon _ _ _ (coverB_20 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 hc1 x1 x2 x3 x4 x5 x6 x7 x8 x9 x10 x11 x12 x13 y15 y16 y17 y18 y19 y20),
    den1_mid_canon c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 hc1 x1 x2 x3 x4 x5 x6 x7 x8 x9 x10 x11 x12 x13 y15 y16 y17 y18 y19 y20 A c8 hi hx1 hx2 hx4 hx6 hy17 hy18 hy20 hfin, den1Fun_apply]

/-- At a middle point the two stores into the numerator accumulator (one 512 x 128 block per batch slice) tile it. -/
theorem coverB_19 (c : Dev nD) (i : grid0.Coords) (arg1 : Memref sig .tc .vmem S64x512x128 .f32) (harg1 : arg1.IsWhole) (arg2 : Memref sig .tc .vmem S512x512 .i32) (harg2 : arg2.IsWhole) (arg3 : Memref sig .tc .vmem S512x2x128 .f32) (harg3 : arg3.IsWhole) (arg4 : Memref sig .tc .vmem S128x128 .f32) (harg4 : arg4.IsWhole) (arg5 : Memref sig .tc .vmem S128x128 .f32) (harg5 : arg5.IsWhole) (arg6 : Memref sig .tc .vmem S4x1 .f32) (harg6 : arg6.IsWhole) (arg7 : Memref sig .tc .vmem S4x1 .f32) (harg7 : arg7.IsWhole) (arg8 : Memref sig .tc .vmem S128x128 .f32) (harg8 : arg8.IsWhole) (arg9 : Memref sig .tc .vmem S4x32 .f32) (harg9 : arg9.IsWhole) (arg10 : Memref sig .tc .vmem S4x32 .f32) (harg10 : arg10.IsWhole) (arg11 : Memref sig .tc .vmem S128x128 .f32) (harg11 : arg11.IsWhole) (arg12 : Memref sig .tc .vmem S4x32 .f32) (harg12 : arg12.IsWhole) (arg13 : Memref sig .tc .vmem S4x32 .f32) (harg13 : arg13.IsWhole) (arg14 : Memref sig .tc .vmem S512x2x128 .f32) (harg14 : arg14.IsWhole) (arg15 : Memref sig .tc .vmem S4x512x512 .f32) (harg15 : arg15.IsWhole) (arg16 : Memref sig .tc .vmem S2x512x128 .f32) (harg16 : arg16.IsWhole) (arg17 : Memref sig .tc .vmem S512x8 .f32) (harg17 : arg17.IsWhole) (arg18 : Memref sig .tc .vmem S8x512 .f32) (harg18 : arg18.IsWhole) (arg19 : Memref sig .tc .vmem S2x512x128 .f32) (harg19 : arg19.IsWhole) (arg20 : Memref sig .tc .vmem S8x512 .f32) (harg20 : arg20.IsWhole) (hc0 : ¬isFirst i) (hc1 : ¬isLast i)
    (x1 : Vec Ideal S64x512x128 .f32) (x2 : Vec Ideal S512x512 .i32) (x3 : Vec Ideal S512x2x128 .f32) (x4 : Vec Ideal S128x128 .f32) (x5 : Vec Ideal S128x128 .f32) (x6 : Vec Ideal S4x1 .f32) (x7 : Vec Ideal S4x1 .f32) (x8 : Vec Ideal S128x128 .f32) (x9 : Vec Ideal S4x32 .f32) (x10 : Vec Ideal S4x32 .f32) (x11 : Vec Ideal S128x128 .f32) (x12 : Vec Ideal S4x32 .f32) (x13 : Vec Ideal S4x32 .f32) (y15 : Vec Ideal S4x512x512 .f32) (y16 : Vec Ideal S2x512x128 .f32) (y17 : Vec Ideal S512x8 .f32) (y18 : Vec Ideal S8x512 .f32) (y19 : Vec Ideal S2x512x128 .f32) (y20 : Vec Ideal S8x512 .f32) (y : S2x512x128.Idx) :
    ∃ pc ∈ (namedB (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 hc1 x1 x2 x3 x4 x5 x6 x7 x8 x9 x10 x11 x12 x13 y15 y16 y17 y18 y19 y20).2.1, y ∈ pc.1.set :=
  View.cover_of_tiledBy ((namedB (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 hc1 x1 x2 x3 x4 x5 x6 x7 x8 x9 x10 x11 x12 x13 y15 y16 y17 y18 y19 y20).2.1) S1x512x128.size (by sl_kernel_rfl) y

/-- With the buffers holding the state after block c's predecessors and layer 1's masked exponentials and projected
    features finite, the numerator accumulator a middle point leaves holds the partial sums over the sources of blocks 0 … c. -/
theorem num1_mid_canon (c : Dev nD) (i : grid0.Coords) (arg1 : Memref sig .tc .vmem S64x512x128 .f32) (harg1 : arg1.IsWhole) (arg2 : Memref sig .tc .vmem S512x512 .i32) (harg2 : arg2.IsWhole) (arg3 : Memref sig .tc .vmem S512x2x128 .f32) (harg3 : arg3.IsWhole) (arg4 : Memref sig .tc .vmem S128x128 .f32) (harg4 : arg4.IsWhole) (arg5 : Memref sig .tc .vmem S128x128 .f32) (harg5 : arg5.IsWhole) (arg6 : Memref sig .tc .vmem S4x1 .f32) (harg6 : arg6.IsWhole) (arg7 : Memref sig .tc .vmem S4x1 .f32) (harg7 : arg7.IsWhole) (arg8 : Memref sig .tc .vmem S128x128 .f32) (harg8 : arg8.IsWhole) (arg9 : Memref sig .tc .vmem S4x32 .f32) (harg9 : arg9.IsWhole) (arg10 : Memref sig .tc .vmem S4x32 .f32) (harg10 : arg10.IsWhole) (arg11 : Memref sig .tc .vmem S128x128 .f32) (harg11 : arg11.IsWhole) (arg12 : Memref sig .tc .vmem S4x32 .f32) (harg12 : arg12.IsWhole) (arg13 : Memref sig .tc .vmem S4x32 .f32) (harg13 : arg13.IsWhole) (arg14 : Memref sig .tc .vmem S512x2x128 .f32) (harg14 : arg14.IsWhole) (arg15 : Memref sig .tc .vmem S4x512x512 .f32) (harg15 : arg15.IsWhole) (arg16 : Memref sig .tc .vmem S2x512x128 .f32) (harg16 : arg16.IsWhole) (arg17 : Memref sig .tc .vmem S512x8 .f32) (harg17 : arg17.IsWhole) (arg18 : Memref sig .tc .vmem S8x512 .f32) (harg18 : arg18.IsWhole) (arg19 : Memref sig .tc .vmem S2x512x128 .f32) (harg19 : arg19.IsWhole) (arg20 : Memref sig .tc .vmem S8x512 .f32) (harg20 : arg20.IsWhole) (hc0 : ¬isFirst i) (hc1 : ¬isLast i)
    (x1 : Vec Ideal S64x512x128 .f32) (x2 : Vec Ideal S512x512 .i32) (x3 : Vec Ideal S512x2x128 .f32) (x4 : Vec Ideal S128x128 .f32) (x5 : Vec Ideal S128x128 .f32) (x6 : Vec Ideal S4x1 .f32) (x7 : Vec Ideal S4x1 .f32) (x8 : Vec Ideal S128x128 .f32) (x9 : Vec Ideal S4x32 .f32) (x10 : Vec Ideal S4x32 .f32) (x11 : Vec Ideal S128x128 .f32) (x12 : Vec Ideal S4x32 .f32) (x13 : Vec Ideal S4x32 .f32) (y15 : Vec Ideal S4x512x512 .f32) (y16 : Vec Ideal S2x512x128 .f32) (y17 : Vec Ideal S512x8 .f32) (y18 : Vec Ideal S8x512 .f32) (y19 : Vec Ideal S2x512x128 .f32) (y20 : Vec Ideal S8x512 .f32)
    (A : State.Args) (c8 : Fin 8) (hi : (i 0).val = c8.val)
    (hx1 : ∀ (ii : Fin 64) (t : Fin 512) (k : Fin 128), x1 (ix3 ii t k) = A.ef (ix3 (State.rowOf c8 ii) t k))
    (hx2 : ∀ s t : Fin 512, x2 (ix2 s t) = A.adj (ix2 s t))
    (hx4 : ∀ q k : Fin 128, x4 (ix2 q k) = A.w1e (ix2 q k))
    (hx6 : ∀ h : Fin 4, x6 (ix2 h (0 : Fin 1)) = A.ae1 (ix2 h (0 : Fin 1)))
    (hy16 : ∀ (b : Fin 2) (p : Fin 512) (q : Fin 128), y16 (ix3 b p q) = State.h1 A b p q)
    (hy17 : ∀ (p : Fin 512) (b : Fin 2) (h : Fin 4), y17 (ix2 p (accRow b h)) = State.score1 A A.as1 b h p)
    (hy18 : ∀ (b : Fin 2) (h : Fin 4) (p : Fin 512), y18 (ix2 (accRow b h) p) = State.score1 A A.at1 b h p)
    (hy19 : ∀ (b : Fin 2) (t : Fin 512) (q : Fin 128), y19 (ix3 b t q) = State.num1 A c8.val b t q)
    (hfin : ∀ q k : Fin 128, ∃ r : ℝ, A.w1e (ix2 q k) = (r : EReal))
    (hpfin : ∀ (b : Fin 2) (h : Fin 4) (s t : Fin 512), ∃ r : ℝ, State.p1 A b h s t = (r : EReal))
    (hhfin : ∀ (b : Fin 2) (s : Fin 512) (q : Fin 128), ∃ r : ℝ, State.h1 A b s q = (r : EReal)) (j : S2x512x128.Idx) :
    View.canon (namedB (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 hc1 x1 x2 x3 x4 x5 x6 x7 x8 x9 x10 x11 x12 x13 y15 y16 y17 y18 y19 y20).2.1 j = num1Fun A (c8.val + 1) j := by
  refine View.canon_apply_of_pieces (num1Fun A (c8.val + 1)) _ ?_ j (coverB_19 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 hc1 x1 x2 x3 x4 x5 x6 x7 x8 x9 x10 x11 x12 x13 y15 y16 y17 y18 y19 y20 j)
  unfold namedB
  dsimp only
  sl_unfold_words
  have hoff : BitVec.toNat (Scalar.indexCast (Scalar.muli (BitVec.ofNat 32 (i 0).val) 64#32)) = 64 * c8.val := by
    rw [hi]; exact off_block c8.val c8.isLt
  have hr1 : ∀ (inb) (ii : Fin 64) (tt : Fin 512) (kk : Fin 128),
      View.readAt (Elt Ideal) arg1.view (Rect.unit (s := S64x512x128) ![0, 0, 0] S64x512x128.size inb).toLoadRect (harg1.unread x1) (ix3 ii tt kk)
        = A.ef (ix3 (State.rowOf c8 ii) tt kk) := fun inb ii tt kk => by
    rw [View.readAt_eq_ld, harg1.read_unread, ← hx1]
    refine congrArg x1 (funext fun a => Fin.ext ?_)
    show ((Rect.unit (s := S64x512x128) ![0, 0, 0] S64x512x128.size inb).emb (ix3 ii tt kk) a : ℕ) = _
    rw [Rect.emb_apply]
    match a with
    | ⟨0, _⟩ => exact (by omega : 0 + 1 * ii.val = ii.val)
    | ⟨1, _⟩ => exact (by omega : 0 + 1 * tt.val = tt.val)
    | ⟨2, _⟩ => exact (by omega : 0 + 1 * kk.val = kk.val)
  have hr2 : ∀ (inb) (ii : Fin 64) (tt : Fin 512),
      View.readAt (Elt Ideal) arg2.view (Rect.unit (s := S512x512) ![BitVec.toNat (Scalar.indexCast (Scalar.muli (BitVec.ofNat 32 (i 0).val) 64#32)), 0] S64x512.size inb).toLoadRect (harg2.unread x2) (ix2 ii tt)
        = A.adj (ix2 (State.rowOf c8 ii) tt) := fun inb ii tt => by
    rw [View.readAt_eq_ld, harg2.read_unread, ← hx2]
    refine congrArg x2 (funext fun a => Fin.ext ?_)
    show ((Rect.unit (s := S512x512) ![BitVec.toNat (Scalar.indexCast (Scalar.muli (BitVec.ofNat 32 (i 0).val) 64#32)), 0] S64x512.size inb).emb (ix2 ii tt) a : ℕ) = _
    rw [Rect.emb_apply]
    match a with
    | ⟨0, _⟩ => show BitVec.toNat (Scalar.indexCast (Scalar.muli (BitVec.ofNat 32 (i 0).val) 64#32)) + 1 * ii.val = 64 * c8.val + ii.val; rw [hoff]; omega
    | ⟨1, _⟩ => exact (by omega : 0 + 1 * tt.val = tt.val)
  have hr4 : ∀ (inb) (qq kk : Fin 128),
      View.readAt (Elt Ideal) arg4.view (Rect.unit (s := S128x128) ![0, 0] S128x128.size inb).toLoadRect (harg4.unread x4) (ix2 qq kk)
        = A.w1e (ix2 qq kk) := fun inb qq kk => by
    rw [View.readAt_eq_ld, harg4.read_unread, ← hx4]
    refine congrArg x4 (funext fun a => Fin.ext ?_)
    show ((Rect.unit (s := S128x128) ![0, 0] S128x128.size inb).emb (ix2 qq kk) a : ℕ) = _
    rw [Rect.emb_apply]
    match a with
    | ⟨0, _⟩ => exact (by omega : 0 + 1 * qq.val = qq.val)
    | ⟨1, _⟩ => exact (by omega : 0 + 1 * kk.val = kk.val)
  have hr6 : ∀ (inb) (hh : Fin 4),
      View.readAt (Elt Ideal) arg6.view (Rect.unit (s := S4x1) ![0, 0] S4x1.size inb).toLoadRect (harg6.unread x6) (ix2 hh (0 : Fin 1))
        = A.ae1 (ix2 hh (0 : Fin 1)) := fun inb hh => by
    rw [View.readAt_eq_ld, harg6.read_unread, ← hx6]
    refine congrArg x6 (funext fun a => Fin.ext ?_)
    show ((Rect.unit (s := S4x1) ![0, 0] S4x1.size inb).emb (ix2 hh (0 : Fin 1)) a : ℕ) = _
    rw [Rect.emb_apply]
    match a with
    | ⟨0, _⟩ => exact (by omega : 0 + 1 * hh.val = hh.val)
    | ⟨1, _⟩ => exact (by omega : 0 + 1 * 0 = 0)
  have hr17 : ∀ (b : Fin 2) (h : Fin 4) (inb) (ii : Fin 64),
      View.readAt (Elt Ideal) arg17.view (Rect.unit (s := S512x8) ![BitVec.toNat (Scalar.indexCast (Scalar.muli (BitVec.ofNat 32 (i 0).val) 64#32)), 4 * b.val + h.val] S64x1.size inb).toLoadRect (harg17.unread y17) (ix2 ii (0 : Fin 1))
        = State.score1 A A.as1 b h (State.rowOf c8 ii) := fun b h inb ii => by
    rw [View.readAt_eq_ld, harg17.read_unread, ← hy17]
    refine congrArg y17 (funext fun a => Fin.ext ?_)
    show ((Rect.unit (s := S512x8) ![BitVec.toNat (Scalar.indexCast (Scalar.muli (BitVec.ofNat 32 (i 0).val) 64#32)), 4 * b.val + h.val] S64x1.size inb).emb (ix2 ii (0 : Fin 1)) a : ℕ) = _
    rw [Rect.emb_apply]
    match a with
    | ⟨0, _⟩ => show BitVec.toNat (Scalar.indexCast (Scalar.muli (BitVec.ofNat 32 (i 0).val) 64#32)) + 1 * ii.val = 64 * c8.val + ii.val; rw [hoff]; omega
    | ⟨1, _⟩ => exact (by omega : 4 * b.val + h.val + 1 * 0 = 4 * b.val + h.val)
  have hr18 : ∀ (b : Fin 2) (h : Fin 4) (inb) (tt : Fin 512),
      View.readAt (Elt Ideal) arg18.view (Rect.unit (s := S8x512) ![4 * b.val + h.val, 0] S1x512.size inb).toLoadRect (harg18.unread y18) (ix2 (0 : Fin 1) tt)
        = State.score1 A A.at1 b h tt := fun b h inb tt => by
    rw [View.readAt_eq_ld, harg18.read_unread, ← hy18]
    refine congrArg y18 (funext fun a => Fin.ext ?_)
    show ((Rect.unit (s := S8x512) ![4 * b.val + h.val, 0] S1x512.size inb).emb (ix2 (0 : Fin 1) tt) a : ℕ) = _
    rw [Rect.emb_apply]
    match a with
    | ⟨0, _⟩ => exact (by omega : 4 * b.val + h.val + 1 * 0 = 4 * b.val + h.val)
    | ⟨1, _⟩ => exact (by omega : 0 + 1 * tt.val = tt.val)
  have hr16 : ∀ (b : Fin 2) (inb) (ii : Fin 64) (qq : Fin 128),
      View.readAt (Elt Ideal) arg16.view (Rect.unit (s := S2x512x128) ![b.val, BitVec.toNat (Scalar.indexCast (Scalar.muli (BitVec.ofNat 32 (i 0).val) 64#32)), 0] S1x64x128.size inb).toLoadRect (harg16.unread y16) (ix3 (0 : Fin 1) ii qq)
        = State.h1 A b (State.rowOf c8 ii) qq := fun b inb ii qq => by
    rw [View.readAt_eq_ld, harg16.read_unread, ← hy16]
    refine congrArg y16 (funext fun a => Fin.ext ?_)
    show ((Rect.unit (s := S2x512x128) ![b.val, BitVec.toNat (Scalar.indexCast (Scalar.muli (BitVec.ofNat 32 (i 0).val) 64#32)), 0] S1x64x128.size inb).emb (ix3 (0 : Fin 1) ii qq) a : ℕ) = _
    rw [Rect.emb_apply]
    match a with
    | ⟨0, _⟩ => exact (by omega : b.val + 1 * 0 = b.val)
    | ⟨1, _⟩ => show BitVec.toNat (Scalar.indexCast (Scalar.muli (BitVec.ofNat 32 (i 0).val) 64#32)) + 1 * ii.val = 64 * c8.val + ii.val; rw [hoff]; omega
    | ⟨2, _⟩ => exact (by omega : 0 + 1 * qq.val = qq.val)
  have hr19 : ∀ (b : Fin 2) (inb) (tt : Fin 512) (qq : Fin 128),
      View.readAt (Elt Ideal) arg19.view (Rect.unit (s := S2x512x128) ![b.val, 0, 0] S1x512x128.size inb).toLoadRect (harg19.unread y19) (ix3 (0 : Fin 1) tt qq)
        = State.num1 A c8.val b tt qq := fun b inb tt qq => by
    rw [View.readAt_eq_ld, harg19.read_unread, ← hy19]
    refine congrArg y19 (funext fun a => Fin.ext ?_)
    show ((Rect.unit (s := S2x512x128) ![b.val, 0, 0] S1x512x128.size inb).emb (ix3 (0 : Fin 1) tt qq) a : ℕ) = _
    rw [Rect.emb_apply]
    match a with
    | ⟨0, _⟩ => exact (by omega : b.val + 1 * 0 = b.val)
    | ⟨1, _⟩ => exact (by omega : 0 + 1 * tt.val = tt.val)
    | ⟨2, _⟩ => exact (by omega : 0 + 1 * qq.val = qq.val)
  have hg : ∀ (b : Fin 2) (inb) (ii : Fin 64) (qq : Fin 128),
      k0_pay62 (F := Ideal) (View.readAt (Elt Ideal) arg16.view (Rect.unit (s := S2x512x128) ![b.val, BitVec.toNat (Scalar.indexCast (Scalar.muli (BitVec.ofNat 32 (i 0).val) 64#32)), 0] S1x64x128.size inb).toLoadRect (harg16.unread y16)) (ix2 ii qq)
        = State.h1 A b (State.rowOf c8 ii) qq := fun b inb ii qq => by
    unfold k0_pay62
    rw [shapeCast_1ab_ab_apply]
    exact hr16 b inb ii qq
  have hes : ∀ (h : Fin 4) (ii : Fin 64) (tt : Fin 512), k0_pay59 (F := Ideal) _ _ _ _ _ (ix3 h ii tt) = State.es A A.w1e A.ae1 h (State.rowOf c8 ii) tt :=
    fun h ii tt => es_block A c8 _
      (View.readAt (Elt Ideal) arg5.view (Rect.unit (s := S128x128) ![0, 0] S128x128.size inb_S128x128_S128x128_0_0).toLoadRect (harg5.unread x5)) _
      (View.readAt (Elt Ideal) arg7.view (Rect.unit (s := S4x1) ![0, 0] S4x1.size inb_S4x1_S4x1_0_0).toLoadRect (harg7.unread x7)) _
      (hr4 inb_S128x128_S128x128_0_0) (hr6 inb_S4x1_S4x1_0_0) (hr1 inb_S64x512x128_S64x512x128_0_0_0) hfin h ii tt
  have hmk : ∀ (ii : Fin 64) (tt : Fin 512), k0_pay61 (F := Ideal) _ (ix2 ii tt) = State.msk A (State.rowOf c8 ii) tt :=
    fun ii tt => msk_block A c8 _ (hr2 (k0_off2_inb i)) ii tt
  intro pc hpc x
  rcases List.mem_cons.mp hpc with rfl | hpc
  · refine num_block A c8 1 (by decide) inb_S2x512x128_S1x512x128_1_0_0 _ (fun t q => ?_) x
    refine (num_slice1 _ _ _ (fun hh ii tt => State.p1 A (1 : Fin 2) hh (State.rowOf c8 ii) tt)
      ?hT1 (fun hh ii tt => hpfin 1 hh _ tt)
      (fun ii qq => by obtain ⟨r, hr⟩ := hhfin 1 (State.rowOf c8 ii) qq; exact ⟨r, (hg 1 _ ii qq).trans hr⟩) t q).trans ?_
    · intro hh ii tt
      refine table1 _ _ _ _ _ _ _ _ _ _ (fun hh ii tt => State.p1 A (1 : Fin 2) hh (State.rowOf c8 ii) tt) ?_ ?_ ?_ ?_ hh ii tt
      · exact fun ii tt => p1_block A c8 1 _ _ _ _ _ (hes _) hmk (hr17 1 0 _) (hr18 1 0 _) ii tt
      · exact fun ii tt => p1_block A c8 1 _ _ _ _ _ (hes _) hmk (hr17 1 1 _) (hr18 1 1 _) ii tt
      · exact fun ii tt => p1_block A c8 1 _ _ _ _ _ (hes _) hmk (hr17 1 2 _) (hr18 1 2 _) ii tt
      · exact fun ii tt => p1_block A c8 1 _ _ _ _ _ (hes _) hmk (hr17 1 3 _) (hr18 1 3 _) ii tt
    · exact congrArg₂ (· + ·) (hr19 1 _ t q) (Finset.sum_congr rfl fun ii _ => congrArg (_ * ·) (hg 1 _ ii q))
  · rcases List.mem_cons.mp hpc with rfl | hpc
    · refine num_block A c8 0 (by decide) inb_S2x512x128_S1x512x128_0_0_0 _ (fun t q => ?_) x
      refine (num_slice0 _ _ _ (fun hh ii tt => State.p1 A (0 : Fin 2) hh (State.rowOf c8 ii) tt)
        ?hT0 (fun hh ii tt => hpfin 0 hh _ tt)
        (fun ii qq => by obtain ⟨r, hr⟩ := hhfin 0 (State.rowOf c8 ii) qq; exact ⟨r, (hg 0 _ ii qq).trans hr⟩) t q).trans ?_
      · intro hh ii tt
        refine table0 _ _ _ _ _ _ _ _ _ _ (fun hh ii tt => State.p1 A (0 : Fin 2) hh (State.rowOf c8 ii) tt) ?_ ?_ ?_ ?_ hh ii tt
        · exact fun ii tt => p1_block A c8 0 _ _ _ _ _ (hes _) hmk (hr17 0 0 _) (hr18 0 0 _) ii tt
        · exact fun ii tt => p1_block A c8 0 _ _ _ _ _ (hes _) hmk (hr17 0 1 _) (hr18 0 1 _) ii tt
        · exact fun ii tt => p1_block A c8 0 _ _ _ _ _ (hes _) hmk (hr17 0 2 _) (hr18 0 2 _) ii tt
        · exact fun ii tt => p1_block A c8 0 _ _ _ _ _ (hes _) hmk (hr17 0 3 _) (hr18 0 3 _) ii tt
      · exact congrArg₂ (· + ·) (hr19 0 _ t q) (Finset.sum_congr rfl fun ii _ => congrArg (_ * ·) (hg 0 _ ii q))
    · exact absurd hpc (List.not_mem_nil)

/-- The same, as the buffer's contents read back: entry (b, t, q) holds the partial sum over the sources s of blocks
    0 … c of the masked exponential of q's head on (s, t) times the projected feature q of s. -/
theorem num1_mid (c : Dev nD) (i : grid0.Coords) (arg1 : Memref sig .tc .vmem S64x512x128 .f32) (harg1 : arg1.IsWhole) (arg2 : Memref sig .tc .vmem S512x512 .i32) (harg2 : arg2.IsWhole) (arg3 : Memref sig .tc .vmem S512x2x128 .f32) (harg3 : arg3.IsWhole) (arg4 : Memref sig .tc .vmem S128x128 .f32) (harg4 : arg4.IsWhole) (arg5 : Memref sig .tc .vmem S128x128 .f32) (harg5 : arg5.IsWhole) (arg6 : Memref sig .tc .vmem S4x1 .f32) (harg6 : arg6.IsWhole) (arg7 : Memref sig .tc .vmem S4x1 .f32) (harg7 : arg7.IsWhole) (arg8 : Memref sig .tc .vmem S128x128 .f32) (harg8 : arg8.IsWhole) (arg9 : Memref sig .tc .vmem S4x32 .f32) (harg9 : arg9.IsWhole) (arg10 : Memref sig .tc .vmem S4x32 .f32) (harg10 : arg10.IsWhole) (arg11 : Memref sig .tc .vmem S128x128 .f32) (harg11 : arg11.IsWhole) (arg12 : Memref sig .tc .vmem S4x32 .f32) (harg12 : arg12.IsWhole) (arg13 : Memref sig .tc .vmem S4x32 .f32) (harg13 : arg13.IsWhole) (arg14 : Memref sig .tc .vmem S512x2x128 .f32) (harg14 : arg14.IsWhole) (arg15 : Memref sig .tc .vmem S4x512x512 .f32) (harg15 : arg15.IsWhole) (arg16 : Memref sig .tc .vmem S2x512x128 .f32) (harg16 : arg16.IsWhole) (arg17 : Memref sig .tc .vmem S512x8 .f32) (harg17 : arg17.IsWhole) (arg18 : Memref sig .tc .vmem S8x512 .f32) (harg18 : arg18.IsWhole) (arg19 : Memref sig .tc .vmem S2x512x128 .f32) (harg19 : arg19.IsWhole) (arg20 : Memref sig .tc .vmem S8x512 .f32) (harg20 : arg20.IsWhole) (hc0 : ¬isFirst i) (hc1 : ¬isLast i)
    (x1 : Vec Ideal S64x512x128 .f32) (x2 : Vec Ideal S512x512 .i32) (x3 : Vec Ideal S512x2x128 .f32) (x4 : Vec Ideal S128x128 .f32) (x5 : Vec Ideal S128x128 .f32) (x6 : Vec Ideal S4x1 .f32) (x7 : Vec Ideal S4x1 .f32) (x8 : Vec Ideal S128x128 .f32) (x9 : Vec Ideal S4x32 .f32) (x10 : Vec Ideal S4x32 .f32) (x11 : Vec Ideal S128x128 .f32) (x12 : Vec Ideal S4x32 .f32) (x13 : Vec Ideal S4x32 .f32) (y15 : Vec Ideal S4x512x512 .f32) (y16 : Vec Ideal S2x512x128 .f32) (y17 : Vec Ideal S512x8 .f32) (y18 : Vec Ideal S8x512 .f32) (y19 : Vec Ideal S2x512x128 .f32) (y20 : Vec Ideal S8x512 .f32)
    (A : State.Args) (c8 : Fin 8) (hi : (i 0).val = c8.val)
    (hx1 : ∀ (ii : Fin 64) (t : Fin 512) (k : Fin 128), x1 (ix3 ii t k) = A.ef (ix3 (State.rowOf c8 ii) t k))
    (hx2 : ∀ s t : Fin 512, x2 (ix2 s t) = A.adj (ix2 s t))
    (hx4 : ∀ q k : Fin 128, x4 (ix2 q k) = A.w1e (ix2 q k))
    (hx6 : ∀ h : Fin 4, x6 (ix2 h (0 : Fin 1)) = A.ae1 (ix2 h (0 : Fin 1)))
    (hy16 : ∀ (b : Fin 2) (p : Fin 512) (q : Fin 128), y16 (ix3 b p q) = State.h1 A b p q)
    (hy17 : ∀ (p : Fin 512) (b : Fin 2) (h : Fin 4), y17 (ix2 p (accRow b h)) = State.score1 A A.as1 b h p)
    (hy18 : ∀ (b : Fin 2) (h : Fin 4) (p : Fin 512), y18 (ix2 (accRow b h) p) = State.score1 A A.at1 b h p)
    (hy19 : ∀ (b : Fin 2) (t : Fin 512) (q : Fin 128), y19 (ix3 b t q) = State.num1 A c8.val b t q)
    (hfin : ∀ q k : Fin 128, ∃ r : ℝ, A.w1e (ix2 q k) = (r : EReal))
    (hpfin : ∀ (b : Fin 2) (h : Fin 4) (s t : Fin 512), ∃ r : ℝ, State.p1 A b h s t = (r : EReal))
    (hhfin : ∀ (b : Fin 2) (s : Fin 512) (q : Fin 128), ∃ r : ℝ, State.h1 A b s q = (r : EReal)) (b : Fin 2) (t : Fin 512) (q : Fin 128) :
    arg19.view.read (Elt Ideal) (arg19.view.writes (Elt Ideal) (harg19.unread y19)
        (namedB (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 hc1 x1 x2 x3 x4 x5 x6 x7 x8 x9 x10 x11 x12 x13 y15 y16 y17 y18 y19 y20).2.1) (ix3 b t q)
      = State.num1 A (c8.val + 1) b t q := by
  rw [View.read_writes_eq_canon _ _ _ (coverB_19 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 hc1 x1 x2 x3 x4 x5 x6 x7 x8 x9 x10 x11 x12 x13 y15 y16 y17 y18 y19 y20),
    num1_mid_canon c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 hc1 x1 x2 x3 x4 x5 x6 x7 x8 x9 x10 x11 x12 x13 y15 y16 y17 y18 y19 y20 A c8 hi hx1 hx2 hx4 hx6 hy16 hy17 hy18 hy19 hfin hpfin hhfin, num1Fun_apply]

/-! ## The two accumulators after the last point: the same stores -/

/-- At the last point the two stores into the denominator accumulator (one 4 x 512 block per batch slice) tile it. -/
theorem coverC_20 (c : Dev nD) (i : grid0.Coords) (arg1 : Memref sig .tc .vmem S64x512x128 .f32) (harg1 : arg1.IsWhole) (arg2 : Memref sig .tc .vmem S512x512 .i32) (harg2 : arg2.IsWhole) (arg3 : Memref sig .tc .vmem S512x2x128 .f32) (harg3 : arg3.IsWhole) (arg4 : Memref sig .tc .vmem S128x128 .f32) (harg4 : arg4.IsWhole) (arg5 : Memref sig .tc .vmem S128x128 .f32) (harg5 : arg5.IsWhole) (arg6 : Memref sig .tc .vmem S4x1 .f32) (harg6 : arg6.IsWhole) (arg7 : Memref sig .tc .vmem S4x1 .f32) (harg7 : arg7.IsWhole) (arg8 : Memref sig .tc .vmem S128x128 .f32) (harg8 : arg8.IsWhole) (arg9 : Memref sig .tc .vmem S4x32 .f32) (harg9 : arg9.IsWhole) (arg10 : Memref sig .tc .vmem S4x32 .f32) (harg10 : arg10.IsWhole) (arg11 : Memref sig .tc .vmem S128x128 .f32) (harg11 : arg11.IsWhole) (arg12 : Memref sig .tc .vmem S4x32 .f32) (harg12 : arg12.IsWhole) (arg13 : Memref sig .tc .vmem S4x32 .f32) (harg13 : arg13.IsWhole) (arg14 : Memref sig .tc .vmem S512x2x128 .f32) (harg14 : arg14.IsWhole) (arg15 : Memref sig .tc .vmem S4x512x512 .f32) (harg15 : arg15.IsWhole) (arg16 : Memref sig .tc .vmem S2x512x128 .f32) (harg16 : arg16.IsWhole) (arg17 : Memref sig .tc .vmem S512x8 .f32) (harg17 : arg17.IsWhole) (arg18 : Memref sig .tc .vmem S8x512 .f32) (harg18 : arg18.IsWhole) (arg19 : Memref sig .tc .vmem S2x512x128 .f32) (harg19 : arg19.IsWhole) (arg20 : Memref sig .tc .vmem S8x512 .f32) (harg20 : arg20.IsWhole) (hc0 : ¬isFirst i) (hc1 : isLast i)
    (x1 : Vec Ideal S64x512x128 .f32) (x2 : Vec Ideal S512x512 .i32) (x3 : Vec Ideal S512x2x128 .f32) (x4 : Vec Ideal S128x128 .f32) (x5 : Vec Ideal S128x128 .f32) (x6 : Vec Ideal S4x1 .f32) (x7 : Vec Ideal S4x1 .f32) (x8 : Vec Ideal S128x128 .f32) (x9 : Vec Ideal S4x32 .f32) (x10 : Vec Ideal S4x32 .f32) (x11 : Vec Ideal S128x128 .f32) (x12 : Vec Ideal S4x32 .f32) (x13 : Vec Ideal S4x32 .f32) (y15 : Vec Ideal S4x512x512 .f32) (y16 : Vec Ideal S2x512x128 .f32) (y17 : Vec Ideal S512x8 .f32) (y18 : Vec Ideal S8x512 .f32) (y19 : Vec Ideal S2x512x128 .f32) (y20 : Vec Ideal S8x512 .f32) (y : S8x512.Idx) :
    ∃ pc ∈ (namedC (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 hc1 x1 x2 x3 x4 x5 x6 x7 x8 x9 x10 x11 x12 x13 y15 y16 y17 y18 y19 y20).2.2.2.1, y ∈ pc.1.set :=
  View.cover_of_tiledBy ((namedC (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 hc1 x1 x2 x3 x4 x5 x6 x7 x8 x9 x10 x11 x12 x13 y15 y16 y17 y18 y19 y20).2.2.2.1) S4x512.size (by sl_kernel_rfl) y

/-- With the buffers holding the state after block c's predecessors, the denominator accumulator the last point leaves
    holds the partial sums over the sources of blocks 0 … c. -/
theorem den1_last_canon (c : Dev nD) (i : grid0.Coords) (arg1 : Memref sig .tc .vmem S64x512x128 .f32) (harg1 : arg1.IsWhole) (arg2 : Memref sig .tc .vmem S512x512 .i32) (harg2 : arg2.IsWhole) (arg3 : Memref sig .tc .vmem S512x2x128 .f32) (harg3 : arg3.IsWhole) (arg4 : Memref sig .tc .vmem S128x128 .f32) (harg4 : arg4.IsWhole) (arg5 : Memref sig .tc .vmem S128x128 .f32) (harg5 : arg5.IsWhole) (arg6 : Memref sig .tc .vmem S4x1 .f32) (harg6 : arg6.IsWhole) (arg7 : Memref sig .tc .vmem S4x1 .f32) (harg7 : arg7.IsWhole) (arg8 : Memref sig .tc .vmem S128x128 .f32) (harg8 : arg8.IsWhole) (arg9 : Memref sig .tc .vmem S4x32 .f32) (harg9 : arg9.IsWhole) (arg10 : Memref sig .tc .vmem S4x32 .f32) (harg10 : arg10.IsWhole) (arg11 : Memref sig .tc .vmem S128x128 .f32) (harg11 : arg11.IsWhole) (arg12 : Memref sig .tc .vmem S4x32 .f32) (harg12 : arg12.IsWhole) (arg13 : Memref sig .tc .vmem S4x32 .f32) (harg13 : arg13.IsWhole) (arg14 : Memref sig .tc .vmem S512x2x128 .f32) (harg14 : arg14.IsWhole) (arg15 : Memref sig .tc .vmem S4x512x512 .f32) (harg15 : arg15.IsWhole) (arg16 : Memref sig .tc .vmem S2x512x128 .f32) (harg16 : arg16.IsWhole) (arg17 : Memref sig .tc .vmem S512x8 .f32) (harg17 : arg17.IsWhole) (arg18 : Memref sig .tc .vmem S8x512 .f32) (harg18 : arg18.IsWhole) (arg19 : Memref sig .tc .vmem S2x512x128 .f32) (harg19 : arg19.IsWhole) (arg20 : Memref sig .tc .vmem S8x512 .f32) (harg20 : arg20.IsWhole) (hc0 : ¬isFirst i) (hc1 : isLast i)
    (x1 : Vec Ideal S64x512x128 .f32) (x2 : Vec Ideal S512x512 .i32) (x3 : Vec Ideal S512x2x128 .f32) (x4 : Vec Ideal S128x128 .f32) (x5 : Vec Ideal S128x128 .f32) (x6 : Vec Ideal S4x1 .f32) (x7 : Vec Ideal S4x1 .f32) (x8 : Vec Ideal S128x128 .f32) (x9 : Vec Ideal S4x32 .f32) (x10 : Vec Ideal S4x32 .f32) (x11 : Vec Ideal S128x128 .f32) (x12 : Vec Ideal S4x32 .f32) (x13 : Vec Ideal S4x32 .f32) (y15 : Vec Ideal S4x512x512 .f32) (y16 : Vec Ideal S2x512x128 .f32) (y17 : Vec Ideal S512x8 .f32) (y18 : Vec Ideal S8x512 .f32) (y19 : Vec Ideal S2x512x128 .f32) (y20 : Vec Ideal S8x512 .f32)
    (A : State.Args) (c8 : Fin 8) (hi : (i 0).val = c8.val)
    (hx1 : ∀ (ii : Fin 64) (t : Fin 512) (k : Fin 128), x1 (ix3 ii t k) = A.ef (ix3 (State.rowOf c8 ii) t k))
    (hx2 : ∀ s t : Fin 512, x2 (ix2 s t) = A.adj (ix2 s t))
    (hx4 : ∀ q k : Fin 128, x4 (ix2 q k) = A.w1e (ix2 q k))
    (hx6 : ∀ h : Fin 4, x6 (ix2 h (0 : Fin 1)) = A.ae1 (ix2 h (0 : Fin 1)))
    (hy17 : ∀ (p : Fin 512) (b : Fin 2) (h : Fin 4), y17 (ix2 p (accRow b h)) = State.score1 A A.as1 b h p)
    (hy18 : ∀ (b : Fin 2) (h : Fin 4) (p : Fin 512), y18 (ix2 (accRow b h) p) = State.score1 A A.at1 b h p)
    (hy20 : ∀ (b : Fin 2) (h : Fin 4) (t : Fin 512), y20 (ix2 (accRow b h) t) = State.den1 A c8.val b h t)
    (hfin : ∀ q k : Fin 128, ∃ r : ℝ, A.w1e (ix2 q k) = (r : EReal)) (j : S8x512.Idx) :
    View.canon (namedC (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 hc1 x1 x2 x3 x4 x5 x6 x7 x8 x9 x10 x11 x12 x13 y15 y16 y17 y18 y19 y20).2.2.2.1 j = den1Fun A (c8.val + 1) j := by
  refine View.canon_apply_of_pieces (den1Fun A (c8.val + 1)) _ ?_ j (coverC_20 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 hc1 x1 x2 x3 x4 x5 x6 x7 x8 x9 x10 x11 x12 x13 y15 y16 y17 y18 y19 y20 j)
  unfold namedC
  dsimp only
  sl_unfold_words
  have hoff : BitVec.toNat (Scalar.indexCast (Scalar.muli (BitVec.ofNat 32 (i 0).val) 64#32)) = 64 * c8.val := by
    rw [hi]; exact off_block c8.val c8.isLt
  have hr1 : ∀ (inb) (ii : Fin 64) (tt : Fin 512) (kk : Fin 128),
      View.readAt (Elt Ideal) arg1.view (Rect.unit (s := S64x512x128) ![0, 0, 0] S64x512x128.size inb).toLoadRect (harg1.unread x1) (ix3 ii tt kk)
        = A.ef (ix3 (State.rowOf c8 ii) tt kk) := fun inb ii tt kk => by
    rw [View.readAt_eq_ld, harg1.read_unread, ← hx1]
    refine congrArg x1 (funext fun a => Fin.ext ?_)
    show ((Rect.unit (s := S64x512x128) ![0, 0, 0] S64x512x128.size inb).emb (ix3 ii tt kk) a : ℕ) = _
    rw [Rect.emb_apply]
    match a with
    | ⟨0, _⟩ => exact (by omega : 0 + 1 * ii.val = ii.val)
    | ⟨1, _⟩ => exact (by omega : 0 + 1 * tt.val = tt.val)
    | ⟨2, _⟩ => exact (by omega : 0 + 1 * kk.val = kk.val)
  have hr2 : ∀ (inb) (ii : Fin 64) (tt : Fin 512),
      View.readAt (Elt Ideal) arg2.view (Rect.unit (s := S512x512) ![BitVec.toNat (Scalar.indexCast (Scalar.muli (BitVec.ofNat 32 (i 0).val) 64#32)), 0] S64x512.size inb).toLoadRect (harg2.unread x2) (ix2 ii tt)
        = A.adj (ix2 (State.rowOf c8 ii) tt) := fun inb ii tt => by
    rw [View.readAt_eq_ld, harg2.read_unread, ← hx2]
    refine congrArg x2 (funext fun a => Fin.ext ?_)
    show ((Rect.unit (s := S512x512) ![BitVec.toNat (Scalar.indexCast (Scalar.muli (BitVec.ofNat 32 (i 0).val) 64#32)), 0] S64x512.size inb).emb (ix2 ii tt) a : ℕ) = _
    rw [Rect.emb_apply]
    match a with
    | ⟨0, _⟩ => show BitVec.toNat (Scalar.indexCast (Scalar.muli (BitVec.ofNat 32 (i 0).val) 64#32)) + 1 * ii.val = 64 * c8.val + ii.val; rw [hoff]; omega
    | ⟨1, _⟩ => exact (by omega : 0 + 1 * tt.val = tt.val)
  have hr4 : ∀ (inb) (qq kk : Fin 128),
      View.readAt (Elt Ideal) arg4.view (Rect.unit (s := S128x128) ![0, 0] S128x128.size inb).toLoadRect (harg4.unread x4) (ix2 qq kk)
        = A.w1e (ix2 qq kk) := fun inb qq kk => by
    rw [View.readAt_eq_ld, harg4.read_unread, ← hx4]
    refine congrArg x4 (funext fun a => Fin.ext ?_)
    show ((Rect.unit (s := S128x128) ![0, 0] S128x128.size inb).emb (ix2 qq kk) a : ℕ) = _
    rw [Rect.emb_apply]
    match a with
    | ⟨0, _⟩ => exact (by omega : 0 + 1 * qq.val = qq.val)
    | ⟨1, _⟩ => exact (by omega : 0 + 1 * kk.val = kk.val)
  have hr6 : ∀ (inb) (hh : Fin 4),
      View.readAt (Elt Ideal) arg6.view (Rect.unit (s := S4x1) ![0, 0] S4x1.size inb).toLoadRect (harg6.unread x6) (ix2 hh (0 : Fin 1))
        = A.ae1 (ix2 hh (0 : Fin 1)) := fun inb hh => by
    rw [View.readAt_eq_ld, harg6.read_unread, ← hx6]
    refine congrArg x6 (funext fun a => Fin.ext ?_)
    show ((Rect.unit (s := S4x1) ![0, 0] S4x1.size inb).emb (ix2 hh (0 : Fin 1)) a : ℕ) = _
    rw [Rect.emb_apply]
    match a with
    | ⟨0, _⟩ => exact (by omega : 0 + 1 * hh.val = hh.val)
    | ⟨1, _⟩ => exact (by omega : 0 + 1 * 0 = 0)
  have hr17 : ∀ (b : Fin 2) (h : Fin 4) (inb) (ii : Fin 64),
      View.readAt (Elt Ideal) arg17.view (Rect.unit (s := S512x8) ![BitVec.toNat (Scalar.indexCast (Scalar.muli (BitVec.ofNat 32 (i 0).val) 64#32)), 4 * b.val + h.val] S64x1.size inb).toLoadRect (harg17.unread y17) (ix2 ii (0 : Fin 1))
        = State.score1 A A.as1 b h (State.rowOf c8 ii) := fun b h inb ii => by
    rw [View.readAt_eq_ld, harg17.read_unread, ← hy17]
    refine congrArg y17 (funext fun a => Fin.ext ?_)
    show ((Rect.unit (s := S512x8) ![BitVec.toNat (Scalar.indexCast (Scalar.muli (BitVec.ofNat 32 (i 0).val) 64#32)), 4 * b.val + h.val] S64x1.size inb).emb (ix2 ii (0 : Fin 1)) a : ℕ) = _
    rw [Rect.emb_apply]
    match a with
    | ⟨0, _⟩ => show BitVec.toNat (Scalar.indexCast (Scalar.muli (BitVec.ofNat 32 (i 0).val) 64#32)) + 1 * ii.val = 64 * c8.val + ii.val; rw [hoff]; omega
    | ⟨1, _⟩ => exact (by omega : 4 * b.val + h.val + 1 * 0 = 4 * b.val + h.val)
  have hr18 : ∀ (b : Fin 2) (h : Fin 4) (inb) (tt : Fin 512),
      View.readAt (Elt Ideal) arg18.view (Rect.unit (s := S8x512) ![4 * b.val + h.val, 0] S1x512.size inb).toLoadRect (harg18.unread y18) (ix2 (0 : Fin 1) tt)
        = State.score1 A A.at1 b h tt := fun b h inb tt => by
    rw [View.readAt_eq_ld, harg18.read_unread, ← hy18]
    refine congrArg y18 (funext fun a => Fin.ext ?_)
    show ((Rect.unit (s := S8x512) ![4 * b.val + h.val, 0] S1x512.size inb).emb (ix2 (0 : Fin 1) tt) a : ℕ) = _
    rw [Rect.emb_apply]
    match a with
    | ⟨0, _⟩ => exact (by omega : 4 * b.val + h.val + 1 * 0 = 4 * b.val + h.val)
    | ⟨1, _⟩ => exact (by omega : 0 + 1 * tt.val = tt.val)
  have hr20 : ∀ (b : Fin 2) (inb) (h : Fin 4) (tt : Fin 512),
      View.readAt (Elt Ideal) arg20.view (Rect.unit (s := S8x512) ![4 * b.val, 0] S4x512.size inb).toLoadRect (harg20.unread y20) (ix2 h tt)
        = State.den1 A c8.val b h tt := fun b inb h tt => by
    rw [View.readAt_eq_ld, harg20.read_unread, ← hy20]
    refine congrArg y20 (funext fun a => Fin.ext ?_)
    show ((Rect.unit (s := S8x512) ![4 * b.val, 0] S4x512.size inb).emb (ix2 h tt) a : ℕ) = _
    rw [Rect.emb_apply]
    match a with
    | ⟨0, _⟩ => exact (by omega : 4 * b.val + 1 * h.val = 4 * b.val + h.val)
    | ⟨1, _⟩ => exact (by omega : 0 + 1 * tt.val = tt.val)
  have hes : ∀ (h : Fin 4) (ii : Fin 64) (tt : Fin 512), k0_pay59 (F := Ideal) _ _ _ _ _ (ix3 h ii tt) = State.es A A.w1e A.ae1 h (State.rowOf c8 ii) tt :=
    fun h ii tt => es_block A c8 _
      (View.readAt (Elt Ideal) arg5.view (Rect.unit (s := S128x128) ![0, 0] S128x128.size inb_S128x128_S128x128_0_0).toLoadRect (harg5.unread x5)) _
      (View.readAt (Elt Ideal) arg7.view (Rect.unit (s := S4x1) ![0, 0] S4x1.size inb_S4x1_S4x1_0_0).toLoadRect (harg7.unread x7)) _
      (hr4 inb_S128x128_S128x128_0_0) (hr6 inb_S4x1_S4x1_0_0) (hr1 inb_S64x512x128_S64x512x128_0_0_0) hfin h ii tt
  have hmk : ∀ (ii : Fin 64) (tt : Fin 512), k0_pay61 (F := Ideal) _ (ix2 ii tt) = State.msk A (State.rowOf c8 ii) tt :=
    fun ii tt => msk_block A c8 _ (hr2 (k0_off2_inb i)) ii tt
  intro pc hpc x
  rcases List.mem_cons.mp hpc with rfl | hpc
  · refine den_block A c8 1 (by decide) inb_S8x512_S4x512_4_0 _ (fun h t => ?_) x
    refine (den_slice1 _ _ _ _ _ _ _ _ _ _ _ (fun hh ii tt => State.p1 A (1 : Fin 2) hh (State.rowOf c8 ii) tt) ?_ ?_ ?_ ?_ h t).trans ?_
    · exact fun ii tt => p1_block A c8 1 _ _ _ _ _ (hes _) hmk (hr17 1 0 _) (hr18 1 0 _) ii tt
    · exact fun ii tt => p1_block A c8 1 _ _ _ _ _ (hes _) hmk (hr17 1 1 _) (hr18 1 1 _) ii tt
    · exact fun ii tt => p1_block A c8 1 _ _ _ _ _ (hes _) hmk (hr17 1 2 _) (hr18 1 2 _) ii tt
    · exact fun ii tt => p1_block A c8 1 _ _ _ _ _ (hes _) hmk (hr17 1 3 _) (hr18 1 3 _) ii tt
    · exact congrArg (· + _) (hr20 1 _ h t)
  · rcases List.mem_cons.mp hpc with rfl | hpc
    · refine den_block A c8 0 (by decide) inb_S8x512_S4x512_0_0 _ (fun h t => ?_) x
      refine (den_slice0 _ _ _ _ _ _ _ _ _ _ _ (fun hh ii tt => State.p1 A (0 : Fin 2) hh (State.rowOf c8 ii) tt) ?_ ?_ ?_ ?_ h t).trans ?_
      · exact fun ii tt => p1_block A c8 0 _ _ _ _ _ (hes _) hmk (hr17 0 0 _) (hr18 0 0 _) ii tt
      · exact fun ii tt => p1_block A c8 0 _ _ _ _ _ (hes _) hmk (hr17 0 1 _) (hr18 0 1 _) ii tt
      · exact fun ii tt => p1_block A c8 0 _ _ _ _ _ (hes _) hmk (hr17 0 2 _) (hr18 0 2 _) ii tt
      · exact fun ii tt => p1_block A c8 0 _ _ _ _ _ (hes _) hmk (hr17 0 3 _) (hr18 0 3 _) ii tt
      · exact congrArg (· + _) (hr20 0 _ h t)
    · exact absurd hpc (List.not_mem_nil)

/-- The same, as the buffer's contents read back: row 4 b + h, column t holds the partial sum over the sources of
    blocks 0 … c of layer 1's masked exponentials of head h, slice b, target t. -/
theorem den1_last (c : Dev nD) (i : grid0.Coords) (arg1 : Memref sig .tc .vmem S64x512x128 .f32) (harg1 : arg1.IsWhole) (arg2 : Memref sig .tc .vmem S512x512 .i32) (harg2 : arg2.IsWhole) (arg3 : Memref sig .tc .vmem S512x2x128 .f32) (harg3 : arg3.IsWhole) (arg4 : Memref sig .tc .vmem S128x128 .f32) (harg4 : arg4.IsWhole) (arg5 : Memref sig .tc .vmem S128x128 .f32) (harg5 : arg5.IsWhole) (arg6 : Memref sig .tc .vmem S4x1 .f32) (harg6 : arg6.IsWhole) (arg7 : Memref sig .tc .vmem S4x1 .f32) (harg7 : arg7.IsWhole) (arg8 : Memref sig .tc .vmem S128x128 .f32) (harg8 : arg8.IsWhole) (arg9 : Memref sig .tc .vmem S4x32 .f32) (harg9 : arg9.IsWhole) (arg10 : Memref sig .tc .vmem S4x32 .f32) (harg10 : arg10.IsWhole) (arg11 : Memref sig .tc .vmem S128x128 .f32) (harg11 : arg11.IsWhole) (arg12 : Memref sig .tc .vmem S4x32 .f32) (harg12 : arg12.IsWhole) (arg13 : Memref sig .tc .vmem S4x32 .f32) (harg13 : arg13.IsWhole) (arg14 : Memref sig .tc .vmem S512x2x128 .f32) (harg14 : arg14.IsWhole) (arg15 : Memref sig .tc .vmem S4x512x512 .f32) (harg15 : arg15.IsWhole) (arg16 : Memref sig .tc .vmem S2x512x128 .f32) (harg16 : arg16.IsWhole) (arg17 : Memref sig .tc .vmem S512x8 .f32) (harg17 : arg17.IsWhole) (arg18 : Memref sig .tc .vmem S8x512 .f32) (harg18 : arg18.IsWhole) (arg19 : Memref sig .tc .vmem S2x512x128 .f32) (harg19 : arg19.IsWhole) (arg20 : Memref sig .tc .vmem S8x512 .f32) (harg20 : arg20.IsWhole) (hc0 : ¬isFirst i) (hc1 : isLast i)
    (x1 : Vec Ideal S64x512x128 .f32) (x2 : Vec Ideal S512x512 .i32) (x3 : Vec Ideal S512x2x128 .f32) (x4 : Vec Ideal S128x128 .f32) (x5 : Vec Ideal S128x128 .f32) (x6 : Vec Ideal S4x1 .f32) (x7 : Vec Ideal S4x1 .f32) (x8 : Vec Ideal S128x128 .f32) (x9 : Vec Ideal S4x32 .f32) (x10 : Vec Ideal S4x32 .f32) (x11 : Vec Ideal S128x128 .f32) (x12 : Vec Ideal S4x32 .f32) (x13 : Vec Ideal S4x32 .f32) (y15 : Vec Ideal S4x512x512 .f32) (y16 : Vec Ideal S2x512x128 .f32) (y17 : Vec Ideal S512x8 .f32) (y18 : Vec Ideal S8x512 .f32) (y19 : Vec Ideal S2x512x128 .f32) (y20 : Vec Ideal S8x512 .f32)
    (A : State.Args) (c8 : Fin 8) (hi : (i 0).val = c8.val)
    (hx1 : ∀ (ii : Fin 64) (t : Fin 512) (k : Fin 128), x1 (ix3 ii t k) = A.ef (ix3 (State.rowOf c8 ii) t k))
    (hx2 : ∀ s t : Fin 512, x2 (ix2 s t) = A.adj (ix2 s t))
    (hx4 : ∀ q k : Fin 128, x4 (ix2 q k) = A.w1e (ix2 q k))
    (hx6 : ∀ h : Fin 4, x6 (ix2 h (0 : Fin 1)) = A.ae1 (ix2 h (0 : Fin 1)))
    (hy17 : ∀ (p : Fin 512) (b : Fin 2) (h : Fin 4), y17 (ix2 p (accRow b h)) = State.score1 A A.as1 b h p)
    (hy18 : ∀ (b : Fin 2) (h : Fin 4) (p : Fin 512), y18 (ix2 (accRow b h) p) = State.score1 A A.at1 b h p)
    (hy20 : ∀ (b : Fin 2) (h : Fin 4) (t : Fin 512), y20 (ix2 (accRow b h) t) = State.den1 A c8.val b h t)
    (hfin : ∀ q k : Fin 128, ∃ r : ℝ, A.w1e (ix2 q k) = (r : EReal)) (b : Fin 2) (h : Fin 4) (t : Fin 512) :
    arg20.view.read (Elt Ideal) (arg20.view.writes (Elt Ideal) (harg20.unread y20)
        (namedC (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 hc1 x1 x2 x3 x4 x5 x6 x7 x8 x9 x10 x11 x12 x13 y15 y16 y17 y18 y19 y20).2.2.2.1) (ix2 (accRow b h) t)
      = State.den1 A (c8.val + 1) b h t := by
  rw [View.read_writes_eq_canon _ _ _ (coverC_20 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 hc1 x1 x2 x3 x4 x5 x6 x7 x8 x9 x10 x11 x12 x13 y15 y16 y17 y18 y19 y20),
    den1_last_canon c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 hc1 x1 x2 x3 x4 x5 x6 x7 x8 x9 x10 x11 x12 x13 y15 y16 y17 y18 y19 y20 A c8 hi hx1 hx2 hx4 hx6 hy17 hy18 hy20 hfin, den1Fun_apply]

/-- At the last point the two stores into the numerator accumulator (one 512 x 128 block per batch slice) tile it. -/
theorem coverC_19 (c : Dev nD) (i : grid0.Coords) (arg1 : Memref sig .tc .vmem S64x512x128 .f32) (harg1 : arg1.IsWhole) (arg2 : Memref sig .tc .vmem S512x512 .i32) (harg2 : arg2.IsWhole) (arg3 : Memref sig .tc .vmem S512x2x128 .f32) (harg3 : arg3.IsWhole) (arg4 : Memref sig .tc .vmem S128x128 .f32) (harg4 : arg4.IsWhole) (arg5 : Memref sig .tc .vmem S128x128 .f32) (harg5 : arg5.IsWhole) (arg6 : Memref sig .tc .vmem S4x1 .f32) (harg6 : arg6.IsWhole) (arg7 : Memref sig .tc .vmem S4x1 .f32) (harg7 : arg7.IsWhole) (arg8 : Memref sig .tc .vmem S128x128 .f32) (harg8 : arg8.IsWhole) (arg9 : Memref sig .tc .vmem S4x32 .f32) (harg9 : arg9.IsWhole) (arg10 : Memref sig .tc .vmem S4x32 .f32) (harg10 : arg10.IsWhole) (arg11 : Memref sig .tc .vmem S128x128 .f32) (harg11 : arg11.IsWhole) (arg12 : Memref sig .tc .vmem S4x32 .f32) (harg12 : arg12.IsWhole) (arg13 : Memref sig .tc .vmem S4x32 .f32) (harg13 : arg13.IsWhole) (arg14 : Memref sig .tc .vmem S512x2x128 .f32) (harg14 : arg14.IsWhole) (arg15 : Memref sig .tc .vmem S4x512x512 .f32) (harg15 : arg15.IsWhole) (arg16 : Memref sig .tc .vmem S2x512x128 .f32) (harg16 : arg16.IsWhole) (arg17 : Memref sig .tc .vmem S512x8 .f32) (harg17 : arg17.IsWhole) (arg18 : Memref sig .tc .vmem S8x512 .f32) (harg18 : arg18.IsWhole) (arg19 : Memref sig .tc .vmem S2x512x128 .f32) (harg19 : arg19.IsWhole) (arg20 : Memref sig .tc .vmem S8x512 .f32) (harg20 : arg20.IsWhole) (hc0 : ¬isFirst i) (hc1 : isLast i)
    (x1 : Vec Ideal S64x512x128 .f32) (x2 : Vec Ideal S512x512 .i32) (x3 : Vec Ideal S512x2x128 .f32) (x4 : Vec Ideal S128x128 .f32) (x5 : Vec Ideal S128x128 .f32) (x6 : Vec Ideal S4x1 .f32) (x7 : Vec Ideal S4x1 .f32) (x8 : Vec Ideal S128x128 .f32) (x9 : Vec Ideal S4x32 .f32) (x10 : Vec Ideal S4x32 .f32) (x11 : Vec Ideal S128x128 .f32) (x12 : Vec Ideal S4x32 .f32) (x13 : Vec Ideal S4x32 .f32) (y15 : Vec Ideal S4x512x512 .f32) (y16 : Vec Ideal S2x512x128 .f32) (y17 : Vec Ideal S512x8 .f32) (y18 : Vec Ideal S8x512 .f32) (y19 : Vec Ideal S2x512x128 .f32) (y20 : Vec Ideal S8x512 .f32) (y : S2x512x128.Idx) :
    ∃ pc ∈ (namedC (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 hc1 x1 x2 x3 x4 x5 x6 x7 x8 x9 x10 x11 x12 x13 y15 y16 y17 y18 y19 y20).2.2.1, y ∈ pc.1.set :=
  View.cover_of_tiledBy ((namedC (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 hc1 x1 x2 x3 x4 x5 x6 x7 x8 x9 x10 x11 x12 x13 y15 y16 y17 y18 y19 y20).2.2.1) S1x512x128.size (by sl_kernel_rfl) y

/-- With the buffers holding the state after block c's predecessors and layer 1's masked exponentials and projected
    features finite, the numerator accumulator the last point leaves holds the partial sums over the sources of blocks 0 … c. -/
theorem num1_last_canon (c : Dev nD) (i : grid0.Coords) (arg1 : Memref sig .tc .vmem S64x512x128 .f32) (harg1 : arg1.IsWhole) (arg2 : Memref sig .tc .vmem S512x512 .i32) (harg2 : arg2.IsWhole) (arg3 : Memref sig .tc .vmem S512x2x128 .f32) (harg3 : arg3.IsWhole) (arg4 : Memref sig .tc .vmem S128x128 .f32) (harg4 : arg4.IsWhole) (arg5 : Memref sig .tc .vmem S128x128 .f32) (harg5 : arg5.IsWhole) (arg6 : Memref sig .tc .vmem S4x1 .f32) (harg6 : arg6.IsWhole) (arg7 : Memref sig .tc .vmem S4x1 .f32) (harg7 : arg7.IsWhole) (arg8 : Memref sig .tc .vmem S128x128 .f32) (harg8 : arg8.IsWhole) (arg9 : Memref sig .tc .vmem S4x32 .f32) (harg9 : arg9.IsWhole) (arg10 : Memref sig .tc .vmem S4x32 .f32) (harg10 : arg10.IsWhole) (arg11 : Memref sig .tc .vmem S128x128 .f32) (harg11 : arg11.IsWhole) (arg12 : Memref sig .tc .vmem S4x32 .f32) (harg12 : arg12.IsWhole) (arg13 : Memref sig .tc .vmem S4x32 .f32) (harg13 : arg13.IsWhole) (arg14 : Memref sig .tc .vmem S512x2x128 .f32) (harg14 : arg14.IsWhole) (arg15 : Memref sig .tc .vmem S4x512x512 .f32) (harg15 : arg15.IsWhole) (arg16 : Memref sig .tc .vmem S2x512x128 .f32) (harg16 : arg16.IsWhole) (arg17 : Memref sig .tc .vmem S512x8 .f32) (harg17 : arg17.IsWhole) (arg18 : Memref sig .tc .vmem S8x512 .f32) (harg18 : arg18.IsWhole) (arg19 : Memref sig .tc .vmem S2x512x128 .f32) (harg19 : arg19.IsWhole) (arg20 : Memref sig .tc .vmem S8x512 .f32) (harg20 : arg20.IsWhole) (hc0 : ¬isFirst i) (hc1 : isLast i)
    (x1 : Vec Ideal S64x512x128 .f32) (x2 : Vec Ideal S512x512 .i32) (x3 : Vec Ideal S512x2x128 .f32) (x4 : Vec Ideal S128x128 .f32) (x5 : Vec Ideal S128x128 .f32) (x6 : Vec Ideal S4x1 .f32) (x7 : Vec Ideal S4x1 .f32) (x8 : Vec Ideal S128x128 .f32) (x9 : Vec Ideal S4x32 .f32) (x10 : Vec Ideal S4x32 .f32) (x11 : Vec Ideal S128x128 .f32) (x12 : Vec Ideal S4x32 .f32) (x13 : Vec Ideal S4x32 .f32) (y15 : Vec Ideal S4x512x512 .f32) (y16 : Vec Ideal S2x512x128 .f32) (y17 : Vec Ideal S512x8 .f32) (y18 : Vec Ideal S8x512 .f32) (y19 : Vec Ideal S2x512x128 .f32) (y20 : Vec Ideal S8x512 .f32)
    (A : State.Args) (c8 : Fin 8) (hi : (i 0).val = c8.val)
    (hx1 : ∀ (ii : Fin 64) (t : Fin 512) (k : Fin 128), x1 (ix3 ii t k) = A.ef (ix3 (State.rowOf c8 ii) t k))
    (hx2 : ∀ s t : Fin 512, x2 (ix2 s t) = A.adj (ix2 s t))
    (hx4 : ∀ q k : Fin 128, x4 (ix2 q k) = A.w1e (ix2 q k))
    (hx6 : ∀ h : Fin 4, x6 (ix2 h (0 : Fin 1)) = A.ae1 (ix2 h (0 : Fin 1)))
    (hy16 : ∀ (b : Fin 2) (p : Fin 512) (q : Fin 128), y16 (ix3 b p q) = State.h1 A b p q)
    (hy17 : ∀ (p : Fin 512) (b : Fin 2) (h : Fin 4), y17 (ix2 p (accRow b h)) = State.score1 A A.as1 b h p)
    (hy18 : ∀ (b : Fin 2) (h : Fin 4) (p : Fin 512), y18 (ix2 (accRow b h) p) = State.score1 A A.at1 b h p)
    (hy19 : ∀ (b : Fin 2) (t : Fin 512) (q : Fin 128), y19 (ix3 b t q) = State.num1 A c8.val b t q)
    (hfin : ∀ q k : Fin 128, ∃ r : ℝ, A.w1e (ix2 q k) = (r : EReal))
    (hpfin : ∀ (b : Fin 2) (h : Fin 4) (s t : Fin 512), ∃ r : ℝ, State.p1 A b h s t = (r : EReal))
    (hhfin : ∀ (b : Fin 2) (s : Fin 512) (q : Fin 128), ∃ r : ℝ, State.h1 A b s q = (r : EReal)) (j : S2x512x128.Idx) :
    View.canon (namedC (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 hc1 x1 x2 x3 x4 x5 x6 x7 x8 x9 x10 x11 x12 x13 y15 y16 y17 y18 y19 y20).2.2.1 j = num1Fun A (c8.val + 1) j := by
  refine View.canon_apply_of_pieces (num1Fun A (c8.val + 1)) _ ?_ j (coverC_19 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 hc1 x1 x2 x3 x4 x5 x6 x7 x8 x9 x10 x11 x12 x13 y15 y16 y17 y18 y19 y20 j)
  unfold namedC
  dsimp only
  sl_unfold_words
  have hoff : BitVec.toNat (Scalar.indexCast (Scalar.muli (BitVec.ofNat 32 (i 0).val) 64#32)) = 64 * c8.val := by
    rw [hi]; exact off_block c8.val c8.isLt
  have hr1 : ∀ (inb) (ii : Fin 64) (tt : Fin 512) (kk : Fin 128),
      View.readAt (Elt Ideal) arg1.view (Rect.unit (s := S64x512x128) ![0, 0, 0] S64x512x128.size inb).toLoadRect (harg1.unread x1) (ix3 ii tt kk)
        = A.ef (ix3 (State.rowOf c8 ii) tt kk) := fun inb ii tt kk => by
    rw [View.readAt_eq_ld, harg1.read_unread, ← hx1]
    refine congrArg x1 (funext fun a => Fin.ext ?_)
    show ((Rect.unit (s := S64x512x128) ![0, 0, 0] S64x512x128.size inb).emb (ix3 ii tt kk) a : ℕ) = _
    rw [Rect.emb_apply]
    match a with
    | ⟨0, _⟩ => exact (by omega : 0 + 1 * ii.val = ii.val)
    | ⟨1, _⟩ => exact (by omega : 0 + 1 * tt.val = tt.val)
    | ⟨2, _⟩ => exact (by omega : 0 + 1 * kk.val = kk.val)
  have hr2 : ∀ (inb) (ii : Fin 64) (tt : Fin 512),
      View.readAt (Elt Ideal) arg2.view (Rect.unit (s := S512x512) ![BitVec.toNat (Scalar.indexCast (Scalar.muli (BitVec.ofNat 32 (i 0).val) 64#32)), 0] S64x512.size inb).toLoadRect (harg2.unread x2) (ix2 ii tt)
        = A.adj (ix2 (State.rowOf c8 ii) tt) := fun inb ii tt => by
    rw [View.readAt_eq_ld, harg2.read_unread, ← hx2]
    refine congrArg x2 (funext fun a => Fin.ext ?_)
    show ((Rect.unit (s := S512x512) ![BitVec.toNat (Scalar.indexCast (Scalar.muli (BitVec.ofNat 32 (i 0).val) 64#32)), 0] S64x512.size inb).emb (ix2 ii tt) a : ℕ) = _
    rw [Rect.emb_apply]
    match a with
    | ⟨0, _⟩ => show BitVec.toNat (Scalar.indexCast (Scalar.muli (BitVec.ofNat 32 (i 0).val) 64#32)) + 1 * ii.val = 64 * c8.val + ii.val; rw [hoff]; omega
    | ⟨1, _⟩ => exact (by omega : 0 + 1 * tt.val = tt.val)
  have hr4 : ∀ (inb) (qq kk : Fin 128),
      View.readAt (Elt Ideal) arg4.view (Rect.unit (s := S128x128) ![0, 0] S128x128.size inb).toLoadRect (harg4.unread x4) (ix2 qq kk)
        = A.w1e (ix2 qq kk) := fun inb qq kk => by
    rw [View.readAt_eq_ld, harg4.read_unread, ← hx4]
    refine congrArg x4 (funext fun a => Fin.ext ?_)
    show ((Rect.unit (s := S128x128) ![0, 0] S128x128.size inb).emb (ix2 qq kk) a : ℕ) = _
    rw [Rect.emb_apply]
    match a with
    | ⟨0, _⟩ => exact (by omega : 0 + 1 * qq.val = qq.val)
    | ⟨1, _⟩ => exact (by omega : 0 + 1 * kk.val = kk.val)
  have hr6 : ∀ (inb) (hh : Fin 4),
      View.readAt (Elt Ideal) arg6.view (Rect.unit (s := S4x1) ![0, 0] S4x1.size inb).toLoadRect (harg6.unread x6) (ix2 hh (0 : Fin 1))
        = A.ae1 (ix2 hh (0 : Fin 1)) := fun inb hh => by
    rw [View.readAt_eq_ld, harg6.read_unread, ← hx6]
    refine congrArg x6 (funext fun a => Fin.ext ?_)
    show ((Rect.unit (s := S4x1) ![0, 0] S4x1.size inb).emb (ix2 hh (0 : Fin 1)) a : ℕ) = _
    rw [Rect.emb_apply]
    match a with
    | ⟨0, _⟩ => exact (by omega : 0 + 1 * hh.val = hh.val)
    | ⟨1, _⟩ => exact (by omega : 0 + 1 * 0 = 0)
  have hr17 : ∀ (b : Fin 2) (h : Fin 4) (inb) (ii : Fin 64),
      View.readAt (Elt Ideal) arg17.view (Rect.unit (s := S512x8) ![BitVec.toNat (Scalar.indexCast (Scalar.muli (BitVec.ofNat 32 (i 0).val) 64#32)), 4 * b.val + h.val] S64x1.size inb).toLoadRect (harg17.unread y17) (ix2 ii (0 : Fin 1))
        = State.score1 A A.as1 b h (State.rowOf c8 ii) := fun b h inb ii => by
    rw [View.readAt_eq_ld, harg17.read_unread, ← hy17]
    refine congrArg y17 (funext fun a => Fin.ext ?_)
    show ((Rect.unit (s := S512x8) ![BitVec.toNat (Scalar.indexCast (Scalar.muli (BitVec.ofNat 32 (i 0).val) 64#32)), 4 * b.val + h.val] S64x1.size inb).emb (ix2 ii (0 : Fin 1)) a : ℕ) = _
    rw [Rect.emb_apply]
    match a with
    | ⟨0, _⟩ => show BitVec.toNat (Scalar.indexCast (Scalar.muli (BitVec.ofNat 32 (i 0).val) 64#32)) + 1 * ii.val = 64 * c8.val + ii.val; rw [hoff]; omega
    | ⟨1, _⟩ => exact (by omega : 4 * b.val + h.val + 1 * 0 = 4 * b.val + h.val)
  have hr18 : ∀ (b : Fin 2) (h : Fin 4) (inb) (tt : Fin 512),
      View.readAt (Elt Ideal) arg18.view (Rect.unit (s := S8x512) ![4 * b.val + h.val, 0] S1x512.size inb).toLoadRect (harg18.unread y18) (ix2 (0 : Fin 1) tt)
        = State.score1 A A.at1 b h tt := fun b h inb tt => by
    rw [View.readAt_eq_ld, harg18.read_unread, ← hy18]
    refine congrArg y18 (funext fun a => Fin.ext ?_)
    show ((Rect.unit (s := S8x512) ![4 * b.val + h.val, 0] S1x512.size inb).emb (ix2 (0 : Fin 1) tt) a : ℕ) = _
    rw [Rect.emb_apply]
    match a with
    | ⟨0, _⟩ => exact (by omega : 4 * b.val + h.val + 1 * 0 = 4 * b.val + h.val)
    | ⟨1, _⟩ => exact (by omega : 0 + 1 * tt.val = tt.val)
  have hr16 : ∀ (b : Fin 2) (inb) (ii : Fin 64) (qq : Fin 128),
      View.readAt (Elt Ideal) arg16.view (Rect.unit (s := S2x512x128) ![b.val, BitVec.toNat (Scalar.indexCast (Scalar.muli (BitVec.ofNat 32 (i 0).val) 64#32)), 0] S1x64x128.size inb).toLoadRect (harg16.unread y16) (ix3 (0 : Fin 1) ii qq)
        = State.h1 A b (State.rowOf c8 ii) qq := fun b inb ii qq => by
    rw [View.readAt_eq_ld, harg16.read_unread, ← hy16]
    refine congrArg y16 (funext fun a => Fin.ext ?_)
    show ((Rect.unit (s := S2x512x128) ![b.val, BitVec.toNat (Scalar.indexCast (Scalar.muli (BitVec.ofNat 32 (i 0).val) 64#32)), 0] S1x64x128.size inb).emb (ix3 (0 : Fin 1) ii qq) a : ℕ) = _
    rw [Rect.emb_apply]
    match a with
    | ⟨0, _⟩ => exact (by omega : b.val + 1 * 0 = b.val)
    | ⟨1, _⟩ => show BitVec.toNat (Scalar.indexCast (Scalar.muli (BitVec.ofNat 32 (i 0).val) 64#32)) + 1 * ii.val = 64 * c8.val + ii.val; rw [hoff]; omega
    | ⟨2, _⟩ => exact (by omega : 0 + 1 * qq.val = qq.val)
  have hr19 : ∀ (b : Fin 2) (inb) (tt : Fin 512) (qq : Fin 128),
      View.readAt (Elt Ideal) arg19.view (Rect.unit (s := S2x512x128) ![b.val, 0, 0] S1x512x128.size inb).toLoadRect (harg19.unread y19) (ix3 (0 : Fin 1) tt qq)
        = State.num1 A c8.val b tt qq := fun b inb tt qq => by
    rw [View.readAt_eq_ld, harg19.read_unread, ← hy19]
    refine congrArg y19 (funext fun a => Fin.ext ?_)
    show ((Rect.unit (s := S2x512x128) ![b.val, 0, 0] S1x512x128.size inb).emb (ix3 (0 : Fin 1) tt qq) a : ℕ) = _
    rw [Rect.emb_apply]
    match a with
    | ⟨0, _⟩ => exact (by omega : b.val + 1 * 0 = b.val)
    | ⟨1, _⟩ => exact (by omega : 0 + 1 * tt.val = tt.val)
    | ⟨2, _⟩ => exact (by omega : 0 + 1 * qq.val = qq.val)
  have hg : ∀ (b : Fin 2) (inb) (ii : Fin 64) (qq : Fin 128),
      k0_pay62 (F := Ideal) (View.readAt (Elt Ideal) arg16.view (Rect.unit (s := S2x512x128) ![b.val, BitVec.toNat (Scalar.indexCast (Scalar.muli (BitVec.ofNat 32 (i 0).val) 64#32)), 0] S1x64x128.size inb).toLoadRect (harg16.unread y16)) (ix2 ii qq)
        = State.h1 A b (State.rowOf c8 ii) qq := fun b inb ii qq => by
    unfold k0_pay62
    rw [shapeCast_1ab_ab_apply]
    exact hr16 b inb ii qq
  have hes : ∀ (h : Fin 4) (ii : Fin 64) (tt : Fin 512), k0_pay59 (F := Ideal) _ _ _ _ _ (ix3 h ii tt) = State.es A A.w1e A.ae1 h (State.rowOf c8 ii) tt :=
    fun h ii tt => es_block A c8 _
      (View.readAt (Elt Ideal) arg5.view (Rect.unit (s := S128x128) ![0, 0] S128x128.size inb_S128x128_S128x128_0_0).toLoadRect (harg5.unread x5)) _
      (View.readAt (Elt Ideal) arg7.view (Rect.unit (s := S4x1) ![0, 0] S4x1.size inb_S4x1_S4x1_0_0).toLoadRect (harg7.unread x7)) _
      (hr4 inb_S128x128_S128x128_0_0) (hr6 inb_S4x1_S4x1_0_0) (hr1 inb_S64x512x128_S64x512x128_0_0_0) hfin h ii tt
  have hmk : ∀ (ii : Fin 64) (tt : Fin 512), k0_pay61 (F := Ideal) _ (ix2 ii tt) = State.msk A (State.rowOf c8 ii) tt :=
    fun ii tt => msk_block A c8 _ (hr2 (k0_off2_inb i)) ii tt
  intro pc hpc x
  rcases List.mem_cons.mp hpc with rfl | hpc
  · refine num_block A c8 1 (by decide) inb_S2x512x128_S1x512x128_1_0_0 _ (fun t q => ?_) x
    refine (num_slice1 _ _ _ (fun hh ii tt => State.p1 A (1 : Fin 2) hh (State.rowOf c8 ii) tt)
      ?hT1 (fun hh ii tt => hpfin 1 hh _ tt)
      (fun ii qq => by obtain ⟨r, hr⟩ := hhfin 1 (State.rowOf c8 ii) qq; exact ⟨r, (hg 1 _ ii qq).trans hr⟩) t q).trans ?_
    · intro hh ii tt
      refine table1 _ _ _ _ _ _ _ _ _ _ (fun hh ii tt => State.p1 A (1 : Fin 2) hh (State.rowOf c8 ii) tt) ?_ ?_ ?_ ?_ hh ii tt
      · exact fun ii tt => p1_block A c8 1 _ _ _ _ _ (hes _) hmk (hr17 1 0 _) (hr18 1 0 _) ii tt
      · exact fun ii tt => p1_block A c8 1 _ _ _ _ _ (hes _) hmk (hr17 1 1 _) (hr18 1 1 _) ii tt
      · exact fun ii tt => p1_block A c8 1 _ _ _ _ _ (hes _) hmk (hr17 1 2 _) (hr18 1 2 _) ii tt
      · exact fun ii tt => p1_block A c8 1 _ _ _ _ _ (hes _) hmk (hr17 1 3 _) (hr18 1 3 _) ii tt
    · exact congrArg₂ (· + ·) (hr19 1 _ t q) (Finset.sum_congr rfl fun ii _ => congrArg (_ * ·) (hg 1 _ ii q))
  · rcases List.mem_cons.mp hpc with rfl | hpc
    · refine num_block A c8 0 (by decide) inb_S2x512x128_S1x512x128_0_0_0 _ (fun t q => ?_) x
      refine (num_slice0 _ _ _ (fun hh ii tt => State.p1 A (0 : Fin 2) hh (State.rowOf c8 ii) tt)
        ?hT0 (fun hh ii tt => hpfin 0 hh _ tt)
        (fun ii qq => by obtain ⟨r, hr⟩ := hhfin 0 (State.rowOf c8 ii) qq; exact ⟨r, (hg 0 _ ii qq).trans hr⟩) t q).trans ?_
      · intro hh ii tt
        refine table0 _ _ _ _ _ _ _ _ _ _ (fun hh ii tt => State.p1 A (0 : Fin 2) hh (State.rowOf c8 ii) tt) ?_ ?_ ?_ ?_ hh ii tt
        · exact fun ii tt => p1_block A c8 0 _ _ _ _ _ (hes _) hmk (hr17 0 0 _) (hr18 0 0 _) ii tt
        · exact fun ii tt => p1_block A c8 0 _ _ _ _ _ (hes _) hmk (hr17 0 1 _) (hr18 0 1 _) ii tt
        · exact fun ii tt => p1_block A c8 0 _ _ _ _ _ (hes _) hmk (hr17 0 2 _) (hr18 0 2 _) ii tt
        · exact fun ii tt => p1_block A c8 0 _ _ _ _ _ (hes _) hmk (hr17 0 3 _) (hr18 0 3 _) ii tt
      · exact congrArg₂ (· + ·) (hr19 0 _ t q) (Finset.sum_congr rfl fun ii _ => congrArg (_ * ·) (hg 0 _ ii q))
    · exact absurd hpc (List.not_mem_nil)

/-- The same, as the buffer's contents read back: entry (b, t, q) holds the partial sum over the sources s of blocks
    0 … c of the masked exponential of q's head on (s, t) times the projected feature q of s. -/
theorem num1_last (c : Dev nD) (i : grid0.Coords) (arg1 : Memref sig .tc .vmem S64x512x128 .f32) (harg1 : arg1.IsWhole) (arg2 : Memref sig .tc .vmem S512x512 .i32) (harg2 : arg2.IsWhole) (arg3 : Memref sig .tc .vmem S512x2x128 .f32) (harg3 : arg3.IsWhole) (arg4 : Memref sig .tc .vmem S128x128 .f32) (harg4 : arg4.IsWhole) (arg5 : Memref sig .tc .vmem S128x128 .f32) (harg5 : arg5.IsWhole) (arg6 : Memref sig .tc .vmem S4x1 .f32) (harg6 : arg6.IsWhole) (arg7 : Memref sig .tc .vmem S4x1 .f32) (harg7 : arg7.IsWhole) (arg8 : Memref sig .tc .vmem S128x128 .f32) (harg8 : arg8.IsWhole) (arg9 : Memref sig .tc .vmem S4x32 .f32) (harg9 : arg9.IsWhole) (arg10 : Memref sig .tc .vmem S4x32 .f32) (harg10 : arg10.IsWhole) (arg11 : Memref sig .tc .vmem S128x128 .f32) (harg11 : arg11.IsWhole) (arg12 : Memref sig .tc .vmem S4x32 .f32) (harg12 : arg12.IsWhole) (arg13 : Memref sig .tc .vmem S4x32 .f32) (harg13 : arg13.IsWhole) (arg14 : Memref sig .tc .vmem S512x2x128 .f32) (harg14 : arg14.IsWhole) (arg15 : Memref sig .tc .vmem S4x512x512 .f32) (harg15 : arg15.IsWhole) (arg16 : Memref sig .tc .vmem S2x512x128 .f32) (harg16 : arg16.IsWhole) (arg17 : Memref sig .tc .vmem S512x8 .f32) (harg17 : arg17.IsWhole) (arg18 : Memref sig .tc .vmem S8x512 .f32) (harg18 : arg18.IsWhole) (arg19 : Memref sig .tc .vmem S2x512x128 .f32) (harg19 : arg19.IsWhole) (arg20 : Memref sig .tc .vmem S8x512 .f32) (harg20 : arg20.IsWhole) (hc0 : ¬isFirst i) (hc1 : isLast i)
    (x1 : Vec Ideal S64x512x128 .f32) (x2 : Vec Ideal S512x512 .i32) (x3 : Vec Ideal S512x2x128 .f32) (x4 : Vec Ideal S128x128 .f32) (x5 : Vec Ideal S128x128 .f32) (x6 : Vec Ideal S4x1 .f32) (x7 : Vec Ideal S4x1 .f32) (x8 : Vec Ideal S128x128 .f32) (x9 : Vec Ideal S4x32 .f32) (x10 : Vec Ideal S4x32 .f32) (x11 : Vec Ideal S128x128 .f32) (x12 : Vec Ideal S4x32 .f32) (x13 : Vec Ideal S4x32 .f32) (y15 : Vec Ideal S4x512x512 .f32) (y16 : Vec Ideal S2x512x128 .f32) (y17 : Vec Ideal S512x8 .f32) (y18 : Vec Ideal S8x512 .f32) (y19 : Vec Ideal S2x512x128 .f32) (y20 : Vec Ideal S8x512 .f32)
    (A : State.Args) (c8 : Fin 8) (hi : (i 0).val = c8.val)
    (hx1 : ∀ (ii : Fin 64) (t : Fin 512) (k : Fin 128), x1 (ix3 ii t k) = A.ef (ix3 (State.rowOf c8 ii) t k))
    (hx2 : ∀ s t : Fin 512, x2 (ix2 s t) = A.adj (ix2 s t))
    (hx4 : ∀ q k : Fin 128, x4 (ix2 q k) = A.w1e (ix2 q k))
    (hx6 : ∀ h : Fin 4, x6 (ix2 h (0 : Fin 1)) = A.ae1 (ix2 h (0 : Fin 1)))
    (hy16 : ∀ (b : Fin 2) (p : Fin 512) (q : Fin 128), y16 (ix3 b p q) = State.h1 A b p q)
    (hy17 : ∀ (p : Fin 512) (b : Fin 2) (h : Fin 4), y17 (ix2 p (accRow b h)) = State.score1 A A.as1 b h p)
    (hy18 : ∀ (b : Fin 2) (h : Fin 4) (p : Fin 512), y18 (ix2 (accRow b h) p) = State.score1 A A.at1 b h p)
    (hy19 : ∀ (b : Fin 2) (t : Fin 512) (q : Fin 128), y19 (ix3 b t q) = State.num1 A c8.val b t q)
    (hfin : ∀ q k : Fin 128, ∃ r : ℝ, A.w1e (ix2 q k) = (r : EReal))
    (hpfin : ∀ (b : Fin 2) (h : Fin 4) (s t : Fin 512), ∃ r : ℝ, State.p1 A b h s t = (r : EReal))
    (hhfin : ∀ (b : Fin 2) (s : Fin 512) (q : Fin 128), ∃ r : ℝ, State.h1 A b s q = (r : EReal)) (b : Fin 2) (t : Fin 512) (q : Fin 128) :
    arg19.view.read (Elt Ideal) (arg19.view.writes (Elt Ideal) (harg19.unread y19)
        (namedC (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 hc1 x1 x2 x3 x4 x5 x6 x7 x8 x9 x10 x11 x12 x13 y15 y16 y17 y18 y19 y20).2.2.1) (ix3 b t q)
      = State.num1 A (c8.val + 1) b t q := by
  rw [View.read_writes_eq_canon _ _ _ (coverC_19 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 hc1 x1 x2 x3 x4 x5 x6 x7 x8 x9 x10 x11 x12 x13 y15 y16 y17 y18 y19 y20),
    num1_last_canon c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 hc1 x1 x2 x3 x4 x5 x6 x7 x8 x9 x10 x11 x12 x13 y15 y16 y17 y18 y19 y20 A c8 hi hx1 hx2 hx4 hx6 hy16 hy17 hy18 hy19 hfin hpfin hhfin, num1Fun_apply]

end Cert.KernelIdeal.Body

end
-- ==== Proof.KernelIdealNumLeaf.lean ====
/-
  The numerator's leaf fact: the three products of the four heads' stacked 256-row table (its high part and its low
  part) with the four stacked copies of a 64 x 128 block, each copy kept only on its own head's 32 columns (its high part
  and its low part), read at (t, q). With the table and the block finite the low parts are zero, and of the 256 stacked
  rows only the 64 of q's head meet a kept entry in column q: what remains is the sum over the block's rows i of row
  64 (q div 32) + i of the table at t times the block's entry (i, q).
-/
import proofs.«169155_g70909910057105_cont_sun_m_1383_19_alg».proof.Proof.KernelIdealFirst
import proofs.«169155_g70909910057105_cont_sun_m_1383_19_alg».proof.Proof.KernelIdealMid

noncomputable section

namespace Cert.KernelIdeal.Payloads

open Cert.KernelIdeal Cert.KernelIdeal.Gen Cert.KernelIdeal.Body Idealize.ShloMosaic Idealize.ShloMosaic.ValueIdx
open Cert.Spec.DenseGat (headOf)

theorem numLeaf : NumLeaf := by
  intro T V hT hV t q
  rw [Cert.KernelIdeal.Body.pay82_eq, Cert.KernelIdeal.Body.pay86_eq]
  exact Cert.KernelIdeal.Body.numAcc_block T V Cert.KernelIdeal.Body.bdMask1 Cert.KernelIdeal.Body.bdMask1_apply
    (fun h i t => T (ix2 (Cert.KernelIdeal.Body.blk h i) t)) (fun _ _ _ => rfl) (fun h i t => hT _ t) hV t q

end Cert.KernelIdeal.Payloads

end
-- ==== Proof.KernelIdealLastDefs.lean ====
/-
  The last grid point's epilogue as explicit functions of what it reads: the layer-1 accumulators, the layer-2 edge
  scores, the adjacency entries and layer 2's weights. It mentions no program.

    o1 b t q      = num b t q * (1 / (den (4 b + head q) t + eps))                 layer 1's output
    h2 p q        = sum over k of X p k * W q k                                    projected features of X
    sc2 a h p     = sum over d of H p (32 h + d) * a h d                           a per-head score
    p2 h s t      = mask s t * exp (leaky (sc2 aS h s + sc2 aT h t + es h s t))    masked exponential
    den2 h t      = sum over s of p2 h s t
    attn2 h s t   = p2 h s t * (1 / (den2 h t + eps))
    out2 t q      = sum over s of attn2 (head q) s t * H s q
    OUT t b q     = out2 of H = h2 W2n (o1 b)
-/
import proofs.«169155_g70909910057105_cont_sun_m_1383_19_alg».proof.Proof.SpecDenseGat
import Idealize.ShloMosaic.Lib.ValueIdx
import Idealize.ShloMosaic.PureOps.Ideal

noncomputable section

namespace Cert.KernelIdeal.Last

open Idealize.ShloMosaic Idealize.ShloMosaic.ValueIdx
open Cert.Spec.DenseGat (feat headOf colOf leaky leakSlope eps)

/-- The float word of one. -/
def one32 : EReal := Ideal.ofBits .f32 0x3F800000#32

/-- Row 4 b + h of the eight-row denominator table. -/
def row8 (b : Fin 2) (h : Fin 4) : Fin 8 := ⟨4 * b.val + h.val, by have := b.isLt; have := h.isLt; omega⟩

/-- Layer 1's output: the numerator times the reciprocal of the guarded denominator of the feature's head. -/
def o1 (num : Fin 2 → Fin 512 → Fin 128 → EReal) (den : Fin 8 → Fin 512 → EReal) (b : Fin 2) (t : Fin 512) (q : Fin 128) : EReal :=
  num b t q * Ideal.div one32 (den (row8 b (headOf q)) t + eps)

/-- Layer 2's projected features of the node features X. -/
def h2 (w : (⟨2, ![128, 128]⟩ : Shape).Idx → EReal) (X : Fin 512 → Fin 128 → EReal) (p : Fin 512) (q : Fin 128) : EReal :=
  ∑ k : Fin 128, X p k * w (ix2 q k)

/-- A per-head score of node p against the head vectors a. -/
def sc2 (a : (⟨2, ![4, 32]⟩ : Shape).Idx → EReal) (H : Fin 512 → Fin 128 → EReal) (h : Fin 4) (p : Fin 512) : EReal :=
  ∑ d : Fin 32, H p (feat h d) * a (ix2 h d)

/-- Layer 2's masked exponential. -/
def p2 (adj : (⟨2, ![512, 512]⟩ : Shape).Idx → BitVec 32) (es : Fin 4 → Fin 512 → Fin 512 → EReal)
    (aS aT : (⟨2, ![4, 32]⟩ : Shape).Idx → EReal) (H : Fin 512 → Fin 128 → EReal) (h : Fin 4) (s t : Fin 512) : EReal :=
  (if adj (ix2 s t) ≠ 0#32 then 1 else 0) * Ideal.exp (leaky (sc2 aS H h s + sc2 aT H h t + es h s t))

/-- Its sum over the sources. -/
def den2 (adj : (⟨2, ![512, 512]⟩ : Shape).Idx → BitVec 32) (es : Fin 4 → Fin 512 → Fin 512 → EReal)
    (aS aT : (⟨2, ![4, 32]⟩ : Shape).Idx → EReal) (H : Fin 512 → Fin 128 → EReal) (h : Fin 4) (t : Fin 512) : EReal :=
  ∑ s : Fin 512, p2 adj es aS aT H h s t

/-- The normalised weight. -/
def attn2 (adj : (⟨2, ![512, 512]⟩ : Shape).Idx → BitVec 32) (es : Fin 4 → Fin 512 → Fin 512 → EReal)
    (aS aT : (⟨2, ![4, 32]⟩ : Shape).Idx → EReal) (H : Fin 512 → Fin 128 → EReal) (h : Fin 4) (s t : Fin 512) : EReal :=
  p2 adj es aS aT H h s t * Ideal.div one32 (den2 adj es aS aT H h t + eps)

/-- Layer 2's output for projected features H. -/
def out2 (adj : (⟨2, ![512, 512]⟩ : Shape).Idx → BitVec 32) (es : Fin 4 → Fin 512 → Fin 512 → EReal)
    (aS aT : (⟨2, ![4, 32]⟩ : Shape).Idx → EReal) (H : Fin 512 → Fin 128 → EReal) (t : Fin 512) (q : Fin 128) : EReal :=
  ∑ s : Fin 512, attn2 adj es aS aT H (headOf q) s t * H s q

/-- The output entry (t, b, q) from the layer-1 accumulators, the layer-2 edge scores, the mask and layer 2's weights. -/
def OUT (num : Fin 2 → Fin 512 → Fin 128 → EReal) (den : Fin 8 → Fin 512 → EReal) (es : Fin 4 → Fin 512 → Fin 512 → EReal)
    (adj : (⟨2, ![512, 512]⟩ : Shape).Idx → BitVec 32) (w2n : (⟨2, ![128, 128]⟩ : Shape).Idx → EReal)
    (as2 at2 : (⟨2, ![4, 32]⟩ : Shape).Idx → EReal) (t : Fin 512) (b : Fin 2) (q : Fin 128) : EReal :=
  out2 adj es as2 at2 (h2 w2n (o1 num den b)) t q

end Cert.KernelIdeal.Last

end
-- ==== Proof.KernelIdealBridge.lean ====
/-
  The bridge between the kernel's accumulated formulation and the shared specification. The kernel adds layer 1's
  masked exponentials, and their products with the sources' projections, block by block into a denominator and a
  numerator, divides once at the end, and sums a head's edge-weight rows before contracting them with the edge
  features; the specification normalises each weight first and contracts row by row. On real arrays the two are the
  same numbers: every stage is a real number, each guarded denominator is positive, and finite sums of reals may be
  regrouped. The same facts give the finiteness of the projected features and normalised weights the last grid point
  forms.
-/
import proofs.«169155_g70909910057105_cont_sun_m_1383_19_alg».proof.Proof.KernelIdealState
import proofs.«169155_g70909910057105_cont_sun_m_1383_19_alg».proof.Proof.KernelIdealLastDefs
import proofs.«169155_g70909910057105_cont_sun_m_1383_19_alg».proof.Proof.LibDenseAttention

noncomputable section

namespace Cert.KernelIdeal.Bridge

open Idealize.ShloMosaic Idealize.ShloMosaic.ValueIdx Cert.Spec.DenseGat Cert.KernelIdeal Cert.KernelIdeal.State
open Cert.Lib.DenseAttention

/-! ## Real entries -/

/-- An extended real that is a real number. -/
def IsReal (x : EReal) : Prop := ∃ r : ℝ, x = (r : EReal)

theorem isReal_coe (r : ℝ) : IsReal (r : EReal) := ⟨r, rfl⟩
theorem isReal_zero : IsReal 0 := ⟨0, EReal.coe_zero.symm⟩
theorem isReal_one : IsReal 1 := ⟨1, EReal.coe_one.symm⟩

theorem IsReal.add {x y : EReal} (hx : IsReal x) (hy : IsReal y) : IsReal (x + y) := by
  obtain ⟨a, rfl⟩ := hx; obtain ⟨b, rfl⟩ := hy; exact ⟨a + b, (EReal.coe_add a b).symm⟩

theorem IsReal.mul {x y : EReal} (hx : IsReal x) (hy : IsReal y) : IsReal (x * y) := by
  obtain ⟨a, rfl⟩ := hx; obtain ⟨b, rfl⟩ := hy; exact ⟨a * b, (EReal.coe_mul a b).symm⟩

theorem IsReal.sum {ι : Type*} (s : Finset ι) (f : ι → EReal) (h : ∀ i ∈ s, IsReal (f i)) : IsReal (∑ i ∈ s, f i) := by
  classical
  induction s using Finset.induction_on with
  | empty => rw [Finset.sum_empty]; exact isReal_zero
  | insert a s ha ih =>
    rw [Finset.sum_insert ha]
    exact (h a (Finset.mem_insert_self a s)).add (ih fun i hi => h i (Finset.mem_insert_of_mem hi))

theorem IsReal.exp {x : EReal} (hx : IsReal x) : IsReal (Ideal.exp x) := by
  obtain ⟨a, rfl⟩ := hx; exact ⟨Real.exp a, rfl⟩

theorem exp_pos_of_real {x : EReal} (hx : IsReal x) : 0 < Ideal.exp x := by
  obtain ⟨a, rfl⟩ := hx
  show (0 : EReal) < ((Real.exp a : ℝ) : EReal)
  exact EReal.coe_pos.mpr (Real.exp_pos a)

/-- The rectifier's slope is a real number. -/
theorem leakSlope_real : IsReal leakSlope := by
  refine ⟨(13421773 : ℝ) * (2 : ℝ) ^ (-26 : ℤ), ?_⟩
  simp [leakSlope, Ideal.ofBits, Ideal.ieee, -EReal.coe_mul]

/-- The denominator's guard is a positive real number. -/
theorem eps_pos_real : ∃ r : ℝ, 0 < r ∧ eps = (r : EReal) := by
  refine ⟨(15111573 : ℝ) * (2 : ℝ) ^ (-77 : ℤ), by positivity, ?_⟩
  simp [eps, Ideal.ofBits, Ideal.ieee, -EReal.coe_mul]

/-- The float word of one is one. -/
theorem one32_eq : Last.one32 = 1 := by
  unfold Last.one32
  rw [show (1 : EReal) = ((1 : ℝ) : EReal) by norm_cast]
  simp [Ideal.ofBits, Ideal.ieee, -EReal.coe_mul]; norm_num

theorem leaky_real {x : EReal} (hx : IsReal x) : IsReal (leaky x) := by
  unfold leaky
  split_ifs
  · exact hx
  · exact leakSlope_real.mul hx

/-! ## The specification's stages are real on real arrays -/

/-- A layer's parameters are real. -/
structure RealParams (P : Params) : Prop where
  Wn : ∀ q k, IsReal (P.Wn q k)
  We : ∀ q k, IsReal (P.We q k)
  aS : ∀ h d, IsReal (P.aS h d)
  aT : ∀ h d, IsReal (P.aT h d)
  aE : ∀ h, IsReal (P.aE h)

section Spec

variable {M : Fin 512 → Fin 512 → Prop} [DecidableRel M] {E : Fin 512 → Fin 512 → Fin 128 → EReal} {P : Params}
  {X : Fin 512 → Fin 2 → Fin 128 → EReal}
  (hE : ∀ s t k, IsReal (E s t k)) (hP : RealParams P) (hX : ∀ p b k, IsReal (X p b k))

include hP hX in
theorem proj_real (b : Fin 2) (i : Fin 512) (q : Fin 128) : IsReal (proj P X b i q) :=
  IsReal.sum _ _ fun k _ => (hX i b k).mul (hP.Wn q k)

include hP hX in
theorem srcScore_real (b : Fin 2) (s : Fin 512) (h : Fin 4) : IsReal (srcScore P X b s h) :=
  IsReal.sum _ _ fun d _ => (proj_real hP hX b s (feat h d)).mul (hP.aS h d)

include hP hX in
theorem tgtScore_real (b : Fin 2) (t : Fin 512) (h : Fin 4) : IsReal (tgtScore P X b t h) :=
  IsReal.sum _ _ fun d _ => (proj_real hP hX b t (feat h d)).mul (hP.aT h d)

include hE hP in
theorem edgeScore_real (s t : Fin 512) (h : Fin 4) : IsReal (edgeScore E P s t h) :=
  (IsReal.sum _ _ fun d _ => IsReal.sum _ _ fun k _ => (hE s t k).mul (hP.We (feat h d) k)).mul (hP.aE h)

include hE hP hX in
theorem expScore_real (b : Fin 2) (s t : Fin 512) (h : Fin 4) : IsReal (expScore M E P X b s t h) := by
  unfold expScore
  split_ifs
  · exact (leaky_real (((srcScore_real hP hX b s h).add (tgtScore_real hP hX b t h)).add (edgeScore_real hE hP s t h))).exp
  · exact isReal_zero

include hE hP hX in
theorem expScore_nonneg (b : Fin 2) (s t : Fin 512) (h : Fin 4) : 0 ≤ expScore M E P X b s t h := by
  unfold expScore
  split_ifs
  · exact (exp_pos_of_real (leaky_real (((srcScore_real hP hX b s h).add (tgtScore_real hP hX b t h)).add
      (edgeScore_real hE hP s t h)))).le
  · exact le_rfl

include hE hP hX in
/-- The guarded sum of the masked exponentials into a node is a positive real. -/
theorem guarded_sum_pos (b : Fin 2) (t : Fin 512) (h : Fin 4) :
    ∃ d : ℝ, d ≠ 0 ∧ (∑ s : Fin 512, expScore M E P X b s t h) + eps = (d : EReal) := by
  obtain ⟨e, he, hee⟩ := eps_pos_real
  obtain ⟨r, hr⟩ := IsReal.sum Finset.univ (fun s => expScore M E P X b s t h) fun s _ => expScore_real hE hP hX b s t h
  have hr0 : (0 : EReal) ≤ (r : EReal) := by
    rw [← hr]; exact Finset.sum_nonneg fun s _ => expScore_nonneg hE hP hX b s t h
  have hr0' : 0 ≤ r := EReal.coe_nonneg.mp hr0
  refine ⟨r + e, by positivity, ?_⟩
  rw [hr, hee, EReal.coe_add]

include hE hP hX in
theorem attn_real (b : Fin 2) (s t : Fin 512) (h : Fin 4) : IsReal (attn M E P X b s t h) := by
  unfold attn denom
  rw [zero_add]
  obtain ⟨d, hd, e⟩ := guarded_sum_pos (M := M) hE hP hX b t h
  rw [e, Ideal.div_coe hd]
  exact (expScore_real hE hP hX b s t h).mul (isReal_coe _)

include hE hP hX in
theorem layer_real (t : Fin 512) (b : Fin 2) (q : Fin 128) : IsReal (layer M E P X t b q) := by
  unfold layer
  exact isReal_zero.add (IsReal.sum _ _ fun s _ => (proj_real hP hX b s q).mul (attn_real hE hP hX b s t (headOf q)))

include hE hP hX in
/-- A layer in its accumulated form: the sum of the masked exponentials times the sources' projections, times the
    reciprocal of the guarded sum of the masked exponentials. -/
theorem layer_eq_accum (t : Fin 512) (b : Fin 2) (q : Fin 128) :
    layer M E P X t b q
      = (∑ s : Fin 512, expScore M E P X b s t (headOf q) * proj P X b s q)
          * Ideal.div Last.one32 ((∑ s : Fin 512, expScore M E P X b s t (headOf q)) + eps) := by
  unfold layer attn denom
  rw [zero_add, one32_eq]
  simp only [zero_add]
  obtain ⟨d, hd, e⟩ := guarded_sum_pos (M := M) hE hP hX b t (headOf q)
  rw [e]
  choose pr hpr using fun s => expScore_real (M := M) hE hP hX b s t (headOf q)
  choose hr hhr using fun s => proj_real hP hX b s q
  simp only [hpr, hhr]
  exact weighted_quotient Finset.univ pr hr hd

include hE hP hX in
/-- A layer in the form that normalises the weight first. -/
theorem layer_eq_weighted (t : Fin 512) (b : Fin 2) (q : Fin 128) :
    layer M E P X t b q
      = ∑ s : Fin 512, (expScore M E P X b s t (headOf q)
          * Ideal.div Last.one32 ((∑ s' : Fin 512, expScore M E P X b s' t (headOf q)) + eps)) * proj P X b s q := by
  unfold layer attn denom
  rw [zero_add, one32_eq]
  simp only [zero_add]
  obtain ⟨d, hd, e⟩ := guarded_sum_pos (M := M) hE hP hX b t (headOf q)
  rw [e]
  refine Finset.sum_congr rfl fun s _ => ?_
  obtain ⟨p, hp⟩ := expScore_real (M := M) hE hP hX b s t (headOf q)
  obtain ⟨H, hH⟩ := proj_real hP hX b s q
  rw [hp, hH, Ideal.div_coe hd, Ideal.div_coe hd, one_mul]
  simp only [← EReal.coe_mul]
  exact congrArg _ (by ring)

end Spec

/-! ## The kernel's arrays as the specification's arguments -/

/-- Every float entry of the argument arrays is a real number. -/
structure Finite (A : Args) : Prop where
  ef : ∀ i, ∃ r : ℝ, A.ef i = (r : EReal)
  x : ∀ i, ∃ r : ℝ, A.x i = (r : EReal)
  w1e : ∀ i, ∃ r : ℝ, A.w1e i = (r : EReal)
  w2e : ∀ i, ∃ r : ℝ, A.w2e i = (r : EReal)
  ae1 : ∀ i, ∃ r : ℝ, A.ae1 i = (r : EReal)
  ae2 : ∀ i, ∃ r : ℝ, A.ae2 i = (r : EReal)
  w1n : ∀ i, ∃ r : ℝ, A.w1n i = (r : EReal)
  as1 : ∀ i, ∃ r : ℝ, A.as1 i = (r : EReal)
  at1 : ∀ i, ∃ r : ℝ, A.at1 i = (r : EReal)
  w2n : ∀ i, ∃ r : ℝ, A.w2n i = (r : EReal)
  as2 : ∀ i, ∃ r : ℝ, A.as2 i = (r : EReal)
  at2 : ∀ i, ∃ r : ℝ, A.at2 i = (r : EReal)

variable (A : Args)

/-- The edge mask: the adjacency entry is not zero. -/
def M : Fin 512 → Fin 512 → Prop := fun s t => A.adj (ix2 s t) ≠ 0#32
instance : DecidableRel (M A) := fun s t => inferInstanceAs (Decidable (A.adj (ix2 s t) ≠ 0#32))
/-- The edge features. -/
def E : Fin 512 → Fin 512 → Fin 128 → EReal := fun s t k => A.ef (ix3 s t k)
/-- The node features. -/
def X : Fin 512 → Fin 2 → Fin 128 → EReal := fun p b k => A.x (ix3 p b k)
/-- Layer 1's parameters. -/
def P1 : Params :=
  ⟨fun q k => A.w1n (ix2 q k), fun q k => A.w1e (ix2 q k), fun h d => A.as1 (ix2 h d), fun h d => A.at1 (ix2 h d),
    fun h => A.ae1 (ix2 h (0 : Fin 1))⟩
/-- Layer 2's parameters. -/
def P2 : Params :=
  ⟨fun q k => A.w2n (ix2 q k), fun q k => A.w2e (ix2 q k), fun h d => A.as2 (ix2 h d), fun h d => A.at2 (ix2 h d),
    fun h => A.ae2 (ix2 h (0 : Fin 1))⟩

variable {A}

theorem E_real (hA : Finite A) (s t : Fin 512) (k : Fin 128) : IsReal (E A s t k) := hA.ef _
theorem X_real (hA : Finite A) (p : Fin 512) (b : Fin 2) (k : Fin 128) : IsReal (X A p b k) := hA.x _
theorem P1_real (hA : Finite A) : RealParams (P1 A) :=
  ⟨fun _ _ => hA.w1n _, fun _ _ => hA.w1e _, fun _ _ => hA.as1 _, fun _ _ => hA.at1 _, fun _ => hA.ae1 _⟩
theorem P2_real (hA : Finite A) : RealParams (P2 A) :=
  ⟨fun _ _ => hA.w2n _, fun _ _ => hA.w2e _, fun _ _ => hA.as2 _, fun _ _ => hA.at2 _, fun _ => hA.ae2 _⟩

/-- The kernel's edge score (the head's weight rows summed first) is the specification's (summed last). -/
theorem es_eq (hA : Finite A) (w : Sh128x128.Idx → EReal) (hw : ∀ i, ∃ r : ℝ, w i = (r : EReal)) (ae : Sh4x1.Idx → EReal)
    (h : Fin 4) (s t : Fin 512) :
    State.es A w ae h s t
      = (∑ d : Fin 32, ∑ k : Fin 128, A.ef (ix3 s t k) * w (ix2 (feat h d) k)) * ae (ix2 h (0 : Fin 1)) := by
  unfold State.es
  refine congrArg (· * ae (ix2 h (0 : Fin 1))) ?_
  choose wr hwr using hw
  choose er her using hA.ef
  simp only [hwr, her]
  exact rowgroup_contract Finset.univ Finset.univ (fun d k => wr (ix2 (feat h d) k)) (fun k => er (ix3 s t k))

theorem es1_eq (hA : Finite A) (h : Fin 4) (s t : Fin 512) :
    State.es A A.w1e A.ae1 h s t = edgeScore (E A) (P1 A) s t h := es_eq hA A.w1e hA.w1e A.ae1 h s t

theorem es2_eq (hA : Finite A) (h : Fin 4) (s t : Fin 512) :
    State.es A A.w2e A.ae2 h s t = edgeScore (E A) (P2 A) s t h := es_eq hA A.w2e hA.w2e A.ae2 h s t

/-- A 0/1 mask times a value is the value on the mask, zero off it. -/
theorem mask_mul (c : Prop) [Decidable c] (x : EReal) : (if c then (1 : EReal) else 0) * x = if c then x else 0 := by
  split_ifs
  · exact one_mul x
  · exact zero_mul x

/-- Layer 1's masked exponential is the specification's. -/
theorem p1_eq (hA : Finite A) (b : Fin 2) (h : Fin 4) (s t : Fin 512) :
    State.p1 A b h s t = expScore (M A) (E A) (P1 A) (X A) b s t h := by
  unfold State.p1 State.msk
  rw [mask_mul, es1_eq hA]
  rfl

theorem den1_eight (b : Fin 2) (h : Fin 4) (t : Fin 512) : State.den1 A 8 b h t = ∑ s : Fin 512, State.p1 A b h s t := by
  unfold State.den1
  exact Finset.sum_congr rfl fun s _ => if_pos (by have := s.isLt; omega)

theorem num1_eight (b : Fin 2) (t : Fin 512) (q : Fin 128) :
    State.num1 A 8 b t q = ∑ s : Fin 512, State.p1 A b (headOf q) s t * State.h1 A b s q := by
  unfold State.num1
  exact Finset.sum_congr rfl fun s _ => if_pos (by have := s.isLt; omega)

/-- The numerator accumulator, the denominator table and the layer-2 edge scores the last point reads. -/
abbrev numA (A : Args) : Fin 2 → Fin 512 → Fin 128 → EReal := fun b t q => State.num1 A 8 b t q
abbrev denA (A : Args) : Fin 8 → Fin 512 → EReal := fun r t =>
  State.den1 A 8 ⟨r.val / 4, by have := r.isLt; omega⟩ ⟨r.val % 4, Nat.mod_lt _ (by decide)⟩ t
abbrev es2A (A : Args) : Fin 4 → Fin 512 → Fin 512 → EReal := fun h s t => State.es A A.w2e A.ae2 h s t

/-- Layer 1's output as the last point forms it is the specification's first layer. -/
theorem o1_eq (hA : Finite A) (b : Fin 2) (t : Fin 512) (q : Fin 128) :
    Last.o1 (numA A) (denA A) b t q = layer (M A) (E A) (P1 A) (X A) t b q := by
  rw [layer_eq_accum (E_real hA) (P1_real hA) (X_real hA)]
  unfold Last.o1
  have hb : (⟨(Last.row8 b (headOf q)).val / 4, by have := (Last.row8 b (headOf q)).isLt; omega⟩ : Fin 2) = b :=
    Fin.ext (by show (4 * b.val + (headOf q).val) / 4 = b.val; have := (headOf q).isLt; omega)
  have hh : (⟨(Last.row8 b (headOf q)).val % 4, Nat.mod_lt _ (by decide)⟩ : Fin 4) = headOf q :=
    Fin.ext (by show (4 * b.val + (headOf q).val) % 4 = (headOf q).val; have := (headOf q).isLt; omega)
  show State.num1 A 8 b t q * Ideal.div Last.one32 (State.den1 A 8 _ _ t + eps) = _
  rw [hb, hh, num1_eight, den1_eight]
  simp only [p1_eq hA]
  rfl

/-- Layer 2's projected features as the last point forms them. -/
abbrev H2 (A : Args) (b : Fin 2) : Fin 512 → Fin 128 → EReal := Last.h2 A.w2n (Last.o1 (numA A) (denA A) b)

/-- They are the specification's projection of the first layer's output. -/
theorem H2_eq (hA : Finite A) (b : Fin 2) (p : Fin 512) (q : Fin 128) :
    H2 A b p q = proj (P2 A) (layer (M A) (E A) (P1 A) (X A)) b p q := by
  unfold H2 Last.h2 proj
  exact Finset.sum_congr rfl fun k _ => by rw [o1_eq hA]; rfl

theorem L1_real (hA : Finite A) (p : Fin 512) (b : Fin 2) (k : Fin 128) : IsReal (layer (M A) (E A) (P1 A) (X A) p b k) :=
  layer_real (E_real hA) (P1_real hA) (X_real hA) p b k

/-- FINITENESS: every projected feature the last point forms is a real number. -/
theorem h2_real (hA : Finite A) (b : Fin 2) (p : Fin 512) (q : Fin 128) : ∃ r : ℝ, H2 A b p q = (r : EReal) := by
  rw [H2_eq hA]
  exact proj_real (P2_real hA) (L1_real hA) b p q

/-- Layer 2's masked exponential as the last point forms it is the specification's. -/
theorem p2_eq (hA : Finite A) (b : Fin 2) (h : Fin 4) (s t : Fin 512) :
    Last.p2 A.adj (es2A A) A.as2 A.at2 (H2 A b) h s t
      = expScore (M A) (E A) (P2 A) (layer (M A) (E A) (P1 A) (X A)) b s t h := by
  unfold Last.p2 Last.sc2
  rw [mask_mul]
  show (if A.adj (ix2 s t) ≠ 0#32 then _ else 0) = _
  simp only [H2_eq hA, es2A, es2_eq hA]
  rfl

theorem den2_eq (hA : Finite A) (b : Fin 2) (h : Fin 4) (t : Fin 512) :
    Last.den2 A.adj (es2A A) A.as2 A.at2 (H2 A b) h t
      = ∑ s : Fin 512, expScore (M A) (E A) (P2 A) (layer (M A) (E A) (P1 A) (X A)) b s t h := by
  unfold Last.den2
  exact Finset.sum_congr rfl fun s _ => p2_eq hA b h s t

/-- FINITENESS: every normalised weight the last point forms is a real number. -/
theorem attn2_real (hA : Finite A) (b : Fin 2) (h : Fin 4) (s t : Fin 512) :
    ∃ r : ℝ, Last.attn2 A.adj (es2A A) A.as2 A.at2 (H2 A b) h s t = (r : EReal) := by
  unfold Last.attn2
  rw [p2_eq hA, den2_eq hA]
  obtain ⟨d, hd, e⟩ := guarded_sum_pos (M := M A) (E_real hA) (P2_real hA) (L1_real hA) b t h
  rw [e, Ideal.div_coe hd]
  exact (expScore_real (E_real hA) (P2_real hA) (L1_real hA) b s t h).mul
    ((show IsReal Last.one32 from one32_eq ▸ isReal_one).mul (isReal_coe _))

/-- THE BRIDGE: the last point's output, formed from the layer-1 accumulators after all eight blocks, is the
    specification's two-layer network of the argument arrays. -/
theorem OUT_eq_network (hA : Finite A) (t : Fin 512) (b : Fin 2) (q : Fin 128) :
    Last.OUT (numA A) (denA A) (es2A A) A.adj A.w2n A.as2 A.at2 t b q
      = network (M A) (E A) (X A) (P1 A) (P2 A) t b q := by
  unfold Last.OUT Last.out2 network
  rw [layer_eq_weighted (E_real hA) (P2_real hA) (L1_real hA)]
  refine Finset.sum_congr rfl fun s _ => ?_
  unfold Last.attn2
  rw [p2_eq hA, den2_eq hA]
  exact congrArg (_ * ·) (H2_eq hA b s q)

end Cert.KernelIdeal.Bridge

end
-- ==== Proof.KernelIdealStateReal.lean ====
/-
  On real argument arrays the two quantities the numerator accumulates are real numbers: layer 1's masked exponential of
  a head on a pair of nodes (a 0/1 mask times the exponential of a real score), and layer 1's projected feature of a node
  (a finite sum of products of reals).
-/
import proofs.«169155_g70909910057105_cont_sun_m_1383_19_alg».proof.Proof.KernelIdealBridge

noncomputable section

namespace Cert.KernelIdeal.Bridge

open Idealize.ShloMosaic Idealize.ShloMosaic.ValueIdx Cert.Spec.DenseGat Cert.KernelIdeal Cert.KernelIdeal.State

/-- Layer 1's masked exponential is a real number. -/
theorem p1_real {A : State.Args} (hA : Finite A) (b : Fin 2) (h : Fin 4) (s t : Fin 512) :
    ∃ r : ℝ, State.p1 A b h s t = (r : EReal) := by
  rw [p1_eq hA]
  exact expScore_real (M := M A) (E_real hA) (P1_real hA) (X_real hA) b s t h

/-- Layer 1's projected feature is a real number. -/
theorem h1_real {A : State.Args} (hA : Finite A) (b : Fin 2) (s : Fin 512) (q : Fin 128) :
    ∃ r : ℝ, State.h1 A b s q = (r : EReal) :=
  proj_real (P1_real hA) (X_real hA) b s q

end Cert.KernelIdeal.Bridge

end
-- ==== Proof.KernelIdealFactsFirstAcc.lean ====
/-
  The first grid point's two accumulator facts for the pipeline's actual buffers: from any contents, the point leaves
  the denominator accumulator at the partial sums over the first block of sources, and the numerator accumulator likewise, the argument arrays
  being real.
-/
import proofs.«169155_g70909910057105_cont_sun_m_1383_19_alg».proof.Proof.KernelIdealFactsFirst
import proofs.«169155_g70909910057105_cont_sun_m_1383_19_alg».proof.Proof.KernelIdealFirst
import proofs.«169155_g70909910057105_cont_sun_m_1383_19_alg».proof.Proof.KernelIdealNumLeaf
import proofs.«169155_g70909910057105_cont_sun_m_1383_19_alg».proof.Proof.KernelIdealStateReal

set_option maxRecDepth 16384

noncomputable section

namespace Cert.KernelIdeal.Body

open Cert.KernelIdeal Cert.KernelIdeal.Gen
open Idealize.ShloMosaic Idealize.ShloMosaic.TcCoe Idealize.ShloMosaic.ValueIdx
open Idealize.SL Idealize.SL.Sem
open Cert.KernelIdeal.State (Args rowOf)

variable (m : (ℓ : Loc nD τ sig) → Buf (Elt Ideal) ℓ)

set_option maxHeartbeats 4000000 in
/-- The denominator accumulator after the first point holds the sums over the first block. -/
theorem first_den (c : Dev nD) (hA : Bridge.Finite (argsOf m c))
    (t : Fin cfg0.N) (h0 : isFirst (grid0.coords t)) (h1 : ¬isLast (grid0.coords t)) (y15 : Vec Ideal S4x512x512 .f32) :
    View.canon (namedA (F := Ideal) c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t) (ms12 t) (hs12 t) (ms13 t) (hs13 t) scr0 (Memref.isWhole_whole _) scr1 (Memref.isWhole_whole _) scr2 (Memref.isWhole_whole _) scr3 (Memref.isWhole_whole _) scr4 (Memref.isWhole_whole _) scr5 (Memref.isWhole_whole _) h0 h1 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) y15).2.2.2.2.2.1 = denBuf (argsOf m c) 1 := by
  have ht0 : t.val = 0 := (isFirst_iff t).mp h0
  funext j
  have hj0 : (j 0).val < 8 := (j 0).isLt
  have hb : (j 0).val / 4 < 2 := by omega
  have E : j = (ix2 (⟨4 * (⟨(j 0).val / 4, hb⟩ : Fin 2).val + (⟨(j 0).val % 4, Nat.mod_lt _ (by decide)⟩ : Fin 4).val, by omega⟩ : Fin 8)
      (⟨(j 1).val, (j 1).isLt⟩ : Fin 512) : S8x512.Idx) :=
    funext fun a => Fin.ext (by
      match a with
      | ⟨0, _⟩ =>
        show (j 0).val = 4 * ((j 0).val / 4) + (j 0).val % 4
        omega
      | ⟨1, _⟩ => rfl)
  exact (congrArg (View.canon (namedA (F := Ideal) c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t) (ms12 t) (hs12 t) (ms13 t) (hs13 t) scr0 (Memref.isWhole_whole _) scr1 (Memref.isWhole_whole _) scr2 (Memref.isWhole_whole _) scr3 (Memref.isWhole_whole _) scr4 (Memref.isWhole_whole _) scr5 (Memref.isWhole_whole _) h0 h1 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) y15).2.2.2.2.2.1) E).trans
    (den_first c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t) (ms12 t) (hs12 t) (ms13 t) (hs13 t) scr0 (Memref.isWhole_whole _) scr1 (Memref.isWhole_whole _) scr2 (Memref.isWhole_whole _) scr3 (Memref.isWhole_whole _) scr4 (Memref.isWhole_whole _) scr5 (Memref.isWhole_whole _) h0 h1 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) y15 (argsOf m c)
    (by rw [coord_eq]; exact ht0)
    (fun r tt' k => by rw [blk_0]; exact congrArg (fun z => (argsOf m c).ef (ix3 z tt' k)) (Fin.ext (by show 64 * t.val + r.val = 64 * 0 + r.val; omega)))
    (fun s tt' => by rw [blk_1])
    (fun p b k => by rw [blk_2])
    (fun q k => by rw [blk_3])
    (fun hh => by rw [blk_5])
    (fun q k => by rw [blk_7])
    (fun hh d => by rw [blk_8])
    (fun hh d => by rw [blk_9])
    (fun q k => hA.w1e _) ⟨(j 0).val / 4, hb⟩ ⟨(j 0).val % 4, Nat.mod_lt _ (by decide)⟩ ⟨(j 1).val, (j 1).isLt⟩)

set_option maxHeartbeats 4000000 in
/-- The numerator accumulator after the first point holds the sums over the first block. -/
theorem first_num (c : Dev nD) (hA : Bridge.Finite (argsOf m c))
    (t : Fin cfg0.N) (h0 : isFirst (grid0.coords t)) (h1 : ¬isLast (grid0.coords t)) (y15 : Vec Ideal S4x512x512 .f32) :
    View.canon (namedA (F := Ideal) c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t) (ms12 t) (hs12 t) (ms13 t) (hs13 t) scr0 (Memref.isWhole_whole _) scr1 (Memref.isWhole_whole _) scr2 (Memref.isWhole_whole _) scr3 (Memref.isWhole_whole _) scr4 (Memref.isWhole_whole _) scr5 (Memref.isWhole_whole _) h0 h1 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) y15).2.2.2.2.1 = numBuf (argsOf m c) 1 := by
  have ht0 : t.val = 0 := (isFirst_iff t).mp h0
  funext j
  have E : j = (ix3 (⟨(j 0).val, (j 0).isLt⟩ : Fin 2) (⟨(j 1).val, (j 1).isLt⟩ : Fin 512) (⟨(j 2).val, (j 2).isLt⟩ : Fin 128) : S2x512x128.Idx) :=
    funext fun a => Fin.ext (by
      match a with
      | ⟨0, _⟩ => rfl
      | ⟨1, _⟩ => rfl
      | ⟨2, _⟩ => rfl)
  exact (congrArg (View.canon (namedA (F := Ideal) c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t) (ms12 t) (hs12 t) (ms13 t) (hs13 t) scr0 (Memref.isWhole_whole _) scr1 (Memref.isWhole_whole _) scr2 (Memref.isWhole_whole _) scr3 (Memref.isWhole_whole _) scr4 (Memref.isWhole_whole _) scr5 (Memref.isWhole_whole _) h0 h1 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) y15).2.2.2.2.1) E).trans
    (num_first c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t) (ms12 t) (hs12 t) (ms13 t) (hs13 t) scr0 (Memref.isWhole_whole _) scr1 (Memref.isWhole_whole _) scr2 (Memref.isWhole_whole _) scr3 (Memref.isWhole_whole _) scr4 (Memref.isWhole_whole _) scr5 (Memref.isWhole_whole _) h0 h1 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) y15 (argsOf m c)
    (by rw [coord_eq]; exact ht0)
    (fun r tt' k => by rw [blk_0]; exact congrArg (fun z => (argsOf m c).ef (ix3 z tt' k)) (Fin.ext (by show 64 * t.val + r.val = 64 * 0 + r.val; omega)))
    (fun s tt' => by rw [blk_1])
    (fun p b k => by rw [blk_2])
    (fun q k => by rw [blk_3])
    (fun hh => by rw [blk_5])
    (fun q k => by rw [blk_7])
    (fun hh d => by rw [blk_8])
    (fun hh d => by rw [blk_9])
    (fun q k => hA.w1e _) (Bridge.p1_real hA) (Bridge.h1_real hA) Payloads.numLeaf
    ⟨(j 0).val, (j 0).isLt⟩ ⟨(j 1).val, (j 1).isLt⟩ ⟨(j 2).val, (j 2).isLt⟩)

end Cert.KernelIdeal.Body

end
-- ==== Proof.KernelIdealFactsMid.lean ====
/-
  The middle grid points at the pipeline's actual buffers and argument arrays. A middle point t holds block t of 64
  source rows. From the tracked contents after the blocks before it — the layer-2 edge-score scratch right on the rows
  below 64 t, the numerator and denominator accumulators at the partial sums over the sources s < 64 t — it leaves the
  edge-score scratch right on the rows below 64 (t + 1) and the two accumulators at the partial sums over s < 64 (t + 1).
  Each of the three is the corresponding fact about the body's stores, read at the windows' contents (twelve windows hold
  their whole array, the edge-feature window holds block t) and at the scratch buffers' layouts: the score and
  denominator buffers keep batch slice b and head h in row 4 b + h, and every row r < 8 is such a row, with b = r / 4
  and h = r % 4.
  The numerator accumulator's update enters `midFacts_of_num` as the hypothesis `hnum`, entry by entry.
-/
import proofs.«169155_g70909910057105_cont_sun_m_1383_19_alg».proof.Proof.KernelIdealData
import proofs.«169155_g70909910057105_cont_sun_m_1383_19_alg».proof.Proof.KernelIdealArgs
import proofs.«169155_g70909910057105_cont_sun_m_1383_19_alg».proof.Proof.KernelIdealEs2
import proofs.«169155_g70909910057105_cont_sun_m_1383_19_alg».proof.Proof.KernelIdealMid

set_option maxRecDepth 16384

noncomputable section

namespace Cert.KernelIdeal.Body

open Cert.KernelIdeal Cert.KernelIdeal.Gen
open Idealize.ShloMosaic Idealize.ShloMosaic.TcCoe Idealize.ShloMosaic.Tactic Idealize.ShloMosaic.ValueIdx
open Idealize.SL Idealize.SL.Sem
open Cert.KernelIdeal.State (Args rowOf)

/-! ## The grid coordinate and the buffers' layouts at an index -/

/-- The grid is one-dimensional: point t has coordinate t. -/
theorem coord0_val : ∀ t : Fin cfg0.N, ((grid0.coords t) 0).val = t.val :=
  (by decide +kernel : ∀ t : Fin grid0.N, ((grid0.coords t) 0).val = t.val)

/-- The projected-feature layout at (b, p, q). -/
theorem h1Buf_at (A : Args) (b : Fin 2) (p : Fin 512) (q : Fin 128) :
    h1Buf A (ix3 b p q) = State.h1 A b p q := rfl

/-- The numerator layout at (b, t, q). -/
theorem numBuf_at (A : Args) (n : ℕ) (b : Fin 2) (t : Fin 512) (q : Fin 128) :
    numBuf A n (ix3 b t q) = State.num1 A n b t q := rfl

/-- The source-score layout at (p, r), row r being 4 b + h. -/
theorem ss1Buf_at (A : Args) (p : Fin 512) (r : Fin 8) (b : Fin 2) (h : Fin 4) (hr : r.val = 4 * b.val + h.val) :
    ss1Buf A (ix2 p r) = State.score1 A A.as1 b h p := by
  unfold ss1Buf
  have hb : (⟨((ix2 p r : S512x8.Idx) 1).val / 4, by show r.val / 4 < 2; have := r.isLt; omega⟩ : Fin 2) = b :=
    Fin.ext (by show r.val / 4 = b.val; have := h.isLt; omega)
  have hh : (⟨((ix2 p r : S512x8.Idx) 1).val % 4, Nat.mod_lt _ (by decide)⟩ : Fin 4) = h :=
    Fin.ext (by show r.val % 4 = h.val; have := h.isLt; omega)
  have hp : (⟨((ix2 p r : S512x8.Idx) 0).val, ((ix2 p r : S512x8.Idx) 0).isLt⟩ : Fin 512) = p := Fin.ext rfl
  rw [hb, hh, hp]

/-- The target-score layout at (r, p), row r being 4 b + h. -/
theorem st1Buf_at (A : Args) (p : Fin 512) (r : Fin 8) (b : Fin 2) (h : Fin 4) (hr : r.val = 4 * b.val + h.val) :
    st1Buf A (ix2 r p) = State.score1 A A.at1 b h p := by
  unfold st1Buf
  have hb : (⟨((ix2 r p : S8x512.Idx) 0).val / 4, by show r.val / 4 < 2; have := r.isLt; omega⟩ : Fin 2) = b :=
    Fin.ext (by show r.val / 4 = b.val; have := h.isLt; omega)
  have hh : (⟨((ix2 r p : S8x512.Idx) 0).val % 4, Nat.mod_lt _ (by decide)⟩ : Fin 4) = h :=
    Fin.ext (by show r.val % 4 = h.val; have := h.isLt; omega)
  have hp : (⟨((ix2 r p : S8x512.Idx) 1).val, ((ix2 r p : S8x512.Idx) 1).isLt⟩ : Fin 512) = p := Fin.ext rfl
  rw [hb, hh, hp]

/-- The denominator layout at (r, t), row r being 4 b + h. -/
theorem denBuf_at (A : Args) (n : ℕ) (t : Fin 512) (r : Fin 8) (b : Fin 2) (h : Fin 4) (hr : r.val = 4 * b.val + h.val) :
    denBuf A n (ix2 r t) = State.den1 A n b h t := by
  unfold denBuf
  have hb : (⟨((ix2 r t : S8x512.Idx) 0).val / 4, by show r.val / 4 < 2; have := r.isLt; omega⟩ : Fin 2) = b :=
    Fin.ext (by show r.val / 4 = b.val; have := h.isLt; omega)
  have hh : (⟨((ix2 r t : S8x512.Idx) 0).val % 4, Nat.mod_lt _ (by decide)⟩ : Fin 4) = h :=
    Fin.ext (by show r.val % 4 = h.val; have := h.isLt; omega)
  have hp : (⟨((ix2 r t : S8x512.Idx) 1).val, ((ix2 r t : S8x512.Idx) 1).isLt⟩ : Fin 512) = t := Fin.ext rfl
  rw [hb, hh, hp]

/-! ## The windows' and the scratch buffers' contents, in the shape the body's facts take them -/

variable (m : (ℓ : Loc nD τ sig) → Buf (Elt Ideal) ℓ)

/-- The block of a grid point, as one of the eight blocks. -/
abbrev blkOf (t : Fin cfg0.N) : Fin 8 := ⟨t.val, lt_of_lt_of_eq t.isLt N_0⟩

/-- The edge-feature window at point t: row i of it is source row 64 t + i. -/
theorem win_ef (c : Dev nD) (t : Fin cfg0.N) (ii : Fin 64) (tt : Fin 512) (k : Fin 128) :
    iblk m c 0 t (ix3 ii tt k) = (argsOf m c).ef (ix3 (rowOf (blkOf t) ii) tt k) := blk_0 m c t ii tt k
/-- The adjacency window: the whole array. -/
theorem win_adj (c : Dev nD) (t : Fin cfg0.N) (s tt : Fin 512) : iblk m c 1 t (ix2 s tt) = (argsOf m c).adj (ix2 s tt) :=
  congrFun (blk_1 m c t) (ix2 s tt)
/-- Layer 1's edge weights, -/
theorem win_w1e (c : Dev nD) (t : Fin cfg0.N) (q k : Fin 128) : iblk m c 3 t (ix2 q k) = (argsOf m c).w1e (ix2 q k) :=
  congrFun (blk_3 m c t) (ix2 q k)
/-- layer 2's, -/
theorem win_w2e (c : Dev nD) (t : Fin cfg0.N) (q k : Fin 128) : iblk m c 4 t (ix2 q k) = (argsOf m c).w2e (ix2 q k) :=
  congrFun (blk_4 m c t) (ix2 q k)
/-- and the two layers' per-head edge coefficients. -/
theorem win_ae1 (c : Dev nD) (t : Fin cfg0.N) (h : Fin 4) : iblk m c 5 t (ix2 h (0 : Fin 1)) = (argsOf m c).ae1 (ix2 h (0 : Fin 1)) :=
  congrFun (blk_5 m c t) (ix2 h (0 : Fin 1))
theorem win_ae2 (c : Dev nD) (t : Fin cfg0.N) (h : Fin 4) : iblk m c 6 t (ix2 h (0 : Fin 1)) = (argsOf m c).ae2 (ix2 h (0 : Fin 1)) :=
  congrFun (blk_6 m c t) (ix2 h (0 : Fin 1))

/-- The score and denominator buffers at the row of batch slice b and head h. -/
theorem scr_ss (A : Args) (p : Fin 512) (b : Fin 2) (h : Fin 4) : ss1Buf A (ix2 p (accRow b h)) = State.score1 A A.as1 b h p :=
  ss1Buf_at A p (accRow b h) b h rfl
theorem scr_st (A : Args) (b : Fin 2) (h : Fin 4) (p : Fin 512) : st1Buf A (ix2 (accRow b h) p) = State.score1 A A.at1 b h p :=
  st1Buf_at A p (accRow b h) b h rfl
theorem scr_den (A : Args) (n : ℕ) (b : Fin 2) (h : Fin 4) (t : Fin 512) : denBuf A n (ix2 (accRow b h) t) = State.den1 A n b h t :=
  denBuf_at A n t (accRow b h) b h rfl

/-- Every row of the eight is the row of its batch slice r / 4 and head r % 4. -/
theorem row_accRow (r : Fin 8) : ∃ (b : Fin 2) (h : Fin 4), r = accRow b h :=
  ⟨⟨r.val / 4, by have := r.isLt; omega⟩, ⟨r.val % 4, Nat.mod_lt _ (by decide)⟩,
    Fin.ext (by show r.val = 4 * (r.val / 4) + r.val % 4; omega)⟩

/-! ## The three buffers after a middle point -/

set_option maxHeartbeats 4000000 in
/-- After a middle point the layer-2 edge-score scratch is right on the rows of one more block. -/
theorem mid_agree (c : Dev nD) (hfin2 : ∀ q k : Fin 128, ∃ r : ℝ, (argsOf m c).w2e (ix2 q k) = (r : EReal))
    (t : Fin cfg0.N) (h0 : ¬isFirst (grid0.coords t)) (h1 : ¬isLast (grid0.coords t)) (y15 : Vec Ideal S4x512x512 .f32)
    (hag : agree (argsOf m c) t.val y15)
    (y16 : Vec Ideal S2x512x128 .f32) (y17 : Vec Ideal S512x8 .f32) (y18 : Vec Ideal S8x512 .f32) (y19 : Vec Ideal S2x512x128 .f32) (y20 : Vec Ideal S8x512 .f32) :
    agree (argsOf m c) (t.val + 1) (scr0.view.read (Elt Ideal) (scr0.view.writes (Elt Ideal) ((Memref.isWhole_whole cc0_scratch0).unread y15)
      (namedB (F := Ideal) c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t) (ms12 t) (hs12 t) (ms13 t) (hs13 t) scr0 (Memref.isWhole_whole _) scr1 (Memref.isWhole_whole _) scr2 (Memref.isWhole_whole _) scr3 (Memref.isWhole_whole _) scr4 (Memref.isWhole_whole _) scr5 (Memref.isWhole_whole _) h0 h1 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) y15 y16 y17 y18 y19 y20).1)) := by
  intro h s tt hs
  exact es2_mid c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t) (ms12 t) (hs12 t) (ms13 t) (hs13 t) scr0 (Memref.isWhole_whole _) scr1 (Memref.isWhole_whole _) scr2 (Memref.isWhole_whole _) scr3 (Memref.isWhole_whole _) scr4 (Memref.isWhole_whole _) scr5 (Memref.isWhole_whole _) h0 h1 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) y15 y16 y17 y18 y19 y20 (argsOf m c) (blkOf t) (coord0_val t)
    (win_ef m c t) (win_w2e m c t) (win_ae2 m c t) hfin2 (fun h s tt hlt => hag h s tt hlt) h s tt hs

set_option maxHeartbeats 4000000 in
/-- After a middle point the denominator accumulator holds the partial sums over one more block. -/
theorem mid_den (c : Dev nD) (hfin1 : ∀ q k : Fin 128, ∃ r : ℝ, (argsOf m c).w1e (ix2 q k) = (r : EReal))
    (t : Fin cfg0.N) (h0 : ¬isFirst (grid0.coords t)) (h1 : ¬isLast (grid0.coords t)) (y15 : Vec Ideal S4x512x512 .f32) :
    scr5.view.read (Elt Ideal) (scr5.view.writes (Elt Ideal) ((Memref.isWhole_whole cc0_scratch5).unread (denBuf (argsOf m c) t.val))
      (namedB (F := Ideal) c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t) (ms12 t) (hs12 t) (ms13 t) (hs13 t) scr0 (Memref.isWhole_whole _) scr1 (Memref.isWhole_whole _) scr2 (Memref.isWhole_whole _) scr3 (Memref.isWhole_whole _) scr4 (Memref.isWhole_whole _) scr5 (Memref.isWhole_whole _) h0 h1 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) y15 (h1Buf (argsOf m c)) (ss1Buf (argsOf m c)) (st1Buf (argsOf m c)) (numBuf (argsOf m c) t.val) (denBuf (argsOf m c) t.val)).2.2.1) = denBuf (argsOf m c) (t.val + 1) := by
  funext j
  obtain ⟨r, tt, rfl⟩ : ∃ (r : Fin 8) (tt : Fin 512), j = ix2 r tt := ⟨j 0, j 1, eq_ix2 j⟩
  obtain ⟨b, h, rfl⟩ := row_accRow r
  refine (den1_mid c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t) (ms12 t) (hs12 t) (ms13 t) (hs13 t) scr0 (Memref.isWhole_whole _) scr1 (Memref.isWhole_whole _) scr2 (Memref.isWhole_whole _) scr3 (Memref.isWhole_whole _) scr4 (Memref.isWhole_whole _) scr5 (Memref.isWhole_whole _) h0 h1 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) y15 (h1Buf (argsOf m c)) (ss1Buf (argsOf m c)) (st1Buf (argsOf m c)) (numBuf (argsOf m c) t.val) (denBuf (argsOf m c) t.val) (argsOf m c) (blkOf t) (coord0_val t)
    (win_ef m c t) (win_adj m c t) (win_w1e m c t) (win_ae1 m c t)
    (fun p b h => scr_ss (argsOf m c) p b h) (scr_st (argsOf m c)) (scr_den (argsOf m c) t.val) hfin1 b h tt).trans ?_
  exact (scr_den (argsOf m c) (t.val + 1) b h tt).symm

set_option maxHeartbeats 4000000 in
/-- What a middle point does to the tracked buffers, given the numerator accumulator's update entry by entry. -/
theorem midFacts_of_num (c : Dev nD) (hfin1 : ∀ q k : Fin 128, ∃ r : ℝ, (argsOf m c).w1e (ix2 q k) = (r : EReal)) (hfin2 : ∀ q k : Fin 128, ∃ r : ℝ, (argsOf m c).w2e (ix2 q k) = (r : EReal))
    (hnum : ∀ (t : Fin cfg0.N) (h0 : ¬isFirst (grid0.coords t)) (h1 : ¬isLast (grid0.coords t)) (y15 : Vec Ideal S4x512x512 .f32)
      (b : Fin 2) (tt : Fin 512) (q : Fin 128),
      scr4.view.read (Elt Ideal) (scr4.view.writes (Elt Ideal) ((Memref.isWhole_whole cc0_scratch4).unread (numBuf (argsOf m c) t.val))
        (namedB (F := Ideal) c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t) (ms12 t) (hs12 t) (ms13 t) (hs13 t) scr0 (Memref.isWhole_whole _) scr1 (Memref.isWhole_whole _) scr2 (Memref.isWhole_whole _) scr3 (Memref.isWhole_whole _) scr4 (Memref.isWhole_whole _) scr5 (Memref.isWhole_whole _) h0 h1 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) y15 (h1Buf (argsOf m c)) (ss1Buf (argsOf m c)) (st1Buf (argsOf m c)) (numBuf (argsOf m c) t.val) (denBuf (argsOf m c) t.val)).2.1) (ix3 b tt q) = State.num1 (argsOf m c) (t.val + 1) b tt q) :
    ∀ (t : Fin cfg0.N) (h0 : ¬isFirst (grid0.coords t)) (h1 : ¬isLast (grid0.coords t)) (y15 : Vec Ideal S4x512x512 .f32),
    agree (argsOf m c) t.val y15 →
    let R := namedB (F := Ideal) c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t) (ms12 t) (hs12 t) (ms13 t) (hs13 t) scr0 (Memref.isWhole_whole _) scr1 (Memref.isWhole_whole _) scr2 (Memref.isWhole_whole _) scr3 (Memref.isWhole_whole _) scr4 (Memref.isWhole_whole _) scr5 (Memref.isWhole_whole _) h0 h1 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) y15 (h1Buf (argsOf m c)) (ss1Buf (argsOf m c)) (st1Buf (argsOf m c)) (numBuf (argsOf m c) t.val) (denBuf (argsOf m c) t.val)
    agree (argsOf m c) (t.val + 1) (scr0.view.read (Elt Ideal) (scr0.view.writes (Elt Ideal) ((Memref.isWhole_whole cc0_scratch0).unread y15) R.1))
    ∧ scr4.view.read (Elt Ideal) (scr4.view.writes (Elt Ideal) ((Memref.isWhole_whole cc0_scratch4).unread (numBuf (argsOf m c) t.val)) R.2.1) = numBuf (argsOf m c) (t.val + 1)
    ∧ scr5.view.read (Elt Ideal) (scr5.view.writes (Elt Ideal) ((Memref.isWhole_whole cc0_scratch5).unread (denBuf (argsOf m c) t.val)) R.2.2.1) = denBuf (argsOf m c) (t.val + 1) := by
  intro t h0 h1 y15 hag R
  refine ⟨mid_agree m c hfin2 t h0 h1 y15 hag _ _ _ _ _, ?_, mid_den m c hfin1 t h0 h1 y15⟩
  funext j
  obtain ⟨b, tt, q, rfl⟩ : ∃ (b : Fin 2) (tt : Fin 512) (q : Fin 128), j = ix3 b tt q := ⟨j 0, j 1, j 2, eq_ix3 j⟩
  exact (hnum t h0 h1 y15 b tt q).trans (numBuf_at (argsOf m c) (t.val + 1) b tt q).symm

end Cert.KernelIdeal.Body

end
-- ==== Proof.KernelIdealFactsMid2.lean ====
/-
  The middle grid points, on real argument arrays. When every float entry of the argument arrays is a real number, a
  middle point t takes the tracked contents after the blocks before it — the layer-2 edge-score scratch right on the rows
  below 64 t, the numerator and denominator accumulators at the partial sums over the sources s < 64 t — to the tracked
  contents after one more block. The edge-score scratch and the denominator are the facts already stated at the
  pipeline's buffers; the numerator is the body's fact about its stores, read at the same windows and layouts, and its
  sums of products ask that layer 1's masked exponentials and projected features be real numbers, which they are on
  real arrays.
-/
import proofs.«169155_g70909910057105_cont_sun_m_1383_19_alg».proof.Proof.KernelIdealFactsMid
import proofs.«169155_g70909910057105_cont_sun_m_1383_19_alg».proof.Proof.KernelIdealStateReal

set_option maxRecDepth 16384

noncomputable section

namespace Cert.KernelIdeal.Body

open Cert.KernelIdeal Cert.KernelIdeal.Gen
open Idealize.ShloMosaic Idealize.ShloMosaic.TcCoe Idealize.ShloMosaic.Tactic Idealize.ShloMosaic.ValueIdx
open Idealize.SL Idealize.SL.Sem
open Cert.KernelIdeal.State (Args rowOf)

variable (m : (ℓ : Loc nD τ sig) → Buf (Elt Ideal) ℓ)

set_option maxHeartbeats 4000000 in
/-- What a middle point does to the tracked buffers, on real argument arrays. -/
theorem midFacts (c : Dev nD) (hfin : Bridge.Finite (argsOf m c)) :
    ∀ (t : Fin cfg0.N) (h0 : ¬isFirst (grid0.coords t)) (h1 : ¬isLast (grid0.coords t)) (y15 : Vec Ideal S4x512x512 .f32),
    agree (argsOf m c) t.val y15 →
    let R := namedB (F := Ideal) c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t) (ms12 t) (hs12 t) (ms13 t) (hs13 t) scr0 (Memref.isWhole_whole _) scr1 (Memref.isWhole_whole _) scr2 (Memref.isWhole_whole _) scr3 (Memref.isWhole_whole _) scr4 (Memref.isWhole_whole _) scr5 (Memref.isWhole_whole _) h0 h1 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) y15 (h1Buf (argsOf m c)) (ss1Buf (argsOf m c)) (st1Buf (argsOf m c)) (numBuf (argsOf m c) t.val) (denBuf (argsOf m c) t.val)
    agree (argsOf m c) (t.val + 1) (scr0.view.read (Elt Ideal) (scr0.view.writes (Elt Ideal) ((Memref.isWhole_whole cc0_scratch0).unread y15) R.1))
    ∧ scr4.view.read (Elt Ideal) (scr4.view.writes (Elt Ideal) ((Memref.isWhole_whole cc0_scratch4).unread (numBuf (argsOf m c) t.val)) R.2.1) = numBuf (argsOf m c) (t.val + 1)
    ∧ scr5.view.read (Elt Ideal) (scr5.view.writes (Elt Ideal) ((Memref.isWhole_whole cc0_scratch5).unread (denBuf (argsOf m c) t.val)) R.2.2.1) = denBuf (argsOf m c) (t.val + 1) :=
  midFacts_of_num m c (fun q k => hfin.w1e (ix2 q k)) (fun q k => hfin.w2e (ix2 q k)) (fun t h0 h1 y15 b tt q =>
    num1_mid c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t) (ms12 t) (hs12 t) (ms13 t) (hs13 t) scr0 (Memref.isWhole_whole _) scr1 (Memref.isWhole_whole _) scr2 (Memref.isWhole_whole _) scr3 (Memref.isWhole_whole _) scr4 (Memref.isWhole_whole _) scr5 (Memref.isWhole_whole _) h0 h1 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) y15 (h1Buf (argsOf m c)) (ss1Buf (argsOf m c)) (st1Buf (argsOf m c)) (numBuf (argsOf m c) t.val) (denBuf (argsOf m c) t.val) (argsOf m c) (blkOf t) (coord0_val t)
      (win_ef m c t) (win_adj m c t) (win_w1e m c t) (win_ae1 m c t)
      (h1Buf_at (argsOf m c)) (fun p b h => scr_ss (argsOf m c) p b h) (scr_st (argsOf m c)) (numBuf_at (argsOf m c) t.val)
      (fun q k => hfin.w1e (ix2 q k)) (Bridge.p1_real hfin) (Bridge.h1_real hfin) b tt q)

end Cert.KernelIdeal.Body

end
-- ==== Proof.KernelIdealFinite.lean ====
/-
  FINITENESS FROM THE PRECONDITION. The precondition of the idealized kernel says, for each of its twelve float argument
  arrays x (every argument but the integer adjacency array), that the conjunction over all indices i of |x i| < +∞ is true,
  and that the conjunction of these twelve truths is true. Over the extended reals |x| = max x (-x), and the pattern
  0x7F800000 denotes ⊤; so |x i| < ⊤ excludes x i = ⊤ (then |x i| = ⊤) and x i = ⊥ (then -x i = ⊤, so |x i| = ⊤), and
  what is left is a real number. Hence: under the precondition every entry of every float argument array is a real.

  `real_of_abs_lt`  one extended real: |x| < ⊤ gives a real r with x = r.
  `all_real`        one array: a true conjunction of |x i| < ⊤ over all i gives a real at every index.
  `finite_of_pre`   the precondition split into its twelve conjuncts, each handed to `all_real`.
-/
import proofs.«169155_g70909910057105_cont_sun_m_1383_19_alg».proof.Defs
import proofs.«169155_g70909910057105_cont_sun_m_1383_19_alg».proof.Proof.Gen.Pre_finite_inputs
import Idealize.ShloMosaic.Lib.ReduceAll
import Idealize.ShloMosaic.Lib.ValueIdx

noncomputable section

namespace Cert.KernelIdeal.Finite

open Idealize.ShloMosaic Idealize.ShloMosaic.ValueIdx Idealize.SL.Sem

/-- The rank-0 shape has exactly one index. -/
instance : Subsingleton Cert.Pre_finite_inputs.S_.Idx := ⟨fun a b => funext fun d => d.elim0⟩

/-- The bit pattern 0x7F800000 read as an extended real is +∞. -/
theorem ofBits_inf : Ideal.ofBits .f32 0x7F800000#32 = (⊤ : EReal) := by simp [Ideal.ofBits, Ideal.ieee]

/-- An extended real x with |x| = max x (-x) strictly below +∞ is a real number:
    x = ⊤ gives |x| = ⊤, x = ⊥ gives -x = ⊤ and again |x| = ⊤, neither below ⊤. -/
theorem real_of_abs_lt (x : EReal)
    (h : Ideal.cmp .olt (max x (-x)) (Ideal.ofBits .f32 0x7F800000#32) = 1#1) : ∃ r : ℝ, x = (r : EReal) := by
  rw [ofBits_inf] at h
  induction x using EReal.rec with
  | bot => simp [Ideal.cmp] at h
  | coe r => exact ⟨r, rfl⟩
  | top => simp [Ideal.cmp] at h

/-- One array of the precondition: if the conjunction over all indices of |x i| < +∞ is true, every entry of x is a real. -/
theorem all_real {s : Shape} {axes : List (Fin s.rank)}
    (hb : Cert.Pre_finite_inputs.S_.BroadcastsInDim s (![] : Fin 0 → Fin s.rank))
    (hr : s.ReducesTo axes Cert.Pre_finite_inputs.S_) (hu : 0 < Cert.Pre_finite_inputs.S_.numel)
    (x : FVec Ideal s .f32) (init : IVec Cert.Pre_finite_inputs.S_ 1)
    (e : Host.reduce IntOp.andi
          (cmpf .olt (Host.absf x) (broadcastInDim s ![] hb (constant Cert.Pre_finite_inputs.S_ .f32 0x7F800000#32)))
          init hr hu ix0 = 1#1) :
    ∀ i, ∃ r : ℝ, x i = (r : EReal) := fun i =>
  real_of_abs_lt (x i) (Host.reduce_andi_all _ init hr hu ix0 e i)

/-- THE PRECONDITION DECODED: every entry of each of the twelve float argument arrays is a real number. -/
theorem finite_of_pre (m : (ℓ : Loc Cert.KernelIdeal.nD Cert.KernelIdeal.τ Cert.KernelIdeal.sig) → Buf (Elt Ideal) ℓ)
    (h : Cert.Pre_KernelIdeal m) (c : Dev Cert.KernelIdeal.nD) :
    (∀ idx, ∃ r : ℝ, m ((c.tc : Thread _ _).loc Cert.KernelIdeal.main_arg0) idx = (r : EReal))
    ∧ (∀ idx, ∃ r : ℝ, m ((c.tc : Thread _ _).loc Cert.KernelIdeal.main_arg2) idx = (r : EReal))
    ∧ (∀ idx, ∃ r : ℝ, m ((c.tc : Thread _ _).loc Cert.KernelIdeal.main_arg3) idx = (r : EReal))
    ∧ (∀ idx, ∃ r : ℝ, m ((c.tc : Thread _ _).loc Cert.KernelIdeal.main_arg4) idx = (r : EReal))
    ∧ (∀ idx, ∃ r : ℝ, m ((c.tc : Thread _ _).loc Cert.KernelIdeal.main_arg5) idx = (r : EReal))
    ∧ (∀ idx, ∃ r : ℝ, m ((c.tc : Thread _ _).loc Cert.KernelIdeal.main_arg6) idx = (r : EReal))
    ∧ (∀ idx, ∃ r : ℝ, m ((c.tc : Thread _ _).loc Cert.KernelIdeal.main_arg7) idx = (r : EReal))
    ∧ (∀ idx, ∃ r : ℝ, m ((c.tc : Thread _ _).loc Cert.KernelIdeal.main_arg8) idx = (r : EReal))
    ∧ (∀ idx, ∃ r : ℝ, m ((c.tc : Thread _ _).loc Cert.KernelIdeal.main_arg9) idx = (r : EReal))
    ∧ (∀ idx, ∃ r : ℝ, m ((c.tc : Thread _ _).loc Cert.KernelIdeal.main_arg10) idx = (r : EReal))
    ∧ (∀ idx, ∃ r : ℝ, m ((c.tc : Thread _ _).loc Cert.KernelIdeal.main_arg11) idx = (r : EReal))
    ∧ (∀ idx, ∃ r : ℝ, m ((c.tc : Thread _ _).loc Cert.KernelIdeal.main_arg12) idx = (r : EReal)) := by
  have e := congrFun (h c) ix0
  dsimp only [Cert.Pre_finite_inputs.fn, Cert.Pre_finite_inputs.fn_part1, Cert.Pre_finite_inputs.fn_part2,
    Cert.Pre_finite_inputs.fn_part3] at e
  simp only [andi, IntOp.andi_eq_one] at e
  obtain ⟨⟨⟨⟨⟨⟨⟨⟨⟨⟨⟨e0, e2⟩, e3⟩, e4⟩, e5⟩, e6⟩, e7⟩, e8⟩, e9⟩, e10⟩, e11⟩, e12⟩ := e
  exact ⟨all_real _ _ _ _ _ e0, all_real _ _ _ _ _ e2, all_real _ _ _ _ _ e3, all_real _ _ _ _ _ e4,
    all_real _ _ _ _ _ e5, all_real _ _ _ _ _ e6, all_real _ _ _ _ _ e7, all_real _ _ _ _ _ e8,
    all_real _ _ _ _ _ e9, all_real _ _ _ _ _ e10, all_real _ _ _ _ _ e11, all_real _ _ _ _ _ e12⟩

end Cert.KernelIdeal.Finite

end
-- ==== Proof.RefStages.lean ====
/-
  The reference's value as a term of its argument arrays, stage by stage.

  The program builds the dense edge list of a 512-node graph (edge e = s * 512 + t has source s and target t), and runs
  two layers of masked multi-head graph attention over it. Each stage below is the composition of the printed operations
  that compute it, as a function of the arrays it reads; a layer is one definition, applied twice.
-/
import proofs.«169155_g70909910057105_cont_sun_m_1383_19_alg».proof.Proof.Gen.ReferenceIdeal
import Idealize.ShloMosaic.Lib.StableHlo.Run

noncomputable section

namespace Cert.ReferenceIdeal.HostRun

open Cert.ReferenceIdeal Cert.ReferenceIdeal.Gen Idealize.ShloMosaic Idealize.ShloMosaic.TcCoe Idealize.SL.Sem Idealize.ShloMosaic.StableHlo

/-- The contents of an array of shape `S` and element type `e`. -/
abbrev Arr (F : FTy → Type) (S : Shape) (e : EltTy) : Type := (⟨S, e⟩ : BufTy).Contents (Elt F)

variable {F : FTy → Type} [FloatOps F]

/-- The source of every edge: the row index s of edge s * 512 + t. -/
def srcI : Arr F S262144 .i32 :=
  shapeCast S262144 (broadcastInDim S512x512 ![0] bcast_S512_S512x512_0 (iotaInDim S512 32 0 : Arr F S512 .i32)) shapeCasts_S512x512_S262144

/-- The target of every edge: the column index t of edge s * 512 + t. -/
def trgI : Arr F S262144 .i32 :=
  shapeCast S262144 (broadcastInDim S512x512 ![0, 1] bcast_S1x512_S512x512_0_1
    (shapeCast S1x512 (iotaInDim S512 32 0 : Arr F S512 .i32) shapeCasts_S512_S1x512)) shapeCasts_S512x512_S262144

/-- The mask of the edges present: the adjacency entry is not zero. -/
def maskOf (adj : Arr F S512x512 .i32) : Arr F S262144 .i1 :=
  cmpi .ne (shapeCast S262144 adj shapeCasts_S512x512_S262144) (broadcastInDim S262144 ![] bcast_S_S262144 (constantI S_ 32 0#32))

/-- An index vector with its negative entries wrapped by 512, as every gather and scatter reads it. -/
def wrapIdx (i : Arr F S262144 .i32) : Arr F S262144 .i32 :=
  select (cmpi .slt i (broadcastInDim S262144 ![] bcast_S_S262144 (constantI S_ 32 0#32)))
    (addi i (broadcastInDim S262144 ![] bcast_S_S262144 (constantI S_ 32 512#32))) i

/-- The wrapped index vector as a one-column index table. -/
def colIdx (i : Arr F S262144 .i32) : Arr F S262144x1 .i32 :=
  broadcastInDim S262144x1 ![0] bcast_S262144_S262144x1_0 (wrapIdx i)

/-- Two one-column index tables side by side. -/
def catPair (a b : Arr F S262144x1 .i32) : Arr F S262144x2 .i32 :=
  concatenate S262144x2 1 [⟨S262144x1, a⟩, ⟨S262144x1, b⟩] concatenates_S262144x1_S262144x1_S262144x2_d1

/-- Two batch slices joined along the batch axis. -/
def catOut (a b : Arr F S512x1x128 .f32) : Arr F S512x2x128 .f32 :=
  concatenate S512x2x128 1 [⟨S512x1x128, a⟩, ⟨S512x1x128, b⟩] concatenates_S512x1x128_S512x1x128_S512x2x128_d1

/-- The two-column index table (source, target) of the edge features' gather. -/
def pairIdx (s t : Arr F S262144 .i32) : Arr F S262144x2 .i32 :=
  catPair (colIdx s) (colIdx t)

/-- The edge scores: the edge features at (source, target), projected by the edge weights' transpose, summed over each
    head's 32 lanes from zero, times the head's edge coefficient. -/
def edgeScore (E : Arr F S512x512x128 .f32) (We : Arr F S128x128 .f32) (ae : Arr F S4 .f32) (s t : Arr F S262144 .i32) : Arr F S262144x4 .f32 :=
  mulf
    (Host.reduceAdd
      (shapeCast S262144x4x32
        (Host.dotGeneral dot_S262144x128_S128x128_S262144x128_1_0_0_1_n_n none
          (Host.gather gather_S512x512x128_S262144x2_S262144x128_1_01_n_n_01_1_11128 E (pairIdx s t))
          (transpose S128x128 [1, 0] We transposes_S128x128_S128x128_1_0))
        shapeCasts_S262144x128_S262144x4x32)
      (constant S_ .f32 0x00000000#32) reducesTo_S262144x4x32_S262144x4_d2 h_S_)
    (broadcastInDim S262144x4 ![0, 1] bcast_S1x4_S262144x4_0_1 (broadcastInDim S1x4 ![1] bcast_S4_S1x4_1 ae))

/-- Batch slice 0 of the node features. -/
def sliceB0 (x : Arr F S512x2x128 .f32) : Arr F S512x128 .f32 :=
  shapeCast S512x128 (extractStridedSlice S512x1x128 ![0, 0, 0] x slices_S512x2x128_S512x1x128_0_0_0) shapeCasts_S512x1x128_S512x128

/-- Batch slice 1 of the node features. -/
def sliceB1 (x : Arr F S512x2x128 .f32) : Arr F S512x128 .f32 :=
  shapeCast S512x128 (extractStridedSlice S512x1x128 ![0, 1, 0] x slices_S512x2x128_S512x1x128_0_1_0) shapeCasts_S512x1x128_S512x128

/-- The node projection of one batch slice, split into 4 heads of 32. -/
def projH (xb : Arr F S512x128 .f32) (Wn : Arr F S128x128 .f32) : Arr F S512x4x32 .f32 :=
  shapeCast S512x4x32
    (Host.dotGeneral dot_S512x128_S128x128_S512x128_1_0_0_1_n_n none xb (transpose S128x128 [1, 0] Wn transposes_S128x128_S128x128_1_0))
    shapeCasts_S512x128_S512x4x32

/-- The projected node features at an index vector: one row per edge. -/
def gatherH (h : Arr F S512x4x32 .f32) (i : Arr F S262144 .i32) : Arr F S262144x4x32 .f32 :=
  Host.gather gather_S512x4x32_S262144x1_S262144x4x32_12_0_n_n_0_1_1432 h (colIdx i)

/-- A head score: the gathered features times the head's coefficients, summed over the 32 lanes from zero. -/
def headScore (g : Arr F S262144x4x32 .f32) (a : Arr F S4x32 .f32) : Arr F S262144x4 .f32 :=
  Host.reduceAdd
    (mulf g (broadcastInDim S262144x4x32 ![0, 1, 2] bcast_S1x4x32_S262144x4x32_0_1_2 (broadcastInDim S1x4x32 ![1, 2] bcast_S4x32_S1x4x32_1_2 a)))
    (constant S_ .f32 0x00000000#32) reducesTo_S262144x4x32_S262144x4_d2 h_S_

/-- The leaky rectifier of slope 0.2: z where z ≥ 0, and 0.2 * z elsewhere. -/
def leaky (z : Arr F S262144x4 .f32) : Arr F S262144x4 .f32 :=
  select (cmpf .oge z (broadcastInDim S262144x4 ![] bcast_S_S262144x4 (constant S_ .f32 0x00000000#32))) z
    (mulf (broadcastInDim S262144x4 ![] bcast_S_S262144x4 (constant S_ .f32 0x3E4CCCCD#32)) z)

/-- The exponential of the scores on the edges present, zero on the others. -/
def expMasked (m : Arr F S262144 .i1) (z : Arr F S262144x4 .f32) : Arr F S262144x4 .f32 :=
  select (broadcastInDim S262144x4 ![0, 1] bcast_S262144x1_S262144x4_0_1 (broadcastInDim S262144x1 ![0] bcast_S262144_S262144x1_0 m))
    (Host.exp z) (broadcastInDim S262144x4 ![] bcast_S_S262144x4 (constant S_ .f32 0x00000000#32))

/-- The masked exponentials of one batch slice, from its gathered features. -/
def exOf (hs ht : Arr F S262144x4x32 .f32) (m : Arr F S262144 .i1) (es : Arr F S262144x4 .f32) (a_s a_t : Arr F S4x32 .f32) : Arr F S262144x4 .f32 :=
  expMasked m (leaky (addf (addf (headScore hs a_s) (headScore ht a_t)) es))

/-- The denominators: the masked exponentials added up per target node, from zero. -/
def denomOf (t : Arr F S262144 .i32) (ex : Arr F S262144x4 .f32) : Arr F S512x4 .f32 :=
  Host.scatterAdd scatter_S512x4_S262144x1_S262144x4_1_0_0_1
    (broadcastInDim S512x4 ![] bcast_S_S512x4 (constant S_ .f32 0x00000000#32)) (colIdx t) ex

/-- The denominators read back at every edge's target. -/
def denomAt (t : Arr F S262144 .i32) (ex : Arr F S262144x4 .f32) : Arr F S262144x4 .f32 :=
  Host.gather gather_S512x4_S262144x1_S262144x4_1_0_n_n_0_1_14 (denomOf t ex) (colIdx t)

/-- The attention weights: each masked exponential over its target's denominator plus 1e-16. -/
def attnOf (t : Arr F S262144 .i32) (ex : Arr F S262144x4 .f32) : Arr F S262144x4 .f32 :=
  Host.divf ex (addf (denomAt t ex) (broadcastInDim S262144x4 ![] bcast_S_S262144x4 (constant S_ .f32 0x24E69595#32)))

/-- The source features weighted by the attention weights. -/
def weightedOf (hs : Arr F S262144x4x32 .f32) (w : Arr F S262144x4 .f32) : Arr F S262144x4x32 .f32 :=
  mulf hs (broadcastInDim S262144x4x32 ![0, 1, 2] bcast_S262144x4x1_S262144x4x32_0_1_2 (broadcastInDim S262144x4x1 ![0, 1] bcast_S262144x4_S262144x4x1_0_1 w))

/-- The aggregation: the weighted features added up per target node from zero, the heads joined, as one batch slice. -/
def aggOf (t : Arr F S262144 .i32) (wt : Arr F S262144x4x32 .f32) : Arr F S512x1x128 .f32 :=
  broadcastInDim S512x1x128 ![0, 2] bcast_S512x128_S512x1x128_0_2
    (shapeCast S512x128
      (Host.scatterAdd scatter_S512x4x32_S262144x1_S262144x4x32_12_0_0_1
        (broadcastInDim S512x4x32 ![] bcast_S_S512x4x32 (constant S_ .f32 0x00000000#32)) (colIdx t) wt)
      shapeCasts_S512x4x32_S512x128)

/-- One batch slice of a layer's output, from the slice's projected features. -/
def batchFromH (h : Arr F S512x4x32 .f32) (s t : Arr F S262144 .i32) (m : Arr F S262144 .i1) (es : Arr F S262144x4 .f32)
    (a_s a_t : Arr F S4x32 .f32) : Arr F S512x1x128 .f32 :=
  aggOf t (weightedOf (gatherH h s) (attnOf t (exOf (gatherH h s) (gatherH h t) m es a_s a_t)))

/-- One layer: both batch slices, joined along the batch axis. -/
def layer (x : Arr F S512x2x128 .f32) (s t : Arr F S262144 .i32) (m : Arr F S262144 .i1) (E : Arr F S512x512x128 .f32)
    (Wn We : Arr F S128x128 .f32) (a_s a_t : Arr F S4x32 .f32) (ae : Arr F S4 .f32) : Arr F S512x2x128 .f32 :=
  catOut (batchFromH (projH (sliceB0 x) Wn) s t m (edgeScore E We ae s t) a_s a_t)
    (batchFromH (projH (sliceB1 x) Wn) s t m (edgeScore E We ae s t) a_s a_t)

/-- The reference's result as a function of its thirteen arguments: the second layer of the first. -/
def refTerm (x : Arr F S512x2x128 .f32) (adj : Arr F S512x512 .i32) (E : Arr F S512x512x128 .f32)
    (Wn1 We1 : Arr F S128x128 .f32) (as1 at1 : Arr F S4x32 .f32) (ae1 : Arr F S4 .f32)
    (Wn2 We2 : Arr F S128x128 .f32) (as2 at2 : Arr F S4x32 .f32) (ae2 : Arr F S4 .f32) : Arr F S512x2x128 .f32 :=
  layer (layer x srcI trgI (maskOf adj) E Wn1 We1 as1 at1 ae1) srcI trgI (maskOf adj) E Wn2 We2 as2 at2 ae2

end Cert.ReferenceIdeal.HostRun

end
-- ==== Proof.RefVal0.lean ====
/-
  The buffer contents after the reference's first 1 window of operations, at the buffers later windows read:
  each is the stage of the reference's term that the window's operations compose, as a function of the argument arrays.
-/
import proofs.«169155_g70909910057105_cont_sun_m_1383_19_alg».proof.Proof.RefPart0
import proofs.«169155_g70909910057105_cont_sun_m_1383_19_alg».proof.Proof.RefStages

noncomputable section

namespace Cert.ReferenceIdeal.HostRun

open Cert.ReferenceIdeal Cert.ReferenceIdeal.Gen Idealize.ShloMosaic Idealize.ShloMosaic.TcCoe Idealize.SL.Sem Idealize.ShloMosaic.StableHlo

variable {F : FTy → Type} [FloatOps F]

/-- The buffer contents after the first 1 window. -/
def val0 (V : Valuation τ sig (Elt F)) : Valuation τ sig (Elt F) := after ops0 V

theorem val0_main_arg0 (V : Valuation τ sig (Elt F)) : val0 V (no_index (Proc.devRef .tc main_arg0)) = V (Proc.devRef .tc main_arg0) :=
  keep0 V main_arg0 (by decide)
theorem val0_main_arg1 (V : Valuation τ sig (Elt F)) : val0 V (no_index (Proc.devRef .tc main_arg1)) = V (Proc.devRef .tc main_arg1) :=
  keep0 V main_arg1 (by decide)
theorem val0_main_arg2 (V : Valuation τ sig (Elt F)) : val0 V (no_index (Proc.devRef .tc main_arg2)) = V (Proc.devRef .tc main_arg2) :=
  keep0 V main_arg2 (by decide)
theorem val0_main_arg3 (V : Valuation τ sig (Elt F)) : val0 V (no_index (Proc.devRef .tc main_arg3)) = V (Proc.devRef .tc main_arg3) :=
  keep0 V main_arg3 (by decide)
theorem val0_main_arg4 (V : Valuation τ sig (Elt F)) : val0 V (no_index (Proc.devRef .tc main_arg4)) = V (Proc.devRef .tc main_arg4) :=
  keep0 V main_arg4 (by decide)
theorem val0_main_arg5 (V : Valuation τ sig (Elt F)) : val0 V (no_index (Proc.devRef .tc main_arg5)) = V (Proc.devRef .tc main_arg5) :=
  keep0 V main_arg5 (by decide)
theorem val0_main_arg6 (V : Valuation τ sig (Elt F)) : val0 V (no_index (Proc.devRef .tc main_arg6)) = V (Proc.devRef .tc main_arg6) :=
  keep0 V main_arg6 (by decide)
theorem val0_main_arg7 (V : Valuation τ sig (Elt F)) : val0 V (no_index (Proc.devRef .tc main_arg7)) = V (Proc.devRef .tc main_arg7) :=
  keep0 V main_arg7 (by decide)
theorem val0_main_arg8 (V : Valuation τ sig (Elt F)) : val0 V (no_index (Proc.devRef .tc main_arg8)) = V (Proc.devRef .tc main_arg8) :=
  keep0 V main_arg8 (by decide)
theorem val0_main_arg9 (V : Valuation τ sig (Elt F)) : val0 V (no_index (Proc.devRef .tc main_arg9)) = V (Proc.devRef .tc main_arg9) :=
  keep0 V main_arg9 (by decide)
theorem val0_main_arg10 (V : Valuation τ sig (Elt F)) : val0 V (no_index (Proc.devRef .tc main_arg10)) = V (Proc.devRef .tc main_arg10) :=
  keep0 V main_arg10 (by decide)
theorem val0_main_arg11 (V : Valuation τ sig (Elt F)) : val0 V (no_index (Proc.devRef .tc main_arg11)) = V (Proc.devRef .tc main_arg11) :=
  keep0 V main_arg11 (by decide)
theorem val0_main_arg12 (V : Valuation τ sig (Elt F)) : val0 V (no_index (Proc.devRef .tc main_arg12)) = V (Proc.devRef .tc main_arg12) :=
  keep0 V main_arg12 (by decide)

attribute [local irreducible] Host.gather Host.scatterAdd Host.reduceAdd Host.exp Host.divf in
set_option maxRecDepth 16384 in
set_option maxHeartbeats 2000000 in
theorem val0_main_v2 (V : Valuation τ sig (Elt F)) : val0 V (no_index (Proc.devRef .tc main_v2)) = srcI := by
  unfold val0
  simp only [ops0]
  after_results_simp
  rfl

attribute [local irreducible] Host.gather Host.scatterAdd Host.reduceAdd Host.exp Host.divf in
set_option maxRecDepth 16384 in
set_option maxHeartbeats 2000000 in
theorem val0_main_v6 (V : Valuation τ sig (Elt F)) : val0 V (no_index (Proc.devRef .tc main_v6)) = trgI := by
  unfold val0
  simp only [ops0]
  after_results_simp
  rfl

attribute [local irreducible] Host.gather Host.scatterAdd Host.reduceAdd Host.exp Host.divf in
set_option maxRecDepth 16384 in
set_option maxHeartbeats 2000000 in
theorem val0_main_v9 (V : Valuation τ sig (Elt F)) : val0 V (no_index (Proc.devRef .tc main_v9)) = (maskOf (V (Proc.devRef .tc main_arg1))) := by
  unfold val0
  simp only [ops0]
  after_results_simp
  rfl

attribute [local irreducible] Host.gather Host.scatterAdd Host.reduceAdd Host.exp Host.divf in
set_option maxRecDepth 16384 in
set_option maxHeartbeats 2000000 in
theorem val0_main_v30 (V : Valuation τ sig (Elt F)) : val0 V (no_index (Proc.devRef .tc main_v30)) = (edgeScore (V (Proc.devRef .tc main_arg2)) (V (Proc.devRef .tc main_arg4)) (V (Proc.devRef .tc main_arg7)) srcI trgI) := by
  unfold val0
  simp only [ops0]
  after_results_simp
  rfl

attribute [local irreducible] Host.gather Host.scatterAdd Host.reduceAdd Host.exp Host.divf in
set_option maxRecDepth 16384 in
set_option maxHeartbeats 2000000 in
theorem val0_main_v42 (V : Valuation τ sig (Elt F)) : val0 V (no_index (Proc.devRef .tc main_v42)) = (gatherH (projH (sliceB0 (V (Proc.devRef .tc main_arg0))) (V (Proc.devRef .tc main_arg3))) srcI) := by
  unfold val0
  simp only [ops0]
  after_results_simp
  rfl

attribute [local irreducible] Host.gather Host.scatterAdd Host.reduceAdd Host.exp Host.divf in
set_option maxRecDepth 16384 in
set_option maxHeartbeats 2000000 in
theorem val0_main_v49 (V : Valuation τ sig (Elt F)) : val0 V (no_index (Proc.devRef .tc main_v49)) = (gatherH (projH (sliceB0 (V (Proc.devRef .tc main_arg0))) (V (Proc.devRef .tc main_arg3))) trgI) := by
  unfold val0
  simp only [ops0]
  after_results_simp
  rfl

end Cert.ReferenceIdeal.HostRun

end
-- ==== Proof.RefVal1.lean ====
/-
  The buffer contents after the reference's first 2 windows of operations, at the buffers later windows read:
  each is the stage of the reference's term that the window's operations compose, as a function of the argument arrays.
-/
import proofs.«169155_g70909910057105_cont_sun_m_1383_19_alg».proof.Proof.RefPart1
import proofs.«169155_g70909910057105_cont_sun_m_1383_19_alg».proof.Proof.RefVal0

noncomputable section

namespace Cert.ReferenceIdeal.HostRun

open Cert.ReferenceIdeal Cert.ReferenceIdeal.Gen Idealize.ShloMosaic Idealize.ShloMosaic.TcCoe Idealize.SL.Sem Idealize.ShloMosaic.StableHlo

variable {F : FTy → Type} [FloatOps F]

/-- The buffer contents after the first 2 windows. -/
def val1 (V : Valuation τ sig (Elt F)) : Valuation τ sig (Elt F) := after ops1 (val0 V)

theorem val1_main_arg0 (V : Valuation τ sig (Elt F)) : val1 V (no_index (Proc.devRef .tc main_arg0)) = V (Proc.devRef .tc main_arg0) :=
  (keep1 _ main_arg0 (by decide)).trans (val0_main_arg0 V)
theorem val1_main_arg1 (V : Valuation τ sig (Elt F)) : val1 V (no_index (Proc.devRef .tc main_arg1)) = V (Proc.devRef .tc main_arg1) :=
  (keep1 _ main_arg1 (by decide)).trans (val0_main_arg1 V)
theorem val1_main_arg2 (V : Valuation τ sig (Elt F)) : val1 V (no_index (Proc.devRef .tc main_arg2)) = V (Proc.devRef .tc main_arg2) :=
  (keep1 _ main_arg2 (by decide)).trans (val0_main_arg2 V)
theorem val1_main_arg3 (V : Valuation τ sig (Elt F)) : val1 V (no_index (Proc.devRef .tc main_arg3)) = V (Proc.devRef .tc main_arg3) :=
  (keep1 _ main_arg3 (by decide)).trans (val0_main_arg3 V)
theorem val1_main_arg4 (V : Valuation τ sig (Elt F)) : val1 V (no_index (Proc.devRef .tc main_arg4)) = V (Proc.devRef .tc main_arg4) :=
  (keep1 _ main_arg4 (by decide)).trans (val0_main_arg4 V)
theorem val1_main_arg5 (V : Valuation τ sig (Elt F)) : val1 V (no_index (Proc.devRef .tc main_arg5)) = V (Proc.devRef .tc main_arg5) :=
  (keep1 _ main_arg5 (by decide)).trans (val0_main_arg5 V)
theorem val1_main_arg6 (V : Valuation τ sig (Elt F)) : val1 V (no_index (Proc.devRef .tc main_arg6)) = V (Proc.devRef .tc main_arg6) :=
  (keep1 _ main_arg6 (by decide)).trans (val0_main_arg6 V)
theorem val1_main_arg7 (V : Valuation τ sig (Elt F)) : val1 V (no_index (Proc.devRef .tc main_arg7)) = V (Proc.devRef .tc main_arg7) :=
  (keep1 _ main_arg7 (by decide)).trans (val0_main_arg7 V)
theorem val1_main_arg8 (V : Valuation τ sig (Elt F)) : val1 V (no_index (Proc.devRef .tc main_arg8)) = V (Proc.devRef .tc main_arg8) :=
  (keep1 _ main_arg8 (by decide)).trans (val0_main_arg8 V)
theorem val1_main_arg9 (V : Valuation τ sig (Elt F)) : val1 V (no_index (Proc.devRef .tc main_arg9)) = V (Proc.devRef .tc main_arg9) :=
  (keep1 _ main_arg9 (by decide)).trans (val0_main_arg9 V)
theorem val1_main_arg10 (V : Valuation τ sig (Elt F)) : val1 V (no_index (Proc.devRef .tc main_arg10)) = V (Proc.devRef .tc main_arg10) :=
  (keep1 _ main_arg10 (by decide)).trans (val0_main_arg10 V)
theorem val1_main_arg11 (V : Valuation τ sig (Elt F)) : val1 V (no_index (Proc.devRef .tc main_arg11)) = V (Proc.devRef .tc main_arg11) :=
  (keep1 _ main_arg11 (by decide)).trans (val0_main_arg11 V)
theorem val1_main_arg12 (V : Valuation τ sig (Elt F)) : val1 V (no_index (Proc.devRef .tc main_arg12)) = V (Proc.devRef .tc main_arg12) :=
  (keep1 _ main_arg12 (by decide)).trans (val0_main_arg12 V)

theorem val1_main_v2 (V : Valuation τ sig (Elt F)) : val1 V (no_index (Proc.devRef .tc main_v2)) = srcI :=
  (keep1 _ main_v2 (by decide)).trans (val0_main_v2 V)
theorem val1_main_v6 (V : Valuation τ sig (Elt F)) : val1 V (no_index (Proc.devRef .tc main_v6)) = trgI :=
  (keep1 _ main_v6 (by decide)).trans (val0_main_v6 V)
theorem val1_main_v9 (V : Valuation τ sig (Elt F)) : val1 V (no_index (Proc.devRef .tc main_v9)) = (maskOf (V (Proc.devRef .tc main_arg1))) :=
  (keep1 _ main_v9 (by decide)).trans (val0_main_v9 V)
theorem val1_main_v30 (V : Valuation τ sig (Elt F)) : val1 V (no_index (Proc.devRef .tc main_v30)) = (edgeScore (V (Proc.devRef .tc main_arg2)) (V (Proc.devRef .tc main_arg4)) (V (Proc.devRef .tc main_arg7)) srcI trgI) :=
  (keep1 _ main_v30 (by decide)).trans (val0_main_v30 V)

attribute [local irreducible] Host.gather Host.scatterAdd Host.reduceAdd Host.exp Host.divf in
set_option maxRecDepth 16384 in
set_option maxHeartbeats 2000000 in
theorem val1_main_v94 (V : Valuation τ sig (Elt F)) : val1 V (no_index (Proc.devRef .tc main_v94)) = (batchFromH (projH (sliceB0 (V (Proc.devRef .tc main_arg0))) (V (Proc.devRef .tc main_arg3))) srcI trgI (maskOf (V (Proc.devRef .tc main_arg1))) (edgeScore (V (Proc.devRef .tc main_arg2)) (V (Proc.devRef .tc main_arg4)) (V (Proc.devRef .tc main_arg7)) srcI trgI) (V (Proc.devRef .tc main_arg5)) (V (Proc.devRef .tc main_arg6))) := by
  unfold val1
  simp only [ops1]
  after_results_simp
  all_goals first | (simp only [val0_main_arg0, val0_main_arg1, val0_main_arg2, val0_main_arg3, val0_main_arg4, val0_main_arg5, val0_main_arg6, val0_main_arg7, val0_main_arg8, val0_main_arg9, val0_main_arg10, val0_main_arg11, val0_main_arg12, val0_main_v2, val0_main_v6, val0_main_v9, val0_main_v30, val0_main_v42, val0_main_v49] <;> rfl) | rfl

attribute [local irreducible] Host.gather Host.scatterAdd Host.reduceAdd Host.exp Host.divf in
set_option maxRecDepth 16384 in
set_option maxHeartbeats 2000000 in
theorem val1_main_v96 (V : Valuation τ sig (Elt F)) : val1 V (no_index (Proc.devRef .tc main_v96)) = (sliceB1 (V (Proc.devRef .tc main_arg0))) := by
  unfold val1
  simp only [ops1]
  after_results_simp
  all_goals first | (simp only [val0_main_arg0, val0_main_arg1, val0_main_arg2, val0_main_arg3, val0_main_arg4, val0_main_arg5, val0_main_arg6, val0_main_arg7, val0_main_arg8, val0_main_arg9, val0_main_arg10, val0_main_arg11, val0_main_arg12, val0_main_v2, val0_main_v6, val0_main_v9, val0_main_v30, val0_main_v42, val0_main_v49] <;> rfl) | rfl

end Cert.ReferenceIdeal.HostRun

end
-- ==== Proof.RefVal2.lean ====
/-
  The buffer contents after the reference's first 3 windows of operations, at the buffers later windows read:
  each is the stage of the reference's term that the window's operations compose, as a function of the argument arrays.
-/
import proofs.«169155_g70909910057105_cont_sun_m_1383_19_alg».proof.Proof.RefPart2
import proofs.«169155_g70909910057105_cont_sun_m_1383_19_alg».proof.Proof.RefVal1

noncomputable section

namespace Cert.ReferenceIdeal.HostRun

open Cert.ReferenceIdeal Cert.ReferenceIdeal.Gen Idealize.ShloMosaic Idealize.ShloMosaic.TcCoe Idealize.SL.Sem Idealize.ShloMosaic.StableHlo

variable {F : FTy → Type} [FloatOps F]

/-- The buffer contents after the first 3 windows. -/
def val2 (V : Valuation τ sig (Elt F)) : Valuation τ sig (Elt F) := after ops2 (val1 V)

theorem val2_main_arg0 (V : Valuation τ sig (Elt F)) : val2 V (no_index (Proc.devRef .tc main_arg0)) = V (Proc.devRef .tc main_arg0) :=
  (keep2 _ main_arg0 (by decide)).trans (val1_main_arg0 V)
theorem val2_main_arg1 (V : Valuation τ sig (Elt F)) : val2 V (no_index (Proc.devRef .tc main_arg1)) = V (Proc.devRef .tc main_arg1) :=
  (keep2 _ main_arg1 (by decide)).trans (val1_main_arg1 V)
theorem val2_main_arg2 (V : Valuation τ sig (Elt F)) : val2 V (no_index (Proc.devRef .tc main_arg2)) = V (Proc.devRef .tc main_arg2) :=
  (keep2 _ main_arg2 (by decide)).trans (val1_main_arg2 V)
theorem val2_main_arg3 (V : Valuation τ sig (Elt F)) : val2 V (no_index (Proc.devRef .tc main_arg3)) = V (Proc.devRef .tc main_arg3) :=
  (keep2 _ main_arg3 (by decide)).trans (val1_main_arg3 V)
theorem val2_main_arg4 (V : Valuation τ sig (Elt F)) : val2 V (no_index (Proc.devRef .tc main_arg4)) = V (Proc.devRef .tc main_arg4) :=
  (keep2 _ main_arg4 (by decide)).trans (val1_main_arg4 V)
theorem val2_main_arg5 (V : Valuation τ sig (Elt F)) : val2 V (no_index (Proc.devRef .tc main_arg5)) = V (Proc.devRef .tc main_arg5) :=
  (keep2 _ main_arg5 (by decide)).trans (val1_main_arg5 V)
theorem val2_main_arg6 (V : Valuation τ sig (Elt F)) : val2 V (no_index (Proc.devRef .tc main_arg6)) = V (Proc.devRef .tc main_arg6) :=
  (keep2 _ main_arg6 (by decide)).trans (val1_main_arg6 V)
theorem val2_main_arg7 (V : Valuation τ sig (Elt F)) : val2 V (no_index (Proc.devRef .tc main_arg7)) = V (Proc.devRef .tc main_arg7) :=
  (keep2 _ main_arg7 (by decide)).trans (val1_main_arg7 V)
theorem val2_main_arg8 (V : Valuation τ sig (Elt F)) : val2 V (no_index (Proc.devRef .tc main_arg8)) = V (Proc.devRef .tc main_arg8) :=
  (keep2 _ main_arg8 (by decide)).trans (val1_main_arg8 V)
theorem val2_main_arg9 (V : Valuation τ sig (Elt F)) : val2 V (no_index (Proc.devRef .tc main_arg9)) = V (Proc.devRef .tc main_arg9) :=
  (keep2 _ main_arg9 (by decide)).trans (val1_main_arg9 V)
theorem val2_main_arg10 (V : Valuation τ sig (Elt F)) : val2 V (no_index (Proc.devRef .tc main_arg10)) = V (Proc.devRef .tc main_arg10) :=
  (keep2 _ main_arg10 (by decide)).trans (val1_main_arg10 V)
theorem val2_main_arg11 (V : Valuation τ sig (Elt F)) : val2 V (no_index (Proc.devRef .tc main_arg11)) = V (Proc.devRef .tc main_arg11) :=
  (keep2 _ main_arg11 (by decide)).trans (val1_main_arg11 V)
theorem val2_main_arg12 (V : Valuation τ sig (Elt F)) : val2 V (no_index (Proc.devRef .tc main_arg12)) = V (Proc.devRef .tc main_arg12) :=
  (keep2 _ main_arg12 (by decide)).trans (val1_main_arg12 V)

theorem val2_main_v94 (V : Valuation τ sig (Elt F)) : val2 V (no_index (Proc.devRef .tc main_v94)) = (batchFromH (projH (sliceB0 (V (Proc.devRef .tc main_arg0))) (V (Proc.devRef .tc main_arg3))) srcI trgI (maskOf (V (Proc.devRef .tc main_arg1))) (edgeScore (V (Proc.devRef .tc main_arg2)) (V (Proc.devRef .tc main_arg4)) (V (Proc.devRef .tc main_arg7)) srcI trgI) (V (Proc.devRef .tc main_arg5)) (V (Proc.devRef .tc main_arg6))) :=
  (keep2 _ main_v94 (by decide)).trans (val1_main_v94 V)
theorem val2_main_v2 (V : Valuation τ sig (Elt F)) : val2 V (no_index (Proc.devRef .tc main_v2)) = srcI :=
  (keep2 _ main_v2 (by decide)).trans (val1_main_v2 V)
theorem val2_main_v6 (V : Valuation τ sig (Elt F)) : val2 V (no_index (Proc.devRef .tc main_v6)) = trgI :=
  (keep2 _ main_v6 (by decide)).trans (val1_main_v6 V)
theorem val2_main_v9 (V : Valuation τ sig (Elt F)) : val2 V (no_index (Proc.devRef .tc main_v9)) = (maskOf (V (Proc.devRef .tc main_arg1))) :=
  (keep2 _ main_v9 (by decide)).trans (val1_main_v9 V)

attribute [local irreducible] Host.gather Host.scatterAdd Host.reduceAdd Host.exp Host.divf in
set_option maxRecDepth 16384 in
set_option maxHeartbeats 2000000 in
theorem val2_main_cst_34 (V : Valuation τ sig (Elt F)) : val2 V (no_index (Proc.devRef .tc main_cst_34)) = (constant S_ .f32 0x24E69595#32) := by
  unfold val2
  simp only [ops2]
  after_results_simp
  all_goals first | (simp only [val1_main_arg0, val1_main_arg1, val1_main_arg2, val1_main_arg3, val1_main_arg4, val1_main_arg5, val1_main_arg6, val1_main_arg7, val1_main_arg8, val1_main_arg9, val1_main_arg10, val1_main_arg11, val1_main_arg12, val1_main_v94, val1_main_v96, val1_main_v2, val1_main_v6, val1_main_v9, val1_main_v30] <;> rfl) | rfl

attribute [local irreducible] Host.gather Host.scatterAdd Host.reduceAdd Host.exp Host.divf in
set_option maxRecDepth 16384 in
set_option maxHeartbeats 2000000 in
theorem val2_main_v142 (V : Valuation τ sig (Elt F)) : val2 V (no_index (Proc.devRef .tc main_v142)) = (denomAt trgI (exOf (gatherH (projH (sliceB1 (V (Proc.devRef .tc main_arg0))) (V (Proc.devRef .tc main_arg3))) srcI) (gatherH (projH (sliceB1 (V (Proc.devRef .tc main_arg0))) (V (Proc.devRef .tc main_arg3))) trgI) (maskOf (V (Proc.devRef .tc main_arg1))) (edgeScore (V (Proc.devRef .tc main_arg2)) (V (Proc.devRef .tc main_arg4)) (V (Proc.devRef .tc main_arg7)) srcI trgI) (V (Proc.devRef .tc main_arg5)) (V (Proc.devRef .tc main_arg6)))) := by
  unfold val2
  simp only [ops2]
  after_results_simp
  all_goals first | (simp only [val1_main_arg0, val1_main_arg1, val1_main_arg2, val1_main_arg3, val1_main_arg4, val1_main_arg5, val1_main_arg6, val1_main_arg7, val1_main_arg8, val1_main_arg9, val1_main_arg10, val1_main_arg11, val1_main_arg12, val1_main_v94, val1_main_v96, val1_main_v2, val1_main_v6, val1_main_v9, val1_main_v30] <;> rfl) | rfl

attribute [local irreducible] Host.gather Host.scatterAdd Host.reduceAdd Host.exp Host.divf in
set_option maxRecDepth 16384 in
set_option maxHeartbeats 2000000 in
theorem val2_main_v127 (V : Valuation τ sig (Elt F)) : val2 V (no_index (Proc.devRef .tc main_v127)) = (exOf (gatherH (projH (sliceB1 (V (Proc.devRef .tc main_arg0))) (V (Proc.devRef .tc main_arg3))) srcI) (gatherH (projH (sliceB1 (V (Proc.devRef .tc main_arg0))) (V (Proc.devRef .tc main_arg3))) trgI) (maskOf (V (Proc.devRef .tc main_arg1))) (edgeScore (V (Proc.devRef .tc main_arg2)) (V (Proc.devRef .tc main_arg4)) (V (Proc.devRef .tc main_arg7)) srcI trgI) (V (Proc.devRef .tc main_arg5)) (V (Proc.devRef .tc main_arg6))) := by
  unfold val2
  simp only [ops2]
  after_results_simp
  all_goals first | (simp only [val1_main_arg0, val1_main_arg1, val1_main_arg2, val1_main_arg3, val1_main_arg4, val1_main_arg5, val1_main_arg6, val1_main_arg7, val1_main_arg8, val1_main_arg9, val1_main_arg10, val1_main_arg11, val1_main_arg12, val1_main_v94, val1_main_v96, val1_main_v2, val1_main_v6, val1_main_v9, val1_main_v30] <;> rfl) | rfl

attribute [local irreducible] Host.gather Host.scatterAdd Host.reduceAdd Host.exp Host.divf in
set_option maxRecDepth 16384 in
set_option maxHeartbeats 2000000 in
theorem val2_main_v106 (V : Valuation τ sig (Elt F)) : val2 V (no_index (Proc.devRef .tc main_v106)) = (gatherH (projH (sliceB1 (V (Proc.devRef .tc main_arg0))) (V (Proc.devRef .tc main_arg3))) srcI) := by
  unfold val2
  simp only [ops2]
  after_results_simp
  all_goals first | (simp only [val1_main_arg0, val1_main_arg1, val1_main_arg2, val1_main_arg3, val1_main_arg4, val1_main_arg5, val1_main_arg6, val1_main_arg7, val1_main_arg8, val1_main_arg9, val1_main_arg10, val1_main_arg11, val1_main_arg12, val1_main_v94, val1_main_v96, val1_main_v2, val1_main_v6, val1_main_v9, val1_main_v30] <;> rfl) | rfl

end Cert.ReferenceIdeal.HostRun

end
-- ==== Proof.RefVal3.lean ====
/-
  The buffer contents after the reference's first 4 windows of operations, at the buffers later windows read:
  each is the stage of the reference's term that the window's operations compose, as a function of the argument arrays.
-/
import proofs.«169155_g70909910057105_cont_sun_m_1383_19_alg».proof.Proof.RefPart3
import proofs.«169155_g70909910057105_cont_sun_m_1383_19_alg».proof.Proof.RefVal2

noncomputable section

namespace Cert.ReferenceIdeal.HostRun

open Cert.ReferenceIdeal Cert.ReferenceIdeal.Gen Idealize.ShloMosaic Idealize.ShloMosaic.TcCoe Idealize.SL.Sem Idealize.ShloMosaic.StableHlo

variable {F : FTy → Type} [FloatOps F]

/-- The buffer contents after the first 4 windows. -/
def val3 (V : Valuation τ sig (Elt F)) : Valuation τ sig (Elt F) := after ops3 (val2 V)

/-- The window's operations with each joining of two arrays applied by name, its two operands plain arguments. -/
abbrev ops3' : List (HloOp τ sig (Elt F)) :=
  [ StableHlo.unary main_cst_34 main_v143 (broadcastInDim S262144x4 ![] bcast_S_S262144x4 : (⟨S_, .f32⟩ : BufTy).Contents (Elt F) → (⟨S262144x4, .f32⟩ : BufTy).Contents (Elt F)),
    StableHlo.binary main_v142 main_v143 main_v144 (addf : (⟨S262144x4, .f32⟩ : BufTy).Contents (Elt F) → (⟨S262144x4, .f32⟩ : BufTy).Contents (Elt F) → (⟨S262144x4, .f32⟩ : BufTy).Contents (Elt F)),
    StableHlo.binary main_v127 main_v144 main_v145 (Host.divf : (⟨S262144x4, .f32⟩ : BufTy).Contents (Elt F) → (⟨S262144x4, .f32⟩ : BufTy).Contents (Elt F) → (⟨S262144x4, .f32⟩ : BufTy).Contents (Elt F)),
    StableHlo.unary main_v145 main_v146 (broadcastInDim S262144x4x1 ![0, 1] bcast_S262144x4_S262144x4x1_0_1 : (⟨S262144x4, .f32⟩ : BufTy).Contents (Elt F) → (⟨S262144x4x1, .f32⟩ : BufTy).Contents (Elt F)),
    StableHlo.unary main_v146 main_v147 (broadcastInDim S262144x4x32 ![0, 1, 2] bcast_S262144x4x1_S262144x4x32_0_1_2 : (⟨S262144x4x1, .f32⟩ : BufTy).Contents (Elt F) → (⟨S262144x4x32, .f32⟩ : BufTy).Contents (Elt F)),
    StableHlo.binary main_v106 main_v147 main_v148 (mulf : (⟨S262144x4x32, .f32⟩ : BufTy).Contents (Elt F) → (⟨S262144x4x32, .f32⟩ : BufTy).Contents (Elt F) → (⟨S262144x4x32, .f32⟩ : BufTy).Contents (Elt F)),
    StableHlo.nullary main_cst_35 (constant S_ .f32 0x00000000#32),
    StableHlo.unary main_cst_35 main_v149 (broadcastInDim S512x4x32 ![] bcast_S_S512x4x32 : (⟨S_, .f32⟩ : BufTy).Contents (Elt F) → (⟨S512x4x32, .f32⟩ : BufTy).Contents (Elt F)),
    StableHlo.nullary main_c_36 (constantI S_ 32 0#32),
    StableHlo.unary main_c_36 main_v150 (broadcastInDim S262144 ![] bcast_S_S262144 : (⟨S_, .i32⟩ : BufTy).Contents (Elt F) → (⟨S262144, .i32⟩ : BufTy).Contents (Elt F)),
    StableHlo.binary main_v6 main_v150 main_v151 (cmpi .slt : (⟨S262144, .i32⟩ : BufTy).Contents (Elt F) → (⟨S262144, .i32⟩ : BufTy).Contents (Elt F) → (⟨S262144, .i1⟩ : BufTy).Contents (Elt F)),
    StableHlo.nullary main_c_37 (constantI S_ 32 512#32),
    StableHlo.unary main_c_37 main_v152 (broadcastInDim S262144 ![] bcast_S_S262144 : (⟨S_, .i32⟩ : BufTy).Contents (Elt F) → (⟨S262144, .i32⟩ : BufTy).Contents (Elt F)),
    StableHlo.binary main_v6 main_v152 main_v153 (addi : (⟨S262144, .i32⟩ : BufTy).Contents (Elt F) → (⟨S262144, .i32⟩ : BufTy).Contents (Elt F) → (⟨S262144, .i32⟩ : BufTy).Contents (Elt F)),
    StableHlo.ternary main_v151 main_v153 main_v6 main_v154 (select : (⟨S262144, .i1⟩ : BufTy).Contents (Elt F) → (⟨S262144, .i32⟩ : BufTy).Contents (Elt F) → (⟨S262144, .i32⟩ : BufTy).Contents (Elt F) → (⟨S262144, .i32⟩ : BufTy).Contents (Elt F)),
    StableHlo.unary main_v154 main_v155 (broadcastInDim S262144x1 ![0] bcast_S262144_S262144x1_0 : (⟨S262144, .i32⟩ : BufTy).Contents (Elt F) → (⟨S262144x1, .i32⟩ : BufTy).Contents (Elt F)),
    StableHlo.ternary main_v149 main_v155 main_v148 main_v156 ((fun x i u => Host.scatterAdd scatter_S512x4x32_S262144x1_S262144x4x32_12_0_0_1 x i u) : (⟨S512x4x32, .f32⟩ : BufTy).Contents (Elt F) → (⟨S262144x1, .i32⟩ : BufTy).Contents (Elt F) → (⟨S262144x4x32, .f32⟩ : BufTy).Contents (Elt F) → (⟨S512x4x32, .f32⟩ : BufTy).Contents (Elt F)),
    StableHlo.reshape main_v156 main_v157 rfl shapeCasts_S512x4x32_S512x128,
    StableHlo.unary main_v157 main_v158 (broadcastInDim S512x1x128 ![0, 2] bcast_S512x128_S512x1x128_0_2 : (⟨S512x128, .f32⟩ : BufTy).Contents (Elt F) → (⟨S512x1x128, .f32⟩ : BufTy).Contents (Elt F)),
    StableHlo.binary main_v94 main_v158 main_v159 (catOut : (⟨S512x1x128, .f32⟩ : BufTy).Contents (Elt F) → (⟨S512x1x128, .f32⟩ : BufTy).Contents (Elt F) → (⟨S512x2x128, .f32⟩ : BufTy).Contents (Elt F)),
    StableHlo.nullary main_c_38 (constantI S_ 32 0#32),
    StableHlo.unary main_c_38 main_v160 (broadcastInDim S262144 ![] bcast_S_S262144 : (⟨S_, .i32⟩ : BufTy).Contents (Elt F) → (⟨S262144, .i32⟩ : BufTy).Contents (Elt F)),
    StableHlo.binary main_v2 main_v160 main_v161 (cmpi .slt : (⟨S262144, .i32⟩ : BufTy).Contents (Elt F) → (⟨S262144, .i32⟩ : BufTy).Contents (Elt F) → (⟨S262144, .i1⟩ : BufTy).Contents (Elt F)),
    StableHlo.nullary main_c_39 (constantI S_ 32 512#32),
    StableHlo.unary main_c_39 main_v162 (broadcastInDim S262144 ![] bcast_S_S262144 : (⟨S_, .i32⟩ : BufTy).Contents (Elt F) → (⟨S262144, .i32⟩ : BufTy).Contents (Elt F)),
    StableHlo.binary main_v2 main_v162 main_v163 (addi : (⟨S262144, .i32⟩ : BufTy).Contents (Elt F) → (⟨S262144, .i32⟩ : BufTy).Contents (Elt F) → (⟨S262144, .i32⟩ : BufTy).Contents (Elt F)),
    StableHlo.ternary main_v161 main_v163 main_v2 main_v164 (select : (⟨S262144, .i1⟩ : BufTy).Contents (Elt F) → (⟨S262144, .i32⟩ : BufTy).Contents (Elt F) → (⟨S262144, .i32⟩ : BufTy).Contents (Elt F) → (⟨S262144, .i32⟩ : BufTy).Contents (Elt F)),
    StableHlo.nullary main_c_40 (constantI S_ 32 0#32),
    StableHlo.unary main_c_40 main_v165 (broadcastInDim S262144 ![] bcast_S_S262144 : (⟨S_, .i32⟩ : BufTy).Contents (Elt F) → (⟨S262144, .i32⟩ : BufTy).Contents (Elt F)),
    StableHlo.binary main_v6 main_v165 main_v166 (cmpi .slt : (⟨S262144, .i32⟩ : BufTy).Contents (Elt F) → (⟨S262144, .i32⟩ : BufTy).Contents (Elt F) → (⟨S262144, .i1⟩ : BufTy).Contents (Elt F)),
    StableHlo.nullary main_c_41 (constantI S_ 32 512#32),
    StableHlo.unary main_c_41 main_v167 (broadcastInDim S262144 ![] bcast_S_S262144 : (⟨S_, .i32⟩ : BufTy).Contents (Elt F) → (⟨S262144, .i32⟩ : BufTy).Contents (Elt F)),
    StableHlo.binary main_v6 main_v167 main_v168 (addi : (⟨S262144, .i32⟩ : BufTy).Contents (Elt F) → (⟨S262144, .i32⟩ : BufTy).Contents (Elt F) → (⟨S262144, .i32⟩ : BufTy).Contents (Elt F)),
    StableHlo.ternary main_v166 main_v168 main_v6 main_v169 (select : (⟨S262144, .i1⟩ : BufTy).Contents (Elt F) → (⟨S262144, .i32⟩ : BufTy).Contents (Elt F) → (⟨S262144, .i32⟩ : BufTy).Contents (Elt F) → (⟨S262144, .i32⟩ : BufTy).Contents (Elt F)),
    StableHlo.unary main_v164 main_v170 (broadcastInDim S262144x1 ![0] bcast_S262144_S262144x1_0 : (⟨S262144, .i32⟩ : BufTy).Contents (Elt F) → (⟨S262144x1, .i32⟩ : BufTy).Contents (Elt F)),
    StableHlo.unary main_v169 main_v171 (broadcastInDim S262144x1 ![0] bcast_S262144_S262144x1_0 : (⟨S262144, .i32⟩ : BufTy).Contents (Elt F) → (⟨S262144x1, .i32⟩ : BufTy).Contents (Elt F)),
    StableHlo.binary main_v170 main_v171 main_v172 (catPair : (⟨S262144x1, .i32⟩ : BufTy).Contents (Elt F) → (⟨S262144x1, .i32⟩ : BufTy).Contents (Elt F) → (⟨S262144x2, .i32⟩ : BufTy).Contents (Elt F)),
    StableHlo.binary main_arg2 main_v172 main_v173 ((fun x i => Host.gather gather_S512x512x128_S262144x2_S262144x128_1_01_n_n_01_1_11128 x i) : (⟨S512x512x128, .f32⟩ : BufTy).Contents (Elt F) → (⟨S262144x2, .i32⟩ : BufTy).Contents (Elt F) → (⟨S262144x128, .f32⟩ : BufTy).Contents (Elt F)),
    StableHlo.unary main_arg9 main_v174 ((transpose S128x128 [1, 0] · transposes_S128x128_S128x128_1_0) : (⟨S128x128, .f32⟩ : BufTy).Contents (Elt F) → (⟨S128x128, .f32⟩ : BufTy).Contents (Elt F)),
    StableHlo.binary main_v173 main_v174 main_v175 ((fun l r => Host.dotGeneral dot_S262144x128_S128x128_S262144x128_1_0_0_1_n_n none l r) : (⟨S262144x128, .f32⟩ : BufTy).Contents (Elt F) → (⟨S128x128, .f32⟩ : BufTy).Contents (Elt F) → (⟨S262144x128, .f32⟩ : BufTy).Contents (Elt F)),
    StableHlo.reshape main_v175 main_v176 rfl shapeCasts_S262144x128_S262144x4x32,
    StableHlo.nullary main_cst_42 (constant S_ .f32 0x00000000#32),
    StableHlo.binary main_v176 main_cst_42 main_v177 ((fun x v => Host.reduceAdd x v reducesTo_S262144x4x32_S262144x4_d2 h_S_) : (⟨S262144x4x32, .f32⟩ : BufTy).Contents (Elt F) → (⟨S_, .f32⟩ : BufTy).Contents (Elt F) → (⟨S262144x4, .f32⟩ : BufTy).Contents (Elt F)),
    StableHlo.unary main_arg12 main_v178 (broadcastInDim S1x4 ![1] bcast_S4_S1x4_1 : (⟨S4, .f32⟩ : BufTy).Contents (Elt F) → (⟨S1x4, .f32⟩ : BufTy).Contents (Elt F)),
    StableHlo.unary main_v178 main_v179 (broadcastInDim S262144x4 ![0, 1] bcast_S1x4_S262144x4_0_1 : (⟨S1x4, .f32⟩ : BufTy).Contents (Elt F) → (⟨S262144x4, .f32⟩ : BufTy).Contents (Elt F)),
    StableHlo.binary main_v177 main_v179 main_v180 (mulf : (⟨S262144x4, .f32⟩ : BufTy).Contents (Elt F) → (⟨S262144x4, .f32⟩ : BufTy).Contents (Elt F) → (⟨S262144x4, .f32⟩ : BufTy).Contents (Elt F)),
    StableHlo.unary main_v159 main_v181 ((extractStridedSlice S512x1x128 ![0, 0, 0] · slices_S512x2x128_S512x1x128_0_0_0) : (⟨S512x2x128, .f32⟩ : BufTy).Contents (Elt F) → (⟨S512x1x128, .f32⟩ : BufTy).Contents (Elt F)),
    StableHlo.reshape main_v181 main_v182 rfl shapeCasts_S512x1x128_S512x128,
    StableHlo.unary main_arg8 main_v183 ((transpose S128x128 [1, 0] · transposes_S128x128_S128x128_1_0) : (⟨S128x128, .f32⟩ : BufTy).Contents (Elt F) → (⟨S128x128, .f32⟩ : BufTy).Contents (Elt F)),
    StableHlo.binary main_v182 main_v183 main_v184 ((fun l r => Host.dotGeneral dot_S512x128_S128x128_S512x128_1_0_0_1_n_n none l r) : (⟨S512x128, .f32⟩ : BufTy).Contents (Elt F) → (⟨S128x128, .f32⟩ : BufTy).Contents (Elt F) → (⟨S512x128, .f32⟩ : BufTy).Contents (Elt F)),
    StableHlo.reshape main_v184 main_v185 rfl shapeCasts_S512x128_S512x4x32,
    StableHlo.nullary main_c_43 (constantI S_ 32 0#32),
    StableHlo.unary main_c_43 main_v186 (broadcastInDim S262144 ![] bcast_S_S262144 : (⟨S_, .i32⟩ : BufTy).Contents (Elt F) → (⟨S262144, .i32⟩ : BufTy).Contents (Elt F)),
    StableHlo.binary main_v2 main_v186 main_v187 (cmpi .slt : (⟨S262144, .i32⟩ : BufTy).Contents (Elt F) → (⟨S262144, .i32⟩ : BufTy).Contents (Elt F) → (⟨S262144, .i1⟩ : BufTy).Contents (Elt F)),
    StableHlo.nullary main_c_44 (constantI S_ 32 512#32),
    StableHlo.unary main_c_44 main_v188 (broadcastInDim S262144 ![] bcast_S_S262144 : (⟨S_, .i32⟩ : BufTy).Contents (Elt F) → (⟨S262144, .i32⟩ : BufTy).Contents (Elt F)),
    StableHlo.binary main_v2 main_v188 main_v189 (addi : (⟨S262144, .i32⟩ : BufTy).Contents (Elt F) → (⟨S262144, .i32⟩ : BufTy).Contents (Elt F) → (⟨S262144, .i32⟩ : BufTy).Contents (Elt F)),
    StableHlo.ternary main_v187 main_v189 main_v2 main_v190 (select : (⟨S262144, .i1⟩ : BufTy).Contents (Elt F) → (⟨S262144, .i32⟩ : BufTy).Contents (Elt F) → (⟨S262144, .i32⟩ : BufTy).Contents (Elt F) → (⟨S262144, .i32⟩ : BufTy).Contents (Elt F)),
    StableHlo.unary main_v190 main_v191 (broadcastInDim S262144x1 ![0] bcast_S262144_S262144x1_0 : (⟨S262144, .i32⟩ : BufTy).Contents (Elt F) → (⟨S262144x1, .i32⟩ : BufTy).Contents (Elt F)),
    StableHlo.binary main_v185 main_v191 main_v192 ((fun x i => Host.gather gather_S512x4x32_S262144x1_S262144x4x32_12_0_n_n_0_1_1432 x i) : (⟨S512x4x32, .f32⟩ : BufTy).Contents (Elt F) → (⟨S262144x1, .i32⟩ : BufTy).Contents (Elt F) → (⟨S262144x4x32, .f32⟩ : BufTy).Contents (Elt F)) ]

set_option maxRecDepth 16384 in
theorem ops3_eq : (ops3 : List (HloOp τ sig (Elt F))) = ops3' := rfl

theorem val3_main_arg0 (V : Valuation τ sig (Elt F)) : val3 V (no_index (Proc.devRef .tc main_arg0)) = V (Proc.devRef .tc main_arg0) :=
  (keep3 _ main_arg0 (by decide)).trans (val2_main_arg0 V)
theorem val3_main_arg1 (V : Valuation τ sig (Elt F)) : val3 V (no_index (Proc.devRef .tc main_arg1)) = V (Proc.devRef .tc main_arg1) :=
  (keep3 _ main_arg1 (by decide)).trans (val2_main_arg1 V)
theorem val3_main_arg2 (V : Valuation τ sig (Elt F)) : val3 V (no_index (Proc.devRef .tc main_arg2)) = V (Proc.devRef .tc main_arg2) :=
  (keep3 _ main_arg2 (by decide)).trans (val2_main_arg2 V)
theorem val3_main_arg3 (V : Valuation τ sig (Elt F)) : val3 V (no_index (Proc.devRef .tc main_arg3)) = V (Proc.devRef .tc main_arg3) :=
  (keep3 _ main_arg3 (by decide)).trans (val2_main_arg3 V)
theorem val3_main_arg4 (V : Valuation τ sig (Elt F)) : val3 V (no_index (Proc.devRef .tc main_arg4)) = V (Proc.devRef .tc main_arg4) :=
  (keep3 _ main_arg4 (by decide)).trans (val2_main_arg4 V)
theorem val3_main_arg5 (V : Valuation τ sig (Elt F)) : val3 V (no_index (Proc.devRef .tc main_arg5)) = V (Proc.devRef .tc main_arg5) :=
  (keep3 _ main_arg5 (by decide)).trans (val2_main_arg5 V)
theorem val3_main_arg6 (V : Valuation τ sig (Elt F)) : val3 V (no_index (Proc.devRef .tc main_arg6)) = V (Proc.devRef .tc main_arg6) :=
  (keep3 _ main_arg6 (by decide)).trans (val2_main_arg6 V)
theorem val3_main_arg7 (V : Valuation τ sig (Elt F)) : val3 V (no_index (Proc.devRef .tc main_arg7)) = V (Proc.devRef .tc main_arg7) :=
  (keep3 _ main_arg7 (by decide)).trans (val2_main_arg7 V)
theorem val3_main_arg8 (V : Valuation τ sig (Elt F)) : val3 V (no_index (Proc.devRef .tc main_arg8)) = V (Proc.devRef .tc main_arg8) :=
  (keep3 _ main_arg8 (by decide)).trans (val2_main_arg8 V)
theorem val3_main_arg9 (V : Valuation τ sig (Elt F)) : val3 V (no_index (Proc.devRef .tc main_arg9)) = V (Proc.devRef .tc main_arg9) :=
  (keep3 _ main_arg9 (by decide)).trans (val2_main_arg9 V)
theorem val3_main_arg10 (V : Valuation τ sig (Elt F)) : val3 V (no_index (Proc.devRef .tc main_arg10)) = V (Proc.devRef .tc main_arg10) :=
  (keep3 _ main_arg10 (by decide)).trans (val2_main_arg10 V)
theorem val3_main_arg11 (V : Valuation τ sig (Elt F)) : val3 V (no_index (Proc.devRef .tc main_arg11)) = V (Proc.devRef .tc main_arg11) :=
  (keep3 _ main_arg11 (by decide)).trans (val2_main_arg11 V)
theorem val3_main_arg12 (V : Valuation τ sig (Elt F)) : val3 V (no_index (Proc.devRef .tc main_arg12)) = V (Proc.devRef .tc main_arg12) :=
  (keep3 _ main_arg12 (by decide)).trans (val2_main_arg12 V)

theorem val3_main_v2 (V : Valuation τ sig (Elt F)) : val3 V (no_index (Proc.devRef .tc main_v2)) = srcI :=
  (keep3 _ main_v2 (by decide)).trans (val2_main_v2 V)
theorem val3_main_v6 (V : Valuation τ sig (Elt F)) : val3 V (no_index (Proc.devRef .tc main_v6)) = trgI :=
  (keep3 _ main_v6 (by decide)).trans (val2_main_v6 V)
theorem val3_main_v9 (V : Valuation τ sig (Elt F)) : val3 V (no_index (Proc.devRef .tc main_v9)) = (maskOf (V (Proc.devRef .tc main_arg1))) :=
  (keep3 _ main_v9 (by decide)).trans (val2_main_v9 V)

attribute [local irreducible] Host.gather Host.scatterAdd Host.reduceAdd Host.exp Host.divf in
set_option maxRecDepth 16384 in
set_option maxHeartbeats 2000000 in
theorem val3_main_v159 (V : Valuation τ sig (Elt F)) : val3 V (no_index (Proc.devRef .tc main_v159)) = (layer (V (Proc.devRef .tc main_arg0)) srcI trgI (maskOf (V (Proc.devRef .tc main_arg1))) (V (Proc.devRef .tc main_arg2)) (V (Proc.devRef .tc main_arg3)) (V (Proc.devRef .tc main_arg4)) (V (Proc.devRef .tc main_arg5)) (V (Proc.devRef .tc main_arg6)) (V (Proc.devRef .tc main_arg7))) := by
  unfold val3
  simp only [ops3_eq]
  simp only [ops3']
  after_results_simp
  all_goals first | (simp only [val2_main_arg0, val2_main_arg1, val2_main_arg2, val2_main_arg3, val2_main_arg4, val2_main_arg5, val2_main_arg6, val2_main_arg7, val2_main_arg8, val2_main_arg9, val2_main_arg10, val2_main_arg11, val2_main_arg12, val2_main_cst_34, val2_main_v142, val2_main_v127, val2_main_v106, val2_main_v94, val2_main_v2, val2_main_v6, val2_main_v9] <;> rfl) | rfl

attribute [local irreducible] Host.gather Host.scatterAdd Host.reduceAdd Host.exp Host.divf in
set_option maxRecDepth 16384 in
set_option maxHeartbeats 2000000 in
theorem val3_main_v180 (V : Valuation τ sig (Elt F)) : val3 V (no_index (Proc.devRef .tc main_v180)) = (edgeScore (V (Proc.devRef .tc main_arg2)) (V (Proc.devRef .tc main_arg9)) (V (Proc.devRef .tc main_arg12)) srcI trgI) := by
  unfold val3
  simp only [ops3_eq]
  simp only [ops3']
  after_results_simp
  all_goals first | (simp only [val2_main_arg0, val2_main_arg1, val2_main_arg2, val2_main_arg3, val2_main_arg4, val2_main_arg5, val2_main_arg6, val2_main_arg7, val2_main_arg8, val2_main_arg9, val2_main_arg10, val2_main_arg11, val2_main_arg12, val2_main_cst_34, val2_main_v142, val2_main_v127, val2_main_v106, val2_main_v94, val2_main_v2, val2_main_v6, val2_main_v9] <;> rfl) | rfl

attribute [local irreducible] Host.gather Host.scatterAdd Host.reduceAdd Host.exp Host.divf in
set_option maxRecDepth 16384 in
set_option maxHeartbeats 2000000 in
theorem val3_main_v185 (V : Valuation τ sig (Elt F)) : val3 V (no_index (Proc.devRef .tc main_v185)) = (projH (sliceB0 (layer (V (Proc.devRef .tc main_arg0)) srcI trgI (maskOf (V (Proc.devRef .tc main_arg1))) (V (Proc.devRef .tc main_arg2)) (V (Proc.devRef .tc main_arg3)) (V (Proc.devRef .tc main_arg4)) (V (Proc.devRef .tc main_arg5)) (V (Proc.devRef .tc main_arg6)) (V (Proc.devRef .tc main_arg7)))) (V (Proc.devRef .tc main_arg8))) := by
  unfold val3
  simp only [ops3_eq]
  simp only [ops3']
  after_results_simp
  all_goals first | (simp only [val2_main_arg0, val2_main_arg1, val2_main_arg2, val2_main_arg3, val2_main_arg4, val2_main_arg5, val2_main_arg6, val2_main_arg7, val2_main_arg8, val2_main_arg9, val2_main_arg10, val2_main_arg11, val2_main_arg12, val2_main_cst_34, val2_main_v142, val2_main_v127, val2_main_v106, val2_main_v94, val2_main_v2, val2_main_v6, val2_main_v9] <;> rfl) | rfl

attribute [local irreducible] Host.gather Host.scatterAdd Host.reduceAdd Host.exp Host.divf in
set_option maxRecDepth 16384 in
set_option maxHeartbeats 2000000 in
theorem val3_main_v192 (V : Valuation τ sig (Elt F)) : val3 V (no_index (Proc.devRef .tc main_v192)) = (gatherH (projH (sliceB0 (layer (V (Proc.devRef .tc main_arg0)) srcI trgI (maskOf (V (Proc.devRef .tc main_arg1))) (V (Proc.devRef .tc main_arg2)) (V (Proc.devRef .tc main_arg3)) (V (Proc.devRef .tc main_arg4)) (V (Proc.devRef .tc main_arg5)) (V (Proc.devRef .tc main_arg6)) (V (Proc.devRef .tc main_arg7)))) (V (Proc.devRef .tc main_arg8))) srcI) := by
  unfold val3
  simp only [ops3_eq]
  simp only [ops3']
  after_results_simp
  all_goals first | (simp only [val2_main_arg0, val2_main_arg1, val2_main_arg2, val2_main_arg3, val2_main_arg4, val2_main_arg5, val2_main_arg6, val2_main_arg7, val2_main_arg8, val2_main_arg9, val2_main_arg10, val2_main_arg11, val2_main_arg12, val2_main_cst_34, val2_main_v142, val2_main_v127, val2_main_v106, val2_main_v94, val2_main_v2, val2_main_v6, val2_main_v9] <;> rfl) | rfl

end Cert.ReferenceIdeal.HostRun

end
-- ==== Proof.RefVal4.lean ====
/-
  The buffer contents after the reference's first 5 windows of operations, at the buffers later windows read:
  each is the stage of the reference's term that the window's operations compose, as a function of the argument arrays.
-/
import proofs.«169155_g70909910057105_cont_sun_m_1383_19_alg».proof.Proof.RefPart4
import proofs.«169155_g70909910057105_cont_sun_m_1383_19_alg».proof.Proof.RefVal3

noncomputable section

namespace Cert.ReferenceIdeal.HostRun

open Cert.ReferenceIdeal Cert.ReferenceIdeal.Gen Idealize.ShloMosaic Idealize.ShloMosaic.TcCoe Idealize.SL.Sem Idealize.ShloMosaic.StableHlo

variable {F : FTy → Type} [FloatOps F]

/-- The buffer contents after the first 5 windows. -/
def val4 (V : Valuation τ sig (Elt F)) : Valuation τ sig (Elt F) := after ops4 (val3 V)

theorem val4_main_arg0 (V : Valuation τ sig (Elt F)) : val4 V (no_index (Proc.devRef .tc main_arg0)) = V (Proc.devRef .tc main_arg0) :=
  (keep4 _ main_arg0 (by decide)).trans (val3_main_arg0 V)
theorem val4_main_arg1 (V : Valuation τ sig (Elt F)) : val4 V (no_index (Proc.devRef .tc main_arg1)) = V (Proc.devRef .tc main_arg1) :=
  (keep4 _ main_arg1 (by decide)).trans (val3_main_arg1 V)
theorem val4_main_arg2 (V : Valuation τ sig (Elt F)) : val4 V (no_index (Proc.devRef .tc main_arg2)) = V (Proc.devRef .tc main_arg2) :=
  (keep4 _ main_arg2 (by decide)).trans (val3_main_arg2 V)
theorem val4_main_arg3 (V : Valuation τ sig (Elt F)) : val4 V (no_index (Proc.devRef .tc main_arg3)) = V (Proc.devRef .tc main_arg3) :=
  (keep4 _ main_arg3 (by decide)).trans (val3_main_arg3 V)
theorem val4_main_arg4 (V : Valuation τ sig (Elt F)) : val4 V (no_index (Proc.devRef .tc main_arg4)) = V (Proc.devRef .tc main_arg4) :=
  (keep4 _ main_arg4 (by decide)).trans (val3_main_arg4 V)
theorem val4_main_arg5 (V : Valuation τ sig (Elt F)) : val4 V (no_index (Proc.devRef .tc main_arg5)) = V (Proc.devRef .tc main_arg5) :=
  (keep4 _ main_arg5 (by decide)).trans (val3_main_arg5 V)
theorem val4_main_arg6 (V : Valuation τ sig (Elt F)) : val4 V (no_index (Proc.devRef .tc main_arg6)) = V (Proc.devRef .tc main_arg6) :=
  (keep4 _ main_arg6 (by decide)).trans (val3_main_arg6 V)
theorem val4_main_arg7 (V : Valuation τ sig (Elt F)) : val4 V (no_index (Proc.devRef .tc main_arg7)) = V (Proc.devRef .tc main_arg7) :=
  (keep4 _ main_arg7 (by decide)).trans (val3_main_arg7 V)
theorem val4_main_arg8 (V : Valuation τ sig (Elt F)) : val4 V (no_index (Proc.devRef .tc main_arg8)) = V (Proc.devRef .tc main_arg8) :=
  (keep4 _ main_arg8 (by decide)).trans (val3_main_arg8 V)
theorem val4_main_arg9 (V : Valuation τ sig (Elt F)) : val4 V (no_index (Proc.devRef .tc main_arg9)) = V (Proc.devRef .tc main_arg9) :=
  (keep4 _ main_arg9 (by decide)).trans (val3_main_arg9 V)
theorem val4_main_arg10 (V : Valuation τ sig (Elt F)) : val4 V (no_index (Proc.devRef .tc main_arg10)) = V (Proc.devRef .tc main_arg10) :=
  (keep4 _ main_arg10 (by decide)).trans (val3_main_arg10 V)
theorem val4_main_arg11 (V : Valuation τ sig (Elt F)) : val4 V (no_index (Proc.devRef .tc main_arg11)) = V (Proc.devRef .tc main_arg11) :=
  (keep4 _ main_arg11 (by decide)).trans (val3_main_arg11 V)
theorem val4_main_arg12 (V : Valuation τ sig (Elt F)) : val4 V (no_index (Proc.devRef .tc main_arg12)) = V (Proc.devRef .tc main_arg12) :=
  (keep4 _ main_arg12 (by decide)).trans (val3_main_arg12 V)

theorem val4_main_v159 (V : Valuation τ sig (Elt F)) : val4 V (no_index (Proc.devRef .tc main_v159)) = (layer (V (Proc.devRef .tc main_arg0)) srcI trgI (maskOf (V (Proc.devRef .tc main_arg1))) (V (Proc.devRef .tc main_arg2)) (V (Proc.devRef .tc main_arg3)) (V (Proc.devRef .tc main_arg4)) (V (Proc.devRef .tc main_arg5)) (V (Proc.devRef .tc main_arg6)) (V (Proc.devRef .tc main_arg7))) :=
  (keep4 _ main_v159 (by decide)).trans (val3_main_v159 V)
theorem val4_main_v2 (V : Valuation τ sig (Elt F)) : val4 V (no_index (Proc.devRef .tc main_v2)) = srcI :=
  (keep4 _ main_v2 (by decide)).trans (val3_main_v2 V)
theorem val4_main_v6 (V : Valuation τ sig (Elt F)) : val4 V (no_index (Proc.devRef .tc main_v6)) = trgI :=
  (keep4 _ main_v6 (by decide)).trans (val3_main_v6 V)
theorem val4_main_v180 (V : Valuation τ sig (Elt F)) : val4 V (no_index (Proc.devRef .tc main_v180)) = (edgeScore (V (Proc.devRef .tc main_arg2)) (V (Proc.devRef .tc main_arg9)) (V (Proc.devRef .tc main_arg12)) srcI trgI) :=
  (keep4 _ main_v180 (by decide)).trans (val3_main_v180 V)
theorem val4_main_v9 (V : Valuation τ sig (Elt F)) : val4 V (no_index (Proc.devRef .tc main_v9)) = (maskOf (V (Proc.devRef .tc main_arg1))) :=
  (keep4 _ main_v9 (by decide)).trans (val3_main_v9 V)

attribute [local irreducible] Host.gather Host.scatterAdd Host.reduceAdd Host.exp Host.divf in
set_option maxRecDepth 16384 in
set_option maxHeartbeats 2000000 in
theorem val4_main_c_59 (V : Valuation τ sig (Elt F)) : val4 V (no_index (Proc.devRef .tc main_c_59)) = (constantI S_ 32 512#32) := by
  unfold val4
  simp only [ops4]
  after_results_simp
  all_goals first | (simp only [val3_main_arg0, val3_main_arg1, val3_main_arg2, val3_main_arg3, val3_main_arg4, val3_main_arg5, val3_main_arg6, val3_main_arg7, val3_main_arg8, val3_main_arg9, val3_main_arg10, val3_main_arg11, val3_main_arg12, val3_main_v159, val3_main_v180, val3_main_v185, val3_main_v192, val3_main_v2, val3_main_v6, val3_main_v9] <;> rfl) | rfl

attribute [local irreducible] Host.gather Host.scatterAdd Host.reduceAdd Host.exp Host.divf in
set_option maxRecDepth 16384 in
set_option maxHeartbeats 2000000 in
theorem val4_main_v237 (V : Valuation τ sig (Elt F)) : val4 V (no_index (Proc.devRef .tc main_v237)) = (cmpi .slt (trgI (F := F)) (broadcastInDim S262144 ![] bcast_S_S262144 (constantI S_ 32 0#32))) := by
  unfold val4
  simp only [ops4]
  after_results_simp
  all_goals first | (simp only [val3_main_arg0, val3_main_arg1, val3_main_arg2, val3_main_arg3, val3_main_arg4, val3_main_arg5, val3_main_arg6, val3_main_arg7, val3_main_arg8, val3_main_arg9, val3_main_arg10, val3_main_arg11, val3_main_arg12, val3_main_v159, val3_main_v180, val3_main_v185, val3_main_v192, val3_main_v2, val3_main_v6, val3_main_v9] <;> rfl) | rfl

attribute [local irreducible] Host.gather Host.scatterAdd Host.reduceAdd Host.exp Host.divf in
set_option maxRecDepth 16384 in
set_option maxHeartbeats 2000000 in
theorem val4_main_v235 (V : Valuation τ sig (Elt F)) : val4 V (no_index (Proc.devRef .tc main_v235)) = (broadcastInDim S512x4x32 ![] bcast_S_S512x4x32 (constant S_ .f32 0x00000000#32)) := by
  unfold val4
  simp only [ops4]
  after_results_simp
  all_goals first | (simp only [val3_main_arg0, val3_main_arg1, val3_main_arg2, val3_main_arg3, val3_main_arg4, val3_main_arg5, val3_main_arg6, val3_main_arg7, val3_main_arg8, val3_main_arg9, val3_main_arg10, val3_main_arg11, val3_main_arg12, val3_main_v159, val3_main_v180, val3_main_v185, val3_main_v192, val3_main_v2, val3_main_v6, val3_main_v9] <;> rfl) | rfl

attribute [local irreducible] Host.gather Host.scatterAdd Host.reduceAdd Host.exp Host.divf in
set_option maxRecDepth 16384 in
set_option maxHeartbeats 2000000 in
theorem val4_main_v234 (V : Valuation τ sig (Elt F)) : val4 V (no_index (Proc.devRef .tc main_v234)) = (weightedOf (gatherH (projH (sliceB0 (layer (V (Proc.devRef .tc main_arg0)) srcI trgI (maskOf (V (Proc.devRef .tc main_arg1))) (V (Proc.devRef .tc main_arg2)) (V (Proc.devRef .tc main_arg3)) (V (Proc.devRef .tc main_arg4)) (V (Proc.devRef .tc main_arg5)) (V (Proc.devRef .tc main_arg6)) (V (Proc.devRef .tc main_arg7)))) (V (Proc.devRef .tc main_arg8))) srcI) (attnOf trgI (exOf (gatherH (projH (sliceB0 (layer (V (Proc.devRef .tc main_arg0)) srcI trgI (maskOf (V (Proc.devRef .tc main_arg1))) (V (Proc.devRef .tc main_arg2)) (V (Proc.devRef .tc main_arg3)) (V (Proc.devRef .tc main_arg4)) (V (Proc.devRef .tc main_arg5)) (V (Proc.devRef .tc main_arg6)) (V (Proc.devRef .tc main_arg7)))) (V (Proc.devRef .tc main_arg8))) srcI) (gatherH (projH (sliceB0 (layer (V (Proc.devRef .tc main_arg0)) srcI trgI (maskOf (V (Proc.devRef .tc main_arg1))) (V (Proc.devRef .tc main_arg2)) (V (Proc.devRef .tc main_arg3)) (V (Proc.devRef .tc main_arg4)) (V (Proc.devRef .tc main_arg5)) (V (Proc.devRef .tc main_arg6)) (V (Proc.devRef .tc main_arg7)))) (V (Proc.devRef .tc main_arg8))) trgI) (maskOf (V (Proc.devRef .tc main_arg1))) (edgeScore (V (Proc.devRef .tc main_arg2)) (V (Proc.devRef .tc main_arg9)) (V (Proc.devRef .tc main_arg12)) srcI trgI) (V (Proc.devRef .tc main_arg10)) (V (Proc.devRef .tc main_arg11))))) := by
  unfold val4
  simp only [ops4]
  after_results_simp
  all_goals first | (simp only [val3_main_arg0, val3_main_arg1, val3_main_arg2, val3_main_arg3, val3_main_arg4, val3_main_arg5, val3_main_arg6, val3_main_arg7, val3_main_arg8, val3_main_arg9, val3_main_arg10, val3_main_arg11, val3_main_arg12, val3_main_v159, val3_main_v180, val3_main_v185, val3_main_v192, val3_main_v2, val3_main_v6, val3_main_v9] <;> rfl) | rfl

end Cert.ReferenceIdeal.HostRun

end
-- ==== Proof.RefVal5.lean ====
/-
  The buffer contents after the reference's first 6 windows of operations, at the buffers later windows read:
  each is the stage of the reference's term that the window's operations compose, as a function of the argument arrays.
-/
import proofs.«169155_g70909910057105_cont_sun_m_1383_19_alg».proof.Proof.RefPart5
import proofs.«169155_g70909910057105_cont_sun_m_1383_19_alg».proof.Proof.RefVal4

noncomputable section

namespace Cert.ReferenceIdeal.HostRun

open Cert.ReferenceIdeal Cert.ReferenceIdeal.Gen Idealize.ShloMosaic Idealize.ShloMosaic.TcCoe Idealize.SL.Sem Idealize.ShloMosaic.StableHlo

variable {F : FTy → Type} [FloatOps F]

/-- The buffer contents after the first 6 windows. -/
def val5 (V : Valuation τ sig (Elt F)) : Valuation τ sig (Elt F) := after ops5 (val4 V)

theorem val5_main_arg0 (V : Valuation τ sig (Elt F)) : val5 V (no_index (Proc.devRef .tc main_arg0)) = V (Proc.devRef .tc main_arg0) :=
  (keep5 _ main_arg0 (by decide)).trans (val4_main_arg0 V)
theorem val5_main_arg1 (V : Valuation τ sig (Elt F)) : val5 V (no_index (Proc.devRef .tc main_arg1)) = V (Proc.devRef .tc main_arg1) :=
  (keep5 _ main_arg1 (by decide)).trans (val4_main_arg1 V)
theorem val5_main_arg2 (V : Valuation τ sig (Elt F)) : val5 V (no_index (Proc.devRef .tc main_arg2)) = V (Proc.devRef .tc main_arg2) :=
  (keep5 _ main_arg2 (by decide)).trans (val4_main_arg2 V)
theorem val5_main_arg3 (V : Valuation τ sig (Elt F)) : val5 V (no_index (Proc.devRef .tc main_arg3)) = V (Proc.devRef .tc main_arg3) :=
  (keep5 _ main_arg3 (by decide)).trans (val4_main_arg3 V)
theorem val5_main_arg4 (V : Valuation τ sig (Elt F)) : val5 V (no_index (Proc.devRef .tc main_arg4)) = V (Proc.devRef .tc main_arg4) :=
  (keep5 _ main_arg4 (by decide)).trans (val4_main_arg4 V)
theorem val5_main_arg5 (V : Valuation τ sig (Elt F)) : val5 V (no_index (Proc.devRef .tc main_arg5)) = V (Proc.devRef .tc main_arg5) :=
  (keep5 _ main_arg5 (by decide)).trans (val4_main_arg5 V)
theorem val5_main_arg6 (V : Valuation τ sig (Elt F)) : val5 V (no_index (Proc.devRef .tc main_arg6)) = V (Proc.devRef .tc main_arg6) :=
  (keep5 _ main_arg6 (by decide)).trans (val4_main_arg6 V)
theorem val5_main_arg7 (V : Valuation τ sig (Elt F)) : val5 V (no_index (Proc.devRef .tc main_arg7)) = V (Proc.devRef .tc main_arg7) :=
  (keep5 _ main_arg7 (by decide)).trans (val4_main_arg7 V)
theorem val5_main_arg8 (V : Valuation τ sig (Elt F)) : val5 V (no_index (Proc.devRef .tc main_arg8)) = V (Proc.devRef .tc main_arg8) :=
  (keep5 _ main_arg8 (by decide)).trans (val4_main_arg8 V)
theorem val5_main_arg9 (V : Valuation τ sig (Elt F)) : val5 V (no_index (Proc.devRef .tc main_arg9)) = V (Proc.devRef .tc main_arg9) :=
  (keep5 _ main_arg9 (by decide)).trans (val4_main_arg9 V)
theorem val5_main_arg10 (V : Valuation τ sig (Elt F)) : val5 V (no_index (Proc.devRef .tc main_arg10)) = V (Proc.devRef .tc main_arg10) :=
  (keep5 _ main_arg10 (by decide)).trans (val4_main_arg10 V)
theorem val5_main_arg11 (V : Valuation τ sig (Elt F)) : val5 V (no_index (Proc.devRef .tc main_arg11)) = V (Proc.devRef .tc main_arg11) :=
  (keep5 _ main_arg11 (by decide)).trans (val4_main_arg11 V)
theorem val5_main_arg12 (V : Valuation τ sig (Elt F)) : val5 V (no_index (Proc.devRef .tc main_arg12)) = V (Proc.devRef .tc main_arg12) :=
  (keep5 _ main_arg12 (by decide)).trans (val4_main_arg12 V)

theorem val5_main_v6 (V : Valuation τ sig (Elt F)) : val5 V (no_index (Proc.devRef .tc main_v6)) = trgI :=
  (keep5 _ main_v6 (by decide)).trans (val4_main_v6 V)

attribute [local irreducible] Host.gather Host.scatterAdd Host.reduceAdd Host.exp Host.divf in
set_option maxRecDepth 16384 in
set_option maxHeartbeats 2000000 in
theorem val5_main_c_71 (V : Valuation τ sig (Elt F)) : val5 V (no_index (Proc.devRef .tc main_c_71)) = (constantI S_ 32 0#32) := by
  unfold val5
  simp only [ops5]
  after_results_simp
  all_goals first | (simp only [val4_main_arg0, val4_main_arg1, val4_main_arg2, val4_main_arg3, val4_main_arg4, val4_main_arg5, val4_main_arg6, val4_main_arg7, val4_main_arg8, val4_main_arg9, val4_main_arg10, val4_main_arg11, val4_main_arg12, val4_main_c_59, val4_main_v237, val4_main_v235, val4_main_v234, val4_main_v159, val4_main_v2, val4_main_v6, val4_main_v180, val4_main_v9] <;> rfl) | rfl

attribute [local irreducible] Host.gather Host.scatterAdd Host.reduceAdd Host.exp Host.divf in
set_option maxRecDepth 16384 in
set_option maxHeartbeats 2000000 in
theorem val5_main_v285 (V : Valuation τ sig (Elt F)) : val5 V (no_index (Proc.devRef .tc main_v285)) = (denomOf trgI (exOf (gatherH (projH (sliceB1 (layer (V (Proc.devRef .tc main_arg0)) srcI trgI (maskOf (V (Proc.devRef .tc main_arg1))) (V (Proc.devRef .tc main_arg2)) (V (Proc.devRef .tc main_arg3)) (V (Proc.devRef .tc main_arg4)) (V (Proc.devRef .tc main_arg5)) (V (Proc.devRef .tc main_arg6)) (V (Proc.devRef .tc main_arg7)))) (V (Proc.devRef .tc main_arg8))) srcI) (gatherH (projH (sliceB1 (layer (V (Proc.devRef .tc main_arg0)) srcI trgI (maskOf (V (Proc.devRef .tc main_arg1))) (V (Proc.devRef .tc main_arg2)) (V (Proc.devRef .tc main_arg3)) (V (Proc.devRef .tc main_arg4)) (V (Proc.devRef .tc main_arg5)) (V (Proc.devRef .tc main_arg6)) (V (Proc.devRef .tc main_arg7)))) (V (Proc.devRef .tc main_arg8))) trgI) (maskOf (V (Proc.devRef .tc main_arg1))) (edgeScore (V (Proc.devRef .tc main_arg2)) (V (Proc.devRef .tc main_arg9)) (V (Proc.devRef .tc main_arg12)) srcI trgI) (V (Proc.devRef .tc main_arg10)) (V (Proc.devRef .tc main_arg11)))) := by
  unfold val5
  simp only [ops5]
  after_results_simp
  all_goals first | (simp only [val4_main_arg0, val4_main_arg1, val4_main_arg2, val4_main_arg3, val4_main_arg4, val4_main_arg5, val4_main_arg6, val4_main_arg7, val4_main_arg8, val4_main_arg9, val4_main_arg10, val4_main_arg11, val4_main_arg12, val4_main_c_59, val4_main_v237, val4_main_v235, val4_main_v234, val4_main_v159, val4_main_v2, val4_main_v6, val4_main_v180, val4_main_v9] <;> rfl) | rfl

attribute [local irreducible] Host.gather Host.scatterAdd Host.reduceAdd Host.exp Host.divf in
set_option maxRecDepth 16384 in
set_option maxHeartbeats 2000000 in
theorem val5_main_v277 (V : Valuation τ sig (Elt F)) : val5 V (no_index (Proc.devRef .tc main_v277)) = (exOf (gatherH (projH (sliceB1 (layer (V (Proc.devRef .tc main_arg0)) srcI trgI (maskOf (V (Proc.devRef .tc main_arg1))) (V (Proc.devRef .tc main_arg2)) (V (Proc.devRef .tc main_arg3)) (V (Proc.devRef .tc main_arg4)) (V (Proc.devRef .tc main_arg5)) (V (Proc.devRef .tc main_arg6)) (V (Proc.devRef .tc main_arg7)))) (V (Proc.devRef .tc main_arg8))) srcI) (gatherH (projH (sliceB1 (layer (V (Proc.devRef .tc main_arg0)) srcI trgI (maskOf (V (Proc.devRef .tc main_arg1))) (V (Proc.devRef .tc main_arg2)) (V (Proc.devRef .tc main_arg3)) (V (Proc.devRef .tc main_arg4)) (V (Proc.devRef .tc main_arg5)) (V (Proc.devRef .tc main_arg6)) (V (Proc.devRef .tc main_arg7)))) (V (Proc.devRef .tc main_arg8))) trgI) (maskOf (V (Proc.devRef .tc main_arg1))) (edgeScore (V (Proc.devRef .tc main_arg2)) (V (Proc.devRef .tc main_arg9)) (V (Proc.devRef .tc main_arg12)) srcI trgI) (V (Proc.devRef .tc main_arg10)) (V (Proc.devRef .tc main_arg11))) := by
  unfold val5
  simp only [ops5]
  after_results_simp
  all_goals first | (simp only [val4_main_arg0, val4_main_arg1, val4_main_arg2, val4_main_arg3, val4_main_arg4, val4_main_arg5, val4_main_arg6, val4_main_arg7, val4_main_arg8, val4_main_arg9, val4_main_arg10, val4_main_arg11, val4_main_arg12, val4_main_c_59, val4_main_v237, val4_main_v235, val4_main_v234, val4_main_v159, val4_main_v2, val4_main_v6, val4_main_v180, val4_main_v9] <;> rfl) | rfl

attribute [local irreducible] Host.gather Host.scatterAdd Host.reduceAdd Host.exp Host.divf in
set_option maxRecDepth 16384 in
set_option maxHeartbeats 2000000 in
theorem val5_main_v256 (V : Valuation τ sig (Elt F)) : val5 V (no_index (Proc.devRef .tc main_v256)) = (gatherH (projH (sliceB1 (layer (V (Proc.devRef .tc main_arg0)) srcI trgI (maskOf (V (Proc.devRef .tc main_arg1))) (V (Proc.devRef .tc main_arg2)) (V (Proc.devRef .tc main_arg3)) (V (Proc.devRef .tc main_arg4)) (V (Proc.devRef .tc main_arg5)) (V (Proc.devRef .tc main_arg6)) (V (Proc.devRef .tc main_arg7)))) (V (Proc.devRef .tc main_arg8))) srcI) := by
  unfold val5
  simp only [ops5]
  after_results_simp
  all_goals first | (simp only [val4_main_arg0, val4_main_arg1, val4_main_arg2, val4_main_arg3, val4_main_arg4, val4_main_arg5, val4_main_arg6, val4_main_arg7, val4_main_arg8, val4_main_arg9, val4_main_arg10, val4_main_arg11, val4_main_arg12, val4_main_c_59, val4_main_v237, val4_main_v235, val4_main_v234, val4_main_v159, val4_main_v2, val4_main_v6, val4_main_v180, val4_main_v9] <;> rfl) | rfl

attribute [local irreducible] Host.gather Host.scatterAdd Host.reduceAdd Host.exp Host.divf in
set_option maxRecDepth 16384 in
set_option maxHeartbeats 2000000 in
theorem val5_main_v244 (V : Valuation τ sig (Elt F)) : val5 V (no_index (Proc.devRef .tc main_v244)) = (batchFromH (projH (sliceB0 (layer (V (Proc.devRef .tc main_arg0)) srcI trgI (maskOf (V (Proc.devRef .tc main_arg1))) (V (Proc.devRef .tc main_arg2)) (V (Proc.devRef .tc main_arg3)) (V (Proc.devRef .tc main_arg4)) (V (Proc.devRef .tc main_arg5)) (V (Proc.devRef .tc main_arg6)) (V (Proc.devRef .tc main_arg7)))) (V (Proc.devRef .tc main_arg8))) srcI trgI (maskOf (V (Proc.devRef .tc main_arg1))) (edgeScore (V (Proc.devRef .tc main_arg2)) (V (Proc.devRef .tc main_arg9)) (V (Proc.devRef .tc main_arg12)) srcI trgI) (V (Proc.devRef .tc main_arg10)) (V (Proc.devRef .tc main_arg11))) := by
  unfold val5
  simp only [ops5]
  after_results_simp
  all_goals first | (simp only [val4_main_arg0, val4_main_arg1, val4_main_arg2, val4_main_arg3, val4_main_arg4, val4_main_arg5, val4_main_arg6, val4_main_arg7, val4_main_arg8, val4_main_arg9, val4_main_arg10, val4_main_arg11, val4_main_arg12, val4_main_c_59, val4_main_v237, val4_main_v235, val4_main_v234, val4_main_v159, val4_main_v2, val4_main_v6, val4_main_v180, val4_main_v9] <;> rfl) | rfl

end Cert.ReferenceIdeal.HostRun

end
-- ==== Proof.RefVal6.lean ====
/-
  The buffer contents after the reference's first 7 windows of operations, at the buffers later windows read:
  each is the stage of the reference's term that the window's operations compose, as a function of the argument arrays.
-/
import proofs.«169155_g70909910057105_cont_sun_m_1383_19_alg».proof.Proof.RefPart6
import proofs.«169155_g70909910057105_cont_sun_m_1383_19_alg».proof.Proof.RefVal5

noncomputable section

namespace Cert.ReferenceIdeal.HostRun

open Cert.ReferenceIdeal Cert.ReferenceIdeal.Gen Idealize.ShloMosaic Idealize.ShloMosaic.TcCoe Idealize.SL.Sem Idealize.ShloMosaic.StableHlo

variable {F : FTy → Type} [FloatOps F]

/-- The buffer contents after the first 7 windows. -/
def val6 (V : Valuation τ sig (Elt F)) : Valuation τ sig (Elt F) := after ops6 (val5 V)

/-- The window's operations with each joining of two arrays applied by name, its two operands plain arguments. -/
abbrev ops6' : List (HloOp τ sig (Elt F)) :=
  [ StableHlo.unary main_c_71 main_v286 (broadcastInDim S262144 ![] bcast_S_S262144 : (⟨S_, .i32⟩ : BufTy).Contents (Elt F) → (⟨S262144, .i32⟩ : BufTy).Contents (Elt F)),
    StableHlo.binary main_v6 main_v286 main_v287 (cmpi .slt : (⟨S262144, .i32⟩ : BufTy).Contents (Elt F) → (⟨S262144, .i32⟩ : BufTy).Contents (Elt F) → (⟨S262144, .i1⟩ : BufTy).Contents (Elt F)),
    StableHlo.nullary main_c_72 (constantI S_ 32 512#32),
    StableHlo.unary main_c_72 main_v288 (broadcastInDim S262144 ![] bcast_S_S262144 : (⟨S_, .i32⟩ : BufTy).Contents (Elt F) → (⟨S262144, .i32⟩ : BufTy).Contents (Elt F)),
    StableHlo.binary main_v6 main_v288 main_v289 (addi : (⟨S262144, .i32⟩ : BufTy).Contents (Elt F) → (⟨S262144, .i32⟩ : BufTy).Contents (Elt F) → (⟨S262144, .i32⟩ : BufTy).Contents (Elt F)),
    StableHlo.ternary main_v287 main_v289 main_v6 main_v290 (select : (⟨S262144, .i1⟩ : BufTy).Contents (Elt F) → (⟨S262144, .i32⟩ : BufTy).Contents (Elt F) → (⟨S262144, .i32⟩ : BufTy).Contents (Elt F) → (⟨S262144, .i32⟩ : BufTy).Contents (Elt F)),
    StableHlo.unary main_v290 main_v291 (broadcastInDim S262144x1 ![0] bcast_S262144_S262144x1_0 : (⟨S262144, .i32⟩ : BufTy).Contents (Elt F) → (⟨S262144x1, .i32⟩ : BufTy).Contents (Elt F)),
    StableHlo.binary main_v285 main_v291 main_v292 ((fun x i => Host.gather gather_S512x4_S262144x1_S262144x4_1_0_n_n_0_1_14 x i) : (⟨S512x4, .f32⟩ : BufTy).Contents (Elt F) → (⟨S262144x1, .i32⟩ : BufTy).Contents (Elt F) → (⟨S262144x4, .f32⟩ : BufTy).Contents (Elt F)),
    StableHlo.nullary main_cst_73 (constant S_ .f32 0x24E69595#32),
    StableHlo.unary main_cst_73 main_v293 (broadcastInDim S262144x4 ![] bcast_S_S262144x4 : (⟨S_, .f32⟩ : BufTy).Contents (Elt F) → (⟨S262144x4, .f32⟩ : BufTy).Contents (Elt F)),
    StableHlo.binary main_v292 main_v293 main_v294 (addf : (⟨S262144x4, .f32⟩ : BufTy).Contents (Elt F) → (⟨S262144x4, .f32⟩ : BufTy).Contents (Elt F) → (⟨S262144x4, .f32⟩ : BufTy).Contents (Elt F)),
    StableHlo.binary main_v277 main_v294 main_v295 (Host.divf : (⟨S262144x4, .f32⟩ : BufTy).Contents (Elt F) → (⟨S262144x4, .f32⟩ : BufTy).Contents (Elt F) → (⟨S262144x4, .f32⟩ : BufTy).Contents (Elt F)),
    StableHlo.unary main_v295 main_v296 (broadcastInDim S262144x4x1 ![0, 1] bcast_S262144x4_S262144x4x1_0_1 : (⟨S262144x4, .f32⟩ : BufTy).Contents (Elt F) → (⟨S262144x4x1, .f32⟩ : BufTy).Contents (Elt F)),
    StableHlo.unary main_v296 main_v297 (broadcastInDim S262144x4x32 ![0, 1, 2] bcast_S262144x4x1_S262144x4x32_0_1_2 : (⟨S262144x4x1, .f32⟩ : BufTy).Contents (Elt F) → (⟨S262144x4x32, .f32⟩ : BufTy).Contents (Elt F)),
    StableHlo.binary main_v256 main_v297 main_v298 (mulf : (⟨S262144x4x32, .f32⟩ : BufTy).Contents (Elt F) → (⟨S262144x4x32, .f32⟩ : BufTy).Contents (Elt F) → (⟨S262144x4x32, .f32⟩ : BufTy).Contents (Elt F)),
    StableHlo.nullary main_cst_74 (constant S_ .f32 0x00000000#32),
    StableHlo.unary main_cst_74 main_v299 (broadcastInDim S512x4x32 ![] bcast_S_S512x4x32 : (⟨S_, .f32⟩ : BufTy).Contents (Elt F) → (⟨S512x4x32, .f32⟩ : BufTy).Contents (Elt F)),
    StableHlo.nullary main_c_75 (constantI S_ 32 0#32),
    StableHlo.unary main_c_75 main_v300 (broadcastInDim S262144 ![] bcast_S_S262144 : (⟨S_, .i32⟩ : BufTy).Contents (Elt F) → (⟨S262144, .i32⟩ : BufTy).Contents (Elt F)),
    StableHlo.binary main_v6 main_v300 main_v301 (cmpi .slt : (⟨S262144, .i32⟩ : BufTy).Contents (Elt F) → (⟨S262144, .i32⟩ : BufTy).Contents (Elt F) → (⟨S262144, .i1⟩ : BufTy).Contents (Elt F)),
    StableHlo.nullary main_c_76 (constantI S_ 32 512#32),
    StableHlo.unary main_c_76 main_v302 (broadcastInDim S262144 ![] bcast_S_S262144 : (⟨S_, .i32⟩ : BufTy).Contents (Elt F) → (⟨S262144, .i32⟩ : BufTy).Contents (Elt F)),
    StableHlo.binary main_v6 main_v302 main_v303 (addi : (⟨S262144, .i32⟩ : BufTy).Contents (Elt F) → (⟨S262144, .i32⟩ : BufTy).Contents (Elt F) → (⟨S262144, .i32⟩ : BufTy).Contents (Elt F)),
    StableHlo.ternary main_v301 main_v303 main_v6 main_v304 (select : (⟨S262144, .i1⟩ : BufTy).Contents (Elt F) → (⟨S262144, .i32⟩ : BufTy).Contents (Elt F) → (⟨S262144, .i32⟩ : BufTy).Contents (Elt F) → (⟨S262144, .i32⟩ : BufTy).Contents (Elt F)),
    StableHlo.unary main_v304 main_v305 (broadcastInDim S262144x1 ![0] bcast_S262144_S262144x1_0 : (⟨S262144, .i32⟩ : BufTy).Contents (Elt F) → (⟨S262144x1, .i32⟩ : BufTy).Contents (Elt F)),
    StableHlo.ternary main_v299 main_v305 main_v298 main_v306 ((fun x i u => Host.scatterAdd scatter_S512x4x32_S262144x1_S262144x4x32_12_0_0_1 x i u) : (⟨S512x4x32, .f32⟩ : BufTy).Contents (Elt F) → (⟨S262144x1, .i32⟩ : BufTy).Contents (Elt F) → (⟨S262144x4x32, .f32⟩ : BufTy).Contents (Elt F) → (⟨S512x4x32, .f32⟩ : BufTy).Contents (Elt F)),
    StableHlo.reshape main_v306 main_v307 rfl shapeCasts_S512x4x32_S512x128,
    StableHlo.unary main_v307 main_v308 (broadcastInDim S512x1x128 ![0, 2] bcast_S512x128_S512x1x128_0_2 : (⟨S512x128, .f32⟩ : BufTy).Contents (Elt F) → (⟨S512x1x128, .f32⟩ : BufTy).Contents (Elt F)),
    StableHlo.binary main_v244 main_v308 main_v309 (catOut : (⟨S512x1x128, .f32⟩ : BufTy).Contents (Elt F) → (⟨S512x1x128, .f32⟩ : BufTy).Contents (Elt F) → (⟨S512x2x128, .f32⟩ : BufTy).Contents (Elt F)) ]

set_option maxRecDepth 16384 in
theorem ops6_eq : (ops6 : List (HloOp τ sig (Elt F))) = ops6' := rfl

theorem val6_main_arg0 (V : Valuation τ sig (Elt F)) : val6 V (no_index (Proc.devRef .tc main_arg0)) = V (Proc.devRef .tc main_arg0) :=
  (keep6 _ main_arg0 (by decide)).trans (val5_main_arg0 V)
theorem val6_main_arg1 (V : Valuation τ sig (Elt F)) : val6 V (no_index (Proc.devRef .tc main_arg1)) = V (Proc.devRef .tc main_arg1) :=
  (keep6 _ main_arg1 (by decide)).trans (val5_main_arg1 V)
theorem val6_main_arg2 (V : Valuation τ sig (Elt F)) : val6 V (no_index (Proc.devRef .tc main_arg2)) = V (Proc.devRef .tc main_arg2) :=
  (keep6 _ main_arg2 (by decide)).trans (val5_main_arg2 V)
theorem val6_main_arg3 (V : Valuation τ sig (Elt F)) : val6 V (no_index (Proc.devRef .tc main_arg3)) = V (Proc.devRef .tc main_arg3) :=
  (keep6 _ main_arg3 (by decide)).trans (val5_main_arg3 V)
theorem val6_main_arg4 (V : Valuation τ sig (Elt F)) : val6 V (no_index (Proc.devRef .tc main_arg4)) = V (Proc.devRef .tc main_arg4) :=
  (keep6 _ main_arg4 (by decide)).trans (val5_main_arg4 V)
theorem val6_main_arg5 (V : Valuation τ sig (Elt F)) : val6 V (no_index (Proc.devRef .tc main_arg5)) = V (Proc.devRef .tc main_arg5) :=
  (keep6 _ main_arg5 (by decide)).trans (val5_main_arg5 V)
theorem val6_main_arg6 (V : Valuation τ sig (Elt F)) : val6 V (no_index (Proc.devRef .tc main_arg6)) = V (Proc.devRef .tc main_arg6) :=
  (keep6 _ main_arg6 (by decide)).trans (val5_main_arg6 V)
theorem val6_main_arg7 (V : Valuation τ sig (Elt F)) : val6 V (no_index (Proc.devRef .tc main_arg7)) = V (Proc.devRef .tc main_arg7) :=
  (keep6 _ main_arg7 (by decide)).trans (val5_main_arg7 V)
theorem val6_main_arg8 (V : Valuation τ sig (Elt F)) : val6 V (no_index (Proc.devRef .tc main_arg8)) = V (Proc.devRef .tc main_arg8) :=
  (keep6 _ main_arg8 (by decide)).trans (val5_main_arg8 V)
theorem val6_main_arg9 (V : Valuation τ sig (Elt F)) : val6 V (no_index (Proc.devRef .tc main_arg9)) = V (Proc.devRef .tc main_arg9) :=
  (keep6 _ main_arg9 (by decide)).trans (val5_main_arg9 V)
theorem val6_main_arg10 (V : Valuation τ sig (Elt F)) : val6 V (no_index (Proc.devRef .tc main_arg10)) = V (Proc.devRef .tc main_arg10) :=
  (keep6 _ main_arg10 (by decide)).trans (val5_main_arg10 V)
theorem val6_main_arg11 (V : Valuation τ sig (Elt F)) : val6 V (no_index (Proc.devRef .tc main_arg11)) = V (Proc.devRef .tc main_arg11) :=
  (keep6 _ main_arg11 (by decide)).trans (val5_main_arg11 V)
theorem val6_main_arg12 (V : Valuation τ sig (Elt F)) : val6 V (no_index (Proc.devRef .tc main_arg12)) = V (Proc.devRef .tc main_arg12) :=
  (keep6 _ main_arg12 (by decide)).trans (val5_main_arg12 V)

attribute [local irreducible] Host.gather Host.scatterAdd Host.reduceAdd Host.exp Host.divf in
set_option maxRecDepth 16384 in
set_option maxHeartbeats 2000000 in
theorem val6_main_v309 (V : Valuation τ sig (Elt F)) : val6 V (no_index (Proc.devRef .tc main_v309)) = (refTerm (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) (V (Proc.devRef .tc main_arg11)) (V (Proc.devRef .tc main_arg12))) := by
  unfold val6
  simp only [ops6_eq]
  simp only [ops6']
  after_results_simp
  all_goals first | (simp only [val5_main_arg0, val5_main_arg1, val5_main_arg2, val5_main_arg3, val5_main_arg4, val5_main_arg5, val5_main_arg6, val5_main_arg7, val5_main_arg8, val5_main_arg9, val5_main_arg10, val5_main_arg11, val5_main_arg12, val5_main_c_71, val5_main_v285, val5_main_v277, val5_main_v256, val5_main_v244, val5_main_v6] <;> rfl) | rfl

end Cert.ReferenceIdeal.HostRun

end
-- ==== Proof.RefTerm.lean ====
/-
  The reference's run, read back: after all of its operations the result buffer holds the reference's term of the thirteen
  argument arrays — the second attention layer applied to the first — whatever the other buffers held at the start.
-/
import proofs.«169155_g70909910057105_cont_sun_m_1383_19_alg».proof.Proof.RefVal6
import proofs.«169155_g70909910057105_cont_sun_m_1383_19_alg».proof.Proof.RefFrame

noncomputable section

namespace Cert.ReferenceIdeal.HostRun

open Cert.ReferenceIdeal Cert.ReferenceIdeal.Gen Idealize.ShloMosaic Idealize.ShloMosaic.TcCoe Idealize.SL.Sem Idealize.ShloMosaic.StableHlo

variable {F : FTy → Type} [FloatOps F]

/-- The whole line of operations is its seven windows in turn. -/
theorem after_ops (V : Valuation τ sig (Elt F)) : after ops V = val6 V := by
  simp only [ops, after_append]
  rfl

/-- The result buffer after the run: the reference's term of the arguments' contents. -/
theorem after_ops_result (V : Valuation τ sig (Elt F)) :
    after ops V (Proc.devRef .tc main_v309) = refTerm (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) (V (Proc.devRef .tc main_arg11)) (V (Proc.devRef .tc main_arg12)) := by
  rw [after_ops]
  exact val6_main_v309 V

end Cert.ReferenceIdeal.HostRun

end
-- ==== Proof.RefReadIdx.lean ====
/-
  The reference's edge list as index arithmetic. Edge number s * 512 + t of the dense list has source s and target t;
  its mask bit is the adjacency entry's being nonzero; and the wrap every gather and scatter applies to an index vector
  (512 added to a negative entry) leaves a node number as it is.
-/
import proofs.«169155_g70909910057105_cont_sun_m_1383_19_alg».proof.Proof.RefStages
import Idealize.ShloMosaic.Lib.IdealHost
import Idealize.ShloMosaic.Lib.Pipeline.Value
import Idealize.ShloMosaic.Lib.ValueLayout

noncomputable section

namespace Cert.ReferenceIdeal.HostRun

open Cert.ReferenceIdeal Cert.ReferenceIdeal.Gen Idealize.ShloMosaic Idealize.ShloMosaic.TcCoe Idealize.SL.Sem Idealize.ShloMosaic.StableHlo

variable {F : FTy → Type} [FloatOps F]

open Idealize.ShloMosaic.ValueIdx

/-- The number of the edge from s to t in the dense list. -/
def edge (s t : Fin 512) : Fin 262144 := ⟨s.val * 512 + t.val, by omega⟩

/-- Every edge number is that of its source and target. -/
theorem edge_div_mod (e : Fin 262144) : edge ⟨e.val / 512, by omega⟩ ⟨e.val % 512, Nat.mod_lt _ (by decide)⟩ = e :=
  Fin.ext (Nat.div_add_mod' e.val 512)

/-- The source of edge s * 512 + t is s. -/
theorem srcI_apply (s t : Fin 512) : (srcI (F := F)) (ix1 (edge s t)) = BitVec.ofNat 32 s.val := by
  unfold srcI
  rw [shapeCast_apply _ _ (ix1 (edge s t)) (ix2 s t) (by rw [Shape.rowMajor_val_two, Shape.rowMajor_val_one]; rfl)]
  rw [broadcastInDim_apply _ _ _ (ix2 s t) (ix1 s) (by intro a; obtain rfl : a = 0 := Subsingleton.elim _ _; rfl)]
  rfl

/-- The target of edge s * 512 + t is t. -/
theorem trgI_apply (s t : Fin 512) : (trgI (F := F)) (ix1 (edge s t)) = BitVec.ofNat 32 t.val := by
  unfold trgI
  rw [shapeCast_apply _ _ (ix1 (edge s t)) (ix2 s t) (by rw [Shape.rowMajor_val_two, Shape.rowMajor_val_one]; rfl)]
  rw [broadcastInDim_apply _ _ _ (ix2 s t) (ix2 (0 : Fin 1) t) (by
    intro a
    match a with
    | ⟨0, _⟩ => rfl
    | ⟨1, _⟩ => rfl)]
  rw [shapeCast_apply _ _ (ix2 (0 : Fin 1) t) (ix1 t) (by
    rw [Shape.rowMajor_val_two, Shape.rowMajor_val_one]
    show t.val = 0 * 512 + t.val
    rw [Nat.zero_mul, Nat.zero_add])]
  rfl

/-- The mask bit of edge s * 512 + t: the adjacency entry at (s, t) is not zero. -/
theorem maskOf_apply (adj : Arr F S512x512 .i32) (s t : Fin 512) :
    maskOf adj (ix1 (edge s t)) = IntOp.cmpi .ne (adj (ix2 s t)) 0#32 := by
  unfold maskOf
  show IntOp.cmpi .ne (shapeCast S262144 adj shapeCasts_S512x512_S262144 (ix1 (edge s t))) 0#32 = _
  rw [shapeCast_apply _ _ (ix1 (edge s t)) (ix2 s t) (by rw [Shape.rowMajor_val_two, Shape.rowMajor_val_one]; rfl)]

/-- The wrap at an entry: 512 added where the entry is negative. -/
theorem wrapIdx_apply (i : Arr F S262144 .i32) (e : S262144.Idx) :
    wrapIdx i e = Scalar.select (IntOp.cmpi .slt (i e) 0#32) (IntOp.addi (i e) 512#32) (i e) := rfl

/-- A node number is not negative: the wrap leaves it. -/
theorem wrap_node (n : Fin 512) :
    Scalar.select (IntOp.cmpi .slt (BitVec.ofNat 32 n.val) 0#32) (IntOp.addi (BitVec.ofNat 32 n.val) 512#32) (BitVec.ofNat 32 n.val)
      = BitVec.ofNat 32 n.val := by
  have h : ∀ n : Fin 512, IntOp.cmpi .slt (BitVec.ofNat 32 n.val) 0#32 = 0#1 := by decide
  rw [h n, select_zero]

/-- The wrapped source of an edge is its source. -/
theorem wrapIdx_srcI (s t : Fin 512) : wrapIdx (srcI (F := F)) (ix1 (edge s t)) = BitVec.ofNat 32 s.val := by
  rw [wrapIdx_apply, srcI_apply, wrap_node]

/-- The wrapped target of an edge is its target. -/
theorem wrapIdx_trgI (s t : Fin 512) : wrapIdx (trgI (F := F)) (ix1 (edge s t)) = BitVec.ofNat 32 t.val := by
  rw [wrapIdx_apply, trgI_apply, wrap_node]

/-- The one-column index table reads the wrapped vector. -/
theorem colIdx_apply (i : Arr F S262144 .i32) (e : Fin 262144) (z : Fin 1) :
    colIdx i (ix2 e z) = wrapIdx i (ix1 e) := by
  unfold colIdx
  exact broadcastInDim_apply _ _ _ (ix2 e z) (ix1 e) (by intro a; obtain rfl : a = 0 := Subsingleton.elim _ _; rfl)

/-- A node number read back as a signed integer and clamped to the node range is the node. -/
theorem clamp_node (n : Fin 512) : min (BitVec.ofNat 32 n.val).toInt.toNat 511 = n.val := by
  have h : ∀ n : Fin 512, min (BitVec.ofNat 32 n.val).toInt.toNat 511 = n.val := by decide
  exact h n

end Cert.ReferenceIdeal.HostRun

end
-- ==== Proof.RefReadGather.lean ====
/-
  The reference's gathers at an index. A row gather reads, at edge e, the operand's row numbered by the wrapped index
  vector's entry e, read as a signed integer and clamped into the 512 rows; the other coordinates pass through.
-/
import proofs.«169155_g70909910057105_cont_sun_m_1383_19_alg».proof.Proof.RefReadIdx

noncomputable section

namespace Cert.ReferenceIdeal.HostRun

open Cert.ReferenceIdeal Cert.ReferenceIdeal.Gen Idealize.ShloMosaic Idealize.ShloMosaic.TcCoe Idealize.SL.Sem Idealize.ShloMosaic.StableHlo

variable {F : FTy → Type} [FloatOps F]

open Idealize.ShloMosaic.ValueIdx

/-- The projected features gathered at an index vector, at edge e, head q, lane c: the features of the node the
    wrapped entry e names. -/
theorem gatherH_apply (h : Arr F S512x4x32 .f32) (i : Arr F S262144 .i32) (e : Fin 262144) (q : Fin 4) (c : Fin 32) :
    gatherH h i (ix3 e q c) = h (ix3 (⟨min (wrapIdx i (ix1 e)).toInt.toNat 511, by omega⟩ : Fin 512) q c) := by
  unfold gatherH Host.gather
  refine congrArg h (funext fun a => Fin.ext ?_)
  match a with
  | ⟨0, _⟩ =>
    show gather_S512x4x32_S262144x1_S262144x4x32_12_0_n_n_0_1_1432.start (ix3 e q c) (colIdx i) 0 + gather_S512x4x32_S262144x1_S262144x4x32_12_0_n_n_0_1_1432.batchCoord (ix3 e q c) 0 + gather_S512x4x32_S262144x1_S262144x4x32_12_0_n_n_0_1_1432.offCoord (ix3 e q c) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 3) ∈ gather_S512x4x32_S262144x1_S262144x4x32_12_0_n_n_0_1_1432.startIndexMap from List.mem_singleton.mpr rfl)]
    have hsi : gather_S512x4x32_S262144x1_S262144x4x32_12_0_n_n_0_1_1432.siIdx (ix3 e q c) ⟨List.idxOf (0 : Fin 3) gather_S512x4x32_S262144x1_S262144x4x32_12_0_n_n_0_1_1432.startIndexMap,
        List.idxOf_lt_length_iff.2 (List.mem_singleton.mpr rfl)⟩ = ix2 e (0 : Fin 1) := by
      funext b; refine Fin.ext ?_
      match b with
      | ⟨0, _⟩ => rfl
      | ⟨1, _⟩ => rfl
    rw [hsi, colIdx_apply]
    rfl
  | ⟨1, _⟩ =>
    show gather_S512x4x32_S262144x1_S262144x4x32_12_0_n_n_0_1_1432.start (ix3 e q c) (colIdx i) 1 + gather_S512x4x32_S262144x1_S262144x4x32_12_0_n_n_0_1_1432.batchCoord (ix3 e q c) 1 + gather_S512x4x32_S262144x1_S262144x4x32_12_0_n_n_0_1_1432.offCoord (ix3 e q c) 1 = q.val
    rw [GatherDims.batchCoord_eq_zero _ _ _ List.not_mem_nil]
    unfold GatherDims.start GatherDims.offCoord
    rw [dif_neg (by decide), dif_pos (by decide)]
    simp only [Nat.add_zero, Nat.zero_add]
    rfl
  | ⟨2, _⟩ =>
    show gather_S512x4x32_S262144x1_S262144x4x32_12_0_n_n_0_1_1432.start (ix3 e q c) (colIdx i) 2 + gather_S512x4x32_S262144x1_S262144x4x32_12_0_n_n_0_1_1432.batchCoord (ix3 e q c) 2 + gather_S512x4x32_S262144x1_S262144x4x32_12_0_n_n_0_1_1432.offCoord (ix3 e q c) 2 = c.val
    rw [GatherDims.batchCoord_eq_zero _ _ _ List.not_mem_nil]
    unfold GatherDims.start GatherDims.offCoord
    rw [dif_neg (by decide), dif_pos (by decide)]
    simp only [Nat.add_zero, Nat.zero_add]
    rfl

/-- The denominators read back at edge e, head q: the denominator of the node the wrapped entry e names. -/
theorem denomAt_apply (t : Arr F S262144 .i32) (ex : Arr F S262144x4 .f32) (e : Fin 262144) (q : Fin 4) :
    denomAt t ex (ix2 e q) = denomOf t ex (ix2 (⟨min (wrapIdx t (ix1 e)).toInt.toNat 511, by omega⟩ : Fin 512) q) := by
  unfold denomAt Host.gather
  refine congrArg (denomOf t ex) (funext fun a => Fin.ext ?_)
  match a with
  | ⟨0, _⟩ =>
    show gather_S512x4_S262144x1_S262144x4_1_0_n_n_0_1_14.start (ix2 e q) (colIdx t) 0 + gather_S512x4_S262144x1_S262144x4_1_0_n_n_0_1_14.batchCoord (ix2 e q) 0 + gather_S512x4_S262144x1_S262144x4_1_0_n_n_0_1_14.offCoord (ix2 e q) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ gather_S512x4_S262144x1_S262144x4_1_0_n_n_0_1_14.startIndexMap from List.mem_singleton.mpr rfl)]
    have hsi : gather_S512x4_S262144x1_S262144x4_1_0_n_n_0_1_14.siIdx (ix2 e q) ⟨List.idxOf (0 : Fin 2) gather_S512x4_S262144x1_S262144x4_1_0_n_n_0_1_14.startIndexMap,
        List.idxOf_lt_length_iff.2 (List.mem_singleton.mpr rfl)⟩ = ix2 e (0 : Fin 1) := by
      funext b; refine Fin.ext ?_
      match b with
      | ⟨0, _⟩ => rfl
      | ⟨1, _⟩ => rfl
    rw [hsi, colIdx_apply]
    rfl
  | ⟨1, _⟩ =>
    show gather_S512x4_S262144x1_S262144x4_1_0_n_n_0_1_14.start (ix2 e q) (colIdx t) 1 + gather_S512x4_S262144x1_S262144x4_1_0_n_n_0_1_14.batchCoord (ix2 e q) 1 + gather_S512x4_S262144x1_S262144x4_1_0_n_n_0_1_14.offCoord (ix2 e q) 1 = q.val
    rw [GatherDims.batchCoord_eq_zero _ _ _ List.not_mem_nil]
    unfold GatherDims.start GatherDims.offCoord
    rw [dif_neg (by decide), dif_pos (by decide)]
    simp only [Nat.add_zero, Nat.zero_add]
    rfl

/-- The first column of the two-column index table: the wrapped sources. -/
theorem pairIdx_apply_src (s t : Arr F S262144 .i32) (e : Fin 262144) :
    pairIdx s t (ix2 e (0 : Fin 2)) = wrapIdx s (ix1 e) := by
  unfold pairIdx catPair
  rw [concatenate_pair_apply_left (s₁ := S262144x1) (s₂ := S262144x1) _ _ _ _ (ix2 e (0 : Fin 2)) rfl (ix2 e (0 : Fin 1)) (by
    intro b
    match b with
    | ⟨0, _⟩ => rfl
    | ⟨1, _⟩ => rfl)]
  exact colIdx_apply s e 0

/-- Its second column: the wrapped targets. -/
theorem pairIdx_apply_trg (s t : Arr F S262144 .i32) (e : Fin 262144) :
    pairIdx s t (ix2 e (1 : Fin 2)) = wrapIdx t (ix1 e) := by
  unfold pairIdx catPair
  rw [concatenate_pair_apply_right (s₁ := S262144x1) (s₂ := S262144x1) _ _ _ _ (ix2 e (1 : Fin 2)) rfl rfl (ix2 e (0 : Fin 1)) (by
    intro b hb
    match b with
    | ⟨0, _⟩ => rfl
    | ⟨1, _⟩ => exact absurd rfl hb) rfl]
  exact colIdx_apply t e 0

/-- The edge features gathered at the two-column table, at edge e, feature k: the features of the pair of nodes the
    wrapped entries e of the two index vectors name. -/
theorem gatherE_apply (E : Arr F S512x512x128 .f32) (s t : Arr F S262144 .i32) (e : Fin 262144) (k : Fin 128) :
    Host.gather gather_S512x512x128_S262144x2_S262144x128_1_01_n_n_01_1_11128 E (pairIdx s t) (ix2 e k)
      = E (ix3 (⟨min (wrapIdx s (ix1 e)).toInt.toNat 511, by omega⟩ : Fin 512)
          (⟨min (wrapIdx t (ix1 e)).toInt.toNat 511, by omega⟩ : Fin 512) k) := by
  unfold Host.gather
  refine congrArg E (funext fun a => Fin.ext ?_)
  match a with
  | ⟨0, _⟩ =>
    show gather_S512x512x128_S262144x2_S262144x128_1_01_n_n_01_1_11128.start (ix2 e k) (pairIdx s t) 0 + gather_S512x512x128_S262144x2_S262144x128_1_01_n_n_01_1_11128.batchCoord (ix2 e k) 0 + gather_S512x512x128_S262144x2_S262144x128_1_01_n_n_01_1_11128.offCoord (ix2 e k) 0 = _
    rw [GatherDims.batchCoord_eq_zero _ _ _ List.not_mem_nil,
      GatherDims.offCoord_eq_zero _ _ _ (fun h => ((GatherDims.mem_sKept _ _).mp h).1 (by decide))]
    simp only [Nat.add_zero]
    unfold GatherDims.start
    rw [dif_pos (show (0 : Fin 3) ∈ gather_S512x512x128_S262144x2_S262144x128_1_01_n_n_01_1_11128.startIndexMap from by decide)]
    have hsi : gather_S512x512x128_S262144x2_S262144x128_1_01_n_n_01_1_11128.siIdx (ix2 e k) ⟨List.idxOf (0 : Fin 3) gather_S512x512x128_S262144x2_S262144x128_1_01_n_n_01_1_11128.startIndexMap,
        List.idxOf_lt_length_iff.2 (by decide)⟩ = ix2 e (0 : Fin 2) := by
      funext b; refine Fin.ext ?_
      match b with
      | ⟨0, _⟩ => rfl
      | ⟨1, _⟩ => rfl
    rw [hsi, pairIdx_apply_src]
    rfl
  | ⟨1, _⟩ =>
    show gather_S512x512x128_S262144x2_S262144x128_1_01_n_n_01_1_11128.start (ix2 e k) (pairIdx s t) 1 + gather_S512x512x128_S262144x2_S262144x128_1_01_n_n_01_1_11128.batchCoord (ix2 e k) 1 + gather_S512x512x128_S262144x2_S262144x128_1_01_n_n_01_1_11128.offCoord (ix2 e k) 1 = _
    rw [GatherDims.batchCoord_eq_zero _ _ _ List.not_mem_nil,
      GatherDims.offCoord_eq_zero _ _ _ (fun h => ((GatherDims.mem_sKept _ _).mp h).1 (by decide))]
    simp only [Nat.add_zero]
    unfold GatherDims.start
    rw [dif_pos (show (1 : Fin 3) ∈ gather_S512x512x128_S262144x2_S262144x128_1_01_n_n_01_1_11128.startIndexMap from by decide)]
    have hsi : gather_S512x512x128_S262144x2_S262144x128_1_01_n_n_01_1_11128.siIdx (ix2 e k) ⟨List.idxOf (1 : Fin 3) gather_S512x512x128_S262144x2_S262144x128_1_01_n_n_01_1_11128.startIndexMap,
        List.idxOf_lt_length_iff.2 (by decide)⟩ = ix2 e (1 : Fin 2) := by
      funext b; refine Fin.ext ?_
      match b with
      | ⟨0, _⟩ => rfl
      | ⟨1, _⟩ => rfl
    rw [hsi, pairIdx_apply_trg]
    rfl
  | ⟨2, _⟩ =>
    show gather_S512x512x128_S262144x2_S262144x128_1_01_n_n_01_1_11128.start (ix2 e k) (pairIdx s t) 2 + gather_S512x512x128_S262144x2_S262144x128_1_01_n_n_01_1_11128.batchCoord (ix2 e k) 2 + gather_S512x512x128_S262144x2_S262144x128_1_01_n_n_01_1_11128.offCoord (ix2 e k) 2 = k.val
    rw [GatherDims.batchCoord_eq_zero _ _ _ List.not_mem_nil]
    unfold GatherDims.start GatherDims.offCoord
    rw [dif_neg (by decide), dif_pos (by decide)]
    simp only [Nat.add_zero, Nat.zero_add]
    rfl

end Cert.ReferenceIdeal.HostRun

end
-- ==== Proof.RefSpec.lean ====
/-
  Two layers of dense masked multi-head graph attention over the extended reals: the textbook formula.

  A graph of 512 nodes carries, per batch slice, 128 features per node, and 128 features per ordered pair of nodes (an
  edge from source s to target t, present when the adjacency entry is not zero). A layer projects the node features
  (4 heads of 32 lanes), scores every edge per head from its source, its target and its own features, passes the
  score through a leaky rectifier of slope 0.2, exponentiates it on the edges present, normalises per target node
  (the denominator plus 1e-16), and sums the source projections weighted by the result. Nothing here mentions a
  program; sums start from zero where the program's accumulations do.
-/
import Idealize.ShloMosaic.PureOps.Ideal
import Mathlib.Algebra.BigOperators.Fin

noncomputable section

namespace Cert.RefSpec

open Idealize.ShloMosaic

/-- Lane d of head h among the 128 projected features. -/
def col (h : Fin 4) (d : Fin 32) : Fin 128 := ⟨h.val * 32 + d.val, by omega⟩

/-- The head of a projected feature. -/
def headOf (j : Fin 128) : Fin 4 := ⟨j.val / 32, by omega⟩

/-- The lane of a projected feature within its head. -/
def laneOf (j : Fin 128) : Fin 32 := ⟨j.val % 32, Nat.mod_lt _ (by decide)⟩

theorem col_headOf_laneOf (j : Fin 128) : col (headOf j) (laneOf j) = j :=
  Fin.ext (Nat.div_add_mod' j.val 32)

/-- The leaky rectifier of slope 0.2 (the single-precision number nearest to it): z where z ≥ 0, the slope times z
    elsewhere. -/
def leakyRelu (z : EReal) : EReal :=
  Scalar.select (Ideal.cmp .oge z 0) z (Ideal.ofBits .f32 0x3E4CCCCD#32 * z)

section Layer

variable (X : Fin 512 → Fin 128 → EReal) (M : Fin 512 → Fin 512 → Prop) [DecidableRel M]
  (E : Fin 512 → Fin 512 → Fin 128 → EReal) (Wn We : Fin 128 → Fin 128 → EReal)
  (a_s a_t : Fin 4 → Fin 32 → EReal) (a_e : Fin 4 → EReal)

/-- The node projection: node i's features against row q of the node weights. -/
def hN (i : Fin 512) (q : Fin 128) : EReal := ∑ k, X i k * Wn q k

/-- The edge score of head h: the edge's features against the edge weights' rows of that head, summed over the head's
    lanes, times the head's edge coefficient. -/
def es (s t : Fin 512) (h : Fin 4) : EReal := (∑ d : Fin 32, ∑ k : Fin 128, E s t k * We (col h d) k) * a_e h

/-- The source score of head h at node s. -/
def ss (s : Fin 512) (h : Fin 4) : EReal := ∑ d : Fin 32, hN X Wn s (col h d) * a_s h d

/-- The target score of head h at node t. -/
def ts (t : Fin 512) (h : Fin 4) : EReal := ∑ d : Fin 32, hN X Wn t (col h d) * a_t h d

/-- The rectified score of the edge from s to t, head h. -/
def score (s t : Fin 512) (h : Fin 4) : EReal :=
  leakyRelu (ss X Wn a_s s h + ts X Wn a_t t h + es E We a_e s t h)

/-- Its exponential on an edge present, zero on the others. -/
def ex (s t : Fin 512) (h : Fin 4) : EReal :=
  if M s t then Ideal.exp (score X E Wn We a_s a_t a_e s t h) else 0

/-- The denominator of target t, head h: the exponentials of the edges into t, added up from zero. -/
def den (t : Fin 512) (h : Fin 4) : EReal := 0 + ∑ s, ex X M E Wn We a_s a_t a_e s t h

/-- The attention weight of the edge from s to t: its exponential over the target's denominator plus 1e-16 (the
    single-precision number nearest to it). -/
def attn (s t : Fin 512) (h : Fin 4) : EReal :=
  Ideal.div (ex X M E Wn We a_s a_t a_e s t h) (den X M E Wn We a_s a_t a_e t h + Ideal.ofBits .f32 0x24E69595#32)

/-- The layer's output at node t, feature j: the source projections of j's head and lane, weighted by the attention
    into t, added up from zero. -/
def out (t : Fin 512) (j : Fin 128) : EReal :=
  0 + ∑ s, hN X Wn s j * attn X M E Wn We a_s a_t a_e s t (headOf j)

end Layer

/-- One layer on both batch slices. -/
def layer (X : Fin 512 → Fin 2 → Fin 128 → EReal) (M : Fin 512 → Fin 512 → Prop) [DecidableRel M]
    (E : Fin 512 → Fin 512 → Fin 128 → EReal) (Wn We : Fin 128 → Fin 128 → EReal)
    (a_s a_t : Fin 4 → Fin 32 → EReal) (a_e : Fin 4 → EReal) (n : Fin 512) (b : Fin 2) (j : Fin 128) : EReal :=
  out (fun i k => X i b k) M E Wn We a_s a_t a_e n j

/-- The reference: the second layer of the first, over the edges whose adjacency entry is not zero. -/
def reference (X : Fin 512 → Fin 2 → Fin 128 → EReal) (adj : Fin 512 → Fin 512 → BitVec 32)
    (E : Fin 512 → Fin 512 → Fin 128 → EReal)
    (Wn1 We1 : Fin 128 → Fin 128 → EReal) (as1 at1 : Fin 4 → Fin 32 → EReal) (ae1 : Fin 4 → EReal)
    (Wn2 We2 : Fin 128 → Fin 128 → EReal) (as2 at2 : Fin 4 → Fin 32 → EReal) (ae2 : Fin 4 → EReal) :
    Fin 512 → Fin 2 → Fin 128 → EReal :=
  layer (layer X (fun s t => adj s t ≠ 0) E Wn1 We1 as1 at1 ae1) (fun s t => adj s t ≠ 0) E Wn2 We2 as2 at2 ae2

end Cert.RefSpec

end
-- ==== Proof.RefReadProj.lean ====
/-
  The reference's projections at an index, over the extended reals: a batch slice of the node features, the node
  projection as a sum over the 128 input features, and a head score as a sum over the head's 32 lanes.
-/
import proofs.«169155_g70909910057105_cont_sun_m_1383_19_alg».proof.Proof.RefReadGather
import proofs.«169155_g70909910057105_cont_sun_m_1383_19_alg».proof.Proof.RefSpec
import Idealize.ShloMosaic.Lib.StackMember

noncomputable section

namespace Cert.ReferenceIdeal.HostRun

open Cert.ReferenceIdeal Cert.ReferenceIdeal.Gen Idealize.ShloMosaic Idealize.ShloMosaic.TcCoe Idealize.SL.Sem Idealize.ShloMosaic.StableHlo
open Idealize.ShloMosaic.ValueIdx Idealize.ShloMosaic.StackMember Cert.RefSpec

/-- Batch slice 0 at node i, feature k. -/
theorem sliceB0_apply {F : FTy → Type} [FloatOps F] (x : Arr F S512x2x128 .f32) (i : Fin 512) (k : Fin 128) :
    sliceB0 x (ix2 i k) = x (ix3 i (0 : Fin 2) k) := by
  unfold sliceB0
  rw [shapeCast_apply _ _ (ix2 i k) (ix3 i (0 : Fin 1) k) (by
    rw [Shape.rowMajor_val_two, Shape.rowMajor_val_three]
    show (i.val * 1 + 0) * 128 + k.val = i.val * 128 + k.val
    omega)]
  exact extractStridedSlice_apply _ _ _ (ix3 i (0 : Fin 1) k) (ix3 i (0 : Fin 2) k) (by
    intro a
    match a with
    | ⟨0, _⟩ => exact (Nat.zero_add _).symm
    | ⟨1, _⟩ => rfl
    | ⟨2, _⟩ => exact (Nat.zero_add _).symm)

/-- Batch slice 1 at node i, feature k. -/
theorem sliceB1_apply {F : FTy → Type} [FloatOps F] (x : Arr F S512x2x128 .f32) (i : Fin 512) (k : Fin 128) :
    sliceB1 x (ix2 i k) = x (ix3 i (1 : Fin 2) k) := by
  unfold sliceB1
  rw [shapeCast_apply _ _ (ix2 i k) (ix3 i (0 : Fin 1) k) (by
    rw [Shape.rowMajor_val_two, Shape.rowMajor_val_three]
    show (i.val * 1 + 0) * 128 + k.val = i.val * 128 + k.val
    omega)]
  exact extractStridedSlice_apply _ _ _ (ix3 i (0 : Fin 1) k) (ix3 i (1 : Fin 2) k) (by
    intro a
    match a with
    | ⟨0, _⟩ => exact (Nat.zero_add _).symm
    | ⟨1, _⟩ => rfl
    | ⟨2, _⟩ => exact (Nat.zero_add _).symm)

/-- The transposed weights at (k, q): the weights at (q, k). -/
theorem transposeW_apply {F : FTy → Type} [FloatOps F] (W : Arr F S128x128 .f32) (k q : Fin 128) :
    transpose S128x128 [1, 0] W transposes_S128x128_S128x128_1_0 (ix2 k q) = W (ix2 q k) :=
  transpose_apply _ _ _ (ix2 k q) (ix2 q k) (by
    intro b
    match b with
    | ⟨0, _⟩ => rfl
    | ⟨1, _⟩ => rfl)

/-- The node projection at node i, head q, lane c: the node's features against row q * 32 + c of the weights. -/
theorem projH_apply (xb : Arr Ideal S512x128 .f32) (Wn : Arr Ideal S128x128 .f32) (i : Fin 512) (q : Fin 4) (c : Fin 32) :
    projH xb Wn (ix3 i q c) = ∑ k : Fin 128, xb (ix2 i k) * Wn (ix2 (col q c) k) := by
  unfold projH
  rw [shapeCast_apply _ _ (ix3 i q c) (ix2 i (col q c)) (by
    rw [Shape.rowMajor_val_two, Shape.rowMajor_val_three]
    show i.val * 128 + (q.val * 32 + c.val) = (i.val * 4 + q.val) * 32 + c.val
    omega)]
  rw [show dot_S512x128_S128x128_S512x128_1_0_0_1_n_n = DotDims.plain 512 128 128 from rfl, dotGeneral_plain_apply]
  exact Finset.sum_congr rfl fun k _ => by rw [transposeW_apply]

/-- A head's coefficients broadcast over the edges, at edge e, head q, lane d. -/
theorem bcastHead_apply {F : FTy → Type} [FloatOps F] (a : Arr F S4x32 .f32) (e : Fin 262144) (q : Fin 4) (d : Fin 32) :
    broadcastInDim S262144x4x32 ![0, 1, 2] bcast_S1x4x32_S262144x4x32_0_1_2
      (broadcastInDim S1x4x32 ![1, 2] bcast_S4x32_S1x4x32_1_2 a) (ix3 e q d) = a (ix2 q d) := by
  rw [broadcastInDim_apply _ _ _ (ix3 e q d) (ix3 (0 : Fin 1) q d) (by
    intro b
    match b with
    | ⟨0, _⟩ => rfl
    | ⟨1, _⟩ => rfl
    | ⟨2, _⟩ => rfl)]
  exact broadcastInDim_apply _ _ _ (ix3 (0 : Fin 1) q d) (ix2 q d) (by
    intro b
    match b with
    | ⟨0, _⟩ => rfl
    | ⟨1, _⟩ => rfl)

/-- The edge coefficients broadcast over the edges, at edge e, head q. -/
theorem bcastEdgeCoef_apply {F : FTy → Type} [FloatOps F] (a : Arr F S4 .f32) (e : Fin 262144) (q : Fin 4) :
    broadcastInDim S262144x4 ![0, 1] bcast_S1x4_S262144x4_0_1 (broadcastInDim S1x4 ![1] bcast_S4_S1x4_1 a) (ix2 e q)
      = a (ix1 q) := by
  rw [broadcastInDim_apply _ _ _ (ix2 e q) (ix2 (0 : Fin 1) q) (by
    intro b
    match b with
    | ⟨0, _⟩ => rfl
    | ⟨1, _⟩ => rfl)]
  exact broadcastInDim_apply _ _ _ (ix2 (0 : Fin 1) q) (ix1 q) (by
    intro b
    match b with
    | ⟨0, _⟩ => rfl)

/-- The index a sum over the 32 lanes inserts at edge e, head q. -/
theorem lift_lane (h : Shape.Reduces S262144x4x32 [2] S262144x4) (e : Fin 262144) (q : Fin 4) (d : Fin 32) :
    h.lift (ix2 e q) d = ix3 e q d := by
  funext a; refine Fin.ext ?_
  match a with
  | ⟨0, _⟩ => rfl
  | ⟨1, _⟩ => rfl
  | ⟨2, _⟩ => rfl

/-- A head score at edge e, head q: the gathered features times the head's coefficients, summed over the 32 lanes. -/
theorem headScore_apply (g : Arr Ideal S262144x4x32 .f32) (a : Arr Ideal S4x32 .f32) (e : Fin 262144) (q : Fin 4) :
    headScore g a (ix2 e q) = ∑ d : Fin 32, g (ix3 e q d) * a (ix2 q d) := by
  unfold headScore
  rw [hostReduceAdd_apply, Ideal.hostReduceAdd_single _ (by decide : Shape.Reduces S262144x4x32 [2] S262144x4)]
  show Ideal.ofBits .f32 0x00000000#32 + _ = _
  rw [Ideal.ofBits_zero_f32, zero_add]
  refine Finset.sum_congr rfl fun (d : Fin 32) _ => ?_
  rw [lift_lane]
  show g (ix3 e q d) * _ = _
  rw [bcastHead_apply]

/-- The edge score at edge e, head q: the gathered edge features against the edge weights' rows of the head, summed
    over the head's lanes, times the head's edge coefficient. -/
theorem edgeScore_apply (E : Arr Ideal S512x512x128 .f32) (We : Arr Ideal S128x128 .f32) (ae : Arr Ideal S4 .f32)
    (s t : Arr Ideal S262144 .i32) (e : Fin 262144) (q : Fin 4) :
    edgeScore E We ae s t (ix2 e q)
      = (∑ d : Fin 32, ∑ k : Fin 128,
          Host.gather gather_S512x512x128_S262144x2_S262144x128_1_01_n_n_01_1_11128 E (pairIdx s t) (ix2 e k) * We (ix2 (col q d) k)) * ae (ix1 q) := by
  unfold edgeScore
  show _ * _ = _
  rw [bcastEdgeCoef_apply, hostReduceAdd_apply,
    Ideal.hostReduceAdd_single _ (by decide : Shape.Reduces S262144x4x32 [2] S262144x4)]
  refine congrArg (· * ae (ix1 q)) ?_
  show Ideal.ofBits .f32 0x00000000#32 + _ = _
  rw [Ideal.ofBits_zero_f32, zero_add]
  refine Finset.sum_congr rfl fun (d : Fin 32) _ => ?_
  rw [lift_lane, shapeCast_apply _ _ (ix3 e q d) (ix2 e (col q d)) (by
    rw [Shape.rowMajor_val_two, Shape.rowMajor_val_three]
    show e.val * 128 + (q.val * 32 + d.val) = (e.val * 4 + q.val) * 32 + d.val
    omega)]
  rw [show dot_S262144x128_S128x128_S262144x128_1_0_0_1_n_n = DotDims.plain 262144 128 128 from rfl, dotGeneral_plain_apply]
  exact Finset.sum_congr rfl fun k _ => by rw [transposeW_apply]

end Cert.ReferenceIdeal.HostRun

end
-- ==== Proof.RefReadScatter.lean ====
/-
  The reference's two accumulating scatters at an element, over the extended reals. The index vector is the edges'
  targets, so the updates landing on node n are those of the edges into n, one per source: each scatter is, at node n,
  zero plus the sum over the sources s of the update at edge s * 512 + n.
-/
import proofs.«169155_g70909910057105_cont_sun_m_1383_19_alg».proof.Proof.RefReadProj
import proofs.«169155_g70909910057105_cont_sun_m_1383_19_alg».proof.Proof.LibScatterSum

noncomputable section

namespace Cert.ReferenceIdeal.HostRun

open Cert.ReferenceIdeal Cert.ReferenceIdeal.Gen Idealize.ShloMosaic Idealize.ShloMosaic.TcCoe Idealize.SL.Sem Idealize.ShloMosaic.StableHlo
open Idealize.ShloMosaic.ValueIdx Cert.RefSpec Cert.Lib.ScatterSum

/-- A node number read back as a signed integer is the number. -/
theorem toInt_node (n : Fin 512) : (BitVec.ofNat 32 n.val).toInt = (n.val : Int) := by
  have h : ∀ n : Fin 512, (BitVec.ofNat 32 n.val).toInt = (n.val : Int) := by decide
  exact h n

/-- Edge numbers determine the source. -/
theorem edge_left_injective (n : Fin 512) : Function.Injective fun s : Fin 512 => edge s n := by
  intro s s' h
  have := congrArg Fin.val h
  simp only [edge] at this
  exact Fin.ext (by omega)

/-- An edge number names its target. -/
theorem edge_target {s t s' t' : Fin 512} (h : edge s t = edge s' t') : t = t' := by
  have := congrArg Fin.val h
  simp only [edge] at this
  exact Fin.ext (by omega)

section Denominator
variable {F : FTy → Type} [FloatOps F]

/-- Start plus window coordinate of the update at edge s * 512 + t, head q, on the node axis of the per-node, per-head
    table: node t. -/
theorem landing_denom0 (s t : Fin 512) (q : Fin 4) :
    scatter_S512x4_S262144x1_S262144x4_1_0_0_1.start (ix2 (edge s t) q) (colIdx (trgI (F := F))) (0 : Fin 2) + (scatter_S512x4_S262144x1_S262144x4_1_0_0_1.window (ix2 (edge s t) q) (0 : Fin 2) : Int)
      = (t.val : Int) := by
  unfold ScatterDims.start ScatterDims.window
  rw [dif_pos (show (0 : Fin 2) ∈ scatter_S512x4_S262144x1_S262144x4_1_0_0_1.scatterDimsToOperandDims from by decide), dif_neg (by decide)]
  have hsi : scatter_S512x4_S262144x1_S262144x4_1_0_0_1.siIdx (ix2 (edge s t) q) ⟨List.idxOf (0 : Fin 2) scatter_S512x4_S262144x1_S262144x4_1_0_0_1.scatterDimsToOperandDims,
      List.idxOf_lt_length_iff.2 (by decide)⟩ = ix2 (edge s t) (0 : Fin 1) := by
    funext b; refine Fin.ext ?_
    match b with
    | ⟨0, _⟩ => rfl
    | ⟨1, _⟩ => rfl
  rw [hsi, colIdx_apply, wrapIdx_trgI, toInt_node]
  show (t.val : Int) + ((0 : Nat) : Int) = (t.val : Int)
  omega

/-- On the head axis: head q. -/
theorem landing_denom1 (s t : Fin 512) (q : Fin 4) :
    scatter_S512x4_S262144x1_S262144x4_1_0_0_1.start (ix2 (edge s t) q) (colIdx (trgI (F := F))) (1 : Fin 2) + (scatter_S512x4_S262144x1_S262144x4_1_0_0_1.window (ix2 (edge s t) q) (1 : Fin 2) : Int)
      = (q.val : Int) := by
  unfold ScatterDims.start ScatterDims.window
  rw [dif_neg (by decide), dif_pos (by decide)]
  show (0 : Int) + ((q.val : Nat) : Int) = (q.val : Int)
  omega

/-- On every axis: the coordinate of (node t, head q). -/
theorem landing_denom (s t : Fin 512) (q : Fin 4) (a : Fin S512x4.rank) :
    scatter_S512x4_S262144x1_S262144x4_1_0_0_1.start (ix2 (edge s t) q) (colIdx (trgI (F := F))) a + (scatter_S512x4_S262144x1_S262144x4_1_0_0_1.window (ix2 (edge s t) q) a : Int)
      = (((ix2 t q : S512x4.Idx) a).val : Int) := by
  match a with
  | ⟨0, _⟩ => exact landing_denom0 s t q
  | ⟨1, _⟩ => exact landing_denom1 s t q

/-- Where the update at edge s * 512 + t, head q lands in the per-node, per-head table: node t, head q. -/
theorem resultIdx_denom (s t : Fin 512) (q : Fin 4) :
    scatter_S512x4_S262144x1_S262144x4_1_0_0_1.resultIdx? (ix2 (edge s t) q) (colIdx (trgI (F := F))) = some (ix2 t q) := by
  unfold ScatterDims.resultIdx?
  rw [dif_pos (fun a => by
    rw [landing_denom]
    exact ⟨Int.natCast_nonneg _, Int.ofNat_lt.mpr ((ix2 t q : S512x4.Idx) a).isLt⟩)]
  refine congrArg some (funext fun a => Fin.ext ?_)
  show (scatter_S512x4_S262144x1_S262144x4_1_0_0_1.start _ _ a + (scatter_S512x4_S262144x1_S262144x4_1_0_0_1.window _ a : Int)).toNat = _
  rw [landing_denom]
  exact Int.toNat_natCast _

end Denominator

/-- The denominators at node n, head q: zero plus the sum, over the sources s, of the masked exponential of the edge
    from s to n. -/
theorem denomOf_apply (ex : Arr Ideal S262144x4 .f32) (n : Fin 512) (q : Fin 4) :
    denomOf trgI ex (ix2 n q) = 0 + ∑ s : Fin 512, ex (ix2 (edge s n) q) := by
  unfold denomOf
  show Ideal.hostScatterAdd scatter_S512x4_S262144x1_S262144x4_1_0_0_1 _ (colIdx trgI) ex (ix2 n q) = _
  rw [hostScatterAdd_apply_of_fiber scatter_S512x4_S262144x1_S262144x4_1_0_0_1 _ (colIdx trgI) ex (ix2 n q) (fun s : Fin 512 => ix2 (edge s n) q)
    (fun s s' h => edge_left_injective n (congrFun h 0))
    (fun j => by
      obtain ⟨e, q', rfl⟩ : ∃ (e : Fin 262144) (q' : Fin 4), j = ix2 e q' := ⟨j 0, j 1, eq_ix2 j⟩
      obtain ⟨s', t', rfl⟩ : ∃ s' t' : Fin 512, e = edge s' t' := ⟨_, _, (edge_div_mod e).symm⟩
      rw [resultIdx_denom]
      constructor
      · intro h
        have h' := Option.some.inj h
        have h0 : t' = n := congrFun h' 0
        have h1 : q' = q := congrFun h' 1
        subst h0 h1
        exact ⟨s', rfl⟩
      · rintro ⟨s, hs⟩
        have e0 : edge s n = edge s' t' := congrFun hs 0
        have e1 : q = q' := congrFun hs 1
        rw [← edge_target e0, ← e1])]
  refine congrArg (· + _) ?_
  show Ideal.ofBits .f32 0x00000000#32 = 0
  exact Ideal.ofBits_zero_f32

end Cert.ReferenceIdeal.HostRun

end
-- ==== Proof.RefReadAgg.lean ====
/-
  The reference's aggregating scatter at an element, over the extended reals: at node n, head q, lane c it is zero plus
  the sum, over the sources s, of the weighted feature of the edge from s to n; and the layer's batch slice reads it at
  the head and lane of the feature.
-/
import proofs.«169155_g70909910057105_cont_sun_m_1383_19_alg».proof.Proof.RefReadScatter

noncomputable section

namespace Cert.ReferenceIdeal.HostRun

open Cert.ReferenceIdeal Cert.ReferenceIdeal.Gen Idealize.ShloMosaic Idealize.ShloMosaic.TcCoe Idealize.SL.Sem Idealize.ShloMosaic.StableHlo
open Idealize.ShloMosaic.ValueIdx Cert.RefSpec Cert.Lib.ScatterSum

section Aggregation
variable {F : FTy → Type} [FloatOps F]

/-- Start plus window coordinate of the update at edge s * 512 + t, head q, lane c, on the node axis of the per-node
    feature table: node t. -/
theorem landing_agg0 (s t : Fin 512) (q : Fin 4) (c : Fin 32) :
    scatter_S512x4x32_S262144x1_S262144x4x32_12_0_0_1.start (ix3 (edge s t) q c) (colIdx (trgI (F := F))) (0 : Fin 3) + (scatter_S512x4x32_S262144x1_S262144x4x32_12_0_0_1.window (ix3 (edge s t) q c) (0 : Fin 3) : Int)
      = (t.val : Int) := by
  unfold ScatterDims.start ScatterDims.window
  rw [dif_pos (show (0 : Fin 3) ∈ scatter_S512x4x32_S262144x1_S262144x4x32_12_0_0_1.scatterDimsToOperandDims from by decide), dif_neg (by decide)]
  have hsi : scatter_S512x4x32_S262144x1_S262144x4x32_12_0_0_1.siIdx (ix3 (edge s t) q c) ⟨List.idxOf (0 : Fin 3) scatter_S512x4x32_S262144x1_S262144x4x32_12_0_0_1.scatterDimsToOperandDims,
      List.idxOf_lt_length_iff.2 (by decide)⟩ = ix2 (edge s t) (0 : Fin 1) := by
    funext b; refine Fin.ext ?_
    match b with
    | ⟨0, _⟩ => rfl
    | ⟨1, _⟩ => rfl
  rw [hsi, colIdx_apply, wrapIdx_trgI, toInt_node]
  show (t.val : Int) + ((0 : Nat) : Int) = (t.val : Int)
  omega

/-- On the head axis: head q. -/
theorem landing_agg1 (s t : Fin 512) (q : Fin 4) (c : Fin 32) :
    scatter_S512x4x32_S262144x1_S262144x4x32_12_0_0_1.start (ix3 (edge s t) q c) (colIdx (trgI (F := F))) (1 : Fin 3) + (scatter_S512x4x32_S262144x1_S262144x4x32_12_0_0_1.window (ix3 (edge s t) q c) (1 : Fin 3) : Int)
      = (q.val : Int) := by
  unfold ScatterDims.start ScatterDims.window
  rw [dif_neg (by decide), dif_pos (by decide)]
  show (0 : Int) + ((q.val : Nat) : Int) = (q.val : Int)
  omega

/-- On the lane axis: lane c. -/
theorem landing_agg2 (s t : Fin 512) (q : Fin 4) (c : Fin 32) :
    scatter_S512x4x32_S262144x1_S262144x4x32_12_0_0_1.start (ix3 (edge s t) q c) (colIdx (trgI (F := F))) (2 : Fin 3) + (scatter_S512x4x32_S262144x1_S262144x4x32_12_0_0_1.window (ix3 (edge s t) q c) (2 : Fin 3) : Int)
      = (c.val : Int) := by
  unfold ScatterDims.start ScatterDims.window
  rw [dif_neg (by decide), dif_pos (by decide)]
  show (0 : Int) + ((c.val : Nat) : Int) = (c.val : Int)
  omega

/-- On every axis: the coordinate of (node t, head q, lane c). -/
theorem landing_agg (s t : Fin 512) (q : Fin 4) (c : Fin 32) (a : Fin S512x4x32.rank) :
    scatter_S512x4x32_S262144x1_S262144x4x32_12_0_0_1.start (ix3 (edge s t) q c) (colIdx (trgI (F := F))) a + (scatter_S512x4x32_S262144x1_S262144x4x32_12_0_0_1.window (ix3 (edge s t) q c) a : Int)
      = (((ix3 t q c : S512x4x32.Idx) a).val : Int) := by
  match a with
  | ⟨0, _⟩ => exact landing_agg0 s t q c
  | ⟨1, _⟩ => exact landing_agg1 s t q c
  | ⟨2, _⟩ => exact landing_agg2 s t q c

/-- Where the update at edge s * 512 + t, head q, lane c lands in the per-node feature table: node t, head q, lane c. -/
theorem resultIdx_agg (s t : Fin 512) (q : Fin 4) (c : Fin 32) :
    scatter_S512x4x32_S262144x1_S262144x4x32_12_0_0_1.resultIdx? (ix3 (edge s t) q c) (colIdx (trgI (F := F))) = some (ix3 t q c) := by
  unfold ScatterDims.resultIdx?
  rw [dif_pos (fun a => by
    rw [landing_agg]
    exact ⟨Int.natCast_nonneg _, Int.ofNat_lt.mpr ((ix3 t q c : S512x4x32.Idx) a).isLt⟩)]
  refine congrArg some (funext fun a => Fin.ext ?_)
  show (scatter_S512x4x32_S262144x1_S262144x4x32_12_0_0_1.start _ _ a + (scatter_S512x4x32_S262144x1_S262144x4x32_12_0_0_1.window _ a : Int)).toNat = _
  rw [landing_agg]
  exact Int.toNat_natCast _

end Aggregation

/-- The aggregating scatter at node n, head q, lane c: zero plus the sum, over the sources s, of the weighted feature
    of the edge from s to n. -/
theorem aggScatter_apply (wt : Arr Ideal S262144x4x32 .f32) (n : Fin 512) (q : Fin 4) (c : Fin 32) :
    Host.scatterAdd (F := Ideal) (φ := .f32) scatter_S512x4x32_S262144x1_S262144x4x32_12_0_0_1
        (broadcastInDim S512x4x32 ![] bcast_S_S512x4x32 (constant (F := Ideal) S_ .f32 0x00000000#32))
        (colIdx (trgI (F := Ideal))) wt (ix3 n q c)
      = 0 + ∑ s : Fin 512, wt (ix3 (edge s n) q c) := by
  show Ideal.hostScatterAdd scatter_S512x4x32_S262144x1_S262144x4x32_12_0_0_1 _ (colIdx trgI) wt (ix3 n q c) = _
  rw [hostScatterAdd_apply_of_fiber scatter_S512x4x32_S262144x1_S262144x4x32_12_0_0_1 _ (colIdx trgI) wt (ix3 n q c) (fun s : Fin 512 => ix3 (edge s n) q c)
    (fun s s' h => edge_left_injective n (congrFun h 0))
    (fun j => by
      obtain ⟨e, q', c', rfl⟩ : ∃ (e : Fin 262144) (q' : Fin 4) (c' : Fin 32), j = ix3 e q' c' := ⟨j 0, j 1, j 2, eq_ix3 j⟩
      obtain ⟨s', t', rfl⟩ : ∃ s' t' : Fin 512, e = edge s' t' := ⟨_, _, (edge_div_mod e).symm⟩
      rw [resultIdx_agg]
      constructor
      · intro h
        have h' := Option.some.inj h
        have h0 : t' = n := congrFun h' 0
        have h1 : q' = q := congrFun h' 1
        have h2 : c' = c := congrFun h' 2
        subst h0 h1 h2
        exact ⟨s', rfl⟩
      · rintro ⟨s, hs⟩
        have e0 : edge s n = edge s' t' := congrFun hs 0
        have e1 : q = q' := congrFun hs 1
        have e2 : c = c' := congrFun hs 2
        rw [← edge_target e0, ← e1, ← e2])]
  refine congrArg (· + _) ?_
  show Ideal.ofBits .f32 0x00000000#32 = 0
  exact Ideal.ofBits_zero_f32

/-- The aggregation at node n, feature j of its one batch slice: zero plus the sum, over the sources s, of the weighted
    feature of the edge from s to n at j's head and lane. -/
theorem aggOf_apply (wt : Arr Ideal S262144x4x32 .f32) (n : Fin 512) (j : Fin 128) :
    aggOf trgI wt (ix3 n (0 : Fin 1) j) = 0 + ∑ s : Fin 512, wt (ix3 (edge s n) (headOf j) (laneOf j)) := by
  unfold aggOf
  rw [broadcastInDim_apply _ _ _ (ix3 n (0 : Fin 1) j) (ix2 n j) (by
    intro b
    match b with
    | ⟨0, _⟩ => rfl
    | ⟨1, _⟩ => rfl)]
  rw [shapeCast_apply _ _ (ix2 n j) (ix3 n (headOf j) (laneOf j)) (by
    rw [Shape.rowMajor_val_two, Shape.rowMajor_val_three]
    show (n.val * 4 + j.val / 32) * 32 + j.val % 32 = n.val * 128 + j.val
    omega)]
  exact aggScatter_apply wt n (headOf j) (laneOf j)

end Cert.ReferenceIdeal.HostRun

end
-- ==== Proof.RefReadScore.lean ====
/-
  The reference's scores at an index, over the extended reals: the leaky rectifier, the masked exponential, and the
  masked exponentials of a batch slice from its gathered features.
-/
import proofs.«169155_g70909910057105_cont_sun_m_1383_19_alg».proof.Proof.RefReadProj

noncomputable section

namespace Cert.ReferenceIdeal.HostRun

open Cert.ReferenceIdeal Cert.ReferenceIdeal.Gen Idealize.ShloMosaic Idealize.ShloMosaic.TcCoe Idealize.SL.Sem Idealize.ShloMosaic.StableHlo
open Idealize.ShloMosaic.ValueIdx Cert.RefSpec

/-- The rectifier at an index is the formula's rectifier of the entry. -/
theorem leaky_apply (z : Arr Ideal S262144x4 .f32) (j : S262144x4.Idx) : leaky z j = leakyRelu (z j) := by
  show Scalar.select (Ideal.cmp .oge (z j) (Ideal.ofBits .f32 0x00000000#32)) (z j) (Ideal.ofBits .f32 0x3E4CCCCD#32 * z j) = _
  rw [Ideal.ofBits_zero_f32]
  rfl

/-- The mask broadcast over the heads, at edge e, head q. -/
theorem bcastMask_apply {F : FTy → Type} [FloatOps F] (m : Arr F S262144 .i1) (e : Fin 262144) (q : Fin 4) :
    broadcastInDim S262144x4 ![0, 1] bcast_S262144x1_S262144x4_0_1
      (broadcastInDim S262144x1 ![0] bcast_S262144_S262144x1_0 m) (ix2 e q) = m (ix1 e) := by
  rw [broadcastInDim_apply _ _ _ (ix2 e q) (ix2 e (0 : Fin 1)) (by
    intro b
    match b with
    | ⟨0, _⟩ => rfl
    | ⟨1, _⟩ => rfl)]
  exact broadcastInDim_apply _ _ _ (ix2 e (0 : Fin 1)) (ix1 e) (by
    intro b
    match b with
    | ⟨0, _⟩ => rfl)

/-- The masked exponential at edge e, head q. -/
theorem expMasked_apply (m : Arr Ideal S262144 .i1) (z : Arr Ideal S262144x4 .f32) (e : Fin 262144) (q : Fin 4) :
    expMasked m z (ix2 e q) = Scalar.select (m (ix1 e)) (Ideal.exp (z (ix2 e q))) 0 := by
  unfold expMasked
  show Scalar.select _ (Ideal.exp (z (ix2 e q))) (Ideal.ofBits .f32 0x00000000#32) = _
  rw [bcastMask_apply, Ideal.ofBits_zero_f32]

/-- A choice on "the word is not zero". -/
theorem select_ne_zero {α : Type} (x : BitVec 32) (a b : α) :
    Scalar.select (IntOp.cmpi .ne x 0#32) a b = if x ≠ 0#32 then a else b := by
  by_cases h : x = 0#32
  · subst h; rw [if_neg (not_not.mpr rfl)]; rfl
  · rw [if_pos h]
    have : IntOp.cmpi .ne x 0#32 = 1#1 := by
      show BitVec.ofBool (x != 0#32) = 1#1
      rw [bne_iff_ne.mpr h]; rfl
    rw [this, select_one]

/-- The masked exponentials at edge e, head q, from the gathered features. -/
theorem exOf_apply (hs ht : Arr Ideal S262144x4x32 .f32) (m : Arr Ideal S262144 .i1) (es : Arr Ideal S262144x4 .f32)
    (a_s a_t : Arr Ideal S4x32 .f32) (e : Fin 262144) (q : Fin 4) :
    exOf hs ht m es a_s a_t (ix2 e q)
      = Scalar.select (m (ix1 e))
          (Ideal.exp (leakyRelu ((∑ d : Fin 32, hs (ix3 e q d) * a_s (ix2 q d)) + (∑ d : Fin 32, ht (ix3 e q d) * a_t (ix2 q d))
            + es (ix2 e q)))) 0 := by
  unfold exOf
  rw [expMasked_apply, leaky_apply]
  show Scalar.select _ (Ideal.exp (leakyRelu (headScore hs a_s (ix2 e q) + headScore ht a_t (ix2 e q) + es (ix2 e q)))) 0 = _
  rw [headScore_apply, headScore_apply]

end Cert.ReferenceIdeal.HostRun

end
-- ==== Proof.RefReadLayer.lean ====
/-
  One layer of the reference at an index, over the extended reals, is the textbook layer: along the dense edge list the
  gathers read the source's and the target's rows, the scatters add over the sources of the edges into a node, and each
  stage of the term is the formula's stage at the edge's (source, target).
-/
import proofs.«169155_g70909910057105_cont_sun_m_1383_19_alg».proof.Proof.RefReadAgg
import proofs.«169155_g70909910057105_cont_sun_m_1383_19_alg».proof.Proof.RefReadScore

noncomputable section

namespace Cert.ReferenceIdeal.HostRun

open Cert.ReferenceIdeal Cert.ReferenceIdeal.Gen Idealize.ShloMosaic Idealize.ShloMosaic.TcCoe Idealize.SL.Sem Idealize.ShloMosaic.StableHlo
open Idealize.ShloMosaic.ValueIdx Cert.RefSpec

section Edges
variable {F : FTy → Type} [FloatOps F]

/-- The clamped, wrapped source of an edge is its source. -/
theorem node_srcI (s t : Fin 512) (h : min (wrapIdx (srcI (F := F)) (ix1 (edge s t))).toInt.toNat 511 < 512) :
    (⟨min (wrapIdx (srcI (F := F)) (ix1 (edge s t))).toInt.toNat 511, h⟩ : Fin 512) = s :=
  Fin.ext (by show min (wrapIdx (srcI (F := F)) (ix1 (edge s t))).toInt.toNat 511 = s.val; rw [wrapIdx_srcI, clamp_node])

/-- The clamped, wrapped target of an edge is its target. -/
theorem node_trgI (s t : Fin 512) (h : min (wrapIdx (trgI (F := F)) (ix1 (edge s t))).toInt.toNat 511 < 512) :
    (⟨min (wrapIdx (trgI (F := F)) (ix1 (edge s t))).toInt.toNat 511, h⟩ : Fin 512) = t :=
  Fin.ext (by show min (wrapIdx (trgI (F := F)) (ix1 (edge s t))).toInt.toNat 511 = t.val; rw [wrapIdx_trgI, clamp_node])

/-- The features gathered at the sources, at the edge from s to t: the source's. -/
theorem gatherH_src_edge (H : Arr F S512x4x32 .f32) (s t : Fin 512) (q : Fin 4) (c : Fin 32) :
    gatherH H (srcI (F := F)) (ix3 (edge s t) q c) = H (ix3 s q c) := by
  rw [gatherH_apply, node_srcI]

/-- The features gathered at the targets, at the edge from s to t: the target's. -/
theorem gatherH_trg_edge (H : Arr F S512x4x32 .f32) (s t : Fin 512) (q : Fin 4) (c : Fin 32) :
    gatherH H (trgI (F := F)) (ix3 (edge s t) q c) = H (ix3 t q c) := by
  rw [gatherH_apply, node_trgI]

/-- The edge features gathered along the edge list, at the edge from s to t: the features of the pair (s, t). -/
theorem gatherE_edge (E : Arr F S512x512x128 .f32) (s t : Fin 512) (k : Fin 128) :
    Host.gather gather_S512x512x128_S262144x2_S262144x128_1_01_n_n_01_1_11128 E (pairIdx (srcI (F := F)) (trgI (F := F))) (ix2 (edge s t) k) = E (ix3 s t k) := by
  rw [gatherE_apply, node_srcI, node_trgI]

/-- The denominators read back at the edge from s to t: the target's. -/
theorem denomAt_edge (ex : Arr F S262144x4 .f32) (s t : Fin 512) (q : Fin 4) :
    denomAt (trgI (F := F)) ex (ix2 (edge s t) q) = denomOf (trgI (F := F)) ex (ix2 t q) := by
  rw [denomAt_apply, node_trgI]

/-- The attention weights broadcast over the lanes, at edge e, head q, lane c. -/
theorem bcastAttn_apply (w : Arr F S262144x4 .f32) (e : Fin 262144) (q : Fin 4) (c : Fin 32) :
    broadcastInDim S262144x4x32 ![0, 1, 2] bcast_S262144x4x1_S262144x4x32_0_1_2
      (broadcastInDim S262144x4x1 ![0, 1] bcast_S262144x4_S262144x4x1_0_1 w) (ix3 e q c) = w (ix2 e q) := by
  rw [broadcastInDim_apply _ _ _ (ix3 e q c) (ix3 e q (0 : Fin 1)) (by
    intro b
    match b with
    | ⟨0, _⟩ => rfl
    | ⟨1, _⟩ => rfl
    | ⟨2, _⟩ => rfl)]
  exact broadcastInDim_apply _ _ _ (ix3 e q (0 : Fin 1)) (ix2 e q) (by
    intro b
    match b with
    | ⟨0, _⟩ => rfl
    | ⟨1, _⟩ => rfl)

end Edges

/-- The weighted source features at edge e, head q, lane c. -/
theorem weightedOf_apply (hs : Arr Ideal S262144x4x32 .f32) (w : Arr Ideal S262144x4 .f32) (e : Fin 262144) (q : Fin 4) (c : Fin 32) :
    weightedOf hs w (ix3 e q c) = hs (ix3 e q c) * w (ix2 e q) := by
  unfold weightedOf
  show hs (ix3 e q c) * _ = _
  rw [bcastAttn_apply]

/-- The attention weight at the edge from s to t, head q. -/
theorem attnOf_edge (ex : Arr Ideal S262144x4 .f32) (s t : Fin 512) (q : Fin 4) :
    attnOf trgI ex (ix2 (edge s t) q)
      = Ideal.div (ex (ix2 (edge s t) q)) ((0 + ∑ s' : Fin 512, ex (ix2 (edge s' t) q)) + Ideal.ofBits .f32 0x24E69595#32) := by
  unfold attnOf
  rw [hostDivf_apply, addf_apply, denomAt_edge, denomOf_apply, broadcastInDim_scalar_apply, constant_apply]

section Slice

variable (xb : Arr Ideal S512x128 .f32) (adj : Arr Ideal S512x512 .i32) (E : Arr Ideal S512x512x128 .f32)
  (Wn We : Arr Ideal S128x128 .f32) (a_s a_t : Arr Ideal S4x32 .f32) (a_e : Arr Ideal S4 .f32)

/-- The formula's view of the arrays. -/
abbrev Xf : Fin 512 → Fin 128 → EReal := fun i k => xb (ix2 i k)
abbrev Mf : Fin 512 → Fin 512 → Prop := fun s t => adj (ix2 s t) ≠ 0#32
abbrev Ef : Fin 512 → Fin 512 → Fin 128 → EReal := fun s t k => E (ix3 s t k)
abbrev Wf (W : Arr Ideal S128x128 .f32) : Fin 128 → Fin 128 → EReal := fun q k => W (ix2 q k)
abbrev Af (a : Arr Ideal S4x32 .f32) : Fin 4 → Fin 32 → EReal := fun h d => a (ix2 h d)
abbrev Aef : Fin 4 → EReal := fun h => a_e (ix1 h)

instance : DecidableRel (Mf adj) := fun s t => inferInstanceAs (Decidable (adj (ix2 s t) ≠ 0#32))

/-- The projection at node i, head q, lane c is the formula's. -/
theorem projH_spec (i : Fin 512) (q : Fin 4) (c : Fin 32) :
    projH xb Wn (ix3 i q c) = hN (Xf xb) (Wf Wn) i (col q c) :=
  projH_apply xb Wn i q c

/-- The edge score at the edge from s to t is the formula's. -/
theorem edgeScore_spec (s t : Fin 512) (q : Fin 4) :
    edgeScore E We a_e srcI trgI (ix2 (edge s t) q) = es (Ef E) (Wf We) (Aef a_e) s t q := by
  rw [edgeScore_apply]
  unfold es
  refine congrArg (· * a_e (ix1 q)) ?_
  exact Finset.sum_congr rfl fun d _ => Finset.sum_congr rfl fun k _ => by rw [gatherE_edge]

/-- The masked exponential at the edge from s to t is the formula's. -/
theorem exOf_spec (s t : Fin 512) (q : Fin 4) :
    exOf (gatherH (projH xb Wn) srcI) (gatherH (projH xb Wn) trgI) (maskOf adj) (edgeScore E We a_e srcI trgI) a_s a_t
        (ix2 (edge s t) q)
      = ex (Xf xb) (Mf adj) (Ef E) (Wf Wn) (Wf We) (Af a_s) (Af a_t) (Aef a_e) s t q := by
  rw [exOf_apply, maskOf_apply, select_ne_zero, edgeScore_spec]
  unfold ex score ss ts
  simp only [gatherH_src_edge, gatherH_trg_edge, projH_spec]

/-- The masked exponentials of the slice, as an array over the edges and heads. -/
abbrev exArr : Arr Ideal S262144x4 .f32 :=
  exOf (gatherH (projH xb Wn) srcI) (gatherH (projH xb Wn) trgI) (maskOf adj) (edgeScore E We a_e srcI trgI) a_s a_t

/-- The attention weight at the edge from s to t is the formula's. -/
theorem attnOf_spec (s t : Fin 512) (q : Fin 4) :
    attnOf trgI (exArr xb adj E Wn We a_s a_t a_e) (ix2 (edge s t) q)
      = attn (Xf xb) (Mf adj) (Ef E) (Wf Wn) (Wf We) (Af a_s) (Af a_t) (Aef a_e) s t q := by
  rw [attnOf_edge]
  unfold attn den
  simp only [exArr, exOf_spec]

/-- One batch slice of the layer's output at node n, feature j is the formula's. -/
theorem batchFromH_spec (n : Fin 512) (j : Fin 128) :
    batchFromH (projH xb Wn) srcI trgI (maskOf adj) (edgeScore E We a_e srcI trgI) a_s a_t (ix3 n (0 : Fin 1) j)
      = out (Xf xb) (Mf adj) (Ef E) (Wf Wn) (Wf We) (Af a_s) (Af a_t) (Aef a_e) n j := by
  unfold batchFromH
  rw [aggOf_apply]
  unfold out
  refine congrArg (0 + ·) (Finset.sum_congr rfl fun s _ => ?_)
  rw [weightedOf_apply, gatherH_src_edge, projH_spec, col_headOf_laneOf]
  exact congrArg (hN (Xf xb) (Wf Wn) s j * ·) (attnOf_spec xb adj E Wn We a_s a_t a_e s n (headOf j))

end Slice

section Layer

variable (x : Arr Ideal S512x2x128 .f32) (adj : Arr Ideal S512x512 .i32) (E : Arr Ideal S512x512x128 .f32)
  (Wn We : Arr Ideal S128x128 .f32) (a_s a_t : Arr Ideal S4x32 .f32) (a_e : Arr Ideal S4 .f32)

/-- The formula's view of the node features of both batch slices. -/
abbrev X3f : Fin 512 → Fin 2 → Fin 128 → EReal := fun i b k => x (ix3 i b k)

/-- The layer at node n, batch slice 0, feature j. -/
theorem layer_apply0 (n : Fin 512) (j : Fin 128) :
    layer x srcI trgI (maskOf adj) E Wn We a_s a_t a_e (ix3 n (0 : Fin 2) j)
      = RefSpec.layer (X3f x) (Mf adj) (Ef E) (Wf Wn) (Wf We) (Af a_s) (Af a_t) (Aef a_e) n 0 j := by
  unfold layer catOut
  rw [concatenate_pair_apply_left (s₁ := S512x1x128) (s₂ := S512x1x128) _ _ _ _ (ix3 n (0 : Fin 2) j) rfl
    (ix3 n (0 : Fin 1) j) (by
      intro b
      match b with
      | ⟨0, _⟩ => rfl
      | ⟨1, _⟩ => rfl
      | ⟨2, _⟩ => rfl)]
  rw [batchFromH_spec]
  unfold RefSpec.layer
  have hx : Xf (sliceB0 x) = fun i k => X3f x i 0 k := by
    funext i k
    exact sliceB0_apply x i k
  rw [hx]

/-- The layer at node n, batch slice 1, feature j. -/
theorem layer_apply1 (n : Fin 512) (j : Fin 128) :
    layer x srcI trgI (maskOf adj) E Wn We a_s a_t a_e (ix3 n (1 : Fin 2) j)
      = RefSpec.layer (X3f x) (Mf adj) (Ef E) (Wf Wn) (Wf We) (Af a_s) (Af a_t) (Aef a_e) n 1 j := by
  unfold layer catOut
  rw [concatenate_pair_apply_right (s₁ := S512x1x128) (s₂ := S512x1x128) _ _ _ _ (ix3 n (1 : Fin 2) j) rfl rfl
    (ix3 n (0 : Fin 1) j) (by
      intro b hb
      match b with
      | ⟨0, _⟩ => rfl
      | ⟨1, _⟩ => exact absurd rfl hb
      | ⟨2, _⟩ => rfl) rfl]
  rw [batchFromH_spec]
  unfold RefSpec.layer
  have hx : Xf (sliceB1 x) = fun i k => X3f x i 1 k := by
    funext i k
    exact sliceB1_apply x i k
  rw [hx]

/-- The layer at node n, batch slice b, feature j is the formula's layer. -/
theorem layer_apply (n : Fin 512) (b : Fin 2) (j : Fin 128) :
    layer x srcI trgI (maskOf adj) E Wn We a_s a_t a_e (ix3 n b j)
      = RefSpec.layer (X3f x) (Mf adj) (Ef E) (Wf Wn) (Wf We) (Af a_s) (Af a_t) (Aef a_e) n b j := by
  match b with
  | ⟨0, _⟩ => exact layer_apply0 x adj E Wn We a_s a_t a_e n j
  | ⟨1, _⟩ => exact layer_apply1 x adj E Wn We a_s a_t a_e n j

end Layer

/-- THE REFERENCE'S TERM AT AN INDEX: at node n, batch slice b, feature j it is the textbook two-layer formula of the
    argument arrays' entries. -/
theorem refTerm_apply (x : Arr Ideal S512x2x128 .f32) (adj : Arr Ideal S512x512 .i32) (E : Arr Ideal S512x512x128 .f32)
    (Wn1 We1 : Arr Ideal S128x128 .f32) (as1 at1 : Arr Ideal S4x32 .f32) (ae1 : Arr Ideal S4 .f32)
    (Wn2 We2 : Arr Ideal S128x128 .f32) (as2 at2 : Arr Ideal S4x32 .f32) (ae2 : Arr Ideal S4 .f32)
    (n : Fin 512) (b : Fin 2) (j : Fin 128) :
    refTerm x adj E Wn1 We1 as1 at1 ae1 Wn2 We2 as2 at2 ae2 (ix3 n b j)
      = RefSpec.reference (X3f x) (fun s t => adj (ix2 s t)) (Ef E) (Wf Wn1) (Wf We1) (Af as1) (Af at1) (Aef ae1)
          (Wf Wn2) (Wf We2) (Af as2) (Af at2) (Aef ae2) n b j := by
  unfold refTerm RefSpec.reference
  rw [layer_apply]
  have hX : X3f (layer x srcI trgI (maskOf adj) E Wn1 We1 as1 at1 ae1)
      = RefSpec.layer (X3f x) (Mf adj) (Ef E) (Wf Wn1) (Wf We1) (Af as1) (Af at1) (Aef ae1) := by
    funext i b k
    exact layer_apply x adj E Wn1 We1 as1 at1 ae1 i b k
  rw [hX]
  rfl

end Cert.ReferenceIdeal.HostRun

end
-- ==== Proof.RefValue.lean ====
/-
  The reference's value: after the reference's run the result buffer holds, at node n, batch slice b, feature j, the
  textbook two-layer graph-attention formula of the argument arrays' entries, over the extended reals.
-/
import proofs.«169155_g70909910057105_cont_sun_m_1383_19_alg».proof.Proof.RefTerm
import proofs.«169155_g70909910057105_cont_sun_m_1383_19_alg».proof.Proof.RefReadLayer

noncomputable section

namespace Cert.ReferenceIdeal.HostRun

open Cert.ReferenceIdeal Cert.ReferenceIdeal.Gen Idealize.ShloMosaic Idealize.ShloMosaic.TcCoe Idealize.SL.Sem Idealize.ShloMosaic.StableHlo
open Idealize.ShloMosaic.ValueIdx Cert.RefSpec

/-- The result buffer after the run, at an index, from any contents of the buffers at the start. -/
theorem reference_value (V : Valuation τ sig (Elt Ideal)) (n : Fin 512) (b : Fin 2) (j : Fin 128) :
    after ops V (Proc.devRef .tc main_v309) (ix3 n b j)
      = RefSpec.reference (X3f (V (Proc.devRef .tc main_arg0))) (fun s t => (V (Proc.devRef .tc main_arg1)) (ix2 s t))
          (Ef (V (Proc.devRef .tc main_arg2)))
          (Wf (V (Proc.devRef .tc main_arg3))) (Wf (V (Proc.devRef .tc main_arg4)))
          (Af (V (Proc.devRef .tc main_arg5))) (Af (V (Proc.devRef .tc main_arg6))) (Aef (V (Proc.devRef .tc main_arg7)))
          (Wf (V (Proc.devRef .tc main_arg8))) (Wf (V (Proc.devRef .tc main_arg9)))
          (Af (V (Proc.devRef .tc main_arg10))) (Af (V (Proc.devRef .tc main_arg11))) (Aef (V (Proc.devRef .tc main_arg12)))
          n b j := by
  rw [after_ops_result]
  exact refTerm_apply _ _ _ _ _ _ _ _ _ _ _ _ _ n b j

end Cert.ReferenceIdeal.HostRun

end
-- ==== Proof.RefSpecBridge.lean ====
/-
  The reference's textbook formula is the specification shared with the kernel: the same two layers, stage by stage;
  the two texts differ only in how a head's lane is numbered (h * 32 + d against 32 * h + d) and in how the leaky
  rectifier's choice is spelt (a comparison bit against an order test).
-/
import proofs.«169155_g70909910057105_cont_sun_m_1383_19_alg».proof.Proof.RefSpec
import proofs.«169155_g70909910057105_cont_sun_m_1383_19_alg».proof.Proof.SpecDenseGat

noncomputable section

namespace Cert.RefSpec

open Idealize.ShloMosaic Cert.Spec.DenseGat

theorem col_eq (h : Fin 4) (d : Fin 32) : col h d = feat h d :=
  Fin.ext (by show h.val * 32 + d.val = 32 * h.val + d.val; omega)

/-- The comparison bit chooses as the order test does. -/
theorem leakyRelu_eq (z : EReal) : leakyRelu z = leaky z := by
  unfold leakyRelu leaky leakSlope
  by_cases h : (0 : EReal) ≤ z
  · have hc : Ideal.cmp .oge z 0 = 1#1 := by
      show BitVec.ofBool (decide ((0 : EReal) ≤ z)) = 1#1
      rw [decide_eq_true h]; rfl
    rw [if_pos h, hc]
    exact if_pos rfl
  · have hc : Ideal.cmp .oge z 0 = 0#1 := by
      show BitVec.ofBool (decide ((0 : EReal) ≤ z)) = 0#1
      rw [decide_eq_false h]; rfl
    rw [if_neg h, hc]
    exact if_neg (by decide)

section Layer

variable (M : Fin 512 → Fin 512 → Prop) [DecidableRel M] (E : Fin 512 → Fin 512 → Fin 128 → EReal) (P : Params)
  (X : Fin 512 → Fin 2 → Fin 128 → EReal) (b : Fin 2)

theorem hN_eq (i : Fin 512) (q : Fin 128) : hN (fun i k => X i b k) P.Wn i q = proj P X b i q := rfl

theorem es_eq (s t : Fin 512) (h : Fin 4) : es E P.We P.aE s t h = edgeScore E P s t h := by
  unfold es edgeScore
  simp only [col_eq]

theorem ss_eq (s : Fin 512) (h : Fin 4) : ss (fun i k => X i b k) P.Wn P.aS s h = srcScore P X b s h := by
  unfold ss srcScore
  simp only [col_eq, hN_eq]

theorem ts_eq (t : Fin 512) (h : Fin 4) : ts (fun i k => X i b k) P.Wn P.aT t h = tgtScore P X b t h := by
  unfold ts tgtScore
  simp only [col_eq, hN_eq]

theorem ex_eq (s t : Fin 512) (h : Fin 4) :
    ex (fun i k => X i b k) M E P.Wn P.We P.aS P.aT P.aE s t h = expScore M E P X b s t h := by
  unfold ex score expScore
  rw [ss_eq, ts_eq, es_eq, leakyRelu_eq]

theorem den_eq (t : Fin 512) (h : Fin 4) :
    den (fun i k => X i b k) M E P.Wn P.We P.aS P.aT P.aE t h = denom M E P X b t h := by
  unfold den denom
  simp only [ex_eq]

theorem attn_eq (s t : Fin 512) (h : Fin 4) :
    attn (fun i k => X i b k) M E P.Wn P.We P.aS P.aT P.aE s t h = Cert.Spec.DenseGat.attn M E P X b s t h := by
  unfold attn Cert.Spec.DenseGat.attn eps
  rw [ex_eq, den_eq]

theorem layer_eq (n : Fin 512) (j : Fin 128) :
    layer X M E P.Wn P.We P.aS P.aT P.aE n b j = Cert.Spec.DenseGat.layer M E P X n b j := by
  unfold layer out Cert.Spec.DenseGat.layer
  simp only [attn_eq, hN_eq]
  rfl

end Layer

/-- The reference's formula is the shared specification's network. -/
theorem reference_eq_network (X : Fin 512 → Fin 2 → Fin 128 → EReal) (adj : Fin 512 → Fin 512 → BitVec 32)
    (E : Fin 512 → Fin 512 → Fin 128 → EReal)
    (Wn1 We1 : Fin 128 → Fin 128 → EReal) (as1 at1 : Fin 4 → Fin 32 → EReal) (ae1 : Fin 4 → EReal)
    (Wn2 We2 : Fin 128 → Fin 128 → EReal) (as2 at2 : Fin 4 → Fin 32 → EReal) (ae2 : Fin 4 → EReal) :
    reference X adj E Wn1 We1 as1 at1 ae1 Wn2 We2 as2 at2 ae2
      = network (fun s t => adj s t ≠ 0) E X ⟨Wn1, We1, as1, at1, ae1⟩ ⟨Wn2, We2, as2, at2, ae2⟩ := by
  unfold reference network
  have h1 : layer X (fun s t => adj s t ≠ 0) E Wn1 We1 as1 at1 ae1
      = Cert.Spec.DenseGat.layer (fun s t => adj s t ≠ 0) E ⟨Wn1, We1, as1, at1, ae1⟩ X := by
    funext n b j
    exact layer_eq (fun s t => adj s t ≠ 0) E ⟨Wn1, We1, as1, at1, ae1⟩ X b n j
  rw [h1]
  funext n b j
  exact layer_eq (fun s t => adj s t ≠ 0) E ⟨Wn2, We2, as2, at2, ae2⟩ _ b n j

end Cert.RefSpec

end
-- ==== Proof.RefValueNetwork.lean ====
/-
  The reference's value against the specification shared with the kernel: after the reference's run the result buffer
  holds, at node n, batch slice b, feature j, the specification's two-layer network of the argument arrays' entries.
-/
import proofs.«169155_g70909910057105_cont_sun_m_1383_19_alg».proof.Proof.RefValue
import proofs.«169155_g70909910057105_cont_sun_m_1383_19_alg».proof.Proof.RefSpecBridge

noncomputable section

namespace Cert.ReferenceIdeal.HostRun

open Cert.ReferenceIdeal Cert.ReferenceIdeal.Gen Idealize.ShloMosaic Idealize.ShloMosaic.TcCoe Idealize.SL.Sem Idealize.ShloMosaic.StableHlo
open Idealize.ShloMosaic.ValueIdx Cert.RefSpec

/-- The result buffer after the run, at an index, as the shared specification's network. -/
theorem reference_value_network (V : Valuation τ sig (Elt Ideal)) (n : Fin 512) (b : Fin 2) (j : Fin 128) :
    after ops V (Proc.devRef .tc main_v309) (ix3 n b j)
      = Cert.Spec.DenseGat.network (Mf (V (Proc.devRef .tc main_arg1)))
          (Ef (V (Proc.devRef .tc main_arg2))) (X3f (V (Proc.devRef .tc main_arg0)))
          ⟨Wf (V (Proc.devRef .tc main_arg3)), Wf (V (Proc.devRef .tc main_arg4)),
            Af (V (Proc.devRef .tc main_arg5)), Af (V (Proc.devRef .tc main_arg6)), Aef (V (Proc.devRef .tc main_arg7))⟩
          ⟨Wf (V (Proc.devRef .tc main_arg8)), Wf (V (Proc.devRef .tc main_arg9)),
            Af (V (Proc.devRef .tc main_arg10)), Af (V (Proc.devRef .tc main_arg11)), Aef (V (Proc.devRef .tc main_arg12))⟩
          n b j := by
  rw [reference_value, reference_eq_network]
  rfl

end Cert.ReferenceIdeal.HostRun

end
-- ==== Proof.RefRun.lean ====
/-
  The reference's run and its value together: every weakly fair execution of the reference terminates with the result
  buffer at the reference's term of the argument arrays' launch contents; over the extended reals that is, index by
  index, the shared specification's two-layer network.
-/
import proofs.«169155_g70909910057105_cont_sun_m_1383_19_alg».proof.Proof.RefValueNetwork

noncomputable section

namespace Cert.ReferenceIdeal.HostRun

open Cert.ReferenceIdeal Cert.ReferenceIdeal.Gen Idealize.ShloMosaic Idealize.ShloMosaic.TcCoe Idealize.SL.Sem Idealize.ShloMosaic.StableHlo
open Idealize.ShloMosaic.ValueIdx Cert.RefSpec

set_option maxRecDepth 16384 in
/-- At any instance of the float operations: the result buffer ends at the reference's term of the launch contents. -/
theorem run_result {F : FTy → Type} [FloatOps F] (m : (ℓ : Loc nD τ sig) → Buf (Elt F) ℓ) (ρ : Dev nD → PrngReg) :
    θ_run defs (onTc (τ := τ) (main (F := F))) ⟨m, fun _ => 0, ρ⟩ (fun r => ∀ c : Dev nD,
      r.2.mem ((c.tc : Thread nD τ).loc main_v309)
        = refTerm (m ((c.tc : Thread nD τ).loc main_arg0)) (m ((c.tc : Thread nD τ).loc main_arg1))
            (m ((c.tc : Thread nD τ).loc main_arg2)) (m ((c.tc : Thread nD τ).loc main_arg3))
            (m ((c.tc : Thread nD τ).loc main_arg4)) (m ((c.tc : Thread nD τ).loc main_arg5))
            (m ((c.tc : Thread nD τ).loc main_arg6)) (m ((c.tc : Thread nD τ).loc main_arg7))
            (m ((c.tc : Thread nD τ).loc main_arg8)) (m ((c.tc : Thread nD τ).loc main_arg9))
            (m ((c.tc : Thread nD τ).loc main_arg10)) (m ((c.tc : Thread nD τ).loc main_arg11))
            (m ((c.tc : Thread nD τ).loc main_arg12))) :=
  (θ_run defs _ _).mono (fun _ h c => (h c main_v309).trans (after_ops_result (launchContents m c)))
    (run_seq scopedRefs_eq scopedSems_eq defs main (fun _ => ops) main_eq (fun _ => ops_sub) m ρ (fun _ => ops_fresh))

set_option maxRecDepth 16384 in
/-- Over the extended reals: the result buffer ends, at node n, batch slice b, feature j, at the shared
    specification's network of the launch contents' entries. -/
theorem run_value (m : (ℓ : Loc nD τ sig) → Buf (Elt Ideal) ℓ) (ρ : Dev nD → PrngReg) :
    θ_run defs (onTc (τ := τ) (main (F := Ideal))) ⟨m, fun _ => 0, ρ⟩ (fun r => ∀ (c : Dev nD) (n : Fin 512) (b : Fin 2) (j : Fin 128),
      r.2.mem ((c.tc : Thread nD τ).loc main_v309) (ix3 n b j)
        = Cert.Spec.DenseGat.network (Mf (m ((c.tc : Thread nD τ).loc main_arg1)))
            (Ef (m ((c.tc : Thread nD τ).loc main_arg2))) (X3f (m ((c.tc : Thread nD τ).loc main_arg0)))
            ⟨Wf (m ((c.tc : Thread nD τ).loc main_arg3)), Wf (m ((c.tc : Thread nD τ).loc main_arg4)),
              Af (m ((c.tc : Thread nD τ).loc main_arg5)), Af (m ((c.tc : Thread nD τ).loc main_arg6)),
              Aef (m ((c.tc : Thread nD τ).loc main_arg7))⟩
            ⟨Wf (m ((c.tc : Thread nD τ).loc main_arg8)), Wf (m ((c.tc : Thread nD τ).loc main_arg9)),
              Af (m ((c.tc : Thread nD τ).loc main_arg10)), Af (m ((c.tc : Thread nD τ).loc main_arg11)),
              Aef (m ((c.tc : Thread nD τ).loc main_arg12))⟩
            n b j) :=
  (θ_run defs _ _).mono (fun _ h c n b j =>
      (congrFun (h c main_v309) (ix3 n b j)).trans (reference_value_network (launchContents m c) n b j))
    (run_seq scopedRefs_eq scopedSems_eq defs main (fun _ => ops) main_eq (fun _ => ops_sub) m ρ (fun _ => ops_fresh))

end Cert.ReferenceIdeal.HostRun

end
-- ==== Proof.KernelIdealLaunch.lean ====
/-
  The launch contents. The kernel's windows present the thirteen argument arrays as the launch left them (the two edge
  coefficient vectors through a reshape to one column); under the precondition every float entry of them is a real
  number; so the network of the windows' arrays is the network of the launch memory's argument arrays, which is what the
  reference computes from its own memory when the two memories agree on the arguments.
-/
import proofs.«169155_g70909910057105_cont_sun_m_1383_19_alg».proof.Proof.KernelIdealArgs
import proofs.«169155_g70909910057105_cont_sun_m_1383_19_alg».proof.Proof.KernelIdealFinite
import proofs.«169155_g70909910057105_cont_sun_m_1383_19_alg».proof.Proof.KernelIdealBridge
import proofs.«169155_g70909910057105_cont_sun_m_1383_19_alg».proof.Proof.RefRun

set_option maxRecDepth 16384

noncomputable section

namespace Cert.KernelIdeal.Body

open Cert.KernelIdeal Cert.KernelIdeal.Gen
open Idealize.ShloMosaic Idealize.ShloMosaic.TcCoe Idealize.ShloMosaic.ValueIdx
open Idealize.SL Idealize.SL.Sem
open Cert.KernelIdeal.State (Args)

variable (m : (ℓ : Loc nD τ sig) → Buf (Elt Ideal) ℓ)

/-! ## The windows' arrays are the launch memory's argument arrays -/

theorem args_ef (c : Dev nD) : (argsOf m c).ef = m ((c.tc : Thread nD τ).loc main_arg2) := V_main_arg2 m c
theorem args_adj (c : Dev nD) : (argsOf m c).adj = m ((c.tc : Thread nD τ).loc main_arg1) := V_main_arg1 m c
theorem args_x (c : Dev nD) : (argsOf m c).x = m ((c.tc : Thread nD τ).loc main_arg0) := V_main_arg0 m c
theorem args_w1e (c : Dev nD) : (argsOf m c).w1e = m ((c.tc : Thread nD τ).loc main_arg4) := V_main_arg4 m c
theorem args_w2e (c : Dev nD) : (argsOf m c).w2e = m ((c.tc : Thread nD τ).loc main_arg9) := V_main_arg9 m c
theorem args_w1n (c : Dev nD) : (argsOf m c).w1n = m ((c.tc : Thread nD τ).loc main_arg3) := V_main_arg3 m c
theorem args_as1 (c : Dev nD) : (argsOf m c).as1 = m ((c.tc : Thread nD τ).loc main_arg5) := V_main_arg5 m c
theorem args_at1 (c : Dev nD) : (argsOf m c).at1 = m ((c.tc : Thread nD τ).loc main_arg6) := V_main_arg6 m c
theorem args_w2n (c : Dev nD) : (argsOf m c).w2n = m ((c.tc : Thread nD τ).loc main_arg8) := V_main_arg8 m c
theorem args_as2 (c : Dev nD) : (argsOf m c).as2 = m ((c.tc : Thread nD τ).loc main_arg10) := V_main_arg10 m c
theorem args_at2 (c : Dev nD) : (argsOf m c).at2 = m ((c.tc : Thread nD τ).loc main_arg11) := V_main_arg11 m c

/-- The first layer's edge coefficients reach their window through a reshape of the 4-vector to one column. -/
theorem args_ae1 (c : Dev nD) (h : Fin 4) :
    (argsOf m c).ae1 (ix2 h (0 : Fin 1)) = m ((c.tc : Thread nD τ).loc main_arg7) (ix1 h) := by
  have e : (V m c main_call0_v0 : S4x1.Idx → EReal)
      = shapeCast S4x1 (m ((c.tc : Thread nD τ).loc main_arg7) : S4.Idx → EReal) shapeCasts_S4_S4x1 := by
    dsimp only [Gen.V, Gen.hostOps0]; after_results; rfl
  show (V m c main_call0_v0 : S4x1.Idx → EReal) (ix2 h (0 : Fin 1)) = _
  rw [e]
  exact shapeCast_apply _ _ (ix2 h (0 : Fin 1)) (ix1 h) (by
    rw [Shape.rowMajor_val_one, Shape.rowMajor_val_two]
    show h.val = h.val * 1 + 0
    omega)

/-- The second layer's likewise. -/
theorem args_ae2 (c : Dev nD) (h : Fin 4) :
    (argsOf m c).ae2 (ix2 h (0 : Fin 1)) = m ((c.tc : Thread nD τ).loc main_arg12) (ix1 h) := by
  have e : (V m c main_call0_v1 : S4x1.Idx → EReal)
      = shapeCast S4x1 (m ((c.tc : Thread nD τ).loc main_arg12) : S4.Idx → EReal) shapeCasts_S4_S4x1 := by
    dsimp only [Gen.V, Gen.hostOps0]; after_results; rfl
  show (V m c main_call0_v1 : S4x1.Idx → EReal) (ix2 h (0 : Fin 1)) = _
  rw [e]
  exact shapeCast_apply _ _ (ix2 h (0 : Fin 1)) (ix1 h) (by
    rw [Shape.rowMajor_val_one, Shape.rowMajor_val_two]
    show h.val = h.val * 1 + 0
    omega)

/-! ## Under the precondition the windows' float arrays are real -/

theorem finiteArgs (h : Cert.Pre_KernelIdeal m) (c : Dev nD) : Bridge.Finite (argsOf m c) := by
  obtain ⟨f0, f2, f3, f4, f5, f6, f7, f8, f9, f10, f11, f12⟩ := Cert.KernelIdeal.Finite.finite_of_pre m h c
  refine ⟨?_, ?_, ?_, ?_, ?_, ?_, ?_, ?_, ?_, ?_, ?_, ?_⟩
  · intro i; rw [args_ef]; exact f2 i
  · intro i; rw [args_x]; exact f0 i
  · intro i; rw [args_w1e]; exact f4 i
  · intro i; rw [args_w2e]; exact f9 i
  · intro i
    obtain ⟨hh, z, rfl⟩ : ∃ (hh : Fin 4) (z : Fin 1), i = ix2 hh z := ⟨i 0, i 1, eq_ix2 i⟩
    obtain rfl : z = 0 := Subsingleton.elim _ _
    rw [args_ae1]; exact f7 (ix1 hh)
  · intro i
    obtain ⟨hh, z, rfl⟩ : ∃ (hh : Fin 4) (z : Fin 1), i = ix2 hh z := ⟨i 0, i 1, eq_ix2 i⟩
    obtain rfl : z = 0 := Subsingleton.elim _ _
    rw [args_ae2]; exact f12 (ix1 hh)
  · intro i; rw [args_w1n]; exact f3 i
  · intro i; rw [args_as1]; exact f5 i
  · intro i; rw [args_at1]; exact f6 i
  · intro i; rw [args_w2n]; exact f8 i
  · intro i; rw [args_as2]; exact f10 i
  · intro i; rw [args_at2]; exact f11 i

/-! ## The kernel's target, in the reference's vocabulary -/

/-- The array the kernel is to leave in its result buffer: the specification's network of the windows' arrays. -/
def outK (c : Dev nD) : S512x2x128.Idx → EReal := fun j =>
  Cert.Spec.DenseGat.network (Bridge.M (argsOf m c)) (Bridge.E (argsOf m c)) (Bridge.X (argsOf m c)) (Bridge.P1 (argsOf m c))
    (Bridge.P2 (argsOf m c)) ⟨(j 0).val, (j 0).isLt⟩ ⟨(j 1).val, (j 1).isLt⟩ ⟨(j 2).val, (j 2).isLt⟩

/-- The network only reads its arguments: equal arguments, equal networks. -/
theorem network_congr {M M' : Fin 512 → Fin 512 → Prop} [i1 : DecidableRel M] [i2 : DecidableRel M'] (hM : M = M')
    {E E' : Fin 512 → Fin 512 → Fin 128 → EReal} (hE : E = E') {X X' : Fin 512 → Fin 2 → Fin 128 → EReal} (hX : X = X')
    {P1 P1' P2 P2' : Cert.Spec.DenseGat.Params} (h1 : P1 = P1') (h2 : P2 = P2') :
    Cert.Spec.DenseGat.network M E X P1 P2 = Cert.Spec.DenseGat.network M' E' X' P1' P2' := by
  subst hM hE hX h1 h2
  have hi : i1 = i2 := Subsingleton.elim _ _
  subst hi
  rfl

theorem M_launch (c : Dev nD) : Bridge.M (argsOf m c) = Cert.ReferenceIdeal.HostRun.Mf (m ((c.tc : Thread nD τ).loc main_arg1)) := by
  funext s t
  show ((argsOf m c).adj (ix2 s t) ≠ 0#32) = _
  rw [args_adj]

theorem E_launch (c : Dev nD) : Bridge.E (argsOf m c) = Cert.ReferenceIdeal.HostRun.Ef (m ((c.tc : Thread nD τ).loc main_arg2)) := by
  funext s t k
  show (argsOf m c).ef (ix3 s t k) = _
  rw [args_ef]

theorem X_launch (c : Dev nD) : Bridge.X (argsOf m c) = Cert.ReferenceIdeal.HostRun.X3f (m ((c.tc : Thread nD τ).loc main_arg0)) := by
  funext p b k
  show (argsOf m c).x (ix3 p b k) = _
  rw [args_x]

theorem P1_launch (c : Dev nD) :
    Bridge.P1 (argsOf m c) = ⟨Cert.ReferenceIdeal.HostRun.Wf (m ((c.tc : Thread nD τ).loc main_arg3)), Cert.ReferenceIdeal.HostRun.Wf (m ((c.tc : Thread nD τ).loc main_arg4)), Cert.ReferenceIdeal.HostRun.Af (m ((c.tc : Thread nD τ).loc main_arg5)), Cert.ReferenceIdeal.HostRun.Af (m ((c.tc : Thread nD τ).loc main_arg6)), Cert.ReferenceIdeal.HostRun.Aef (m ((c.tc : Thread nD τ).loc main_arg7))⟩ := by
  unfold Bridge.P1
  rw [args_w1n, args_w1e, args_as1, args_at1, Cert.Spec.DenseGat.Params.mk.injEq]
  exact ⟨rfl, rfl, rfl, rfl, funext fun h => args_ae1 m c h⟩

theorem P2_launch (c : Dev nD) :
    Bridge.P2 (argsOf m c) = ⟨Cert.ReferenceIdeal.HostRun.Wf (m ((c.tc : Thread nD τ).loc main_arg8)), Cert.ReferenceIdeal.HostRun.Wf (m ((c.tc : Thread nD τ).loc main_arg9)), Cert.ReferenceIdeal.HostRun.Af (m ((c.tc : Thread nD τ).loc main_arg10)), Cert.ReferenceIdeal.HostRun.Af (m ((c.tc : Thread nD τ).loc main_arg11)), Cert.ReferenceIdeal.HostRun.Aef (m ((c.tc : Thread nD τ).loc main_arg12))⟩ := by
  unfold Bridge.P2
  rw [args_w2n, args_w2e, args_as2, args_at2, Cert.Spec.DenseGat.Params.mk.injEq]
  exact ⟨rfl, rfl, rfl, rfl, funext fun h => args_ae2 m c h⟩

/-- The kernel's target at node n, batch slice b, feature j: the network of the launch memory's argument arrays. -/
theorem outK_apply (c : Dev nD) (n : Fin 512) (b : Fin 2) (j : Fin 128) :
    outK m c (ix3 n b j)
      = Cert.Spec.DenseGat.network (Cert.ReferenceIdeal.HostRun.Mf (m ((c.tc : Thread nD τ).loc main_arg1))) (Cert.ReferenceIdeal.HostRun.Ef (m ((c.tc : Thread nD τ).loc main_arg2))) (Cert.ReferenceIdeal.HostRun.X3f (m ((c.tc : Thread nD τ).loc main_arg0)))
        ⟨Cert.ReferenceIdeal.HostRun.Wf (m ((c.tc : Thread nD τ).loc main_arg3)), Cert.ReferenceIdeal.HostRun.Wf (m ((c.tc : Thread nD τ).loc main_arg4)), Cert.ReferenceIdeal.HostRun.Af (m ((c.tc : Thread nD τ).loc main_arg5)), Cert.ReferenceIdeal.HostRun.Af (m ((c.tc : Thread nD τ).loc main_arg6)), Cert.ReferenceIdeal.HostRun.Aef (m ((c.tc : Thread nD τ).loc main_arg7))⟩
        ⟨Cert.ReferenceIdeal.HostRun.Wf (m ((c.tc : Thread nD τ).loc main_arg8)), Cert.ReferenceIdeal.HostRun.Wf (m ((c.tc : Thread nD τ).loc main_arg9)), Cert.ReferenceIdeal.HostRun.Af (m ((c.tc : Thread nD τ).loc main_arg10)), Cert.ReferenceIdeal.HostRun.Af (m ((c.tc : Thread nD τ).loc main_arg11)), Cert.ReferenceIdeal.HostRun.Aef (m ((c.tc : Thread nD τ).loc main_arg12))⟩
        n b j := by
  unfold outK
  exact congrFun (congrFun (congrFun (network_congr (M_launch m c) (E_launch m c) (X_launch m c) (P1_launch m c) (P2_launch m c)) n) b) j

/-! ## The claim, from the grid points' facts -/

/-- Parameters with equal fields are equal. -/
theorem params_congr {a a' b b' : Fin 128 → Fin 128 → EReal} {s s' t t' : Fin 4 → Fin 32 → EReal} {e e' : Fin 4 → EReal}
    (ha : a = a') (hb : b = b') (hs : s = s') (ht : t = t') (he : e = e') :
    (⟨a, b, s, t, e⟩ : Cert.Spec.DenseGat.Params) = ⟨a', b', s', t', e'⟩ := by
  subst ha hb hs ht he
  rfl

/-- THE CLAIM, given what the grid's points do to the buffers: from memories that agree on the thirteen arguments, under
    the precondition, the idealized kernel and the reference both run to the end, leave equal results — the
    specification's network of the arguments — and leave the arguments as they were. -/
theorem algebraic_of
    (hPF : ∀ (m : (ℓ : Loc nD τ sig) → Buf (Elt Ideal) ℓ) (h : Cert.Pre_KernelIdeal m) (c : Dev nD),
      PointFacts m c (argsOf m c) (outK m c)) :
    Cert.algebraic_KernelIdeal_ReferenceIdeal := by
  intro m g m' g' hpre hag
  refine ⟨fun c => outK m c, kernel_value m g (fun c => argsOf m c) (fun c => outK m c) (fun c => hPF m hpre c), ?_⟩
  refine (θ_run (Cert.ReferenceIdeal.defs (F := Ideal)) _ _).mono (fun _ h c => ?_)
    (StableHlo.run_seq Cert.ReferenceIdeal.HostRun.scopedRefs_eq Cert.ReferenceIdeal.HostRun.scopedSems_eq Cert.ReferenceIdeal.defs Cert.ReferenceIdeal.main (fun _ => Cert.ReferenceIdeal.HostRun.ops)
      Cert.ReferenceIdeal.HostRun.main_eq (fun _ => Cert.ReferenceIdeal.HostRun.ops_sub) m' g' (fun _ => Cert.ReferenceIdeal.HostRun.ops_fresh))
  obtain ⟨a0, a1, a2, a3, a4, a5, a6, a7, a8, a9, a10, a11, a12⟩ := hag c
  refine ⟨?_, (h c Cert.ReferenceIdeal.main_arg0).trans (Cert.ReferenceIdeal.HostRun.keep (StableHlo.launchContents m' c) Cert.ReferenceIdeal.main_arg0 (by decide) (by decide) (by decide) (by decide) (by decide) (by decide) (by decide)),
    (h c Cert.ReferenceIdeal.main_arg1).trans (Cert.ReferenceIdeal.HostRun.keep (StableHlo.launchContents m' c) Cert.ReferenceIdeal.main_arg1 (by decide) (by decide) (by decide) (by decide) (by decide) (by decide) (by decide)),
    (h c Cert.ReferenceIdeal.main_arg2).trans (Cert.ReferenceIdeal.HostRun.keep (StableHlo.launchContents m' c) Cert.ReferenceIdeal.main_arg2 (by decide) (by decide) (by decide) (by decide) (by decide) (by decide) (by decide)),
    (h c Cert.ReferenceIdeal.main_arg3).trans (Cert.ReferenceIdeal.HostRun.keep (StableHlo.launchContents m' c) Cert.ReferenceIdeal.main_arg3 (by decide) (by decide) (by decide) (by decide) (by decide) (by decide) (by decide)),
    (h c Cert.ReferenceIdeal.main_arg4).trans (Cert.ReferenceIdeal.HostRun.keep (StableHlo.launchContents m' c) Cert.ReferenceIdeal.main_arg4 (by decide) (by decide) (by decide) (by decide) (by decide) (by decide) (by decide)),
    (h c Cert.ReferenceIdeal.main_arg5).trans (Cert.ReferenceIdeal.HostRun.keep (StableHlo.launchContents m' c) Cert.ReferenceIdeal.main_arg5 (by decide) (by decide) (by decide) (by decide) (by decide) (by decide) (by decide)),
    (h c Cert.ReferenceIdeal.main_arg6).trans (Cert.ReferenceIdeal.HostRun.keep (StableHlo.launchContents m' c) Cert.ReferenceIdeal.main_arg6 (by decide) (by decide) (by decide) (by decide) (by decide) (by decide) (by decide)),
    (h c Cert.ReferenceIdeal.main_arg7).trans (Cert.ReferenceIdeal.HostRun.keep (StableHlo.launchContents m' c) Cert.ReferenceIdeal.main_arg7 (by decide) (by decide) (by decide) (by decide) (by decide) (by decide) (by decide)),
    (h c Cert.ReferenceIdeal.main_arg8).trans (Cert.ReferenceIdeal.HostRun.keep (StableHlo.launchContents m' c) Cert.ReferenceIdeal.main_arg8 (by decide) (by decide) (by decide) (by decide) (by decide) (by decide) (by decide)),
    (h c Cert.ReferenceIdeal.main_arg9).trans (Cert.ReferenceIdeal.HostRun.keep (StableHlo.launchContents m' c) Cert.ReferenceIdeal.main_arg9 (by decide) (by decide) (by decide) (by decide) (by decide) (by decide) (by decide)),
    (h c Cert.ReferenceIdeal.main_arg10).trans (Cert.ReferenceIdeal.HostRun.keep (StableHlo.launchContents m' c) Cert.ReferenceIdeal.main_arg10 (by decide) (by decide) (by decide) (by decide) (by decide) (by decide) (by decide)),
    (h c Cert.ReferenceIdeal.main_arg11).trans (Cert.ReferenceIdeal.HostRun.keep (StableHlo.launchContents m' c) Cert.ReferenceIdeal.main_arg11 (by decide) (by decide) (by decide) (by decide) (by decide) (by decide) (by decide)),
    (h c Cert.ReferenceIdeal.main_arg12).trans (Cert.ReferenceIdeal.HostRun.keep (StableHlo.launchContents m' c) Cert.ReferenceIdeal.main_arg12 (by decide) (by decide) (by decide) (by decide) (by decide) (by decide) (by decide))⟩
  funext jj
  obtain ⟨n, b, j, rfl⟩ : ∃ (n : Fin 512) (b : Fin 2) (j : Fin 128), jj = ix3 n b j := ⟨jj 0, jj 1, jj 2, eq_ix3 jj⟩
  have hv := (congrFun (h c Cert.ReferenceIdeal.main_v309) (ix3 n b j)).trans
    (Cert.ReferenceIdeal.HostRun.reference_value_network (StableHlo.launchContents m' c) n b j)
  rw [hv]
  show _ = outK m c (ix3 n b j)
  rw [outK_apply]
  exact congrFun (congrFun (congrFun (network_congr (congrArg Cert.ReferenceIdeal.HostRun.Mf a1) (congrArg Cert.ReferenceIdeal.HostRun.Ef a2) (congrArg Cert.ReferenceIdeal.HostRun.X3f a0)
    (params_congr (congrArg Cert.ReferenceIdeal.HostRun.Wf a3) (congrArg Cert.ReferenceIdeal.HostRun.Wf a4) (congrArg Cert.ReferenceIdeal.HostRun.Af a5) (congrArg Cert.ReferenceIdeal.HostRun.Af a6) (congrArg Cert.ReferenceIdeal.HostRun.Aef a7))
    (params_congr (congrArg Cert.ReferenceIdeal.HostRun.Wf a8) (congrArg Cert.ReferenceIdeal.HostRun.Wf a9) (congrArg Cert.ReferenceIdeal.HostRun.Af a10) (congrArg Cert.ReferenceIdeal.HostRun.Af a11) (congrArg Cert.ReferenceIdeal.HostRun.Aef a12))) n) b) j

end Cert.KernelIdeal.Body

end
-- ==== Proof.KernelIdealPointFacts.lean ====
/-
  The three kinds of grid point do to the buffers what the tracked invariant says, for the pipeline's actual buffers and
  the argument arrays as launched: the first point and the middle points here; the last point's output is taken as a
  hypothesis of the assembly below until its own module supplies it.
-/
import proofs.«169155_g70909910057105_cont_sun_m_1383_19_alg».proof.Proof.KernelIdealFactsFirstAcc
import proofs.«169155_g70909910057105_cont_sun_m_1383_19_alg».proof.Proof.KernelIdealFactsMid2
import proofs.«169155_g70909910057105_cont_sun_m_1383_19_alg».proof.Proof.KernelIdealLaunch

set_option maxRecDepth 16384

noncomputable section

namespace Cert.KernelIdeal.Body

open Cert.KernelIdeal Cert.KernelIdeal.Gen
open Idealize.ShloMosaic Idealize.ShloMosaic.TcCoe Idealize.ShloMosaic.ValueIdx
open Idealize.SL Idealize.SL.Sem

/-- The bundle of facts, given the last point's output. -/
theorem pointFacts_of_last (m : (ℓ : Loc nD τ sig) → Buf (Elt Ideal) ℓ) (c : Dev nD) (hfin : Bridge.Finite (argsOf m c))
    (hlast : ∀ (t : Fin cfg0.N) (h0 : ¬isFirst (grid0.coords t)) (h1 : isLast (grid0.coords t)) (y15 : Vec Ideal S4x512x512 .f32),
      agree (argsOf m c) t.val y15 →
      View.canon (namedC (F := Ideal) c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t) (ms12 t) (hs12 t) (ms13 t) (hs13 t) scr0 (Memref.isWhole_whole _) scr1 (Memref.isWhole_whole _) scr2 (Memref.isWhole_whole _) scr3 (Memref.isWhole_whole _) scr4 (Memref.isWhole_whole _) scr5 (Memref.isWhole_whole _) h0 h1 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) y15 (h1Buf (argsOf m c)) (ss1Buf (argsOf m c)) (st1Buf (argsOf m c)) (numBuf (argsOf m c) t.val) (denBuf (argsOf m c) t.val)).1 = outK m c) :
    PointFacts m c (argsOf m c) (outK m c) where
  first := fun t h0 h1 y15 => ⟨first_es2 m c (fun q k => hfin.w2e _) t h0 h1 y15, first_h1 m c t h0 h1 y15, first_ss1 m c t h0 h1 y15,
    first_st1 m c t h0 h1 y15, first_num m c hfin t h0 h1 y15, first_den m c hfin t h0 h1 y15⟩
  mid := midFacts m c hfin
  last := hlast

end Cert.KernelIdeal.Body

end
-- ==== Proof.KernelIdealFactsLast.lean ====
/-
  The last grid point at the pipeline's actual buffers and argument arrays. The last point holds block 7 of 64 source
  rows. From the tracked contents after the seven blocks before it, its own update leaves the numerator and the
  denominator accumulators at the sums over all 512 sources and the layer-2 edge-score scratch right on every row; the
  epilogue then forms, from exactly these three tables, the adjacency entries and layer 2's weights, the output entry
  of every node, batch slice and feature — and on real arrays that entry is the specification's two-layer network.
  The epilogue's formula enters as the hypothesis `hout`, entry by entry.
-/
import proofs.«169155_g70909910057105_cont_sun_m_1383_19_alg».proof.Proof.KernelIdealFactsMid
import proofs.«169155_g70909910057105_cont_sun_m_1383_19_alg».proof.Proof.KernelIdealStateReal
import proofs.«169155_g70909910057105_cont_sun_m_1383_19_alg».proof.Proof.KernelIdealLaunch

set_option maxRecDepth 16384

noncomputable section

namespace Cert.KernelIdeal.Body

open Cert.KernelIdeal Cert.KernelIdeal.Gen
open Idealize.ShloMosaic Idealize.ShloMosaic.TcCoe Idealize.ShloMosaic.Tactic Idealize.ShloMosaic.ValueIdx
open Idealize.SL Idealize.SL.Sem
open Cert.KernelIdeal.State (Args rowOf)

variable (m : (ℓ : Loc nD τ sig) → Buf (Elt Ideal) ℓ)

/-- What the last point's body names, at the pipeline's buffers, the windows' blocks and the tracked contents. -/
abbrev RC (c : Dev nD) (t : Fin cfg0.N) (h0 : ¬isFirst (grid0.coords t)) (h1 : isLast (grid0.coords t))
    (y15 : Vec Ideal S4x512x512 .f32) :=
  namedC (F := Ideal) c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t) (ms12 t) (hs12 t) (ms13 t) (hs13 t) scr0 (Memref.isWhole_whole _) scr1 (Memref.isWhole_whole _) scr2 (Memref.isWhole_whole _) scr3 (Memref.isWhole_whole _) scr4 (Memref.isWhole_whole _) scr5 (Memref.isWhole_whole _) h0 h1 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) y15 (h1Buf (argsOf m c)) (ss1Buf (argsOf m c)) (st1Buf (argsOf m c)) (numBuf (argsOf m c) t.val) (denBuf (argsOf m c) t.val)

set_option maxHeartbeats 4000000 in
/-- After the last point's own update the numerator accumulator holds the sums over all 512 sources. -/
theorem last_num (c : Dev nD) (hfin : Bridge.Finite (argsOf m c)) (t : Fin cfg0.N) (h0 : ¬isFirst (grid0.coords t))
    (h1 : isLast (grid0.coords t)) (y15 : Vec Ideal S4x512x512 .f32) :
    (fun b t' q => View.canon (RC m c t h0 h1 y15).2.2.1 (ix3 b t' q)) = Bridge.numA (argsOf m c) := by
  have ht7 : t.val = 7 := (isLast_iff t).mp h1
  funext b t' q
  refine (num1_last_canon c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t) (ms12 t) (hs12 t) (ms13 t) (hs13 t) scr0 (Memref.isWhole_whole _) scr1 (Memref.isWhole_whole _) scr2 (Memref.isWhole_whole _) scr3 (Memref.isWhole_whole _) scr4 (Memref.isWhole_whole _) scr5 (Memref.isWhole_whole _) h0 h1 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) y15 (h1Buf (argsOf m c)) (ss1Buf (argsOf m c)) (st1Buf (argsOf m c)) (numBuf (argsOf m c) t.val) (denBuf (argsOf m c) t.val) (argsOf m c) (blkOf t) (coord0_val t)
    (win_ef m c t) (win_adj m c t) (win_w1e m c t) (win_ae1 m c t) (h1Buf_at (argsOf m c))
    (fun p b h => scr_ss (argsOf m c) p b h) (scr_st (argsOf m c)) (numBuf_at (argsOf m c) t.val)
    (fun q k => hfin.w1e (ix2 q k)) (fun b h s t => Bridge.p1_real hfin b h s t) (fun b s q => Bridge.h1_real hfin b s q)
    (ix3 b t' q)).trans ?_
  show State.num1 (argsOf m c) (t.val + 1) b t' q = State.num1 (argsOf m c) 8 b t' q
  rw [ht7]

set_option maxHeartbeats 4000000 in
/-- After the last point's own update the denominator accumulator holds the sums over all 512 sources. -/
theorem last_den (c : Dev nD) (hfin : Bridge.Finite (argsOf m c)) (t : Fin cfg0.N) (h0 : ¬isFirst (grid0.coords t))
    (h1 : isLast (grid0.coords t)) (y15 : Vec Ideal S4x512x512 .f32) :
    (fun r t' => View.canon (RC m c t h0 h1 y15).2.2.2.1 (ix2 r t')) = Bridge.denA (argsOf m c) := by
  have ht7 : t.val = 7 := (isLast_iff t).mp h1
  funext r t'
  refine (den1_last_canon c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t) (ms12 t) (hs12 t) (ms13 t) (hs13 t) scr0 (Memref.isWhole_whole _) scr1 (Memref.isWhole_whole _) scr2 (Memref.isWhole_whole _) scr3 (Memref.isWhole_whole _) scr4 (Memref.isWhole_whole _) scr5 (Memref.isWhole_whole _) h0 h1 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) y15 (h1Buf (argsOf m c)) (ss1Buf (argsOf m c)) (st1Buf (argsOf m c)) (numBuf (argsOf m c) t.val) (denBuf (argsOf m c) t.val) (argsOf m c) (blkOf t) (coord0_val t)
    (win_ef m c t) (win_adj m c t) (win_w1e m c t) (win_ae1 m c t)
    (fun p b h => scr_ss (argsOf m c) p b h) (scr_st (argsOf m c)) (scr_den (argsOf m c) t.val)
    (fun q k => hfin.w1e (ix2 q k)) (ix2 r t')).trans ?_
  show State.den1 (argsOf m c) (t.val + 1) ⟨r.val / 4, _⟩ ⟨r.val % 4, _⟩ t' = State.den1 (argsOf m c) 8 ⟨r.val / 4, _⟩ ⟨r.val % 4, _⟩ t'
  rw [ht7]

set_option maxHeartbeats 4000000 in
/-- After the last point's slice store the layer-2 edge-score scratch is right on every row. -/
theorem last_es (c : Dev nD) (hfin : Bridge.Finite (argsOf m c)) (t : Fin cfg0.N) (h0 : ¬isFirst (grid0.coords t))
    (h1 : isLast (grid0.coords t)) (y15 : Vec Ideal S4x512x512 .f32) (hag : agree (argsOf m c) t.val y15) :
    (fun h s t' => scr0.view.read (Elt Ideal) (scr0.view.writes (Elt Ideal) ((Memref.isWhole_whole cc0_scratch0).unread y15) (RC m c t h0 h1 y15).2.1) (ix3 h s t')) = Bridge.es2A (argsOf m c) := by
  have ht7 : t.val = 7 := (isLast_iff t).mp h1
  funext h s t'
  exact es2_last c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t) (ms12 t) (hs12 t) (ms13 t) (hs13 t) scr0 (Memref.isWhole_whole _) scr1 (Memref.isWhole_whole _) scr2 (Memref.isWhole_whole _) scr3 (Memref.isWhole_whole _) scr4 (Memref.isWhole_whole _) scr5 (Memref.isWhole_whole _) h0 h1 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) y15 (h1Buf (argsOf m c)) (ss1Buf (argsOf m c)) (st1Buf (argsOf m c)) (numBuf (argsOf m c) t.val) (denBuf (argsOf m c) t.val) (argsOf m c) (blkOf t) (coord0_val t)
    (win_ef m c t) (win_w2e m c t) (win_ae2 m c t) (fun q k => hfin.w2e (ix2 q k)) (fun h s tt hlt => hag h s tt hlt) h s t'
    (by show s.val < 64 * (t.val + 1); have := s.isLt; omega)

set_option maxHeartbeats 4000000 in
/-- THE LAST POINT: given the epilogue's formula entry by entry, the output block it leaves is the kernel's target. -/
theorem lastFacts (c : Dev nD) (hfin : Bridge.Finite (argsOf m c))
    (hout : ∀ (t : Fin cfg0.N) (h0 : ¬isFirst (grid0.coords t)) (h1 : isLast (grid0.coords t)) (y15 : Vec Ideal S4x512x512 .f32)
      (n : Fin 512) (b : Fin 2) (q : Fin 128),
      (∀ (s : Fin 512) (k : Fin 128), ∃ r : ℝ, (Last.h2 (iblk m c 10 t) (Last.o1 (fun b t' q => View.canon (RC m c t h0 h1 y15).2.2.1 (ix3 b t' q)) (fun r t' => View.canon (RC m c t h0 h1 y15).2.2.2.1 (ix2 r t')) b)) s k = (r : EReal)) →
      (∀ (h : Fin 4) (s t' : Fin 512), ∃ r : ℝ,
        Last.attn2 (iblk m c 1 t) (fun h s t' => scr0.view.read (Elt Ideal) (scr0.view.writes (Elt Ideal) ((Memref.isWhole_whole cc0_scratch0).unread y15) (RC m c t h0 h1 y15).2.1) (ix3 h s t')) (iblk m c 11 t) (iblk m c 12 t) (Last.h2 (iblk m c 10 t) (Last.o1 (fun b t' q => View.canon (RC m c t h0 h1 y15).2.2.1 (ix3 b t' q)) (fun r t' => View.canon (RC m c t h0 h1 y15).2.2.2.1 (ix2 r t')) b)) h s t' = (r : EReal)) →
      View.canon (RC m c t h0 h1 y15).1 (ix3 n b q)
        = Last.OUT (fun b t' q => View.canon (RC m c t h0 h1 y15).2.2.1 (ix3 b t' q)) (fun r t' => View.canon (RC m c t h0 h1 y15).2.2.2.1 (ix2 r t')) (fun h s t' => scr0.view.read (Elt Ideal) (scr0.view.writes (Elt Ideal) ((Memref.isWhole_whole cc0_scratch0).unread y15) (RC m c t h0 h1 y15).2.1) (ix3 h s t')) (iblk m c 1 t) (iblk m c 10 t) (iblk m c 11 t) (iblk m c 12 t) n b q) :
    ∀ (t : Fin cfg0.N) (h0 : ¬isFirst (grid0.coords t)) (h1 : isLast (grid0.coords t)) (y15 : Vec Ideal S4x512x512 .f32),
    agree (argsOf m c) t.val y15 → View.canon (RC m c t h0 h1 y15).1 = outK m c := by
  intro t h0 h1 y15 hag
  funext jj
  obtain ⟨n, b, q, rfl⟩ : ∃ (n : Fin 512) (b : Fin 2) (q : Fin 128), jj = ix3 n b q := ⟨jj 0, jj 1, jj 2, eq_ix3 jj⟩
  have key := hout t h0 h1 y15 n b q
  rw [last_num m c hfin t h0 h1 y15, last_den m c hfin t h0 h1 y15, last_es m c hfin t h0 h1 y15 hag] at key
  have e1 := blk_1 m c t
  have e10 := blk_10 m c t
  have e11 := blk_11 m c t
  have e12 := blk_12 m c t
  rw [key (fun s k => by rw [e10]; exact Bridge.h2_real hfin b s k)
    (fun h s t' => by rw [e1, e10, e11, e12]; exact Bridge.attn2_real hfin b h s t')]
  rw [e1, e10, e11, e12, Bridge.OUT_eq_network hfin]
  rfl

end Cert.KernelIdeal.Body

end
-- ==== Proof.KernelIdealLast.lean ====
/-
  The last grid point's epilogue: what it stores into the output buffer. After the point's own update of the layer-1
  accumulators the epilogue divides the numerator by the guarded denominator (layer 1's output), projects it with the
  second layer's node weights, forms the per-head source and target scores, the masked exponentials of the rectified
  score sums over all 512 x 512 pairs, their column sums, the normalised weights, and the weighted sums of the projected
  features (three products of high and low parts, which collapse to one when the operands are finite); the result for
  batch slice b goes to the output block (:, b, :). The explicit functions are those of KernelIdealLastDefs.

-/
import proofs.«169155_g70909910057105_cont_sun_m_1383_19_alg».proof.Proof.KernelIdealLastDefs
import proofs.«169155_g70909910057105_cont_sun_m_1383_19_alg».proof.Proof.KernelIdealCovers
import proofs.«169155_g70909910057105_cont_sun_m_1383_19_alg».proof.Proof.KernelIdealDen
import proofs.«169155_g70909910057105_cont_sun_m_1383_19_alg».proof.Proof.KernelIdealScore
import proofs.«169155_g70909910057105_cont_sun_m_1383_19_alg».proof.Proof.LibDenseAttention
import Idealize.ShloMosaic.Lib.ValueLayout
import Idealize.ShloMosaic.Lib.Pipeline.FrameBody

set_option maxRecDepth 16384

noncomputable section

namespace Cert.KernelIdeal.Payloads

open Cert.KernelIdeal Cert.KernelIdeal.Gen Idealize.ShloMosaic Idealize.ShloMosaic.ValueIdx
open Cert.Spec.DenseGat (feat headOf colOf leaky leakSlope eps)
open Cert.KernelIdeal.Last

/-- The reciprocal table: entry (t, r) is one over the guarded denominator (r, t). -/
theorem pay16_apply (den : Vec Ideal S8x512 .f32) (t : Fin 512) (r : Fin 8) :
    k0_pay16 (F := Ideal) den (ix2 t r) = Ideal.div one32 (den (ix2 r t) + eps) := by
  unfold k0_pay16
  rw [transpose_ix2_apply]
  rfl

/-- A 512 x 32 block of the numerator scaled, row by row, by column o of the reciprocal table. -/
theorem scaled_apply (rec : FVec Ideal S512x8 .f32) (n : Vec Ideal S1x512x32 .f32) (o : ℕ) (ho : o < 8)
    (hs : S512x8.Slices ![0, o] S512x1) (p : Fin 512) (d : Fin 32) :
    mulf (shapeCast S512x32 n shapeCasts_S1x512x32_S512x32)
        (broadcastTo S512x32 (extractStridedSlice S512x1 ![0, o] rec hs) broadcasts_S512x1_S512x32) (ix2 p d)
      = n (ix3 (0 : Fin 1) p d) * rec (ix2 p (⟨o, ho⟩ : Fin 8)) := by
  show shapeCast S512x32 n shapeCasts_S1x512x32_S512x32 (ix2 p d)
      * broadcastTo S512x32 (extractStridedSlice S512x1 ![0, o] rec hs) broadcasts_S512x1_S512x32 (ix2 p d) = _
  rw [shapeCast_1ab_ab_apply, broadcastTo_apply _ _ (ix2 p d) (ix2 p (0 : Fin 1)) (fun c => by
        match c with
        | ⟨0, _⟩ => rfl
        | ⟨1, _⟩ => rfl)]
  refine congrArg (n (ix3 (0 : Fin 1) p d) * ·) ?_
  exact extractStridedSlice_apply _ rec _ _ (ix2 p (⟨o, ho⟩ : Fin 8)) (fun c => by
    match c with
    | ⟨0, _⟩ => exact (by omega : p.val = 0 + p.val)
    | ⟨1, _⟩ => exact (by omega : o = o + 0))

theorem pay35_apply (rec : FVec Ideal S512x8 .f32) (n : Vec Ideal S1x512x32 .f32) (p : Fin 512) (d : Fin 32) :
    k0_pay35 (F := Ideal) rec n (ix2 p d) = n (ix3 (0 : Fin 1) p d) * rec (ix2 p (⟨4, by decide⟩ : Fin 8)) :=
  scaled_apply rec n 4 (by decide) slices_S512x8_o0_4_S512x1 p d
theorem pay36_apply (rec : FVec Ideal S512x8 .f32) (n : Vec Ideal S1x512x32 .f32) (p : Fin 512) (d : Fin 32) :
    k0_pay36 (F := Ideal) rec n (ix2 p d) = n (ix3 (0 : Fin 1) p d) * rec (ix2 p (⟨5, by decide⟩ : Fin 8)) :=
  scaled_apply rec n 5 (by decide) slices_S512x8_o0_5_S512x1 p d
theorem pay37_apply (rec : FVec Ideal S512x8 .f32) (n : Vec Ideal S1x512x32 .f32) (p : Fin 512) (d : Fin 32) :
    k0_pay37 (F := Ideal) rec n (ix2 p d) = n (ix3 (0 : Fin 1) p d) * rec (ix2 p (⟨6, by decide⟩ : Fin 8)) :=
  scaled_apply rec n 6 (by decide) slices_S512x8_o0_6_S512x1 p d
/-- The fourth block is scaled where it is used: the block itself, and the reciprocals' last column. -/
theorem pay38_39_apply (rec : FVec Ideal S512x8 .f32) (n : Vec Ideal S1x512x32 .f32) (p : Fin 512) (d : Fin 32) :
    mulf (k0_pay38 (F := Ideal) n) (broadcastTo S512x32 (k0_pay39 (F := Ideal) rec) broadcasts_S512x1_S512x32) (ix2 p d)
      = n (ix3 (0 : Fin 1) p d) * rec (ix2 p (⟨7, by decide⟩ : Fin 8)) :=
  scaled_apply rec n 7 (by decide) slices_S512x8_o0_7_S512x1 p d

/-- Column 32 h + d of four 512 x 32 blocks set side by side is column d of block h. -/
theorem cols4_apply {α : Type} (q0 q1 q2 q3 : S512x32.Idx → α)
    (hc : Shape.Concatenates (([⟨S512x32, q0⟩, ⟨S512x32, q1⟩, ⟨S512x32, q2⟩, ⟨S512x32, q3⟩] : List ((s : Shape) × (s.Idx → α))).map (·.1)) S512x128 1)
    (p : Fin 512) (h : Fin 4) (d : Fin 32) :
    concatenate S512x128 1 [⟨S512x32, q0⟩, ⟨S512x32, q1⟩, ⟨S512x32, q2⟩, ⟨S512x32, q3⟩] hc (ix2 p (feat h d))
      = (match h with | ⟨0, _⟩ => q0 | ⟨1, _⟩ => q1 | ⟨2, _⟩ => q2 | ⟨3, _⟩ => q3) (ix2 p d) := by
  have hoff : ∀ (r : Fin 128) (b : Fin S512x32.rank), b.cast (rfl : S512x32.rank = S512x128.rank) ≠ (1 : Fin S512x128.rank) →
      ((ix2 p d : S512x32.Idx) b).val = ((ix2 p r : S512x128.Idx) (b.cast rfl)).val := fun r b hb => by
    match b with
    | ⟨0, _⟩ => rfl
    | ⟨1, _⟩ => exact absurd rfl hb
  match h with
  | ⟨0, _⟩ =>
    exact concatenate_apply_piece (1 : Fin S512x128.rank) _ hc _ 0 (by simp) S512x32 q0 rfl rfl (32 * 0) rfl (ix2 p d) (hoff _)
      (by show 32 * 0 + d.val = 32 * 0 + d.val; rfl)
  | ⟨1, _⟩ =>
    exact concatenate_apply_piece (1 : Fin S512x128.rank) _ hc _ 1 (by simp) S512x32 q1 rfl rfl (32 * 1) rfl (ix2 p d) (hoff _)
      (by show 32 * 1 + d.val = 32 * 1 + d.val; rfl)
  | ⟨2, _⟩ =>
    exact concatenate_apply_piece (1 : Fin S512x128.rank) _ hc _ 2 (by simp) S512x32 q2 rfl rfl (32 * 2) rfl (ix2 p d) (hoff _)
      (by show 32 * 2 + d.val = 32 * 2 + d.val; rfl)
  | ⟨3, _⟩ =>
    exact concatenate_apply_piece (1 : Fin S512x128.rank) _ hc _ 3 (by simp) S512x32 q3 rfl rfl (32 * 3) rfl (ix2 p d) (hoff _)
      (by show 32 * 3 + d.val = 32 * 3 + d.val; rfl)

/-- A 512 x 128 matrix times the transposed 128 x 128 weights, into a zero accumulator: entry (p, q). -/
theorem matproj_apply (g : FVec Ideal S512x128 .f32) (w : Vec Ideal S128x128 .f32) (p : Fin 512) (q : Fin 128) :
    matmul (φ₁ := .f32) (φ₂ := .f32) dProj none g w (constant S512x128 .f32 0x00000000#32) (ix2 p q) = ∑ k : Fin 128, g (ix2 p k) * w (ix2 q k) := by
  refine (Ideal.matmul_constant_zero_apply dProj none _ _ _).trans ?_
  rw [← Equiv.sum_comp (contrEquiv1 dProj 128 rfl rfl).symm]
  refine Finset.sum_congr rfl fun k _ => ?_
  have hk := contrEquiv1_symm_val dProj 128 rfl rfl k
  have el : dProj.lhsIdx (ix2 p q) ((contrEquiv1 dProj 128 rfl rfl).symm k) = ix2 p k := funext fun a => Fin.ext (by
    match a with
    | ⟨0, _⟩ => exact dProj_lhs0 _ _
    | ⟨1, _⟩ => exact (dProj_lhs1 _ _).trans hk)
  have er : dProj.rhsIdx (ix2 p q) ((contrEquiv1 dProj 128 rfl rfl).symm k) = ix2 q k := funext fun a => Fin.ext (by
    match a with
    | ⟨0, _⟩ => exact dProj_rhs0 _ _
    | ⟨1, _⟩ => exact (dProj_rhs1 _ _).trans hk)
  rw [el, er]

theorem headOf_feat (h : Fin 4) (d : Fin 32) : headOf (feat h d) = h :=
  Fin.ext (by show (32 * h.val + d.val) / 32 = h.val; have := d.isLt; omega)
theorem colOf_feat (h : Fin 4) (d : Fin 32) : colOf (feat h d) = d :=
  Fin.ext (by show (32 * h.val + d.val) % 32 = d.val; have := d.isLt; omega)

/-- Layer 1's output of the second batch slice as the body assembles it: four column blocks of the numerator, block h
    scaled by column 4 + h of the reciprocal table. -/
def h1bB (rec : FVec Ideal S512x8 .f32) (n0 n1 n2 n3 : Vec Ideal S1x512x32 .f32) : FVec Ideal S512x128 .f32 :=
  concatenate S512x128 1 [⟨S512x32, k0_pay35 (F := Ideal) rec n0⟩, ⟨S512x32, k0_pay36 (F := Ideal) rec n1⟩, ⟨S512x32, k0_pay37 (F := Ideal) rec n2⟩,
    ⟨S512x32, mulf (k0_pay38 (F := Ideal) n3) (broadcastTo S512x32 (k0_pay39 (F := Ideal) rec) broadcasts_S512x1_S512x32)⟩]
    concatenates_S512x32_S512x32_S512x32_S512x32_S512x128_d1

theorem pay40_eq (rec : FVec Ideal S512x8 .f32) (n0 n1 n2 n3 : Vec Ideal S1x512x32 .f32) (w : Vec Ideal S128x128 .f32) :
    k0_pay40 (F := Ideal) (k0_pay35 rec n0) (k0_pay36 rec n1) (k0_pay37 rec n2) (k0_pay38 n3) (k0_pay39 rec) w
      = matmul (φ₁ := .f32) (φ₂ := .f32) dProj none (h1bB rec n0 n1 n2 n3) w (constant S512x128 .f32 0x00000000#32) := rfl

theorem h1bB_apply (rec : FVec Ideal S512x8 .f32) (n0 n1 n2 n3 : Vec Ideal S1x512x32 .f32) (p : Fin 512) (h : Fin 4) (d : Fin 32) :
    h1bB rec n0 n1 n2 n3 (ix2 p (feat h d))
      = (match h with | ⟨0, _⟩ => n0 | ⟨1, _⟩ => n1 | ⟨2, _⟩ => n2 | ⟨3, _⟩ => n3) (ix3 (0 : Fin 1) p d) * rec (ix2 p (row8 1 h)) := by
  unfold h1bB
  rw [cols4_apply]
  match h with
  | ⟨0, _⟩ => exact pay35_apply rec n0 p d
  | ⟨1, _⟩ => exact pay36_apply rec n1 p d
  | ⟨2, _⟩ => exact pay37_apply rec n2 p d
  | ⟨3, _⟩ => exact pay38_39_apply rec n3 p d

/-- With the reciprocal table and the numerator blocks read off the accumulators, that is layer 1's output. -/
theorem h1bB_eq_o1 (num : Fin 2 → Fin 512 → Fin 128 → EReal) (den : Fin 8 → Fin 512 → EReal)
    (rec : FVec Ideal S512x8 .f32) (n0 n1 n2 n3 : Vec Ideal S1x512x32 .f32)
    (hrec : ∀ (p : Fin 512) (r : Fin 8), rec (ix2 p r) = Ideal.div one32 (den r p + eps))
    (hn : ∀ (h : Fin 4) (p : Fin 512) (d : Fin 32),
      (match h with | ⟨0, _⟩ => n0 | ⟨1, _⟩ => n1 | ⟨2, _⟩ => n2 | ⟨3, _⟩ => n3) (ix3 (0 : Fin 1) p d) = num 1 p (feat h d))
    (p : Fin 512) (k : Fin 128) : h1bB rec n0 n1 n2 n3 (ix2 p k) = o1 num den 1 p k := by
  obtain ⟨h, d, rfl⟩ : ∃ h d, k = feat h d := ⟨headOf k, colOf k, (Cert.Spec.DenseGat.feat_headOf_colOf k).symm⟩
  rw [h1bB_apply, hn, hrec]
  unfold o1
  rw [headOf_feat]

/-- Layer 2's projected features as the body forms them. -/
theorem pay40_apply (rec : FVec Ideal S512x8 .f32) (n0 n1 n2 n3 : Vec Ideal S1x512x32 .f32) (w : Vec Ideal S128x128 .f32)
    (p : Fin 512) (q : Fin 128) :
    k0_pay40 (F := Ideal) (k0_pay35 rec n0) (k0_pay36 rec n1) (k0_pay37 rec n2) (k0_pay38 n3) (k0_pay39 rec) w (ix2 p q)
      = ∑ k : Fin 128, h1bB rec n0 n1 n2 n3 (ix2 p k) * w (ix2 q k) := by
  rw [pay40_eq]; exact matproj_apply _ w p q

/-- The source scores of layer 2, for any projected features. -/
theorem pay41_eq (a b c d : FVec Ideal S512x32 .f32) (e : FVec Ideal S512x1 .f32) (w : Vec Ideal S128x128 .f32) (aS : Vec Ideal S4x32 .f32) :
    k0_pay41 (F := Ideal) a b c d e w aS
      = matmul dScore (some .fp32) (k0_pay40 (F := Ideal) a b c d e w) (headvec (F := Ideal) aS) (constant S512x4 .f32 0x00000000#32) := rfl

theorem pay41_apply (a b c d : FVec Ideal S512x32 .f32) (e : FVec Ideal S512x1 .f32) (w : Vec Ideal S128x128 .f32) (aS : Vec Ideal S4x32 .f32)
    (p : Fin 512) (h : Fin 4) :
    k0_pay41 (F := Ideal) a b c d e w aS (ix2 p h) = ∑ dd : Fin 32, k0_pay40 (F := Ideal) a b c d e w (ix2 p (feat h dd)) * aS (ix2 h dd) := by
  rw [pay41_eq]; exact score_of _ aS p h

/-- The target scores of layer 2 (heads along the rows). -/
theorem pay44_eq (g : FVec Ideal S512x128 .f32) (aT : Vec Ideal S4x32 .f32) :
    k0_pay44 (F := Ideal) g (k0_pay42 (F := Ideal) aT) (iota .tc S4x128 32 [0] iota_S4x128_d0_w32) (iota .tc S4x128 32 [1] iota_S4x128_d1_w32) 32#32 k0_pay43
      = transpose S4x512 [1, 0] (matmul dScore (some .fp32) g (headvec (F := Ideal) aT) (constant S512x4 .f32 0x00000000#32)) transposes_S512x4_p1_0_S4x512 := rfl

theorem pay44_apply (g : FVec Ideal S512x128 .f32) (aT : Vec Ideal S4x32 .f32) (h : Fin 4) (p : Fin 512) :
    k0_pay44 (F := Ideal) g (k0_pay42 (F := Ideal) aT) (iota .tc S4x128 32 [0] iota_S4x128_d0_w32) (iota .tc S4x128 32 [1] iota_S4x128_d1_w32) 32#32 k0_pay43 (ix2 h p)
      = ∑ dd : Fin 32, g (ix2 p (feat h dd)) * aT (ix2 h dd) := by
  rw [pay44_eq, transpose_ix2_apply]; exact score_of g aT p h

variable {F : FTy → Type} [FloatOps F]

/-- Mask times the exponential of the rectified score, over all 512 x 512 pairs, as the body spells it. -/
def pOf2 (mask sc : FVec F S512x512 .f32) : FVec F S512x512 .f32 :=
  mulf mask (exp (select (cmpf .oge sc (broadcast S512x512 (Scalar.ofBits .f32 0x00000000#32 : F .f32))) sc
    (mulf (broadcast S512x512 (Scalar.ofBits .f32 0x3E4CCCCD#32 : F .f32)) sc)))

/-- Head o's source score down the rows plus its target score along the columns. -/
def scOf2 (ss : FVec F S512x4 .f32) (st : FVec F S4x512 .f32) (o : ℕ) (hs1 : S512x4.Slices ![0, o] S512x1)
    (hs2 : S4x512.Slices ![o, 0] S1x512) : FVec F S512x512 .f32 :=
  addf (broadcastTo S512x512 (extractStridedSlice S512x1 ![0, o] ss hs1) broadcasts_S512x1_S512x512)
    (broadcastTo S512x512 (extractStridedSlice S1x512 ![o, 0] st hs2) broadcasts_S1x512_S512x512)

theorem pay45_eq (mask : FVec F S512x512 .f32) (g : FVec F S512x128 .f32) (ss : FVec F S512x4 .f32) (a4 : FVec F S4x128 .f32)
    (i0 i1 : IVec S4x128 32) (c : BitVec 32) (v : IVec S4x128 32) (e0 : Vec F S1x512x512 .f32) :
    k0_pay45 mask g ss a4 i0 i1 c v e0
      = pOf2 mask (addf (scOf2 ss (k0_pay44 g a4 i0 i1 c v) 0 slices_S512x4_o0_0_S512x1 slices_S4x512_o0_0_S1x512)
          (shapeCast S512x512 e0 shapeCasts_S1x512x512_S512x512)) := rfl

theorem pay46_eq (g : FVec F S512x128 .f32) (ss : FVec F S512x4 .f32) (a4 : FVec F S4x128 .f32)
    (i0 i1 : IVec S4x128 32) (c : BitVec 32) (v : IVec S4x128 32) :
    k0_pay46 g ss a4 i0 i1 c v = scOf2 ss (k0_pay44 g a4 i0 i1 c v) 1 slices_S512x4_o0_1_S512x1 slices_S4x512_o1_0_S1x512 := rfl

theorem pay47_eq (mask : FVec F S512x512 .f32) (ss : FVec F S512x4 .f32) (st : FVec F S4x512 .f32) (p0 sc1 : FVec F S512x512 .f32)
    (e1 e2 e3 : Vec F S1x512x512 .f32) :
    k0_pay47 mask ss st p0 sc1 e1 e2 e3 = concatenate S2048x512 0 [⟨S512x512, p0⟩,
      ⟨S512x512, pOf2 mask (addf sc1 (shapeCast S512x512 e1 shapeCasts_S1x512x512_S512x512))⟩,
      ⟨S512x512, pOf2 mask (addf (scOf2 ss st 2 slices_S512x4_o0_2_S512x1 slices_S4x512_o2_0_S1x512) (shapeCast S512x512 e2 shapeCasts_S1x512x512_S512x512))⟩,
      ⟨S512x512, pOf2 mask (addf (scOf2 ss st 3 slices_S512x4_o0_3_S512x1 slices_S4x512_o3_0_S1x512) (shapeCast S512x512 e3 shapeCasts_S1x512x512_S512x512))⟩]
      concatenates_S512x512_S512x512_S512x512_S512x512_S2048x512_d0 := rfl

/-- The chain at an entry. -/
theorem pOf2_apply (mask sc : FVec Ideal S512x512 .f32) (i : S512x512.Idx) :
    pOf2 (F := Ideal) mask sc i = mask i * Ideal.exp (leaky (sc i)) := by
  unfold pOf2 leaky leakSlope
  simp only [mulf, cmpf, select, exp, broadcast, Scalar.select, Ideal.mulf_def, Ideal.exp_def, Ideal.cmpf_def]
  have hz : (FloatOps.ofBits FTy.f32 0#32 : Ideal .f32) = 0 := Ideal.ofBits_zero_f32
  rw [hz]
  simp only [cmp_oge_eq_one]
  rfl

/-- The score sum at an entry. -/
theorem scOf2_apply (ss : FVec Ideal S512x4 .f32) (st : FVec Ideal S4x512 .f32) (o : ℕ) (ho : o < 4) (hs1 : S512x4.Slices ![0, o] S512x1)
    (hs2 : S4x512.Slices ![o, 0] S1x512) (s t : Fin 512) :
    scOf2 (F := Ideal) ss st o hs1 hs2 (ix2 s t) = ss (ix2 s (⟨o, ho⟩ : Fin 4)) + st (ix2 (⟨o, ho⟩ : Fin 4) t) := by
  unfold scOf2
  show broadcastTo S512x512 (extractStridedSlice S512x1 ![0, o] ss hs1) broadcasts_S512x1_S512x512 (ix2 s t)
      + broadcastTo S512x512 (extractStridedSlice S1x512 ![o, 0] st hs2) broadcasts_S1x512_S512x512 (ix2 s t) = _
  rw [broadcastTo_apply _ _ (ix2 s t) (ix2 s (0 : Fin 1)) (fun c => by
        match c with
        | ⟨0, _⟩ => rfl
        | ⟨1, _⟩ => rfl),
    broadcastTo_apply _ _ (ix2 s t) (ix2 (0 : Fin 1) t) (fun c => by
        match c with
        | ⟨0, _⟩ => rfl
        | ⟨1, _⟩ => rfl)]
  refine congrArg₂ (· + ·) ?_ ?_
  · exact extractStridedSlice_apply _ ss _ _ (ix2 s (⟨o, ho⟩ : Fin 4)) (fun c => by
      match c with
      | ⟨0, _⟩ => exact (by omega : s.val = 0 + s.val)
      | ⟨1, _⟩ => exact (by omega : o = o + 0))
  · exact extractStridedSlice_apply _ st _ _ (ix2 (⟨o, ho⟩ : Fin 4) t) (fun c => by
      match c with
      | ⟨0, _⟩ => exact (by omega : o = o + 0)
      | ⟨1, _⟩ => exact (by omega : t.val = 0 + t.val))

/-- A head's masked exponential at (s, t), in one formula. -/
def pEntry2 (mask : FVec Ideal S512x512 .f32) (ss : FVec Ideal S512x4 .f32) (st : FVec Ideal S4x512 .f32)
    (e : Vec Ideal S1x512x512 .f32) (h : Fin 4) (s t : Fin 512) : EReal :=
  mask (ix2 s t) * Ideal.exp (leaky (ss (ix2 s h) + st (ix2 h t) + e (ix3 (0 : Fin 1) s t)))

theorem pOf2_scOf2_apply (mask : FVec Ideal S512x512 .f32) (ss : FVec Ideal S512x4 .f32) (st : FVec Ideal S4x512 .f32)
    (e : Vec Ideal S1x512x512 .f32) (o : ℕ) (ho : o < 4) (hs1 : S512x4.Slices ![0, o] S512x1) (hs2 : S4x512.Slices ![o, 0] S1x512)
    (s t : Fin 512) :
    pOf2 (F := Ideal) mask (addf (scOf2 ss st o hs1 hs2) (shapeCast S512x512 e shapeCasts_S1x512x512_S512x512)) (ix2 s t)
      = pEntry2 mask ss st e ⟨o, ho⟩ s t := by
  rw [pOf2_apply]
  show mask (ix2 s t) * Ideal.exp (leaky (scOf2 ss st o hs1 hs2 (ix2 s t) + shapeCast S512x512 e shapeCasts_S1x512x512_S512x512 (ix2 s t))) = _
  rw [scOf2_apply ss st o ho, shapeCast_1ab_ab_apply]
  rfl

/-- Row 512 h + s of four stacked 512 x 512 tables is row s of table h. -/
def row2048 (h : Fin 4) (s : Fin 512) : Fin 2048 := ⟨512 * h.val + s.val, by have := h.isLt; have := s.isLt; omega⟩

theorem rows4_apply {α : Type} (q0 q1 q2 q3 : S512x512.Idx → α)
    (hc : Shape.Concatenates (([⟨S512x512, q0⟩, ⟨S512x512, q1⟩, ⟨S512x512, q2⟩, ⟨S512x512, q3⟩] : List ((s : Shape) × (s.Idx → α))).map (·.1)) S2048x512 0)
    (h : Fin 4) (s t : Fin 512) :
    concatenate S2048x512 0 [⟨S512x512, q0⟩, ⟨S512x512, q1⟩, ⟨S512x512, q2⟩, ⟨S512x512, q3⟩] hc (ix2 (row2048 h s) t)
      = (match h with | ⟨0, _⟩ => q0 | ⟨1, _⟩ => q1 | ⟨2, _⟩ => q2 | ⟨3, _⟩ => q3) (ix2 s t) := by
  have hoff : ∀ (r : Fin 2048) (b : Fin S512x512.rank), b.cast (rfl : S512x512.rank = S2048x512.rank) ≠ (0 : Fin S2048x512.rank) →
      ((ix2 s t : S512x512.Idx) b).val = ((ix2 r t : S2048x512.Idx) (b.cast rfl)).val := fun r b hb => by
    match b with
    | ⟨0, _⟩ => exact absurd rfl hb
    | ⟨1, _⟩ => rfl
  match h with
  | ⟨0, _⟩ =>
    exact concatenate_apply_piece (0 : Fin S2048x512.rank) _ hc _ 0 (by simp) S512x512 q0 rfl rfl (512 * 0) rfl (ix2 s t) (hoff _)
      (by show 512 * 0 + s.val = 512 * 0 + s.val; rfl)
  | ⟨1, _⟩ =>
    exact concatenate_apply_piece (0 : Fin S2048x512.rank) _ hc _ 1 (by simp) S512x512 q1 rfl rfl (512 * 1) rfl (ix2 s t) (hoff _)
      (by show 512 * 1 + s.val = 512 * 1 + s.val; rfl)
  | ⟨2, _⟩ =>
    exact concatenate_apply_piece (0 : Fin S2048x512.rank) _ hc _ 2 (by simp) S512x512 q2 rfl rfl (512 * 2) rfl (ix2 s t) (hoff _)
      (by show 512 * 2 + s.val = 512 * 2 + s.val; rfl)
  | ⟨3, _⟩ =>
    exact concatenate_apply_piece (0 : Fin S2048x512.rank) _ hc _ 3 (by simp) S512x512 q3 rfl rfl (512 * 3) rfl (ix2 s t) (hoff _)
      (by show 512 * 3 + s.val = 512 * 3 + s.val; rfl)

/-- The stacked table of the four heads' masked exponentials, entry (512 h + s, t). -/
theorem pay47_apply (mask : FVec Ideal S512x512 .f32) (ss : FVec Ideal S512x4 .f32) (st : FVec Ideal S4x512 .f32)
    (p0 sc1 : FVec Ideal S512x512 .f32) (e0 e1 e2 e3 : Vec Ideal S1x512x512 .f32)
    (hp0 : ∀ s t : Fin 512, p0 (ix2 s t) = pEntry2 mask ss st e0 ⟨0, by decide⟩ s t)
    (hsc1 : ∀ s t : Fin 512, sc1 (ix2 s t) = ss (ix2 s (⟨1, by decide⟩ : Fin 4)) + st (ix2 (⟨1, by decide⟩ : Fin 4) t))
    (h : Fin 4) (s t : Fin 512) :
    k0_pay47 (F := Ideal) mask ss st p0 sc1 e1 e2 e3 (ix2 (row2048 h s) t)
      = pEntry2 mask ss st (match h with | ⟨0, _⟩ => e0 | ⟨1, _⟩ => e1 | ⟨2, _⟩ => e2 | ⟨3, _⟩ => e3) h s t := by
  rw [pay47_eq, rows4_apply]
  match h with
  | ⟨0, _⟩ => exact hp0 s t
  | ⟨1, _⟩ =>
    show pOf2 mask (addf sc1 (shapeCast S512x512 e1 shapeCasts_S1x512x512_S512x512)) (ix2 s t) = pEntry2 mask ss st e1 ⟨1, by decide⟩ s t
    rw [pOf2_apply]
    show mask (ix2 s t) * Ideal.exp (leaky (sc1 (ix2 s t) + shapeCast S512x512 e1 shapeCasts_S1x512x512_S512x512 (ix2 s t))) = _
    rw [hsc1, shapeCast_1ab_ab_apply]
    rfl
  | ⟨2, _⟩ => exact pOf2_scOf2_apply mask ss st e2 2 (by decide) _ _ s t
  | ⟨3, _⟩ => exact pOf2_scOf2_apply mask ss st e3 3 (by decide) _ _ s t

/-- The column sums of the stacked table: head h, target t, over the 512 sources. -/
theorem pay48_apply (mask : FVec Ideal S512x512 .f32) (ss : FVec Ideal S512x4 .f32) (st : FVec Ideal S4x512 .f32)
    (p0 sc1 : FVec Ideal S512x512 .f32) (e1 e2 e3 : Vec Ideal S1x512x512 .f32) (h : Fin 4) (t : Fin 512) :
    k0_pay48 (F := Ideal) mask ss st p0 sc1 e1 e2 e3 (ix2 h t)
      = ∑ s : Fin 512, k0_pay47 (F := Ideal) mask ss st p0 sc1 e1 e2 e3 (ix2 (row2048 h s) t) := by
  unfold k0_pay48
  refine (Ideal.multiReduction_add_single _ 0x00000000#32 reduces_S4x512x512_S4x512 (.inl rfl) rfl (ix2 h t)).trans ?_
  refine Finset.sum_congr rfl fun i _ => ?_
  have hi : (i : ℕ) < 512 := i.isLt
  have el : reduces_S4x512x512_S4x512.lift (ix2 h t) i = ix3 h (⟨i.val, hi⟩ : Fin 512) t := funext fun c => Fin.ext (by
    match c with
    | ⟨0, _⟩ => rfl
    | ⟨1, _⟩ => rfl
    | ⟨2, _⟩ => rfl)
  rw [el]
  exact shapeCast_apply _ _ (ix3 h (⟨i.val, hi⟩ : Fin 512) t) (ix2 (row2048 h ⟨i.val, hi⟩) t) (by
    rw [Shape.rowMajor_val_two, Shape.rowMajor_val_three]
    show (512 * h.val + i.val) * 512 + t.val = (h.val * 512 + i.val) * 512 + t.val
    omega)

/-- The normalised table: each entry of head h's block times one over the guarded column sum (h, t). -/
theorem pay49_apply (P : FVec Ideal S2048x512 .f32) (D : FVec Ideal S4x512 .f32) (c : Ideal .f32) (h : Fin 4) (s t : Fin 512) :
    k0_pay49 (F := Ideal) P D c (ix2 (row2048 h s) t) = P (ix2 (row2048 h s) t) * Ideal.div one32 (D (ix2 h t) + c) := by
  unfold k0_pay49
  show P (ix2 (row2048 h s) t) * shapeCast S2048x512 (broadcastTo S4x512x512 (shapeCast S4x1x512 (shapeCast S4x1x512
      (divf (broadcast S4x512 (Scalar.ofBits .f32 0x3F800000#32 : Ideal .f32)) (addf D (broadcast S4x512 c))) shapeCasts_S4x512_S4x1x512)
      shapeCasts_S4x1x512_S4x1x512) broadcasts_S4x1x512_S4x512x512) shapeCasts_S4x512x512_S2048x512 (ix2 (row2048 h s) t) = _
  refine congrArg (P (ix2 (row2048 h s) t) * ·) ?_
  rw [shapeCast_apply _ _ (ix2 (row2048 h s) t) (ix3 h s t) (by
    rw [Shape.rowMajor_val_two, Shape.rowMajor_val_three]
    show (h.val * 512 + s.val) * 512 + t.val = (512 * h.val + s.val) * 512 + t.val
    omega),
    broadcastTo_apply _ _ (ix3 h s t) (ix3 h (0 : Fin 1) t) (fun c => by
      match c with
      | ⟨0, _⟩ => rfl
      | ⟨1, _⟩ => rfl
      | ⟨2, _⟩ => rfl),
    shapeCast_self, Cert.Lib.Layout.shapeCast_ab_a1b_apply]
  rfl

/-- The output product's dimension numbers: both operands contracted along their FIRST axis (2048 stacked rows). -/
abbrev dOut := dot_S2048x512_S2048x128_S512x128_0_0_1_1_n_n

theorem dOut_lhs0 (i : S512x128.Idx) (q : dOut.contr.Idx) : (dOut.lhsIdx i q 0).val = (q ⟨0, by decide⟩).val :=
  dOut.lhsIdx_val_of_single rfl i q
theorem dOut_lhs1 (i : S512x128.Idx) (q : dOut.contr.Idx) : (dOut.lhsIdx i q 1).val = (i 0).val := by
  unfold DotDims.lhsIdx
  rw [dif_neg (show ¬(1 : Fin S2048x512.rank) ∈ dOut.lhsBatch by decide), dif_pos (show (1 : Fin S2048x512.rank) ∈ dOut.lhsNonContracting by decide)]
  rfl
theorem dOut_rhs0 (i : S512x128.Idx) (q : dOut.contr.Idx) : (dOut.rhsIdx i q 0).val = (q ⟨0, by decide⟩).val :=
  dOut.rhsIdx_val_of_single rfl i q
theorem dOut_rhs1 (i : S512x128.Idx) (q : dOut.contr.Idx) : (dOut.rhsIdx i q 1).val = (i 1).val := by
  unfold DotDims.rhsIdx
  rw [dif_neg (show ¬(1 : Fin S2048x128.rank) ∈ dOut.rhsBatch by decide), dif_pos (show (1 : Fin S2048x128.rank) ∈ dOut.rhsNonContracting by decide)]
  rfl

/-- The stacked weights' transpose times the stacked features, into a zero accumulator: entry (t, q). -/
theorem matout_apply {φ₁ φ₂ : FTy} (a : FVec Ideal S2048x512 φ₁) (g : FVec Ideal S2048x128 φ₂) (t : Fin 512) (q : Fin 128) :
    matmul dOut none a g (constant S512x128 .f32 0x00000000#32) (ix2 t q) = ∑ r : Fin 2048, a (ix2 r t) * g (ix2 r q) := by
  refine (Ideal.matmul_constant_zero_apply dOut none _ _ _).trans ?_
  rw [← Equiv.sum_comp (contrEquiv1 dOut 2048 rfl rfl).symm]
  refine Finset.sum_congr rfl fun k _ => ?_
  have hk := contrEquiv1_symm_val dOut 2048 rfl rfl k
  have el : dOut.lhsIdx (ix2 t q) ((contrEquiv1 dOut 2048 rfl rfl).symm k) = ix2 k t := funext fun b => Fin.ext (by
    match b with
    | ⟨0, _⟩ => exact (dOut_lhs0 _ _).trans hk
    | ⟨1, _⟩ => exact dOut_lhs1 _ _)
  have er : dOut.rhsIdx (ix2 t q) ((contrEquiv1 dOut 2048 rfl rfl).symm k) = ix2 k q := funext fun b => Fin.ext (by
    match b with
    | ⟨0, _⟩ => exact (dOut_rhs0 _ _).trans hk
    | ⟨1, _⟩ => exact dOut_rhs1 _ _)
  rw [el, er]

/-- The head of each column of the 2048 x 128 layout, as the body computes it (floor division of the column number by 32). -/
def colHeadB : IVec S2048x128 32 :=
  have v757 : IVec S2048x128 32 := iota .tc S2048x128 32 [1] iota_S2048x128_d1_w32
  let v793 : BitVec 1 := Scalar.cmpi .slt 32#32 0#32
  let v794 : BitVec 32 := Scalar.extui v793
  let v795 : BitVec 32 := Scalar.subi 1#32 v794
  have v796 : IVec S2048x128 32 := broadcast S2048x128 v795
  have v797 : IVec S2048x128 1 := cmpi .ne k0_pay53 v796
  have v798 : IVec S2048x128 32 := broadcast S2048x128 32#32
  have v799 : IVec S2048x128 32 := remsi v757 v798
  have v800 : IVec S2048x128 32 := broadcast S2048x128 0#32
  have v801 : IVec S2048x128 1 := cmpi .ne v799 v800
  have v802 : IVec S2048x128 1 := andi v797 v801
  have v803 : IVec S2048x128 32 := broadcast S2048x128 1#32
  have v804 : IVec S2048x128 32 := subi k0_pay52 v803
  select v802 v804 k0_pay52

theorem rowBlock_indep (r : Fin 2048) (q : Fin 128) : k0_pay51 (ix2 r q) = k0_pay51 (ix2 r (0 : Fin 128)) := rfl
theorem colHeadB_indep (r : Fin 2048) (q : Fin 128) : colHeadB (ix2 r q) = colHeadB (ix2 (0 : Fin 2048) q) := rfl
theorem rowBlock_val : ∀ r : Fin 2048, k0_pay51 (ix2 r (0 : Fin 128)) = BitVec.ofNat 32 (r.val / 512) := by decide +kernel
theorem colHeadB_val : ∀ q : Fin 128, colHeadB (ix2 (0 : Fin 2048) q) = BitVec.ofNat 32 (q.val / 32) := by decide +kernel

/-- The block-diagonal selection: row r of the stacked features keeps column q when r's block of 512 rows is q's head. -/
def blockMaskB : IVec S2048x128 1 := cmpi .eq k0_pay51 colHeadB

theorem blockMaskB_apply (r : Fin 2048) (q : Fin 128) :
    blockMaskB (ix2 r q) = if r.val / 512 = q.val / 32 then 1#1 else 0#1 := by
  show IntOp.cmpi .eq (k0_pay51 (ix2 r q)) (colHeadB (ix2 r q)) = _
  rw [rowBlock_indep, colHeadB_indep, rowBlock_val, colHeadB_val]
  have key : ∀ a b : Fin 4, IntOp.cmpi .eq (BitVec.ofNat 32 a.val) (BitVec.ofNat 32 b.val) = if a.val = b.val then 1#1 else 0#1 := by decide
  exact key ⟨r.val / 512, by have := r.isLt; omega⟩ ⟨q.val / 32, by have := q.isLt; omega⟩

/-- The stacked features with everything off the block diagonal zeroed. -/
def hselB (G : FVec F S2048x128 .f32) : FVec F S2048x128 .f32 :=
  select blockMaskB G (broadcast S2048x128 (Scalar.ofBits .f32 0x00000000#32 : F .f32))

theorem hselB_apply (G : FVec Ideal S2048x128 .f32) (r : Fin 2048) (q : Fin 128) :
    hselB (F := Ideal) G (ix2 r q) = if r.val / 512 = q.val / 32 then G (ix2 r q) else 0 := by
  unfold hselB select
  show Scalar.select (blockMaskB (ix2 r q)) _ _ = _
  rw [blockMaskB_apply]
  by_cases hq : r.val / 512 = q.val / 32
  · rw [if_pos hq, if_pos hq]; rfl
  · rw [if_neg hq, if_neg hq]
    show Ideal.ofBits .f32 0x00000000#32 = 0
    exact Ideal.ofBits_zero_f32

/-- The output payload: three products of the high/low parts of the normalised table and of the selected features. -/
theorem pay2_eq (A : FVec F S2048x512 .f32) (G : FVec F S2048x128 .f32) :
    k0_pay2 A G (iota .tc S2048x128 32 [1] iota_S2048x128_d1_w32) k0_pay51 32#32 k0_pay52 k0_pay53 1#32 0#32
      = shapeCast S512x1x128 (addf (addf
          (matmul dOut none (truncf .bf16 A bitsLt_bf16_f32) (truncf .bf16 (hselB G) bitsLt_bf16_f32) (constant S512x128 .f32 0x00000000#32))
          (matmul dOut none (truncf .bf16 A bitsLt_bf16_f32) (truncf .bf16 (subf (hselB G) (hselB G)) bitsLt_bf16_f32) (constant S512x128 .f32 0x00000000#32)))
          (matmul dOut none (truncf .bf16 (subf A A) bitsLt_bf16_f32) (truncf .bf16 (hselB G) bitsLt_bf16_f32) (constant S512x128 .f32 0x00000000#32)))
        shapeCasts_S512x128_S512x1x128 := rfl

/-- Row 512 j + s of four stacked copies is row s. -/
theorem pay50_apply (g : FVec Ideal S512x128 .f32) (j : Fin 4) (s : Fin 512) (q : Fin 128) :
    k0_pay50 (F := Ideal) g (ix2 (row2048 j s) q) = g (ix2 s q) := by
  unfold k0_pay50
  show concatenate S2048x128 0 (List.replicate 4 (⟨S512x128, g⟩ : (s : Shape) × (s.Idx → Ideal .f32)))
      concatenates_S512x128_S512x128_S512x128_S512x128_S2048x128_d0 (ix2 (row2048 j s) q) = _
  exact concatenate_replicate_apply (0 : Fin S2048x128.rank) 4 g _ rfl (ix2 (row2048 j s) q) (ix2 s q)
    (by show s.val = (512 * j.val + s.val) % 512; have := s.isLt; omega) (fun b hb => by
      match b with
      | ⟨0, _⟩ => exact absurd rfl hb
      | ⟨1, _⟩ => rfl)

/-- With finite operands the low parts vanish and the three products are the one. -/
theorem split3_fin (A H : Fin 2048 → EReal) (hA : ∀ r, ∃ x : ℝ, A r = (x : EReal)) (hH : ∀ r, ∃ x : ℝ, H r = (x : EReal)) :
    (∑ r, A r * H r) + (∑ r, A r * (H r - H r)) + (∑ r, (A r - A r) * H r) = ∑ r, A r * H r := by
  choose a ha using hA
  choose h hh using hH
  obtain rfl : A = fun r => (a r : EReal) := funext ha
  obtain rfl : H = fun r => (h r : EReal) := funext hh
  exact Cert.Lib.DenseAttention.split3 Finset.univ a h

/-- The output entry (t, q): the sum over the sources of the normalised weight of q's head times the projected feature. -/
theorem pay2_apply (A : FVec Ideal S2048x512 .f32) (g : FVec Ideal S512x128 .f32) (t : Fin 512) (u : Fin 1) (q : Fin 128)
    (hA : ∀ r : Fin 2048, ∃ x : ℝ, A (ix2 r t) = (x : EReal)) (hg : ∀ s : Fin 512, ∃ x : ℝ, g (ix2 s q) = (x : EReal)) :
    k0_pay2 (F := Ideal) A (k0_pay50 g) (iota .tc S2048x128 32 [1] iota_S2048x128_d1_w32) k0_pay51 32#32 k0_pay52 k0_pay53 1#32 0#32 (ix3 t u q)
      = ∑ s : Fin 512, A (ix2 (row2048 (headOf q) s) t) * g (ix2 s q) := by
  rw [pay2_eq, Cert.Lib.Layout.shapeCast_ab_a1b_apply]
  show (matmul dOut none _ _ _ (ix2 t q) + matmul dOut none _ _ _ (ix2 t q)) + matmul dOut none _ _ _ (ix2 t q) = _
  rw [matout_apply, matout_apply, matout_apply]
  have hH : ∀ r : Fin 2048, ∃ x : ℝ, hselB (F := Ideal) (k0_pay50 g) (ix2 r q) = (x : EReal) := fun r => by
    rw [hselB_apply]
    by_cases hq : r.val / 512 = q.val / 32
    · rw [if_pos hq]
      have hr : r = row2048 ⟨r.val / 512, by have := r.isLt; omega⟩ ⟨r.val % 512, Nat.mod_lt _ (by decide)⟩ :=
        Fin.ext (by show r.val = 512 * (r.val / 512) + r.val % 512; omega)
      rw [hr, pay50_apply]; exact hg _
    · rw [if_neg hq]; exact ⟨0, EReal.coe_zero.symm⟩
  refine (split3_fin (fun r => A (ix2 r t)) (fun r => hselB (F := Ideal) (k0_pay50 g) (ix2 r q)) hA hH).trans ?_
  simp only [hselB_apply, mul_ite, mul_zero]
  refine (Cert.Lib.DenseAttention.sum_block_select 4 512 (q.val / 32) (by have := q.isLt; omega)
    (fun r => A (ix2 r t) * k0_pay50 (F := Ideal) g (ix2 r q))).trans ?_
  refine Finset.sum_congr rfl fun s _ => ?_
  have e : ∀ hlt, (⟨q.val / 32 * 512 + s.val, hlt⟩ : Fin (4 * 512)) = row2048 (headOf q) s := fun _ =>
    Fin.ext (by show q.val / 32 * 512 + s.val = 512 * (q.val / 32) + s.val; omega)
  show A (ix2 (⟨q.val / 32 * 512 + s.val, _⟩ : Fin (4 * 512)) t) * k0_pay50 (F := Ideal) g (ix2 (⟨q.val / 32 * 512 + s.val, _⟩ : Fin (4 * 512)) q) = _
  rw [e, pay50_apply]

/-- The 0/1 edge mask over all pairs: 1 where the adjacency entry is not zero. -/
theorem pay17_apply (adj : Vec Ideal S512x512 .i32) (i : S512x512.Idx) :
    k0_pay17 (F := Ideal) adj i = if adj i ≠ 0#32 then (1 : EReal) else 0 := by
  unfold k0_pay17
  show (((BitVec.setWidth 32 (IntOp.cmpi .ne (adj i) 0#32)).toInt : ℝ) : EReal) = _
  by_cases h : adj i ≠ 0#32
  · have hb : (adj i != 0#32) = true := bne_iff_ne.mpr h
    have e : IntOp.cmpi .ne (adj i) 0#32 = 1#1 := by simp [IntOp.cmpi, hb]
    have e1 : (BitVec.setWidth 32 (1#1 : BitVec 1)).toInt = 1 := by decide
    rw [if_pos h, e, e1]; simp
  · have h' : adj i = 0#32 := not_not.mp h
    have e : IntOp.cmpi .ne (adj i) 0#32 = 0#1 := by simp [IntOp.cmpi, h']
    have e0 : (BitVec.setWidth 32 (0#1 : BitVec 1)).toInt = 0 := by decide
    rw [if_neg h, e, e0]; simp

/-- Layer 2 on projected features g (entry by entry the function X): the stored block's entry (t, q). -/
theorem chainCore (g : FVec Ideal S512x128 .f32) (adj : Vec Ideal S512x512 .i32) (aS aT : Vec Ideal S4x32 .f32)
    (e0 e1 e2 e3 : Vec Ideal S1x512x512 .f32) (X : Fin 512 → Fin 128 → EReal) (ES : Fin 4 → Fin 512 → Fin 512 → EReal)
    (hg : ∀ (p : Fin 512) (k : Fin 128), g (ix2 p k) = X p k)
    (he : ∀ (h : Fin 4) (s t : Fin 512),
      (match h with | ⟨0, _⟩ => e0 | ⟨1, _⟩ => e1 | ⟨2, _⟩ => e2 | ⟨3, _⟩ => e3) (ix3 (0 : Fin 1) s t) = ES h s t)
    (t : Fin 512) (u : Fin 1) (q : Fin 128)
    (hH : ∀ (s : Fin 512) (k : Fin 128), ∃ r : ℝ, X s k = (r : EReal))
    (hA : ∀ (h : Fin 4) (s t' : Fin 512), ∃ r : ℝ, attn2 adj ES aS aT X h s t' = (r : EReal)) :
    k0_pay2 (F := Ideal) (k0_pay49 (F := Ideal) (k0_pay47 (F := Ideal) (k0_pay17 (F := Ideal) adj) (matmul dScore (some .fp32) g (headvec (F := Ideal) aS) (constant S512x4 .f32 0x00000000#32)) (transpose S4x512 [1, 0] (matmul dScore (some .fp32) g (headvec (F := Ideal) aT) (constant S512x4 .f32 0x00000000#32)) transposes_S512x4_p1_0_S4x512) (pOf2 (F := Ideal) (k0_pay17 (F := Ideal) adj) (addf (scOf2 (matmul dScore (some .fp32) g (headvec (F := Ideal) aS) (constant S512x4 .f32 0x00000000#32)) (transpose S4x512 [1, 0] (matmul dScore (some .fp32) g (headvec (F := Ideal) aT) (constant S512x4 .f32 0x00000000#32)) transposes_S512x4_p1_0_S4x512) 0 slices_S512x4_o0_0_S512x1 slices_S4x512_o0_0_S1x512) (shapeCast S512x512 e0 shapeCasts_S1x512x512_S512x512))) (scOf2 (F := Ideal) (matmul dScore (some .fp32) g (headvec (F := Ideal) aS) (constant S512x4 .f32 0x00000000#32)) (transpose S4x512 [1, 0] (matmul dScore (some .fp32) g (headvec (F := Ideal) aT) (constant S512x4 .f32 0x00000000#32)) transposes_S512x4_p1_0_S4x512) 1 slices_S512x4_o0_1_S512x1 slices_S4x512_o1_0_S1x512) e1 e2 e3) (k0_pay48 (F := Ideal) (k0_pay17 (F := Ideal) adj) (matmul dScore (some .fp32) g (headvec (F := Ideal) aS) (constant S512x4 .f32 0x00000000#32)) (transpose S4x512 [1, 0] (matmul dScore (some .fp32) g (headvec (F := Ideal) aT) (constant S512x4 .f32 0x00000000#32)) transposes_S512x4_p1_0_S4x512) (pOf2 (F := Ideal) (k0_pay17 (F := Ideal) adj) (addf (scOf2 (matmul dScore (some .fp32) g (headvec (F := Ideal) aS) (constant S512x4 .f32 0x00000000#32)) (transpose S4x512 [1, 0] (matmul dScore (some .fp32) g (headvec (F := Ideal) aT) (constant S512x4 .f32 0x00000000#32)) transposes_S512x4_p1_0_S4x512) 0 slices_S512x4_o0_0_S512x1 slices_S4x512_o0_0_S1x512) (shapeCast S512x512 e0 shapeCasts_S1x512x512_S512x512))) (scOf2 (F := Ideal) (matmul dScore (some .fp32) g (headvec (F := Ideal) aS) (constant S512x4 .f32 0x00000000#32)) (transpose S4x512 [1, 0] (matmul dScore (some .fp32) g (headvec (F := Ideal) aT) (constant S512x4 .f32 0x00000000#32)) transposes_S512x4_p1_0_S4x512) 1 slices_S512x4_o0_1_S512x1 slices_S4x512_o1_0_S1x512) e1 e2 e3) (Scalar.ofBits .f32 0x24E69595#32 : Ideal .f32)) (k0_pay50 (F := Ideal) g) (iota .tc S2048x128 32 [1] iota_S2048x128_d1_w32) k0_pay51 32#32 k0_pay52 k0_pay53 1#32 0#32 (ix3 t u q)
      = out2 adj ES aS aT X t q := by
  have hSS : ∀ (p : Fin 512) (h : Fin 4), (matmul dScore (some .fp32) g (headvec (F := Ideal) aS) (constant S512x4 .f32 0x00000000#32)) (ix2 p h) = sc2 aS X h p := fun p h => by
    refine (score_of g aS p h).trans ?_
    unfold sc2
    exact Finset.sum_congr rfl fun dd _ => by rw [hg]
  have hST : ∀ (h : Fin 4) (p : Fin 512), (transpose S4x512 [1, 0] (matmul dScore (some .fp32) g (headvec (F := Ideal) aT) (constant S512x4 .f32 0x00000000#32)) transposes_S512x4_p1_0_S4x512) (ix2 h p) = sc2 aT X h p := fun h p => by
    rw [transpose_ix2_apply]
    refine (score_of g aT p h).trans ?_
    unfold sc2
    exact Finset.sum_congr rfl fun dd _ => by rw [hg]
  have hp0 : ∀ s t : Fin 512, (pOf2 (F := Ideal) (k0_pay17 (F := Ideal) adj) (addf (scOf2 (matmul dScore (some .fp32) g (headvec (F := Ideal) aS) (constant S512x4 .f32 0x00000000#32)) (transpose S4x512 [1, 0] (matmul dScore (some .fp32) g (headvec (F := Ideal) aT) (constant S512x4 .f32 0x00000000#32)) transposes_S512x4_p1_0_S4x512) 0 slices_S512x4_o0_0_S512x1 slices_S4x512_o0_0_S1x512) (shapeCast S512x512 e0 shapeCasts_S1x512x512_S512x512))) (ix2 s t) = pEntry2 (k0_pay17 (F := Ideal) adj) (matmul dScore (some .fp32) g (headvec (F := Ideal) aS) (constant S512x4 .f32 0x00000000#32)) (transpose S4x512 [1, 0] (matmul dScore (some .fp32) g (headvec (F := Ideal) aT) (constant S512x4 .f32 0x00000000#32)) transposes_S512x4_p1_0_S4x512) e0 ⟨0, by decide⟩ s t := fun s t =>
    pOf2_scOf2_apply _ _ _ e0 0 (by decide) _ _ s t
  have hsc1 : ∀ s t : Fin 512, (scOf2 (F := Ideal) (matmul dScore (some .fp32) g (headvec (F := Ideal) aS) (constant S512x4 .f32 0x00000000#32)) (transpose S4x512 [1, 0] (matmul dScore (some .fp32) g (headvec (F := Ideal) aT) (constant S512x4 .f32 0x00000000#32)) transposes_S512x4_p1_0_S4x512) 1 slices_S512x4_o0_1_S512x1 slices_S4x512_o1_0_S1x512) (ix2 s t) = (matmul dScore (some .fp32) g (headvec (F := Ideal) aS) (constant S512x4 .f32 0x00000000#32)) (ix2 s (⟨1, by decide⟩ : Fin 4)) + (transpose S4x512 [1, 0] (matmul dScore (some .fp32) g (headvec (F := Ideal) aT) (constant S512x4 .f32 0x00000000#32)) transposes_S512x4_p1_0_S4x512) (ix2 (⟨1, by decide⟩ : Fin 4) t) := fun s t =>
    scOf2_apply _ _ 1 (by decide) _ _ s t
  have hP : ∀ (h : Fin 4) (s t : Fin 512), (k0_pay47 (F := Ideal) (k0_pay17 (F := Ideal) adj) (matmul dScore (some .fp32) g (headvec (F := Ideal) aS) (constant S512x4 .f32 0x00000000#32)) (transpose S4x512 [1, 0] (matmul dScore (some .fp32) g (headvec (F := Ideal) aT) (constant S512x4 .f32 0x00000000#32)) transposes_S512x4_p1_0_S4x512) (pOf2 (F := Ideal) (k0_pay17 (F := Ideal) adj) (addf (scOf2 (matmul dScore (some .fp32) g (headvec (F := Ideal) aS) (constant S512x4 .f32 0x00000000#32)) (transpose S4x512 [1, 0] (matmul dScore (some .fp32) g (headvec (F := Ideal) aT) (constant S512x4 .f32 0x00000000#32)) transposes_S512x4_p1_0_S4x512) 0 slices_S512x4_o0_0_S512x1 slices_S4x512_o0_0_S1x512) (shapeCast S512x512 e0 shapeCasts_S1x512x512_S512x512))) (scOf2 (F := Ideal) (matmul dScore (some .fp32) g (headvec (F := Ideal) aS) (constant S512x4 .f32 0x00000000#32)) (transpose S4x512 [1, 0] (matmul dScore (some .fp32) g (headvec (F := Ideal) aT) (constant S512x4 .f32 0x00000000#32)) transposes_S512x4_p1_0_S4x512) 1 slices_S512x4_o0_1_S512x1 slices_S4x512_o1_0_S1x512) e1 e2 e3) (ix2 (row2048 h s) t) = p2 adj ES aS aT X h s t := fun h s t => by
    rw [pay47_apply _ _ _ _ _ e0 e1 e2 e3 hp0 hsc1 h s t]
    unfold pEntry2 p2
    rw [pay17_apply, hSS, hST, he]
  have hD : ∀ (h : Fin 4) (t : Fin 512), (k0_pay48 (F := Ideal) (k0_pay17 (F := Ideal) adj) (matmul dScore (some .fp32) g (headvec (F := Ideal) aS) (constant S512x4 .f32 0x00000000#32)) (transpose S4x512 [1, 0] (matmul dScore (some .fp32) g (headvec (F := Ideal) aT) (constant S512x4 .f32 0x00000000#32)) transposes_S512x4_p1_0_S4x512) (pOf2 (F := Ideal) (k0_pay17 (F := Ideal) adj) (addf (scOf2 (matmul dScore (some .fp32) g (headvec (F := Ideal) aS) (constant S512x4 .f32 0x00000000#32)) (transpose S4x512 [1, 0] (matmul dScore (some .fp32) g (headvec (F := Ideal) aT) (constant S512x4 .f32 0x00000000#32)) transposes_S512x4_p1_0_S4x512) 0 slices_S512x4_o0_0_S512x1 slices_S4x512_o0_0_S1x512) (shapeCast S512x512 e0 shapeCasts_S1x512x512_S512x512))) (scOf2 (F := Ideal) (matmul dScore (some .fp32) g (headvec (F := Ideal) aS) (constant S512x4 .f32 0x00000000#32)) (transpose S4x512 [1, 0] (matmul dScore (some .fp32) g (headvec (F := Ideal) aT) (constant S512x4 .f32 0x00000000#32)) transposes_S512x4_p1_0_S4x512) 1 slices_S512x4_o0_1_S512x1 slices_S4x512_o1_0_S1x512) e1 e2 e3) (ix2 h t) = den2 adj ES aS aT X h t := fun h t => by
    rw [pay48_apply]
    unfold den2
    exact Finset.sum_congr rfl fun s _ => hP h s t
  have hAA : ∀ (h : Fin 4) (s t : Fin 512), (k0_pay49 (F := Ideal) (k0_pay47 (F := Ideal) (k0_pay17 (F := Ideal) adj) (matmul dScore (some .fp32) g (headvec (F := Ideal) aS) (constant S512x4 .f32 0x00000000#32)) (transpose S4x512 [1, 0] (matmul dScore (some .fp32) g (headvec (F := Ideal) aT) (constant S512x4 .f32 0x00000000#32)) transposes_S512x4_p1_0_S4x512) (pOf2 (F := Ideal) (k0_pay17 (F := Ideal) adj) (addf (scOf2 (matmul dScore (some .fp32) g (headvec (F := Ideal) aS) (constant S512x4 .f32 0x00000000#32)) (transpose S4x512 [1, 0] (matmul dScore (some .fp32) g (headvec (F := Ideal) aT) (constant S512x4 .f32 0x00000000#32)) transposes_S512x4_p1_0_S4x512) 0 slices_S512x4_o0_0_S512x1 slices_S4x512_o0_0_S1x512) (shapeCast S512x512 e0 shapeCasts_S1x512x512_S512x512))) (scOf2 (F := Ideal) (matmul dScore (some .fp32) g (headvec (F := Ideal) aS) (constant S512x4 .f32 0x00000000#32)) (transpose S4x512 [1, 0] (matmul dScore (some .fp32) g (headvec (F := Ideal) aT) (constant S512x4 .f32 0x00000000#32)) transposes_S512x4_p1_0_S4x512) 1 slices_S512x4_o0_1_S512x1 slices_S4x512_o1_0_S1x512) e1 e2 e3) (k0_pay48 (F := Ideal) (k0_pay17 (F := Ideal) adj) (matmul dScore (some .fp32) g (headvec (F := Ideal) aS) (constant S512x4 .f32 0x00000000#32)) (transpose S4x512 [1, 0] (matmul dScore (some .fp32) g (headvec (F := Ideal) aT) (constant S512x4 .f32 0x00000000#32)) transposes_S512x4_p1_0_S4x512) (pOf2 (F := Ideal) (k0_pay17 (F := Ideal) adj) (addf (scOf2 (matmul dScore (some .fp32) g (headvec (F := Ideal) aS) (constant S512x4 .f32 0x00000000#32)) (transpose S4x512 [1, 0] (matmul dScore (some .fp32) g (headvec (F := Ideal) aT) (constant S512x4 .f32 0x00000000#32)) transposes_S512x4_p1_0_S4x512) 0 slices_S512x4_o0_0_S512x1 slices_S4x512_o0_0_S1x512) (shapeCast S512x512 e0 shapeCasts_S1x512x512_S512x512))) (scOf2 (F := Ideal) (matmul dScore (some .fp32) g (headvec (F := Ideal) aS) (constant S512x4 .f32 0x00000000#32)) (transpose S4x512 [1, 0] (matmul dScore (some .fp32) g (headvec (F := Ideal) aT) (constant S512x4 .f32 0x00000000#32)) transposes_S512x4_p1_0_S4x512) 1 slices_S512x4_o0_1_S512x1 slices_S4x512_o1_0_S1x512) e1 e2 e3) (Scalar.ofBits .f32 0x24E69595#32 : Ideal .f32)) (ix2 (row2048 h s) t) = attn2 adj ES aS aT X h s t := fun h s t => by
    rw [pay49_apply, hP, hD]
    rfl
  have hAfin : ∀ r : Fin 2048, ∃ x : ℝ, (k0_pay49 (F := Ideal) (k0_pay47 (F := Ideal) (k0_pay17 (F := Ideal) adj) (matmul dScore (some .fp32) g (headvec (F := Ideal) aS) (constant S512x4 .f32 0x00000000#32)) (transpose S4x512 [1, 0] (matmul dScore (some .fp32) g (headvec (F := Ideal) aT) (constant S512x4 .f32 0x00000000#32)) transposes_S512x4_p1_0_S4x512) (pOf2 (F := Ideal) (k0_pay17 (F := Ideal) adj) (addf (scOf2 (matmul dScore (some .fp32) g (headvec (F := Ideal) aS) (constant S512x4 .f32 0x00000000#32)) (transpose S4x512 [1, 0] (matmul dScore (some .fp32) g (headvec (F := Ideal) aT) (constant S512x4 .f32 0x00000000#32)) transposes_S512x4_p1_0_S4x512) 0 slices_S512x4_o0_0_S512x1 slices_S4x512_o0_0_S1x512) (shapeCast S512x512 e0 shapeCasts_S1x512x512_S512x512))) (scOf2 (F := Ideal) (matmul dScore (some .fp32) g (headvec (F := Ideal) aS) (constant S512x4 .f32 0x00000000#32)) (transpose S4x512 [1, 0] (matmul dScore (some .fp32) g (headvec (F := Ideal) aT) (constant S512x4 .f32 0x00000000#32)) transposes_S512x4_p1_0_S4x512) 1 slices_S512x4_o0_1_S512x1 slices_S4x512_o1_0_S1x512) e1 e2 e3) (k0_pay48 (F := Ideal) (k0_pay17 (F := Ideal) adj) (matmul dScore (some .fp32) g (headvec (F := Ideal) aS) (constant S512x4 .f32 0x00000000#32)) (transpose S4x512 [1, 0] (matmul dScore (some .fp32) g (headvec (F := Ideal) aT) (constant S512x4 .f32 0x00000000#32)) transposes_S512x4_p1_0_S4x512) (pOf2 (F := Ideal) (k0_pay17 (F := Ideal) adj) (addf (scOf2 (matmul dScore (some .fp32) g (headvec (F := Ideal) aS) (constant S512x4 .f32 0x00000000#32)) (transpose S4x512 [1, 0] (matmul dScore (some .fp32) g (headvec (F := Ideal) aT) (constant S512x4 .f32 0x00000000#32)) transposes_S512x4_p1_0_S4x512) 0 slices_S512x4_o0_0_S512x1 slices_S4x512_o0_0_S1x512) (shapeCast S512x512 e0 shapeCasts_S1x512x512_S512x512))) (scOf2 (F := Ideal) (matmul dScore (some .fp32) g (headvec (F := Ideal) aS) (constant S512x4 .f32 0x00000000#32)) (transpose S4x512 [1, 0] (matmul dScore (some .fp32) g (headvec (F := Ideal) aT) (constant S512x4 .f32 0x00000000#32)) transposes_S512x4_p1_0_S4x512) 1 slices_S512x4_o0_1_S512x1 slices_S4x512_o1_0_S1x512) e1 e2 e3) (Scalar.ofBits .f32 0x24E69595#32 : Ideal .f32)) (ix2 r t) = (x : EReal) := fun r => by
    have hr : r = row2048 ⟨r.val / 512, by have := r.isLt; omega⟩ ⟨r.val % 512, Nat.mod_lt _ (by decide)⟩ :=
      Fin.ext (by show r.val = 512 * (r.val / 512) + r.val % 512; omega)
    rw [hr, hAA]; exact hA _ _ _
  have hgfin : ∀ s : Fin 512, ∃ x : ℝ, g (ix2 s q) = (x : EReal) := fun s => by
    rw [hg]; exact hH s q
  rw [pay2_apply _ _ t u q hAfin hgfin]
  unfold out2
  exact Finset.sum_congr rfl fun s _ => by rw [hAA, hg]

/-- The second batch slice's stored block, from what the epilogue reads: the denominator table, the four column blocks
    of the numerator's second slice, the adjacency entries, layer 2's weights and the four heads' edge scores. -/
theorem chainB (den : Vec Ideal S8x512 .f32) (n0 n1 n2 n3 : Vec Ideal S1x512x32 .f32) (adj : Vec Ideal S512x512 .i32)
    (w : Vec Ideal S128x128 .f32) (aS aT : Vec Ideal S4x32 .f32) (e0 e1 e2 e3 : Vec Ideal S1x512x512 .f32)
    (NUM : Fin 2 → Fin 512 → Fin 128 → EReal) (DEN : Fin 8 → Fin 512 → EReal) (ES : Fin 4 → Fin 512 → Fin 512 → EReal)
    (hden : ∀ (r : Fin 8) (t : Fin 512), den (ix2 r t) = DEN r t)
    (hn : ∀ (h : Fin 4) (p : Fin 512) (d : Fin 32),
      (match h with | ⟨0, _⟩ => n0 | ⟨1, _⟩ => n1 | ⟨2, _⟩ => n2 | ⟨3, _⟩ => n3) (ix3 (0 : Fin 1) p d) = NUM 1 p (feat h d))
    (he : ∀ (h : Fin 4) (s t : Fin 512),
      (match h with | ⟨0, _⟩ => e0 | ⟨1, _⟩ => e1 | ⟨2, _⟩ => e2 | ⟨3, _⟩ => e3) (ix3 (0 : Fin 1) s t) = ES h s t)
    (t : Fin 512) (u : Fin 1) (q : Fin 128)
    (hH : ∀ (s : Fin 512) (k : Fin 128), ∃ r : ℝ, h2 w (o1 NUM DEN 1) s k = (r : EReal))
    (hA : ∀ (h : Fin 4) (s t' : Fin 512), ∃ r : ℝ, attn2 adj ES aS aT (h2 w (o1 NUM DEN 1)) h s t' = (r : EReal)) :
    k0_pay2 (F := Ideal) (k0_pay49 (F := Ideal) (k0_pay47 (F := Ideal) (k0_pay17 (F := Ideal) adj) (k0_pay41 (F := Ideal) (k0_pay35 (F := Ideal) (k0_pay16 (F := Ideal) den) n0) (k0_pay36 (F := Ideal) (k0_pay16 (F := Ideal) den) n1) (k0_pay37 (F := Ideal) (k0_pay16 (F := Ideal) den) n2) (k0_pay38 (F := Ideal) n3) (k0_pay39 (F := Ideal) (k0_pay16 (F := Ideal) den)) w aS) (k0_pay44 (F := Ideal) (k0_pay40 (F := Ideal) (k0_pay35 (F := Ideal) (k0_pay16 (F := Ideal) den) n0) (k0_pay36 (F := Ideal) (k0_pay16 (F := Ideal) den) n1) (k0_pay37 (F := Ideal) (k0_pay16 (F := Ideal) den) n2) (k0_pay38 (F := Ideal) n3) (k0_pay39 (F := Ideal) (k0_pay16 (F := Ideal) den)) w) (k0_pay42 (F := Ideal) aT) (iota .tc S4x128 32 [0] iota_S4x128_d0_w32) (iota .tc S4x128 32 [1] iota_S4x128_d1_w32) 32#32 k0_pay43) (k0_pay45 (F := Ideal) (k0_pay17 (F := Ideal) adj) (k0_pay40 (F := Ideal) (k0_pay35 (F := Ideal) (k0_pay16 (F := Ideal) den) n0) (k0_pay36 (F := Ideal) (k0_pay16 (F := Ideal) den) n1) (k0_pay37 (F := Ideal) (k0_pay16 (F := Ideal) den) n2) (k0_pay38 (F := Ideal) n3) (k0_pay39 (F := Ideal) (k0_pay16 (F := Ideal) den)) w) (k0_pay41 (F := Ideal) (k0_pay35 (F := Ideal) (k0_pay16 (F := Ideal) den) n0) (k0_pay36 (F := Ideal) (k0_pay16 (F := Ideal) den) n1) (k0_pay37 (F := Ideal) (k0_pay16 (F := Ideal) den) n2) (k0_pay38 (F := Ideal) n3) (k0_pay39 (F := Ideal) (k0_pay16 (F := Ideal) den)) w aS) (k0_pay42 (F := Ideal) aT) (iota .tc S4x128 32 [0] iota_S4x128_d0_w32) (iota .tc S4x128 32 [1] iota_S4x128_d1_w32) 32#32 k0_pay43 e0) (k0_pay46 (F := Ideal) (k0_pay40 (F := Ideal) (k0_pay35 (F := Ideal) (k0_pay16 (F := Ideal) den) n0) (k0_pay36 (F := Ideal) (k0_pay16 (F := Ideal) den) n1) (k0_pay37 (F := Ideal) (k0_pay16 (F := Ideal) den) n2) (k0_pay38 (F := Ideal) n3) (k0_pay39 (F := Ideal) (k0_pay16 (F := Ideal) den)) w) (k0_pay41 (F := Ideal) (k0_pay35 (F := Ideal) (k0_pay16 (F := Ideal) den) n0) (k0_pay36 (F := Ideal) (k0_pay16 (F := Ideal) den) n1) (k0_pay37 (F := Ideal) (k0_pay16 (F := Ideal) den) n2) (k0_pay38 (F := Ideal) n3) (k0_pay39 (F := Ideal) (k0_pay16 (F := Ideal) den)) w aS) (k0_pay42 (F := Ideal) aT) (iota .tc S4x128 32 [0] iota_S4x128_d0_w32) (iota .tc S4x128 32 [1] iota_S4x128_d1_w32) 32#32 k0_pay43) e1 e2 e3) (k0_pay48 (F := Ideal) (k0_pay17 (F := Ideal) adj) (k0_pay41 (F := Ideal) (k0_pay35 (F := Ideal) (k0_pay16 (F := Ideal) den) n0) (k0_pay36 (F := Ideal) (k0_pay16 (F := Ideal) den) n1) (k0_pay37 (F := Ideal) (k0_pay16 (F := Ideal) den) n2) (k0_pay38 (F := Ideal) n3) (k0_pay39 (F := Ideal) (k0_pay16 (F := Ideal) den)) w aS) (k0_pay44 (F := Ideal) (k0_pay40 (F := Ideal) (k0_pay35 (F := Ideal) (k0_pay16 (F := Ideal) den) n0) (k0_pay36 (F := Ideal) (k0_pay16 (F := Ideal) den) n1) (k0_pay37 (F := Ideal) (k0_pay16 (F := Ideal) den) n2) (k0_pay38 (F := Ideal) n3) (k0_pay39 (F := Ideal) (k0_pay16 (F := Ideal) den)) w) (k0_pay42 (F := Ideal) aT) (iota .tc S4x128 32 [0] iota_S4x128_d0_w32) (iota .tc S4x128 32 [1] iota_S4x128_d1_w32) 32#32 k0_pay43) (k0_pay45 (F := Ideal) (k0_pay17 (F := Ideal) adj) (k0_pay40 (F := Ideal) (k0_pay35 (F := Ideal) (k0_pay16 (F := Ideal) den) n0) (k0_pay36 (F := Ideal) (k0_pay16 (F := Ideal) den) n1) (k0_pay37 (F := Ideal) (k0_pay16 (F := Ideal) den) n2) (k0_pay38 (F := Ideal) n3) (k0_pay39 (F := Ideal) (k0_pay16 (F := Ideal) den)) w) (k0_pay41 (F := Ideal) (k0_pay35 (F := Ideal) (k0_pay16 (F := Ideal) den) n0) (k0_pay36 (F := Ideal) (k0_pay16 (F := Ideal) den) n1) (k0_pay37 (F := Ideal) (k0_pay16 (F := Ideal) den) n2) (k0_pay38 (F := Ideal) n3) (k0_pay39 (F := Ideal) (k0_pay16 (F := Ideal) den)) w aS) (k0_pay42 (F := Ideal) aT) (iota .tc S4x128 32 [0] iota_S4x128_d0_w32) (iota .tc S4x128 32 [1] iota_S4x128_d1_w32) 32#32 k0_pay43 e0) (k0_pay46 (F := Ideal) (k0_pay40 (F := Ideal) (k0_pay35 (F := Ideal) (k0_pay16 (F := Ideal) den) n0) (k0_pay36 (F := Ideal) (k0_pay16 (F := Ideal) den) n1) (k0_pay37 (F := Ideal) (k0_pay16 (F := Ideal) den) n2) (k0_pay38 (F := Ideal) n3) (k0_pay39 (F := Ideal) (k0_pay16 (F := Ideal) den)) w) (k0_pay41 (F := Ideal) (k0_pay35 (F := Ideal) (k0_pay16 (F := Ideal) den) n0) (k0_pay36 (F := Ideal) (k0_pay16 (F := Ideal) den) n1) (k0_pay37 (F := Ideal) (k0_pay16 (F := Ideal) den) n2) (k0_pay38 (F := Ideal) n3) (k0_pay39 (F := Ideal) (k0_pay16 (F := Ideal) den)) w aS) (k0_pay42 (F := Ideal) aT) (iota .tc S4x128 32 [0] iota_S4x128_d0_w32) (iota .tc S4x128 32 [1] iota_S4x128_d1_w32) 32#32 k0_pay43) e1 e2 e3) (Scalar.ofBits .f32 0x24E69595#32 : Ideal .f32)) (k0_pay50 (F := Ideal) (k0_pay40 (F := Ideal) (k0_pay35 (F := Ideal) (k0_pay16 (F := Ideal) den) n0) (k0_pay36 (F := Ideal) (k0_pay16 (F := Ideal) den) n1) (k0_pay37 (F := Ideal) (k0_pay16 (F := Ideal) den) n2) (k0_pay38 (F := Ideal) n3) (k0_pay39 (F := Ideal) (k0_pay16 (F := Ideal) den)) w)) (iota .tc S2048x128 32 [1] iota_S2048x128_d1_w32) k0_pay51 32#32 k0_pay52 k0_pay53 1#32 0#32 (ix3 t u q)
      = OUT NUM DEN ES adj w aS aT t 1 q := by
  have hrec : ∀ (p : Fin 512) (r : Fin 8), (k0_pay16 (F := Ideal) den) (ix2 p r) = Ideal.div one32 (DEN r p + eps) := fun p r => by
    rw [pay16_apply, hden]
  have hH2 : ∀ (p : Fin 512) (k : Fin 128), (k0_pay40 (F := Ideal) (k0_pay35 (F := Ideal) (k0_pay16 (F := Ideal) den) n0) (k0_pay36 (F := Ideal) (k0_pay16 (F := Ideal) den) n1) (k0_pay37 (F := Ideal) (k0_pay16 (F := Ideal) den) n2) (k0_pay38 (F := Ideal) n3) (k0_pay39 (F := Ideal) (k0_pay16 (F := Ideal) den)) w) (ix2 p k) = (h2 w (o1 NUM DEN 1)) p k := fun p k => by
    rw [pay40_apply]
    unfold h2
    exact Finset.sum_congr rfl fun k' _ => by rw [h1bB_eq_o1 NUM DEN _ n0 n1 n2 n3 hrec hn]
  exact chainCore (k0_pay40 (F := Ideal) (k0_pay35 (F := Ideal) (k0_pay16 (F := Ideal) den) n0) (k0_pay36 (F := Ideal) (k0_pay16 (F := Ideal) den) n1) (k0_pay37 (F := Ideal) (k0_pay16 (F := Ideal) den) n2) (k0_pay38 (F := Ideal) n3) (k0_pay39 (F := Ideal) (k0_pay16 (F := Ideal) den)) w) adj aS aT e0 e1 e2 e3 (h2 w (o1 NUM DEN 1)) ES hH2 he t u q hH hA

/-! The first batch slice: the same computation under other payload numbers. -/

/-- Layer 1's output of the first batch slice as the body assembles it (columns 0..3 of the reciprocal table). -/
def h1bA (rec : FVec Ideal S512x8 .f32) (n0 n1 n2 n3 : Vec Ideal S1x512x32 .f32) : FVec Ideal S512x128 .f32 :=
  concatenate S512x128 1 [⟨S512x32, mulf (shapeCast S512x32 n0 shapeCasts_S1x512x32_S512x32) (broadcastTo S512x32 (extractStridedSlice S512x1 ![0, 0] rec slices_S512x8_o0_0_S512x1) broadcasts_S512x1_S512x32)⟩,
    ⟨S512x32, mulf (shapeCast S512x32 n1 shapeCasts_S1x512x32_S512x32) (broadcastTo S512x32 (extractStridedSlice S512x1 ![0, 1] rec slices_S512x8_o0_1_S512x1) broadcasts_S512x1_S512x32)⟩,
    ⟨S512x32, mulf (shapeCast S512x32 n2 shapeCasts_S1x512x32_S512x32) (broadcastTo S512x32 (extractStridedSlice S512x1 ![0, 2] rec slices_S512x8_o0_2_S512x1) broadcasts_S512x1_S512x32)⟩,
    ⟨S512x32, mulf (shapeCast S512x32 n3 shapeCasts_S1x512x32_S512x32) (broadcastTo S512x32 (extractStridedSlice S512x1 ![0, 3] rec slices_S512x8_o0_3_S512x1) broadcasts_S512x1_S512x32)⟩]
    concatenates_S512x32_S512x32_S512x32_S512x32_S512x128_d1

theorem pay18_eq (den : Vec Ideal S8x512 .f32) (n0 n1 n2 n3 : Vec Ideal S1x512x32 .f32) (w : Vec Ideal S128x128 .f32) :
    k0_pay18 (F := Ideal) den n0 n1 n2 n3 w
      = matmul (φ₁ := .f32) (φ₂ := .f32) dProj none (h1bA (k0_pay16 (F := Ideal) den) n0 n1 n2 n3) w (constant S512x128 .f32 0x00000000#32) := rfl

theorem h1bA_apply (rec : FVec Ideal S512x8 .f32) (n0 n1 n2 n3 : Vec Ideal S1x512x32 .f32) (p : Fin 512) (h : Fin 4) (d : Fin 32) :
    h1bA rec n0 n1 n2 n3 (ix2 p (feat h d))
      = (match h with | ⟨0, _⟩ => n0 | ⟨1, _⟩ => n1 | ⟨2, _⟩ => n2 | ⟨3, _⟩ => n3) (ix3 (0 : Fin 1) p d) * rec (ix2 p (row8 0 h)) := by
  unfold h1bA
  rw [cols4_apply]
  match h with
  | ⟨0, _⟩ => exact scaled_apply rec n0 0 (by decide) slices_S512x8_o0_0_S512x1 p d
  | ⟨1, _⟩ => exact scaled_apply rec n1 1 (by decide) slices_S512x8_o0_1_S512x1 p d
  | ⟨2, _⟩ => exact scaled_apply rec n2 2 (by decide) slices_S512x8_o0_2_S512x1 p d
  | ⟨3, _⟩ => exact scaled_apply rec n3 3 (by decide) slices_S512x8_o0_3_S512x1 p d

theorem h1bA_eq_o1 (num : Fin 2 → Fin 512 → Fin 128 → EReal) (den : Fin 8 → Fin 512 → EReal)
    (rec : FVec Ideal S512x8 .f32) (n0 n1 n2 n3 : Vec Ideal S1x512x32 .f32)
    (hrec : ∀ (p : Fin 512) (r : Fin 8), rec (ix2 p r) = Ideal.div one32 (den r p + eps))
    (hn : ∀ (h : Fin 4) (p : Fin 512) (d : Fin 32),
      (match h with | ⟨0, _⟩ => n0 | ⟨1, _⟩ => n1 | ⟨2, _⟩ => n2 | ⟨3, _⟩ => n3) (ix3 (0 : Fin 1) p d) = num 0 p (feat h d))
    (p : Fin 512) (k : Fin 128) : h1bA rec n0 n1 n2 n3 (ix2 p k) = o1 num den 0 p k := by
  obtain ⟨h, d, rfl⟩ : ∃ h d, k = feat h d := ⟨headOf k, colOf k, (Cert.Spec.DenseGat.feat_headOf_colOf k).symm⟩
  rw [h1bA_apply, hn, hrec]
  unfold o1
  rw [headOf_feat]

theorem pay18_apply (den : Vec Ideal S8x512 .f32) (n0 n1 n2 n3 : Vec Ideal S1x512x32 .f32) (w : Vec Ideal S128x128 .f32)
    (p : Fin 512) (q : Fin 128) :
    k0_pay18 (F := Ideal) den n0 n1 n2 n3 w (ix2 p q) = ∑ k : Fin 128, h1bA (k0_pay16 (F := Ideal) den) n0 n1 n2 n3 (ix2 p k) * w (ix2 q k) := by
  rw [pay18_eq]; exact matproj_apply _ w p q

theorem pay20_eq (g : FVec Ideal S512x128 .f32) (aS : Vec Ideal S4x32 .f32) :
    k0_pay20 (F := Ideal) g (k0_pay19 (F := Ideal) aS)
      = matmul dScore (some .fp32) g (headvec (F := Ideal) aS) (constant S512x4 .f32 0x00000000#32) := rfl

theorem pay24_eq (g : FVec Ideal S512x128 .f32) (aT : Vec Ideal S4x32 .f32) :
    k0_pay24 (F := Ideal) g (k0_pay21 (F := Ideal) aT) (iota .tc S4x128 32 [0] iota_S4x128_d0_w32) (iota .tc S4x128 32 [1] iota_S4x128_d1_w32) 32#32 k0_pay22 k0_pay23 1#32
      = transpose S4x512 [1, 0] (matmul dScore (some .fp32) g (headvec (F := Ideal) aT) (constant S512x4 .f32 0x00000000#32)) transposes_S512x4_p1_0_S4x512 := rfl

theorem pay25_eq (mask : FVec F S512x512 .f32) (g : FVec F S512x128 .f32) (ss : FVec F S512x4 .f32) (a4 : FVec F S4x128 .f32)
    (i0 i1 : IVec S4x128 32) (c : BitVec 32) (v1 v2 : IVec S4x128 32) (v3 : BitVec 32) (e0 : Vec F S1x512x512 .f32) :
    k0_pay25 mask g ss a4 i0 i1 c v1 v2 v3 e0
      = pOf2 mask (addf (scOf2 ss (k0_pay24 g a4 i0 i1 c v1 v2 v3) 0 slices_S512x4_o0_0_S512x1 slices_S4x512_o0_0_S1x512)
          (shapeCast S512x512 e0 shapeCasts_S1x512x512_S512x512)) := rfl

/-- The first slice's normalised table is the second slice's, spelled through other payloads. -/
theorem pay29_eq (mask : FVec F S512x512 .f32) (g : FVec F S512x128 .f32) (ss : FVec F S512x4 .f32) (a4 : FVec F S4x128 .f32)
    (i0 i1 : IVec S4x128 32) (c : BitVec 32) (v1 v2 : IVec S4x128 32) (v3 : BitVec 32) (p0 : FVec F S512x512 .f32)
    (e1 e2 e3 : Vec F S1x512x512 .f32) :
    k0_pay29 mask ss (k0_pay24 g a4 i0 i1 c v1 v2 v3) p0 (k0_pay26 g ss a4 i0 i1 c v1 v2 v3 e1) (k0_pay27 g ss a4 i0 i1 c v1 v2 v3 e1) (k0_pay28 g ss a4 i0 i1 c v1 v2 v3 e1) e2 e3
      = k0_pay49 (k0_pay47 mask ss (k0_pay24 g a4 i0 i1 c v1 v2 v3) p0 (scOf2 ss (k0_pay24 g a4 i0 i1 c v1 v2 v3) 1 slices_S512x4_o0_1_S512x1 slices_S4x512_o1_0_S1x512) e1 e2 e3)
          (k0_pay48 mask ss (k0_pay24 g a4 i0 i1 c v1 v2 v3) p0 (scOf2 ss (k0_pay24 g a4 i0 i1 c v1 v2 v3) 1 slices_S512x4_o0_1_S512x1 slices_S4x512_o1_0_S1x512) e1 e2 e3)
          (Scalar.ofBits .f32 0x24E69595#32 : F .f32) := rfl

theorem pay30_eq (g : FVec F S512x128 .f32) : k0_pay30 g = k0_pay50 g := rfl

/-- The head of each column, in the first slice's spelling. -/
def colHeadA : IVec S2048x128 32 := select k0_pay33 (subi k0_pay32 (broadcast S2048x128 1#32)) k0_pay32
def blockMaskA : IVec S2048x128 1 := cmpi .eq (k0_pay31 (iota .tc S2048x128 32 [0] iota_S2048x128_d0_w32)) colHeadA
def hselA (G : FVec F S2048x128 .f32) : FVec F S2048x128 .f32 :=
  select blockMaskA G (broadcast S2048x128 (Scalar.ofBits .f32 0x00000000#32 : F .f32))

theorem rowBlockA_indep (r : Fin 2048) (q : Fin 128) :
    k0_pay31 (iota .tc S2048x128 32 [0] iota_S2048x128_d0_w32) (ix2 r q) = k0_pay31 (iota .tc S2048x128 32 [0] iota_S2048x128_d0_w32) (ix2 r (0 : Fin 128)) := rfl
theorem colHeadA_indep (r : Fin 2048) (q : Fin 128) : colHeadA (ix2 r q) = colHeadA (ix2 (0 : Fin 2048) q) := rfl
theorem rowBlockA_val : ∀ r : Fin 2048, k0_pay31 (iota .tc S2048x128 32 [0] iota_S2048x128_d0_w32) (ix2 r (0 : Fin 128)) = BitVec.ofNat 32 (r.val / 512) := by
  decide +kernel
theorem colHeadA_val : ∀ q : Fin 128, colHeadA (ix2 (0 : Fin 2048) q) = BitVec.ofNat 32 (q.val / 32) := by decide +kernel

theorem blockMaskA_apply (r : Fin 2048) (q : Fin 128) :
    blockMaskA (ix2 r q) = if r.val / 512 = q.val / 32 then 1#1 else 0#1 := by
  show IntOp.cmpi .eq (k0_pay31 (iota .tc S2048x128 32 [0] iota_S2048x128_d0_w32) (ix2 r q)) (colHeadA (ix2 r q)) = _
  rw [rowBlockA_indep, colHeadA_indep, rowBlockA_val, colHeadA_val]
  have key : ∀ a b : Fin 4, IntOp.cmpi .eq (BitVec.ofNat 32 a.val) (BitVec.ofNat 32 b.val) = if a.val = b.val then 1#1 else 0#1 := by decide
  exact key ⟨r.val / 512, by have := r.isLt; omega⟩ ⟨q.val / 32, by have := q.isLt; omega⟩

theorem hselA_eq (G : FVec Ideal S2048x128 .f32) : hselA (F := Ideal) G = hselB (F := Ideal) G := by
  funext j
  obtain ⟨r, q, rfl⟩ : ∃ r q, j = ix2 r q := ⟨j 0, j 1, eq_ix2 j⟩
  rw [hselB_apply]
  unfold hselA select
  show Scalar.select (blockMaskA (ix2 r q)) _ _ = _
  rw [blockMaskA_apply]
  by_cases hq : r.val / 512 = q.val / 32
  · rw [if_pos hq, if_pos hq]; rfl
  · rw [if_neg hq, if_neg hq]
    show Ideal.ofBits .f32 0x00000000#32 = 0
    exact Ideal.ofBits_zero_f32

theorem pay34_eq (A : FVec F S2048x512 .f32) (G : FVec F S2048x128 .f32) :
    k0_pay34 A G (k0_pay31 (iota .tc S2048x128 32 [0] iota_S2048x128_d0_w32)) k0_pay32 k0_pay33 1#32
      = shapeCast S512x1x128 (addf (addf
          (matmul dOut none (truncf .bf16 A bitsLt_bf16_f32) (truncf .bf16 (hselA G) bitsLt_bf16_f32) (constant S512x128 .f32 0x00000000#32))
          (matmul dOut none (truncf .bf16 A bitsLt_bf16_f32) (truncf .bf16 (subf (hselA G) (hselA G)) bitsLt_bf16_f32) (constant S512x128 .f32 0x00000000#32)))
          (matmul dOut none (truncf .bf16 (subf A A) bitsLt_bf16_f32) (truncf .bf16 (hselA G) bitsLt_bf16_f32) (constant S512x128 .f32 0x00000000#32)))
        shapeCasts_S512x128_S512x1x128 := rfl

/-- The first slice's output payload is the second slice's. -/
theorem pay34_eq2 (A : FVec Ideal S2048x512 .f32) (G : FVec Ideal S2048x128 .f32) :
    k0_pay34 (F := Ideal) A G (k0_pay31 (iota .tc S2048x128 32 [0] iota_S2048x128_d0_w32)) k0_pay32 k0_pay33 1#32
      = k0_pay2 (F := Ideal) A G (iota .tc S2048x128 32 [1] iota_S2048x128_d1_w32) k0_pay51 32#32 k0_pay52 k0_pay53 1#32 0#32 := by
  rw [pay34_eq, pay2_eq, hselA_eq]

/-- The first batch slice's stored block, from what the epilogue reads. -/
theorem chainA (den : Vec Ideal S8x512 .f32) (n0 n1 n2 n3 : Vec Ideal S1x512x32 .f32) (adj : Vec Ideal S512x512 .i32)
    (w : Vec Ideal S128x128 .f32) (aS aT : Vec Ideal S4x32 .f32) (e0 e1 e2 e3 : Vec Ideal S1x512x512 .f32)
    (NUM : Fin 2 → Fin 512 → Fin 128 → EReal) (DEN : Fin 8 → Fin 512 → EReal) (ES : Fin 4 → Fin 512 → Fin 512 → EReal)
    (hden : ∀ (r : Fin 8) (t : Fin 512), den (ix2 r t) = DEN r t)
    (hn : ∀ (h : Fin 4) (p : Fin 512) (d : Fin 32),
      (match h with | ⟨0, _⟩ => n0 | ⟨1, _⟩ => n1 | ⟨2, _⟩ => n2 | ⟨3, _⟩ => n3) (ix3 (0 : Fin 1) p d) = NUM 0 p (feat h d))
    (he : ∀ (h : Fin 4) (s t : Fin 512),
      (match h with | ⟨0, _⟩ => e0 | ⟨1, _⟩ => e1 | ⟨2, _⟩ => e2 | ⟨3, _⟩ => e3) (ix3 (0 : Fin 1) s t) = ES h s t)
    (t : Fin 512) (u : Fin 1) (q : Fin 128)
    (hH : ∀ (s : Fin 512) (k : Fin 128), ∃ r : ℝ, h2 w (o1 NUM DEN 0) s k = (r : EReal))
    (hA : ∀ (h : Fin 4) (s t' : Fin 512), ∃ r : ℝ, attn2 adj ES aS aT (h2 w (o1 NUM DEN 0)) h s t' = (r : EReal)) :
    k0_pay34 (F := Ideal) (k0_pay29 (F := Ideal) (k0_pay17 (F := Ideal) adj) (k0_pay20 (F := Ideal) (k0_pay18 (F := Ideal) den n0 n1 n2 n3 w) (k0_pay19 (F := Ideal) aS)) (k0_pay24 (F := Ideal) (k0_pay18 (F := Ideal) den n0 n1 n2 n3 w) (k0_pay21 (F := Ideal) aT) (iota .tc S4x128 32 [0] iota_S4x128_d0_w32) (iota .tc S4x128 32 [1] iota_S4x128_d1_w32) 32#32 k0_pay22 k0_pay23 1#32) (k0_pay25 (F := Ideal) (k0_pay17 (F := Ideal) adj) (k0_pay18 (F := Ideal) den n0 n1 n2 n3 w) (k0_pay20 (F := Ideal) (k0_pay18 (F := Ideal) den n0 n1 n2 n3 w) (k0_pay19 (F := Ideal) aS)) (k0_pay21 (F := Ideal) aT) (iota .tc S4x128 32 [0] iota_S4x128_d0_w32) (iota .tc S4x128 32 [1] iota_S4x128_d1_w32) 32#32 k0_pay22 k0_pay23 1#32 e0) (k0_pay26 (F := Ideal) (k0_pay18 (F := Ideal) den n0 n1 n2 n3 w) (k0_pay20 (F := Ideal) (k0_pay18 (F := Ideal) den n0 n1 n2 n3 w) (k0_pay19 (F := Ideal) aS)) (k0_pay21 (F := Ideal) aT) (iota .tc S4x128 32 [0] iota_S4x128_d0_w32) (iota .tc S4x128 32 [1] iota_S4x128_d1_w32) 32#32 k0_pay22 k0_pay23 1#32 e1) (k0_pay27 (F := Ideal) (k0_pay18 (F := Ideal) den n0 n1 n2 n3 w) (k0_pay20 (F := Ideal) (k0_pay18 (F := Ideal) den n0 n1 n2 n3 w) (k0_pay19 (F := Ideal) aS)) (k0_pay21 (F := Ideal) aT) (iota .tc S4x128 32 [0] iota_S4x128_d0_w32) (iota .tc S4x128 32 [1] iota_S4x128_d1_w32) 32#32 k0_pay22 k0_pay23 1#32 e1) (k0_pay28 (F := Ideal) (k0_pay18 (F := Ideal) den n0 n1 n2 n3 w) (k0_pay20 (F := Ideal) (k0_pay18 (F := Ideal) den n0 n1 n2 n3 w) (k0_pay19 (F := Ideal) aS)) (k0_pay21 (F := Ideal) aT) (iota .tc S4x128 32 [0] iota_S4x128_d0_w32) (iota .tc S4x128 32 [1] iota_S4x128_d1_w32) 32#32 k0_pay22 k0_pay23 1#32 e1) e2 e3) (k0_pay30 (F := Ideal) (k0_pay18 (F := Ideal) den n0 n1 n2 n3 w)) (k0_pay31 (iota .tc S2048x128 32 [0] iota_S2048x128_d0_w32)) k0_pay32 k0_pay33 1#32 (ix3 t u q)
      = OUT NUM DEN ES adj w aS aT t 0 q := by
  have hrec : ∀ (p : Fin 512) (r : Fin 8), (k0_pay16 (F := Ideal) den) (ix2 p r) = Ideal.div one32 (DEN r p + eps) := fun p r => by
    rw [pay16_apply, hden]
  have hH2 : ∀ (p : Fin 512) (k : Fin 128), (k0_pay18 (F := Ideal) den n0 n1 n2 n3 w) (ix2 p k) = (h2 w (o1 NUM DEN 0)) p k := fun p k => by
    rw [pay18_apply]
    unfold h2
    exact Finset.sum_congr rfl fun k' _ => by rw [h1bA_eq_o1 NUM DEN _ n0 n1 n2 n3 hrec hn]
  rw [pay34_eq2, pay29_eq, pay25_eq, pay20_eq, pay24_eq, pay30_eq]
  exact chainCore (k0_pay18 (F := Ideal) den n0 n1 n2 n3 w) adj aS aT e0 e1 e2 e3 (h2 w (o1 NUM DEN 0)) ES hH2 he t u q hH hA

end Cert.KernelIdeal.Payloads

namespace Cert.KernelIdeal.Body

open Cert.KernelIdeal Cert.KernelIdeal.Gen Cert.KernelIdeal.Payloads Cert.KernelIdeal.Last
open Idealize.ShloMosaic Idealize.ShloMosaic.TcCoe Idealize.ShloMosaic.Tactic Idealize.ShloMosaic.ValueIdx
open Idealize.SL Idealize.SL.Sem

/-- Off the newest piece's unit-stride rectangle on axis a, the canonical contents are those of the rest of the list. -/
theorem canon_off_axis {s : Shape} {e : EltTy} {off size : Fin s.rank → ℕ} (inb : ∀ a, off a + size a ≤ s.size a)
    (w : (Rect.unit off size inb).shape.Idx → Elt Ideal e) (L : List (View.Piece (Elt Ideal) s e)) (y : s.Idx)
    (a : Fin s.rank) (ha : (y a).val < off a ∨ off a + size a ≤ (y a).val) :
    View.canon ((⟨Rect.unit off size inb, w⟩ : View.Piece (Elt Ideal) s e) :: L) y = View.canon L y :=
  View.canon_cons_of_not_mem _ L (by
    rw [Rect.mem_set_unit]
    intro hall
    have := hall a
    omega)

/-- A whole-buffer load of held contents is those contents: the adjacency, -/
theorem ldw_adj (arg : Memref sig .tc .vmem S512x512 .i32) (harg : arg.IsWhole) (x : Vec Ideal S512x512 .i32) (inb) :
    View.readAt (Elt Ideal) arg.view (Rect.unit (s := S512x512) ![0, 0] S512x512.size inb).toLoadRect (harg.unread x) = x := by
  funext y
  obtain ⟨s, t, rfl⟩ : ∃ (s t : Fin 512), y = ix2 s t := ⟨y 0, y 1, eq_ix2 y⟩
  rw [View.readAt_eq_ld, harg.read_unread]
  refine congrArg x (funext fun a => Fin.ext ?_)
  show ((Rect.unit (s := S512x512) ![0, 0] S512x512.size inb).emb (ix2 s t) a : ℕ) = _
  rw [Rect.emb_apply]
  match a with
  | ⟨0, _⟩ => exact (by omega : 0 + 1 * s.val = s.val)
  | ⟨1, _⟩ => exact (by omega : 0 + 1 * t.val = t.val)

/-- a 128 x 128 weight array, -/
theorem ldw_w (arg : Memref sig .tc .vmem S128x128 .f32) (harg : arg.IsWhole) (x : Vec Ideal S128x128 .f32) (inb) :
    View.readAt (Elt Ideal) arg.view (Rect.unit (s := S128x128) ![0, 0] S128x128.size inb).toLoadRect (harg.unread x) = x := by
  funext y
  obtain ⟨s, t, rfl⟩ : ∃ (s t : Fin 128), y = ix2 s t := ⟨y 0, y 1, eq_ix2 y⟩
  rw [View.readAt_eq_ld, harg.read_unread]
  refine congrArg x (funext fun a => Fin.ext ?_)
  show ((Rect.unit (s := S128x128) ![0, 0] S128x128.size inb).emb (ix2 s t) a : ℕ) = _
  rw [Rect.emb_apply]
  match a with
  | ⟨0, _⟩ => exact (by omega : 0 + 1 * s.val = s.val)
  | ⟨1, _⟩ => exact (by omega : 0 + 1 * t.val = t.val)

/-- a 4 x 32 array of head vectors. -/
theorem ldw_a (arg : Memref sig .tc .vmem S4x32 .f32) (harg : arg.IsWhole) (x : Vec Ideal S4x32 .f32) (inb) :
    View.readAt (Elt Ideal) arg.view (Rect.unit (s := S4x32) ![0, 0] S4x32.size inb).toLoadRect (harg.unread x) = x := by
  funext y
  obtain ⟨s, t, rfl⟩ : ∃ (s : Fin 4) (t : Fin 32), y = ix2 s t := ⟨y 0, y 1, eq_ix2 y⟩
  rw [View.readAt_eq_ld, harg.read_unread]
  refine congrArg x (funext fun a => Fin.ext ?_)
  show ((Rect.unit (s := S4x32) ![0, 0] S4x32.size inb).emb (ix2 s t) a : ℕ) = _
  rw [Rect.emb_apply]
  match a with
  | ⟨0, _⟩ => exact (by omega : 0 + 1 * s.val = s.val)
  | ⟨1, _⟩ => exact (by omega : 0 + 1 * t.val = t.val)

set_option maxHeartbeats 64000000 in
/-- The output buffer after the last point, index by index. -/
theorem out_last (c : Dev nD) (i : grid0.Coords) (arg1 : Memref sig .tc .vmem S64x512x128 .f32) (harg1 : arg1.IsWhole) (arg2 : Memref sig .tc .vmem S512x512 .i32) (harg2 : arg2.IsWhole) (arg3 : Memref sig .tc .vmem S512x2x128 .f32) (harg3 : arg3.IsWhole) (arg4 : Memref sig .tc .vmem S128x128 .f32) (harg4 : arg4.IsWhole) (arg5 : Memref sig .tc .vmem S128x128 .f32) (harg5 : arg5.IsWhole) (arg6 : Memref sig .tc .vmem S4x1 .f32) (harg6 : arg6.IsWhole) (arg7 : Memref sig .tc .vmem S4x1 .f32) (harg7 : arg7.IsWhole) (arg8 : Memref sig .tc .vmem S128x128 .f32) (harg8 : arg8.IsWhole) (arg9 : Memref sig .tc .vmem S4x32 .f32) (harg9 : arg9.IsWhole) (arg10 : Memref sig .tc .vmem S4x32 .f32) (harg10 : arg10.IsWhole) (arg11 : Memref sig .tc .vmem S128x128 .f32) (harg11 : arg11.IsWhole) (arg12 : Memref sig .tc .vmem S4x32 .f32) (harg12 : arg12.IsWhole) (arg13 : Memref sig .tc .vmem S4x32 .f32) (harg13 : arg13.IsWhole) (arg14 : Memref sig .tc .vmem S512x2x128 .f32) (harg14 : arg14.IsWhole) (arg15 : Memref sig .tc .vmem S4x512x512 .f32) (harg15 : arg15.IsWhole) (arg16 : Memref sig .tc .vmem S2x512x128 .f32) (harg16 : arg16.IsWhole) (arg17 : Memref sig .tc .vmem S512x8 .f32) (harg17 : arg17.IsWhole) (arg18 : Memref sig .tc .vmem S8x512 .f32) (harg18 : arg18.IsWhole) (arg19 : Memref sig .tc .vmem S2x512x128 .f32) (harg19 : arg19.IsWhole) (arg20 : Memref sig .tc .vmem S8x512 .f32) (harg20 : arg20.IsWhole) (hc0 : ¬isFirst i) (hc1 : isLast i)
    (x1 : Vec Ideal S64x512x128 .f32) (x2 : Vec Ideal S512x512 .i32) (x3 : Vec Ideal S512x2x128 .f32) (x4 : Vec Ideal S128x128 .f32) (x5 : Vec Ideal S128x128 .f32) (x6 : Vec Ideal S4x1 .f32) (x7 : Vec Ideal S4x1 .f32) (x8 : Vec Ideal S128x128 .f32) (x9 : Vec Ideal S4x32 .f32) (x10 : Vec Ideal S4x32 .f32) (x11 : Vec Ideal S128x128 .f32) (x12 : Vec Ideal S4x32 .f32) (x13 : Vec Ideal S4x32 .f32) (y15 : Vec Ideal S4x512x512 .f32) (y16 : Vec Ideal S2x512x128 .f32) (y17 : Vec Ideal S512x8 .f32) (y18 : Vec Ideal S8x512 .f32) (y19 : Vec Ideal S2x512x128 .f32) (y20 : Vec Ideal S8x512 .f32)
    (t : Fin 512) (b : Fin 2) (q : Fin 128)
    (hH : ∀ (s : Fin 512) (k : Fin 128), ∃ r : ℝ,
      h2 x11 (o1 (fun b t q => View.canon (namedC (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 hc1 x1 x2 x3 x4 x5 x6 x7 x8 x9 x10 x11 x12 x13 y15 y16 y17 y18 y19 y20).2.2.1 (ix3 b t q)) (fun r t => View.canon (namedC (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 hc1 x1 x2 x3 x4 x5 x6 x7 x8 x9 x10 x11 x12 x13 y15 y16 y17 y18 y19 y20).2.2.2.1 (ix2 r t)) b) s k = (r : EReal))
    (hA : ∀ (h : Fin 4) (s t' : Fin 512), ∃ r : ℝ,
      attn2 x2 (fun h s t => arg15.view.read (Elt Ideal) (arg15.view.writes (Elt Ideal) (harg15.unread y15) (namedC (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 hc1 x1 x2 x3 x4 x5 x6 x7 x8 x9 x10 x11 x12 x13 y15 y16 y17 y18 y19 y20).2.1) (ix3 h s t)) x12 x13
        (h2 x11 (o1 (fun b t q => View.canon (namedC (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 hc1 x1 x2 x3 x4 x5 x6 x7 x8 x9 x10 x11 x12 x13 y15 y16 y17 y18 y19 y20).2.2.1 (ix3 b t q)) (fun r t => View.canon (namedC (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 hc1 x1 x2 x3 x4 x5 x6 x7 x8 x9 x10 x11 x12 x13 y15 y16 y17 y18 y19 y20).2.2.2.1 (ix2 r t)) b)) h s t' = (r : EReal)) :
    View.canon (namedC (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 hc1 x1 x2 x3 x4 x5 x6 x7 x8 x9 x10 x11 x12 x13 y15 y16 y17 y18 y19 y20).1 (ix3 t b q)
      = OUT (fun b t q => View.canon (namedC (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 hc1 x1 x2 x3 x4 x5 x6 x7 x8 x9 x10 x11 x12 x13 y15 y16 y17 y18 y19 y20).2.2.1 (ix3 b t q)) (fun r t => View.canon (namedC (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 hc1 x1 x2 x3 x4 x5 x6 x7 x8 x9 x10 x11 x12 x13 y15 y16 y17 y18 y19 y20).2.2.2.1 (ix2 r t))
          (fun h s t => arg15.view.read (Elt Ideal) (arg15.view.writes (Elt Ideal) (harg15.unread y15) (namedC (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 hc1 x1 x2 x3 x4 x5 x6 x7 x8 x9 x10 x11 x12 x13 y15 y16 y17 y18 y19 y20).2.1) (ix3 h s t))
          x2 x11 x12 x13 t b q := by
  generalize hN : (fun (b : Fin 2) (t : Fin 512) (q : Fin 128) => View.canon (namedC (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 hc1 x1 x2 x3 x4 x5 x6 x7 x8 x9 x10 x11 x12 x13 y15 y16 y17 y18 y19 y20).2.2.1 (ix3 b t q)) = NUM at hH hA ⊢
  generalize hD : (fun (r : Fin 8) (t : Fin 512) => View.canon (namedC (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 hc1 x1 x2 x3 x4 x5 x6 x7 x8 x9 x10 x11 x12 x13 y15 y16 y17 y18 y19 y20).2.2.2.1 (ix2 r t)) = DEN at hH hA ⊢
  generalize hE : (fun (h : Fin 4) (s t : Fin 512) => arg15.view.read (Elt Ideal) (arg15.view.writes (Elt Ideal) (harg15.unread y15) (namedC (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 hc1 x1 x2 x3 x4 x5 x6 x7 x8 x9 x10 x11 x12 x13 y15 y16 y17 y18 y19 y20).2.1) (ix3 h s t)) = ES at hH hA ⊢
  match b, hH, hA with
  | ⟨0, _⟩, hH, hA =>
    unfold namedC
    dsimp only
    sl_unfold_words
    refine (canon_off_axis _ _ _ _ (⟨1, by decide⟩ : Fin S512x2x128.rank) (Or.inl ?_)).trans ?_
    · show 0 < 1
      omega
    have e : (ix3 t (⟨0, by decide⟩ : Fin 2) q : S512x2x128.Idx)
        = (Rect.unit (s := S512x2x128) ![0, 0, 0] S512x1x128.size inb_S512x2x128_S512x1x128_0_0_0).emb (ix3 t (0 : Fin 1) q) :=
      funext fun a => Fin.ext (by
        rw [Rect.emb_apply]
        match a with
        | ⟨0, _⟩ => exact (by omega : t.val = 0 + 1 * t.val)
        | ⟨1, _⟩ => exact (by omega : 0 = 0 + 1 * 0)
        | ⟨2, _⟩ => exact (by omega : q.val = 0 + 1 * q.val))
    refine (congrArg (View.canon _) e).trans ?_
    refine (View.canon_cons_emb _ _ _ _).trans ?_
    refine (chainA _ _ _ _ _ _ _ _ _ _ _ _ _ NUM DEN ES ?hden ?hn ?he t (0 : Fin 1) q ?hH' ?hA').trans ?_
    case hden =>
      intro r t''
      refine Eq.trans ?_ (congrFun (congrFun hD r) t'')
      refine (congrFun (View.readCov_eq_canon' _ _ _) _).trans ?_
      refine congrArg (View.canon _) ?_
      exact (funext fun a => Fin.ext (by
          match a with
          | ⟨0, _⟩ => exact (by omega : 0 + 1 * r.val = r.val)
          | ⟨1, _⟩ => exact (by omega : 0 + 1 * t''.val = t''.val)))
    case hn =>
      intro h p d
      match h with
      | ⟨0, _⟩ =>
        refine Eq.trans ?_ (congrFun (congrFun (congrFun hN (⟨0, by decide⟩ : Fin 2)) p) (Cert.Spec.DenseGat.feat ⟨0, by decide⟩ d))
        refine (congrFun (View.readCov_eq_canon' _ _ _) _).trans ?_
        refine congrArg (View.canon _) ?_
        exact (funext fun a => Fin.ext (by
          match a with
          | ⟨0, _⟩ => exact (by omega : 0 + 1 * 0 = 0)
          | ⟨1, _⟩ => exact (by omega : 0 + 1 * p.val = p.val)
          | ⟨2, _⟩ => exact (by omega : 0 + 1 * d.val = 32 * 0 + d.val)))
      | ⟨1, _⟩ =>
        refine Eq.trans ?_ (congrFun (congrFun (congrFun hN (⟨0, by decide⟩ : Fin 2)) p) (Cert.Spec.DenseGat.feat ⟨1, by decide⟩ d))
        refine (congrFun (View.readCov_eq_canon' _ _ _) _).trans ?_
        refine congrArg (View.canon _) ?_
        exact (funext fun a => Fin.ext (by
          match a with
          | ⟨0, _⟩ => exact (by omega : 0 + 1 * 0 = 0)
          | ⟨1, _⟩ => exact (by omega : 0 + 1 * p.val = p.val)
          | ⟨2, _⟩ => exact (by omega : 32 + 1 * d.val = 32 * 1 + d.val)))
      | ⟨2, _⟩ =>
        refine Eq.trans ?_ (congrFun (congrFun (congrFun hN (⟨0, by decide⟩ : Fin 2)) p) (Cert.Spec.DenseGat.feat ⟨2, by decide⟩ d))
        refine (congrFun (View.readCov_eq_canon' _ _ _) _).trans ?_
        refine congrArg (View.canon _) ?_
        exact (funext fun a => Fin.ext (by
          match a with
          | ⟨0, _⟩ => exact (by omega : 0 + 1 * 0 = 0)
          | ⟨1, _⟩ => exact (by omega : 0 + 1 * p.val = p.val)
          | ⟨2, _⟩ => exact (by omega : 64 + 1 * d.val = 32 * 2 + d.val)))
      | ⟨3, _⟩ =>
        refine Eq.trans ?_ (congrFun (congrFun (congrFun hN (⟨0, by decide⟩ : Fin 2)) p) (Cert.Spec.DenseGat.feat ⟨3, by decide⟩ d))
        refine (congrFun (View.readCov_eq_canon' _ _ _) _).trans ?_
        refine congrArg (View.canon _) ?_
        exact (funext fun a => Fin.ext (by
          match a with
          | ⟨0, _⟩ => exact (by omega : 0 + 1 * 0 = 0)
          | ⟨1, _⟩ => exact (by omega : 0 + 1 * p.val = p.val)
          | ⟨2, _⟩ => exact (by omega : 96 + 1 * d.val = 32 * 3 + d.val)))
    case he =>
      intro h s t''
      match h with
      | ⟨0, _⟩ =>
        refine Eq.trans ?_ (congrFun (congrFun (congrFun hE (⟨0, by decide⟩ : Fin 4)) s) t'')
        refine congrArg (arg15.view.read (Elt Ideal) _) ?_
        exact (funext fun a => Fin.ext (by
          match a with
          | ⟨0, _⟩ => exact (by omega : 0 + 1 * 0 = 0)
          | ⟨1, _⟩ => exact (by omega : 0 + 1 * s.val = s.val)
          | ⟨2, _⟩ => exact (by omega : 0 + 1 * t''.val = t''.val)))
      | ⟨1, _⟩ =>
        refine Eq.trans ?_ (congrFun (congrFun (congrFun hE (⟨1, by decide⟩ : Fin 4)) s) t'')
        refine congrArg (arg15.view.read (Elt Ideal) _) ?_
        exact (funext fun a => Fin.ext (by
          match a with
          | ⟨0, _⟩ => exact (by omega : 1 + 1 * 0 = 1)
          | ⟨1, _⟩ => exact (by omega : 0 + 1 * s.val = s.val)
          | ⟨2, _⟩ => exact (by omega : 0 + 1 * t''.val = t''.val)))
      | ⟨2, _⟩ =>
        refine Eq.trans ?_ (congrFun (congrFun (congrFun hE (⟨2, by decide⟩ : Fin 4)) s) t'')
        refine congrArg (arg15.view.read (Elt Ideal) _) ?_
        exact (funext fun a => Fin.ext (by
          match a with
          | ⟨0, _⟩ => exact (by omega : 2 + 1 * 0 = 2)
          | ⟨1, _⟩ => exact (by omega : 0 + 1 * s.val = s.val)
          | ⟨2, _⟩ => exact (by omega : 0 + 1 * t''.val = t''.val)))
      | ⟨3, _⟩ =>
        refine Eq.trans ?_ (congrFun (congrFun (congrFun hE (⟨3, by decide⟩ : Fin 4)) s) t'')
        refine congrArg (arg15.view.read (Elt Ideal) _) ?_
        exact (funext fun a => Fin.ext (by
          match a with
          | ⟨0, _⟩ => exact (by omega : 3 + 1 * 0 = 3)
          | ⟨1, _⟩ => exact (by omega : 0 + 1 * s.val = s.val)
          | ⟨2, _⟩ => exact (by omega : 0 + 1 * t''.val = t''.val)))
    case hH' =>
      intro s k
      rw [ldw_w arg11 harg11 x11]
      exact hH s k
    case hA' =>
      intro h s t''
      rw [ldw_adj arg2 harg2 x2, ldw_w arg11 harg11 x11, ldw_a arg12 harg12 x12, ldw_a arg13 harg13 x13]
      exact hA h s t''
    rw [ldw_adj arg2 harg2 x2, ldw_w arg11 harg11 x11, ldw_a arg12 harg12 x12, ldw_a arg13 harg13 x13]
    rfl
  | ⟨1, _⟩, hH, hA =>
    unfold namedC
    dsimp only
    sl_unfold_words
    have e : (ix3 t (⟨1, by decide⟩ : Fin 2) q : S512x2x128.Idx)
        = (Rect.unit (s := S512x2x128) ![0, 1, 0] S512x1x128.size inb_S512x2x128_S512x1x128_0_1_0).emb (ix3 t (0 : Fin 1) q) :=
      funext fun a => Fin.ext (by
        rw [Rect.emb_apply]
        match a with
        | ⟨0, _⟩ => exact (by omega : t.val = 0 + 1 * t.val)
        | ⟨1, _⟩ => exact (by omega : 1 = 1 + 1 * 0)
        | ⟨2, _⟩ => exact (by omega : q.val = 0 + 1 * q.val))
    refine (congrArg (View.canon _) e).trans ?_
    refine (View.canon_cons_emb _ _ _ _).trans ?_
    refine (chainB _ _ _ _ _ _ _ _ _ _ _ _ _ NUM DEN ES ?hden ?hn ?he t (0 : Fin 1) q ?hH' ?hA').trans ?_
    case hden =>
      intro r t''
      refine Eq.trans ?_ (congrFun (congrFun hD r) t'')
      refine (congrFun (View.readCov_eq_canon' _ _ _) _).trans ?_
      refine congrArg (View.canon _) ?_
      exact (funext fun a => Fin.ext (by
          match a with
          | ⟨0, _⟩ => exact (by omega : 0 + 1 * r.val = r.val)
          | ⟨1, _⟩ => exact (by omega : 0 + 1 * t''.val = t''.val)))
    case hn =>
      intro h p d
      match h with
      | ⟨0, _⟩ =>
        refine Eq.trans ?_ (congrFun (congrFun (congrFun hN (⟨1, by decide⟩ : Fin 2)) p) (Cert.Spec.DenseGat.feat ⟨0, by decide⟩ d))
        refine (congrFun (View.readCov_eq_canon' _ _ _) _).trans ?_
        refine congrArg (View.canon _) ?_
        exact (funext fun a => Fin.ext (by
          match a with
          | ⟨0, _⟩ => exact (by omega : 1 + 1 * 0 = 1)
          | ⟨1, _⟩ => exact (by omega : 0 + 1 * p.val = p.val)
          | ⟨2, _⟩ => exact (by omega : 0 + 1 * d.val = 32 * 0 + d.val)))
      | ⟨1, _⟩ =>
        refine Eq.trans ?_ (congrFun (congrFun (congrFun hN (⟨1, by decide⟩ : Fin 2)) p) (Cert.Spec.DenseGat.feat ⟨1, by decide⟩ d))
        refine (congrFun (View.readCov_eq_canon' _ _ _) _).trans ?_
        refine congrArg (View.canon _) ?_
        exact (funext fun a => Fin.ext (by
          match a with
          | ⟨0, _⟩ => exact (by omega : 1 + 1 * 0 = 1)
          | ⟨1, _⟩ => exact (by omega : 0 + 1 * p.val = p.val)
          | ⟨2, _⟩ => exact (by omega : 32 + 1 * d.val = 32 * 1 + d.val)))
      | ⟨2, _⟩ =>
        refine Eq.trans ?_ (congrFun (congrFun (congrFun hN (⟨1, by decide⟩ : Fin 2)) p) (Cert.Spec.DenseGat.feat ⟨2, by decide⟩ d))
        refine (congrFun (View.readCov_eq_canon' _ _ _) _).trans ?_
        refine congrArg (View.canon _) ?_
        exact (funext fun a => Fin.ext (by
          match a with
          | ⟨0, _⟩ => exact (by omega : 1 + 1 * 0 = 1)
          | ⟨1, _⟩ => exact (by omega : 0 + 1 * p.val = p.val)
          | ⟨2, _⟩ => exact (by omega : 64 + 1 * d.val = 32 * 2 + d.val)))
      | ⟨3, _⟩ =>
        refine Eq.trans ?_ (congrFun (congrFun (congrFun hN (⟨1, by decide⟩ : Fin 2)) p) (Cert.Spec.DenseGat.feat ⟨3, by decide⟩ d))
        refine (congrFun (View.readCov_eq_canon' _ _ _) _).trans ?_
        refine congrArg (View.canon _) ?_
        exact (funext fun a => Fin.ext (by
          match a with
          | ⟨0, _⟩ => exact (by omega : 1 + 1 * 0 = 1)
          | ⟨1, _⟩ => exact (by omega : 0 + 1 * p.val = p.val)
          | ⟨2, _⟩ => exact (by omega : 96 + 1 * d.val = 32 * 3 + d.val)))
    case he =>
      intro h s t''
      match h with
      | ⟨0, _⟩ =>
        refine Eq.trans ?_ (congrFun (congrFun (congrFun hE (⟨0, by decide⟩ : Fin 4)) s) t'')
        refine congrArg (arg15.view.read (Elt Ideal) _) ?_
        exact (funext fun a => Fin.ext (by
          match a with
          | ⟨0, _⟩ => exact (by omega : 0 + 1 * 0 = 0)
          | ⟨1, _⟩ => exact (by omega : 0 + 1 * s.val = s.val)
          | ⟨2, _⟩ => exact (by omega : 0 + 1 * t''.val = t''.val)))
      | ⟨1, _⟩ =>
        refine Eq.trans ?_ (congrFun (congrFun (congrFun hE (⟨1, by decide⟩ : Fin 4)) s) t'')
        refine congrArg (arg15.view.read (Elt Ideal) _) ?_
        exact (funext fun a => Fin.ext (by
          match a with
          | ⟨0, _⟩ => exact (by omega : 1 + 1 * 0 = 1)
          | ⟨1, _⟩ => exact (by omega : 0 + 1 * s.val = s.val)
          | ⟨2, _⟩ => exact (by omega : 0 + 1 * t''.val = t''.val)))
      | ⟨2, _⟩ =>
        refine Eq.trans ?_ (congrFun (congrFun (congrFun hE (⟨2, by decide⟩ : Fin 4)) s) t'')
        refine congrArg (arg15.view.read (Elt Ideal) _) ?_
        exact (funext fun a => Fin.ext (by
          match a with
          | ⟨0, _⟩ => exact (by omega : 2 + 1 * 0 = 2)
          | ⟨1, _⟩ => exact (by omega : 0 + 1 * s.val = s.val)
          | ⟨2, _⟩ => exact (by omega : 0 + 1 * t''.val = t''.val)))
      | ⟨3, _⟩ =>
        refine Eq.trans ?_ (congrFun (congrFun (congrFun hE (⟨3, by decide⟩ : Fin 4)) s) t'')
        refine congrArg (arg15.view.read (Elt Ideal) _) ?_
        exact (funext fun a => Fin.ext (by
          match a with
          | ⟨0, _⟩ => exact (by omega : 3 + 1 * 0 = 3)
          | ⟨1, _⟩ => exact (by omega : 0 + 1 * s.val = s.val)
          | ⟨2, _⟩ => exact (by omega : 0 + 1 * t''.val = t''.val)))
    case hH' =>
      intro s k
      rw [ldw_w arg11 harg11 x11]
      exact hH s k
    case hA' =>
      intro h s t''
      rw [ldw_adj arg2 harg2 x2, ldw_w arg11 harg11 x11, ldw_a arg12 harg12 x12, ldw_a arg13 harg13 x13]
      exact hA h s t''
    rw [ldw_adj arg2 harg2 x2, ldw_w arg11 harg11 x11, ldw_a arg12 harg12 x12, ldw_a arg13 harg13 x13]
    rfl

end Cert.KernelIdeal.Body

end
-- ==== Proof.KernelIdealAlgebraic.lean ====
/-
  Equal results over the extended reals: the kernel's run (the tracked pipeline, the three kinds of grid point, the
  accumulated formulation brought to the shared specification) and the reference's run (a straight line of host
  operations read stage by stage) end, from memories that agree on the arguments, at the same array — the two-layer
  attention network of the arguments — with the arguments unchanged.
-/
import proofs.«169155_g70909910057105_cont_sun_m_1383_19_alg».proof.Proof.KernelIdealPointFacts
import proofs.«169155_g70909910057105_cont_sun_m_1383_19_alg».proof.Proof.KernelIdealFactsLast
import proofs.«169155_g70909910057105_cont_sun_m_1383_19_alg».proof.Proof.KernelIdealLast

set_option maxRecDepth 16384

noncomputable section

namespace Cert.KernelIdeal.Body

open Cert.KernelIdeal Cert.KernelIdeal.Gen
open Idealize.ShloMosaic Idealize.ShloMosaic.TcCoe Idealize.ShloMosaic.ValueIdx
open Idealize.SL Idealize.SL.Sem

/-- What the grid's points do to the buffers, for the launch memory `m` under the precondition. -/
theorem pointFacts (m : (ℓ : Loc nD τ sig) → Buf (Elt Ideal) ℓ) (h : Cert.Pre_KernelIdeal m) (c : Dev nD) :
    PointFacts m c (argsOf m c) (outK m c) :=
  pointFacts_of_last m c (finiteArgs m h c)
    (lastFacts m c (finiteArgs m h c) (fun t h0 h1 y15 n b q =>
      out_last c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t) (ms12 t) (hs12 t) (ms13 t) (hs13 t) scr0 (Memref.isWhole_whole _) scr1 (Memref.isWhole_whole _) scr2 (Memref.isWhole_whole _) scr3 (Memref.isWhole_whole _) scr4 (Memref.isWhole_whole _) scr5 (Memref.isWhole_whole _) h0 h1 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) y15 (h1Buf (argsOf m c)) (ss1Buf (argsOf m c)) (st1Buf (argsOf m c)) (numBuf (argsOf m c) t.val) (denBuf (argsOf m c) t.val) n b q))

/-- The two idealized programs compute the same result. -/
theorem algebraic_proved : Cert.algebraic_KernelIdeal_ReferenceIdeal := algebraic_of pointFacts

end Cert.KernelIdeal.Body

end
-- ==== Proof.lean ====
/-
  Two layers of dense masked multi-head graph attention over all 512 x 512 (source, target) pairs, fused into
  one kernel that walks the source rows in eight blocks of 64, against a plain reference that gathers and
  scatter-adds over the 262144 edges. Five claims:

  * the three programs' frames (each terminates without a fault and leaves its thirteen argument arrays unchanged).
    The two kernel programs' frames need nothing of what the body computes: its thirteen input buffers come back as
    they were, and its output buffer and six scratch buffers come back at some contents (`Body.frame`, one
    symbolic run of the body per kind of grid point: first, middle, last); the reference is a straight line of
    425 host operations, none of which writes an argument (`HostRun.frame`);
  * the idealized kernel is the printed kernel with ten bf16 round trips removed, each the identity over the
    extended reals (`Preserves.preserves`);
  * over the extended reals the idealized kernel and the idealized reference compute the same result array, the
    network of `SpecDenseGat`: on the kernel's side the scratch buffers' contents are tracked point by point (the
    projected features and the per-head scores after the first point, the numerator and denominator sums over the
    first 64 n sources after n points, the layer-2 edge scores on the rows written so far), the last point's
    epilogue is read entry by entry, and the accumulated formulation is brought to the specification — the hi/lo
    operand splits collapse (every low part is zero for finite entries), the rest is regrouping of finite sums and
    x / d against x * (1 / d) with d = denominator + 1e-16 > 0; on the reference's side the host operations are read
    stage by stage at an index (`Body.algebraic_proved`).
-/
import proofs.«169155_g70909910057105_cont_sun_m_1383_19_alg».proof.Defs
import proofs.«169155_g70909910057105_cont_sun_m_1383_19_alg».proof.Proof.Gen.Kernel
import proofs.«169155_g70909910057105_cont_sun_m_1383_19_alg».proof.Proof.Gen.KernelIdeal
import proofs.«169155_g70909910057105_cont_sun_m_1383_19_alg».proof.Proof.Gen.ReferenceIdeal
import proofs.«169155_g70909910057105_cont_sun_m_1383_19_alg».proof.Proof.Gen.Pre_finite_inputs
import proofs.«169155_g70909910057105_cont_sun_m_1383_19_alg».proof.Proof.KernelFrame
import proofs.«169155_g70909910057105_cont_sun_m_1383_19_alg».proof.Proof.KernelIdealFrame
import proofs.«169155_g70909910057105_cont_sun_m_1383_19_alg».proof.Proof.RefFrame
import proofs.«169155_g70909910057105_cont_sun_m_1383_19_alg».proof.Proof.Preserves
import proofs.«169155_g70909910057105_cont_sun_m_1383_19_alg».proof.Proof.KernelIdealAlgebraic
import Idealize.ShloMosaic.Adequacy
import Idealize.ShloMosaic.Init

noncomputable section

namespace Cert.Proof

open Idealize.ShloMosaic Idealize.SL.Sem

attribute [local instance] Cert.Kernel.Gen.facts Cert.KernelIdeal.Gen.facts Cert.ReferenceIdeal.Gen.facts Cert.Pre_finite_inputs.Gen.facts

/-- The printed kernel's frame, at the word-level instance. -/
theorem frame_kernel : Cert.frame_Kernel := fun m ρ _ => Cert.Kernel.Body.frame m ρ

/-- The idealized kernel's frame, over the extended reals. -/
theorem frame_kernel_ideal : Cert.frame_KernelIdeal := fun m ρ _ => Cert.KernelIdeal.Body.frame m ρ

/-- The reference's frame: a straight line of host operations, none of which writes an argument. -/
theorem frame_reference : Cert.frame_ReferenceIdeal := fun m ρ _ => Cert.ReferenceIdeal.HostRun.frame m ρ

/-- Equal results over the extended reals. -/
theorem algebraic : Cert.algebraic_KernelIdeal_ReferenceIdeal := Cert.KernelIdeal.Body.algebraic_proved

theorem claim : Cert.Claim := ⟨Cert.Kernel.Gen.facts, Cert.KernelIdeal.Gen.facts, Cert.ReferenceIdeal.Gen.facts, Cert.Pre_finite_inputs.Gen.facts,
  frame_kernel, frame_kernel_ideal, frame_reference, Cert.Proof.Preserves.preserves, algebraic⟩

end Cert.Proof

end
